-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192 : Shape := ⟨1, ![8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) (main_arg1 : IVec S8192 32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S8192 : Shape := ⟨1, ![8192]⟩
abbrev S1024x512 : Shape := ⟨2, ![1024, 512]⟩
abbrev S1024 : Shape := ⟨1, ![1024]⟩
abbrev S512 : Shape := ⟨1, ![512]⟩
abbrev S1024x1 : Shape := ⟨2, ![1024, 1]⟩
abbrev S1x512 : Shape := ⟨2, ![1, 512]⟩
abbrev S_ : Shape := ⟨0, ![]⟩

abbrev nBuf : Space → Nat
  | .hbm => 30
  | .vmem => 47
  | .smem => 0
  | _ => 0

abbrev bufTy : (tb : Table) → Fin (tcTables nBuf tb) → BufTy
  | .hbm, ⟨0, _⟩ => ⟨S8192x8192, .f32⟩
  | .hbm, ⟨1, _⟩ => ⟨S8192, .i32⟩
  | .hbm, ⟨2, _⟩ => ⟨S8192, .f32⟩
  | .hbm, ⟨3, _⟩ => ⟨S8192, .f32⟩
  | .hbm, ⟨4, _⟩ => ⟨S8192, .f32⟩
  | .hbm, ⟨5, _⟩ => ⟨S8192, .f32⟩
  | .hbm, ⟨6, _⟩ => ⟨S8192, .f32⟩
  | .hbm, ⟨7, _⟩ => ⟨S8192, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .i1⟩
  | .hbm, ⟨17, _⟩ => ⟨S_, .f32⟩
  | .hbm, ⟨18, _⟩ => ⟨S8192, .f32⟩
  | .hbm, ⟨19, _⟩ => ⟨S8192, .i1⟩
  | .hbm, ⟨20, _⟩ => ⟨S8192, .i1⟩
  | .hbm, ⟨21, _⟩ => ⟨S8192, .f32⟩
  | .hbm, ⟨22, _⟩ => ⟨S_, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024, .i32⟩
  | .local _ .vmem, ⟨3, _⟩ => ⟨S1024, .i32⟩
  | .local _ .vmem, ⟨4, _⟩ => ⟨S512, .i32⟩
  | .local _ .vmem, ⟨5, _⟩ => ⟨S512, .i32⟩
  | .local _ .vmem, ⟨6, _⟩ => ⟨S1024, .f32⟩
  | .local _ .vmem, ⟨7, _⟩ => ⟨S1024, .f32⟩
  | .local _ .vmem, ⟨8, _⟩ => ⟨S1024, .f32⟩
  | .local _ .vmem, ⟨9, _⟩ => ⟨S1024, .f32⟩
  | .local _ .vmem, ⟨10, _⟩ => ⟨S8192, .f32⟩
  | .local _ .vmem, ⟨11, _⟩ => ⟨S8192, .f32⟩
  | .local _ .vmem, ⟨12, _⟩ => ⟨S1024, .f32⟩
  | .local _ .vmem, ⟨13, _⟩ => ⟨S1024, .f32⟩
  | .local _ .vmem, ⟨14, _⟩ => ⟨S8192, .f32⟩
  | .local _ .vmem, ⟨15, _⟩ => ⟨S8192, .f32⟩
  | .local _ .vmem, ⟨16, _⟩ => ⟨S1024x512, .f32⟩
  | .local _ .vmem, ⟨17, _⟩ => ⟨S1024x512, .f32⟩
  | .local _ .vmem, ⟨18, _⟩ => ⟨S1024, .i32⟩
  | .local _ .vmem, ⟨19, _⟩ => ⟨S1024, .i32⟩
  | .local _ .vmem, ⟨20, _⟩ => ⟨S512, .i32⟩
  | .local _ .vmem, ⟨21, _⟩ => ⟨S512, .i32⟩
  | .local _ .vmem, ⟨22, _⟩ => ⟨S1024, .f32⟩
  | .local _ .vmem, ⟨23, _⟩ => ⟨S1024, .f32⟩
  | .local _ .vmem, ⟨24, _⟩ => ⟨S1024, .f32⟩
  | .local _ .vmem, ⟨25, _⟩ => ⟨S1024, .f32⟩
  | .local _ .vmem, ⟨26, _⟩ => ⟨S512, .f32⟩
  | .local _ .vmem, ⟨27, _⟩ => ⟨S512, .f32⟩
  | .local _ .vmem, ⟨28, _⟩ => ⟨S512, .f32⟩
  | .local _ .vmem, ⟨29, _⟩ => ⟨S512, .f32⟩
  | .local _ .vmem, ⟨30, _⟩ => ⟨S1024, .f32⟩
  | .local _ .vmem, ⟨31, _⟩ => ⟨S1024, .f32⟩
  | .local _ .vmem, ⟨32, _⟩ => ⟨S1024, .f32⟩
  | .local _ .vmem, ⟨33, _⟩ => ⟨S1024, .f32⟩
  | .local _ .vmem, ⟨34, _⟩ => ⟨S1024, .f32⟩
  | .local _ .vmem, ⟨35, _⟩ => ⟨S1024, .f32⟩
  | .local _ .vmem, ⟨36, _⟩ => ⟨S8192, .f32⟩
  | .local _ .vmem, ⟨37, _⟩ => ⟨S8192, .f32⟩
  | .local _ .vmem, ⟨38, _⟩ => ⟨S8192, .f32⟩
  | .local _ .vmem, ⟨39, _⟩ => ⟨S1024, .f32⟩
  | .local _ .vmem, ⟨40, _⟩ => ⟨S1024, .f32⟩
  | .local _ .vmem, ⟨41, _⟩ => ⟨S1024, .f32⟩
  | .local _ .vmem, ⟨42, _⟩ => ⟨S1024, .f32⟩
  | .local _ .vmem, ⟨43, _⟩ => ⟨S8192, .f32⟩
  | .local _ .vmem, ⟨44, _⟩ => ⟨S8192, .f32⟩
  | .local _ .vmem, ⟨45, _⟩ => ⟨S8192, .f32⟩
  | .local _ .vmem, ⟨46, _⟩ => ⟨S8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc1_stg8_0 : Ref sig .tc := ⟨.vmem, 32, rfl⟩
abbrev cc1_stg8_1 : Ref sig .tc := ⟨.vmem, 33, rfl⟩
abbrev cc1_stg9_0 : Ref sig .tc := ⟨.vmem, 34, rfl⟩
abbrev cc1_stg9_1 : Ref sig .tc := ⟨.vmem, 35, rfl⟩
abbrev cc1_stg10_0 : Ref sig .tc := ⟨.vmem, 36, rfl⟩
abbrev cc1_stg11_0 : Ref sig .tc := ⟨.vmem, 37, rfl⟩
abbrev cc1_stg12_0 : Ref sig .tc := ⟨.vmem, 38, rfl⟩
abbrev cc1_scratch0 : Ref sig .tc := ⟨.vmem, 39, rfl⟩
abbrev cc1_scratch1 : Ref sig .tc := ⟨.vmem, 40, rfl⟩
abbrev cc1_scratch2 : Ref sig .tc := ⟨.vmem, 41, rfl⟩
abbrev cc1_scratch3 : Ref sig .tc := ⟨.vmem, 42, rfl⟩
abbrev cc1_scratch4 : Ref sig .tc := ⟨.vmem, 43, rfl⟩
abbrev cc1_scratch5 : Ref sig .tc := ⟨.vmem, 44, rfl⟩
abbrev cc1_scratch6 : Ref sig .tc := ⟨.vmem, 45, rfl⟩
abbrev cc1_scratch7 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31
abbrev cc1_sem10_0 : DmaSem sig := 32
abbrev cc1_sem11_0 : DmaSem sig := 33
abbrev cc1_sem12_0 : DmaSem sig := 34

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32 : BitVec 32 := 512#32
  let v35 : BitVec 32 := Scalar.muli arg1 c512_i32
  v35
def k0_off1 (i : grid0.Coords) : Fin 1 → Nat :=
  let arg1 : BitVec 32 := BitVec.ofNat 32 (i 1).val
  let c512_i32 : BitVec 32 := 512#32
  let v35 : BitVec 32 := Scalar.muli arg1 c512_i32
  let v36 : BitVec 32 := v35
  let v37 : Index := Scalar.indexCast v36
  ![v37.toNat]
def k0_cond3 (i : grid0.Coords) : BitVec 1 :=
  let arg1 : BitVec 32 := BitVec.ofNat 32 (i 1).val
  let c15_i32 : BitVec 32 := 15#32
  let v51 : BitVec 1 := Scalar.cmpi .eq arg1 c15_i32
  let v52 : BitVec 32 := Scalar.extui v51
  let c0_i32_17 : BitVec 32 := 0#32
  let v53 : BitVec 1 := Scalar.cmpi .ne v52 c0_i32_17
  v53

def k0_cond4 (i : grid0.Coords) : BitVec 1 :=
  let arg0 : BitVec 32 := BitVec.ofNat 32 (i 0).val
  let c7_i32 : BitVec 32 := 7#32
  let v54 : BitVec 1 := Scalar.cmpi .eq arg0 c7_i32
  let arg1 : BitVec 32 := BitVec.ofNat 32 (i 1).val
  let c15_i32_18 : BitVec 32 := 15#32
  let v55 : BitVec 1 := Scalar.cmpi .eq arg1 c15_i32_18
  let v56 : BitVec 1 := Scalar.andi v54 v55
  let v57 : BitVec 32 := Scalar.extui v56
  let c0_i32_19 : BitVec 32 := 0#32
  let v58 : BitVec 1 := Scalar.cmpi .ne v57 c0_i32_19
  v58

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev grid1 : Pipeline.Grid := ⟨2, ![8, 16], ![false, false]⟩

def k1_mult1 (i : grid1.Coords) : BitVec 32 :=
  let arg1 : BitVec 32 := BitVec.ofNat 32 (i 1).val
  let c512_i32 : BitVec 32 := 512#32
  let v123 : BitVec 32 := Scalar.muli arg1 c512_i32
  v123
def k1_off1 (i : grid1.Coords) : Fin 1 → Nat :=
  let arg1 : BitVec 32 := BitVec.ofNat 32 (i 1).val
  let c512_i32 : BitVec 32 := 512#32
  let v123 : BitVec 32 := Scalar.muli arg1 c512_i32
  let v124 : BitVec 32 := v123
  let v125 : Index := Scalar.indexCast v124
  ![v125.toNat]
def k1_cond3 (i : grid1.Coords) : BitVec 1 :=
  let arg1 : BitVec 32 := BitVec.ofNat 32 (i 1).val
  let c15_i32 : BitVec 32 := 15#32
  let v153 : BitVec 1 := Scalar.cmpi .eq arg1 c15_i32
  let v154 : BitVec 32 := Scalar.extui v153
  let c0_i32_51 : BitVec 32 := 0#32
  let v155 : BitVec 1 := Scalar.cmpi .ne v154 c0_i32_51
  v155

def k1_cond4 (i : grid1.Coords) : BitVec 1 :=
  let arg0 : BitVec 32 := BitVec.ofNat 32 (i 0).val
  let c7_i32 : BitVec 32 := 7#32
  let v156 : BitVec 1 := Scalar.cmpi .eq arg0 c7_i32
  let arg1 : BitVec 32 := BitVec.ofNat 32 (i 1).val
  let c15_i32_52 : BitVec 32 := 15#32
  let v157 : BitVec 1 := Scalar.cmpi .eq arg1 c15_i32_52
  let v158 : BitVec 1 := Scalar.andi v156 v157
  let v159 : BitVec 32 := Scalar.extui v158
  let c0_i32_53 : BitVec 32 := 0#32
  let v160 : BitVec 1 := Scalar.cmpi .ne v159 c0_i32_53
  v160

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_7 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_8 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_9 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_10 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_11 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_12 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 1 → Memref sig .tc .vmem S8192 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S8192 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S8192 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

class Facts₀ : Prop where
  inb_S8192_S8192_0 : ∀ a, (![0] : Fin 1 → Nat) a + S8192.size a ≤ S8192.size a
  h_S8192 : 0 < S8192.numel
  shapeCasts_S8192_S8192 : S8192.ShapeCasts S8192
  inb_S1024_S1024_0 : ∀ a, (![0] : Fin 1 → Nat) a + S1024.size a ≤ S1024.size a
  h_S1024 : 0 < S1024.numel
  shapeCasts_S1024_S1024 : S1024.ShapeCasts S1024
  inb_S1024x512_S1024x512_0_0 : ∀ a, (![0, 0] : Fin 2 → Nat) a + S1024x512.size a ≤ S1024x512.size a
  h_S1024x512 : 0 < S1024x512.numel
  inb_S512_S512_0 : ∀ a, (![0] : Fin 1 → Nat) a + S512.size a ≤ S512.size a
  h_S512 : 0 < S512.numel
  shapeCasts_S1024_S1024x1 : S1024.ShapeCasts S1024x1
  shapeCasts_S512_S1x512 : S512.ShapeCasts S1x512
  broadcasts_S1024x1_S1024x512 : S1024x1.Broadcasts S1024x512
  broadcasts_S1x512_S1024x512 : S1x512.Broadcasts S1024x512
  reduces_S1024x512_S1024 : S1024x512.Reduces [1] S1024
  reduces_S1024x512_S512 : S1024x512.Reduces [0] S512
  shapeCasts_S512_S512 : S512.ShapeCasts S512
  natLt_1_32 : 1 < 32
  bcast_S_S8192 : S_.BroadcastsInDim S8192 (![] : Fin 0 → Fin S8192.rank)
  reducesTo_S8192_S_d0 : S8192.ReducesTo [0] S_
  h_S_ : 0 < S_.numel
  hrank0 : 0 < grid0.rank
  k0_mult1_dvd : ∀ i : grid0.Coords, 512 ∣ (k0_mult1 i).toNat
  k0_off1_inb : ∀ i : grid0.Coords, ∀ a, (k0_off1 i) a + S512.size a ≤ S8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x8192.size a
  hwx0_0 : ∀ i : grid0.Coords, EltTy.bits .f32 = 32 ∨ (Rect.block (s := S8192x8192) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S8192.size a
  hwx0_1 : ∀ i : grid0.Coords, EltTy.bits .i32 = 32 ∨ (Rect.block (s := S8192) S1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S8192.size a
  hwx0_2 : ∀ i : grid0.Coords, EltTy.bits .i32 = 32 ∨ (Rect.block (s := S8192) S512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S8192.size a
  hwx0_3 : ∀ i : grid0.Coords, EltTy.bits .f32 = 32 ∨ (Rect.block (s := S8192) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S8192.size a
  hwx0_4 : ∀ i : grid0.Coords, EltTy.bits .f32 = 32 ∨ (Rect.block (s := S8192) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8192.size a ≤ S8192.size a
  hwx0_5 : ∀ i : grid0.Coords, EltTy.bits .f32 = 32 ∨ (Rect.block (s := S8192) S8192.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8192.size a ≤ S8192.size a
  hwx0_6 : ∀ i : grid0.Coords, EltTy.bits .f32 = 32 ∨ (Rect.block (s := S8192) S8192.size (cc0_transform_6 i) (hinb0_6 i)).WholeWords (EltTy.packing .f32)
  hrank1 : 0 < grid1.rank
  k1_mult1_dvd : ∀ i : grid1.Coords, 512 ∣ (k1_mult1 i).toNat
  k1_off1_inb : ∀ i : grid1.Coords, ∀ a, (k1_off1 i) a + S512.size a ≤ S8192.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x8192.size a
  hwx1_0 : ∀ i : grid1.Coords, EltTy.bits .f32 = 32 ∨ (Rect.block (s := S8192x8192) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024.size a ≤ S8192.size a
  hwx1_1 : ∀ i : grid1.Coords, EltTy.bits .i32 = 32 ∨ (Rect.block (s := S8192) S1024.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S8192.size a
  hwx1_2 : ∀ i : grid1.Coords, EltTy.bits .i32 = 32 ∨ (Rect.block (s := S8192) S512.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024.size a ≤ S8192.size a
  hwx1_3 : ∀ i : grid1.Coords, EltTy.bits .f32 = 32 ∨ (Rect.block (s := S8192) S1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S8192.size a
  hwx1_4 : ∀ i : grid1.Coords, EltTy.bits .f32 = 32 ∨ (Rect.block (s := S8192) S1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512.size a ≤ S8192.size a
  hwx1_5 : ∀ i : grid1.Coords, EltTy.bits .f32 = 32 ∨ (Rect.block (s := S8192) S512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512.size a ≤ S8192.size a
  hwx1_6 : ∀ i : grid1.Coords, EltTy.bits .f32 = 32 ∨ (Rect.block (s := S8192) S512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024.size a ≤ S8192.size a
  hwx1_7 : ∀ i : grid1.Coords, EltTy.bits .f32 = 32 ∨ (Rect.block (s := S8192) S1024.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1024.size a ≤ S8192.size a
  hwx1_8 : ∀ i : grid1.Coords, EltTy.bits .f32 = 32 ∨ (Rect.block (s := S8192) S1024.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1024.size a ≤ S8192.size a
  hwx1_9 : ∀ i : grid1.Coords, EltTy.bits .f32 = 32 ∨ (Rect.block (s := S8192) S1024.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S8192.size a ≤ S8192.size a
  hwx1_10 : ∀ i : grid1.Coords, EltTy.bits .f32 = 32 ∨ (Rect.block (s := S8192) S8192.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S8192.size a ≤ S8192.size a
  hwx1_11 : ∀ i : grid1.Coords, EltTy.bits .f32 = 32 ∨ (Rect.block (s := S8192) S8192.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S8192.size a ≤ S8192.size a
  hwx1_12 : ∀ i : grid1.Coords, EltTy.bits .f32 = 32 ∨ (Rect.block (s := S8192) S8192.size (cc1_transform_12 i) (hinb1_12 i)).WholeWords (EltTy.packing .f32)

variable [Facts₀]

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S8192.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_3) S8192.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun i => !(k0_cond3 i == 1#1) | 4 => fun i => !(k0_cond3 i == 1#1) | 5 => fun i => !(k0_cond4 i == 1#1) | 6 => fun i => !(k0_cond4 i == 1#1) | ⟨_ + 7, h⟩ => absurd h (Nat.not_lt.2 (Nat.le_add_left _ _))

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_0) S1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0_1) S1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v0_2) S512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v0_3) S512.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v1_0) S1024.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v1_1) S1024.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v1_2) S1024.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v1_3) S8192.size cc1_transform_10 reads1_10 true true 1 stage1_10 sem1_10
    hrank1 hreads1_10 hinb1_10 nbuf1_10 (Memref.isWhole_whole _) hwx1_10 hstage1_10

abbrev win1_11 : Pipeline.Window sig grid1 :=
  Pipeline.Window.ofSpec (Memref.whole main_v1_4) S8192.size cc1_transform_11 reads1_11 true true 1 stage1_11 sem1_11
    hrank1 hreads1_11 hinb1_11 nbuf1_11 (Memref.isWhole_whole _) hwx1_11 hstage1_11

abbrev win1_12 : Pipeline.Window sig grid1 :=
  Pipeline.Window.ofSpec (Memref.whole main_v1_5) S8192.size cc1_transform_12 reads1_12 true true 1 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev idle1 : Fin 13 → grid1.Coords → Bool := fun | 0 => fun _ => false | 1 => fun _ => false | 2 => fun _ => false | 3 => fun _ => false | 4 => fun _ => false | 5 => fun _ => false | 6 => fun _ => false | 7 => fun i => !(k1_cond3 i == 1#1) | 8 => fun i => !(k1_cond3 i == 1#1) | 9 => fun i => !(k1_cond3 i == 1#1) | 10 => fun i => !(k1_cond4 i == 1#1) | 11 => fun i => !(k1_cond4 i == 1#1) | 12 => fun i => !(k1_cond4 i == 1#1) | ⟨_ + 13, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192 : Shape := ⟨1, ![8192]⟩
abbrev S8192x1 : Shape := ⟨2, ![8192, 1]⟩
abbrev S1x8192 : Shape := ⟨2, ![1, 8192]⟩
abbrev S_ : Shape := ⟨0, ![]⟩

abbrev nBuf : Space → Nat
  | .hbm => 176
  | .vmem => 0
  | .smem => 0
  | _ => 0

abbrev hbmTy0_0 (i : Nat) : BufTy := match i % 128 with
  | 0 => ⟨S8192x8192, .f32⟩
  | 1 => ⟨S8192, .i32⟩
  | 2 => ⟨S8192x1, .i32⟩
  | 3 => ⟨S1x8192, .i32⟩
  | 4 => ⟨S8192x8192, .i32⟩
  | 5 => ⟨S8192x8192, .i32⟩
  | 6 => ⟨S8192x8192, .i1⟩
  | 7 => ⟨S8192x8192, .i1⟩
  | 8 => ⟨S_, .f32⟩
  | 9 => ⟨S8192x8192, .f32⟩
  | 10 => ⟨S8192x8192, .f32⟩
  | 11 => ⟨S_, .f32⟩
  | 12 => ⟨S8192, .f32⟩
  | 13 => ⟨S_, .f32⟩
  | 14 => ⟨S8192x8192, .f32⟩
  | 15 => ⟨S8192x8192, .f32⟩
  | 16 => ⟨S_, .f32⟩
  | 17 => ⟨S8192, .f32⟩
  | 18 => ⟨S_, .f32⟩
  | 19 => ⟨S8192, .f32⟩
  | 20 => ⟨S8192, .f32⟩
  | 21 => ⟨S8192x1, .f32⟩
  | 22 => ⟨S8192x8192, .f32⟩
  | 23 => ⟨S8192x8192, .i1⟩
  | 24 => ⟨S8192x8192, .i1⟩
  | 25 => ⟨S_, .f32⟩
  | 26 => ⟨S8192, .f32⟩
  | 27 => ⟨S8192, .f32⟩
  | 28 => ⟨S8192x1, .f32⟩
  | 29 => ⟨S8192x8192, .f32⟩
  | 30 => ⟨S8192x8192, .i1⟩
  | 31 => ⟨S8192x8192, .i1⟩
  | 32 => ⟨S_, .f32⟩
  | 33 => ⟨S8192x8192, .f32⟩
  | 34 => ⟨S8192x8192, .f32⟩
  | 35 => ⟨S_, .f32⟩
  | 36 => ⟨S8192x8192, .f32⟩
  | 37 => ⟨S8192x8192, .f32⟩
  | 38 => ⟨S8192x8192, .f32⟩
  | 39 => ⟨S_, .f32⟩
  | 40 => ⟨S_, .f32⟩
  | 41 => ⟨S8192x8192, .f32⟩
  | 42 => ⟨S8192x8192, .f32⟩
  | 43 => ⟨S_, .f32⟩
  | 44 => ⟨S8192, .f32⟩
  | 45 => ⟨S_, .f32⟩
  | 46 => ⟨S8192x8192, .f32⟩
  | 47 => ⟨S8192x8192, .f32⟩
  | 48 => ⟨S_, .f32⟩
  | 49 => ⟨S8192x8192, .f32⟩
  | 50 => ⟨S8192x8192, .f32⟩
  | 51 => ⟨S8192x8192, .f32⟩
  | 52 => ⟨S_, .f32⟩
  | 53 => ⟨S_, .f32⟩
  | 54 => ⟨S8192x8192, .f32⟩
  | 55 => ⟨S8192x8192, .f32⟩
  | 56 => ⟨S_, .f32⟩
  | 57 => ⟨S8192, .f32⟩
  | 58 => ⟨S_, .f32⟩
  | 59 => ⟨S8192, .f32⟩
  | 60 => ⟨S8192, .i1⟩
  | 61 => ⟨S_, .f32⟩
  | 62 => ⟨S_, .f32⟩
  | 63 => ⟨S8192, .f32⟩
  | 64 => ⟨S8192, .f32⟩
  | 65 => ⟨S8192, .f32⟩
  | 66 => ⟨S_, .f32⟩
  | 67 => ⟨S8192, .f32⟩
  | 68 => ⟨S8192, .f32⟩
  | 69 => ⟨S_, .f32⟩
  | 70 => ⟨S8192, .f32⟩
  | 71 => ⟨S8192, .i1⟩
  | 72 => ⟨S_, .f32⟩
  | 73 => ⟨S_, .f32⟩
  | 74 => ⟨S8192, .f32⟩
  | 75 => ⟨S8192, .f32⟩
  | 76 => ⟨S8192, .f32⟩
  | 77 => ⟨S_, .f32⟩
  | 78 => ⟨S8192, .f32⟩
  | 79 => ⟨S8192, .f32⟩
  | 80 => ⟨S_, .i1⟩
  | 81 => ⟨S8192, .i1⟩
  | 82 => ⟨S_, .i1⟩
  | 83 => ⟨S8192, .i1⟩
  | 84 => ⟨S8192, .i1⟩
  | 85 => ⟨S8192, .f32⟩
  | 86 => ⟨S8192x8192, .f32⟩
  | 87 => ⟨S8192x8192, .i1⟩
  | 88 => ⟨S_, .f32⟩
  | 89 => ⟨S8192x8192, .f32⟩
  | 90 => ⟨S8192x8192, .f32⟩
  | 91 => ⟨S_, .f32⟩
  | 92 => ⟨S8192, .f32⟩
  | 93 => ⟨S_, .f32⟩
  | 94 => ⟨S8192x8192, .f32⟩
  | 95 => ⟨S8192x8192, .f32⟩
  | 96 => ⟨S_, .f32⟩
  | 97 => ⟨S8192, .f32⟩
  | 98 => ⟨S_, .f32⟩
  | 99 => ⟨S8192, .f32⟩
  | 100 => ⟨S8192, .f32⟩
  | 101 => ⟨S8192x1, .f32⟩
  | 102 => ⟨S8192x8192, .f32⟩
  | 103 => ⟨S8192x8192, .i1⟩
  | 104 => ⟨S8192x8192, .i1⟩
  | 105 => ⟨S_, .f32⟩
  | 106 => ⟨S8192, .f32⟩
  | 107 => ⟨S8192, .f32⟩
  | 108 => ⟨S8192x1, .f32⟩
  | 109 => ⟨S8192x8192, .f32⟩
  | 110 => ⟨S8192x8192, .i1⟩
  | 111 => ⟨S8192x8192, .i1⟩
  | 112 => ⟨S_, .f32⟩
  | 113 => ⟨S8192x8192, .f32⟩
  | 114 => ⟨S8192x8192, .f32⟩
  | 115 => ⟨S_, .f32⟩
  | 116 => ⟨S8192x8192, .f32⟩
  | 117 => ⟨S8192x8192, .f32⟩
  | 118 => ⟨S8192x8192, .f32⟩
  | 119 => ⟨S_, .f32⟩
  | 120 => ⟨S_, .f32⟩
  | 121 => ⟨S8192x8192, .f32⟩
  | 122 => ⟨S8192x8192, .f32⟩
  | 123 => ⟨S_, .f32⟩
  | 124 => ⟨S8192, .f32⟩
  | 125 => ⟨S_, .f32⟩
  | 126 => ⟨S8192x8192, .f32⟩
  | 127 => ⟨S8192x8192, .f32⟩
  | _ => ⟨S8192x8192, .f32⟩

abbrev hbmTy0_1 (i : Nat) : BufTy := match i % 128 with
  | 0 => ⟨S_, .f32⟩
  | 1 => ⟨S8192x8192, .f32⟩
  | 2 => ⟨S8192x8192, .f32⟩
  | 3 => ⟨S8192x8192, .f32⟩
  | 4 => ⟨S_, .f32⟩
  | 5 => ⟨S_, .f32⟩
  | 6 => ⟨S8192x8192, .f32⟩
  | 7 => ⟨S8192x8192, .f32⟩
  | 8 => ⟨S_, .f32⟩
  | 9 => ⟨S8192, .f32⟩
  | 10 => ⟨S_, .f32⟩
  | 11 => ⟨S8192, .f32⟩
  | 12 => ⟨S8192, .i1⟩
  | 13 => ⟨S_, .f32⟩
  | 14 => ⟨S_, .f32⟩
  | 15 => ⟨S8192, .f32⟩
  | 16 => ⟨S8192, .f32⟩
  | 17 => ⟨S8192, .f32⟩
  | 18 => ⟨S_, .f32⟩
  | 19 => ⟨S8192, .f32⟩
  | 20 => ⟨S8192, .f32⟩
  | 21 => ⟨S_, .f32⟩
  | 22 => ⟨S8192, .f32⟩
  | 23 => ⟨S8192, .i1⟩
  | 24 => ⟨S_, .f32⟩
  | 25 => ⟨S_, .f32⟩
  | 26 => ⟨S8192, .f32⟩
  | 27 => ⟨S8192, .f32⟩
  | 28 => ⟨S8192, .f32⟩
  | 29 => ⟨S_, .f32⟩
  | 30 => ⟨S8192, .f32⟩
  | 31 => ⟨S8192, .f32⟩
  | 32 => ⟨S_, .i1⟩
  | 33 => ⟨S8192, .i1⟩
  | 34 => ⟨S_, .i1⟩
  | 35 => ⟨S8192, .i1⟩
  | 36 => ⟨S8192, .i1⟩
  | 37 => ⟨S8192, .f32⟩
  | 38 => ⟨S8192, .i1⟩
  | 39 => ⟨S8192, .f32⟩
  | 40 => ⟨S_, .f32⟩
  | 41 => ⟨S_, .f32⟩
  | 42 => ⟨S8192, .f32⟩
  | 43 => ⟨S8192, .f32⟩
  | 44 => ⟨S_, .f32⟩
  | 45 => ⟨S_, .f32⟩
  | 46 => ⟨S_, .f32⟩
  | 47 => ⟨S_, .f32⟩
  | _ => ⟨S8192x8192, .f32⟩

abbrev hbmTy (i : Nat) : BufTy := match i / 128 with
  | 0 => hbmTy0_0 i
  | 1 => hbmTy0_1 i
  | _ => ⟨S8192x8192, .f32⟩

abbrev bufTy : (tb : Table) → Fin (tcTables nBuf tb) → BufTy
  | .hbm, ⟨i, _⟩ => hbmTy i
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_call0_v0 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_call1_v0 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_call2_v0 : Ref sig .tc := ⟨.hbm, 40, rfl⟩
abbrev main_call2_v1 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_cst_9 : Ref sig .tc := ⟨.hbm, 45, rfl⟩
abbrev main_v29 : Ref sig .tc := ⟨.hbm, 46, rfl⟩
abbrev main_v30 : Ref sig .tc := ⟨.hbm, 47, rfl⟩
abbrev main_cst_10 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_11 : Ref sig .tc := ⟨.hbm, 52, rfl⟩
abbrev main_call3_v0 : Ref sig .tc := ⟨.hbm, 53, rfl⟩
abbrev main_call3_v1 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_cst_13 : Ref sig .tc := ⟨.hbm, 58, rfl⟩
abbrev main_v36 : Ref sig .tc := ⟨.hbm, 59, rfl⟩
abbrev main_v37 : Ref sig .tc := ⟨.hbm, 60, rfl⟩
abbrev main_cst_14 : Ref sig .tc := ⟨.hbm, 61, rfl⟩
abbrev main_call4_v0 : Ref sig .tc := ⟨.hbm, 62, rfl⟩
abbrev main_call4_v1 : Ref sig .tc := ⟨.hbm, 63, rfl⟩
abbrev main_v38 : Ref sig .tc := ⟨.hbm, 64, rfl⟩
abbrev main_v39 : Ref sig .tc := ⟨.hbm, 65, rfl⟩
abbrev main_cst_15 : Ref sig .tc := ⟨.hbm, 66, rfl⟩
abbrev main_v40 : Ref sig .tc := ⟨.hbm, 67, rfl⟩
abbrev main_v41 : Ref sig .tc := ⟨.hbm, 68, rfl⟩
abbrev main_cst_16 : Ref sig .tc := ⟨.hbm, 69, rfl⟩
abbrev main_v42 : Ref sig .tc := ⟨.hbm, 70, rfl⟩
abbrev main_v43 : Ref sig .tc := ⟨.hbm, 71, rfl⟩
abbrev main_cst_17 : Ref sig .tc := ⟨.hbm, 72, rfl⟩
abbrev main_call5_v0 : Ref sig .tc := ⟨.hbm, 73, rfl⟩
abbrev main_call5_v1 : Ref sig .tc := ⟨.hbm, 74, rfl⟩
abbrev main_v44 : Ref sig .tc := ⟨.hbm, 75, rfl⟩
abbrev main_v45 : Ref sig .tc := ⟨.hbm, 76, rfl⟩
abbrev main_cst_18 : Ref sig .tc := ⟨.hbm, 77, rfl⟩
abbrev main_v46 : Ref sig .tc := ⟨.hbm, 78, rfl⟩
abbrev main_v47 : Ref sig .tc := ⟨.hbm, 79, rfl⟩
abbrev main_c : Ref sig .tc := ⟨.hbm, 80, rfl⟩
abbrev main_v48 : Ref sig .tc := ⟨.hbm, 81, rfl⟩
abbrev main_c_19 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_20 : Ref sig .tc := ⟨.hbm, 88, rfl⟩
abbrev main_call6_v0 : Ref sig .tc := ⟨.hbm, 89, rfl⟩
abbrev main_v54 : Ref sig .tc := ⟨.hbm, 90, rfl⟩
abbrev main_cst_21 : Ref sig .tc := ⟨.hbm, 91, rfl⟩
abbrev main_v55 : Ref sig .tc := ⟨.hbm, 92, rfl⟩
abbrev main_cst_22 : Ref sig .tc := ⟨.hbm, 93, rfl⟩
abbrev main_call7_v0 : Ref sig .tc := ⟨.hbm, 94, rfl⟩
abbrev main_v56 : Ref sig .tc := ⟨.hbm, 95, rfl⟩
abbrev main_cst_23 : Ref sig .tc := ⟨.hbm, 96, rfl⟩
abbrev main_v57 : Ref sig .tc := ⟨.hbm, 97, rfl⟩
abbrev main_cst_24 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_25 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_26 : Ref sig .tc := ⟨.hbm, 112, rfl⟩
abbrev main_v70 : Ref sig .tc := ⟨.hbm, 113, rfl⟩
abbrev main_v71 : Ref sig .tc := ⟨.hbm, 114, rfl⟩
abbrev main_cst_27 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_cst_28 : Ref sig .tc := ⟨.hbm, 119, rfl⟩
abbrev main_call8_v0 : Ref sig .tc := ⟨.hbm, 120, rfl⟩
abbrev main_call8_v1 : Ref sig .tc := ⟨.hbm, 121, rfl⟩
abbrev main_v75 : Ref sig .tc := ⟨.hbm, 122, rfl⟩
abbrev main_cst_29 : Ref sig .tc := ⟨.hbm, 123, rfl⟩
abbrev main_v76 : Ref sig .tc := ⟨.hbm, 124, rfl⟩
abbrev main_cst_30 : Ref sig .tc := ⟨.hbm, 125, rfl⟩
abbrev main_v77 : Ref sig .tc := ⟨.hbm, 126, rfl⟩
abbrev main_v78 : Ref sig .tc := ⟨.hbm, 127, rfl⟩
abbrev main_cst_31 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_cst_32 : Ref sig .tc := ⟨.hbm, 132, rfl⟩
abbrev main_call9_v0 : Ref sig .tc := ⟨.hbm, 133, rfl⟩
abbrev main_call9_v1 : Ref sig .tc := ⟨.hbm, 134, rfl⟩
abbrev main_v82 : Ref sig .tc := ⟨.hbm, 135, rfl⟩
abbrev main_cst_33 : Ref sig .tc := ⟨.hbm, 136, rfl⟩
abbrev main_v83 : Ref sig .tc := ⟨.hbm, 137, rfl⟩
abbrev main_cst_34 : Ref sig .tc := ⟨.hbm, 138, rfl⟩
abbrev main_v84 : Ref sig .tc := ⟨.hbm, 139, rfl⟩
abbrev main_v85 : Ref sig .tc := ⟨.hbm, 140, rfl⟩
abbrev main_cst_35 : Ref sig .tc := ⟨.hbm, 141, rfl⟩
abbrev main_call10_v0 : Ref sig .tc := ⟨.hbm, 142, rfl⟩
abbrev main_call10_v1 : Ref sig .tc := ⟨.hbm, 143, rfl⟩
abbrev main_v86 : Ref sig .tc := ⟨.hbm, 144, rfl⟩
abbrev main_v87 : Ref sig .tc := ⟨.hbm, 145, rfl⟩
abbrev main_cst_36 : Ref sig .tc := ⟨.hbm, 146, rfl⟩
abbrev main_v88 : Ref sig .tc := ⟨.hbm, 147, rfl⟩
abbrev main_v89 : Ref sig .tc := ⟨.hbm, 148, rfl⟩
abbrev main_cst_37 : Ref sig .tc := ⟨.hbm, 149, rfl⟩
abbrev main_v90 : Ref sig .tc := ⟨.hbm, 150, rfl⟩
abbrev main_v91 : Ref sig .tc := ⟨.hbm, 151, rfl⟩
abbrev main_cst_38 : Ref sig .tc := ⟨.hbm, 152, rfl⟩
abbrev main_call11_v0 : Ref sig .tc := ⟨.hbm, 153, rfl⟩
abbrev main_call11_v1 : Ref sig .tc := ⟨.hbm, 154, rfl⟩
abbrev main_v92 : Ref sig .tc := ⟨.hbm, 155, rfl⟩
abbrev main_v93 : Ref sig .tc := ⟨.hbm, 156, rfl⟩
abbrev main_cst_39 : Ref sig .tc := ⟨.hbm, 157, rfl⟩
abbrev main_v94 : Ref sig .tc := ⟨.hbm, 158, rfl⟩
abbrev main_v95 : Ref sig .tc := ⟨.hbm, 159, rfl⟩
abbrev main_c_40 : Ref sig .tc := ⟨.hbm, 160, rfl⟩
abbrev main_v96 : Ref sig .tc := ⟨.hbm, 161, rfl⟩
abbrev main_c_41 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_cst_42 : Ref sig .tc := ⟨.hbm, 168, rfl⟩
abbrev main_call12_v0 : Ref sig .tc := ⟨.hbm, 169, rfl⟩
abbrev main_call12_v1 : Ref sig .tc := ⟨.hbm, 170, rfl⟩
abbrev main_v102 : Ref sig .tc := ⟨.hbm, 171, rfl⟩
abbrev main_cst_43 : Ref sig .tc := ⟨.hbm, 172, rfl⟩
abbrev main_v103 : Ref sig .tc := ⟨.hbm, 173, rfl⟩
abbrev main_cst_44 : Ref sig .tc := ⟨.hbm, 174, rfl⟩
abbrev main_v104 : Ref sig .tc := ⟨.hbm, 175, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  transposes_S8192x8192_S8192x8192_1_0 : S8192x8192.Transposes [1, 0] S8192x8192
  reducesTo_S8192_S_d0 : S8192.ReducesTo [0] S_

variable [Facts₀]

class Facts : Prop extends Facts₀ where

variable [Facts]
-- ==== Proof.AsmShare.lean ====
/- The share split of the array two windows stage. In both pipelines windows 1 and 2 stage the SAME array
   (the targets vector), so the windows' arrays are not distinct buffers: the proof data hold that array at the left
   half share for window 1 and at the right half share for window 2, and every other array at the full share. This
   module shows that the pipeline's `arrays` conjunction (one conjunct per WINDOW) is the conjunction of the DISTINCT
   buffers behind the arrays, each whole at the full share (`Pipeline.arrBufs`), in both directions. -/
import proofs.«170005_j69870527971928_1_alg».proof.Proof.Gen.KernelIdeal.Regions
import Idealize.ShloMosaic.Lib.Pipeline.RegionsLoop
import Idealize.ShloMosaic.Lib.Pipeline.FrameSuffix

noncomputable section

namespace Cert.KernelIdeal.Asm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

/-! ## Pipeline 0 (7 windows over 6 buffers) -/

/-- The distinct buffers behind the arrays of pipeline 0's windows, one by one. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_arg1) ↦{fullShare} V main_arg1) ∗ (((c : Thread nD τ).loc main_v0_0) ↦{fullShare} V main_v0_0) ∗ (((c : Thread nD τ).loc main_v0_1) ↦{fullShare} V main_v0_1) ∗ (((c : Thread nD τ).loc main_v0_2) ↦{fullShare} V main_v0_2) ∗ (((c : Thread nD τ).loc main_v0_3) ↦{fullShare} V main_v0_3)) := by
  unfold Pipeline.arrBufs
  exact bigSep_eq_bigSepL_of_eq [main_arg0, main_arg1, main_v0_0, main_v0_1, main_v0_2, main_v0_3] (by decide) (by decide) _

/-- Pipeline 0's arrays at contents read off `V` are the distinct buffers behind them whole at `V`: every window
    holds its array at the full share but windows 1 and 2, which stage ONE array and hold its left and its right half
    share; the two halves are the full share split (`pointsTo_share`). -/
theorem arrays0_iff (c : Dev nD) (dat : Dat τ (Elt F) Unit ℕ (UR sig nD τ) ℕ cfg0 c)
    (hq1 : dat.q (1 : Fin 7) = fullShare.left) (hq2 : dat.q (2 : Fin 7) = fullShare.right)
    (hq : ∀ w : Fin 7, w ≠ 1 → w ≠ 2 → dat.q w = fullShare)
    (A : (w : Fin 7) → Buf (Elt F) ((cfg0.win w).arr.view.loc (c : Thread nD τ)))
    (V : (b : Ref sig .tc) → Buf (Elt F) ((c : Thread nD τ).loc b))
    (hA : ∀ w, A w = V (Pipeline.arrRef spec0 w)) :
    (dat.arrays A : sProp 𝕄) ⊣⊢ Pipeline.arrBufs (Ix := Unit) (Name := ℕ) (U := UR sig nD τ) (Lvl := ℕ) spec0 c V := by
  have e : (dat.arrays A : sProp 𝕄) = bigSep Finset.univ fun w : Fin 7 =>
      ((((c : Thread nD τ).loc (Pipeline.arrRef spec0 w)) ↦{dat.share w} V (Pipeline.arrRef spec0 w)) : sProp 𝕄) := by
    unfold Pipeline.Dat.arrays
    exact bigSep_congr fun w _ => by rw [(Gen.arr_whole0 w).set_eq_univ, hA w]
  have hs0 : dat.share (0 : Fin 7) = fullShare := by unfold Pipeline.Dat.share; rw [if_neg (by decide)]; exact hq 0 (by decide) (by decide)
  have hs1 : dat.share (1 : Fin 7) = fullShare.left := by unfold Pipeline.Dat.share; rw [if_neg (by decide)]; exact hq1
  have hs2 : dat.share (2 : Fin 7) = fullShare.right := by unfold Pipeline.Dat.share; rw [if_neg (by decide)]; exact hq2
  have hs3 : dat.share (3 : Fin 7) = fullShare := by unfold Pipeline.Dat.share; rw [if_pos (by decide)]
  have hs4 : dat.share (4 : Fin 7) = fullShare := by unfold Pipeline.Dat.share; rw [if_pos (by decide)]
  have hs5 : dat.share (5 : Fin 7) = fullShare := by unfold Pipeline.Dat.share; rw [if_pos (by decide)]
  have hs6 : dat.share (6 : Fin 7) = fullShare := by unfold Pipeline.Dat.share; rw [if_pos (by decide)]
  rw [e, Gen.bigSep_W0, arrBufs0_eq, hs0, hs1, hs2, hs3, hs4, hs5, hs6]
  constructor
  ·
    iintro ⟨H0, H1, H2, H3, H4, H5, H6⟩
    isplitl [H0]; · iexact H0
    isplitl [H1 H2]
    · iapply (pointsTo_share (PosShare.mem_left_op_right fullShare)).2
      isplitl [H1]; · iexact H1
      iexact H2
    isplitl [H3]; · iexact H3
    isplitl [H4]; · iexact H4
    isplitl [H5]; · iexact H5
    iexact H6
  ·
    iintro ⟨G0, G1, G2, G3, G4, G5⟩
    ihave G1' := (pointsTo_share (PosShare.mem_left_op_right fullShare)).1 $$ G1
    icases G1' with ⟨G1l, G1r⟩
    isplitl [G0]; · iexact G0
    isplitl [G1l]; · iexact G1l
    isplitl [G1r]; · iexact G1r
    isplitl [G2]; · iexact G2
    isplitl [G3]; · iexact G3
    isplitl [G4]; · iexact G4
    iexact G5

/-! ## Pipeline 1 (13 windows over 12 buffers) -/

/-- The distinct buffers behind the arrays of pipeline 1's windows, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg0) ↦{fullShare} V main_arg0) ∗ (((c : Thread nD τ).loc main_arg1) ↦{fullShare} V main_arg1) ∗ (((c : Thread nD τ).loc main_v0_0) ↦{fullShare} V main_v0_0) ∗ (((c : Thread nD τ).loc main_v0_1) ↦{fullShare} V main_v0_1) ∗ (((c : Thread nD τ).loc main_v0_2) ↦{fullShare} V main_v0_2) ∗ (((c : Thread nD τ).loc main_v0_3) ↦{fullShare} V main_v0_3) ∗ (((c : Thread nD τ).loc main_v1_0) ↦{fullShare} V main_v1_0) ∗ (((c : Thread nD τ).loc main_v1_1) ↦{fullShare} V main_v1_1) ∗ (((c : Thread nD τ).loc main_v1_2) ↦{fullShare} V main_v1_2) ∗ (((c : Thread nD τ).loc main_v1_3) ↦{fullShare} V main_v1_3) ∗ (((c : Thread nD τ).loc main_v1_4) ↦{fullShare} V main_v1_4) ∗ (((c : Thread nD τ).loc main_v1_5) ↦{fullShare} V main_v1_5)) := by
  unfold Pipeline.arrBufs
  exact bigSep_eq_bigSepL_of_eq [main_arg0, main_arg1, main_v0_0, main_v0_1, main_v0_2, main_v0_3, main_v1_0, main_v1_1, main_v1_2, main_v1_3, main_v1_4, main_v1_5] (by decide) (by decide) _

/-- Pipeline 1's arrays at contents read off `V` are the distinct buffers behind them whole at `V`: every window
    holds its array at the full share but windows 1 and 2, which stage ONE array and hold its left and its right half
    share; the two halves are the full share split (`pointsTo_share`). -/
theorem arrays1_iff (c : Dev nD) (dat : Dat τ (Elt F) Unit ℕ (UR sig nD τ) ℕ cfg1 c)
    (hq1 : dat.q (1 : Fin 13) = fullShare.left) (hq2 : dat.q (2 : Fin 13) = fullShare.right)
    (hq : ∀ w : Fin 13, w ≠ 1 → w ≠ 2 → dat.q w = fullShare)
    (A : (w : Fin 13) → Buf (Elt F) ((cfg1.win w).arr.view.loc (c : Thread nD τ)))
    (V : (b : Ref sig .tc) → Buf (Elt F) ((c : Thread nD τ).loc b))
    (hA : ∀ w, A w = V (Pipeline.arrRef spec1 w)) :
    (dat.arrays A : sProp 𝕄) ⊣⊢ Pipeline.arrBufs (Ix := Unit) (Name := ℕ) (U := UR sig nD τ) (Lvl := ℕ) spec1 c V := by
  have e : (dat.arrays A : sProp 𝕄) = bigSep Finset.univ fun w : Fin 13 =>
      ((((c : Thread nD τ).loc (Pipeline.arrRef spec1 w)) ↦{dat.share w} V (Pipeline.arrRef spec1 w)) : sProp 𝕄) := by
    unfold Pipeline.Dat.arrays
    exact bigSep_congr fun w _ => by rw [(Gen.arr_whole1 w).set_eq_univ, hA w]
  have hs0 : dat.share (0 : Fin 13) = fullShare := by unfold Pipeline.Dat.share; rw [if_neg (by decide)]; exact hq 0 (by decide) (by decide)
  have hs1 : dat.share (1 : Fin 13) = fullShare.left := by unfold Pipeline.Dat.share; rw [if_neg (by decide)]; exact hq1
  have hs2 : dat.share (2 : Fin 13) = fullShare.right := by unfold Pipeline.Dat.share; rw [if_neg (by decide)]; exact hq2
  have hs3 : dat.share (3 : Fin 13) = fullShare := by unfold Pipeline.Dat.share; rw [if_neg (by decide)]; exact hq 3 (by decide) (by decide)
  have hs4 : dat.share (4 : Fin 13) = fullShare := by unfold Pipeline.Dat.share; rw [if_neg (by decide)]; exact hq 4 (by decide) (by decide)
  have hs5 : dat.share (5 : Fin 13) = fullShare := by unfold Pipeline.Dat.share; rw [if_neg (by decide)]; exact hq 5 (by decide) (by decide)
  have hs6 : dat.share (6 : Fin 13) = fullShare := by unfold Pipeline.Dat.share; rw [if_neg (by decide)]; exact hq 6 (by decide) (by decide)
  have hs7 : dat.share (7 : Fin 13) = fullShare := by unfold Pipeline.Dat.share; rw [if_pos (by decide)]
  have hs8 : dat.share (8 : Fin 13) = fullShare := by unfold Pipeline.Dat.share; rw [if_pos (by decide)]
  have hs9 : dat.share (9 : Fin 13) = fullShare := by unfold Pipeline.Dat.share; rw [if_pos (by decide)]
  have hs10 : dat.share (10 : Fin 13) = fullShare := by unfold Pipeline.Dat.share; rw [if_pos (by decide)]
  have hs11 : dat.share (11 : Fin 13) = fullShare := by unfold Pipeline.Dat.share; rw [if_pos (by decide)]
  have hs12 : dat.share (12 : Fin 13) = fullShare := by unfold Pipeline.Dat.share; rw [if_pos (by decide)]
  rw [e, Gen.bigSep_W1, arrBufs1_eq, hs0, hs1, hs2, hs3, hs4, hs5, hs6, hs7, hs8, hs9, hs10, hs11, hs12]
  constructor
  ·
    iintro ⟨H0, H1, H2, H3, H4, H5, H6, H7, H8, H9, H10, H11, H12⟩
    isplitl [H0]; · iexact H0
    isplitl [H1 H2]
    · iapply (pointsTo_share (PosShare.mem_left_op_right fullShare)).2
      isplitl [H1]; · iexact H1
      iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  ·
    iintro ⟨G0, G1, G2, G3, G4, G5, G6, G7, G8, G9, G10, G11⟩
    ihave G1' := (pointsTo_share (PosShare.mem_left_op_right fullShare)).1 $$ G1
    icases G1' with ⟨G1l, G1r⟩
    isplitl [G0]; · iexact G0
    isplitl [G1l]; · iexact G1l
    isplitl [G1r]; · iexact G1r
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    iexact G11

end Cert.KernelIdeal.Asm

end
-- ==== Proof.AsmRun.lean ====
/- The run of @main over its two kernel regions and three host stretches, with every unscoped buffer's contents named
   at every boundary. Given each pipeline's proof data as a function of the region's entry contents (the two halves:
   section variables here), this module
   * names what each region leaves in its output arrays (`outs`: the write-backs folded, `Dat.arrAt … N`), so that the
     generated boundary valuations `Gen.V0 … Gen.V5` are closed terms of the launch memory;
   * makes each region a segment record over the thread state "every unscoped buffer whole at the boundary's contents,
     the generator register at some state, nothing owed": at entry the distinct buffers behind the windows' arrays are
     split off the unscoped buffers and the array two windows stage is dealt to them by halves; at exit the halves are
     joined and the buffers put back at the contents the region leaves;
   * runs @main (`run_all`): every weakly fair execution terminates and every final memory holds every unscoped buffer
     at `Gen.V5`. -/
import proofs.«170005_j69870527971928_1_alg».proof.Proof.AsmShare

noncomputable section

namespace Cert.KernelIdeal.Asm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

/-- Per core, the contents of every TensorCore buffer. -/
abbrev Vt (F : FTy → Type) : Type := (c : Dev nD) → (b : Ref sig .tc) → Buf (Elt F) ((c : Thread nD τ).loc b)

/-! ## A core's unscoped buffers against a pipeline's arrays, the arrays not distinct -/

/-- ENTRY (pipeline 0): the unscoped buffers at `V` are the windows' arrays at contents read off `V`, windows 1 and 2 at
    half shares of their common array, and the unscoped rest. -/
theorem arrays_of_bufs0 (c : Dev nD) (dat : Dat τ (Elt F) Unit ℕ (UR sig nD τ) ℕ cfg0 c)
    (hq1 : dat.q (1 : Fin 7) = fullShare.left) (hq2 : dat.q (2 : Fin 7) = fullShare.right)
    (hq : ∀ w : Fin 7, w ≠ 1 → w ≠ 2 → dat.q w = fullShare)
    (V : (b : Ref sig .tc) → Buf (Elt F) ((c : Thread nD τ).loc b))
    (A : (w : Fin 7) → Buf (Elt F) ((cfg0.win w).arr.view.loc (c : Thread nD τ)))
    (hA : ∀ w, A w = V (Pipeline.arrRef spec0 w)) :
    (unscopedBufs c V : sProp 𝕄) ⊢ iprop(dat.arrays A ∗ Pipeline.unscopedRest spec0 c V) := by
  rw [Pipeline.unscopedBufs_split₀ cfgs 0 Gen.winFacts₀0.arr_unscoped c V]
  exact sep_mono (arrays0_iff c dat hq1 hq2 hq A V hA).2 .rfl

/-- EXIT (pipeline 0): the arrays at contents `A` and the unscoped rest at `V` are the unscoped buffers at any `V'` that
    has the arrays at `A` and agrees with `V` off them. -/
theorem bufs_of_arrays0 (c : Dev nD) (dat : Dat τ (Elt F) Unit ℕ (UR sig nD τ) ℕ cfg0 c)
    (hq1 : dat.q (1 : Fin 7) = fullShare.left) (hq2 : dat.q (2 : Fin 7) = fullShare.right)
    (hq : ∀ w : Fin 7, w ≠ 1 → w ≠ 2 → dat.q w = fullShare)
    (V V' : (b : Ref sig .tc) → Buf (Elt F) ((c : Thread nD τ).loc b))
    (A : (w : Fin 7) → Buf (Elt F) ((cfg0.win w).arr.view.loc (c : Thread nD τ)))
    (hA : ∀ w, A w = V' (Pipeline.arrRef spec0 w))
    (hrest : ∀ b, b ∉ Finset.univ.image (Pipeline.arrRef spec0) → V' b = V b) :
    iprop(dat.arrays A ∗ Pipeline.unscopedRest spec0 c V) ⊢ (unscopedBufs c V' : sProp 𝕄) := by
  rw [Pipeline.unscopedBufs_split₀ cfgs 0 Gen.winFacts₀0.arr_unscoped c V']
  refine sep_mono (arrays0_iff c dat hq1 hq2 hq A V' hA).1 (Entails.of_eq ?_)
  unfold Pipeline.unscopedRest
  exact bigSep_congr fun b hb => by rw [hrest b (Finset.mem_sdiff.mp hb).2]

/-- ENTRY (pipeline 1). -/
theorem arrays_of_bufs1 (c : Dev nD) (dat : Dat τ (Elt F) Unit ℕ (UR sig nD τ) ℕ cfg1 c)
    (hq1 : dat.q (1 : Fin 13) = fullShare.left) (hq2 : dat.q (2 : Fin 13) = fullShare.right)
    (hq : ∀ w : Fin 13, w ≠ 1 → w ≠ 2 → dat.q w = fullShare)
    (V : (b : Ref sig .tc) → Buf (Elt F) ((c : Thread nD τ).loc b))
    (A : (w : Fin 13) → Buf (Elt F) ((cfg1.win w).arr.view.loc (c : Thread nD τ)))
    (hA : ∀ w, A w = V (Pipeline.arrRef spec1 w)) :
    (unscopedBufs c V : sProp 𝕄) ⊢ iprop(dat.arrays A ∗ Pipeline.unscopedRest spec1 c V) := by
  rw [Pipeline.unscopedBufs_split₀ cfgs 1 Gen.winFacts₀1.arr_unscoped c V]
  exact sep_mono (arrays1_iff c dat hq1 hq2 hq A V hA).2 .rfl

/-- EXIT (pipeline 1). -/
theorem bufs_of_arrays1 (c : Dev nD) (dat : Dat τ (Elt F) Unit ℕ (UR sig nD τ) ℕ cfg1 c)
    (hq1 : dat.q (1 : Fin 13) = fullShare.left) (hq2 : dat.q (2 : Fin 13) = fullShare.right)
    (hq : ∀ w : Fin 13, w ≠ 1 → w ≠ 2 → dat.q w = fullShare)
    (V V' : (b : Ref sig .tc) → Buf (Elt F) ((c : Thread nD τ).loc b))
    (A : (w : Fin 13) → Buf (Elt F) ((cfg1.win w).arr.view.loc (c : Thread nD τ)))
    (hA : ∀ w, A w = V' (Pipeline.arrRef spec1 w))
    (hrest : ∀ b, b ∉ Finset.univ.image (Pipeline.arrRef spec1) → V' b = V b) :
    iprop(dat.arrays A ∗ Pipeline.unscopedRest spec1 c V) ⊢ (unscopedBufs c V' : sProp 𝕄) := by
  rw [Pipeline.unscopedBufs_split₀ cfgs 1 Gen.winFacts₀1.arr_unscoped c V']
  refine sep_mono (arrays1_iff c dat hq1 hq2 hq A V' hA).1 (Entails.of_eq ?_)
  unfold Pipeline.unscopedRest
  exact bigSep_congr fun b hb => by rw [hrest b (Finset.mem_sdiff.mp hb).2]

/-! ## The core's dues around a region that owes nothing -/

/-- A core owing nothing owes a proof data's tallies within its bound, the data owing nothing at the point and
    bounding nothing there. -/
theorem owesAt_intro {cfg : Pipeline.Cfg sig Λ₀} (c : Dev nD) (dat : Dat τ (Elt F) Unit ℕ (UR sig nD τ) ℕ cfg c) (t : Fin (cfg.N + 1))
    (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [ho]
  iintro ⟨%W, HO⟩
  iexists W
  isplitr
  · ipureintro; exact fun x _ => Or.inl (by rw [hr]; exact Set.mem_univ x)
  iexact HO

/-- and back. -/
theorem owesAt_elim {cfg : Pipeline.Cfg sig Λ₀} (c : Dev nD) (dat : Dat τ (Elt F) Unit ℕ (UR sig nD τ) ℕ cfg c) (t : Fin (cfg.N + 1))
    (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩
  iexists W
  iexact HO

/-! ## What the regions leave: the unknowns of the generated boundary valuations, named -/

section Data

variable (dat0 : Vt F → (c : Dev nD) → Dat τ (Elt F) Unit ℕ (UR sig nD τ) ℕ cfg0 c)
  (dat1 : Vt F → (c : Dev nD) → Dat τ (Elt F) Unit ℕ (UR sig nD τ) ℕ cfg1 c)
  (m : (ℓ : Loc nD τ sig) → Buf (Elt F) ℓ)

/-- `x` at the reference `r₀`, `d` at any other. -/
def pick (c : Dev nD) (r₀ : Ref sig .tc) (x : Buf (Elt F) ((c : Thread nD τ).loc r₀)) (r : Ref sig .tc)
    (d : Buf (Elt F) ((c : Thread nD τ).loc r)) : Buf (Elt F) ((c : Thread nD τ).loc r) :=
  if h : r₀ = r then h ▸ x else d

theorem pick_self (c : Dev nD) (r₀ : Ref sig .tc) (x : Buf (Elt F) ((c : Thread nD τ).loc r₀))
    (d : Buf (Elt F) ((c : Thread nD τ).loc r₀)) : pick c r₀ x r₀ d = x := by
  unfold pick; rw [dif_pos rfl]

theorem pick_ne (c : Dev nD) (r₀ : Ref sig .tc) (x : Buf (Elt F) ((c : Thread nD τ).loc r₀)) (r : Ref sig .tc)
    (d : Buf (Elt F) ((c : Thread nD τ).loc r)) (h : r₀ ≠ r) : pick c r₀ x r d = d := by
  unfold pick; rw [dif_neg h]

/-- Region 0 is entered from the launch memory. -/
abbrev E0 : Vt F := fun c b => Gen.V0 m c (Proc.devRef .tc b)

/-- The TensorCore's buffers after region 0: its four output arrays at what the region leaves (each window's
    write-backs folded over the entry contents), every other buffer as launched. -/
def outs1 (r : Ref sig .tc) (c : Dev nD) : Buf (Elt F) ((c : Thread nD τ).loc r) :=
  pick c main_v0_0 ((dat0 (E0 m) c).arrAt 3 cfg0.N) r <|
  pick c main_v0_1 ((dat0 (E0 m) c).arrAt 4 cfg0.N) r <|
  pick c main_v0_2 ((dat0 (E0 m) c).arrAt 5 cfg0.N) r <|
  pick c main_v0_3 ((dat0 (E0 m) c).arrAt 6 cfg0.N) r <| E0 m c r

/-- Region 1 is entered from those. -/
abbrev E1 : Vt F := fun c b => outs1 dat0 m b c

/-- The TensorCore's buffers after region 1: its six output arrays at what the region leaves, every other buffer as
    region 0 left it. -/
def outs2 (r : Ref sig .tc) (c : Dev nD) : Buf (Elt F) ((c : Thread nD τ).loc r) :=
  pick c main_v1_0 ((dat1 (E1 dat0 m) c).arrAt 7 cfg1.N) r <|
  pick c main_v1_1 ((dat1 (E1 dat0 m) c).arrAt 8 cfg1.N) r <|
  pick c main_v1_2 ((dat1 (E1 dat0 m) c).arrAt 9 cfg1.N) r <|
  pick c main_v1_3 ((dat1 (E1 dat0 m) c).arrAt 10 cfg1.N) r <|
  pick c main_v1_4 ((dat1 (E1 dat0 m) c).arrAt 11 cfg1.N) r <|
  pick c main_v1_5 ((dat1 (E1 dat0 m) c).arrAt 12 cfg1.N) r <| E1 dat0 m c r

/-- The regions' leavings, as the generated valuations read them: after item 0 region 0's, after item 1 region 1's. -/
def outs : Gen.Outs (F := F) := fun J r c =>
  match J with
  | 1 => outs1 dat0 m r c
  | _ => outs2 dat0 dat1 m r c

theorem outs_one (r : Ref sig .tc) (c : Dev nD) : outs dat0 dat1 m 1 r c = outs1 dat0 m r c := rfl
theorem outs_two (r : Ref sig .tc) (c : Dev nD) : outs dat0 dat1 m 2 r c = outs2 dat0 dat1 m r c := rfl

/-! ### `outs1`, `outs2` at each reference -/

theorem outs1_v0_0 (c : Dev nD) : outs1 dat0 m main_v0_0 c = (dat0 (E0 m) c).arrAt 3 cfg0.N := by
  unfold outs1
  rw [pick_self]
theorem outs1_v0_1 (c : Dev nD) : outs1 dat0 m main_v0_1 c = (dat0 (E0 m) c).arrAt 4 cfg0.N := by
  unfold outs1
  rw [pick_ne c main_v0_0 _ main_v0_1 _ (by decide), pick_self]
theorem outs1_v0_2 (c : Dev nD) : outs1 dat0 m main_v0_2 c = (dat0 (E0 m) c).arrAt 5 cfg0.N := by
  unfold outs1
  rw [pick_ne c main_v0_0 _ main_v0_2 _ (by decide), pick_ne c main_v0_1 _ main_v0_2 _ (by decide), pick_self]
theorem outs1_v0_3 (c : Dev nD) : outs1 dat0 m main_v0_3 c = (dat0 (E0 m) c).arrAt 6 cfg0.N := by
  unfold outs1
  rw [pick_ne c main_v0_0 _ main_v0_3 _ (by decide), pick_ne c main_v0_1 _ main_v0_3 _ (by decide), pick_ne c main_v0_2 _ main_v0_3 _ (by decide), pick_self]
theorem outs1_of (c : Dev nD) (b : Ref sig .tc) (h : b ∉ ([main_v0_0, main_v0_1, main_v0_2, main_v0_3] : List (Ref sig .tc))) : outs1 dat0 m b c = Gen.V0 m c (Proc.devRef .tc b) := by
  unfold outs1
  rw [pick_ne c main_v0_0 _ b _ (List.ne_of_not_mem_cons h).symm,
    pick_ne c main_v0_1 _ b _ (List.ne_of_not_mem_cons (List.not_mem_of_not_mem_cons h)).symm,
    pick_ne c main_v0_2 _ b _ (List.ne_of_not_mem_cons (List.not_mem_of_not_mem_cons (List.not_mem_of_not_mem_cons h))).symm,
    pick_ne c main_v0_3 _ b _ (List.ne_of_not_mem_cons (List.not_mem_of_not_mem_cons (List.not_mem_of_not_mem_cons (List.not_mem_of_not_mem_cons h)))).symm]

theorem outs2_v1_0 (c : Dev nD) : outs2 dat0 dat1 m main_v1_0 c = (dat1 (E1 dat0 m) c).arrAt 7 cfg1.N := by
  unfold outs2
  rw [pick_self]
theorem outs2_v1_1 (c : Dev nD) : outs2 dat0 dat1 m main_v1_1 c = (dat1 (E1 dat0 m) c).arrAt 8 cfg1.N := by
  unfold outs2
  rw [pick_ne c main_v1_0 _ main_v1_1 _ (by decide), pick_self]
theorem outs2_v1_2 (c : Dev nD) : outs2 dat0 dat1 m main_v1_2 c = (dat1 (E1 dat0 m) c).arrAt 9 cfg1.N := by
  unfold outs2
  rw [pick_ne c main_v1_0 _ main_v1_2 _ (by decide), pick_ne c main_v1_1 _ main_v1_2 _ (by decide), pick_self]
theorem outs2_v1_3 (c : Dev nD) : outs2 dat0 dat1 m main_v1_3 c = (dat1 (E1 dat0 m) c).arrAt 10 cfg1.N := by
  unfold outs2
  rw [pick_ne c main_v1_0 _ main_v1_3 _ (by decide), pick_ne c main_v1_1 _ main_v1_3 _ (by decide), pick_ne c main_v1_2 _ main_v1_3 _ (by decide), pick_self]
theorem outs2_v1_4 (c : Dev nD) : outs2 dat0 dat1 m main_v1_4 c = (dat1 (E1 dat0 m) c).arrAt 11 cfg1.N := by
  unfold outs2
  rw [pick_ne c main_v1_0 _ main_v1_4 _ (by decide), pick_ne c main_v1_1 _ main_v1_4 _ (by decide), pick_ne c main_v1_2 _ main_v1_4 _ (by decide), pick_ne c main_v1_3 _ main_v1_4 _ (by decide), pick_self]
theorem outs2_v1_5 (c : Dev nD) : outs2 dat0 dat1 m main_v1_5 c = (dat1 (E1 dat0 m) c).arrAt 12 cfg1.N := by
  unfold outs2
  rw [pick_ne c main_v1_0 _ main_v1_5 _ (by decide), pick_ne c main_v1_1 _ main_v1_5 _ (by decide), pick_ne c main_v1_2 _ main_v1_5 _ (by decide), pick_ne c main_v1_3 _ main_v1_5 _ (by decide), pick_ne c main_v1_4 _ main_v1_5 _ (by decide), pick_self]
theorem outs2_of (c : Dev nD) (b : Ref sig .tc) (h : b ∉ ([main_v1_0, main_v1_1, main_v1_2, main_v1_3, main_v1_4, main_v1_5] : List (Ref sig .tc))) : outs2 dat0 dat1 m b c = outs1 dat0 m b c := by
  unfold outs2
  rw [pick_ne c main_v1_0 _ b _ (List.ne_of_not_mem_cons h).symm,
    pick_ne c main_v1_1 _ b _ (List.ne_of_not_mem_cons (List.not_mem_of_not_mem_cons h)).symm,
    pick_ne c main_v1_2 _ b _ (List.ne_of_not_mem_cons (List.not_mem_of_not_mem_cons (List.not_mem_of_not_mem_cons h))).symm,
    pick_ne c main_v1_3 _ b _ (List.ne_of_not_mem_cons (List.not_mem_of_not_mem_cons (List.not_mem_of_not_mem_cons (List.not_mem_of_not_mem_cons h)))).symm,
    pick_ne c main_v1_4 _ b _ (List.ne_of_not_mem_cons (List.not_mem_of_not_mem_cons (List.not_mem_of_not_mem_cons (List.not_mem_of_not_mem_cons (List.not_mem_of_not_mem_cons h))))).symm,
    pick_ne c main_v1_5 _ b _ (List.ne_of_not_mem_cons (List.not_mem_of_not_mem_cons (List.not_mem_of_not_mem_cons (List.not_mem_of_not_mem_cons (List.not_mem_of_not_mem_cons (List.not_mem_of_not_mem_cons h)))))).symm]

/-! ### The generated valuations at the regions' output arrays -/

theorem V1_v0_0 (c : Dev nD) : Gen.V1 m (outs dat0 dat1 m) c (Proc.devRef .tc main_v0_0) = outs1 dat0 m main_v0_0 c := by
  unfold Gen.V1
  rw [Function.update_of_ne (StableHlo.devRef_ne_of_ne (by decide) : (Proc.devRef .tc main_v0_0 : DevRef τ sig) ≠ Proc.devRef .tc main_v0_3),
    Function.update_of_ne (StableHlo.devRef_ne_of_ne (by decide) : (Proc.devRef .tc main_v0_0 : DevRef τ sig) ≠ Proc.devRef .tc main_v0_2),
    Function.update_of_ne (StableHlo.devRef_ne_of_ne (by decide) : (Proc.devRef .tc main_v0_0 : DevRef τ sig) ≠ Proc.devRef .tc main_v0_1),
    Function.update_self, outs_one]
theorem V1_v0_1 (c : Dev nD) : Gen.V1 m (outs dat0 dat1 m) c (Proc.devRef .tc main_v0_1) = outs1 dat0 m main_v0_1 c := by
  unfold Gen.V1
  rw [Function.update_of_ne (StableHlo.devRef_ne_of_ne (by decide) : (Proc.devRef .tc main_v0_1 : DevRef τ sig) ≠ Proc.devRef .tc main_v0_3),
    Function.update_of_ne (StableHlo.devRef_ne_of_ne (by decide) : (Proc.devRef .tc main_v0_1 : DevRef τ sig) ≠ Proc.devRef .tc main_v0_2),
    Function.update_self, outs_one]
theorem V1_v0_2 (c : Dev nD) : Gen.V1 m (outs dat0 dat1 m) c (Proc.devRef .tc main_v0_2) = outs1 dat0 m main_v0_2 c := by
  unfold Gen.V1
  rw [Function.update_of_ne (StableHlo.devRef_ne_of_ne (by decide) : (Proc.devRef .tc main_v0_2 : DevRef τ sig) ≠ Proc.devRef .tc main_v0_3),
    Function.update_self, outs_one]
theorem V1_v0_3 (c : Dev nD) : Gen.V1 m (outs dat0 dat1 m) c (Proc.devRef .tc main_v0_3) = outs1 dat0 m main_v0_3 c := by
  unfold Gen.V1
  rw [Function.update_self, outs_one]

theorem V2_v1_0 (c : Dev nD) : Gen.V2 m (outs dat0 dat1 m) c (Proc.devRef .tc main_v1_0) = outs2 dat0 dat1 m main_v1_0 c := by
  unfold Gen.V2
  rw [Function.update_of_ne (StableHlo.devRef_ne_of_ne (by decide) : (Proc.devRef .tc main_v1_0 : DevRef τ sig) ≠ Proc.devRef .tc main_v1_5),
    Function.update_of_ne (StableHlo.devRef_ne_of_ne (by decide) : (Proc.devRef .tc main_v1_0 : DevRef τ sig) ≠ Proc.devRef .tc main_v1_4),
    Function.update_of_ne (StableHlo.devRef_ne_of_ne (by decide) : (Proc.devRef .tc main_v1_0 : DevRef τ sig) ≠ Proc.devRef .tc main_v1_3),
    Function.update_of_ne (StableHlo.devRef_ne_of_ne (by decide) : (Proc.devRef .tc main_v1_0 : DevRef τ sig) ≠ Proc.devRef .tc main_v1_2),
    Function.update_of_ne (StableHlo.devRef_ne_of_ne (by decide) : (Proc.devRef .tc main_v1_0 : DevRef τ sig) ≠ Proc.devRef .tc main_v1_1),
    Function.update_self, outs_two]
theorem V2_v1_1 (c : Dev nD) : Gen.V2 m (outs dat0 dat1 m) c (Proc.devRef .tc main_v1_1) = outs2 dat0 dat1 m main_v1_1 c := by
  unfold Gen.V2
  rw [Function.update_of_ne (StableHlo.devRef_ne_of_ne (by decide) : (Proc.devRef .tc main_v1_1 : DevRef τ sig) ≠ Proc.devRef .tc main_v1_5),
    Function.update_of_ne (StableHlo.devRef_ne_of_ne (by decide) : (Proc.devRef .tc main_v1_1 : DevRef τ sig) ≠ Proc.devRef .tc main_v1_4),
    Function.update_of_ne (StableHlo.devRef_ne_of_ne (by decide) : (Proc.devRef .tc main_v1_1 : DevRef τ sig) ≠ Proc.devRef .tc main_v1_3),
    Function.update_of_ne (StableHlo.devRef_ne_of_ne (by decide) : (Proc.devRef .tc main_v1_1 : DevRef τ sig) ≠ Proc.devRef .tc main_v1_2),
    Function.update_self, outs_two]
theorem V2_v1_2 (c : Dev nD) : Gen.V2 m (outs dat0 dat1 m) c (Proc.devRef .tc main_v1_2) = outs2 dat0 dat1 m main_v1_2 c := by
  unfold Gen.V2
  rw [Function.update_of_ne (StableHlo.devRef_ne_of_ne (by decide) : (Proc.devRef .tc main_v1_2 : DevRef τ sig) ≠ Proc.devRef .tc main_v1_5),
    Function.update_of_ne (StableHlo.devRef_ne_of_ne (by decide) : (Proc.devRef .tc main_v1_2 : DevRef τ sig) ≠ Proc.devRef .tc main_v1_4),
    Function.update_of_ne (StableHlo.devRef_ne_of_ne (by decide) : (Proc.devRef .tc main_v1_2 : DevRef τ sig) ≠ Proc.devRef .tc main_v1_3),
    Function.update_self, outs_two]
theorem V2_v1_3 (c : Dev nD) : Gen.V2 m (outs dat0 dat1 m) c (Proc.devRef .tc main_v1_3) = outs2 dat0 dat1 m main_v1_3 c := by
  unfold Gen.V2
  rw [Function.update_of_ne (StableHlo.devRef_ne_of_ne (by decide) : (Proc.devRef .tc main_v1_3 : DevRef τ sig) ≠ Proc.devRef .tc main_v1_5),
    Function.update_of_ne (StableHlo.devRef_ne_of_ne (by decide) : (Proc.devRef .tc main_v1_3 : DevRef τ sig) ≠ Proc.devRef .tc main_v1_4),
    Function.update_self, outs_two]
theorem V2_v1_4 (c : Dev nD) : Gen.V2 m (outs dat0 dat1 m) c (Proc.devRef .tc main_v1_4) = outs2 dat0 dat1 m main_v1_4 c := by
  unfold Gen.V2
  rw [Function.update_of_ne (StableHlo.devRef_ne_of_ne (by decide) : (Proc.devRef .tc main_v1_4 : DevRef τ sig) ≠ Proc.devRef .tc main_v1_5),
    Function.update_self, outs_two]
theorem V2_v1_5 (c : Dev nD) : Gen.V2 m (outs dat0 dat1 m) c (Proc.devRef .tc main_v1_5) = outs2 dat0 dat1 m main_v1_5 c := by
  unfold Gen.V2
  rw [Function.update_self, outs_two]

/-- After region 0 the TensorCore's buffers are `outs1`: region 1 is entered from what region 0 left. -/
theorem E1_eq (c : Dev nD) (b : Ref sig .tc) : E1 dat0 m c b = Gen.V1 m (outs dat0 dat1 m) c (Proc.devRef .tc b) := by
  show outs1 dat0 m b c = _
  by_cases h0 : b = main_v0_0
  · subst h0; exact (V1_v0_0 dat0 dat1 m c).symm
  by_cases h1 : b = main_v0_1
  · subst h1; exact (V1_v0_1 dat0 dat1 m c).symm
  by_cases h2 : b = main_v0_2
  · subst h2; exact (V1_v0_2 dat0 dat1 m c).symm
  by_cases h3 : b = main_v0_3
  · subst h3; exact (V1_v0_3 dat0 dat1 m c).symm
  have h : b ∉ ([main_v0_0, main_v0_1, main_v0_2, main_v0_3] : List (Ref sig .tc)) := by
    simp only [List.mem_cons, List.not_mem_nil, or_false, not_or]; exact ⟨h0, h1, h2, h3⟩
  rw [outs1_of dat0 m c b h, Gen.V1_of m _ c b h]

/-- Every pipeline's proof data, each at its region's entry contents. -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 dat0 m) c

end Data

/-! ## The run, given the two halves -/

section Run

variable (dat0 : Vt F → (c : Dev nD) → Dat τ (Elt F) Unit ℕ (UR sig nD τ) ℕ cfg0 c)
  (dat1 : Vt F → (c : Dev nD) → Dat τ (Elt F) Unit ℕ (UR sig nD τ) ℕ cfg1 c)
  (A_eq0 : ∀ V c w, (dat0 V c).A w = V c (Pipeline.arrRef spec0 w))
  (q0_1 : ∀ V c, (dat0 V c).q (1 : Fin 7) = fullShare.left) (q0_2 : ∀ V c, (dat0 V c).q (2 : Fin 7) = fullShare.right)
  (q0_of : ∀ V c (w : Fin 7), w ≠ 1 → w ≠ 2 → (dat0 V c).q w = fullShare)
  (owed0 : ∀ V c t, (dat0 V c).owed t = 0) (recorded0 : ∀ V c t, (dat0 V c).recorded t = Set.univ)
  (body_obligation0 : ∀ V c, Pipeline.BodyObligation (dat0 V c) (defs₀ (F := F)) Variants.none () Set.univ)
  (hin0 : ∀ V c, Pipeline.ΦA spec0 c ⊢ (dat0 V c).Φ 0)
  (hout0 : ∀ V c, (dat0 V c).Φ (Fin.last cfg0.N) ⊢ Pipeline.ΦA spec0 c)
  (A_eq1 : ∀ V c w, (dat1 V c).A w = V c (Pipeline.arrRef spec1 w))
  (q1_1 : ∀ V c, (dat1 V c).q (1 : Fin 13) = fullShare.left) (q1_2 : ∀ V c, (dat1 V c).q (2 : Fin 13) = fullShare.right)
  (q1_of : ∀ V c (w : Fin 13), w ≠ 1 → w ≠ 2 → (dat1 V c).q w = fullShare)
  (owed1 : ∀ V c t, (dat1 V c).owed t = 0) (recorded1 : ∀ V c t, (dat1 V c).recorded t = Set.univ)
  (body_obligation1 : ∀ V c, Pipeline.BodyObligation (dat1 V c) (defs₀ (F := F)) Variants.none () Set.univ)
  (hin1 : ∀ V c, Pipeline.ΦA spec1 c ⊢ (dat1 V c).Φ 0)
  (hout1 : ∀ V c, (dat1 V c).Φ (Fin.last cfg1.N) ⊢ Pipeline.ΦA spec1 c)
  (m : (ℓ : Loc nD τ sig) → Buf (Elt F) ℓ)

/-! ### The regions' arrays in the boundary valuations -/

include A_eq0 in
/-- After region 0 every array of its windows holds what the pipeline leaves: an input what it held, an output its
    write-backs folded. -/
theorem hF0 (c : Dev nD) : ∀ w : Fin 7, (dat0 (E0 m) c).arrAt w cfg0.N = Gen.V1 m (outs dat0 dat1 m) c (Proc.devRef .tc (Pipeline.arrRef spec0 w))
  | 0 => ((dat0 (E0 m) c).arrAt_in 0 rfl _).trans ((A_eq0 (E0 m) c 0).trans (Gen.V1_of m (outs dat0 dat1 m) c main_arg0 (by decide)).symm)
  | 1 => ((dat0 (E0 m) c).arrAt_in 1 rfl _).trans ((A_eq0 (E0 m) c 1).trans (Gen.V1_of m (outs dat0 dat1 m) c main_arg1 (by decide)).symm)
  | 2 => ((dat0 (E0 m) c).arrAt_in 2 rfl _).trans ((A_eq0 (E0 m) c 2).trans (Gen.V1_of m (outs dat0 dat1 m) c main_arg1 (by decide)).symm)
  | 3 => ((V1_v0_0 dat0 dat1 m c).trans (outs1_v0_0 dat0 m c)).symm
  | 4 => ((V1_v0_1 dat0 dat1 m c).trans (outs1_v0_1 dat0 m c)).symm
  | 5 => ((V1_v0_2 dat0 dat1 m c).trans (outs1_v0_2 dat0 m c)).symm
  | 6 => ((V1_v0_3 dat0 dat1 m c).trans (outs1_v0_3 dat0 m c)).symm

/-- and every other buffer what it held. -/
theorem hrest0 (c : Dev nD) (b : Ref sig .tc) (hb : b ∉ Finset.univ.image (Pipeline.arrRef spec0)) :
    Gen.V1 m (outs dat0 dat1 m) c (Proc.devRef .tc b) = Gen.V0 m c (Proc.devRef .tc b) :=
  Gen.V1_of m (outs dat0 dat1 m) c b fun h => by
    simp only [List.mem_cons, List.not_mem_nil, or_false] at h
    rcases h with rfl | rfl | rfl | rfl
    · exact hb (Finset.mem_image.mpr ⟨3, Finset.mem_univ _, rfl⟩)
    · exact hb (Finset.mem_image.mpr ⟨4, Finset.mem_univ _, rfl⟩)
    · exact hb (Finset.mem_image.mpr ⟨5, Finset.mem_univ _, rfl⟩)
    · exact hb (Finset.mem_image.mpr ⟨6, Finset.mem_univ _, rfl⟩)

include A_eq1 in
/-- After region 1 every array of its windows holds what the pipeline leaves. -/
theorem hF1 (c : Dev nD) : ∀ w : Fin 13, (dat1 (E1 dat0 m) c).arrAt w cfg1.N = Gen.V2 m (outs dat0 dat1 m) c (Proc.devRef .tc (Pipeline.arrRef spec1 w))
  | 0 => ((dat1 (E1 dat0 m) c).arrAt_in 0 rfl _).trans ((A_eq1 (E1 dat0 m) c 0).trans ((E1_eq dat0 dat1 m c main_arg0).trans (Gen.V2_of m (outs dat0 dat1 m) c main_arg0 (by decide)).symm))
  | 1 => ((dat1 (E1 dat0 m) c).arrAt_in 1 rfl _).trans ((A_eq1 (E1 dat0 m) c 1).trans ((E1_eq dat0 dat1 m c main_arg1).trans (Gen.V2_of m (outs dat0 dat1 m) c main_arg1 (by decide)).symm))
  | 2 => ((dat1 (E1 dat0 m) c).arrAt_in 2 rfl _).trans ((A_eq1 (E1 dat0 m) c 2).trans ((E1_eq dat0 dat1 m c main_arg1).trans (Gen.V2_of m (outs dat0 dat1 m) c main_arg1 (by decide)).symm))
  | 3 => ((dat1 (E1 dat0 m) c).arrAt_in 3 rfl _).trans ((A_eq1 (E1 dat0 m) c 3).trans ((E1_eq dat0 dat1 m c main_v0_0).trans (Gen.V2_of m (outs dat0 dat1 m) c main_v0_0 (by decide)).symm))
  | 4 => ((dat1 (E1 dat0 m) c).arrAt_in 4 rfl _).trans ((A_eq1 (E1 dat0 m) c 4).trans ((E1_eq dat0 dat1 m c main_v0_1).trans (Gen.V2_of m (outs dat0 dat1 m) c main_v0_1 (by decide)).symm))
  | 5 => ((dat1 (E1 dat0 m) c).arrAt_in 5 rfl _).trans ((A_eq1 (E1 dat0 m) c 5).trans ((E1_eq dat0 dat1 m c main_v0_2).trans (Gen.V2_of m (outs dat0 dat1 m) c main_v0_2 (by decide)).symm))
  | 6 => ((dat1 (E1 dat0 m) c).arrAt_in 6 rfl _).trans ((A_eq1 (E1 dat0 m) c 6).trans ((E1_eq dat0 dat1 m c main_v0_3).trans (Gen.V2_of m (outs dat0 dat1 m) c main_v0_3 (by decide)).symm))
  | 7 => ((V2_v1_0 dat0 dat1 m c).trans (outs2_v1_0 dat0 dat1 m c)).symm
  | 8 => ((V2_v1_1 dat0 dat1 m c).trans (outs2_v1_1 dat0 dat1 m c)).symm
  | 9 => ((V2_v1_2 dat0 dat1 m c).trans (outs2_v1_2 dat0 dat1 m c)).symm
  | 10 => ((V2_v1_3 dat0 dat1 m c).trans (outs2_v1_3 dat0 dat1 m c)).symm
  | 11 => ((V2_v1_4 dat0 dat1 m c).trans (outs2_v1_4 dat0 dat1 m c)).symm
  | 12 => ((V2_v1_5 dat0 dat1 m c).trans (outs2_v1_5 dat0 dat1 m c)).symm

/-- and every other buffer what it held. -/
theorem hrest1 (c : Dev nD) (b : Ref sig .tc) (hb : b ∉ Finset.univ.image (Pipeline.arrRef spec1)) :
    Gen.V2 m (outs dat0 dat1 m) c (Proc.devRef .tc b) = Gen.V1 m (outs dat0 dat1 m) c (Proc.devRef .tc b) :=
  Gen.V2_of m (outs dat0 dat1 m) c b fun h => by
    simp only [List.mem_cons, List.not_mem_nil, or_false] at h
    rcases h with rfl | rfl | rfl | rfl | rfl | rfl
    · exact hb (Finset.mem_image.mpr ⟨7, Finset.mem_univ _, rfl⟩)
    · exact hb (Finset.mem_image.mpr ⟨8, Finset.mem_univ _, rfl⟩)
    · exact hb (Finset.mem_image.mpr ⟨9, Finset.mem_univ _, rfl⟩)
    · exact hb (Finset.mem_image.mpr ⟨10, Finset.mem_univ _, rfl⟩)
    · exact hb (Finset.mem_image.mpr ⟨11, Finset.mem_univ _, rfl⟩)
    · exact hb (Finset.mem_image.mpr ⟨12, Finset.mem_univ _, rfl⟩)

/-! ### The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and its dues, none. -/
abbrev R (c : Dev nD) : sProp (MT nD τ sig Unit (Elt F) ℕ (UR sig nD τ) ℕ) :=
  iprop((∃ r, prngReg c r) ∗ ∃ W, owes (c : Thread nD τ) (0 : CellTallies nD τ sig Unit) W)
/-- The same beside every boundary. -/
abbrev E : Fin 3 → Dev nD → sProp (MT nD τ sig Unit (Elt F) ℕ (UR sig nD τ) ℕ) := fun _ => R

/-- The last thread state, its dues set apart (the launch reads the rest against the final state). -/
theorem last_assoc (c : Dev nD) (P : sProp 𝕄) :
    iprop(P ∗ R c) ⊢ (iprop((P ∗ ∃ r, prngReg c r) ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ### The regions as segments -/

-- a library lemma stated over `pin pcs a p` unifies with the printed configuration only when unification may unfold
-- plain definitions in a metavariable's type
set_option backward.isDefEq.respectTransparency.types false in
include A_eq0 q0_1 q0_2 q0_of owed0 recorded0 body_obligation0 hin0 hout0 in
/-- REGION 0 (custom_call 0) over the thread state: entered from every unscoped buffer at the boundary's contents
    before it, left at the next boundary's. At entry the distinct buffers behind its windows' arrays are split off the
    unscoped buffers and dealt to the windows (the array windows 1 and 2 stage by halves); at exit they are joined and
    put back at what the region leaves. The generator register goes into the invariant and comes back; nothing is
    owed; the kernel has no semaphore of its own. -/
def reg0 : Pipeline.RegionSeg (pcfgs (F := F)) Gen.adm (pdats dat0 dat1 m) () defs₀ 𝒱₀ L lv 0 where
  win := Gen.winFacts₀0
  block_pos := Gen.block_pos0
  stage_whole := Gen.stage_whole0
  K := PEmpty
  osem k := k.elim
  ho := Pipeline.OwnSemFacts.none _
  hbody c := (body_obligation0 (E0 m) c).loose
  hwaits := Pipeline.hwaits_of_owed_zero _ _ _ _ L lv 0 fun c t => owed0 (E0 m) c t
  pre c := iprop(StableHlo.held (c : Thread nD τ) (Pipeline.ucRefs τ sig) (Gen.V0 m c) ∗ R c)
  post c := iprop(StableHlo.held (c : Thread nD τ) (Pipeline.ucRefs τ sig) (Gen.V1 m (outs dat0 dat1 m) c) ∗ R c)
  X c := iprop(∃ r, prngReg c r)
  Y c := iprop(∃ r, prngReg c r)
  Z c := Pipeline.unscopedRest (Ix := Unit) (Name := ℕ) (U := UR sig nD τ) (Lvl := ℕ) spec0 c (fun b => Gen.V0 m c (Proc.devRef .tc b))
  hentry c := by
    rw [Pipeline.ownSems0_none]
    have hsplit := arrays_of_bufs0 c (pdats dat0 dat1 m 0 c) (q0_1 _ c) (q0_2 _ c) (q0_of _ c)
      (fun b => Gen.V0 m c (Proc.devRef .tc b)) ((pdats dat0 dat1 m 0 c).arrAt · 0) (fun w => A_eq0 (E0 m) c w)
    rw [Pipeline.unscopedBufs_held (Ix := Unit) (Name := ℕ) (U := UR sig nD τ) (Lvl := ℕ) c (Gen.V0 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro c (pdats dat0 dat1 m 0 c) 0 (owed0 _ c 0) (recorded0 _ c 0)); iexact HO
    isplitl [Hp]; · iexact Hp
    iexact Hrest
  hin c := by
    refine BIBase.Entails.trans ?_ (hin0 (E0 m) c)
    unfold Pipeline.ΦA
    iintro ⟨Hp, -, Hr⟩
    isplitl [Hr]; · iexact Hr
    iexact Hp
  hout c := by
    rw [Pipeline.ownSems0_none]
    refine BIBase.Entails.trans (hout0 (E0 m) c) ?_
    unfold Pipeline.ΦA
    iintro ⟨Hr, Hp⟩
    isplitl [Hp]; · iexact Hp
    isplitr; · iempintro
    iexact Hr
  hexit c := by
    have hjoin := bufs_of_arrays0 c (pdats dat0 dat1 m 0 c) (q0_1 _ c) (q0_2 _ c) (q0_of _ c)
      (fun b => Gen.V0 m c (Proc.devRef .tc b)) (fun b => Gen.V1 m (outs dat0 dat1 m) c (Proc.devRef .tc b))
      ((pdats dat0 dat1 m 0 c).arrAt · cfg0.N) (hF0 dat0 dat1 A_eq0 m c) (hrest0 dat0 dat1 m c)
    rw [Pipeline.unscopedBufs_held (Ix := Unit) (Name := ℕ) (U := UR sig nD τ) (Lvl := ℕ) c (Gen.V1 m (outs dat0 dat1 m) c)] at hjoin
    iintro ⟨Ha, HO, HY, Hrest⟩
    imodintro
    isplitl [Ha Hrest]
    · iapply hjoin
      isplitl [Ha]; · iexact Ha
      iexact Hrest
    isplitl [HY]; · iexact HY
    iapply (owesAt_elim c (pdats dat0 dat1 m 0 c) (Fin.last cfg0.N) (owed0 _ c _)); iexact HO

-- a library lemma stated over `pin pcs a p` unifies with the printed configuration only when unification may unfold
-- plain definitions in a metavariable's type
set_option backward.isDefEq.respectTransparency.types false in
include A_eq1 q1_1 q1_2 q1_of owed1 recorded1 body_obligation1 hin1 hout1 in
/-- REGION 1 (custom_call 1) over the thread state: entered from every unscoped buffer at the boundary's contents
    before it, left at the next boundary's. At entry the distinct buffers behind its windows' arrays are split off the
    unscoped buffers and dealt to the windows (the array windows 1 and 2 stage by halves); at exit they are joined and
    put back at what the region leaves. The generator register goes into the invariant and comes back; nothing is
    owed; the kernel has no semaphore of its own. -/
def reg1 : Pipeline.RegionSeg (pcfgs (F := F)) Gen.adm (pdats dat0 dat1 m) () defs₀ 𝒱₀ L lv 1 where
  win := Gen.winFacts₀1
  block_pos := Gen.block_pos1
  stage_whole := Gen.stage_whole1
  K := PEmpty
  osem k := k.elim
  ho := Pipeline.OwnSemFacts.none _
  hbody c := (body_obligation1 (E1 dat0 m) c).loose
  hwaits := Pipeline.hwaits_of_owed_zero _ _ _ _ L lv 1 fun c t => owed1 (E1 dat0 m) c t
  pre c := iprop(StableHlo.held (c : Thread nD τ) (Pipeline.ucRefs τ sig) (Gen.V1 m (outs dat0 dat1 m) c) ∗ R c)
  post c := iprop(StableHlo.held (c : Thread nD τ) (Pipeline.ucRefs τ sig) (Gen.V2 m (outs dat0 dat1 m) c) ∗ R c)
  X c := iprop(∃ r, prngReg c r)
  Y c := iprop(∃ r, prngReg c r)
  Z c := Pipeline.unscopedRest (Ix := Unit) (Name := ℕ) (U := UR sig nD τ) (Lvl := ℕ) spec1 c (fun b => Gen.V1 m (outs dat0 dat1 m) c (Proc.devRef .tc b))
  hentry c := by
    rw [Pipeline.ownSems0_none]
    have hsplit := arrays_of_bufs1 c (pdats dat0 dat1 m 1 c) (q1_1 _ c) (q1_2 _ c) (q1_of _ c)
      (fun b => Gen.V1 m (outs dat0 dat1 m) c (Proc.devRef .tc b)) ((pdats dat0 dat1 m 1 c).arrAt · 0) (fun w => (A_eq1 (E1 dat0 m) c w).trans (E1_eq dat0 dat1 m c _))
    rw [Pipeline.unscopedBufs_held (Ix := Unit) (Name := ℕ) (U := UR sig nD τ) (Lvl := ℕ) c (Gen.V1 m (outs dat0 dat1 m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro c (pdats dat0 dat1 m 1 c) 0 (owed1 _ c 0) (recorded1 _ c 0)); iexact HO
    isplitl [Hp]; · iexact Hp
    iexact Hrest
  hin c := by
    refine BIBase.Entails.trans ?_ (hin1 (E1 dat0 m) c)
    unfold Pipeline.ΦA
    iintro ⟨Hp, -, Hr⟩
    isplitl [Hr]; · iexact Hr
    iexact Hp
  hout c := by
    rw [Pipeline.ownSems0_none]
    refine BIBase.Entails.trans (hout1 (E1 dat0 m) c) ?_
    unfold Pipeline.ΦA
    iintro ⟨Hr, Hp⟩
    isplitl [Hp]; · iexact Hp
    isplitr; · iempintro
    iexact Hr
  hexit c := by
    have hjoin := bufs_of_arrays1 c (pdats dat0 dat1 m 1 c) (q1_1 _ c) (q1_2 _ c) (q1_of _ c)
      (fun b => Gen.V1 m (outs dat0 dat1 m) c (Proc.devRef .tc b)) (fun b => Gen.V2 m (outs dat0 dat1 m) c (Proc.devRef .tc b))
      ((pdats dat0 dat1 m 1 c).arrAt · cfg1.N) (hF1 dat0 dat1 A_eq1 m c) (hrest1 dat0 dat1 m c)
    rw [Pipeline.unscopedBufs_held (Ix := Unit) (Name := ℕ) (U := UR sig nD τ) (Lvl := ℕ) c (Gen.V2 m (outs dat0 dat1 m) c)] at hjoin
    iintro ⟨Ha, HO, HY, Hrest⟩
    imodintro
    isplitl [Ha Hrest]
    · iapply hjoin
      isplitl [Ha]; · iexact Ha
      iexact Hrest
    isplitl [HY]; · iexact HY
    iapply (owesAt_elim c (pdats dat0 dat1 m 1 c) (Fin.last cfg1.N) (owed1 _ c _)); iexact HO

/-! ### @main as segments, and the launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
include A_eq0 q0_1 q0_2 q0_of owed0 recorded0 body_obligation0 hin0 hout0 A_eq1 q1_1 q1_2 q1_of owed1 recorded1 body_obligation1 hin1 hout1 in
/-- THE RUN. From any memory `m` with zero counters and any generator registers, every weakly fair execution of @main
    terminates, and every final memory holds EVERY unscoped TensorCore buffer at the last boundary's contents
    `Gen.V5 m outs`: the launch memory, region 0's output arrays at what its write-backs leave, region 1's likewise (its
    proof data at the contents region 0 left), then the three host stretches' results. -/
theorem run_all (ρ : Dev nD → PrngReg) :
    θ_run defs (onTc (τ := τ) (main (F := F))) ⟨m, fun _ => 0, ρ⟩ (fun r => ∀ c : Dev nD, ∀ b ∈ Pipeline.ucRefs τ sig,
      r.2.mem ((c : Thread nD τ).1, b) = Gen.V5 m (outs dat0 dat1 m) c b) := by
  refine Pipeline.θ_run_regions_kit_dev (pcfgs (F := F)) Gen.adm (pdats dat0 dat1 m) () Gen.cellOf_inj emb₁ defs₀ 𝒱₀ L lv m ρ main
    (Gen.segs m (outs dat0 dat1 m) 𝒱₀ L lv E () (pdats dat0 dat1 m) (reg0 dat0 dat1 A_eq0 q0_1 q0_2 q0_of owed0 recorded0 body_obligation0 hin0 hout0 m) (reg1 dat0 dat1 A_eq1 q1_1 q1_2 q1_of owed1 recorded1 body_obligation1 hin1 hout1 m))
    (fun c Q => by
      rewrite [Gen.main_chain c, Pipeline.Seg.run_eq_chain,
        show (Gen.segs m (outs dat0 dat1 m) 𝒱₀ L lv E () (pdats dat0 dat1 m) (reg0 dat0 dat1 A_eq0 q0_1 q0_2 q0_of owed0 recorded0 body_obligation0 hin0 hout0 m) (reg1 dat0 dat1 A_eq1 q1_1 q1_2 q1_of owed1 recorded1 body_obligation1 hin1 hout1 m) c).map Pipeline.Seg.prog = [
          Prog.lift (.customCall (Pipeline.entry 0) ()),
          Prog.lift (.customCall (Pipeline.entry 1) ()),
          StableHlo.seq Gen.hostOps2,
          StableHlo.seq Gen.hostOps2_1,
          StableHlo.seq Gen.hostOps2_2 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V5 m (outs dat0 dat1 m) c) ∗ ∃ r, prngReg c r))
    (hch := fun c => ⟨.rfl, .rfl, .rfl, .rfl, .rfl, last_assoc c _⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = Gen.V5 m (outs dat0 dat1 m) c b)
    (hfin := fun c s' => by
      iintro ⟨⟨Hh, -⟩, HSI⟩
      unfold StableHlo.held
      imodintro
      iapply (pointsTo_read_all (Pipeline.ucRefs τ sig) (fun b => ((c : Thread nD τ).1, b)) (Gen.V5 m (outs dat0 dat1 m) c) s')
      isplitl [Hh] <;> iassumption)
    (hQ := fun s h => h)

end Run

end Cert.KernelIdeal.Asm

end
-- ==== Proof.R0Base.lean ====
/-
  Pass 1 of the kernel walks the 8 x 16 grid of 1024 x 512 tiles of the score matrix in row-major order, point
  t = 16 i + j. Four facts about a point decide what its body does: it is the first point of all (the column
  accumulators are reset), it is the first tile of its row block (the row accumulators are reset), it is the last tile
  of its row block (the row results are stored), it is the last point of all (the column results are stored). This
  module states the four conditions as the body spells them, decides them over the grid in closed form, and names the
  buffers the body is called with.
-/
import proofs.«170005_j69870527971928_1_alg».proof.Proof.Gen.KernelIdeal.Skeleton
import proofs.«170005_j69870527971928_1_alg».proof.Proof.Gen.KernelIdeal.Launch
import proofs.«170005_j69870527971928_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four conditions -/

/-- The first point of the whole grid: the column accumulators are reset there. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The first tile of a row block: the row accumulators are reset there. -/
abbrev cond2 (i : grid0.Coords) : Prop :=
  (Scalar.cmpi .ne (Scalar.extui (Scalar.cmpi .eq (BitVec.ofNat 32 (i 1).val) 0#32)) 0#32) = 1#1
/-- The last tile of a row block: the row results are stored there. -/
abbrev cond3 (i : grid0.Coords) : Prop := k0_cond3 i = 1#1
/-- The last point of the grid: the column results are stored there. -/
abbrev cond4 (i : grid0.Coords) : Prop := k0_cond4 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val % 16 = 0 :=
  (by decide +kernel : ∀ t : Fin grid0.N, cond2 (grid0.coords t) ↔ t.val % 16 = 0)
theorem hcond3 : ∀ t : Fin cfg0.N, cond3 (grid0.coords t) ↔ t.val % 16 = 15 :=
  (by decide +kernel : ∀ t : Fin grid0.N, cond3 (grid0.coords t) ↔ t.val % 16 = 15)
theorem hcond4 : ∀ t : Fin cfg0.N, cond4 (grid0.coords t) ↔ t.val = 127 :=
  (by decide +kernel : ∀ t : Fin grid0.N, cond4 (grid0.coords t) ↔ t.val = 127)

/-! ## Where the windows are idle, and where they are written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The row results' windows are idle except at the last tile of a row block, -/
theorem idle3_of : ∀ t : Fin cfg0.N, ¬cond3 (grid0.coords t) → cfg0.idle 3 (grid0.coords t) = true := by decide +kernel
theorem idle4_of : ∀ t : Fin cfg0.N, ¬cond3 (grid0.coords t) → cfg0.idle 4 (grid0.coords t) = true := by decide +kernel
theorem live3_of : ∀ t : Fin cfg0.N, cond3 (grid0.coords t) → cfg0.idle 3 (grid0.coords t) = false := by decide +kernel
theorem live4_of : ∀ t : Fin cfg0.N, cond3 (grid0.coords t) → cfg0.idle 4 (grid0.coords t) = false := by decide +kernel
/-- and are written back only there. -/
theorem noFlush3_of : ∀ t : Fin cfg0.N, ¬cond3 (grid0.coords t) → (cfg0.win 3).flush t = false := by decide +kernel
theorem noFlush4_of : ∀ t : Fin cfg0.N, ¬cond3 (grid0.coords t) → (cfg0.win 4).flush t = false := by decide +kernel
/-- The column results' windows are idle except at the last point, -/
theorem idle5_of : ∀ t : Fin cfg0.N, ¬cond4 (grid0.coords t) → cfg0.idle 5 (grid0.coords t) = true := by decide +kernel
theorem idle6_of : ∀ t : Fin cfg0.N, ¬cond4 (grid0.coords t) → cfg0.idle 6 (grid0.coords t) = true := by decide +kernel
theorem live5_of : ∀ t : Fin cfg0.N, cond4 (grid0.coords t) → cfg0.idle 5 (grid0.coords t) = false := by decide +kernel
theorem live6_of : ∀ t : Fin cfg0.N, cond4 (grid0.coords t) → cfg0.idle 6 (grid0.coords t) = false := by decide +kernel
/-- and are written back only there. -/
theorem noFlush5_of : ∀ t : Fin cfg0.N, ¬cond4 (grid0.coords t) → (cfg0.win 5).flush t = false := by decide +kernel
theorem noFlush6_of : ∀ t : Fin cfg0.N, ¬cond4 (grid0.coords t) → (cfg0.win 6).flush t = false := by decide +kernel

/-! ## The buffers the body is called with at a point -/

abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S8192 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S8192 .f32 := win0_6.stage (cfg0.slots t 6)
abbrev hs6 (t : Fin cfg0.N) : (ms6 t).IsWhole := hstage0_6 ((cfg0.slots t 6).cast nbuf0_6)
/-- The accumulators: the row maximum and minimum of the current row block, the column maximum and minimum of all columns. -/
abbrev scRmax : Memref sig .tc .vmem S1024 .f32 := Memref.whole cc0_scratch0
abbrev scRmin : Memref sig .tc .vmem S1024 .f32 := Memref.whole cc0_scratch1
abbrev scCmax : Memref sig .tc .vmem S8192 .f32 := Memref.whole cc0_scratch2
abbrev scCmin : Memref sig .tc .vmem S8192 .f32 := Memref.whole cc0_scratch3

/-- The rectangles the body stores through: a whole 1024 vector, a whole 8192 vector, and the 512 columns of the current tile. -/
abbrev r1024 : Rect S1024 := Rect.unit (s := S1024) ![0] S1024.size inb_S1024_S1024_0
abbrev r8192 : Rect S8192 := Rect.unit (s := S8192) ![0] S8192.size inb_S8192_S8192_0
abbrev rsl (i : grid0.Coords) : Rect S8192 := Rect.unit (s := S8192) (k0_off1 i) S512.size (k0_off1_inb i)

/-- What the region's invariant holds of the core's scoped buffers before the first point: the four accumulators at any
    contents, every other scoped buffer untouched, and the generator register. -/
theorem PhiA0_eq (c : Dev nD) :
    (Pipeline.ΦA spec0 c : sProp 𝕄)
      = iprop(iprop(iprop((∃ d, owns (c : Thread nD τ) scRmax fullShare d) ∗ (∃ d, owns (c : Thread nD τ) scRmin fullShare d)
            ∗ (∃ d, owns (c : Thread nD τ) scCmax fullShare d) ∗ (∃ d, owns (c : Thread nD τ) scCmin fullShare d))
          ∗ Pipeline.scopedRestBut (Ix := Unit) (Name := ℕ) (U := UR sig nD τ) (Lvl := ℕ) (Val := Elt F) spec0 c [cc0_scratch0, cc0_scratch1, cc0_scratch2, cc0_scratch3])
        ∗ (∃ r, prngReg c r)) := by
  unfold Pipeline.ΦA; rw [scopedRest0_split]; simp only [scRmax, scRmin, scCmax, scCmin, owns_whole]; try rfl

end Cert.KernelIdeal.H0

end
-- ==== Proof.R0RunM.lean ====
/-
  The body of pass 1 run once, symbolically, in one of the five situations a grid point can be in (case M).
-/
import proofs.«170005_j69870527971928_1_alg».proof.Proof.R0Base

set_option maxRecDepth 16384

noncomputable section

namespace Cert.KernelIdeal.H0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A tile in the middle of a row block: nothing is reset and nothing stored as a result; the row accumulators are read and stored back whole, the column accumulators on the tile's 512 columns.
    On whole memrefs — the tile and the two label vectors at their contents, the result windows the case leaves alone at
    contents handed back untouched, the accumulators at what the point before left — the body runs to the end, holding
    each buffer it stored into with its stores written, as pieces, last first. The pieces are what the run finds. -/
noncomputable def kernelRun0_M (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : ¬cond1 i) (hc2 : ¬cond2 i) (hc3 : ¬cond3 i) (hc4 : ¬cond4 i)
    (x0 : Vec F S1024x512 .f32) (x1 : Vec F S1024 .i32) (x2 : Vec F S512 .i32) (xs9 xs10 : Vec F S1024 .f32) (xs11 xs12 : Vec F S8192 .f32) :
    Σ' (LS9 : List (View.Piece (Elt F) S1024 .f32)) (LS10 : List (View.Piece (Elt F) S1024 .f32)) (LS11 : List (View.Piece (Elt F) S8192 .f32)), { LS12 : List (View.Piece (Elt F) S8192 .f32) //
      ∀ (xi5 : Vec F S1024 .f32) (xi6 : Vec F S1024 .f32) (xi7 : Vec F S8192 .f32) (xi8 : Vec F S8192 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare xi5
            ∗ owns (c : Thread nD τ) arg6 fullShare xi6
            ∗ owns (c : Thread nD τ) arg7 fullShare xi7
            ∗ owns (c : Thread nD τ) arg8 fullShare xi8
            ∗ owns (c : Thread nD τ) arg9 fullShare xs9
            ∗ owns (c : Thread nD τ) arg10 fullShare xs10
            ∗ owns (c : Thread nD τ) arg11 fullShare xs11
            ∗ owns (c : Thread nD τ) arg12 fullShare xs12
            ∗ (iprop(owns (c : Thread nD τ) arg2 fullShare x0
                ∗ owns (c : Thread nD τ) arg3 fullShare x1
                ∗ owns (c : Thread nD τ) arg4 fullShare x2
                ∗ owns (c : Thread nD τ) arg5 fullShare xi5
                ∗ owns (c : Thread nD τ) arg6 fullShare xi6
                ∗ owns (c : Thread nD τ) arg7 fullShare xi7
                ∗ owns (c : Thread nD τ) arg8 fullShare xi8
                ∗ (∃ f, arg9.view.loc (c : Thread nD τ) ↦[arg9.view.set]{fullShare} arg9.view.writes (Elt F) f LS9)
                ∗ (∃ f, arg10.view.loc (c : Thread nD τ) ↦[arg10.view.set]{fullShare} arg10.view.writes (Elt F) f LS10)
                ∗ (arg11.view.loc (c : Thread nD τ) ↦[arg11.view.set]{fullShare} arg11.view.writes (Elt F) (harg11.unread xs11) LS11)
                ∗ (arg12.view.loc (c : Thread nD τ) ↦[arg12.view.set]{fullShare} arg12.view.writes (Elt F) (harg12.unread xs12) LS12)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11 arg12 harg12) K } := by
  refine ⟨?_, ?_, ?_, ?_, fun xi5 xi6 xi7 xi8 E K => ?run⟩
  case run =>
    simp only [cc0__pass1_kernel_eq_skeleton]; unfold cc0__pass1_kernel_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexists _; iexact H10
    isplitl [H11]
    · iexact H11
    iexact H12

end Cert.KernelIdeal.H0

end
-- ==== Proof.R0RunB.lean ====
/-
  The body of pass 1 run once, symbolically, in one of the five situations a grid point can be in (case B).
-/
import proofs.«170005_j69870527971928_1_alg».proof.Proof.R0RunM

set_option maxRecDepth 16384

noncomputable section

namespace Cert.KernelIdeal.H0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first tile of a row block other than the first: the row accumulators are reset before they are updated.
    On whole memrefs — the tile and the two label vectors at their contents, the result windows the case leaves alone at
    contents handed back untouched, the accumulators at what the point before left — the body runs to the end, holding
    each buffer it stored into with its stores written, as pieces, last first. The pieces are what the run finds. -/
noncomputable def kernelRun0_B (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : ¬cond1 i) (hc2 : cond2 i) (hc3 : ¬cond3 i) (hc4 : ¬cond4 i)
    (x0 : Vec F S1024x512 .f32) (x1 : Vec F S1024 .i32) (x2 : Vec F S512 .i32) (xs9 xs10 : Vec F S1024 .f32) (xs11 xs12 : Vec F S8192 .f32) :
    Σ' (LS9 : List (View.Piece (Elt F) S1024 .f32)) (LS10 : List (View.Piece (Elt F) S1024 .f32)) (LS11 : List (View.Piece (Elt F) S8192 .f32)), { LS12 : List (View.Piece (Elt F) S8192 .f32) //
      ∀ (xi5 : Vec F S1024 .f32) (xi6 : Vec F S1024 .f32) (xi7 : Vec F S8192 .f32) (xi8 : Vec F S8192 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare xi5
            ∗ owns (c : Thread nD τ) arg6 fullShare xi6
            ∗ owns (c : Thread nD τ) arg7 fullShare xi7
            ∗ owns (c : Thread nD τ) arg8 fullShare xi8
            ∗ owns (c : Thread nD τ) arg9 fullShare xs9
            ∗ owns (c : Thread nD τ) arg10 fullShare xs10
            ∗ owns (c : Thread nD τ) arg11 fullShare xs11
            ∗ owns (c : Thread nD τ) arg12 fullShare xs12
            ∗ (iprop(owns (c : Thread nD τ) arg2 fullShare x0
                ∗ owns (c : Thread nD τ) arg3 fullShare x1
                ∗ owns (c : Thread nD τ) arg4 fullShare x2
                ∗ owns (c : Thread nD τ) arg5 fullShare xi5
                ∗ owns (c : Thread nD τ) arg6 fullShare xi6
                ∗ owns (c : Thread nD τ) arg7 fullShare xi7
                ∗ owns (c : Thread nD τ) arg8 fullShare xi8
                ∗ (∃ f, arg9.view.loc (c : Thread nD τ) ↦[arg9.view.set]{fullShare} arg9.view.writes (Elt F) f LS9)
                ∗ (∃ f, arg10.view.loc (c : Thread nD τ) ↦[arg10.view.set]{fullShare} arg10.view.writes (Elt F) f LS10)
                ∗ (arg11.view.loc (c : Thread nD τ) ↦[arg11.view.set]{fullShare} arg11.view.writes (Elt F) (harg11.unread xs11) LS11)
                ∗ (arg12.view.loc (c : Thread nD τ) ↦[arg12.view.set]{fullShare} arg12.view.writes (Elt F) (harg12.unread xs12) LS12)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11 arg12 harg12) K } := by
  refine ⟨?_, ?_, ?_, ?_, fun xi5 xi6 xi7 xi8 E K => ?run⟩
  case run =>
    simp only [cc0__pass1_kernel_eq_skeleton]; unfold cc0__pass1_kernel_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexists _; iexact H10
    isplitl [H11]
    · iexact H11
    iexact H12

end Cert.KernelIdeal.H0

end
-- ==== Proof.R0RunA.lean ====
/-
  The body of pass 1 run once, symbolically, in one of the five situations a grid point can be in (case A).
-/
import proofs.«170005_j69870527971928_1_alg».proof.Proof.R0RunB

set_option maxRecDepth 16384

noncomputable section

namespace Cert.KernelIdeal.H0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first point of the grid: all four accumulators are reset before they are updated, so what they held does not matter.
    On whole memrefs — the tile and the two label vectors at their contents, the result windows the case leaves alone at
    contents handed back untouched, the accumulators at what the point before left — the body runs to the end, holding
    each buffer it stored into with its stores written, as pieces, last first. The pieces are what the run finds. -/
noncomputable def kernelRun0_A (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : cond1 i) (hc2 : cond2 i) (hc3 : ¬cond3 i) (hc4 : ¬cond4 i)
    (x0 : Vec F S1024x512 .f32) (x1 : Vec F S1024 .i32) (x2 : Vec F S512 .i32) :
    Σ' (LS9 : List (View.Piece (Elt F) S1024 .f32)) (LS10 : List (View.Piece (Elt F) S1024 .f32)) (LS11 : List (View.Piece (Elt F) S8192 .f32)), { LS12 : List (View.Piece (Elt F) S8192 .f32) //
      ∀ (xi5 : Vec F S1024 .f32) (xi6 : Vec F S1024 .f32) (xi7 : Vec F S8192 .f32) (xi8 : Vec F S8192 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare xi5
            ∗ owns (c : Thread nD τ) arg6 fullShare xi6
            ∗ owns (c : Thread nD τ) arg7 fullShare xi7
            ∗ owns (c : Thread nD τ) arg8 fullShare xi8
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare xi5
                ∗ owns (c : Thread nD τ) arg6 fullShare xi6
                ∗ owns (c : Thread nD τ) arg7 fullShare xi7
                ∗ owns (c : Thread nD τ) arg8 fullShare xi8
                ∗ (∃ f, arg9.view.loc (c : Thread nD τ) ↦[arg9.view.set]{fullShare} arg9.view.writes (Elt F) f LS9)
                ∗ (∃ f, arg10.view.loc (c : Thread nD τ) ↦[arg10.view.set]{fullShare} arg10.view.writes (Elt F) f LS10)
                ∗ (∃ f, arg11.view.loc (c : Thread nD τ) ↦[arg11.view.set]{fullShare} arg11.view.writes (Elt F) f LS11)
                ∗ (∃ f, arg12.view.loc (c : Thread nD τ) ↦[arg12.view.set]{fullShare} arg12.view.writes (Elt F) f LS12)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11 arg12 harg12) K } := by
  refine ⟨?_, ?_, ?_, ?_, fun xi5 xi6 xi7 xi8 E K => ?run⟩
  case run =>
    simp only [cc0__pass1_kernel_eq_skeleton]; unfold cc0__pass1_kernel_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexists _; iexact H10
    isplitl [H11]
    · iexists _; iexact H11
    iexists _; iexact H12

end Cert.KernelIdeal.H0

end
-- ==== Proof.R0RunC.lean ====
/-
  The body of pass 1 run once, symbolically, in one of the five situations a grid point can be in (case C).
-/
import proofs.«170005_j69870527971928_1_alg».proof.Proof.R0RunA

set_option maxRecDepth 16384

noncomputable section

namespace Cert.KernelIdeal.H0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last tile of a row block other than the last: after the update the row accumulators are stored to the row results' windows.
    On whole memrefs — the tile and the two label vectors at their contents, the result windows the case leaves alone at
    contents handed back untouched, the accumulators at what the point before left — the body runs to the end, holding
    each buffer it stored into with its stores written, as pieces, last first. The pieces are what the run finds. -/
noncomputable def kernelRun0_C (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : ¬cond1 i) (hc2 : ¬cond2 i) (hc3 : cond3 i) (hc4 : ¬cond4 i)
    (x0 : Vec F S1024x512 .f32) (x1 : Vec F S1024 .i32) (x2 : Vec F S512 .i32) (xs9 xs10 : Vec F S1024 .f32) (xs11 xs12 : Vec F S8192 .f32) :
    Σ' (L5 : List (View.Piece (Elt F) S1024 .f32)) (L6 : List (View.Piece (Elt F) S1024 .f32)) (LS9 : List (View.Piece (Elt F) S1024 .f32)) (LS10 : List (View.Piece (Elt F) S1024 .f32)) (LS11 : List (View.Piece (Elt F) S8192 .f32)), { LS12 : List (View.Piece (Elt F) S8192 .f32) //
      ∀ (xi7 : Vec F S8192 .f32) (xi8 : Vec F S8192 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ (∃ d, owns (c : Thread nD τ) arg5 fullShare d)
            ∗ (∃ d, owns (c : Thread nD τ) arg6 fullShare d)
            ∗ owns (c : Thread nD τ) arg7 fullShare xi7
            ∗ owns (c : Thread nD τ) arg8 fullShare xi8
            ∗ owns (c : Thread nD τ) arg9 fullShare xs9
            ∗ owns (c : Thread nD τ) arg10 fullShare xs10
            ∗ owns (c : Thread nD τ) arg11 fullShare xs11
            ∗ owns (c : Thread nD τ) arg12 fullShare xs12
            ∗ (iprop(owns (c : Thread nD τ) arg2 fullShare x0
                ∗ owns (c : Thread nD τ) arg3 fullShare x1
                ∗ owns (c : Thread nD τ) arg4 fullShare x2
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ owns (c : Thread nD τ) arg7 fullShare xi7
                ∗ owns (c : Thread nD τ) arg8 fullShare xi8
                ∗ (∃ f, arg9.view.loc (c : Thread nD τ) ↦[arg9.view.set]{fullShare} arg9.view.writes (Elt F) f LS9)
                ∗ (∃ f, arg10.view.loc (c : Thread nD τ) ↦[arg10.view.set]{fullShare} arg10.view.writes (Elt F) f LS10)
                ∗ (arg11.view.loc (c : Thread nD τ) ↦[arg11.view.set]{fullShare} arg11.view.writes (Elt F) (harg11.unread xs11) LS11)
                ∗ (arg12.view.loc (c : Thread nD τ) ↦[arg12.view.set]{fullShare} arg12.view.writes (Elt F) (harg12.unread xs12) LS12)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun xi7 xi8 E K => ?run⟩
  case run =>
    simp only [cc0__pass1_kernel_eq_skeleton]; unfold cc0__pass1_kernel_skel
    simp only [k0_part1_eq_skeleton]
    unfold owns
    iintro ⟨⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf2; obtain rfl := harg3.eq_unread hf3; obtain rfl := harg4.eq_unread hf4; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexists _; iexact H10
    isplitl [H11]
    · iexact H11
    iexact H12

end Cert.KernelIdeal.H0

end
-- ==== Proof.R0RunE.lean ====
/-
  The body of pass 1 run once, symbolically, in one of the five situations a grid point can be in (case E).
-/
import proofs.«170005_j69870527971928_1_alg».proof.Proof.R0RunC

set_option maxRecDepth 16384

noncomputable section

namespace Cert.KernelIdeal.H0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last point of the grid: the row accumulators go to the row results' windows and the column accumulators to the column results' windows.
    On whole memrefs — the tile and the two label vectors at their contents, the result windows the case leaves alone at
    contents handed back untouched, the accumulators at what the point before left — the body runs to the end, holding
    each buffer it stored into with its stores written, as pieces, last first. The pieces are what the run finds. -/
noncomputable def kernelRun0_E (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : ¬cond1 i) (hc2 : ¬cond2 i) (hc3 : cond3 i) (hc4 : cond4 i)
    (x0 : Vec F S1024x512 .f32) (x1 : Vec F S1024 .i32) (x2 : Vec F S512 .i32) (xs9 xs10 : Vec F S1024 .f32) (xs11 xs12 : Vec F S8192 .f32) :
    Σ' (L5 : List (View.Piece (Elt F) S1024 .f32)) (L6 : List (View.Piece (Elt F) S1024 .f32)) (L7 : List (View.Piece (Elt F) S8192 .f32)) (L8 : List (View.Piece (Elt F) S8192 .f32)) (LS9 : List (View.Piece (Elt F) S1024 .f32)) (LS10 : List (View.Piece (Elt F) S1024 .f32)) (LS11 : List (View.Piece (Elt F) S8192 .f32)), { LS12 : List (View.Piece (Elt F) S8192 .f32) //
      ∀  (E : Set ℕ) (K : PUnit → sProp 𝕄),
        iprop(owns (c : Thread nD τ) arg2 fullShare x0
            ∗ owns (c : Thread nD τ) arg3 fullShare x1
            ∗ owns (c : Thread nD τ) arg4 fullShare x2
            ∗ (∃ d, owns (c : Thread nD τ) arg5 fullShare d)
            ∗ (∃ d, owns (c : Thread nD τ) arg6 fullShare d)
            ∗ (∃ d, owns (c : Thread nD τ) arg7 fullShare d)
            ∗ (∃ d, owns (c : Thread nD τ) arg8 fullShare d)
            ∗ owns (c : Thread nD τ) arg9 fullShare xs9
            ∗ owns (c : Thread nD τ) arg10 fullShare xs10
            ∗ owns (c : Thread nD τ) arg11 fullShare xs11
            ∗ owns (c : Thread nD τ) arg12 fullShare xs12
            ∗ (iprop(owns (c : Thread nD τ) arg2 fullShare x0
                ∗ owns (c : Thread nD τ) arg3 fullShare x1
                ∗ owns (c : Thread nD τ) arg4 fullShare x2
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f LS9)
                ∗ (∃ f, arg10.view.loc (c : Thread nD τ) ↦[arg10.view.set]{fullShare} arg10.view.writes (Elt F) f LS10)
                ∗ (arg11.view.loc (c : Thread nD τ) ↦[arg11.view.set]{fullShare} arg11.view.writes (Elt F) (harg11.unread xs11) LS11)
                ∗ (arg12.view.loc (c : Thread nD τ) ↦[arg12.view.set]{fullShare} arg12.view.writes (Elt F) (harg12.unread xs12) LS12)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, ?_, fun  E K => ?run⟩
  case run =>
    simp only [cc0__pass1_kernel_eq_skeleton]; unfold cc0__pass1_kernel_skel
    simp only [k0_part1_eq_skeleton]
    unfold owns
    iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%f9, %hf9, H9⟩, ⟨%f10, %hf10, H10⟩, ⟨%f11, %hf11, H11⟩, ⟨%f12, %hf12, H12⟩, Hk⟩
    obtain rfl := harg2.eq_unread hf2; obtain rfl := harg3.eq_unread hf3; obtain rfl := harg4.eq_unread hf4; obtain rfl := harg9.eq_unread hf9; obtain rfl := harg10.eq_unread hf10; obtain rfl := harg11.eq_unread hf11; obtain rfl := harg12.eq_unread hf12
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; iexact H6
    isplitl [H7]
    · iexists _; iexact H7
    isplitl [H8]
    · iexists _; iexact H8
    isplitl [H9]
    · iexists _; iexact H9
    isplitl [H10]
    · iexists _; iexact H10
    isplitl [H11]
    · iexact H11
    iexact H12

end Cert.KernelIdeal.H0

end
-- ==== Proof.R0.lean ====
/-
  Pass 1 of the kernel as proof data for the pipeline it is launched as: what the four accumulators and the four result
  windows hold after each grid point, by recursion on the point; the invariant that carries the accumulators from one
  point to the next; and the body obligation, point by point, by the five situations a point can be in.
  After point t = 16 i + j the row accumulators hold the running maximum / minimum over the tiles (i, 0..j) of row block i,
  and the column accumulators hold, on the 512 columns of each column block, the running maximum / minimum over the row
  blocks that have visited it. The row results are stored at j = 15 and the column results at the last point.
-/
import proofs.«170005_j69870527971928_1_alg».proof.Proof.R0RunE
import Idealize.ShloMosaic.Lib.Pipeline.Value

set_option maxRecDepth 16384

noncomputable section

namespace Cert.KernelIdeal.H0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not: where it is not fetched its
    block index has not moved. -/
theorem before_in0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before_in1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before_in2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## Reading back what stores leave -/

theorem hz1 : (![0] : Fin 1 → ℕ) = fun _ => 0 := by funext a; fin_cases a; rfl

/-- A store through the whole shape, made last, leaves its payload whatever was stored before it. -/
theorem read_whole_last {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- The column maxima after stores `L` that need not cover them: what they were, with the stored columns replaced. -/
def slw11 (xs : Vec F S8192 .f32) (L : List (View.Piece (Elt F) S8192 .f32)) : Vec F S8192 .f32 :=
  scCmax.view.read (Elt F) (scCmax.view.writes (Elt F) ((Memref.isWhole_whole _ : scCmax.IsWhole).unread xs) L)
/-- The column minima after such stores. -/
def slw12 (xs : Vec F S8192 .f32) (L : List (View.Piece (Elt F) S8192 .f32)) : Vec F S8192 .f32 :=
  scCmin.view.read (Elt F) (scCmin.view.writes (Elt F) ((Memref.isWhole_whole _ : scCmin.IsWhole).unread xs) L)

/-! ## What the buffers hold after a point -/

/-- The four result windows' buffers and the four accumulators after a point. A result window's component is
    consulted only at the points that store into it. -/
structure St (F : FTy → Type) [FloatOps F] where
  o3 : Vec F S1024 .f32
  o4 : Vec F S1024 .f32
  o5 : Vec F S8192 .f32
  o6 : Vec F S8192 .f32
  s9 : Vec F S1024 .f32
  s10 : Vec F S1024 .f32
  s11 : Vec F S8192 .f32
  s12 : Vec F S8192 .f32

/-- Contents nothing consults. -/
def jk (S : Shape) : Vec F S .f32 := View.canon ([] : List (View.Piece (Elt F) S .f32))

/-- After the first point: everything reset, then updated: each buffer stored into holds what its stores leave. -/
def stepA (c : Dev nD) (t : Fin cfg0.N) (h : cond1 (grid0.coords t) ∧ cond2 (grid0.coords t) ∧ ¬cond3 (grid0.coords t) ∧ ¬cond4 (grid0.coords t)) : St F where
  o3 := jk _
  o4 := jk _
  o5 := jk _
  o6 := jk _
  s9 := View.canon ((kernelRun0_A c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t)).1)
  s10 := View.canon ((kernelRun0_A c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t)).2.1)
  s11 := View.canon ((kernelRun0_A c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t)).2.2.1)
  s12 := View.canon ((kernelRun0_A c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t)).2.2.2.1)

/-- After the first tile of a later row block: the row accumulators reset, then updated: each buffer stored into holds what its stores leave. -/
def stepB (c : Dev nD) (t : Fin cfg0.N) (h : ¬cond1 (grid0.coords t) ∧ cond2 (grid0.coords t) ∧ ¬cond3 (grid0.coords t) ∧ ¬cond4 (grid0.coords t)) (prev : St F) : St F where
  o3 := jk _
  o4 := jk _
  o5 := jk _
  o6 := jk _
  s9 := View.canon ((kernelRun0_B c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).1)
  s10 := View.canon ((kernelRun0_B c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.1)
  s11 := slw11 prev.s11 ((kernelRun0_B c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.2.1)
  s12 := slw12 prev.s12 ((kernelRun0_B c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.2.2.1)

/-- After a middle tile: the accumulators updated: each buffer stored into holds what its stores leave. -/
def stepM (c : Dev nD) (t : Fin cfg0.N) (h : ¬cond1 (grid0.coords t) ∧ ¬cond2 (grid0.coords t) ∧ ¬cond3 (grid0.coords t) ∧ ¬cond4 (grid0.coords t)) (prev : St F) : St F where
  o3 := jk _
  o4 := jk _
  o5 := jk _
  o6 := jk _
  s9 := View.canon ((kernelRun0_M c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).1)
  s10 := View.canon ((kernelRun0_M c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.1)
  s11 := slw11 prev.s11 ((kernelRun0_M c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.2.1)
  s12 := slw12 prev.s12 ((kernelRun0_M c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.2.2.1)

/-- After the last tile of a row block: the row accumulators updated and copied to the row results: each buffer stored into holds what its stores leave. -/
def stepC (c : Dev nD) (t : Fin cfg0.N) (h : ¬cond1 (grid0.coords t) ∧ ¬cond2 (grid0.coords t) ∧ cond3 (grid0.coords t) ∧ ¬cond4 (grid0.coords t)) (prev : St F) : St F where
  o3 := View.canon ((kernelRun0_C c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).1)
  o4 := View.canon ((kernelRun0_C c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.1)
  o5 := jk _
  o6 := jk _
  s9 := View.canon ((kernelRun0_C c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.2.1)
  s10 := View.canon ((kernelRun0_C c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.2.2.1)
  s11 := slw11 prev.s11 ((kernelRun0_C c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.2.2.2.1)
  s12 := slw12 prev.s12 ((kernelRun0_C c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.2.2.2.2.1)

/-- After the last point: both pairs of accumulators updated and copied to their results: each buffer stored into holds what its stores leave. -/
def stepE (c : Dev nD) (t : Fin cfg0.N) (h : ¬cond1 (grid0.coords t) ∧ ¬cond2 (grid0.coords t) ∧ cond3 (grid0.coords t) ∧ cond4 (grid0.coords t)) (prev : St F) : St F where
  o3 := View.canon ((kernelRun0_E c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).1)
  o4 := View.canon ((kernelRun0_E c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.1)
  o5 := View.canon ((kernelRun0_E c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.2.1)
  o6 := View.canon ((kernelRun0_E c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.2.2.1)
  s9 := View.canon ((kernelRun0_E c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.2.2.2.1)
  s10 := View.canon ((kernelRun0_E c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.2.2.2.2.1)
  s11 := slw11 prev.s11 ((kernelRun0_E c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.2.2.2.2.2.1)
  s12 := slw12 prev.s12 ((kernelRun0_E c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.2.2.2.2.2.2.1)

/-! ## Which situation a point is in -/

theorem hA_of (t : Fin cfg0.N) (hz : t.val = 0) : cond1 (grid0.coords t) ∧ cond2 (grid0.coords t) ∧ ¬cond3 (grid0.coords t) ∧ ¬cond4 (grid0.coords t) :=
  ⟨(hcond1 t).mpr hz, (hcond2 t).mpr (by omega), fun h => by have := (hcond3 t).mp h; omega, fun h => by have := (hcond4 t).mp h; omega⟩
theorem hB_of (t : Fin cfg0.N) (h0 : t.val % 16 = 0) (hz : t.val ≠ 0) : ¬cond1 (grid0.coords t) ∧ cond2 (grid0.coords t) ∧ ¬cond3 (grid0.coords t) ∧ ¬cond4 (grid0.coords t) :=
  ⟨fun h => hz ((hcond1 t).mp h), (hcond2 t).mpr h0, fun h => by have := (hcond3 t).mp h; omega, fun h => by have := (hcond4 t).mp h; omega⟩
theorem hM_of (t : Fin cfg0.N) (h0 : ¬t.val % 16 = 0) (h15 : ¬t.val % 16 = 15) : ¬cond1 (grid0.coords t) ∧ ¬cond2 (grid0.coords t) ∧ ¬cond3 (grid0.coords t) ∧ ¬cond4 (grid0.coords t) :=
  ⟨fun h => by have := (hcond1 t).mp h; omega, fun h => h0 ((hcond2 t).mp h), fun h => h15 ((hcond3 t).mp h), fun h => by have := (hcond4 t).mp h; omega⟩
theorem hC_of (t : Fin cfg0.N) (h15 : t.val % 16 = 15) (hl : ¬t.val = 127) : ¬cond1 (grid0.coords t) ∧ ¬cond2 (grid0.coords t) ∧ cond3 (grid0.coords t) ∧ ¬cond4 (grid0.coords t) :=
  ⟨fun h => by have := (hcond1 t).mp h; omega, fun h => by have := (hcond2 t).mp h; omega, (hcond3 t).mpr h15, fun h => hl ((hcond4 t).mp h)⟩
theorem hE_of (t : Fin cfg0.N) (hl : t.val = 127) : ¬cond1 (grid0.coords t) ∧ ¬cond2 (grid0.coords t) ∧ cond3 (grid0.coords t) ∧ cond4 (grid0.coords t) :=
  ⟨fun h => by have := (hcond1 t).mp h; omega, fun h => by have := (hcond2 t).mp h; omega, (hcond3 t).mpr (by omega), (hcond4 t).mpr hl⟩

/-- THE ACCUMULATION: what the buffers hold after point `n`, by recursion on the point — the situation the point is in,
    run on the point's tiles, over what the point before left in the accumulators. -/
def outsAt0 (c : Dev nD) : (n : ℕ) → n < cfg0.N → St F
  | 0, hn => stepA V c ⟨0, hn⟩ (hA_of ⟨0, hn⟩ rfl)
  | n + 1, hn =>
    if h0 : (n + 1) % 16 = 0 then
      stepB V c ⟨n + 1, hn⟩ (hB_of ⟨n + 1, hn⟩ h0 (Nat.succ_ne_zero n)) (outsAt0 c n (Nat.lt_of_succ_lt hn))
    else if h15 : (n + 1) % 16 = 15 then
      if hl : n + 1 = 127 then
        stepE V c ⟨n + 1, hn⟩ (hE_of ⟨n + 1, hn⟩ hl) (outsAt0 c n (Nat.lt_of_succ_lt hn))
      else
        stepC V c ⟨n + 1, hn⟩ (hC_of ⟨n + 1, hn⟩ h15 hl) (outsAt0 c n (Nat.lt_of_succ_lt hn))
    else
      stepM V c ⟨n + 1, hn⟩ (hM_of ⟨n + 1, hn⟩ h0 h15) (outsAt0 c n (Nat.lt_of_succ_lt hn))

theorem outsAt0_A (c : Dev nD) (t : Fin cfg0.N) (hz : t.val = 0) :
    outsAt0 V c t.val t.isLt = stepA V c t (hA_of t hz) := by
  obtain ⟨n, hn⟩ := t
  cases n with
  | zero => rfl
  | succ n => exact absurd hz (Nat.succ_ne_zero n)
theorem outsAt0_B (c : Dev nD) (t : Fin cfg0.N) (h0 : t.val % 16 = 0) (hz : t.val ≠ 0) :
    outsAt0 V c t.val t.isLt = stepB V c t (hB_of t h0 hz) (outsAt0 V c (t.val - 1) (Nat.lt_of_le_of_lt (Nat.sub_le _ _) t.isLt)) := by
  obtain ⟨n, hn⟩ := t
  cases n with
  | zero => exact absurd rfl hz
  | succ n => exact (dif_pos h0).trans rfl
theorem outsAt0_M (c : Dev nD) (t : Fin cfg0.N) (h0 : ¬t.val % 16 = 0) (h15 : ¬t.val % 16 = 15) :
    outsAt0 V c t.val t.isLt = stepM V c t (hM_of t h0 h15) (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h15).trans rfl)
theorem outsAt0_C (c : Dev nD) (t : Fin cfg0.N) (h15 : t.val % 16 = 15) (hl : ¬t.val = 127) :
    outsAt0 V c t.val t.isLt = stepC V c t (hC_of t h15 hl) (outsAt0 V c (t.val - 1) (Nat.lt_of_le_of_lt (Nat.sub_le _ _) t.isLt)) := by
  obtain ⟨n, hn⟩ := t
  cases n with
  | zero => exact absurd (show (0 : ℕ) % 16 = 15 from h15) (by decide)
  | succ n =>
    have h0 : ¬(n + 1) % 16 = 0 := fun h => by have : (n + 1) % 16 = 15 := h15; omega
    exact (dif_neg h0).trans ((dif_pos h15).trans ((dif_neg hl).trans rfl))
theorem outsAt0_E (c : Dev nD) (t : Fin cfg0.N) (hl : t.val = 127) :
    outsAt0 V c t.val t.isLt = stepE V c t (hE_of t hl) (outsAt0 V c (t.val - 1) (Nat.lt_of_le_of_lt (Nat.sub_le _ _) t.isLt)) := by
  obtain ⟨n, hn⟩ := t
  cases n with
  | zero => exact absurd (show (0 : ℕ) = 127 from hl) (by decide)
  | succ n =>
    have h15 : (n + 1) % 16 = 15 := by have : n + 1 = 127 := hl; omega
    have h0 : ¬(n + 1) % 16 = 0 := by omega
    exact (dif_neg h0).trans ((dif_pos h15).trans ((dif_pos hl).trans rfl))

/-! ## The invariant between points -/

/-- Before the first point the core's scoped buffers are at anything; after point `n` the four accumulators are at what
    that point left, every other scoped buffer untouched, the generator register at some state. -/
def PhiS0 (c : Dev nD) : (n : ℕ) → n ≤ cfg0.N → sProp 𝕄
  | 0, _ => Pipeline.ΦA spec0 c
  | n + 1, hn => iprop(iprop(iprop(owns (c : Thread nD τ) scRmax fullShare ((outsAt0 V c n hn).s9) ∗ owns (c : Thread nD τ) scRmin fullShare ((outsAt0 V c n hn).s10)
        ∗ owns (c : Thread nD τ) scCmax fullShare ((outsAt0 V c n hn).s11) ∗ owns (c : Thread nD τ) scCmin fullShare ((outsAt0 V c n hn).s12))
      ∗ Pipeline.scopedRestBut (Ix := Unit) (Name := ℕ) (U := UR sig nD τ) (Lvl := ℕ) (Val := Elt F) spec0 c [cc0_scratch0, cc0_scratch1, cc0_scratch2, cc0_scratch3])
    ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(iprop(owns (c : Thread nD τ) scRmax fullShare ((outsAt0 V c n hn).s9) ∗ owns (c : Thread nD τ) scRmin fullShare ((outsAt0 V c n hn).s10)
        ∗ owns (c : Thread nD τ) scCmax fullShare ((outsAt0 V c n hn).s11) ∗ owns (c : Thread nD τ) scCmin fullShare ((outsAt0 V c n hn).s12))
      ∗ Pipeline.scopedRestBut (Ix := Unit) (Name := ℕ) (U := UR sig nD τ) (Lvl := ℕ) (Val := Elt F) spec0 c [cc0_scratch0, cc0_scratch1, cc0_scratch2, cc0_scratch3])
    ∗ (∃ r, prngReg c r)) := rfl
theorem PhiS0_pos (c : Dev nD) (n : ℕ) (h : n ≤ cfg0.N) (hz : n ≠ 0) :
    PhiS0 V c n h = iprop(iprop(iprop(owns (c : Thread nD τ) scRmax fullShare ((outsAt0 V c (n - 1) (by omega)).s9) ∗ owns (c : Thread nD τ) scRmin fullShare ((outsAt0 V c (n - 1) (by omega)).s10)
        ∗ owns (c : Thread nD τ) scCmax fullShare ((outsAt0 V c (n - 1) (by omega)).s11) ∗ owns (c : Thread nD τ) scCmin fullShare ((outsAt0 V c (n - 1) (by omega)).s12))
      ∗ Pipeline.scopedRestBut (Ix := Unit) (Name := ℕ) (U := UR sig nD τ) (Lvl := ℕ) (Val := Elt F) spec0 c [cc0_scratch0, cc0_scratch1, cc0_scratch2, cc0_scratch3])
    ∗ (∃ r, prngReg c r)) := by
  cases n with
  | zero => exact absurd rfl hz
  | succ n => rfl

/-! ## The pipeline's proof data -/

/-- The arrays as the region finds them; after the body at a point each input's buffer at its block and each result
    window's at what the accumulation says; the invariant above; the label array, which two windows stage, held in two
    halves; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).o3
    | ⟨4, _⟩ => (outsAt0 V c t.val t.isLt).o4
    | ⟨5, _⟩ => (outsAt0 V c t.val t.isLt).o5
    | ⟨6, _⟩ => (outsAt0 V c t.val t.isLt).o6
  Φ t := PhiS0 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq0 (c : Dev nD) (w : Fin cfg0.W) : (dat0 V c).A w = V c (Pipeline.arrRef spec0 w) := by
  dsimp only [dat0]
theorem q0_1 (c : Dev nD) : (dat0 V c).q 1 = fullShare.left := by dsimp only [dat0]
theorem q0_2 (c : Dev nD) : (dat0 V c).q 2 = fullShare.right := by dsimp only [dat0]
theorem q0_of (c : Dev nD) (w : Fin cfg0.W) (h1 : w ≠ 1) (h2 : w ≠ 2) : (dat0 V c).q w = fullShare := by
  match w with
  | ⟨0, _⟩ => dsimp only [dat0]
  | ⟨1, _⟩ => exact absurd rfl h1
  | ⟨2, _⟩ => exact absurd rfl h2
  | ⟨3, _⟩ => dsimp only [dat0]
  | ⟨4, _⟩ => dsimp only [dat0]
  | ⟨5, _⟩ => dsimp only [dat0]
  | ⟨6, _⟩ => dsimp only [dat0]
theorem owed0 (c : Dev nD) (t : Fin (cfg0.N + 1)) : (dat0 V c).owed t = 0 := by dsimp only [dat0]
theorem recorded0 (c : Dev nD) (t : Fin (cfg0.N + 1)) : (dat0 V c).recorded t = Set.univ := by dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).o3 := by dsimp only [dat0]
theorem after0_4 (c : Dev nD) (t : Fin cfg0.N) : (dat0 V c).after 4 t = (outsAt0 V c t.val t.isLt).o4 := by dsimp only [dat0]
theorem after0_5 (c : Dev nD) (t : Fin cfg0.N) : (dat0 V c).after 5 t = (outsAt0 V c t.val t.isLt).o5 := by dsimp only [dat0]
theorem after0_6 (c : Dev nD) (t : Fin cfg0.N) : (dat0 V c).after 6 t = (outsAt0 V c t.val t.isLt).o6 := by dsimp only [dat0]

theorem before0_0 (c : Dev nD) (t : Fin cfg0.N) (d) : (dat0 V c).before 0 t d = iblk0 V c 0 t :=
  before_in0_of V (dat0 V c) (A_eq0 V c 0) (after0_0 V c) t d
theorem before0_1 (c : Dev nD) (t : Fin cfg0.N) (d) : (dat0 V c).before 1 t d = iblk0 V c 1 t :=
  before_in1_of V (dat0 V c) (A_eq0 V c 1) (after0_1 V c) t d
theorem before0_2 (c : Dev nD) (t : Fin cfg0.N) (d) : (dat0 V c).before 2 t d = iblk0 V c 2 t :=
  before_in2_of V (dat0 V c) (A_eq0 V c 2) (after0_2 V c) t d

/-! ## The body obligation -/

/-- What the body is called with at a point, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d))
    ∗ (∃ d, owns (c : Thread nD τ) (ms5 t) fullShare ((dat0 V c).before 5 t d))
    ∗ (∃ d, owns (c : Thread nD τ) (ms6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t ∗ (dat0 V c).leavesExact 6 t)

set_option maxHeartbeats 16000000 in
/-- The body at any point: the inputs' buffers hold their tiles; the closed forms say which situation the point is in; the
    invariant hands the body the accumulators at what the point before left (at anything at the first point) and takes
    them back at this point's contents; a result window the point does not store into is handed back as found; the core
    owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0 t) fullShare ((dat0 V c).after 0 t) from by
      unfold Dat.leavesExact; rw [live0 t],
    show (dat0 V c).leavesExact 1 t = owns (c : Thread nD τ) (ms1 t) fullShare ((dat0 V c).after 1 t) from by
      unfold Dat.leavesExact; rw [live1 t],
    show (dat0 V c).leavesExact 2 t = owns (c : Thread nD τ) (ms2 t) fullShare ((dat0 V c).after 2 t) from by
      unfold Dat.leavesExact; rw [live2 t],
    after0_0, after0_1, after0_2]
  have hN : t.val < 128 := lt_of_lt_of_eq t.isLt (show cfg0.N = 128 from N_0)
  by_cases hz : t.val = 0
  · have hh := hA_of t hz
    rw [Dat.leavesExact_idle (dat0 V c) 3 t (idle3_of t hh.2.2.1) (noFlush3_of t hh.2.2.1),
        Dat.leavesExact_idle (dat0 V c) 4 t (idle4_of t hh.2.2.1) (noFlush4_of t hh.2.2.1),
        Dat.leavesExact_idle (dat0 V c) 5 t (idle5_of t hh.2.2.2) (noFlush5_of t hh.2.2.2),
        Dat.leavesExact_idle (dat0 V c) 6 t (idle6_of t hh.2.2.2) (noFlush6_of t hh.2.2.2)]
    rw [outsAt0_A V c t hz]
    unfold stepA; dsimp only
    rw [PhiS0_castSucc V c t, PhiS0_zero V c _ _ hz, PhiA0_eq]
    iintro ⟨⟨⟨⟨HS9, HS10, HS11, HS12⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) hh.1 hh.2.1 hh.2.2.1 hh.2.2.2 (iblk0 V c 0 t) (iblk0 V c 1 t) (iblk0 V c 2 t)).2.2.2.2 _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS9]; · iexact HS9
    isplitl [HS10]; · iexact HS10
    isplitl [HS11]; · iexact HS11
    isplitl [HS12]; · iexact HS12
    iintro ⟨H0, H1, H2, H3, H4, H5, H6, ⟨%e9, HS9⟩, ⟨%e10, HS10⟩, ⟨%e11, HS11⟩, ⟨%e12, HS12⟩⟩
    isplitl [HS9 HS10 HS11 HS12 Hrest Hg]
    · isplitl [HS9 HS10 HS11 HS12 Hrest]
      · isplitl [HS9 HS10 HS11 HS12]
        · isplitl [HS9]
          · unfold owns; iexists _; isplitr
            swap; · iexact HS9
            ipureintro; exact View.read_writes_eq_canon _ _ _ (View.cover_of_wholeMem _ (by sl_whole_mem))
          isplitl [HS10]
          · unfold owns; iexists _; isplitr
            swap; · iexact HS10
            ipureintro; exact View.read_writes_eq_canon _ _ _ (View.cover_of_wholeMem _ (by sl_whole_mem))
          isplitl [HS11]
          · unfold owns; iexists _; isplitr
            swap; · iexact HS11
            ipureintro; exact View.read_writes_eq_canon _ _ _ (View.cover_of_wholeMem _ (by sl_whole_mem))
          unfold owns; iexists _; isplitr
          swap; · iexact HS12
          ipureintro; exact View.read_writes_eq_canon _ _ _ (View.cover_of_wholeMem _ (by sl_whole_mem))
        iexact Hrest
      iexact Hg
    isplitl [Ho]; · iexact Ho
    isplitl [H0]; · iexact H0
    isplitl [H1]; · iexact H1
    isplitl [H2]; · iexact H2
    isplitl [H3]; · iexists _; iexact H3
    isplitl [H4]; · iexists _; iexact H4
    isplitl [H5]; · iexists _; iexact H5
    iexists _; iexact H6
  · by_cases h0 : t.val % 16 = 0
    · have hh := hB_of t h0 hz
      rw [Dat.leavesExact_idle (dat0 V c) 3 t (idle3_of t hh.2.2.1) (noFlush3_of t hh.2.2.1),
          Dat.leavesExact_idle (dat0 V c) 4 t (idle4_of t hh.2.2.1) (noFlush4_of t hh.2.2.1),
          Dat.leavesExact_idle (dat0 V c) 5 t (idle5_of t hh.2.2.2) (noFlush5_of t hh.2.2.2),
          Dat.leavesExact_idle (dat0 V c) 6 t (idle6_of t hh.2.2.2) (noFlush6_of t hh.2.2.2)]
      rw [outsAt0_B V c t h0 hz]
      unfold stepB; dsimp only
      rw [PhiS0_castSucc V c t, PhiS0_pos V c _ _ hz]
      iintro ⟨⟨⟨⟨HS9, HS10, HS11, HS12⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) hh.1 hh.2.1 hh.2.2.1 hh.2.2.2 (iblk0 V c 0 t) (iblk0 V c 1 t) (iblk0 V c 2 t) _ _ _ _).2.2.2.2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS9]; · iexact HS9
      isplitl [HS10]; · iexact HS10
      isplitl [HS11]; · iexact HS11
      isplitl [HS12]; · iexact HS12
      iintro ⟨H0, H1, H2, H3, H4, H5, H6, ⟨%e9, HS9⟩, ⟨%e10, HS10⟩, HS11, HS12⟩
      isplitl [HS9 HS10 HS11 HS12 Hrest Hg]
      · isplitl [HS9 HS10 HS11 HS12 Hrest]
        · isplitl [HS9 HS10 HS11 HS12]
          · isplitl [HS9]
            · unfold owns; iexists _; isplitr
              swap; · iexact HS9
              ipureintro; exact View.read_writes_eq_canon _ _ _ (View.cover_of_wholeMem _ (by sl_whole_mem))
            isplitl [HS10]
            · unfold owns; iexists _; isplitr
              swap; · iexact HS10
              ipureintro; exact View.read_writes_eq_canon _ _ _ (View.cover_of_wholeMem _ (by sl_whole_mem))
            isplitl [HS11]
            · unfold owns; iexists _; isplitr
              swap; · iexact HS11
              ipureintro; rfl
            unfold owns; iexists _; isplitr
            swap; · iexact HS12
            ipureintro; rfl
          iexact Hrest
        iexact Hg
      isplitl [Ho]; · iexact Ho
      isplitl [H0]; · iexact H0
      isplitl [H1]; · iexact H1
      isplitl [H2]; · iexact H2
      isplitl [H3]; · iexists _; iexact H3
      isplitl [H4]; · iexists _; iexact H4
      isplitl [H5]; · iexists _; iexact H5
      iexists _; iexact H6
    · by_cases h15 : t.val % 16 = 15
      · by_cases hl : t.val = 127
        · have hh := hE_of t hl
          rw [show (dat0 V c).leavesExact 3 t = owns (c : Thread nD τ) (ms3 t) fullShare ((dat0 V c).after 3 t) from by
                unfold Dat.leavesExact; rw [live3_of t hh.2.2.1],
              show (dat0 V c).leavesExact 4 t = owns (c : Thread nD τ) (ms4 t) fullShare ((dat0 V c).after 4 t) from by
                unfold Dat.leavesExact; rw [live4_of t hh.2.2.1],
              show (dat0 V c).leavesExact 5 t = owns (c : Thread nD τ) (ms5 t) fullShare ((dat0 V c).after 5 t) from by
                unfold Dat.leavesExact; rw [live5_of t hh.2.2.2],
              show (dat0 V c).leavesExact 6 t = owns (c : Thread nD τ) (ms6 t) fullShare ((dat0 V c).after 6 t) from by
                unfold Dat.leavesExact; rw [live6_of t hh.2.2.2]]
          rw [after0_3, after0_4, after0_5, after0_6]
          rw [outsAt0_E V c t hl]
          unfold stepE; dsimp only
          rw [PhiS0_castSucc V c t, PhiS0_pos V c _ _ hz]
          iintro ⟨⟨⟨⟨HS9, HS10, HS11, HS12⟩, Hrest⟩, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_E c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) hh.1 hh.2.1 hh.2.2.1 hh.2.2.2 (iblk0 V c 0 t) (iblk0 V c 1 t) (iblk0 V c 2 t) _ _ _ _).2.2.2.2.2.2.2.2 Set.univ _)
          isplitl [H0]; · iexact H0
          isplitl [H1]; · iexact H1
          isplitl [H2]; · iexact H2
          isplitl [H3]; · iexists _; iexact H3
          isplitl [H4]; · iexists _; iexact H4
          isplitl [H5]; · iexists _; iexact H5
          isplitl [H6]; · iexists _; iexact H6
          isplitl [HS9]; · iexact HS9
          isplitl [HS10]; · iexact HS10
          isplitl [HS11]; · iexact HS11
          isplitl [HS12]; · iexact HS12
          iintro ⟨H0, H1, H2, ⟨%e3, H3⟩, ⟨%e4, H4⟩, ⟨%e5, H5⟩, ⟨%e6, H6⟩, ⟨%e9, HS9⟩, ⟨%e10, HS10⟩, HS11, HS12⟩
          isplitl [HS9 HS10 HS11 HS12 Hrest Hg]
          · isplitl [HS9 HS10 HS11 HS12 Hrest]
            · isplitl [HS9 HS10 HS11 HS12]
              · isplitl [HS9]
                · unfold owns; iexists _; isplitr
                  swap; · iexact HS9
                  ipureintro; exact View.read_writes_eq_canon _ _ _ (View.cover_of_wholeMem _ (by sl_whole_mem))
                isplitl [HS10]
                · unfold owns; iexists _; isplitr
                  swap; · iexact HS10
                  ipureintro; exact View.read_writes_eq_canon _ _ _ (View.cover_of_wholeMem _ (by sl_whole_mem))
                isplitl [HS11]
                · unfold owns; iexists _; isplitr
                  swap; · iexact HS11
                  ipureintro; rfl
                unfold owns; iexists _; isplitr
                swap; · iexact HS12
                ipureintro; rfl
              iexact Hrest
            iexact Hg
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_eq_canon _ _ _ (View.cover_of_wholeMem _ (by sl_whole_mem))
          isplitl [H4]
          · unfold owns; iexists _; isplitr
            swap; · iexact H4
            ipureintro; exact View.read_writes_eq_canon _ _ _ (View.cover_of_wholeMem _ (by sl_whole_mem))
          isplitl [H5]
          · unfold owns; iexists _; isplitr
            swap; · iexact H5
            ipureintro; exact View.read_writes_eq_canon _ _ _ (View.cover_of_wholeMem _ (by sl_whole_mem))
          unfold owns; iexists _; isplitr
          swap; · iexact H6
          ipureintro; exact View.read_writes_eq_canon _ _ _ (View.cover_of_wholeMem _ (by sl_whole_mem))
        · have hh := hC_of t h15 hl
          rw [show (dat0 V c).leavesExact 3 t = owns (c : Thread nD τ) (ms3 t) fullShare ((dat0 V c).after 3 t) from by
                unfold Dat.leavesExact; rw [live3_of t hh.2.2.1],
              show (dat0 V c).leavesExact 4 t = owns (c : Thread nD τ) (ms4 t) fullShare ((dat0 V c).after 4 t) from by
                unfold Dat.leavesExact; rw [live4_of t hh.2.2.1],
              Dat.leavesExact_idle (dat0 V c) 5 t (idle5_of t hh.2.2.2) (noFlush5_of t hh.2.2.2),
              Dat.leavesExact_idle (dat0 V c) 6 t (idle6_of t hh.2.2.2) (noFlush6_of t hh.2.2.2)]
          rw [after0_3, after0_4]
          rw [outsAt0_C V c t h15 hl]
          unfold stepC; dsimp only
          rw [PhiS0_castSucc V c t, PhiS0_pos V c _ _ hz]
          iintro ⟨⟨⟨⟨HS9, HS10, HS11, HS12⟩, Hrest⟩, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_C c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) hh.1 hh.2.1 hh.2.2.1 hh.2.2.2 (iblk0 V c 0 t) (iblk0 V c 1 t) (iblk0 V c 2 t) _ _ _ _).2.2.2.2.2.2 _ _ Set.univ _)
          isplitl [H0]; · iexact H0
          isplitl [H1]; · iexact H1
          isplitl [H2]; · iexact H2
          isplitl [H3]; · iexists _; iexact H3
          isplitl [H4]; · iexists _; iexact H4
          isplitl [H5]; · iexact H5
          isplitl [H6]; · iexact H6
          isplitl [HS9]; · iexact HS9
          isplitl [HS10]; · iexact HS10
          isplitl [HS11]; · iexact HS11
          isplitl [HS12]; · iexact HS12
          iintro ⟨H0, H1, H2, ⟨%e3, H3⟩, ⟨%e4, H4⟩, H5, H6, ⟨%e9, HS9⟩, ⟨%e10, HS10⟩, HS11, HS12⟩
          isplitl [HS9 HS10 HS11 HS12 Hrest Hg]
          · isplitl [HS9 HS10 HS11 HS12 Hrest]
            · isplitl [HS9 HS10 HS11 HS12]
              · isplitl [HS9]
                · unfold owns; iexists _; isplitr
                  swap; · iexact HS9
                  ipureintro; exact View.read_writes_eq_canon _ _ _ (View.cover_of_wholeMem _ (by sl_whole_mem))
                isplitl [HS10]
                · unfold owns; iexists _; isplitr
                  swap; · iexact HS10
                  ipureintro; exact View.read_writes_eq_canon _ _ _ (View.cover_of_wholeMem _ (by sl_whole_mem))
                isplitl [HS11]
                · unfold owns; iexists _; isplitr
                  swap; · iexact HS11
                  ipureintro; rfl
                unfold owns; iexists _; isplitr
                swap; · iexact HS12
                ipureintro; rfl
              iexact Hrest
            iexact Hg
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_eq_canon _ _ _ (View.cover_of_wholeMem _ (by sl_whole_mem))
          isplitl [H4]
          · unfold owns; iexists _; isplitr
            swap; · iexact H4
            ipureintro; exact View.read_writes_eq_canon _ _ _ (View.cover_of_wholeMem _ (by sl_whole_mem))
          isplitl [H5]; · iexists _; iexact H5
          iexists _; iexact H6
      · have hh := hM_of t h0 h15
        rw [Dat.leavesExact_idle (dat0 V c) 3 t (idle3_of t hh.2.2.1) (noFlush3_of t hh.2.2.1),
            Dat.leavesExact_idle (dat0 V c) 4 t (idle4_of t hh.2.2.1) (noFlush4_of t hh.2.2.1),
            Dat.leavesExact_idle (dat0 V c) 5 t (idle5_of t hh.2.2.2) (noFlush5_of t hh.2.2.2),
            Dat.leavesExact_idle (dat0 V c) 6 t (idle6_of t hh.2.2.2) (noFlush6_of t hh.2.2.2)]
        rw [outsAt0_M V c t h0 h15]
        unfold stepM; dsimp only
        rw [PhiS0_castSucc V c t, PhiS0_pos V c _ _ hz]
        iintro ⟨⟨⟨⟨HS9, HS10, HS11, HS12⟩, Hrest⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_M c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) hh.1 hh.2.1 hh.2.2.1 hh.2.2.2 (iblk0 V c 0 t) (iblk0 V c 1 t) (iblk0 V c 2 t) _ _ _ _).2.2.2.2 _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS9]; · iexact HS9
        isplitl [HS10]; · iexact HS10
        isplitl [HS11]; · iexact HS11
        isplitl [HS12]; · iexact HS12
        iintro ⟨H0, H1, H2, H3, H4, H5, H6, ⟨%e9, HS9⟩, ⟨%e10, HS10⟩, HS11, HS12⟩
        isplitl [HS9 HS10 HS11 HS12 Hrest Hg]
        · isplitl [HS9 HS10 HS11 HS12 Hrest]
          · isplitl [HS9 HS10 HS11 HS12]
            · isplitl [HS9]
              · unfold owns; iexists _; isplitr
                swap; · iexact HS9
                ipureintro; exact View.read_writes_eq_canon _ _ _ (View.cover_of_wholeMem _ (by sl_whole_mem))
              isplitl [HS10]
              · unfold owns; iexists _; isplitr
                swap; · iexact HS10
                ipureintro; exact View.read_writes_eq_canon _ _ _ (View.cover_of_wholeMem _ (by sl_whole_mem))
              isplitl [HS11]
              · unfold owns; iexists _; isplitr
                swap; · iexact HS11
                ipureintro; rfl
              unfold owns; iexists _; isplitr
              swap; · iexact HS12
              ipureintro; rfl
            iexact Hrest
          iexact Hg
        isplitl [Ho]; · iexact Ho
        isplitl [H0]; · iexact H0
        isplitl [H1]; · iexact H1
        isplitl [H2]; · iexact H2
        isplitl [H3]; · iexists _; iexact H3
        isplitl [H4]; · iexists _; iexact H4
        isplitl [H5]; · iexists _; iexact H5
        iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped buffers back: the accumulators' contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 128 := N_0; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨⟨⟨HS9, HS10, HS11, HS12⟩, Hrest⟩, Hg⟩
  isplitl [HS9 HS10 HS11 HS12 Hrest]
  · isplitl [HS9 HS10 HS11 HS12]
    · isplitl [HS9]; · iexists _; iexact HS9
      isplitl [HS10]; · iexists _; iexact HS10
      isplitl [HS11]; · iexists _; iexact HS11
      iexists _; iexact HS12
    iexact Hrest
  iexact Hg

end Cert.KernelIdeal.H0

end
-- ==== Proof.R1Conds.lean ====
import proofs.«170005_j69870527971928_1_alg».proof.Proof.Gen.KernelIdeal.Skeleton
import proofs.«170005_j69870527971928_1_alg».proof.Proof.Gen.KernelIdeal.Launch
import proofs.«170005_j69870527971928_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, over the grid coordinates -/

/-- The first point of the whole grid: the column accumulators are reset there. -/
abbrev cond1 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The first column block of a row block: the row accumulators are reset there. -/
abbrev cond2 (i : grid1.Coords) : Prop :=
  (Scalar.cmpi .ne (Scalar.extui (Scalar.cmpi .eq (BitVec.ofNat 32 (i 1).val) 0#32)) 0#32) = 1#1
/-- The last column block of a row block: the row results are stored there. -/
abbrev cond3 (i : grid1.Coords) : Prop := k1_cond3 i = 1#1
/-- The last point of the grid: the column results are stored there. -/
abbrev cond4 (i : grid1.Coords) : Prop := k1_cond4 i = 1#1

/-- The conditions in closed form, decided over the grid's 128 points. -/
theorem hcond1 : ∀ t : Fin cfg1.N, cond1 (grid1.coords t) ↔ t.val = 0 :=
  (by decide +kernel : ∀ t : Fin grid1.N, cond1 (grid1.coords t) ↔ t.val = 0)
theorem hcond2 : ∀ t : Fin cfg1.N, cond2 (grid1.coords t) ↔ t.val % 16 = 0 :=
  (by decide +kernel : ∀ t : Fin grid1.N, cond2 (grid1.coords t) ↔ t.val % 16 = 0)
theorem hcond3 : ∀ t : Fin cfg1.N, cond3 (grid1.coords t) ↔ t.val % 16 = 15 :=
  (by decide +kernel : ∀ t : Fin grid1.N, cond3 (grid1.coords t) ↔ t.val % 16 = 15)
theorem hcond4 : ∀ t : Fin cfg1.N, cond4 (grid1.coords t) ↔ t.val = 127 :=
  (by decide +kernel : ∀ t : Fin grid1.N, cond4 (grid1.coords t) ↔ t.val = 127)

/-! ## Where the windows are idle -/

theorem liveAt0 : ∀ t : Fin cfg1.N, cfg1.idle 0 (grid1.coords t) = false := by decide +kernel
theorem liveAt1 : ∀ t : Fin cfg1.N, cfg1.idle 1 (grid1.coords t) = false := by decide +kernel
theorem liveAt2 : ∀ t : Fin cfg1.N, cfg1.idle 2 (grid1.coords t) = false := by decide +kernel
theorem liveAt3 : ∀ t : Fin cfg1.N, cfg1.idle 3 (grid1.coords t) = false := by decide +kernel
theorem liveAt4 : ∀ t : Fin cfg1.N, cfg1.idle 4 (grid1.coords t) = false := by decide +kernel
theorem liveAt5 : ∀ t : Fin cfg1.N, cfg1.idle 5 (grid1.coords t) = false := by decide +kernel
theorem liveAt6 : ∀ t : Fin cfg1.N, cfg1.idle 6 (grid1.coords t) = false := by decide +kernel
theorem idleAt7 : ∀ t : Fin cfg1.N, ¬cond3 (grid1.coords t) → cfg1.idle 7 (grid1.coords t) = true := by decide +kernel
theorem noFlush7 : ∀ t : Fin cfg1.N, ¬cond3 (grid1.coords t) → (cfg1.win 7).flush t = false := by decide +kernel
theorem liveAt7 : ∀ t : Fin cfg1.N, cond3 (grid1.coords t) → cfg1.idle 7 (grid1.coords t) = false := by decide +kernel
theorem idleAt8 : ∀ t : Fin cfg1.N, ¬cond3 (grid1.coords t) → cfg1.idle 8 (grid1.coords t) = true := by decide +kernel
theorem noFlush8 : ∀ t : Fin cfg1.N, ¬cond3 (grid1.coords t) → (cfg1.win 8).flush t = false := by decide +kernel
theorem liveAt8 : ∀ t : Fin cfg1.N, cond3 (grid1.coords t) → cfg1.idle 8 (grid1.coords t) = false := by decide +kernel
theorem idleAt9 : ∀ t : Fin cfg1.N, ¬cond3 (grid1.coords t) → cfg1.idle 9 (grid1.coords t) = true := by decide +kernel
theorem noFlush9 : ∀ t : Fin cfg1.N, ¬cond3 (grid1.coords t) → (cfg1.win 9).flush t = false := by decide +kernel
theorem liveAt9 : ∀ t : Fin cfg1.N, cond3 (grid1.coords t) → cfg1.idle 9 (grid1.coords t) = false := by decide +kernel
theorem idleAt10 : ∀ t : Fin cfg1.N, ¬cond4 (grid1.coords t) → cfg1.idle 10 (grid1.coords t) = true := by decide +kernel
theorem noFlush10 : ∀ t : Fin cfg1.N, ¬cond4 (grid1.coords t) → (cfg1.win 10).flush t = false := by decide +kernel
theorem liveAt10 : ∀ t : Fin cfg1.N, cond4 (grid1.coords t) → cfg1.idle 10 (grid1.coords t) = false := by decide +kernel
theorem idleAt11 : ∀ t : Fin cfg1.N, ¬cond4 (grid1.coords t) → cfg1.idle 11 (grid1.coords t) = true := by decide +kernel
theorem noFlush11 : ∀ t : Fin cfg1.N, ¬cond4 (grid1.coords t) → (cfg1.win 11).flush t = false := by decide +kernel
theorem liveAt11 : ∀ t : Fin cfg1.N, cond4 (grid1.coords t) → cfg1.idle 11 (grid1.coords t) = false := by decide +kernel
theorem idleAt12 : ∀ t : Fin cfg1.N, ¬cond4 (grid1.coords t) → cfg1.idle 12 (grid1.coords t) = true := by decide +kernel
theorem noFlush12 : ∀ t : Fin cfg1.N, ¬cond4 (grid1.coords t) → (cfg1.win 12).flush t = false := by decide +kernel
theorem liveAt12 : ∀ t : Fin cfg1.N, cond4 (grid1.coords t) → cfg1.idle 12 (grid1.coords t) = false := by decide +kernel

/-! ## The staging and scratch memrefs at a point -/

abbrev ms0 (t : Fin cfg1.N) : Memref sig .tc .vmem S1024x512 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024 .i32 := win1_1.stage (cfg1.slots t 1)
abbrev hs1 (t : Fin cfg1.N) : (ms1 t).IsWhole := hstage1_1 ((cfg1.slots t 1).cast nbuf1_1)
abbrev ms2 (t : Fin cfg1.N) : Memref sig .tc .vmem S512 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S512 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S512 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S1024 .f32 := win1_7.stage (cfg1.slots t 7)
abbrev hs7 (t : Fin cfg1.N) : (ms7 t).IsWhole := hstage1_7 ((cfg1.slots t 7).cast nbuf1_7)
abbrev ms8 (t : Fin cfg1.N) : Memref sig .tc .vmem S1024 .f32 := win1_8.stage (cfg1.slots t 8)
abbrev hs8 (t : Fin cfg1.N) : (ms8 t).IsWhole := hstage1_8 ((cfg1.slots t 8).cast nbuf1_8)
abbrev ms9 (t : Fin cfg1.N) : Memref sig .tc .vmem S1024 .f32 := win1_9.stage (cfg1.slots t 9)
abbrev hs9 (t : Fin cfg1.N) : (ms9 t).IsWhole := hstage1_9 ((cfg1.slots t 9).cast nbuf1_9)
abbrev ms10 (t : Fin cfg1.N) : Memref sig .tc .vmem S8192 .f32 := win1_10.stage (cfg1.slots t 10)
abbrev hs10 (t : Fin cfg1.N) : (ms10 t).IsWhole := hstage1_10 ((cfg1.slots t 10).cast nbuf1_10)
abbrev ms11 (t : Fin cfg1.N) : Memref sig .tc .vmem S8192 .f32 := win1_11.stage (cfg1.slots t 11)
abbrev hs11 (t : Fin cfg1.N) : (ms11 t).IsWhole := hstage1_11 ((cfg1.slots t 11).cast nbuf1_11)
abbrev ms12 (t : Fin cfg1.N) : Memref sig .tc .vmem S8192 .f32 := win1_12.stage (cfg1.slots t 12)
abbrev hs12 (t : Fin cfg1.N) : (ms12 t).IsWhole := hstage1_12 ((cfg1.slots t 12).cast nbuf1_12)
abbrev scM0 : Memref sig .tc .vmem S1024 .f32 := Memref.whole cc1_scratch0
abbrev VS0 : View sig .tc .vmem S1024 .f32 := scM0.view
abbrev scM1 : Memref sig .tc .vmem S1024 .f32 := Memref.whole cc1_scratch1
abbrev VS1 : View sig .tc .vmem S1024 .f32 := scM1.view
abbrev scM2 : Memref sig .tc .vmem S1024 .f32 := Memref.whole cc1_scratch2
abbrev VS2 : View sig .tc .vmem S1024 .f32 := scM2.view
abbrev scM3 : Memref sig .tc .vmem S1024 .f32 := Memref.whole cc1_scratch3
abbrev VS3 : View sig .tc .vmem S1024 .f32 := scM3.view
abbrev scM4 : Memref sig .tc .vmem S8192 .f32 := Memref.whole cc1_scratch4
abbrev VS4 : View sig .tc .vmem S8192 .f32 := scM4.view
abbrev scM5 : Memref sig .tc .vmem S8192 .f32 := Memref.whole cc1_scratch5
abbrev VS5 : View sig .tc .vmem S8192 .f32 := scM5.view
abbrev scM6 : Memref sig .tc .vmem S8192 .f32 := Memref.whole cc1_scratch6
abbrev VS6 : View sig .tc .vmem S8192 .f32 := scM6.view
abbrev scM7 : Memref sig .tc .vmem S8192 .f32 := Memref.whole cc1_scratch7
abbrev VS7 : View sig .tc .vmem S8192 .f32 := scM7.view
/-- A view of each output block's shape, through which an output's contents are stated. -/
abbrev VO1024 : View sig .tc .vmem S1024 .f32 := scM0.view
abbrev VO8192 : View sig .tc .vmem S8192 .f32 := scM4.view

/-- The rectangles the body stores through: a whole 1024 vector, a whole 8192 vector, and the 512 columns of the current tile. -/
abbrev r1024 : Rect S1024 := Rect.unit (s := S1024) ![0] S1024.size inb_S1024_S1024_0
abbrev r8192 : Rect S8192 := Rect.unit (s := S8192) ![0] S8192.size inb_S8192_S8192_0
abbrev rsl (i : grid1.Coords) : Rect S8192 := Rect.unit (s := S8192) (k1_off1 i) S512.size (k1_off1_inb i)

end Cert.KernelIdeal.H1

end
-- ==== Proof.R1RunM.lean ====
import proofs.«170005_j69870527971928_1_alg».proof.Proof.R1Conds

set_option maxRecDepth 16384

noncomputable section

namespace Cert.KernelIdeal.H1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- A point in the middle of a row block: the row accumulators are updated whole, the column accumulators on their slice; no result is stored.
    On whole memrefs — the inputs' at their contents, an output the case does not store into at contents handed back
    untouched, an accumulator the case reads before covering at the contents the point before left — the body runs to
    the continuation holding each buffer it stored into with its stores written, as pieces, last first (a column
    accumulator stored only on its slice: over the contents it was handed). The pieces are what the run finds. -/
noncomputable def kernelRun1_M (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    Σ' (LS15 : List (View.Piece (Elt F) S1024 .f32)) (LS16 : List (View.Piece (Elt F) S1024 .f32)) (LS17 : List (View.Piece (Elt F) S1024 .f32)) (LS18 : List (View.Piece (Elt F) S1024 .f32)) (LS19 : List (View.Piece (Elt F) S8192 .f32)) (LS20 : List (View.Piece (Elt F) S8192 .f32)) (LS21 : List (View.Piece (Elt F) S8192 .f32)), { LS22 : List (View.Piece (Elt F) S8192 .f32) //
      ∀ (xi9 xi10 xi11 : Vec F S1024 .f32) (xi12 xi13 xi14 : Vec F S8192 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare xi9
            ∗ owns (c : Thread nD τ) arg10 fullShare xi10
            ∗ owns (c : Thread nD τ) arg11 fullShare xi11
            ∗ owns (c : Thread nD τ) arg12 fullShare xi12
            ∗ owns (c : Thread nD τ) arg13 fullShare xi13
            ∗ owns (c : Thread nD τ) arg14 fullShare xi14
            ∗ owns (c : Thread nD τ) arg15 fullShare xs15
            ∗ owns (c : Thread nD τ) arg16 fullShare xs16
            ∗ owns (c : Thread nD τ) arg17 fullShare xs17
            ∗ owns (c : Thread nD τ) arg18 fullShare xs18
            ∗ owns (c : Thread nD τ) arg19 fullShare xs19
            ∗ owns (c : Thread nD τ) arg20 fullShare xs20
            ∗ owns (c : Thread nD τ) arg21 fullShare xs21
            ∗ owns (c : Thread nD τ) arg22 fullShare xs22
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare xi9
                ∗ owns (c : Thread nD τ) arg10 fullShare xi10
                ∗ owns (c : Thread nD τ) arg11 fullShare xi11
                ∗ owns (c : Thread nD τ) arg12 fullShare xi12
                ∗ owns (c : Thread nD τ) arg13 fullShare xi13
                ∗ owns (c : Thread nD τ) arg14 fullShare xi14
                ∗ (∃ f, arg15.view.loc (c : Thread nD τ) ↦[arg15.view.set]{fullShare} arg15.view.writes (Elt F) f LS15)
                ∗ (∃ f, arg16.view.loc (c : Thread nD τ) ↦[arg16.view.set]{fullShare} arg16.view.writes (Elt F) f LS16)
                ∗ (∃ f, arg17.view.loc (c : Thread nD τ) ↦[arg17.view.set]{fullShare} arg17.view.writes (Elt F) f LS17)
                ∗ (∃ f, arg18.view.loc (c : Thread nD τ) ↦[arg18.view.set]{fullShare} arg18.view.writes (Elt F) f LS18)
                ∗ (arg19.view.loc (c : Thread nD τ) ↦[arg19.view.set]{fullShare} arg19.view.writes (Elt F) (harg19.unread xs19) LS19)
                ∗ (arg20.view.loc (c : Thread nD τ) ↦[arg20.view.set]{fullShare} arg20.view.writes (Elt F) (harg20.unread xs20) LS20)
                ∗ (arg21.view.loc (c : Thread nD τ) ↦[arg21.view.set]{fullShare} arg21.view.writes (Elt F) (harg21.unread xs21) LS21)
                ∗ (arg22.view.loc (c : Thread nD τ) ↦[arg22.view.set]{fullShare} arg22.view.writes (Elt F) (harg22.unread xs22) LS22)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, fun xi9 xi10 xi11 xi12 xi13 xi14 E K => ?run⟩
  case run =>
    simp only [cc1__pass2_kernel_eq_skeleton]; unfold cc1__pass2_kernel_skel
    simp only [k1_part1_eq_skeleton, k1_part2_eq_skeleton, k1_part3_eq_skeleton]
    unfold k1_part1_skel k1_part2_skel k1_part3_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]; · iexists _; iexact H15
    isplitl [H16]; · iexists _; iexact H16
    isplitl [H17]; · iexists _; iexact H17
    isplitl [H18]; · iexists _; iexact H18
    isplitl [H19]; · iexact H19
    isplitl [H20]; · iexact H20
    isplitl [H21]; · iexact H21
    iexact H22

end Cert.KernelIdeal.H1

end
-- ==== Proof.R1RunA.lean ====
import proofs.«170005_j69870527971928_1_alg».proof.Proof.R1RunM

set_option maxRecDepth 16384

noncomputable section

namespace Cert.KernelIdeal.H1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The first point of the grid: every accumulator is reset, then updated; no result is stored.
    On whole memrefs — the inputs' at their contents, an output the case does not store into at contents handed back
    untouched, an accumulator the case reads before covering at the contents the point before left — the body runs to
    the continuation holding each buffer it stored into with its stores written, as pieces, last first (a column
    accumulator stored only on its slice: over the contents it was handed). The pieces are what the run finds. -/
noncomputable def kernelRun1_A (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) :
    Σ' (LS15 : List (View.Piece (Elt F) S1024 .f32)) (LS16 : List (View.Piece (Elt F) S1024 .f32)) (LS17 : List (View.Piece (Elt F) S1024 .f32)) (LS18 : List (View.Piece (Elt F) S1024 .f32)) (LS19 : List (View.Piece (Elt F) S8192 .f32)) (LS20 : List (View.Piece (Elt F) S8192 .f32)) (LS21 : List (View.Piece (Elt F) S8192 .f32)), { LS22 : List (View.Piece (Elt F) S8192 .f32) //
      ∀ (xi9 xi10 xi11 : Vec F S1024 .f32) (xi12 xi13 xi14 : Vec F S8192 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare xi9
            ∗ owns (c : Thread nD τ) arg10 fullShare xi10
            ∗ owns (c : Thread nD τ) arg11 fullShare xi11
            ∗ owns (c : Thread nD τ) arg12 fullShare xi12
            ∗ owns (c : Thread nD τ) arg13 fullShare xi13
            ∗ owns (c : Thread nD τ) arg14 fullShare xi14
            ∗ (∃ d, owns (c : Thread nD τ) arg15 fullShare d)
            ∗ (∃ d, owns (c : Thread nD τ) arg16 fullShare d)
            ∗ (∃ d, owns (c : Thread nD τ) arg17 fullShare d)
            ∗ (∃ d, owns (c : Thread nD τ) arg18 fullShare d)
            ∗ (∃ d, owns (c : Thread nD τ) arg19 fullShare d)
            ∗ (∃ d, owns (c : Thread nD τ) arg20 fullShare d)
            ∗ (∃ d, owns (c : Thread nD τ) arg21 fullShare d)
            ∗ (∃ d, owns (c : Thread nD τ) arg22 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare xi9
                ∗ owns (c : Thread nD τ) arg10 fullShare xi10
                ∗ owns (c : Thread nD τ) arg11 fullShare xi11
                ∗ owns (c : Thread nD τ) arg12 fullShare xi12
                ∗ owns (c : Thread nD τ) arg13 fullShare xi13
                ∗ owns (c : Thread nD τ) arg14 fullShare xi14
                ∗ (∃ f, arg15.view.loc (c : Thread nD τ) ↦[arg15.view.set]{fullShare} arg15.view.writes (Elt F) f LS15)
                ∗ (∃ f, arg16.view.loc (c : Thread nD τ) ↦[arg16.view.set]{fullShare} arg16.view.writes (Elt F) f LS16)
                ∗ (∃ f, arg17.view.loc (c : Thread nD τ) ↦[arg17.view.set]{fullShare} arg17.view.writes (Elt F) f LS17)
                ∗ (∃ f, arg18.view.loc (c : Thread nD τ) ↦[arg18.view.set]{fullShare} arg18.view.writes (Elt F) f LS18)
                ∗ (∃ f, arg19.view.loc (c : Thread nD τ) ↦[arg19.view.set]{fullShare} arg19.view.writes (Elt F) f LS19)
                ∗ (∃ f, arg20.view.loc (c : Thread nD τ) ↦[arg20.view.set]{fullShare} arg20.view.writes (Elt F) f LS20)
                ∗ (∃ f, arg21.view.loc (c : Thread nD τ) ↦[arg21.view.set]{fullShare} arg21.view.writes (Elt F) f LS21)
                ∗ (∃ f, arg22.view.loc (c : Thread nD τ) ↦[arg22.view.set]{fullShare} arg22.view.writes (Elt F) f LS22)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, fun xi9 xi10 xi11 xi12 xi13 xi14 E K => ?run⟩
  case run =>
    simp only [cc1__pass2_kernel_eq_skeleton]; unfold cc1__pass2_kernel_skel
    simp only [k1_part1_eq_skeleton, k1_part2_eq_skeleton, k1_part3_eq_skeleton]
    unfold k1_part1_skel k1_part2_skel k1_part3_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iexists _; iexact H22

end Cert.KernelIdeal.H1

end
-- ==== Proof.R1RunB.lean ====
import proofs.«170005_j69870527971928_1_alg».proof.Proof.R1RunA

set_option maxRecDepth 16384

noncomputable section

namespace Cert.KernelIdeal.H1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The first column block of a later row block: the row accumulators are reset, then updated; the column accumulators are updated on their slice.
    On whole memrefs — the inputs' at their contents, an output the case does not store into at contents handed back
    untouched, an accumulator the case reads before covering at the contents the point before left — the body runs to
    the continuation holding each buffer it stored into with its stores written, as pieces, last first (a column
    accumulator stored only on its slice: over the contents it was handed). The pieces are what the run finds. -/
noncomputable def kernelRun1_B (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) :
    Σ' (LS15 : List (View.Piece (Elt F) S1024 .f32)) (LS16 : List (View.Piece (Elt F) S1024 .f32)) (LS17 : List (View.Piece (Elt F) S1024 .f32)) (LS18 : List (View.Piece (Elt F) S1024 .f32)) (LS19 : List (View.Piece (Elt F) S8192 .f32)) (LS20 : List (View.Piece (Elt F) S8192 .f32)) (LS21 : List (View.Piece (Elt F) S8192 .f32)), { LS22 : List (View.Piece (Elt F) S8192 .f32) //
      ∀ (xi9 xi10 xi11 : Vec F S1024 .f32) (xi12 xi13 xi14 : Vec F S8192 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare xi9
            ∗ owns (c : Thread nD τ) arg10 fullShare xi10
            ∗ owns (c : Thread nD τ) arg11 fullShare xi11
            ∗ owns (c : Thread nD τ) arg12 fullShare xi12
            ∗ owns (c : Thread nD τ) arg13 fullShare xi13
            ∗ owns (c : Thread nD τ) arg14 fullShare xi14
            ∗ (∃ d, owns (c : Thread nD τ) arg15 fullShare d)
            ∗ (∃ d, owns (c : Thread nD τ) arg16 fullShare d)
            ∗ (∃ d, owns (c : Thread nD τ) arg17 fullShare d)
            ∗ (∃ d, owns (c : Thread nD τ) arg18 fullShare d)
            ∗ owns (c : Thread nD τ) arg19 fullShare xs19
            ∗ owns (c : Thread nD τ) arg20 fullShare xs20
            ∗ owns (c : Thread nD τ) arg21 fullShare xs21
            ∗ owns (c : Thread nD τ) arg22 fullShare xs22
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare xi9
                ∗ owns (c : Thread nD τ) arg10 fullShare xi10
                ∗ owns (c : Thread nD τ) arg11 fullShare xi11
                ∗ owns (c : Thread nD τ) arg12 fullShare xi12
                ∗ owns (c : Thread nD τ) arg13 fullShare xi13
                ∗ owns (c : Thread nD τ) arg14 fullShare xi14
                ∗ (∃ f, arg15.view.loc (c : Thread nD τ) ↦[arg15.view.set]{fullShare} arg15.view.writes (Elt F) f LS15)
                ∗ (∃ f, arg16.view.loc (c : Thread nD τ) ↦[arg16.view.set]{fullShare} arg16.view.writes (Elt F) f LS16)
                ∗ (∃ f, arg17.view.loc (c : Thread nD τ) ↦[arg17.view.set]{fullShare} arg17.view.writes (Elt F) f LS17)
                ∗ (∃ f, arg18.view.loc (c : Thread nD τ) ↦[arg18.view.set]{fullShare} arg18.view.writes (Elt F) f LS18)
                ∗ (arg19.view.loc (c : Thread nD τ) ↦[arg19.view.set]{fullShare} arg19.view.writes (Elt F) (harg19.unread xs19) LS19)
                ∗ (arg20.view.loc (c : Thread nD τ) ↦[arg20.view.set]{fullShare} arg20.view.writes (Elt F) (harg20.unread xs20) LS20)
                ∗ (arg21.view.loc (c : Thread nD τ) ↦[arg21.view.set]{fullShare} arg21.view.writes (Elt F) (harg21.unread xs21) LS21)
                ∗ (arg22.view.loc (c : Thread nD τ) ↦[arg22.view.set]{fullShare} arg22.view.writes (Elt F) (harg22.unread xs22) LS22)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, fun xi9 xi10 xi11 xi12 xi13 xi14 E K => ?run⟩
  case run =>
    simp only [cc1__pass2_kernel_eq_skeleton]; unfold cc1__pass2_kernel_skel
    simp only [k1_part1_eq_skeleton, k1_part2_eq_skeleton, k1_part3_eq_skeleton]
    unfold k1_part1_skel k1_part2_skel k1_part3_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%f19, %hf19, H19⟩, ⟨%f20, %hf20, H20⟩, ⟨%f21, %hf21, H21⟩, ⟨%f22, %hf22, H22⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg19.eq_unread hf19; obtain rfl := harg20.eq_unread hf20; obtain rfl := harg21.eq_unread hf21; obtain rfl := harg22.eq_unread hf22
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]; · iexists _; iexact H15
    isplitl [H16]; · iexists _; iexact H16
    isplitl [H17]; · iexists _; iexact H17
    isplitl [H18]; · iexists _; iexact H18
    isplitl [H19]; · iexact H19
    isplitl [H20]; · iexact H20
    isplitl [H21]; · iexact H21
    iexact H22

end Cert.KernelIdeal.H1

end
-- ==== Proof.R1RunD.lean ====
import proofs.«170005_j69870527971928_1_alg».proof.Proof.R1RunB

set_option maxRecDepth 16384

noncomputable section

namespace Cert.KernelIdeal.H1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The last column block of a row block other than the last: after the updates the row results are stored.
    On whole memrefs — the inputs' at their contents, an output the case does not store into at contents handed back
    untouched, an accumulator the case reads before covering at the contents the point before left — the body runs to
    the continuation holding each buffer it stored into with its stores written, as pieces, last first (a column
    accumulator stored only on its slice: over the contents it was handed). The pieces are what the run finds. -/
noncomputable def kernelRun1_D (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    Σ' (L9 : List (View.Piece (Elt F) S1024 .f32)) (L10 : List (View.Piece (Elt F) S1024 .f32)) (L11 : List (View.Piece (Elt F) S1024 .f32)) (LS15 : List (View.Piece (Elt F) S1024 .f32)) (LS16 : List (View.Piece (Elt F) S1024 .f32)) (LS17 : List (View.Piece (Elt F) S1024 .f32)) (LS18 : List (View.Piece (Elt F) S1024 .f32)) (LS19 : List (View.Piece (Elt F) S8192 .f32)) (LS20 : List (View.Piece (Elt F) S8192 .f32)) (LS21 : List (View.Piece (Elt F) S8192 .f32)), { LS22 : List (View.Piece (Elt F) S8192 .f32) //
      ∀ (xi12 xi13 xi14 : Vec F S8192 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ (∃ d, owns (c : Thread nD τ) arg9 fullShare d)
            ∗ (∃ d, owns (c : Thread nD τ) arg10 fullShare d)
            ∗ (∃ d, owns (c : Thread nD τ) arg11 fullShare d)
            ∗ owns (c : Thread nD τ) arg12 fullShare xi12
            ∗ owns (c : Thread nD τ) arg13 fullShare xi13
            ∗ owns (c : Thread nD τ) arg14 fullShare xi14
            ∗ owns (c : Thread nD τ) arg15 fullShare xs15
            ∗ owns (c : Thread nD τ) arg16 fullShare xs16
            ∗ owns (c : Thread nD τ) arg17 fullShare xs17
            ∗ owns (c : Thread nD τ) arg18 fullShare xs18
            ∗ owns (c : Thread nD τ) arg19 fullShare xs19
            ∗ owns (c : Thread nD τ) arg20 fullShare xs20
            ∗ owns (c : Thread nD τ) arg21 fullShare xs21
            ∗ owns (c : Thread nD τ) arg22 fullShare xs22
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)
                ∗ (∃ f, arg11.view.loc (c : Thread nD τ) ↦[arg11.view.set]{fullShare} arg11.view.writes (Elt F) f L11)
                ∗ owns (c : Thread nD τ) arg12 fullShare xi12
                ∗ owns (c : Thread nD τ) arg13 fullShare xi13
                ∗ owns (c : Thread nD τ) arg14 fullShare xi14
                ∗ (∃ f, arg15.view.loc (c : Thread nD τ) ↦[arg15.view.set]{fullShare} arg15.view.writes (Elt F) f LS15)
                ∗ (∃ f, arg16.view.loc (c : Thread nD τ) ↦[arg16.view.set]{fullShare} arg16.view.writes (Elt F) f LS16)
                ∗ (∃ f, arg17.view.loc (c : Thread nD τ) ↦[arg17.view.set]{fullShare} arg17.view.writes (Elt F) f LS17)
                ∗ (∃ f, arg18.view.loc (c : Thread nD τ) ↦[arg18.view.set]{fullShare} arg18.view.writes (Elt F) f LS18)
                ∗ (arg19.view.loc (c : Thread nD τ) ↦[arg19.view.set]{fullShare} arg19.view.writes (Elt F) (harg19.unread xs19) LS19)
                ∗ (arg20.view.loc (c : Thread nD τ) ↦[arg20.view.set]{fullShare} arg20.view.writes (Elt F) (harg20.unread xs20) LS20)
                ∗ (arg21.view.loc (c : Thread nD τ) ↦[arg21.view.set]{fullShare} arg21.view.writes (Elt F) (harg21.unread xs21) LS21)
                ∗ (arg22.view.loc (c : Thread nD τ) ↦[arg22.view.set]{fullShare} arg22.view.writes (Elt F) (harg22.unread xs22) LS22)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, ?_, ?_, fun xi12 xi13 xi14 E K => ?run⟩
  case run =>
    simp only [cc1__pass2_kernel_eq_skeleton]; unfold cc1__pass2_kernel_skel
    simp only [k1_part1_eq_skeleton, k1_part2_eq_skeleton, k1_part3_eq_skeleton]
    unfold k1_part1_skel k1_part2_skel k1_part3_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]; · iexists _; iexact H15
    isplitl [H16]; · iexists _; iexact H16
    isplitl [H17]; · iexists _; iexact H17
    isplitl [H18]; · iexists _; iexact H18
    isplitl [H19]; · iexact H19
    isplitl [H20]; · iexact H20
    isplitl [H21]; · iexact H21
    iexact H22

end Cert.KernelIdeal.H1

end
-- ==== Proof.R1RunE.lean ====
import proofs.«170005_j69870527971928_1_alg».proof.Proof.R1RunD

set_option maxRecDepth 16384

noncomputable section

namespace Cert.KernelIdeal.H1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The last point of the grid: after the updates the row results and the column results are stored.
    On whole memrefs — the inputs' at their contents, an output the case does not store into at contents handed back
    untouched, an accumulator the case reads before covering at the contents the point before left — the body runs to
    the continuation holding each buffer it stored into with its stores written, as pieces, last first (a column
    accumulator stored only on its slice: over the contents it was handed). The pieces are what the run finds. -/
noncomputable def kernelRun1_E (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    Σ' (L9 : List (View.Piece (Elt F) S1024 .f32)) (L10 : List (View.Piece (Elt F) S1024 .f32)) (L11 : List (View.Piece (Elt F) S1024 .f32)) (L12 : List (View.Piece (Elt F) S8192 .f32)) (L13 : List (View.Piece (Elt F) S8192 .f32)) (L14 : List (View.Piece (Elt F) S8192 .f32)) (LS15 : List (View.Piece (Elt F) S1024 .f32)) (LS16 : List (View.Piece (Elt F) S1024 .f32)) (LS17 : List (View.Piece (Elt F) S1024 .f32)) (LS18 : List (View.Piece (Elt F) S1024 .f32)) (LS19 : List (View.Piece (Elt F) S8192 .f32)) (LS20 : List (View.Piece (Elt F) S8192 .f32)) (LS21 : List (View.Piece (Elt F) S8192 .f32)), { LS22 : List (View.Piece (Elt F) S8192 .f32) //
      ∀  (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)
            ∗ (∃ d, owns (c : Thread nD τ) arg14 fullShare d)
            ∗ owns (c : Thread nD τ) arg15 fullShare xs15
            ∗ owns (c : Thread nD τ) arg16 fullShare xs16
            ∗ owns (c : Thread nD τ) arg17 fullShare xs17
            ∗ owns (c : Thread nD τ) arg18 fullShare xs18
            ∗ owns (c : Thread nD τ) arg19 fullShare xs19
            ∗ owns (c : Thread nD τ) arg20 fullShare xs20
            ∗ owns (c : Thread nD τ) arg21 fullShare xs21
            ∗ owns (c : Thread nD τ) arg22 fullShare xs22
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)
                ∗ (∃ f, arg11.view.loc (c : Thread nD τ) ↦[arg11.view.set]{fullShare} arg11.view.writes (Elt F) f L11)
                ∗ (∃ f, arg12.view.loc (c : Thread nD τ) ↦[arg12.view.set]{fullShare} arg12.view.writes (Elt F) f L12)
                ∗ (∃ f, arg13.view.loc (c : Thread nD τ) ↦[arg13.view.set]{fullShare} arg13.view.writes (Elt F) f L13)
                ∗ (∃ f, arg14.view.loc (c : Thread nD τ) ↦[arg14.view.set]{fullShare} arg14.view.writes (Elt F) f L14)
                ∗ (∃ f, arg15.view.loc (c : Thread nD τ) ↦[arg15.view.set]{fullShare} arg15.view.writes (Elt F) f LS15)
                ∗ (∃ f, arg16.view.loc (c : Thread nD τ) ↦[arg16.view.set]{fullShare} arg16.view.writes (Elt F) f LS16)
                ∗ (∃ f, arg17.view.loc (c : Thread nD τ) ↦[arg17.view.set]{fullShare} arg17.view.writes (Elt F) f LS17)
                ∗ (∃ f, arg18.view.loc (c : Thread nD τ) ↦[arg18.view.set]{fullShare} arg18.view.writes (Elt F) f LS18)
                ∗ (arg19.view.loc (c : Thread nD τ) ↦[arg19.view.set]{fullShare} arg19.view.writes (Elt F) (harg19.unread xs19) LS19)
                ∗ (arg20.view.loc (c : Thread nD τ) ↦[arg20.view.set]{fullShare} arg20.view.writes (Elt F) (harg20.unread xs20) LS20)
                ∗ (arg21.view.loc (c : Thread nD τ) ↦[arg21.view.set]{fullShare} arg21.view.writes (Elt F) (harg21.unread xs21) LS21)
                ∗ (arg22.view.loc (c : Thread nD τ) ↦[arg22.view.set]{fullShare} arg22.view.writes (Elt F) (harg22.unread xs22) LS22)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, ?_, ?_, ?_, ?_, ?_, fun E K => ?run⟩
  case run =>
    simp only [cc1__pass2_kernel_eq_skeleton]; unfold cc1__pass2_kernel_skel
    simp only [k1_part1_eq_skeleton, k1_part2_eq_skeleton, k1_part3_eq_skeleton]
    unfold k1_part1_skel k1_part2_skel k1_part3_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexact H19
    isplitl [H20]; · iexact H20
    isplitl [H21]; · iexact H21
    iexact H22

end Cert.KernelIdeal.H1

end
-- ==== Proof.R1Outs.lean ====
import proofs.«170005_j69870527971928_1_alg».proof.Proof.R1RunE

set_option maxRecDepth 16384

noncomputable section

namespace Cert.KernelIdeal.H1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the six outputs' staging buffers and the eight accumulators hold after the body at a point: the outputs in
    window order, then the accumulators (`s0`–`s3` the row accumulators, `s4`–`s7` the column accumulators). An
    output's component is consulted only at the points that store into it. -/
structure Outs (F : FTy → Type) where
  o7 : Vec F S1024 .f32
  o8 : Vec F S1024 .f32
  o9 : Vec F S1024 .f32
  o10 : Vec F S8192 .f32
  o11 : Vec F S8192 .f32
  o12 : Vec F S8192 .f32
  s0 : Vec F S1024 .f32
  s1 : Vec F S1024 .f32
  s2 : Vec F S1024 .f32
  s3 : Vec F S1024 .f32
  s4 : Vec F S8192 .f32
  s5 : Vec F S8192 .f32
  s6 : Vec F S8192 .f32
  s7 : Vec F S8192 .f32

/-- Contents nothing consults. -/
def jk1 (S : Shape) : Vec F S .f32 := View.canon ([] : List (View.Piece (Elt F) S .f32))

/-- What this case leaves: a buffer whose stores cover it at what they leave (last store first), an output it does not
    store into at a placeholder nothing consults, a column accumulator stored only on its slice at what it held with
    the slice replaced. -/
def outs1_A (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) : Outs F where
  o7 := jk1 _
  o8 := jk1 _
  o9 := jk1 _
  o10 := jk1 _
  o11 := jk1 _
  o12 := jk1 _
  s0 := View.canon (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).1
  s1 := View.canon (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).2.1
  s2 := View.canon (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).2.2.1
  s3 := View.canon (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).2.2.2.1
  s4 := View.canon (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).2.2.2.2.1
  s5 := View.canon (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).2.2.2.2.2.1
  s6 := View.canon (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).2.2.2.2.2.2.1
  s7 := View.canon (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).2.2.2.2.2.2.2.1

/-- What this case leaves: a buffer whose stores cover it at what they leave (last store first), an output it does not
    store into at a placeholder nothing consults, a column accumulator stored only on its slice at what it held with
    the slice replaced. -/
def outs1_B (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) : Outs F where
  o7 := jk1 _
  o8 := jk1 _
  o9 := jk1 _
  o10 := jk1 _
  o11 := jk1 _
  o12 := jk1 _
  s0 := View.canon (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).1
  s1 := View.canon (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).2.1
  s2 := View.canon (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).2.2.1
  s3 := View.canon (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).2.2.2.1
  s4 := arg19.view.read (Elt F) (arg19.view.writes (Elt F) (harg19.unread xs19) (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).2.2.2.2.1)
  s5 := arg20.view.read (Elt F) (arg20.view.writes (Elt F) (harg20.unread xs20) (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).2.2.2.2.2.1)
  s6 := arg21.view.read (Elt F) (arg21.view.writes (Elt F) (harg21.unread xs21) (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).2.2.2.2.2.2.1)
  s7 := arg22.view.read (Elt F) (arg22.view.writes (Elt F) (harg22.unread xs22) (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).2.2.2.2.2.2.2.1)

/-- What this case leaves: a buffer whose stores cover it at what they leave (last store first), an output it does not
    store into at a placeholder nothing consults, a column accumulator stored only on its slice at what it held with
    the slice replaced. -/
def outs1_M (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) : Outs F where
  o7 := jk1 _
  o8 := jk1 _
  o9 := jk1 _
  o10 := jk1 _
  o11 := jk1 _
  o12 := jk1 _
  s0 := View.canon (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).1
  s1 := View.canon (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.1
  s2 := View.canon (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.1
  s3 := View.canon (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.1
  s4 := arg19.view.read (Elt F) (arg19.view.writes (Elt F) (harg19.unread xs19) (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.1)
  s5 := arg20.view.read (Elt F) (arg20.view.writes (Elt F) (harg20.unread xs20) (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.1)
  s6 := arg21.view.read (Elt F) (arg21.view.writes (Elt F) (harg21.unread xs21) (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.1)
  s7 := arg22.view.read (Elt F) (arg22.view.writes (Elt F) (harg22.unread xs22) (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.1)

/-- What this case leaves: a buffer whose stores cover it at what they leave (last store first), an output it does not
    store into at a placeholder nothing consults, a column accumulator stored only on its slice at what it held with
    the slice replaced. -/
def outs1_D (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) : Outs F where
  o7 := View.canon (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).1
  o8 := View.canon (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.1
  o9 := View.canon (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.1
  o10 := jk1 _
  o11 := jk1 _
  o12 := jk1 _
  s0 := View.canon (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.1
  s1 := View.canon (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.1
  s2 := View.canon (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.1
  s3 := View.canon (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.1
  s4 := arg19.view.read (Elt F) (arg19.view.writes (Elt F) (harg19.unread xs19) (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.1)
  s5 := arg20.view.read (Elt F) (arg20.view.writes (Elt F) (harg20.unread xs20) (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.1)
  s6 := arg21.view.read (Elt F) (arg21.view.writes (Elt F) (harg21.unread xs21) (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.2.1)
  s7 := arg22.view.read (Elt F) (arg22.view.writes (Elt F) (harg22.unread xs22) (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.2.2.1)

/-- What this case leaves: a buffer whose stores cover it at what they leave (last store first), an output it does not
    store into at a placeholder nothing consults, a column accumulator stored only on its slice at what it held with
    the slice replaced. -/
def outs1_E (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) : Outs F where
  o7 := View.canon (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).1
  o8 := View.canon (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.1
  o9 := View.canon (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.1
  o10 := View.canon (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.1
  o11 := View.canon (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.1
  o12 := View.canon (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.1
  s0 := View.canon (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.1
  s1 := View.canon (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.1
  s2 := View.canon (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.1
  s3 := View.canon (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.2.1
  s4 := arg19.view.read (Elt F) (arg19.view.writes (Elt F) (harg19.unread xs19) (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.2.2.1)
  s5 := arg20.view.read (Elt F) (arg20.view.writes (Elt F) (harg20.unread xs20) (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.2.2.2.1)
  s6 := arg21.view.read (Elt F) (arg21.view.writes (Elt F) (harg21.unread xs21) (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.2.2.2.2.1)
  s7 := arg22.view.read (Elt F) (arg22.view.writes (Elt F) (harg22.unread xs22) (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.2.2.2.2.2.1)

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the outputs and the accumulators hold after each point -/

/-- THE ACCUMULATION: what the outputs' staging buffers and the accumulators hold after the body at position `n` — the case
    the closed forms select at `n`, run at the point's memrefs and input blocks, an accumulator the case reads before
    covering at what this leaves at `n - 1`. -/
def outsAt1 (c : Dev nD) : (n : ℕ) → n < cfg1.N → Outs F
  | 0, hn => outs1_A c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) (ms10 ⟨0, hn⟩) (hs10 ⟨0, hn⟩) (ms11 ⟨0, hn⟩) (hs11 ⟨0, hn⟩) (ms12 ⟨0, hn⟩) (hs12 ⟨0, hn⟩) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) ((hcond1 ⟨0, hn⟩).mpr rfl) ((hcond2 ⟨0, hn⟩).mpr (Nat.zero_mod _)) (fun h => (fun h' => by (try dsimp only at h'); omega) ((hcond3 ⟨0, hn⟩).mp h)) (fun h => (fun h' => by (try dsimp only at h'); omega) ((hcond4 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩)
  | n + 1, hn =>
    if h2 : (n + 1) % 16 = 0 then
      outs1_B c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) (fun h => Nat.succ_ne_zero n ((hcond1 ⟨n + 1, hn⟩).mp h)) ((hcond2 ⟨n + 1, hn⟩).mpr h2) (fun h => (fun h' => by (try dsimp only at h'); omega) ((hcond3 ⟨n + 1, hn⟩).mp h)) (fun h => (fun h' => by (try dsimp only at h'); omega) ((hcond4 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).s4 (outsAt1 c n (Nat.lt_of_succ_lt hn)).s5 (outsAt1 c n (Nat.lt_of_succ_lt hn)).s6 (outsAt1 c n (Nat.lt_of_succ_lt hn)).s7
    else if h3 : (n + 1) % 16 = 15 then
      if h4 : n + 1 = 127 then
        outs1_E c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) (fun h => Nat.succ_ne_zero n ((hcond1 ⟨n + 1, hn⟩).mp h)) (fun h => h2 ((hcond2 ⟨n + 1, hn⟩).mp h)) ((hcond3 ⟨n + 1, hn⟩).mpr h3) ((hcond4 ⟨n + 1, hn⟩).mpr h4) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).s0 (outsAt1 c n (Nat.lt_of_succ_lt hn)).s1 (outsAt1 c n (Nat.lt_of_succ_lt hn)).s2 (outsAt1 c n (Nat.lt_of_succ_lt hn)).s3 (outsAt1 c n (Nat.lt_of_succ_lt hn)).s4 (outsAt1 c n (Nat.lt_of_succ_lt hn)).s5 (outsAt1 c n (Nat.lt_of_succ_lt hn)).s6 (outsAt1 c n (Nat.lt_of_succ_lt hn)).s7
      else
        outs1_D c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) (fun h => Nat.succ_ne_zero n ((hcond1 ⟨n + 1, hn⟩).mp h)) (fun h => h2 ((hcond2 ⟨n + 1, hn⟩).mp h)) ((hcond3 ⟨n + 1, hn⟩).mpr h3) (fun h => h4 ((hcond4 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).s0 (outsAt1 c n (Nat.lt_of_succ_lt hn)).s1 (outsAt1 c n (Nat.lt_of_succ_lt hn)).s2 (outsAt1 c n (Nat.lt_of_succ_lt hn)).s3 (outsAt1 c n (Nat.lt_of_succ_lt hn)).s4 (outsAt1 c n (Nat.lt_of_succ_lt hn)).s5 (outsAt1 c n (Nat.lt_of_succ_lt hn)).s6 (outsAt1 c n (Nat.lt_of_succ_lt hn)).s7
    else
      outs1_M c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) (fun h => Nat.succ_ne_zero n ((hcond1 ⟨n + 1, hn⟩).mp h)) (fun h => h2 ((hcond2 ⟨n + 1, hn⟩).mp h)) (fun h => h3 ((hcond3 ⟨n + 1, hn⟩).mp h)) (fun h => (fun h' => by (try dsimp only at h'); omega) ((hcond4 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).s0 (outsAt1 c n (Nat.lt_of_succ_lt hn)).s1 (outsAt1 c n (Nat.lt_of_succ_lt hn)).s2 (outsAt1 c n (Nat.lt_of_succ_lt hn)).s3 (outsAt1 c n (Nat.lt_of_succ_lt hn)).s4 (outsAt1 c n (Nat.lt_of_succ_lt hn)).s5 (outsAt1 c n (Nat.lt_of_succ_lt hn)).s6 (outsAt1 c n (Nat.lt_of_succ_lt hn)).s7

/-- `outsAt1` at the first point. -/
theorem outsAt1_A (c : Dev nD) (t : Fin cfg1.N) (hz : t.val = 0) (hc1 : cond1 (grid1.coords t)) (hc2 : cond2 (grid1.coords t)) (hc3 : ¬cond3 (grid1.coords t)) (hc4 : ¬cond4 (grid1.coords t)) :
    outsAt1 V c t.val t.isLt = outs1_A c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 V c 0 t) (iblk1 V c 1 t) (iblk1 V c 2 t) (iblk1 V c 3 t) (iblk1 V c 4 t) (iblk1 V c 5 t) (iblk1 V c 6 t) := by
  obtain ⟨n, hn⟩ := t
  cases n with
  | zero => exact rfl
  | succ n => exact absurd hz (Nat.succ_ne_zero n)

/-- `outsAt1` at the first column block of a later row block, over what the point before left. -/
theorem outsAt1_B (c : Dev nD) (t : Fin cfg1.N) (hz : t.val ≠ 0) (h2 : t.val % 16 = 0) (hc1 : ¬cond1 (grid1.coords t)) (hc2 : cond2 (grid1.coords t)) (hc3 : ¬cond3 (grid1.coords t)) (hc4 : ¬cond4 (grid1.coords t)) :
    outsAt1 V c t.val t.isLt = outs1_B c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).s4 (outsAt1 V c (t.val - 1) (Nat.lt_of_le_of_lt (Nat.sub_le _ _) t.isLt)).s5 (outsAt1 V c (t.val - 1) (Nat.lt_of_le_of_lt (Nat.sub_le _ _) t.isLt)).s6 (outsAt1 V c (t.val - 1) (Nat.lt_of_le_of_lt (Nat.sub_le _ _) t.isLt)).s7 := by
  obtain ⟨n, hn⟩ := t
  cases n with
  | zero => exact absurd rfl hz
  | succ n => exact (dif_pos h2).trans rfl

/-- `outsAt1` at a point in the middle of a row block, over what the point before left. -/
theorem outsAt1_M (c : Dev nD) (t : Fin cfg1.N) (h2 : ¬t.val % 16 = 0) (h3 : ¬t.val % 16 = 15) (hc1 : ¬cond1 (grid1.coords t)) (hc2 : ¬cond2 (grid1.coords t)) (hc3 : ¬cond3 (grid1.coords t)) (hc4 : ¬cond4 (grid1.coords t)) :
    outsAt1 V c t.val t.isLt = outs1_M c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).s0 (outsAt1 V c (t.val - 1) (Nat.lt_of_le_of_lt (Nat.sub_le _ _) t.isLt)).s1 (outsAt1 V c (t.val - 1) (Nat.lt_of_le_of_lt (Nat.sub_le _ _) t.isLt)).s2 (outsAt1 V c (t.val - 1) (Nat.lt_of_le_of_lt (Nat.sub_le _ _) t.isLt)).s3 (outsAt1 V c (t.val - 1) (Nat.lt_of_le_of_lt (Nat.sub_le _ _) t.isLt)).s4 (outsAt1 V c (t.val - 1) (Nat.lt_of_le_of_lt (Nat.sub_le _ _) t.isLt)).s5 (outsAt1 V c (t.val - 1) (Nat.lt_of_le_of_lt (Nat.sub_le _ _) t.isLt)).s6 (outsAt1 V c (t.val - 1) (Nat.lt_of_le_of_lt (Nat.sub_le _ _) t.isLt)).s7 := by
  obtain ⟨n, hn⟩ := t
  cases n with
  | zero => exact absurd (Nat.zero_mod _) h2
  | succ n => exact (dif_neg h2).trans ((dif_neg h3).trans rfl)

/-- `outsAt1` at the last column block of a row block other than the last, over what the point before left. -/
theorem outsAt1_D (c : Dev nD) (t : Fin cfg1.N) (h2 : ¬t.val % 16 = 0) (h3 : t.val % 16 = 15) (h4 : ¬t.val = 127) (hc1 : ¬cond1 (grid1.coords t)) (hc2 : ¬cond2 (grid1.coords t)) (hc3 : cond3 (grid1.coords t)) (hc4 : ¬cond4 (grid1.coords t)) :
    outsAt1 V c t.val t.isLt = outs1_D c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).s0 (outsAt1 V c (t.val - 1) (Nat.lt_of_le_of_lt (Nat.sub_le _ _) t.isLt)).s1 (outsAt1 V c (t.val - 1) (Nat.lt_of_le_of_lt (Nat.sub_le _ _) t.isLt)).s2 (outsAt1 V c (t.val - 1) (Nat.lt_of_le_of_lt (Nat.sub_le _ _) t.isLt)).s3 (outsAt1 V c (t.val - 1) (Nat.lt_of_le_of_lt (Nat.sub_le _ _) t.isLt)).s4 (outsAt1 V c (t.val - 1) (Nat.lt_of_le_of_lt (Nat.sub_le _ _) t.isLt)).s5 (outsAt1 V c (t.val - 1) (Nat.lt_of_le_of_lt (Nat.sub_le _ _) t.isLt)).s6 (outsAt1 V c (t.val - 1) (Nat.lt_of_le_of_lt (Nat.sub_le _ _) t.isLt)).s7 := by
  obtain ⟨n, hn⟩ := t
  cases n with
  | zero => exact absurd (Nat.zero_mod _) h2
  | succ n => exact (dif_neg h2).trans ((dif_pos h3).trans ((dif_neg h4).trans rfl))

/-- `outsAt1` at the last point of the grid, over what the point before left. -/
theorem outsAt1_E (c : Dev nD) (t : Fin cfg1.N) (h2 : ¬t.val % 16 = 0) (h3 : t.val % 16 = 15) (h4 : t.val = 127) (hc1 : ¬cond1 (grid1.coords t)) (hc2 : ¬cond2 (grid1.coords t)) (hc3 : cond3 (grid1.coords t)) (hc4 : cond4 (grid1.coords t)) :
    outsAt1 V c t.val t.isLt = outs1_E c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).s0 (outsAt1 V c (t.val - 1) (Nat.lt_of_le_of_lt (Nat.sub_le _ _) t.isLt)).s1 (outsAt1 V c (t.val - 1) (Nat.lt_of_le_of_lt (Nat.sub_le _ _) t.isLt)).s2 (outsAt1 V c (t.val - 1) (Nat.lt_of_le_of_lt (Nat.sub_le _ _) t.isLt)).s3 (outsAt1 V c (t.val - 1) (Nat.lt_of_le_of_lt (Nat.sub_le _ _) t.isLt)).s4 (outsAt1 V c (t.val - 1) (Nat.lt_of_le_of_lt (Nat.sub_le _ _) t.isLt)).s5 (outsAt1 V c (t.val - 1) (Nat.lt_of_le_of_lt (Nat.sub_le _ _) t.isLt)).s6 (outsAt1 V c (t.val - 1) (Nat.lt_of_le_of_lt (Nat.sub_le _ _) t.isLt)).s7 := by
  obtain ⟨n, hn⟩ := t
  cases n with
  | zero => exact absurd (Nat.zero_mod _) h2
  | succ n => exact (dif_neg h2).trans ((dif_pos h3).trans ((dif_pos h4).trans rfl))

end Cert.KernelIdeal.H1

end
-- ==== Proof.R1Dat.lean ====
import proofs.«170005_j69870527971928_1_alg».proof.Proof.R1Outs

set_option maxRecDepth 16384

noncomputable section

namespace Cert.KernelIdeal.H1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The region invariant -/

/-- What the launch hands the region, with the eight accumulators as memrefs owned at some contents (the other sixteen
    scoped buffers, the first pass's, stay as whole buffers at some contents). -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)) ∗ (∃ r, prngReg c r)) := by
  unfold Pipeline.ΦA; rw [scopedRest1_eq]; simp only [owns_whole]; try rfl

/-- The region invariant before position `n`: before the first point what the launch hands over (every scoped buffer at
    some contents); afterwards the first pass's buffers at some contents, each accumulator at what the point before left in
    it, and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ owns (c : Thread nD τ) scM0 fullShare ((outsAt1 V c n hn).s0) ∗ owns (c : Thread nD τ) scM1 fullShare ((outsAt1 V c n hn).s1) ∗ owns (c : Thread nD τ) scM2 fullShare ((outsAt1 V c n hn).s2) ∗ owns (c : Thread nD τ) scM3 fullShare ((outsAt1 V c n hn).s3) ∗ owns (c : Thread nD τ) scM4 fullShare ((outsAt1 V c n hn).s4) ∗ owns (c : Thread nD τ) scM5 fullShare ((outsAt1 V c n hn).s5) ∗ owns (c : Thread nD τ) scM6 fullShare ((outsAt1 V c n hn).s6) ∗ owns (c : Thread nD τ) scM7 fullShare ((outsAt1 V c n hn).s7)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ owns (c : Thread nD τ) scM0 fullShare ((outsAt1 V c n hn).s0) ∗ owns (c : Thread nD τ) scM1 fullShare ((outsAt1 V c n hn).s1) ∗ owns (c : Thread nD τ) scM2 fullShare ((outsAt1 V c n hn).s2) ∗ owns (c : Thread nD τ) scM3 fullShare ((outsAt1 V c n hn).s3) ∗ owns (c : Thread nD τ) scM4 fullShare ((outsAt1 V c n hn).s4) ∗ owns (c : Thread nD τ) scM5 fullShare ((outsAt1 V c n hn).s5) ∗ owns (c : Thread nD τ) scM6 fullShare ((outsAt1 V c n hn).s6) ∗ owns (c : Thread nD τ) scM7 fullShare ((outsAt1 V c n hn).s7)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ owns (c : Thread nD τ) scM0 fullShare ((outsAt1 V c (n - 1) (by omega)).s0) ∗ owns (c : Thread nD τ) scM1 fullShare ((outsAt1 V c (n - 1) (by omega)).s1) ∗ owns (c : Thread nD τ) scM2 fullShare ((outsAt1 V c (n - 1) (by omega)).s2) ∗ owns (c : Thread nD τ) scM3 fullShare ((outsAt1 V c (n - 1) (by omega)).s3) ∗ owns (c : Thread nD τ) scM4 fullShare ((outsAt1 V c (n - 1) (by omega)).s4) ∗ owns (c : Thread nD τ) scM5 fullShare ((outsAt1 V c (n - 1) (by omega)).s5) ∗ owns (c : Thread nD τ) scM6 fullShare ((outsAt1 V c (n - 1) (by omega)).s6) ∗ owns (c : Thread nD τ) scM7 fullShare ((outsAt1 V c (n - 1) (by omega)).s7)) ∗ (∃ r, prngReg c r)) := by
  cases n with
  | zero => exact absurd rfl hz
  | succ n => rfl

/-! ## The pipeline's proof data -/

/-- The proof data of the second pass on core `c`: the arrays as the region finds them (`V`); after the body at point
    `t` each input's buffer at its block and each output's at `outsAt1`'s component; the invariant `PhiS1`; nothing owed;
    the array two windows read at half shares, the others at full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).o7
    | ⟨8, _⟩ => (outsAt1 V c t.val t.isLt).o8
    | ⟨9, _⟩ => (outsAt1 V c t.val t.isLt).o9
    | ⟨10, _⟩ => (outsAt1 V c t.val t.isLt).o10
    | ⟨11, _⟩ => (outsAt1 V c t.val t.isLt).o11
    | ⟨12, _⟩ => (outsAt1 V c t.val t.isLt).o12
  Φ t := PhiS1 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
  owed _ := 0

theorem A_eq1 (c : Dev nD) (w : Fin cfg1.W) : (dat1 V c).A w = V c (Pipeline.arrRef spec1 w) := by
  dsimp only [dat1]

theorem q1_1 (c : Dev nD) : (dat1 V c).q 1 = fullShare.left := by dsimp only [dat1]
theorem q1_2 (c : Dev nD) : (dat1 V c).q 2 = fullShare.right := by dsimp only [dat1]
theorem q1_of (c : Dev nD) (w : Fin cfg1.W) (h1 : w ≠ 1) (h2 : w ≠ 2) : (dat1 V c).q w = fullShare := by
  fin_cases w <;> first | exact absurd rfl h1 | exact absurd rfl h2 | (dsimp only [dat1])
theorem recorded1 (c : Dev nD) (t : Fin (cfg1.N + 1)) : (dat1 V c).recorded t = Set.univ := rfl
theorem owed1 (c : Dev nD) (t : Fin (cfg1.N + 1)) : (dat1 V c).owed t = 0 := by dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).o7 := by dsimp only [dat1]
theorem after1_8 (c : Dev nD) (t : Fin cfg1.N) : (dat1 V c).after 8 t = (outsAt1 V c t.val t.isLt).o8 := by dsimp only [dat1]
theorem after1_9 (c : Dev nD) (t : Fin cfg1.N) : (dat1 V c).after 9 t = (outsAt1 V c t.val t.isLt).o9 := by dsimp only [dat1]
theorem after1_10 (c : Dev nD) (t : Fin cfg1.N) : (dat1 V c).after 10 t = (outsAt1 V c t.val t.isLt).o10 := by dsimp only [dat1]
theorem after1_11 (c : Dev nD) (t : Fin cfg1.N) : (dat1 V c).after 11 t = (outsAt1 V c t.val t.isLt).o11 := by dsimp only [dat1]
theorem after1_12 (c : Dev nD) (t : Fin cfg1.N) : (dat1 V c).after 12 t = (outsAt1 V c t.val t.isLt).o12 := by dsimp only [dat1]

/-- Each input's current staging buffer holds its block at every point, fetched there or not (unfetched, the block index
    has not moved). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the accumulators' named contents
    are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨R0, R1, R2, R3, R4, R5, R6, R7, R8, R9, R10, R11, R12, R13, R14, R15, HS0, HS1, HS2, HS3, HS4, HS5, HS6, HS7⟩, Hg⟩
  isplitl [R0 R1 R2 R3 R4 R5 R6 R7 R8 R9 R10 R11 R12 R13 R14 R15 HS0 HS1 HS2 HS3 HS4 HS5 HS6 HS7]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexists _; iexact HS7
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.KernelIdeal.H1

end
-- ==== Proof.R1Body.lean ====
import proofs.«170005_j69870527971928_1_alg».proof.Proof.R1Dat

set_option maxRecDepth 16384

noncomputable section

namespace Cert.KernelIdeal.H1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a buffer reads back after a situation's stores -/

theorem leaf1_A_15 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (f : arg15.view.ty.Contents (Elt F)) :
    arg15.view.read (Elt F) (arg15.view.writes (Elt F) f (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).1) = (outs1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).s0 := by
  unfold outs1_A kernelRun1_A
  dsimp only
  exact View.read_writes_eq_canon _ _ _ (View.cover_of_wholeMem _ (by sl_whole_mem))

theorem leaf1_A_16 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (f : arg16.view.ty.Contents (Elt F)) :
    arg16.view.read (Elt F) (arg16.view.writes (Elt F) f (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).2.1) = (outs1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).s1 := by
  unfold outs1_A kernelRun1_A
  dsimp only
  exact View.read_writes_eq_canon _ _ _ (View.cover_of_wholeMem _ (by sl_whole_mem))

theorem leaf1_A_17 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (f : arg17.view.ty.Contents (Elt F)) :
    arg17.view.read (Elt F) (arg17.view.writes (Elt F) f (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).2.2.1) = (outs1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).s2 := by
  unfold outs1_A kernelRun1_A
  dsimp only
  exact View.read_writes_eq_canon _ _ _ (View.cover_of_wholeMem _ (by sl_whole_mem))

theorem leaf1_A_18 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (f : arg18.view.ty.Contents (Elt F)) :
    arg18.view.read (Elt F) (arg18.view.writes (Elt F) f (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).2.2.2.1) = (outs1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).s3 := by
  unfold outs1_A kernelRun1_A
  dsimp only
  exact View.read_writes_eq_canon _ _ _ (View.cover_of_wholeMem _ (by sl_whole_mem))

theorem leaf1_A_19 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (f : arg19.view.ty.Contents (Elt F)) :
    arg19.view.read (Elt F) (arg19.view.writes (Elt F) f (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).2.2.2.2.1) = (outs1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).s4 := by
  unfold outs1_A kernelRun1_A
  dsimp only
  exact View.read_writes_eq_canon _ _ _ (View.cover_of_wholeMem _ (by sl_whole_mem))

theorem leaf1_A_20 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (f : arg20.view.ty.Contents (Elt F)) :
    arg20.view.read (Elt F) (arg20.view.writes (Elt F) f (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).2.2.2.2.2.1) = (outs1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).s5 := by
  unfold outs1_A kernelRun1_A
  dsimp only
  exact View.read_writes_eq_canon _ _ _ (View.cover_of_wholeMem _ (by sl_whole_mem))

theorem leaf1_A_21 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (f : arg21.view.ty.Contents (Elt F)) :
    arg21.view.read (Elt F) (arg21.view.writes (Elt F) f (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).2.2.2.2.2.2.1) = (outs1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).s6 := by
  unfold outs1_A kernelRun1_A
  dsimp only
  exact View.read_writes_eq_canon _ _ _ (View.cover_of_wholeMem _ (by sl_whole_mem))

theorem leaf1_A_22 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (f : arg22.view.ty.Contents (Elt F)) :
    arg22.view.read (Elt F) (arg22.view.writes (Elt F) f (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).2.2.2.2.2.2.2.1) = (outs1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).s7 := by
  unfold outs1_A kernelRun1_A
  dsimp only
  exact View.read_writes_eq_canon _ _ _ (View.cover_of_wholeMem _ (by sl_whole_mem))

theorem leaf1_B_15 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) (f : arg15.view.ty.Contents (Elt F)) :
    arg15.view.read (Elt F) (arg15.view.writes (Elt F) f (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).1) = (outs1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).s0 := by
  unfold outs1_B kernelRun1_B
  dsimp only
  exact View.read_writes_eq_canon _ _ _ (View.cover_of_wholeMem _ (by sl_whole_mem))

theorem leaf1_B_16 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) (f : arg16.view.ty.Contents (Elt F)) :
    arg16.view.read (Elt F) (arg16.view.writes (Elt F) f (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).2.1) = (outs1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).s1 := by
  unfold outs1_B kernelRun1_B
  dsimp only
  exact View.read_writes_eq_canon _ _ _ (View.cover_of_wholeMem _ (by sl_whole_mem))

theorem leaf1_B_17 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) (f : arg17.view.ty.Contents (Elt F)) :
    arg17.view.read (Elt F) (arg17.view.writes (Elt F) f (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).2.2.1) = (outs1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).s2 := by
  unfold outs1_B kernelRun1_B
  dsimp only
  exact View.read_writes_eq_canon _ _ _ (View.cover_of_wholeMem _ (by sl_whole_mem))

theorem leaf1_B_18 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) (f : arg18.view.ty.Contents (Elt F)) :
    arg18.view.read (Elt F) (arg18.view.writes (Elt F) f (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).2.2.2.1) = (outs1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).s3 := by
  unfold outs1_B kernelRun1_B
  dsimp only
  exact View.read_writes_eq_canon _ _ _ (View.cover_of_wholeMem _ (by sl_whole_mem))

theorem leaf1_B_19 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) :
    arg19.view.read (Elt F) (arg19.view.writes (Elt F) (harg19.unread xs19) (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).2.2.2.2.1) = (outs1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).s4 := by
  unfold outs1_B
  rfl

theorem leaf1_B_20 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) :
    arg20.view.read (Elt F) (arg20.view.writes (Elt F) (harg20.unread xs20) (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).2.2.2.2.2.1) = (outs1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).s5 := by
  unfold outs1_B
  rfl

theorem leaf1_B_21 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) :
    arg21.view.read (Elt F) (arg21.view.writes (Elt F) (harg21.unread xs21) (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).2.2.2.2.2.2.1) = (outs1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).s6 := by
  unfold outs1_B
  rfl

theorem leaf1_B_22 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) :
    arg22.view.read (Elt F) (arg22.view.writes (Elt F) (harg22.unread xs22) (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).2.2.2.2.2.2.2.1) = (outs1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).s7 := by
  unfold outs1_B
  rfl

theorem leaf1_M_15 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg15.view.ty.Contents (Elt F)) :
    arg15.view.read (Elt F) (arg15.view.writes (Elt F) f (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).1) = (outs1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s0 := by
  unfold outs1_M kernelRun1_M
  dsimp only
  exact View.read_writes_eq_canon _ _ _ (View.cover_of_wholeMem _ (by sl_whole_mem))

theorem leaf1_M_16 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg16.view.ty.Contents (Elt F)) :
    arg16.view.read (Elt F) (arg16.view.writes (Elt F) f (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.1) = (outs1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s1 := by
  unfold outs1_M kernelRun1_M
  dsimp only
  exact View.read_writes_eq_canon _ _ _ (View.cover_of_wholeMem _ (by sl_whole_mem))

theorem leaf1_M_17 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg17.view.ty.Contents (Elt F)) :
    arg17.view.read (Elt F) (arg17.view.writes (Elt F) f (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.1) = (outs1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s2 := by
  unfold outs1_M kernelRun1_M
  dsimp only
  exact View.read_writes_eq_canon _ _ _ (View.cover_of_wholeMem _ (by sl_whole_mem))

theorem leaf1_M_18 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg18.view.ty.Contents (Elt F)) :
    arg18.view.read (Elt F) (arg18.view.writes (Elt F) f (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.1) = (outs1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s3 := by
  unfold outs1_M kernelRun1_M
  dsimp only
  exact View.read_writes_eq_canon _ _ _ (View.cover_of_wholeMem _ (by sl_whole_mem))

theorem leaf1_M_19 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    arg19.view.read (Elt F) (arg19.view.writes (Elt F) (harg19.unread xs19) (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.1) = (outs1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s4 := by
  unfold outs1_M
  rfl

theorem leaf1_M_20 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    arg20.view.read (Elt F) (arg20.view.writes (Elt F) (harg20.unread xs20) (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.1) = (outs1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s5 := by
  unfold outs1_M
  rfl

theorem leaf1_M_21 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    arg21.view.read (Elt F) (arg21.view.writes (Elt F) (harg21.unread xs21) (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.1) = (outs1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s6 := by
  unfold outs1_M
  rfl

theorem leaf1_M_22 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    arg22.view.read (Elt F) (arg22.view.writes (Elt F) (harg22.unread xs22) (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.1) = (outs1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s7 := by
  unfold outs1_M
  rfl

theorem leaf1_D_9 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg9.view.ty.Contents (Elt F)) :
    arg9.view.read (Elt F) (arg9.view.writes (Elt F) f (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).1) = (outs1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).o7 := by
  unfold outs1_D kernelRun1_D
  dsimp only
  exact View.read_writes_eq_canon _ _ _ (View.cover_of_wholeMem _ (by sl_whole_mem))

theorem leaf1_D_10 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg10.view.ty.Contents (Elt F)) :
    arg10.view.read (Elt F) (arg10.view.writes (Elt F) f (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.1) = (outs1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).o8 := by
  unfold outs1_D kernelRun1_D
  dsimp only
  exact View.read_writes_eq_canon _ _ _ (View.cover_of_wholeMem _ (by sl_whole_mem))

theorem leaf1_D_11 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg11.view.ty.Contents (Elt F)) :
    arg11.view.read (Elt F) (arg11.view.writes (Elt F) f (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.1) = (outs1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).o9 := by
  unfold outs1_D kernelRun1_D
  dsimp only
  exact View.read_writes_eq_canon _ _ _ (View.cover_of_wholeMem _ (by sl_whole_mem))

theorem leaf1_D_15 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg15.view.ty.Contents (Elt F)) :
    arg15.view.read (Elt F) (arg15.view.writes (Elt F) f (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.1) = (outs1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s0 := by
  unfold outs1_D kernelRun1_D
  dsimp only
  exact View.read_writes_eq_canon _ _ _ (View.cover_of_wholeMem _ (by sl_whole_mem))

theorem leaf1_D_16 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg16.view.ty.Contents (Elt F)) :
    arg16.view.read (Elt F) (arg16.view.writes (Elt F) f (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.1) = (outs1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s1 := by
  unfold outs1_D kernelRun1_D
  dsimp only
  exact View.read_writes_eq_canon _ _ _ (View.cover_of_wholeMem _ (by sl_whole_mem))

theorem leaf1_D_17 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg17.view.ty.Contents (Elt F)) :
    arg17.view.read (Elt F) (arg17.view.writes (Elt F) f (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.1) = (outs1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s2 := by
  unfold outs1_D kernelRun1_D
  dsimp only
  exact View.read_writes_eq_canon _ _ _ (View.cover_of_wholeMem _ (by sl_whole_mem))

theorem leaf1_D_18 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg18.view.ty.Contents (Elt F)) :
    arg18.view.read (Elt F) (arg18.view.writes (Elt F) f (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.1) = (outs1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s3 := by
  unfold outs1_D kernelRun1_D
  dsimp only
  exact View.read_writes_eq_canon _ _ _ (View.cover_of_wholeMem _ (by sl_whole_mem))

theorem leaf1_D_19 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    arg19.view.read (Elt F) (arg19.view.writes (Elt F) (harg19.unread xs19) (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.1) = (outs1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s4 := by
  unfold outs1_D
  rfl

theorem leaf1_D_20 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    arg20.view.read (Elt F) (arg20.view.writes (Elt F) (harg20.unread xs20) (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.1) = (outs1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s5 := by
  unfold outs1_D
  rfl

theorem leaf1_D_21 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    arg21.view.read (Elt F) (arg21.view.writes (Elt F) (harg21.unread xs21) (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.2.1) = (outs1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s6 := by
  unfold outs1_D
  rfl

theorem leaf1_D_22 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    arg22.view.read (Elt F) (arg22.view.writes (Elt F) (harg22.unread xs22) (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.2.2.1) = (outs1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s7 := by
  unfold outs1_D
  rfl

theorem leaf1_E_9 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg9.view.ty.Contents (Elt F)) :
    arg9.view.read (Elt F) (arg9.view.writes (Elt F) f (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).1) = (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).o7 := by
  unfold outs1_E kernelRun1_E
  dsimp only
  exact View.read_writes_eq_canon _ _ _ (View.cover_of_wholeMem _ (by sl_whole_mem))

theorem leaf1_E_10 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg10.view.ty.Contents (Elt F)) :
    arg10.view.read (Elt F) (arg10.view.writes (Elt F) f (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.1) = (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).o8 := by
  unfold outs1_E kernelRun1_E
  dsimp only
  exact View.read_writes_eq_canon _ _ _ (View.cover_of_wholeMem _ (by sl_whole_mem))

theorem leaf1_E_11 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg11.view.ty.Contents (Elt F)) :
    arg11.view.read (Elt F) (arg11.view.writes (Elt F) f (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.1) = (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).o9 := by
  unfold outs1_E kernelRun1_E
  dsimp only
  exact View.read_writes_eq_canon _ _ _ (View.cover_of_wholeMem _ (by sl_whole_mem))

theorem leaf1_E_12 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg12.view.ty.Contents (Elt F)) :
    arg12.view.read (Elt F) (arg12.view.writes (Elt F) f (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.1) = (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).o10 := by
  unfold outs1_E kernelRun1_E
  dsimp only
  exact View.read_writes_eq_canon _ _ _ (View.cover_of_wholeMem _ (by sl_whole_mem))

theorem leaf1_E_13 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg13.view.ty.Contents (Elt F)) :
    arg13.view.read (Elt F) (arg13.view.writes (Elt F) f (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.1) = (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).o11 := by
  unfold outs1_E kernelRun1_E
  dsimp only
  exact View.read_writes_eq_canon _ _ _ (View.cover_of_wholeMem _ (by sl_whole_mem))

theorem leaf1_E_14 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg14.view.ty.Contents (Elt F)) :
    arg14.view.read (Elt F) (arg14.view.writes (Elt F) f (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.1) = (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).o12 := by
  unfold outs1_E kernelRun1_E
  dsimp only
  exact View.read_writes_eq_canon _ _ _ (View.cover_of_wholeMem _ (by sl_whole_mem))

theorem leaf1_E_15 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg15.view.ty.Contents (Elt F)) :
    arg15.view.read (Elt F) (arg15.view.writes (Elt F) f (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.1) = (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s0 := by
  unfold outs1_E kernelRun1_E
  dsimp only
  exact View.read_writes_eq_canon _ _ _ (View.cover_of_wholeMem _ (by sl_whole_mem))

theorem leaf1_E_16 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg16.view.ty.Contents (Elt F)) :
    arg16.view.read (Elt F) (arg16.view.writes (Elt F) f (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.1) = (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s1 := by
  unfold outs1_E kernelRun1_E
  dsimp only
  exact View.read_writes_eq_canon _ _ _ (View.cover_of_wholeMem _ (by sl_whole_mem))

theorem leaf1_E_17 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg17.view.ty.Contents (Elt F)) :
    arg17.view.read (Elt F) (arg17.view.writes (Elt F) f (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.1) = (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s2 := by
  unfold outs1_E kernelRun1_E
  dsimp only
  exact View.read_writes_eq_canon _ _ _ (View.cover_of_wholeMem _ (by sl_whole_mem))

theorem leaf1_E_18 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg18.view.ty.Contents (Elt F)) :
    arg18.view.read (Elt F) (arg18.view.writes (Elt F) f (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.2.1) = (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s3 := by
  unfold outs1_E kernelRun1_E
  dsimp only
  exact View.read_writes_eq_canon _ _ _ (View.cover_of_wholeMem _ (by sl_whole_mem))

theorem leaf1_E_19 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    arg19.view.read (Elt F) (arg19.view.writes (Elt F) (harg19.unread xs19) (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.2.2.1) = (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s4 := by
  unfold outs1_E
  rfl

theorem leaf1_E_20 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    arg20.view.read (Elt F) (arg20.view.writes (Elt F) (harg20.unread xs20) (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.2.2.2.1) = (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s5 := by
  unfold outs1_E
  rfl

theorem leaf1_E_21 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    arg21.view.read (Elt F) (arg21.view.writes (Elt F) (harg21.unread xs21) (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.2.2.2.2.1) = (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s6 := by
  unfold outs1_E
  rfl

theorem leaf1_E_22 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    arg22.view.read (Elt F) (arg22.view.writes (Elt F) (harg22.unread xs22) (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.2.2.2.2.2.1) = (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s7 := by
  unfold outs1_E
  rfl

variable (V : (c : Dev nD) → (b : Ref sig .tc) → Buf (Elt F) ((c : Thread nD τ).loc b))

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms0 t) fullShare ((dat1 V c).before 0 t d))
    ∗ (∃ d, owns (c : Thread nD τ) (ms1 t) fullShare ((dat1 V c).before 1 t d))
    ∗ (∃ d, owns (c : Thread nD τ) (ms2 t) fullShare ((dat1 V c).before 2 t d))
    ∗ (∃ d, owns (c : Thread nD τ) (ms3 t) fullShare ((dat1 V c).before 3 t d))
    ∗ (∃ d, owns (c : Thread nD τ) (ms4 t) fullShare ((dat1 V c).before 4 t d))
    ∗ (∃ d, owns (c : Thread nD τ) (ms5 t) fullShare ((dat1 V c).before 5 t d))
    ∗ (∃ d, owns (c : Thread nD τ) (ms6 t) fullShare ((dat1 V c).before 6 t d))
    ∗ (∃ d, owns (c : Thread nD τ) (ms7 t) fullShare ((dat1 V c).before 7 t d))
    ∗ (∃ d, owns (c : Thread nD τ) (ms8 t) fullShare ((dat1 V c).before 8 t d))
    ∗ (∃ d, owns (c : Thread nD τ) (ms9 t) fullShare ((dat1 V c).before 9 t d))
    ∗ (∃ d, owns (c : Thread nD τ) (ms10 t) fullShare ((dat1 V c).before 10 t d))
    ∗ (∃ d, owns (c : Thread nD τ) (ms11 t) fullShare ((dat1 V c).before 11 t d))
    ∗ (∃ d, owns (c : Thread nD τ) (ms12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t)

set_option maxHeartbeats 16000000 in
/-- The body at the first point of the grid. The inputs' memrefs hold their blocks; the case's run applies; the invariant hands the body each accumulator
    at what the point before left (at anything at the first point) and takes it back at this point's contents; an output
    the case does not store into goes back untouched; the core owes nothing throughout. -/
theorem sound_body1_A (c : Dev nD) (t : Fin cfg1.N) (hz : t.val = 0) (h2 : t.val % 16 = 0) (h3 : ¬t.val % 16 = 15) (h4 : ¬t.val = 127) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hc1 : cond1 (grid1.coords t) := (hcond1 t).mpr hz
  have hc2 : cond2 (grid1.coords t) := (hcond2 t).mpr h2
  have hc3 : ¬cond3 (grid1.coords t) := fun h => h3 ((hcond3 t).mp h)
  have hc4 : ¬cond4 (grid1.coords t) := fun h => h4 ((hcond4 t).mp h)
  have hstep := outsAt1_A V c t hz hc1 hc2 hc3 hc4
  rw [show (dat1 V c).leavesExact 0 t = owns (c : Thread nD τ) (ms0 t) fullShare ((dat1 V c).after 0 t) from by
    unfold Dat.leavesExact; rw [liveAt0 t], after1_0]
  rw [show (dat1 V c).leavesExact 1 t = owns (c : Thread nD τ) (ms1 t) fullShare ((dat1 V c).after 1 t) from by
    unfold Dat.leavesExact; rw [liveAt1 t], after1_1]
  rw [show (dat1 V c).leavesExact 2 t = owns (c : Thread nD τ) (ms2 t) fullShare ((dat1 V c).after 2 t) from by
    unfold Dat.leavesExact; rw [liveAt2 t], after1_2]
  rw [show (dat1 V c).leavesExact 3 t = owns (c : Thread nD τ) (ms3 t) fullShare ((dat1 V c).after 3 t) from by
    unfold Dat.leavesExact; rw [liveAt3 t], after1_3]
  rw [show (dat1 V c).leavesExact 4 t = owns (c : Thread nD τ) (ms4 t) fullShare ((dat1 V c).after 4 t) from by
    unfold Dat.leavesExact; rw [liveAt4 t], after1_4]
  rw [show (dat1 V c).leavesExact 5 t = owns (c : Thread nD τ) (ms5 t) fullShare ((dat1 V c).after 5 t) from by
    unfold Dat.leavesExact; rw [liveAt5 t], after1_5]
  rw [show (dat1 V c).leavesExact 6 t = owns (c : Thread nD τ) (ms6 t) fullShare ((dat1 V c).after 6 t) from by
    unfold Dat.leavesExact; rw [liveAt6 t], after1_6]
  rw [Dat.leavesExact_idle (dat1 V c) 7 t (idleAt7 t hc3) (noFlush7 t hc3)]
  rw [Dat.leavesExact_idle (dat1 V c) 8 t (idleAt8 t hc3) (noFlush8 t hc3)]
  rw [Dat.leavesExact_idle (dat1 V c) 9 t (idleAt9 t hc3) (noFlush9 t hc3)]
  rw [Dat.leavesExact_idle (dat1 V c) 10 t (idleAt10 t hc4) (noFlush10 t hc4)]
  rw [Dat.leavesExact_idle (dat1 V c) 11 t (idleAt11 t hc4) (noFlush11 t hc4)]
  rw [Dat.leavesExact_idle (dat1 V c) 12 t (idleAt12 t hc4) (noFlush12 t hc4)]
  rw [PhiS1_castSucc V c t, PhiS1_zero V c _ _ hz, PhiA1_eq]
  iintro ⟨⟨⟨R0, R1, R2, R3, R4, R5, R6, R7, R8, R9, R10, R11, R12, R13, R14, R15, HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun1_A c (grid1.coords t) _ _ _ _ _ _ _ _ _ _ _ _ _ _ _ _ _ _ _ _ _ _ _ _ _ _ _ _ _ _ _ _ _ _ _ _ _ _ _ _ _ _ hc1 hc2 hc3 hc4 (iblk1 V c 0 t) (iblk1 V c 1 t) (iblk1 V c 2 t) (iblk1 V c 3 t) (iblk1 V c 4 t) (iblk1 V c 5 t) (iblk1 V c 6 t)).2.2.2.2.2.2.2.2 _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, H10, H11, H12, ⟨%es0, HS0⟩, ⟨%es1, HS1⟩, ⟨%es2, HS2⟩, ⟨%es3, HS3⟩, ⟨%es4, HS4⟩, ⟨%es5, HS5⟩, ⟨%es6, HS6⟩, ⟨%es7, HS7⟩⟩
  isplitl [R0 R1 R2 R3 R4 R5 R6 R7 R8 R9 R10 R11 R12 R13 R14 R15 HS0 HS1 HS2 HS3 HS4 HS5 HS6 HS7 Hg]
  · isplitl [R0 R1 R2 R3 R4 R5 R6 R7 R8 R9 R10 R11 R12 R13 R14 R15 HS0 HS1 HS2 HS3 HS4 HS5 HS6 HS7]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      isplitl [R15]; · iexact R15
      isplitl [HS0]
      · unfold owns; iexists _; isplitr
        swap; · iexact HS0
        ipureintro; exact (leaf1_A_15 c _ _ _ _ _ _ _ _ _ _ _ _ _ _ _ _ _ _ _ _ _ _ _ _ _ _ _ _ _ _ _ _ _ _ _ _ _ _ _ _ _ _ _ _ _ _ _ _ _ _ _ _ _ _ _).trans (congrArg Outs.s0 hstep).symm
      isplitl [HS1]
      · unfold owns; iexists _; isplitr
        swap; · iexact HS1
        ipureintro; exact (leaf1_A_16 c _ _ _ _ _ _ _ _ _ _ _ _ _ _ _ _ _ _ _ _ _ _ _ _ _ _ _ _ _ _ _ _ _ _ _ _ _ _ _ _ _ _ _ _ _ _ _ _ _ _ _ _ _ _ _).trans (congrArg Outs.s1 hstep).symm
      isplitl [HS2]
      · unfold owns; iexists _; isplitr
        swap; · iexact HS2
        ipureintro; exact (leaf1_A_17 c _ _ _ _ _ _ _ _ _ _ _ _ _ _ _ _ _ _ _ _ _ _ _ _ _ _ _ _ _ _ _ _ _ _ _ _ _ _ _ _ _ _ _ _ _ _ _ _ _ _ _ _ _ _ _).trans (congrArg Outs.s2 hstep).symm
      isplitl [HS3]
      · unfold owns; iexists _; isplitr
        swap; · iexact HS3
        ipureintro; exact (leaf1_A_18 c _ _ _ _ _ _ _ _ _ _ _ _ _ _ _ _ _ _ _ _ _ _ _ _ _ _ _ _ _ _ _ _ _ _ _ _ _ _ _ _ _ _ _ _ _ _ _ _ _ _ _ _ _ _ _).trans (congrArg Outs.s3 hstep).symm
      isplitl [HS4]
      · unfold owns; iexists _; isplitr
        swap; · iexact HS4
        ipureintro; exact (leaf1_A_19 c _ _ _ _ _ _ _ _ _ _ _ _ _ _ _ _ _ _ _ _ _ _ _ _ _ _ _ _ _ _ _ _ _ _ _ _ _ _ _ _ _ _ _ _ _ _ _ _ _ _ _ _ _ _ _).trans (congrArg Outs.s4 hstep).symm
      isplitl [HS5]
      · unfold owns; iexists _; isplitr
        swap; · iexact HS5
        ipureintro; exact (leaf1_A_20 c _ _ _ _ _ _ _ _ _ _ _ _ _ _ _ _ _ _ _ _ _ _ _ _ _ _ _ _ _ _ _ _ _ _ _ _ _ _ _ _ _ _ _ _ _ _ _ _ _ _ _ _ _ _ _).trans (congrArg Outs.s5 hstep).symm
      isplitl [HS6]
      · unfold owns; iexists _; isplitr
        swap; · iexact HS6
        ipureintro; exact (leaf1_A_21 c _ _ _ _ _ _ _ _ _ _ _ _ _ _ _ _ _ _ _ _ _ _ _ _ _ _ _ _ _ _ _ _ _ _ _ _ _ _ _ _ _ _ _ _ _ _ _ _ _ _ _ _ _ _ _).trans (congrArg Outs.s6 hstep).symm
      unfold owns; iexists _; isplitr
      swap; · iexact HS7
      ipureintro; exact (leaf1_A_22 c _ _ _ _ _ _ _ _ _ _ _ _ _ _ _ _ _ _ _ _ _ _ _ _ _ _ _ _ _ _ _ _ _ _ _ _ _ _ _ _ _ _ _ _ _ _ _ _ _ _ _ _ _ _ _).trans (congrArg Outs.s7 hstep).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  iexists _; iexact H12

set_option maxHeartbeats 16000000 in
/-- The body at the first tile of a later row block. The inputs' memrefs hold their blocks; the case's run applies; the invariant hands the body each accumulator
    at what the point before left (at anything at the first point) and takes it back at this point's contents; an output
    the case does not store into goes back untouched; the core owes nothing throughout. -/
theorem sound_body1_B (c : Dev nD) (t : Fin cfg1.N) (hz : ¬t.val = 0) (h2 : t.val % 16 = 0) (h3 : ¬t.val % 16 = 15) (h4 : ¬t.val = 127) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hc1 : ¬cond1 (grid1.coords t) := fun h => hz ((hcond1 t).mp h)
  have hc2 : cond2 (grid1.coords t) := (hcond2 t).mpr h2
  have hc3 : ¬cond3 (grid1.coords t) := fun h => h3 ((hcond3 t).mp h)
  have hc4 : ¬cond4 (grid1.coords t) := fun h => h4 ((hcond4 t).mp h)
  have hstep := outsAt1_B V c t hz h2 hc1 hc2 hc3 hc4
  rw [show (dat1 V c).leavesExact 0 t = owns (c : Thread nD τ) (ms0 t) fullShare ((dat1 V c).after 0 t) from by
    unfold Dat.leavesExact; rw [liveAt0 t], after1_0]
  rw [show (dat1 V c).leavesExact 1 t = owns (c : Thread nD τ) (ms1 t) fullShare ((dat1 V c).after 1 t) from by
    unfold Dat.leavesExact; rw [liveAt1 t], after1_1]
  rw [show (dat1 V c).leavesExact 2 t = owns (c : Thread nD τ) (ms2 t) fullShare ((dat1 V c).after 2 t) from by
    unfold Dat.leavesExact; rw [liveAt2 t], after1_2]
  rw [show (dat1 V c).leavesExact 3 t = owns (c : Thread nD τ) (ms3 t) fullShare ((dat1 V c).after 3 t) from by
    unfold Dat.leavesExact; rw [liveAt3 t], after1_3]
  rw [show (dat1 V c).leavesExact 4 t = owns (c : Thread nD τ) (ms4 t) fullShare ((dat1 V c).after 4 t) from by
    unfold Dat.leavesExact; rw [liveAt4 t], after1_4]
  rw [show (dat1 V c).leavesExact 5 t = owns (c : Thread nD τ) (ms5 t) fullShare ((dat1 V c).after 5 t) from by
    unfold Dat.leavesExact; rw [liveAt5 t], after1_5]
  rw [show (dat1 V c).leavesExact 6 t = owns (c : Thread nD τ) (ms6 t) fullShare ((dat1 V c).after 6 t) from by
    unfold Dat.leavesExact; rw [liveAt6 t], after1_6]
  rw [Dat.leavesExact_idle (dat1 V c) 7 t (idleAt7 t hc3) (noFlush7 t hc3)]
  rw [Dat.leavesExact_idle (dat1 V c) 8 t (idleAt8 t hc3) (noFlush8 t hc3)]
  rw [Dat.leavesExact_idle (dat1 V c) 9 t (idleAt9 t hc3) (noFlush9 t hc3)]
  rw [Dat.leavesExact_idle (dat1 V c) 10 t (idleAt10 t hc4) (noFlush10 t hc4)]
  rw [Dat.leavesExact_idle (dat1 V c) 11 t (idleAt11 t hc4) (noFlush11 t hc4)]
  rw [Dat.leavesExact_idle (dat1 V c) 12 t (idleAt12 t hc4) (noFlush12 t hc4)]
  rw [PhiS1_castSucc V c t, PhiS1_pos V c _ _ hz]
  iintro ⟨⟨⟨R0, R1, R2, R3, R4, R5, R6, R7, R8, R9, R10, R11, R12, R13, R14, R15, HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun1_B c (grid1.coords t) _ _ _ _ _ _ _ _ _ _ _ _ _ _ _ _ _ _ _ _ _ _ _ _ _ _ _ _ _ _ _ _ _ _ _ _ _ _ _ _ _ _ hc1 hc2 hc3 hc4 (iblk1 V c 0 t) (iblk1 V c 1 t) (iblk1 V c 2 t) (iblk1 V c 3 t) (iblk1 V c 4 t) (iblk1 V c 5 t) (iblk1 V c 6 t) _ _ _ _).2.2.2.2.2.2.2.2 _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexists _; iexact HS0
  isplitl [HS1]; · iexists _; iexact HS1
  isplitl [HS2]; · iexists _; iexact HS2
  isplitl [HS3]; · iexists _; iexact HS3
  isplitl [HS4]; · iexact HS4
  isplitl [HS5]; · iexact HS5
  isplitl [HS6]; · iexact HS6
  isplitl [HS7]; · iexact HS7
  iintro ⟨H0, H1, H2, H3, H4, H5, H6, H7, H8, H9, H10, H11, H12, ⟨%es0, HS0⟩, ⟨%es1, HS1⟩, ⟨%es2, HS2⟩, ⟨%es3, HS3⟩, HS4, HS5, HS6, HS7⟩
  isplitl [R0 R1 R2 R3 R4 R5 R6 R7 R8 R9 R10 R11 R12 R13 R14 R15 HS0 HS1 HS2 HS3 HS4 HS5 HS6 HS7 Hg]
  · isplitl [R0 R1 R2 R3 R4 R5 R6 R7 R8 R9 R10 R11 R12 R13 R14 R15 HS0 HS1 HS2 HS3 HS4 HS5 HS6 HS7]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      isplitl [R15]; · iexact R15
      isplitl [HS0]
      · unfold owns; iexists _; isplitr
        swap; · iexact HS0
        ipureintro; exact (leaf1_B_15 c _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s0 hstep).symm
      isplitl [HS1]
      · unfold owns; iexists _; isplitr
        swap; · iexact HS1
        ipureintro; exact (leaf1_B_16 c _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s1 hstep).symm
      isplitl [HS2]
      · unfold owns; iexists _; isplitr
        swap; · iexact HS2
        ipureintro; exact (leaf1_B_17 c _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s2 hstep).symm
      isplitl [HS3]
      · unfold owns; iexists _; isplitr
        swap; · iexact HS3
        ipureintro; exact (leaf1_B_18 c _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s3 hstep).symm
      isplitl [HS4]
      · unfold owns; iexists _; isplitr
        swap; · iexact HS4
        ipureintro; exact (leaf1_B_19 c _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s4 hstep).symm
      isplitl [HS5]
      · unfold owns; iexists _; isplitr
        swap; · iexact HS5
        ipureintro; exact (leaf1_B_20 c _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s5 hstep).symm
      isplitl [HS6]
      · unfold owns; iexists _; isplitr
        swap; · iexact HS6
        ipureintro; exact (leaf1_B_21 c _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s6 hstep).symm
      unfold owns; iexists _; isplitr
      swap; · iexact HS7
      ipureintro; exact (leaf1_B_22 c _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s7 hstep).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  iexists _; iexact H12

set_option maxHeartbeats 16000000 in
/-- The body at a tile in the middle of a row block. The inputs' memrefs hold their blocks; the case's run applies; the invariant hands the body each accumulator
    at what the point before left (at anything at the first point) and takes it back at this point's contents; an output
    the case does not store into goes back untouched; the core owes nothing throughout. -/
theorem sound_body1_M (c : Dev nD) (t : Fin cfg1.N) (hz : ¬t.val = 0) (h2 : ¬t.val % 16 = 0) (h3 : ¬t.val % 16 = 15) (h4 : ¬t.val = 127) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hc1 : ¬cond1 (grid1.coords t) := fun h => hz ((hcond1 t).mp h)
  have hc2 : ¬cond2 (grid1.coords t) := fun h => h2 ((hcond2 t).mp h)
  have hc3 : ¬cond3 (grid1.coords t) := fun h => h3 ((hcond3 t).mp h)
  have hc4 : ¬cond4 (grid1.coords t) := fun h => h4 ((hcond4 t).mp h)
  have hstep := outsAt1_M V c t h2 h3 hc1 hc2 hc3 hc4
  rw [show (dat1 V c).leavesExact 0 t = owns (c : Thread nD τ) (ms0 t) fullShare ((dat1 V c).after 0 t) from by
    unfold Dat.leavesExact; rw [liveAt0 t], after1_0]
  rw [show (dat1 V c).leavesExact 1 t = owns (c : Thread nD τ) (ms1 t) fullShare ((dat1 V c).after 1 t) from by
    unfold Dat.leavesExact; rw [liveAt1 t], after1_1]
  rw [show (dat1 V c).leavesExact 2 t = owns (c : Thread nD τ) (ms2 t) fullShare ((dat1 V c).after 2 t) from by
    unfold Dat.leavesExact; rw [liveAt2 t], after1_2]
  rw [show (dat1 V c).leavesExact 3 t = owns (c : Thread nD τ) (ms3 t) fullShare ((dat1 V c).after 3 t) from by
    unfold Dat.leavesExact; rw [liveAt3 t], after1_3]
  rw [show (dat1 V c).leavesExact 4 t = owns (c : Thread nD τ) (ms4 t) fullShare ((dat1 V c).after 4 t) from by
    unfold Dat.leavesExact; rw [liveAt4 t], after1_4]
  rw [show (dat1 V c).leavesExact 5 t = owns (c : Thread nD τ) (ms5 t) fullShare ((dat1 V c).after 5 t) from by
    unfold Dat.leavesExact; rw [liveAt5 t], after1_5]
  rw [show (dat1 V c).leavesExact 6 t = owns (c : Thread nD τ) (ms6 t) fullShare ((dat1 V c).after 6 t) from by
    unfold Dat.leavesExact; rw [liveAt6 t], after1_6]
  rw [Dat.leavesExact_idle (dat1 V c) 7 t (idleAt7 t hc3) (noFlush7 t hc3)]
  rw [Dat.leavesExact_idle (dat1 V c) 8 t (idleAt8 t hc3) (noFlush8 t hc3)]
  rw [Dat.leavesExact_idle (dat1 V c) 9 t (idleAt9 t hc3) (noFlush9 t hc3)]
  rw [Dat.leavesExact_idle (dat1 V c) 10 t (idleAt10 t hc4) (noFlush10 t hc4)]
  rw [Dat.leavesExact_idle (dat1 V c) 11 t (idleAt11 t hc4) (noFlush11 t hc4)]
  rw [Dat.leavesExact_idle (dat1 V c) 12 t (idleAt12 t hc4) (noFlush12 t hc4)]
  rw [PhiS1_castSucc V c t, PhiS1_pos V c _ _ hz]
  iintro ⟨⟨⟨R0, R1, R2, R3, R4, R5, R6, R7, R8, R9, R10, R11, R12, R13, R14, R15, HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun1_M c (grid1.coords t) _ _ _ _ _ _ _ _ _ _ _ _ _ _ _ _ _ _ _ _ _ _ _ _ _ _ _ _ _ _ _ _ _ _ _ _ _ _ _ _ _ _ hc1 hc2 hc3 hc4 (iblk1 V c 0 t) (iblk1 V c 1 t) (iblk1 V c 2 t) (iblk1 V c 3 t) (iblk1 V c 4 t) (iblk1 V c 5 t) (iblk1 V c 6 t) _ _ _ _ _ _ _ _).2.2.2.2.2.2.2.2 _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, H10, H11, H12, ⟨%es0, HS0⟩, ⟨%es1, HS1⟩, ⟨%es2, HS2⟩, ⟨%es3, HS3⟩, HS4, HS5, HS6, HS7⟩
  isplitl [R0 R1 R2 R3 R4 R5 R6 R7 R8 R9 R10 R11 R12 R13 R14 R15 HS0 HS1 HS2 HS3 HS4 HS5 HS6 HS7 Hg]
  · isplitl [R0 R1 R2 R3 R4 R5 R6 R7 R8 R9 R10 R11 R12 R13 R14 R15 HS0 HS1 HS2 HS3 HS4 HS5 HS6 HS7]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      isplitl [R15]; · iexact R15
      isplitl [HS0]
      · unfold owns; iexists _; isplitr
        swap; · iexact HS0
        ipureintro; exact (leaf1_M_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s0 hstep).symm
      isplitl [HS1]
      · unfold owns; iexists _; isplitr
        swap; · iexact HS1
        ipureintro; exact (leaf1_M_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s1 hstep).symm
      isplitl [HS2]
      · unfold owns; iexists _; isplitr
        swap; · iexact HS2
        ipureintro; exact (leaf1_M_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s2 hstep).symm
      isplitl [HS3]
      · unfold owns; iexists _; isplitr
        swap; · iexact HS3
        ipureintro; exact (leaf1_M_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s3 hstep).symm
      isplitl [HS4]
      · unfold owns; iexists _; isplitr
        swap; · iexact HS4
        ipureintro; exact (leaf1_M_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s4 hstep).symm
      isplitl [HS5]
      · unfold owns; iexists _; isplitr
        swap; · iexact HS5
        ipureintro; exact (leaf1_M_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s5 hstep).symm
      isplitl [HS6]
      · unfold owns; iexists _; isplitr
        swap; · iexact HS6
        ipureintro; exact (leaf1_M_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s6 hstep).symm
      unfold owns; iexists _; isplitr
      swap; · iexact HS7
      ipureintro; exact (leaf1_M_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s7 hstep).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  iexists _; iexact H12

set_option maxHeartbeats 16000000 in
/-- The body at the last tile of a row block other than the last. The inputs' memrefs hold their blocks; the case's run applies; the invariant hands the body each accumulator
    at what the point before left (at anything at the first point) and takes it back at this point's contents; an output
    the case does not store into goes back untouched; the core owes nothing throughout. -/
theorem sound_body1_D (c : Dev nD) (t : Fin cfg1.N) (hz : ¬t.val = 0) (h2 : ¬t.val % 16 = 0) (h3 : t.val % 16 = 15) (h4 : ¬t.val = 127) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hc1 : ¬cond1 (grid1.coords t) := fun h => hz ((hcond1 t).mp h)
  have hc2 : ¬cond2 (grid1.coords t) := fun h => h2 ((hcond2 t).mp h)
  have hc3 : cond3 (grid1.coords t) := (hcond3 t).mpr h3
  have hc4 : ¬cond4 (grid1.coords t) := fun h => h4 ((hcond4 t).mp h)
  have hstep := outsAt1_D V c t h2 h3 h4 hc1 hc2 hc3 hc4
  rw [show (dat1 V c).leavesExact 0 t = owns (c : Thread nD τ) (ms0 t) fullShare ((dat1 V c).after 0 t) from by
    unfold Dat.leavesExact; rw [liveAt0 t], after1_0]
  rw [show (dat1 V c).leavesExact 1 t = owns (c : Thread nD τ) (ms1 t) fullShare ((dat1 V c).after 1 t) from by
    unfold Dat.leavesExact; rw [liveAt1 t], after1_1]
  rw [show (dat1 V c).leavesExact 2 t = owns (c : Thread nD τ) (ms2 t) fullShare ((dat1 V c).after 2 t) from by
    unfold Dat.leavesExact; rw [liveAt2 t], after1_2]
  rw [show (dat1 V c).leavesExact 3 t = owns (c : Thread nD τ) (ms3 t) fullShare ((dat1 V c).after 3 t) from by
    unfold Dat.leavesExact; rw [liveAt3 t], after1_3]
  rw [show (dat1 V c).leavesExact 4 t = owns (c : Thread nD τ) (ms4 t) fullShare ((dat1 V c).after 4 t) from by
    unfold Dat.leavesExact; rw [liveAt4 t], after1_4]
  rw [show (dat1 V c).leavesExact 5 t = owns (c : Thread nD τ) (ms5 t) fullShare ((dat1 V c).after 5 t) from by
    unfold Dat.leavesExact; rw [liveAt5 t], after1_5]
  rw [show (dat1 V c).leavesExact 6 t = owns (c : Thread nD τ) (ms6 t) fullShare ((dat1 V c).after 6 t) from by
    unfold Dat.leavesExact; rw [liveAt6 t], after1_6]
  rw [show (dat1 V c).leavesExact 7 t = owns (c : Thread nD τ) (ms7 t) fullShare ((dat1 V c).after 7 t) from by
    unfold Dat.leavesExact; rw [liveAt7 t hc3], after1_7]
  rw [show (dat1 V c).leavesExact 8 t = owns (c : Thread nD τ) (ms8 t) fullShare ((dat1 V c).after 8 t) from by
    unfold Dat.leavesExact; rw [liveAt8 t hc3], after1_8]
  rw [show (dat1 V c).leavesExact 9 t = owns (c : Thread nD τ) (ms9 t) fullShare ((dat1 V c).after 9 t) from by
    unfold Dat.leavesExact; rw [liveAt9 t hc3], after1_9]
  rw [Dat.leavesExact_idle (dat1 V c) 10 t (idleAt10 t hc4) (noFlush10 t hc4)]
  rw [Dat.leavesExact_idle (dat1 V c) 11 t (idleAt11 t hc4) (noFlush11 t hc4)]
  rw [Dat.leavesExact_idle (dat1 V c) 12 t (idleAt12 t hc4) (noFlush12 t hc4)]
  rw [PhiS1_castSucc V c t, PhiS1_pos V c _ _ hz]
  iintro ⟨⟨⟨R0, R1, R2, R3, R4, R5, R6, R7, R8, R9, R10, R11, R12, R13, R14, R15, HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun1_D c (grid1.coords t) _ _ _ _ _ _ _ _ _ _ _ _ _ _ _ _ _ _ _ _ _ _ _ _ _ _ _ _ _ _ _ _ _ _ _ _ _ _ _ _ _ _ hc1 hc2 hc3 hc4 (iblk1 V c 0 t) (iblk1 V c 1 t) (iblk1 V c 2 t) (iblk1 V c 3 t) (iblk1 V c 4 t) (iblk1 V c 5 t) (iblk1 V c 6 t) _ _ _ _ _ _ _ _).2.2.2.2.2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, ⟨%e7, H7⟩, ⟨%e8, H8⟩, ⟨%e9, H9⟩, H10, H11, H12, ⟨%es0, HS0⟩, ⟨%es1, HS1⟩, ⟨%es2, HS2⟩, ⟨%es3, HS3⟩, HS4, HS5, HS6, HS7⟩
  isplitl [R0 R1 R2 R3 R4 R5 R6 R7 R8 R9 R10 R11 R12 R13 R14 R15 HS0 HS1 HS2 HS3 HS4 HS5 HS6 HS7 Hg]
  · isplitl [R0 R1 R2 R3 R4 R5 R6 R7 R8 R9 R10 R11 R12 R13 R14 R15 HS0 HS1 HS2 HS3 HS4 HS5 HS6 HS7]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      isplitl [R15]; · iexact R15
      isplitl [HS0]
      · unfold owns; iexists _; isplitr
        swap; · iexact HS0
        ipureintro; exact (leaf1_D_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s0 hstep).symm
      isplitl [HS1]
      · unfold owns; iexists _; isplitr
        swap; · iexact HS1
        ipureintro; exact (leaf1_D_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s1 hstep).symm
      isplitl [HS2]
      · unfold owns; iexists _; isplitr
        swap; · iexact HS2
        ipureintro; exact (leaf1_D_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s2 hstep).symm
      isplitl [HS3]
      · unfold owns; iexists _; isplitr
        swap; · iexact HS3
        ipureintro; exact (leaf1_D_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s3 hstep).symm
      isplitl [HS4]
      · unfold owns; iexists _; isplitr
        swap; · iexact HS4
        ipureintro; exact (leaf1_D_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s4 hstep).symm
      isplitl [HS5]
      · unfold owns; iexists _; isplitr
        swap; · iexact HS5
        ipureintro; exact (leaf1_D_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s5 hstep).symm
      isplitl [HS6]
      · unfold owns; iexists _; isplitr
        swap; · iexact HS6
        ipureintro; exact (leaf1_D_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s6 hstep).symm
      unfold owns; iexists _; isplitr
      swap; · iexact HS7
      ipureintro; exact (leaf1_D_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s7 hstep).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact (leaf1_D_9 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.o7 hstep).symm
  isplitl [H8]
  · unfold owns; iexists _; isplitr
    swap; · iexact H8
    ipureintro; exact (leaf1_D_10 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.o8 hstep).symm
  isplitl [H9]
  · unfold owns; iexists _; isplitr
    swap; · iexact H9
    ipureintro; exact (leaf1_D_11 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.o9 hstep).symm
  isplitl [H10]; · iexists _; iexact H10
  isplitl [H11]; · iexists _; iexact H11
  iexists _; iexact H12

set_option maxHeartbeats 16000000 in
/-- The body at the last point of the grid. The inputs' memrefs hold their blocks; the case's run applies; the invariant hands the body each accumulator
    at what the point before left (at anything at the first point) and takes it back at this point's contents; an output
    the case does not store into goes back untouched; the core owes nothing throughout. -/
theorem sound_body1_E (c : Dev nD) (t : Fin cfg1.N) (hz : ¬t.val = 0) (h2 : ¬t.val % 16 = 0) (h3 : t.val % 16 = 15) (h4 : t.val = 127) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hc1 : ¬cond1 (grid1.coords t) := fun h => hz ((hcond1 t).mp h)
  have hc2 : ¬cond2 (grid1.coords t) := fun h => h2 ((hcond2 t).mp h)
  have hc3 : cond3 (grid1.coords t) := (hcond3 t).mpr h3
  have hc4 : cond4 (grid1.coords t) := (hcond4 t).mpr h4
  have hstep := outsAt1_E V c t h2 h3 h4 hc1 hc2 hc3 hc4
  rw [show (dat1 V c).leavesExact 0 t = owns (c : Thread nD τ) (ms0 t) fullShare ((dat1 V c).after 0 t) from by
    unfold Dat.leavesExact; rw [liveAt0 t], after1_0]
  rw [show (dat1 V c).leavesExact 1 t = owns (c : Thread nD τ) (ms1 t) fullShare ((dat1 V c).after 1 t) from by
    unfold Dat.leavesExact; rw [liveAt1 t], after1_1]
  rw [show (dat1 V c).leavesExact 2 t = owns (c : Thread nD τ) (ms2 t) fullShare ((dat1 V c).after 2 t) from by
    unfold Dat.leavesExact; rw [liveAt2 t], after1_2]
  rw [show (dat1 V c).leavesExact 3 t = owns (c : Thread nD τ) (ms3 t) fullShare ((dat1 V c).after 3 t) from by
    unfold Dat.leavesExact; rw [liveAt3 t], after1_3]
  rw [show (dat1 V c).leavesExact 4 t = owns (c : Thread nD τ) (ms4 t) fullShare ((dat1 V c).after 4 t) from by
    unfold Dat.leavesExact; rw [liveAt4 t], after1_4]
  rw [show (dat1 V c).leavesExact 5 t = owns (c : Thread nD τ) (ms5 t) fullShare ((dat1 V c).after 5 t) from by
    unfold Dat.leavesExact; rw [liveAt5 t], after1_5]
  rw [show (dat1 V c).leavesExact 6 t = owns (c : Thread nD τ) (ms6 t) fullShare ((dat1 V c).after 6 t) from by
    unfold Dat.leavesExact; rw [liveAt6 t], after1_6]
  rw [show (dat1 V c).leavesExact 7 t = owns (c : Thread nD τ) (ms7 t) fullShare ((dat1 V c).after 7 t) from by
    unfold Dat.leavesExact; rw [liveAt7 t hc3], after1_7]
  rw [show (dat1 V c).leavesExact 8 t = owns (c : Thread nD τ) (ms8 t) fullShare ((dat1 V c).after 8 t) from by
    unfold Dat.leavesExact; rw [liveAt8 t hc3], after1_8]
  rw [show (dat1 V c).leavesExact 9 t = owns (c : Thread nD τ) (ms9 t) fullShare ((dat1 V c).after 9 t) from by
    unfold Dat.leavesExact; rw [liveAt9 t hc3], after1_9]
  rw [show (dat1 V c).leavesExact 10 t = owns (c : Thread nD τ) (ms10 t) fullShare ((dat1 V c).after 10 t) from by
    unfold Dat.leavesExact; rw [liveAt10 t hc4], after1_10]
  rw [show (dat1 V c).leavesExact 11 t = owns (c : Thread nD τ) (ms11 t) fullShare ((dat1 V c).after 11 t) from by
    unfold Dat.leavesExact; rw [liveAt11 t hc4], after1_11]
  rw [show (dat1 V c).leavesExact 12 t = owns (c : Thread nD τ) (ms12 t) fullShare ((dat1 V c).after 12 t) from by
    unfold Dat.leavesExact; rw [liveAt12 t hc4], after1_12]
  rw [PhiS1_castSucc V c t, PhiS1_pos V c _ _ hz]
  iintro ⟨⟨⟨R0, R1, R2, R3, R4, R5, R6, R7, R8, R9, R10, R11, R12, R13, R14, R15, HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun1_E c (grid1.coords t) _ _ _ _ _ _ _ _ _ _ _ _ _ _ _ _ _ _ _ _ _ _ _ _ _ _ _ _ _ _ _ _ _ _ _ _ _ _ _ _ _ _ hc1 hc2 hc3 hc4 (iblk1 V c 0 t) (iblk1 V c 1 t) (iblk1 V c 2 t) (iblk1 V c 3 t) (iblk1 V c 4 t) (iblk1 V c 5 t) (iblk1 V c 6 t) _ _ _ _ _ _ _ _).2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, ⟨%e7, H7⟩, ⟨%e8, H8⟩, ⟨%e9, H9⟩, ⟨%e10, H10⟩, ⟨%e11, H11⟩, ⟨%e12, H12⟩, ⟨%es0, HS0⟩, ⟨%es1, HS1⟩, ⟨%es2, HS2⟩, ⟨%es3, HS3⟩, HS4, HS5, HS6, HS7⟩
  isplitl [R0 R1 R2 R3 R4 R5 R6 R7 R8 R9 R10 R11 R12 R13 R14 R15 HS0 HS1 HS2 HS3 HS4 HS5 HS6 HS7 Hg]
  · isplitl [R0 R1 R2 R3 R4 R5 R6 R7 R8 R9 R10 R11 R12 R13 R14 R15 HS0 HS1 HS2 HS3 HS4 HS5 HS6 HS7]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      isplitl [R15]; · iexact R15
      isplitl [HS0]
      · unfold owns; iexists _; isplitr
        swap; · iexact HS0
        ipureintro; exact (leaf1_E_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s0 hstep).symm
      isplitl [HS1]
      · unfold owns; iexists _; isplitr
        swap; · iexact HS1
        ipureintro; exact (leaf1_E_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s1 hstep).symm
      isplitl [HS2]
      · unfold owns; iexists _; isplitr
        swap; · iexact HS2
        ipureintro; exact (leaf1_E_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s2 hstep).symm
      isplitl [HS3]
      · unfold owns; iexists _; isplitr
        swap; · iexact HS3
        ipureintro; exact (leaf1_E_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s3 hstep).symm
      isplitl [HS4]
      · unfold owns; iexists _; isplitr
        swap; · iexact HS4
        ipureintro; exact (leaf1_E_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s4 hstep).symm
      isplitl [HS5]
      · unfold owns; iexists _; isplitr
        swap; · iexact HS5
        ipureintro; exact (leaf1_E_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s5 hstep).symm
      isplitl [HS6]
      · unfold owns; iexists _; isplitr
        swap; · iexact HS6
        ipureintro; exact (leaf1_E_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s6 hstep).symm
      unfold owns; iexists _; isplitr
      swap; · iexact HS7
      ipureintro; exact (leaf1_E_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s7 hstep).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact (leaf1_E_9 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.o7 hstep).symm
  isplitl [H8]
  · unfold owns; iexists _; isplitr
    swap; · iexact H8
    ipureintro; exact (leaf1_E_10 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.o8 hstep).symm
  isplitl [H9]
  · unfold owns; iexists _; isplitr
    swap; · iexact H9
    ipureintro; exact (leaf1_E_11 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.o9 hstep).symm
  isplitl [H10]
  · unfold owns; iexists _; isplitr
    swap; · iexact H10
    ipureintro; exact (leaf1_E_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.o10 hstep).symm
  isplitl [H11]
  · unfold owns; iexists _; isplitr
    swap; · iexact H11
    ipureintro; exact (leaf1_E_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.o11 hstep).symm
  unfold owns; iexists _; isplitr
  swap; · iexact H12
  ipureintro; exact (leaf1_E_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.o12 hstep).symm

/-- The body at any point: the closed forms say which of the five situations the point is in. -/
theorem sound_body1 (c : Dev nD) (t : Fin cfg1.N) :
    bodyPre1 V c t ⊢ wp frame (wpE (defs₀ (F := F)) Variants.none c none) Set.univ (bodyAt1 t) (fun _ => bodyPost1 V c t) := by
  have hN : t.val < 128 := lt_of_lt_of_eq t.isLt (show cfg1.N = 128 from N_1)
  by_cases h2 : t.val % 16 = 0
  · have h3 : ¬t.val % 16 = 15 := by omega
    have h4 : ¬t.val = 127 := by omega
    by_cases hz : t.val = 0
    · exact sound_body1_A V c t hz h2 h3 h4
    · exact sound_body1_B V c t hz h2 h3 h4
  · have hz : ¬t.val = 0 := by omega
    by_cases h3 : t.val % 16 = 15
    · by_cases h4 : t.val = 127
      · exact sound_body1_E V c t hz h2 h3 h4
      · exact sound_body1_D V c t hz h2 h3 h4
    · have h4 : ¬t.val = 127 := by omega
      exact sound_body1_M V c t hz h2 h3 h4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.H1

end
-- ==== Proof.AsmInst.lean ====
/- The run of @main at the two regions' proof data: the several-region run instantiated, and read at the buffers the
   certificate's claims speak of — the arguments (the frame: both end as launched) and the result scalar (its value the
   last boundary valuation's, a closed term of the launch memory). -/
import proofs.«170005_j69870527971928_1_alg».proof.Proof.AsmRun
import proofs.«170005_j69870527971928_1_alg».proof.Proof.R0
import proofs.«170005_j69870527971928_1_alg».proof.Proof.R1Body

noncomputable section

namespace Cert.KernelIdeal.Asm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

/-- What the regions leave, at the two regions' proof data. -/
abbrev outs0 (m : (ℓ : Loc nD τ sig) → Buf (Elt F) ℓ) : Gen.Outs (F := F) := outs (H0.dat0 (F := F)) (H1.dat1 (F := F)) m

/-- The several-region run at the two regions' proof data: every unscoped buffer ends at the last boundary's contents. -/
theorem run_inst (m : (ℓ : Loc nD τ sig) → Buf (Elt F) ℓ) (ρ : Dev nD → PrngReg) :
    θ_run defs (onTc (τ := τ) (main (F := F))) ⟨m, fun _ => 0, ρ⟩ (fun r => ∀ c : Dev nD, ∀ b ∈ Pipeline.ucRefs τ sig,
      r.2.mem ((c : Thread nD τ).1, b) = Gen.V5 m (outs0 m) c b) :=
  run_all H0.dat0 H1.dat1 H0.A_eq0 H0.q0_1 H0.q0_2 H0.q0_of H0.owed0 H0.recorded0 H0.body_obligation0 H0.hin0 H0.hout0 H1.A_eq1 H1.q1_1 H1.q1_2 H1.q1_of H1.owed1 H1.recorded1 H1.body_obligation1 H1.hin1 H1.hout1 m ρ

/-- THE FRAME: from any memory with zero counters every weakly fair execution of @main terminates, nothing faulting, and
    both argument arrays end as launched (no host stretch writes one, no region may change one). -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c =>
    ⟨(h c _ (mem_uc main_arg0 (by decide))).trans (Gen.V5_main_arg0 m (outs0 m) c),
     (h c _ (mem_uc main_arg1 (by decide))).trans (Gen.V5_main_arg1 m (outs0 m) c)⟩) (run_inst m ρ)

/-- THE VALUE: the same run read at the result scalar, which ends at the last boundary valuation's contents, beside the
    arguments as launched. -/
theorem run_value (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v12) = Gen.V5 m (outs0 m) c main_v12
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c =>
    ⟨h c _ (mem_uc main_v12 (by decide)),
     (h c _ (mem_uc main_arg0 (by decide))).trans (Gen.V5_main_arg0 m (outs0 m) c),
     (h c _ (mem_uc main_arg1 (by decide))).trans (Gen.V5_main_arg1 m (outs0 m) c)⟩) (run_inst m ρ)

end Cert.KernelIdeal.Asm

end
-- ==== Proof.KAsmShare.lean ====
/- The share split of the array two windows stage. In both pipelines windows 1 and 2 stage the SAME array
   (the targets vector), so the windows' arrays are not distinct buffers: the proof data hold that array at the left
   half share for window 1 and at the right half share for window 2, and every other array at the full share. This
   module shows that the pipeline's `arrays` conjunction (one conjunct per WINDOW) is the conjunction of the DISTINCT
   buffers behind the arrays, each whole at the full share (`Pipeline.arrBufs`), in both directions. -/
import proofs.«170005_j69870527971928_1_alg».proof.Proof.Gen.Kernel.Regions
import Idealize.ShloMosaic.Lib.Pipeline.RegionsLoop
import Idealize.ShloMosaic.Lib.Pipeline.FrameSuffix

noncomputable section

namespace Cert.Kernel.Asm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

/-! ## Pipeline 0 (7 windows over 6 buffers) -/

/-- The distinct buffers behind the arrays of pipeline 0's windows, one by one. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_arg1) ↦{fullShare} V main_arg1) ∗ (((c : Thread nD τ).loc main_v0_0) ↦{fullShare} V main_v0_0) ∗ (((c : Thread nD τ).loc main_v0_1) ↦{fullShare} V main_v0_1) ∗ (((c : Thread nD τ).loc main_v0_2) ↦{fullShare} V main_v0_2) ∗ (((c : Thread nD τ).loc main_v0_3) ↦{fullShare} V main_v0_3)) := by
  unfold Pipeline.arrBufs
  exact bigSep_eq_bigSepL_of_eq [main_arg0, main_arg1, main_v0_0, main_v0_1, main_v0_2, main_v0_3] (by decide) (by decide) _

/-- Pipeline 0's arrays at contents read off `V` are the distinct buffers behind them whole at `V`: every window
    holds its array at the full share but windows 1 and 2, which stage ONE array and hold its left and its right half
    share; the two halves are the full share split (`pointsTo_share`). -/
theorem arrays0_iff (c : Dev nD) (dat : Dat τ (Elt F) Unit ℕ (UR sig nD τ) ℕ cfg0 c)
    (hq1 : dat.q (1 : Fin 7) = fullShare.left) (hq2 : dat.q (2 : Fin 7) = fullShare.right)
    (hq : ∀ w : Fin 7, w ≠ 1 → w ≠ 2 → dat.q w = fullShare)
    (A : (w : Fin 7) → Buf (Elt F) ((cfg0.win w).arr.view.loc (c : Thread nD τ)))
    (V : (b : Ref sig .tc) → Buf (Elt F) ((c : Thread nD τ).loc b))
    (hA : ∀ w, A w = V (Pipeline.arrRef spec0 w)) :
    (dat.arrays A : sProp 𝕄) ⊣⊢ Pipeline.arrBufs (Ix := Unit) (Name := ℕ) (U := UR sig nD τ) (Lvl := ℕ) spec0 c V := by
  have e : (dat.arrays A : sProp 𝕄) = bigSep Finset.univ fun w : Fin 7 =>
      ((((c : Thread nD τ).loc (Pipeline.arrRef spec0 w)) ↦{dat.share w} V (Pipeline.arrRef spec0 w)) : sProp 𝕄) := by
    unfold Pipeline.Dat.arrays
    exact bigSep_congr fun w _ => by rw [(Gen.arr_whole0 w).set_eq_univ, hA w]
  have hs0 : dat.share (0 : Fin 7) = fullShare := by unfold Pipeline.Dat.share; rw [if_neg (by decide)]; exact hq 0 (by decide) (by decide)
  have hs1 : dat.share (1 : Fin 7) = fullShare.left := by unfold Pipeline.Dat.share; rw [if_neg (by decide)]; exact hq1
  have hs2 : dat.share (2 : Fin 7) = fullShare.right := by unfold Pipeline.Dat.share; rw [if_neg (by decide)]; exact hq2
  have hs3 : dat.share (3 : Fin 7) = fullShare := by unfold Pipeline.Dat.share; rw [if_pos (by decide)]
  have hs4 : dat.share (4 : Fin 7) = fullShare := by unfold Pipeline.Dat.share; rw [if_pos (by decide)]
  have hs5 : dat.share (5 : Fin 7) = fullShare := by unfold Pipeline.Dat.share; rw [if_pos (by decide)]
  have hs6 : dat.share (6 : Fin 7) = fullShare := by unfold Pipeline.Dat.share; rw [if_pos (by decide)]
  rw [e, Gen.bigSep_W0, arrBufs0_eq, hs0, hs1, hs2, hs3, hs4, hs5, hs6]
  constructor
  ·
    iintro ⟨H0, H1, H2, H3, H4, H5, H6⟩
    isplitl [H0]; · iexact H0
    isplitl [H1 H2]
    · iapply (pointsTo_share (PosShare.mem_left_op_right fullShare)).2
      isplitl [H1]; · iexact H1
      iexact H2
    isplitl [H3]; · iexact H3
    isplitl [H4]; · iexact H4
    isplitl [H5]; · iexact H5
    iexact H6
  ·
    iintro ⟨G0, G1, G2, G3, G4, G5⟩
    ihave G1' := (pointsTo_share (PosShare.mem_left_op_right fullShare)).1 $$ G1
    icases G1' with ⟨G1l, G1r⟩
    isplitl [G0]; · iexact G0
    isplitl [G1l]; · iexact G1l
    isplitl [G1r]; · iexact G1r
    isplitl [G2]; · iexact G2
    isplitl [G3]; · iexact G3
    isplitl [G4]; · iexact G4
    iexact G5

/-! ## Pipeline 1 (13 windows over 12 buffers) -/

/-- The distinct buffers behind the arrays of pipeline 1's windows, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg0) ↦{fullShare} V main_arg0) ∗ (((c : Thread nD τ).loc main_arg1) ↦{fullShare} V main_arg1) ∗ (((c : Thread nD τ).loc main_v0_0) ↦{fullShare} V main_v0_0) ∗ (((c : Thread nD τ).loc main_v0_1) ↦{fullShare} V main_v0_1) ∗ (((c : Thread nD τ).loc main_v0_2) ↦{fullShare} V main_v0_2) ∗ (((c : Thread nD τ).loc main_v0_3) ↦{fullShare} V main_v0_3) ∗ (((c : Thread nD τ).loc main_v1_0) ↦{fullShare} V main_v1_0) ∗ (((c : Thread nD τ).loc main_v1_1) ↦{fullShare} V main_v1_1) ∗ (((c : Thread nD τ).loc main_v1_2) ↦{fullShare} V main_v1_2) ∗ (((c : Thread nD τ).loc main_v1_3) ↦{fullShare} V main_v1_3) ∗ (((c : Thread nD τ).loc main_v1_4) ↦{fullShare} V main_v1_4) ∗ (((c : Thread nD τ).loc main_v1_5) ↦{fullShare} V main_v1_5)) := by
  unfold Pipeline.arrBufs
  exact bigSep_eq_bigSepL_of_eq [main_arg0, main_arg1, main_v0_0, main_v0_1, main_v0_2, main_v0_3, main_v1_0, main_v1_1, main_v1_2, main_v1_3, main_v1_4, main_v1_5] (by decide) (by decide) _

/-- Pipeline 1's arrays at contents read off `V` are the distinct buffers behind them whole at `V`: every window
    holds its array at the full share but windows 1 and 2, which stage ONE array and hold its left and its right half
    share; the two halves are the full share split (`pointsTo_share`). -/
theorem arrays1_iff (c : Dev nD) (dat : Dat τ (Elt F) Unit ℕ (UR sig nD τ) ℕ cfg1 c)
    (hq1 : dat.q (1 : Fin 13) = fullShare.left) (hq2 : dat.q (2 : Fin 13) = fullShare.right)
    (hq : ∀ w : Fin 13, w ≠ 1 → w ≠ 2 → dat.q w = fullShare)
    (A : (w : Fin 13) → Buf (Elt F) ((cfg1.win w).arr.view.loc (c : Thread nD τ)))
    (V : (b : Ref sig .tc) → Buf (Elt F) ((c : Thread nD τ).loc b))
    (hA : ∀ w, A w = V (Pipeline.arrRef spec1 w)) :
    (dat.arrays A : sProp 𝕄) ⊣⊢ Pipeline.arrBufs (Ix := Unit) (Name := ℕ) (U := UR sig nD τ) (Lvl := ℕ) spec1 c V := by
  have e : (dat.arrays A : sProp 𝕄) = bigSep Finset.univ fun w : Fin 13 =>
      ((((c : Thread nD τ).loc (Pipeline.arrRef spec1 w)) ↦{dat.share w} V (Pipeline.arrRef spec1 w)) : sProp 𝕄) := by
    unfold Pipeline.Dat.arrays
    exact bigSep_congr fun w _ => by rw [(Gen.arr_whole1 w).set_eq_univ, hA w]
  have hs0 : dat.share (0 : Fin 13) = fullShare := by unfold Pipeline.Dat.share; rw [if_neg (by decide)]; exact hq 0 (by decide) (by decide)
  have hs1 : dat.share (1 : Fin 13) = fullShare.left := by unfold Pipeline.Dat.share; rw [if_neg (by decide)]; exact hq1
  have hs2 : dat.share (2 : Fin 13) = fullShare.right := by unfold Pipeline.Dat.share; rw [if_neg (by decide)]; exact hq2
  have hs3 : dat.share (3 : Fin 13) = fullShare := by unfold Pipeline.Dat.share; rw [if_neg (by decide)]; exact hq 3 (by decide) (by decide)
  have hs4 : dat.share (4 : Fin 13) = fullShare := by unfold Pipeline.Dat.share; rw [if_neg (by decide)]; exact hq 4 (by decide) (by decide)
  have hs5 : dat.share (5 : Fin 13) = fullShare := by unfold Pipeline.Dat.share; rw [if_neg (by decide)]; exact hq 5 (by decide) (by decide)
  have hs6 : dat.share (6 : Fin 13) = fullShare := by unfold Pipeline.Dat.share; rw [if_neg (by decide)]; exact hq 6 (by decide) (by decide)
  have hs7 : dat.share (7 : Fin 13) = fullShare := by unfold Pipeline.Dat.share; rw [if_pos (by decide)]
  have hs8 : dat.share (8 : Fin 13) = fullShare := by unfold Pipeline.Dat.share; rw [if_pos (by decide)]
  have hs9 : dat.share (9 : Fin 13) = fullShare := by unfold Pipeline.Dat.share; rw [if_pos (by decide)]
  have hs10 : dat.share (10 : Fin 13) = fullShare := by unfold Pipeline.Dat.share; rw [if_pos (by decide)]
  have hs11 : dat.share (11 : Fin 13) = fullShare := by unfold Pipeline.Dat.share; rw [if_pos (by decide)]
  have hs12 : dat.share (12 : Fin 13) = fullShare := by unfold Pipeline.Dat.share; rw [if_pos (by decide)]
  rw [e, Gen.bigSep_W1, arrBufs1_eq, hs0, hs1, hs2, hs3, hs4, hs5, hs6, hs7, hs8, hs9, hs10, hs11, hs12]
  constructor
  ·
    iintro ⟨H0, H1, H2, H3, H4, H5, H6, H7, H8, H9, H10, H11, H12⟩
    isplitl [H0]; · iexact H0
    isplitl [H1 H2]
    · iapply (pointsTo_share (PosShare.mem_left_op_right fullShare)).2
      isplitl [H1]; · iexact H1
      iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  ·
    iintro ⟨G0, G1, G2, G3, G4, G5, G6, G7, G8, G9, G10, G11⟩
    ihave G1' := (pointsTo_share (PosShare.mem_left_op_right fullShare)).1 $$ G1
    icases G1' with ⟨G1l, G1r⟩
    isplitl [G0]; · iexact G0
    isplitl [G1l]; · iexact G1l
    isplitl [G1r]; · iexact G1r
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    iexact G11

end Cert.Kernel.Asm

end
-- ==== Proof.KAsmRun.lean ====
/- The run of @main over its two kernel regions and three host stretches, with every unscoped buffer's contents named
   at every boundary. Given each pipeline's proof data as a function of the region's entry contents (the two halves:
   section variables here), this module
   * names what each region leaves in its output arrays (`outs`: the write-backs folded, `Dat.arrAt … N`), so that the
     generated boundary valuations `Gen.V0 … Gen.V5` are closed terms of the launch memory;
   * makes each region a segment record over the thread state "every unscoped buffer whole at the boundary's contents,
     the generator register at some state, nothing owed": at entry the distinct buffers behind the windows' arrays are
     split off the unscoped buffers and the array two windows stage is dealt to them by halves; at exit the halves are
     joined and the buffers put back at the contents the region leaves;
   * runs @main (`run_all`): every weakly fair execution terminates and every final memory holds every unscoped buffer
     at `Gen.V5`. -/
import proofs.«170005_j69870527971928_1_alg».proof.Proof.KAsmShare

noncomputable section

namespace Cert.Kernel.Asm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

/-- Per core, the contents of every TensorCore buffer. -/
abbrev Vt (F : FTy → Type) : Type := (c : Dev nD) → (b : Ref sig .tc) → Buf (Elt F) ((c : Thread nD τ).loc b)

/-! ## A core's unscoped buffers against a pipeline's arrays, the arrays not distinct -/

/-- ENTRY (pipeline 0): the unscoped buffers at `V` are the windows' arrays at contents read off `V`, windows 1 and 2 at
    half shares of their common array, and the unscoped rest. -/
theorem arrays_of_bufs0 (c : Dev nD) (dat : Dat τ (Elt F) Unit ℕ (UR sig nD τ) ℕ cfg0 c)
    (hq1 : dat.q (1 : Fin 7) = fullShare.left) (hq2 : dat.q (2 : Fin 7) = fullShare.right)
    (hq : ∀ w : Fin 7, w ≠ 1 → w ≠ 2 → dat.q w = fullShare)
    (V : (b : Ref sig .tc) → Buf (Elt F) ((c : Thread nD τ).loc b))
    (A : (w : Fin 7) → Buf (Elt F) ((cfg0.win w).arr.view.loc (c : Thread nD τ)))
    (hA : ∀ w, A w = V (Pipeline.arrRef spec0 w)) :
    (unscopedBufs c V : sProp 𝕄) ⊢ iprop(dat.arrays A ∗ Pipeline.unscopedRest spec0 c V) := by
  rw [Pipeline.unscopedBufs_split₀ cfgs 0 Gen.winFacts₀0.arr_unscoped c V]
  exact sep_mono (arrays0_iff c dat hq1 hq2 hq A V hA).2 .rfl

/-- EXIT (pipeline 0): the arrays at contents `A` and the unscoped rest at `V` are the unscoped buffers at any `V'` that
    has the arrays at `A` and agrees with `V` off them. -/
theorem bufs_of_arrays0 (c : Dev nD) (dat : Dat τ (Elt F) Unit ℕ (UR sig nD τ) ℕ cfg0 c)
    (hq1 : dat.q (1 : Fin 7) = fullShare.left) (hq2 : dat.q (2 : Fin 7) = fullShare.right)
    (hq : ∀ w : Fin 7, w ≠ 1 → w ≠ 2 → dat.q w = fullShare)
    (V V' : (b : Ref sig .tc) → Buf (Elt F) ((c : Thread nD τ).loc b))
    (A : (w : Fin 7) → Buf (Elt F) ((cfg0.win w).arr.view.loc (c : Thread nD τ)))
    (hA : ∀ w, A w = V' (Pipeline.arrRef spec0 w))
    (hrest : ∀ b, b ∉ Finset.univ.image (Pipeline.arrRef spec0) → V' b = V b) :
    iprop(dat.arrays A ∗ Pipeline.unscopedRest spec0 c V) ⊢ (unscopedBufs c V' : sProp 𝕄) := by
  rw [Pipeline.unscopedBufs_split₀ cfgs 0 Gen.winFacts₀0.arr_unscoped c V']
  refine sep_mono (arrays0_iff c dat hq1 hq2 hq A V' hA).1 (Entails.of_eq ?_)
  unfold Pipeline.unscopedRest
  exact bigSep_congr fun b hb => by rw [hrest b (Finset.mem_sdiff.mp hb).2]

/-- ENTRY (pipeline 1). -/
theorem arrays_of_bufs1 (c : Dev nD) (dat : Dat τ (Elt F) Unit ℕ (UR sig nD τ) ℕ cfg1 c)
    (hq1 : dat.q (1 : Fin 13) = fullShare.left) (hq2 : dat.q (2 : Fin 13) = fullShare.right)
    (hq : ∀ w : Fin 13, w ≠ 1 → w ≠ 2 → dat.q w = fullShare)
    (V : (b : Ref sig .tc) → Buf (Elt F) ((c : Thread nD τ).loc b))
    (A : (w : Fin 13) → Buf (Elt F) ((cfg1.win w).arr.view.loc (c : Thread nD τ)))
    (hA : ∀ w, A w = V (Pipeline.arrRef spec1 w)) :
    (unscopedBufs c V : sProp 𝕄) ⊢ iprop(dat.arrays A ∗ Pipeline.unscopedRest spec1 c V) := by
  rw [Pipeline.unscopedBufs_split₀ cfgs 1 Gen.winFacts₀1.arr_unscoped c V]
  exact sep_mono (arrays1_iff c dat hq1 hq2 hq A V hA).2 .rfl

/-- EXIT (pipeline 1). -/
theorem bufs_of_arrays1 (c : Dev nD) (dat : Dat τ (Elt F) Unit ℕ (UR sig nD τ) ℕ cfg1 c)
    (hq1 : dat.q (1 : Fin 13) = fullShare.left) (hq2 : dat.q (2 : Fin 13) = fullShare.right)
    (hq : ∀ w : Fin 13, w ≠ 1 → w ≠ 2 → dat.q w = fullShare)
    (V V' : (b : Ref sig .tc) → Buf (Elt F) ((c : Thread nD τ).loc b))
    (A : (w : Fin 13) → Buf (Elt F) ((cfg1.win w).arr.view.loc (c : Thread nD τ)))
    (hA : ∀ w, A w = V' (Pipeline.arrRef spec1 w))
    (hrest : ∀ b, b ∉ Finset.univ.image (Pipeline.arrRef spec1) → V' b = V b) :
    iprop(dat.arrays A ∗ Pipeline.unscopedRest spec1 c V) ⊢ (unscopedBufs c V' : sProp 𝕄) := by
  rw [Pipeline.unscopedBufs_split₀ cfgs 1 Gen.winFacts₀1.arr_unscoped c V']
  refine sep_mono (arrays1_iff c dat hq1 hq2 hq A V' hA).1 (Entails.of_eq ?_)
  unfold Pipeline.unscopedRest
  exact bigSep_congr fun b hb => by rw [hrest b (Finset.mem_sdiff.mp hb).2]

/-! ## The core's dues around a region that owes nothing -/

/-- A core owing nothing owes a proof data's tallies within its bound, the data owing nothing at the point and
    bounding nothing there. -/
theorem owesAt_intro {cfg : Pipeline.Cfg sig Λ₀} (c : Dev nD) (dat : Dat τ (Elt F) Unit ℕ (UR sig nD τ) ℕ cfg c) (t : Fin (cfg.N + 1))
    (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [ho]
  iintro ⟨%W, HO⟩
  iexists W
  isplitr
  · ipureintro; exact fun x _ => Or.inl (by rw [hr]; exact Set.mem_univ x)
  iexact HO

/-- and back. -/
theorem owesAt_elim {cfg : Pipeline.Cfg sig Λ₀} (c : Dev nD) (dat : Dat τ (Elt F) Unit ℕ (UR sig nD τ) ℕ cfg c) (t : Fin (cfg.N + 1))
    (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩
  iexists W
  iexact HO

/-! ## What the regions leave: the unknowns of the generated boundary valuations, named -/

section Data

variable (dat0 : Vt F → (c : Dev nD) → Dat τ (Elt F) Unit ℕ (UR sig nD τ) ℕ cfg0 c)
  (dat1 : Vt F → (c : Dev nD) → Dat τ (Elt F) Unit ℕ (UR sig nD τ) ℕ cfg1 c)
  (m : (ℓ : Loc nD τ sig) → Buf (Elt F) ℓ)

/-- `x` at the reference `r₀`, `d` at any other. -/
def pick (c : Dev nD) (r₀ : Ref sig .tc) (x : Buf (Elt F) ((c : Thread nD τ).loc r₀)) (r : Ref sig .tc)
    (d : Buf (Elt F) ((c : Thread nD τ).loc r)) : Buf (Elt F) ((c : Thread nD τ).loc r) :=
  if h : r₀ = r then h ▸ x else d

theorem pick_self (c : Dev nD) (r₀ : Ref sig .tc) (x : Buf (Elt F) ((c : Thread nD τ).loc r₀))
    (d : Buf (Elt F) ((c : Thread nD τ).loc r₀)) : pick c r₀ x r₀ d = x := by
  unfold pick; rw [dif_pos rfl]

theorem pick_ne (c : Dev nD) (r₀ : Ref sig .tc) (x : Buf (Elt F) ((c : Thread nD τ).loc r₀)) (r : Ref sig .tc)
    (d : Buf (Elt F) ((c : Thread nD τ).loc r)) (h : r₀ ≠ r) : pick c r₀ x r d = d := by
  unfold pick; rw [dif_neg h]

/-- Region 0 is entered from the launch memory. -/
abbrev E0 : Vt F := fun c b => Gen.V0 m c (Proc.devRef .tc b)

/-- The TensorCore's buffers after region 0: its four output arrays at what the region leaves (each window's
    write-backs folded over the entry contents), every other buffer as launched. -/
def outs1 (r : Ref sig .tc) (c : Dev nD) : Buf (Elt F) ((c : Thread nD τ).loc r) :=
  pick c main_v0_0 ((dat0 (E0 m) c).arrAt 3 cfg0.N) r <|
  pick c main_v0_1 ((dat0 (E0 m) c).arrAt 4 cfg0.N) r <|
  pick c main_v0_2 ((dat0 (E0 m) c).arrAt 5 cfg0.N) r <|
  pick c main_v0_3 ((dat0 (E0 m) c).arrAt 6 cfg0.N) r <| E0 m c r

/-- Region 1 is entered from those. -/
abbrev E1 : Vt F := fun c b => outs1 dat0 m b c

/-- The TensorCore's buffers after region 1: its six output arrays at what the region leaves, every other buffer as
    region 0 left it. -/
def outs2 (r : Ref sig .tc) (c : Dev nD) : Buf (Elt F) ((c : Thread nD τ).loc r) :=
  pick c main_v1_0 ((dat1 (E1 dat0 m) c).arrAt 7 cfg1.N) r <|
  pick c main_v1_1 ((dat1 (E1 dat0 m) c).arrAt 8 cfg1.N) r <|
  pick c main_v1_2 ((dat1 (E1 dat0 m) c).arrAt 9 cfg1.N) r <|
  pick c main_v1_3 ((dat1 (E1 dat0 m) c).arrAt 10 cfg1.N) r <|
  pick c main_v1_4 ((dat1 (E1 dat0 m) c).arrAt 11 cfg1.N) r <|
  pick c main_v1_5 ((dat1 (E1 dat0 m) c).arrAt 12 cfg1.N) r <| E1 dat0 m c r

/-- The regions' leavings, as the generated valuations read them: after item 0 region 0's, after item 1 region 1's. -/
def outs : Gen.Outs (F := F) := fun J r c =>
  match J with
  | 1 => outs1 dat0 m r c
  | _ => outs2 dat0 dat1 m r c

theorem outs_one (r : Ref sig .tc) (c : Dev nD) : outs dat0 dat1 m 1 r c = outs1 dat0 m r c := rfl
theorem outs_two (r : Ref sig .tc) (c : Dev nD) : outs dat0 dat1 m 2 r c = outs2 dat0 dat1 m r c := rfl

/-! ### `outs1`, `outs2` at each reference -/

theorem outs1_v0_0 (c : Dev nD) : outs1 dat0 m main_v0_0 c = (dat0 (E0 m) c).arrAt 3 cfg0.N := by
  unfold outs1
  rw [pick_self]
theorem outs1_v0_1 (c : Dev nD) : outs1 dat0 m main_v0_1 c = (dat0 (E0 m) c).arrAt 4 cfg0.N := by
  unfold outs1
  rw [pick_ne c main_v0_0 _ main_v0_1 _ (by decide), pick_self]
theorem outs1_v0_2 (c : Dev nD) : outs1 dat0 m main_v0_2 c = (dat0 (E0 m) c).arrAt 5 cfg0.N := by
  unfold outs1
  rw [pick_ne c main_v0_0 _ main_v0_2 _ (by decide), pick_ne c main_v0_1 _ main_v0_2 _ (by decide), pick_self]
theorem outs1_v0_3 (c : Dev nD) : outs1 dat0 m main_v0_3 c = (dat0 (E0 m) c).arrAt 6 cfg0.N := by
  unfold outs1
  rw [pick_ne c main_v0_0 _ main_v0_3 _ (by decide), pick_ne c main_v0_1 _ main_v0_3 _ (by decide), pick_ne c main_v0_2 _ main_v0_3 _ (by decide), pick_self]
theorem outs1_of (c : Dev nD) (b : Ref sig .tc) (h : b ∉ ([main_v0_0, main_v0_1, main_v0_2, main_v0_3] : List (Ref sig .tc))) : outs1 dat0 m b c = Gen.V0 m c (Proc.devRef .tc b) := by
  unfold outs1
  rw [pick_ne c main_v0_0 _ b _ (List.ne_of_not_mem_cons h).symm,
    pick_ne c main_v0_1 _ b _ (List.ne_of_not_mem_cons (List.not_mem_of_not_mem_cons h)).symm,
    pick_ne c main_v0_2 _ b _ (List.ne_of_not_mem_cons (List.not_mem_of_not_mem_cons (List.not_mem_of_not_mem_cons h))).symm,
    pick_ne c main_v0_3 _ b _ (List.ne_of_not_mem_cons (List.not_mem_of_not_mem_cons (List.not_mem_of_not_mem_cons (List.not_mem_of_not_mem_cons h)))).symm]

theorem outs2_v1_0 (c : Dev nD) : outs2 dat0 dat1 m main_v1_0 c = (dat1 (E1 dat0 m) c).arrAt 7 cfg1.N := by
  unfold outs2
  rw [pick_self]
theorem outs2_v1_1 (c : Dev nD) : outs2 dat0 dat1 m main_v1_1 c = (dat1 (E1 dat0 m) c).arrAt 8 cfg1.N := by
  unfold outs2
  rw [pick_ne c main_v1_0 _ main_v1_1 _ (by decide), pick_self]
theorem outs2_v1_2 (c : Dev nD) : outs2 dat0 dat1 m main_v1_2 c = (dat1 (E1 dat0 m) c).arrAt 9 cfg1.N := by
  unfold outs2
  rw [pick_ne c main_v1_0 _ main_v1_2 _ (by decide), pick_ne c main_v1_1 _ main_v1_2 _ (by decide), pick_self]
theorem outs2_v1_3 (c : Dev nD) : outs2 dat0 dat1 m main_v1_3 c = (dat1 (E1 dat0 m) c).arrAt 10 cfg1.N := by
  unfold outs2
  rw [pick_ne c main_v1_0 _ main_v1_3 _ (by decide), pick_ne c main_v1_1 _ main_v1_3 _ (by decide), pick_ne c main_v1_2 _ main_v1_3 _ (by decide), pick_self]
theorem outs2_v1_4 (c : Dev nD) : outs2 dat0 dat1 m main_v1_4 c = (dat1 (E1 dat0 m) c).arrAt 11 cfg1.N := by
  unfold outs2
  rw [pick_ne c main_v1_0 _ main_v1_4 _ (by decide), pick_ne c main_v1_1 _ main_v1_4 _ (by decide), pick_ne c main_v1_2 _ main_v1_4 _ (by decide), pick_ne c main_v1_3 _ main_v1_4 _ (by decide), pick_self]
theorem outs2_v1_5 (c : Dev nD) : outs2 dat0 dat1 m main_v1_5 c = (dat1 (E1 dat0 m) c).arrAt 12 cfg1.N := by
  unfold outs2
  rw [pick_ne c main_v1_0 _ main_v1_5 _ (by decide), pick_ne c main_v1_1 _ main_v1_5 _ (by decide), pick_ne c main_v1_2 _ main_v1_5 _ (by decide), pick_ne c main_v1_3 _ main_v1_5 _ (by decide), pick_ne c main_v1_4 _ main_v1_5 _ (by decide), pick_self]
theorem outs2_of (c : Dev nD) (b : Ref sig .tc) (h : b ∉ ([main_v1_0, main_v1_1, main_v1_2, main_v1_3, main_v1_4, main_v1_5] : List (Ref sig .tc))) : outs2 dat0 dat1 m b c = outs1 dat0 m b c := by
  unfold outs2
  rw [pick_ne c main_v1_0 _ b _ (List.ne_of_not_mem_cons h).symm,
    pick_ne c main_v1_1 _ b _ (List.ne_of_not_mem_cons (List.not_mem_of_not_mem_cons h)).symm,
    pick_ne c main_v1_2 _ b _ (List.ne_of_not_mem_cons (List.not_mem_of_not_mem_cons (List.not_mem_of_not_mem_cons h))).symm,
    pick_ne c main_v1_3 _ b _ (List.ne_of_not_mem_cons (List.not_mem_of_not_mem_cons (List.not_mem_of_not_mem_cons (List.not_mem_of_not_mem_cons h)))).symm,
    pick_ne c main_v1_4 _ b _ (List.ne_of_not_mem_cons (List.not_mem_of_not_mem_cons (List.not_mem_of_not_mem_cons (List.not_mem_of_not_mem_cons (List.not_mem_of_not_mem_cons h))))).symm,
    pick_ne c main_v1_5 _ b _ (List.ne_of_not_mem_cons (List.not_mem_of_not_mem_cons (List.not_mem_of_not_mem_cons (List.not_mem_of_not_mem_cons (List.not_mem_of_not_mem_cons (List.not_mem_of_not_mem_cons h)))))).symm]

/-! ### The generated valuations at the regions' output arrays -/

theorem V1_v0_0 (c : Dev nD) : Gen.V1 m (outs dat0 dat1 m) c (Proc.devRef .tc main_v0_0) = outs1 dat0 m main_v0_0 c := by
  unfold Gen.V1
  rw [Function.update_of_ne (StableHlo.devRef_ne_of_ne (by decide) : (Proc.devRef .tc main_v0_0 : DevRef τ sig) ≠ Proc.devRef .tc main_v0_3),
    Function.update_of_ne (StableHlo.devRef_ne_of_ne (by decide) : (Proc.devRef .tc main_v0_0 : DevRef τ sig) ≠ Proc.devRef .tc main_v0_2),
    Function.update_of_ne (StableHlo.devRef_ne_of_ne (by decide) : (Proc.devRef .tc main_v0_0 : DevRef τ sig) ≠ Proc.devRef .tc main_v0_1),
    Function.update_self, outs_one]
theorem V1_v0_1 (c : Dev nD) : Gen.V1 m (outs dat0 dat1 m) c (Proc.devRef .tc main_v0_1) = outs1 dat0 m main_v0_1 c := by
  unfold Gen.V1
  rw [Function.update_of_ne (StableHlo.devRef_ne_of_ne (by decide) : (Proc.devRef .tc main_v0_1 : DevRef τ sig) ≠ Proc.devRef .tc main_v0_3),
    Function.update_of_ne (StableHlo.devRef_ne_of_ne (by decide) : (Proc.devRef .tc main_v0_1 : DevRef τ sig) ≠ Proc.devRef .tc main_v0_2),
    Function.update_self, outs_one]
theorem V1_v0_2 (c : Dev nD) : Gen.V1 m (outs dat0 dat1 m) c (Proc.devRef .tc main_v0_2) = outs1 dat0 m main_v0_2 c := by
  unfold Gen.V1
  rw [Function.update_of_ne (StableHlo.devRef_ne_of_ne (by decide) : (Proc.devRef .tc main_v0_2 : DevRef τ sig) ≠ Proc.devRef .tc main_v0_3),
    Function.update_self, outs_one]
theorem V1_v0_3 (c : Dev nD) : Gen.V1 m (outs dat0 dat1 m) c (Proc.devRef .tc main_v0_3) = outs1 dat0 m main_v0_3 c := by
  unfold Gen.V1
  rw [Function.update_self, outs_one]

theorem V2_v1_0 (c : Dev nD) : Gen.V2 m (outs dat0 dat1 m) c (Proc.devRef .tc main_v1_0) = outs2 dat0 dat1 m main_v1_0 c := by
  unfold Gen.V2
  rw [Function.update_of_ne (StableHlo.devRef_ne_of_ne (by decide) : (Proc.devRef .tc main_v1_0 : DevRef τ sig) ≠ Proc.devRef .tc main_v1_5),
    Function.update_of_ne (StableHlo.devRef_ne_of_ne (by decide) : (Proc.devRef .tc main_v1_0 : DevRef τ sig) ≠ Proc.devRef .tc main_v1_4),
    Function.update_of_ne (StableHlo.devRef_ne_of_ne (by decide) : (Proc.devRef .tc main_v1_0 : DevRef τ sig) ≠ Proc.devRef .tc main_v1_3),
    Function.update_of_ne (StableHlo.devRef_ne_of_ne (by decide) : (Proc.devRef .tc main_v1_0 : DevRef τ sig) ≠ Proc.devRef .tc main_v1_2),
    Function.update_of_ne (StableHlo.devRef_ne_of_ne (by decide) : (Proc.devRef .tc main_v1_0 : DevRef τ sig) ≠ Proc.devRef .tc main_v1_1),
    Function.update_self, outs_two]
theorem V2_v1_1 (c : Dev nD) : Gen.V2 m (outs dat0 dat1 m) c (Proc.devRef .tc main_v1_1) = outs2 dat0 dat1 m main_v1_1 c := by
  unfold Gen.V2
  rw [Function.update_of_ne (StableHlo.devRef_ne_of_ne (by decide) : (Proc.devRef .tc main_v1_1 : DevRef τ sig) ≠ Proc.devRef .tc main_v1_5),
    Function.update_of_ne (StableHlo.devRef_ne_of_ne (by decide) : (Proc.devRef .tc main_v1_1 : DevRef τ sig) ≠ Proc.devRef .tc main_v1_4),
    Function.update_of_ne (StableHlo.devRef_ne_of_ne (by decide) : (Proc.devRef .tc main_v1_1 : DevRef τ sig) ≠ Proc.devRef .tc main_v1_3),
    Function.update_of_ne (StableHlo.devRef_ne_of_ne (by decide) : (Proc.devRef .tc main_v1_1 : DevRef τ sig) ≠ Proc.devRef .tc main_v1_2),
    Function.update_self, outs_two]
theorem V2_v1_2 (c : Dev nD) : Gen.V2 m (outs dat0 dat1 m) c (Proc.devRef .tc main_v1_2) = outs2 dat0 dat1 m main_v1_2 c := by
  unfold Gen.V2
  rw [Function.update_of_ne (StableHlo.devRef_ne_of_ne (by decide) : (Proc.devRef .tc main_v1_2 : DevRef τ sig) ≠ Proc.devRef .tc main_v1_5),
    Function.update_of_ne (StableHlo.devRef_ne_of_ne (by decide) : (Proc.devRef .tc main_v1_2 : DevRef τ sig) ≠ Proc.devRef .tc main_v1_4),
    Function.update_of_ne (StableHlo.devRef_ne_of_ne (by decide) : (Proc.devRef .tc main_v1_2 : DevRef τ sig) ≠ Proc.devRef .tc main_v1_3),
    Function.update_self, outs_two]
theorem V2_v1_3 (c : Dev nD) : Gen.V2 m (outs dat0 dat1 m) c (Proc.devRef .tc main_v1_3) = outs2 dat0 dat1 m main_v1_3 c := by
  unfold Gen.V2
  rw [Function.update_of_ne (StableHlo.devRef_ne_of_ne (by decide) : (Proc.devRef .tc main_v1_3 : DevRef τ sig) ≠ Proc.devRef .tc main_v1_5),
    Function.update_of_ne (StableHlo.devRef_ne_of_ne (by decide) : (Proc.devRef .tc main_v1_3 : DevRef τ sig) ≠ Proc.devRef .tc main_v1_4),
    Function.update_self, outs_two]
theorem V2_v1_4 (c : Dev nD) : Gen.V2 m (outs dat0 dat1 m) c (Proc.devRef .tc main_v1_4) = outs2 dat0 dat1 m main_v1_4 c := by
  unfold Gen.V2
  rw [Function.update_of_ne (StableHlo.devRef_ne_of_ne (by decide) : (Proc.devRef .tc main_v1_4 : DevRef τ sig) ≠ Proc.devRef .tc main_v1_5),
    Function.update_self, outs_two]
theorem V2_v1_5 (c : Dev nD) : Gen.V2 m (outs dat0 dat1 m) c (Proc.devRef .tc main_v1_5) = outs2 dat0 dat1 m main_v1_5 c := by
  unfold Gen.V2
  rw [Function.update_self, outs_two]

/-- After region 0 the TensorCore's buffers are `outs1`: region 1 is entered from what region 0 left. -/
theorem E1_eq (c : Dev nD) (b : Ref sig .tc) : E1 dat0 m c b = Gen.V1 m (outs dat0 dat1 m) c (Proc.devRef .tc b) := by
  show outs1 dat0 m b c = _
  by_cases h0 : b = main_v0_0
  · subst h0; exact (V1_v0_0 dat0 dat1 m c).symm
  by_cases h1 : b = main_v0_1
  · subst h1; exact (V1_v0_1 dat0 dat1 m c).symm
  by_cases h2 : b = main_v0_2
  · subst h2; exact (V1_v0_2 dat0 dat1 m c).symm
  by_cases h3 : b = main_v0_3
  · subst h3; exact (V1_v0_3 dat0 dat1 m c).symm
  have h : b ∉ ([main_v0_0, main_v0_1, main_v0_2, main_v0_3] : List (Ref sig .tc)) := by
    simp only [List.mem_cons, List.not_mem_nil, or_false, not_or]; exact ⟨h0, h1, h2, h3⟩
  rw [outs1_of dat0 m c b h, Gen.V1_of m _ c b h]

/-- Every pipeline's proof data, each at its region's entry contents. -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 dat0 m) c

end Data

/-! ## The run, given the two halves -/

section Run

variable (dat0 : Vt F → (c : Dev nD) → Dat τ (Elt F) Unit ℕ (UR sig nD τ) ℕ cfg0 c)
  (dat1 : Vt F → (c : Dev nD) → Dat τ (Elt F) Unit ℕ (UR sig nD τ) ℕ cfg1 c)
  (A_eq0 : ∀ V c w, (dat0 V c).A w = V c (Pipeline.arrRef spec0 w))
  (q0_1 : ∀ V c, (dat0 V c).q (1 : Fin 7) = fullShare.left) (q0_2 : ∀ V c, (dat0 V c).q (2 : Fin 7) = fullShare.right)
  (q0_of : ∀ V c (w : Fin 7), w ≠ 1 → w ≠ 2 → (dat0 V c).q w = fullShare)
  (owed0 : ∀ V c t, (dat0 V c).owed t = 0) (recorded0 : ∀ V c t, (dat0 V c).recorded t = Set.univ)
  (body_obligation0 : ∀ V c, Pipeline.BodyObligation (dat0 V c) (defs₀ (F := F)) Variants.none () Set.univ)
  (hin0 : ∀ V c, Pipeline.ΦA spec0 c ⊢ (dat0 V c).Φ 0)
  (hout0 : ∀ V c, (dat0 V c).Φ (Fin.last cfg0.N) ⊢ Pipeline.ΦA spec0 c)
  (A_eq1 : ∀ V c w, (dat1 V c).A w = V c (Pipeline.arrRef spec1 w))
  (q1_1 : ∀ V c, (dat1 V c).q (1 : Fin 13) = fullShare.left) (q1_2 : ∀ V c, (dat1 V c).q (2 : Fin 13) = fullShare.right)
  (q1_of : ∀ V c (w : Fin 13), w ≠ 1 → w ≠ 2 → (dat1 V c).q w = fullShare)
  (owed1 : ∀ V c t, (dat1 V c).owed t = 0) (recorded1 : ∀ V c t, (dat1 V c).recorded t = Set.univ)
  (body_obligation1 : ∀ V c, Pipeline.BodyObligation (dat1 V c) (defs₀ (F := F)) Variants.none () Set.univ)
  (hin1 : ∀ V c, Pipeline.ΦA spec1 c ⊢ (dat1 V c).Φ 0)
  (hout1 : ∀ V c, (dat1 V c).Φ (Fin.last cfg1.N) ⊢ Pipeline.ΦA spec1 c)
  (m : (ℓ : Loc nD τ sig) → Buf (Elt F) ℓ)

/-! ### The regions' arrays in the boundary valuations -/

include A_eq0 in
/-- After region 0 every array of its windows holds what the pipeline leaves: an input what it held, an output its
    write-backs folded. -/
theorem hF0 (c : Dev nD) : ∀ w : Fin 7, (dat0 (E0 m) c).arrAt w cfg0.N = Gen.V1 m (outs dat0 dat1 m) c (Proc.devRef .tc (Pipeline.arrRef spec0 w))
  | 0 => ((dat0 (E0 m) c).arrAt_in 0 rfl _).trans ((A_eq0 (E0 m) c 0).trans (Gen.V1_of m (outs dat0 dat1 m) c main_arg0 (by decide)).symm)
  | 1 => ((dat0 (E0 m) c).arrAt_in 1 rfl _).trans ((A_eq0 (E0 m) c 1).trans (Gen.V1_of m (outs dat0 dat1 m) c main_arg1 (by decide)).symm)
  | 2 => ((dat0 (E0 m) c).arrAt_in 2 rfl _).trans ((A_eq0 (E0 m) c 2).trans (Gen.V1_of m (outs dat0 dat1 m) c main_arg1 (by decide)).symm)
  | 3 => ((V1_v0_0 dat0 dat1 m c).trans (outs1_v0_0 dat0 m c)).symm
  | 4 => ((V1_v0_1 dat0 dat1 m c).trans (outs1_v0_1 dat0 m c)).symm
  | 5 => ((V1_v0_2 dat0 dat1 m c).trans (outs1_v0_2 dat0 m c)).symm
  | 6 => ((V1_v0_3 dat0 dat1 m c).trans (outs1_v0_3 dat0 m c)).symm

/-- and every other buffer what it held. -/
theorem hrest0 (c : Dev nD) (b : Ref sig .tc) (hb : b ∉ Finset.univ.image (Pipeline.arrRef spec0)) :
    Gen.V1 m (outs dat0 dat1 m) c (Proc.devRef .tc b) = Gen.V0 m c (Proc.devRef .tc b) :=
  Gen.V1_of m (outs dat0 dat1 m) c b fun h => by
    simp only [List.mem_cons, List.not_mem_nil, or_false] at h
    rcases h with rfl | rfl | rfl | rfl
    · exact hb (Finset.mem_image.mpr ⟨3, Finset.mem_univ _, rfl⟩)
    · exact hb (Finset.mem_image.mpr ⟨4, Finset.mem_univ _, rfl⟩)
    · exact hb (Finset.mem_image.mpr ⟨5, Finset.mem_univ _, rfl⟩)
    · exact hb (Finset.mem_image.mpr ⟨6, Finset.mem_univ _, rfl⟩)

include A_eq1 in
/-- After region 1 every array of its windows holds what the pipeline leaves. -/
theorem hF1 (c : Dev nD) : ∀ w : Fin 13, (dat1 (E1 dat0 m) c).arrAt w cfg1.N = Gen.V2 m (outs dat0 dat1 m) c (Proc.devRef .tc (Pipeline.arrRef spec1 w))
  | 0 => ((dat1 (E1 dat0 m) c).arrAt_in 0 rfl _).trans ((A_eq1 (E1 dat0 m) c 0).trans ((E1_eq dat0 dat1 m c main_arg0).trans (Gen.V2_of m (outs dat0 dat1 m) c main_arg0 (by decide)).symm))
  | 1 => ((dat1 (E1 dat0 m) c).arrAt_in 1 rfl _).trans ((A_eq1 (E1 dat0 m) c 1).trans ((E1_eq dat0 dat1 m c main_arg1).trans (Gen.V2_of m (outs dat0 dat1 m) c main_arg1 (by decide)).symm))
  | 2 => ((dat1 (E1 dat0 m) c).arrAt_in 2 rfl _).trans ((A_eq1 (E1 dat0 m) c 2).trans ((E1_eq dat0 dat1 m c main_arg1).trans (Gen.V2_of m (outs dat0 dat1 m) c main_arg1 (by decide)).symm))
  | 3 => ((dat1 (E1 dat0 m) c).arrAt_in 3 rfl _).trans ((A_eq1 (E1 dat0 m) c 3).trans ((E1_eq dat0 dat1 m c main_v0_0).trans (Gen.V2_of m (outs dat0 dat1 m) c main_v0_0 (by decide)).symm))
  | 4 => ((dat1 (E1 dat0 m) c).arrAt_in 4 rfl _).trans ((A_eq1 (E1 dat0 m) c 4).trans ((E1_eq dat0 dat1 m c main_v0_1).trans (Gen.V2_of m (outs dat0 dat1 m) c main_v0_1 (by decide)).symm))
  | 5 => ((dat1 (E1 dat0 m) c).arrAt_in 5 rfl _).trans ((A_eq1 (E1 dat0 m) c 5).trans ((E1_eq dat0 dat1 m c main_v0_2).trans (Gen.V2_of m (outs dat0 dat1 m) c main_v0_2 (by decide)).symm))
  | 6 => ((dat1 (E1 dat0 m) c).arrAt_in 6 rfl _).trans ((A_eq1 (E1 dat0 m) c 6).trans ((E1_eq dat0 dat1 m c main_v0_3).trans (Gen.V2_of m (outs dat0 dat1 m) c main_v0_3 (by decide)).symm))
  | 7 => ((V2_v1_0 dat0 dat1 m c).trans (outs2_v1_0 dat0 dat1 m c)).symm
  | 8 => ((V2_v1_1 dat0 dat1 m c).trans (outs2_v1_1 dat0 dat1 m c)).symm
  | 9 => ((V2_v1_2 dat0 dat1 m c).trans (outs2_v1_2 dat0 dat1 m c)).symm
  | 10 => ((V2_v1_3 dat0 dat1 m c).trans (outs2_v1_3 dat0 dat1 m c)).symm
  | 11 => ((V2_v1_4 dat0 dat1 m c).trans (outs2_v1_4 dat0 dat1 m c)).symm
  | 12 => ((V2_v1_5 dat0 dat1 m c).trans (outs2_v1_5 dat0 dat1 m c)).symm

/-- and every other buffer what it held. -/
theorem hrest1 (c : Dev nD) (b : Ref sig .tc) (hb : b ∉ Finset.univ.image (Pipeline.arrRef spec1)) :
    Gen.V2 m (outs dat0 dat1 m) c (Proc.devRef .tc b) = Gen.V1 m (outs dat0 dat1 m) c (Proc.devRef .tc b) :=
  Gen.V2_of m (outs dat0 dat1 m) c b fun h => by
    simp only [List.mem_cons, List.not_mem_nil, or_false] at h
    rcases h with rfl | rfl | rfl | rfl | rfl | rfl
    · exact hb (Finset.mem_image.mpr ⟨7, Finset.mem_univ _, rfl⟩)
    · exact hb (Finset.mem_image.mpr ⟨8, Finset.mem_univ _, rfl⟩)
    · exact hb (Finset.mem_image.mpr ⟨9, Finset.mem_univ _, rfl⟩)
    · exact hb (Finset.mem_image.mpr ⟨10, Finset.mem_univ _, rfl⟩)
    · exact hb (Finset.mem_image.mpr ⟨11, Finset.mem_univ _, rfl⟩)
    · exact hb (Finset.mem_image.mpr ⟨12, Finset.mem_univ _, rfl⟩)

/-! ### The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and its dues, none. -/
abbrev R (c : Dev nD) : sProp (MT nD τ sig Unit (Elt F) ℕ (UR sig nD τ) ℕ) :=
  iprop((∃ r, prngReg c r) ∗ ∃ W, owes (c : Thread nD τ) (0 : CellTallies nD τ sig Unit) W)
/-- The same beside every boundary. -/
abbrev E : Fin 3 → Dev nD → sProp (MT nD τ sig Unit (Elt F) ℕ (UR sig nD τ) ℕ) := fun _ => R

/-- The last thread state, its dues set apart (the launch reads the rest against the final state). -/
theorem last_assoc (c : Dev nD) (P : sProp 𝕄) :
    iprop(P ∗ R c) ⊢ (iprop((P ∗ ∃ r, prngReg c r) ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ### The regions as segments -/

-- a library lemma stated over `pin pcs a p` unifies with the printed configuration only when unification may unfold
-- plain definitions in a metavariable's type
set_option backward.isDefEq.respectTransparency.types false in
include A_eq0 q0_1 q0_2 q0_of owed0 recorded0 body_obligation0 hin0 hout0 in
/-- REGION 0 (custom_call 0) over the thread state: entered from every unscoped buffer at the boundary's contents
    before it, left at the next boundary's. At entry the distinct buffers behind its windows' arrays are split off the
    unscoped buffers and dealt to the windows (the array windows 1 and 2 stage by halves); at exit they are joined and
    put back at what the region leaves. The generator register goes into the invariant and comes back; nothing is
    owed; the kernel has no semaphore of its own. -/
def reg0 : Pipeline.RegionSeg (pcfgs (F := F)) Gen.adm (pdats dat0 dat1 m) () defs₀ 𝒱₀ L lv 0 where
  win := Gen.winFacts₀0
  block_pos := Gen.block_pos0
  stage_whole := Gen.stage_whole0
  K := PEmpty
  osem k := k.elim
  ho := Pipeline.OwnSemFacts.none _
  hbody c := (body_obligation0 (E0 m) c).loose
  hwaits := Pipeline.hwaits_of_owed_zero _ _ _ _ L lv 0 fun c t => owed0 (E0 m) c t
  pre c := iprop(StableHlo.held (c : Thread nD τ) (Pipeline.ucRefs τ sig) (Gen.V0 m c) ∗ R c)
  post c := iprop(StableHlo.held (c : Thread nD τ) (Pipeline.ucRefs τ sig) (Gen.V1 m (outs dat0 dat1 m) c) ∗ R c)
  X c := iprop(∃ r, prngReg c r)
  Y c := iprop(∃ r, prngReg c r)
  Z c := Pipeline.unscopedRest (Ix := Unit) (Name := ℕ) (U := UR sig nD τ) (Lvl := ℕ) spec0 c (fun b => Gen.V0 m c (Proc.devRef .tc b))
  hentry c := by
    rw [Pipeline.ownSems0_none]
    have hsplit := arrays_of_bufs0 c (pdats dat0 dat1 m 0 c) (q0_1 _ c) (q0_2 _ c) (q0_of _ c)
      (fun b => Gen.V0 m c (Proc.devRef .tc b)) ((pdats dat0 dat1 m 0 c).arrAt · 0) (fun w => A_eq0 (E0 m) c w)
    rw [Pipeline.unscopedBufs_held (Ix := Unit) (Name := ℕ) (U := UR sig nD τ) (Lvl := ℕ) c (Gen.V0 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro c (pdats dat0 dat1 m 0 c) 0 (owed0 _ c 0) (recorded0 _ c 0)); iexact HO
    isplitl [Hp]; · iexact Hp
    iexact Hrest
  hin c := by
    refine BIBase.Entails.trans ?_ (hin0 (E0 m) c)
    unfold Pipeline.ΦA
    iintro ⟨Hp, -, Hr⟩
    isplitl [Hr]; · iexact Hr
    iexact Hp
  hout c := by
    rw [Pipeline.ownSems0_none]
    refine BIBase.Entails.trans (hout0 (E0 m) c) ?_
    unfold Pipeline.ΦA
    iintro ⟨Hr, Hp⟩
    isplitl [Hp]; · iexact Hp
    isplitr; · iempintro
    iexact Hr
  hexit c := by
    have hjoin := bufs_of_arrays0 c (pdats dat0 dat1 m 0 c) (q0_1 _ c) (q0_2 _ c) (q0_of _ c)
      (fun b => Gen.V0 m c (Proc.devRef .tc b)) (fun b => Gen.V1 m (outs dat0 dat1 m) c (Proc.devRef .tc b))
      ((pdats dat0 dat1 m 0 c).arrAt · cfg0.N) (hF0 dat0 dat1 A_eq0 m c) (hrest0 dat0 dat1 m c)
    rw [Pipeline.unscopedBufs_held (Ix := Unit) (Name := ℕ) (U := UR sig nD τ) (Lvl := ℕ) c (Gen.V1 m (outs dat0 dat1 m) c)] at hjoin
    iintro ⟨Ha, HO, HY, Hrest⟩
    imodintro
    isplitl [Ha Hrest]
    · iapply hjoin
      isplitl [Ha]; · iexact Ha
      iexact Hrest
    isplitl [HY]; · iexact HY
    iapply (owesAt_elim c (pdats dat0 dat1 m 0 c) (Fin.last cfg0.N) (owed0 _ c _)); iexact HO

-- a library lemma stated over `pin pcs a p` unifies with the printed configuration only when unification may unfold
-- plain definitions in a metavariable's type
set_option backward.isDefEq.respectTransparency.types false in
include A_eq1 q1_1 q1_2 q1_of owed1 recorded1 body_obligation1 hin1 hout1 in
/-- REGION 1 (custom_call 1) over the thread state: entered from every unscoped buffer at the boundary's contents
    before it, left at the next boundary's. At entry the distinct buffers behind its windows' arrays are split off the
    unscoped buffers and dealt to the windows (the array windows 1 and 2 stage by halves); at exit they are joined and
    put back at what the region leaves. The generator register goes into the invariant and comes back; nothing is
    owed; the kernel has no semaphore of its own. -/
def reg1 : Pipeline.RegionSeg (pcfgs (F := F)) Gen.adm (pdats dat0 dat1 m) () defs₀ 𝒱₀ L lv 1 where
  win := Gen.winFacts₀1
  block_pos := Gen.block_pos1
  stage_whole := Gen.stage_whole1
  K := PEmpty
  osem k := k.elim
  ho := Pipeline.OwnSemFacts.none _
  hbody c := (body_obligation1 (E1 dat0 m) c).loose
  hwaits := Pipeline.hwaits_of_owed_zero _ _ _ _ L lv 1 fun c t => owed1 (E1 dat0 m) c t
  pre c := iprop(StableHlo.held (c : Thread nD τ) (Pipeline.ucRefs τ sig) (Gen.V1 m (outs dat0 dat1 m) c) ∗ R c)
  post c := iprop(StableHlo.held (c : Thread nD τ) (Pipeline.ucRefs τ sig) (Gen.V2 m (outs dat0 dat1 m) c) ∗ R c)
  X c := iprop(∃ r, prngReg c r)
  Y c := iprop(∃ r, prngReg c r)
  Z c := Pipeline.unscopedRest (Ix := Unit) (Name := ℕ) (U := UR sig nD τ) (Lvl := ℕ) spec1 c (fun b => Gen.V1 m (outs dat0 dat1 m) c (Proc.devRef .tc b))
  hentry c := by
    rw [Pipeline.ownSems0_none]
    have hsplit := arrays_of_bufs1 c (pdats dat0 dat1 m 1 c) (q1_1 _ c) (q1_2 _ c) (q1_of _ c)
      (fun b => Gen.V1 m (outs dat0 dat1 m) c (Proc.devRef .tc b)) ((pdats dat0 dat1 m 1 c).arrAt · 0) (fun w => (A_eq1 (E1 dat0 m) c w).trans (E1_eq dat0 dat1 m c _))
    rw [Pipeline.unscopedBufs_held (Ix := Unit) (Name := ℕ) (U := UR sig nD τ) (Lvl := ℕ) c (Gen.V1 m (outs dat0 dat1 m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro c (pdats dat0 dat1 m 1 c) 0 (owed1 _ c 0) (recorded1 _ c 0)); iexact HO
    isplitl [Hp]; · iexact Hp
    iexact Hrest
  hin c := by
    refine BIBase.Entails.trans ?_ (hin1 (E1 dat0 m) c)
    unfold Pipeline.ΦA
    iintro ⟨Hp, -, Hr⟩
    isplitl [Hr]; · iexact Hr
    iexact Hp
  hout c := by
    rw [Pipeline.ownSems0_none]
    refine BIBase.Entails.trans (hout1 (E1 dat0 m) c) ?_
    unfold Pipeline.ΦA
    iintro ⟨Hr, Hp⟩
    isplitl [Hp]; · iexact Hp
    isplitr; · iempintro
    iexact Hr
  hexit c := by
    have hjoin := bufs_of_arrays1 c (pdats dat0 dat1 m 1 c) (q1_1 _ c) (q1_2 _ c) (q1_of _ c)
      (fun b => Gen.V1 m (outs dat0 dat1 m) c (Proc.devRef .tc b)) (fun b => Gen.V2 m (outs dat0 dat1 m) c (Proc.devRef .tc b))
      ((pdats dat0 dat1 m 1 c).arrAt · cfg1.N) (hF1 dat0 dat1 A_eq1 m c) (hrest1 dat0 dat1 m c)
    rw [Pipeline.unscopedBufs_held (Ix := Unit) (Name := ℕ) (U := UR sig nD τ) (Lvl := ℕ) c (Gen.V2 m (outs dat0 dat1 m) c)] at hjoin
    iintro ⟨Ha, HO, HY, Hrest⟩
    imodintro
    isplitl [Ha Hrest]
    · iapply hjoin
      isplitl [Ha]; · iexact Ha
      iexact Hrest
    isplitl [HY]; · iexact HY
    iapply (owesAt_elim c (pdats dat0 dat1 m 1 c) (Fin.last cfg1.N) (owed1 _ c _)); iexact HO

/-! ### @main as segments, and the launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
include A_eq0 q0_1 q0_2 q0_of owed0 recorded0 body_obligation0 hin0 hout0 A_eq1 q1_1 q1_2 q1_of owed1 recorded1 body_obligation1 hin1 hout1 in
/-- THE RUN. From any memory `m` with zero counters and any generator registers, every weakly fair execution of @main
    terminates, and every final memory holds EVERY unscoped TensorCore buffer at the last boundary's contents
    `Gen.V5 m outs`: the launch memory, region 0's output arrays at what its write-backs leave, region 1's likewise (its
    proof data at the contents region 0 left), then the three host stretches' results. -/
theorem run_all (ρ : Dev nD → PrngReg) :
    θ_run defs (onTc (τ := τ) (main (F := F))) ⟨m, fun _ => 0, ρ⟩ (fun r => ∀ c : Dev nD, ∀ b ∈ Pipeline.ucRefs τ sig,
      r.2.mem ((c : Thread nD τ).1, b) = Gen.V5 m (outs dat0 dat1 m) c b) := by
  refine Pipeline.θ_run_regions_kit_dev (pcfgs (F := F)) Gen.adm (pdats dat0 dat1 m) () Gen.cellOf_inj emb₁ defs₀ 𝒱₀ L lv m ρ main
    (Gen.segs m (outs dat0 dat1 m) 𝒱₀ L lv E () (pdats dat0 dat1 m) (reg0 dat0 dat1 A_eq0 q0_1 q0_2 q0_of owed0 recorded0 body_obligation0 hin0 hout0 m) (reg1 dat0 dat1 A_eq1 q1_1 q1_2 q1_of owed1 recorded1 body_obligation1 hin1 hout1 m))
    (fun c Q => by
      rewrite [Gen.main_chain c, Pipeline.Seg.run_eq_chain,
        show (Gen.segs m (outs dat0 dat1 m) 𝒱₀ L lv E () (pdats dat0 dat1 m) (reg0 dat0 dat1 A_eq0 q0_1 q0_2 q0_of owed0 recorded0 body_obligation0 hin0 hout0 m) (reg1 dat0 dat1 A_eq1 q1_1 q1_2 q1_of owed1 recorded1 body_obligation1 hin1 hout1 m) c).map Pipeline.Seg.prog = [
          Prog.lift (.customCall (Pipeline.entry 0) ()),
          Prog.lift (.customCall (Pipeline.entry 1) ()),
          StableHlo.seq Gen.hostOps2,
          StableHlo.seq Gen.hostOps2_1,
          StableHlo.seq Gen.hostOps2_2 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V5 m (outs dat0 dat1 m) c) ∗ ∃ r, prngReg c r))
    (hch := fun c => ⟨.rfl, .rfl, .rfl, .rfl, .rfl, last_assoc c _⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = Gen.V5 m (outs dat0 dat1 m) c b)
    (hfin := fun c s' => by
      iintro ⟨⟨Hh, -⟩, HSI⟩
      unfold StableHlo.held
      imodintro
      iapply (pointsTo_read_all (Pipeline.ucRefs τ sig) (fun b => ((c : Thread nD τ).1, b)) (Gen.V5 m (outs dat0 dat1 m) c) s')
      isplitl [Hh] <;> iassumption)
    (hQ := fun s h => h)

end Run

end Cert.Kernel.Asm

end
-- ==== Proof.KR0Base.lean ====
/-
  Pass 1 of the kernel walks the 8 x 16 grid of 1024 x 512 tiles of the score matrix in row-major order, point
  t = 16 i + j. Four facts about a point decide what its body does: it is the first point of all (the column
  accumulators are reset), it is the first tile of its row block (the row accumulators are reset), it is the last tile
  of its row block (the row results are stored), it is the last point of all (the column results are stored). This
  module states the four conditions as the body spells them, decides them over the grid in closed form, and names the
  buffers the body is called with.
-/
import proofs.«170005_j69870527971928_1_alg».proof.Proof.Gen.Kernel.Skeleton
import proofs.«170005_j69870527971928_1_alg».proof.Proof.Gen.Kernel.Launch
import proofs.«170005_j69870527971928_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four conditions -/

/-- The first point of the whole grid: the column accumulators are reset there. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The first tile of a row block: the row accumulators are reset there. -/
abbrev cond2 (i : grid0.Coords) : Prop :=
  (Scalar.cmpi .ne (Scalar.extui (Scalar.cmpi .eq (BitVec.ofNat 32 (i 1).val) 0#32)) 0#32) = 1#1
/-- The last tile of a row block: the row results are stored there. -/
abbrev cond3 (i : grid0.Coords) : Prop := k0_cond3 i = 1#1
/-- The last point of the grid: the column results are stored there. -/
abbrev cond4 (i : grid0.Coords) : Prop := k0_cond4 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val % 16 = 0 :=
  (by decide +kernel : ∀ t : Fin grid0.N, cond2 (grid0.coords t) ↔ t.val % 16 = 0)
theorem hcond3 : ∀ t : Fin cfg0.N, cond3 (grid0.coords t) ↔ t.val % 16 = 15 :=
  (by decide +kernel : ∀ t : Fin grid0.N, cond3 (grid0.coords t) ↔ t.val % 16 = 15)
theorem hcond4 : ∀ t : Fin cfg0.N, cond4 (grid0.coords t) ↔ t.val = 127 :=
  (by decide +kernel : ∀ t : Fin grid0.N, cond4 (grid0.coords t) ↔ t.val = 127)

/-! ## Where the windows are idle, and where they are written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The row results' windows are idle except at the last tile of a row block, -/
theorem idle3_of : ∀ t : Fin cfg0.N, ¬cond3 (grid0.coords t) → cfg0.idle 3 (grid0.coords t) = true := by decide +kernel
theorem idle4_of : ∀ t : Fin cfg0.N, ¬cond3 (grid0.coords t) → cfg0.idle 4 (grid0.coords t) = true := by decide +kernel
theorem live3_of : ∀ t : Fin cfg0.N, cond3 (grid0.coords t) → cfg0.idle 3 (grid0.coords t) = false := by decide +kernel
theorem live4_of : ∀ t : Fin cfg0.N, cond3 (grid0.coords t) → cfg0.idle 4 (grid0.coords t) = false := by decide +kernel
/-- and are written back only there. -/
theorem noFlush3_of : ∀ t : Fin cfg0.N, ¬cond3 (grid0.coords t) → (cfg0.win 3).flush t = false := by decide +kernel
theorem noFlush4_of : ∀ t : Fin cfg0.N, ¬cond3 (grid0.coords t) → (cfg0.win 4).flush t = false := by decide +kernel
/-- The column results' windows are idle except at the last point, -/
theorem idle5_of : ∀ t : Fin cfg0.N, ¬cond4 (grid0.coords t) → cfg0.idle 5 (grid0.coords t) = true := by decide +kernel
theorem idle6_of : ∀ t : Fin cfg0.N, ¬cond4 (grid0.coords t) → cfg0.idle 6 (grid0.coords t) = true := by decide +kernel
theorem live5_of : ∀ t : Fin cfg0.N, cond4 (grid0.coords t) → cfg0.idle 5 (grid0.coords t) = false := by decide +kernel
theorem live6_of : ∀ t : Fin cfg0.N, cond4 (grid0.coords t) → cfg0.idle 6 (grid0.coords t) = false := by decide +kernel
/-- and are written back only there. -/
theorem noFlush5_of : ∀ t : Fin cfg0.N, ¬cond4 (grid0.coords t) → (cfg0.win 5).flush t = false := by decide +kernel
theorem noFlush6_of : ∀ t : Fin cfg0.N, ¬cond4 (grid0.coords t) → (cfg0.win 6).flush t = false := by decide +kernel

/-! ## The buffers the body is called with at a point -/

abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S8192 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S8192 .f32 := win0_6.stage (cfg0.slots t 6)
abbrev hs6 (t : Fin cfg0.N) : (ms6 t).IsWhole := hstage0_6 ((cfg0.slots t 6).cast nbuf0_6)
/-- The accumulators: the row maximum and minimum of the current row block, the column maximum and minimum of all columns. -/
abbrev scRmax : Memref sig .tc .vmem S1024 .f32 := Memref.whole cc0_scratch0
abbrev scRmin : Memref sig .tc .vmem S1024 .f32 := Memref.whole cc0_scratch1
abbrev scCmax : Memref sig .tc .vmem S8192 .f32 := Memref.whole cc0_scratch2
abbrev scCmin : Memref sig .tc .vmem S8192 .f32 := Memref.whole cc0_scratch3

/-- The rectangles the body stores through: a whole 1024 vector, a whole 8192 vector, and the 512 columns of the current tile. -/
abbrev r1024 : Rect S1024 := Rect.unit (s := S1024) ![0] S1024.size inb_S1024_S1024_0
abbrev r8192 : Rect S8192 := Rect.unit (s := S8192) ![0] S8192.size inb_S8192_S8192_0
abbrev rsl (i : grid0.Coords) : Rect S8192 := Rect.unit (s := S8192) (k0_off1 i) S512.size (k0_off1_inb i)

/-- What the region's invariant holds of the core's scoped buffers before the first point: the four accumulators at any
    contents, every other scoped buffer untouched, and the generator register. -/
theorem PhiA0_eq (c : Dev nD) :
    (Pipeline.ΦA spec0 c : sProp 𝕄)
      = iprop(iprop(iprop((∃ d, owns (c : Thread nD τ) scRmax fullShare d) ∗ (∃ d, owns (c : Thread nD τ) scRmin fullShare d)
            ∗ (∃ d, owns (c : Thread nD τ) scCmax fullShare d) ∗ (∃ d, owns (c : Thread nD τ) scCmin fullShare d))
          ∗ Pipeline.scopedRestBut (Ix := Unit) (Name := ℕ) (U := UR sig nD τ) (Lvl := ℕ) (Val := Elt F) spec0 c [cc0_scratch0, cc0_scratch1, cc0_scratch2, cc0_scratch3])
        ∗ (∃ r, prngReg c r)) := by
  unfold Pipeline.ΦA; rw [scopedRest0_split]; simp only [scRmax, scRmin, scCmax, scCmin, owns_whole]; try rfl

end Cert.Kernel.H0

end
-- ==== Proof.KR0RunM.lean ====
/-
  The body of pass 1 run once, symbolically, in one of the five situations a grid point can be in (case M).
-/
import proofs.«170005_j69870527971928_1_alg».proof.Proof.KR0Base

set_option maxRecDepth 16384

noncomputable section

namespace Cert.Kernel.H0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A tile in the middle of a row block: nothing is reset and nothing stored as a result; the row accumulators are read and stored back whole, the column accumulators on the tile's 512 columns.
    On whole memrefs — the tile and the two label vectors at their contents, the result windows the case leaves alone at
    contents handed back untouched, the accumulators at what the point before left — the body runs to the end, holding
    each buffer it stored into with its stores written, as pieces, last first. The pieces are what the run finds. -/
noncomputable def kernelRun0_M (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : ¬cond1 i) (hc2 : ¬cond2 i) (hc3 : ¬cond3 i) (hc4 : ¬cond4 i)
    (x0 : Vec F S1024x512 .f32) (x1 : Vec F S1024 .i32) (x2 : Vec F S512 .i32) (xs9 xs10 : Vec F S1024 .f32) (xs11 xs12 : Vec F S8192 .f32) :
    Σ' (LS9 : List (View.Piece (Elt F) S1024 .f32)) (LS10 : List (View.Piece (Elt F) S1024 .f32)) (LS11 : List (View.Piece (Elt F) S8192 .f32)), { LS12 : List (View.Piece (Elt F) S8192 .f32) //
      ∀ (xi5 : Vec F S1024 .f32) (xi6 : Vec F S1024 .f32) (xi7 : Vec F S8192 .f32) (xi8 : Vec F S8192 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare xi5
            ∗ owns (c : Thread nD τ) arg6 fullShare xi6
            ∗ owns (c : Thread nD τ) arg7 fullShare xi7
            ∗ owns (c : Thread nD τ) arg8 fullShare xi8
            ∗ owns (c : Thread nD τ) arg9 fullShare xs9
            ∗ owns (c : Thread nD τ) arg10 fullShare xs10
            ∗ owns (c : Thread nD τ) arg11 fullShare xs11
            ∗ owns (c : Thread nD τ) arg12 fullShare xs12
            ∗ (iprop(owns (c : Thread nD τ) arg2 fullShare x0
                ∗ owns (c : Thread nD τ) arg3 fullShare x1
                ∗ owns (c : Thread nD τ) arg4 fullShare x2
                ∗ owns (c : Thread nD τ) arg5 fullShare xi5
                ∗ owns (c : Thread nD τ) arg6 fullShare xi6
                ∗ owns (c : Thread nD τ) arg7 fullShare xi7
                ∗ owns (c : Thread nD τ) arg8 fullShare xi8
                ∗ (∃ f, arg9.view.loc (c : Thread nD τ) ↦[arg9.view.set]{fullShare} arg9.view.writes (Elt F) f LS9)
                ∗ (∃ f, arg10.view.loc (c : Thread nD τ) ↦[arg10.view.set]{fullShare} arg10.view.writes (Elt F) f LS10)
                ∗ (arg11.view.loc (c : Thread nD τ) ↦[arg11.view.set]{fullShare} arg11.view.writes (Elt F) (harg11.unread xs11) LS11)
                ∗ (arg12.view.loc (c : Thread nD τ) ↦[arg12.view.set]{fullShare} arg12.view.writes (Elt F) (harg12.unread xs12) LS12)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11 arg12 harg12) K } := by
  refine ⟨?_, ?_, ?_, ?_, fun xi5 xi6 xi7 xi8 E K => ?run⟩
  case run =>
    simp only [cc0__pass1_kernel_eq_skeleton]; unfold cc0__pass1_kernel_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexists _; iexact H10
    isplitl [H11]
    · iexact H11
    iexact H12

end Cert.Kernel.H0

end
-- ==== Proof.KR0RunB.lean ====
/-
  The body of pass 1 run once, symbolically, in one of the five situations a grid point can be in (case B).
-/
import proofs.«170005_j69870527971928_1_alg».proof.Proof.KR0RunM

set_option maxRecDepth 16384

noncomputable section

namespace Cert.Kernel.H0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first tile of a row block other than the first: the row accumulators are reset before they are updated.
    On whole memrefs — the tile and the two label vectors at their contents, the result windows the case leaves alone at
    contents handed back untouched, the accumulators at what the point before left — the body runs to the end, holding
    each buffer it stored into with its stores written, as pieces, last first. The pieces are what the run finds. -/
noncomputable def kernelRun0_B (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : ¬cond1 i) (hc2 : cond2 i) (hc3 : ¬cond3 i) (hc4 : ¬cond4 i)
    (x0 : Vec F S1024x512 .f32) (x1 : Vec F S1024 .i32) (x2 : Vec F S512 .i32) (xs9 xs10 : Vec F S1024 .f32) (xs11 xs12 : Vec F S8192 .f32) :
    Σ' (LS9 : List (View.Piece (Elt F) S1024 .f32)) (LS10 : List (View.Piece (Elt F) S1024 .f32)) (LS11 : List (View.Piece (Elt F) S8192 .f32)), { LS12 : List (View.Piece (Elt F) S8192 .f32) //
      ∀ (xi5 : Vec F S1024 .f32) (xi6 : Vec F S1024 .f32) (xi7 : Vec F S8192 .f32) (xi8 : Vec F S8192 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare xi5
            ∗ owns (c : Thread nD τ) arg6 fullShare xi6
            ∗ owns (c : Thread nD τ) arg7 fullShare xi7
            ∗ owns (c : Thread nD τ) arg8 fullShare xi8
            ∗ owns (c : Thread nD τ) arg9 fullShare xs9
            ∗ owns (c : Thread nD τ) arg10 fullShare xs10
            ∗ owns (c : Thread nD τ) arg11 fullShare xs11
            ∗ owns (c : Thread nD τ) arg12 fullShare xs12
            ∗ (iprop(owns (c : Thread nD τ) arg2 fullShare x0
                ∗ owns (c : Thread nD τ) arg3 fullShare x1
                ∗ owns (c : Thread nD τ) arg4 fullShare x2
                ∗ owns (c : Thread nD τ) arg5 fullShare xi5
                ∗ owns (c : Thread nD τ) arg6 fullShare xi6
                ∗ owns (c : Thread nD τ) arg7 fullShare xi7
                ∗ owns (c : Thread nD τ) arg8 fullShare xi8
                ∗ (∃ f, arg9.view.loc (c : Thread nD τ) ↦[arg9.view.set]{fullShare} arg9.view.writes (Elt F) f LS9)
                ∗ (∃ f, arg10.view.loc (c : Thread nD τ) ↦[arg10.view.set]{fullShare} arg10.view.writes (Elt F) f LS10)
                ∗ (arg11.view.loc (c : Thread nD τ) ↦[arg11.view.set]{fullShare} arg11.view.writes (Elt F) (harg11.unread xs11) LS11)
                ∗ (arg12.view.loc (c : Thread nD τ) ↦[arg12.view.set]{fullShare} arg12.view.writes (Elt F) (harg12.unread xs12) LS12)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11 arg12 harg12) K } := by
  refine ⟨?_, ?_, ?_, ?_, fun xi5 xi6 xi7 xi8 E K => ?run⟩
  case run =>
    simp only [cc0__pass1_kernel_eq_skeleton]; unfold cc0__pass1_kernel_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexists _; iexact H10
    isplitl [H11]
    · iexact H11
    iexact H12

end Cert.Kernel.H0

end
-- ==== Proof.KR0RunA.lean ====
/-
  The body of pass 1 run once, symbolically, in one of the five situations a grid point can be in (case A).
-/
import proofs.«170005_j69870527971928_1_alg».proof.Proof.KR0RunB

set_option maxRecDepth 16384

noncomputable section

namespace Cert.Kernel.H0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first point of the grid: all four accumulators are reset before they are updated, so what they held does not matter.
    On whole memrefs — the tile and the two label vectors at their contents, the result windows the case leaves alone at
    contents handed back untouched, the accumulators at what the point before left — the body runs to the end, holding
    each buffer it stored into with its stores written, as pieces, last first. The pieces are what the run finds. -/
noncomputable def kernelRun0_A (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : cond1 i) (hc2 : cond2 i) (hc3 : ¬cond3 i) (hc4 : ¬cond4 i)
    (x0 : Vec F S1024x512 .f32) (x1 : Vec F S1024 .i32) (x2 : Vec F S512 .i32) :
    Σ' (LS9 : List (View.Piece (Elt F) S1024 .f32)) (LS10 : List (View.Piece (Elt F) S1024 .f32)) (LS11 : List (View.Piece (Elt F) S8192 .f32)), { LS12 : List (View.Piece (Elt F) S8192 .f32) //
      ∀ (xi5 : Vec F S1024 .f32) (xi6 : Vec F S1024 .f32) (xi7 : Vec F S8192 .f32) (xi8 : Vec F S8192 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare xi5
            ∗ owns (c : Thread nD τ) arg6 fullShare xi6
            ∗ owns (c : Thread nD τ) arg7 fullShare xi7
            ∗ owns (c : Thread nD τ) arg8 fullShare xi8
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare xi5
                ∗ owns (c : Thread nD τ) arg6 fullShare xi6
                ∗ owns (c : Thread nD τ) arg7 fullShare xi7
                ∗ owns (c : Thread nD τ) arg8 fullShare xi8
                ∗ (∃ f, arg9.view.loc (c : Thread nD τ) ↦[arg9.view.set]{fullShare} arg9.view.writes (Elt F) f LS9)
                ∗ (∃ f, arg10.view.loc (c : Thread nD τ) ↦[arg10.view.set]{fullShare} arg10.view.writes (Elt F) f LS10)
                ∗ (∃ f, arg11.view.loc (c : Thread nD τ) ↦[arg11.view.set]{fullShare} arg11.view.writes (Elt F) f LS11)
                ∗ (∃ f, arg12.view.loc (c : Thread nD τ) ↦[arg12.view.set]{fullShare} arg12.view.writes (Elt F) f LS12)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11 arg12 harg12) K } := by
  refine ⟨?_, ?_, ?_, ?_, fun xi5 xi6 xi7 xi8 E K => ?run⟩
  case run =>
    simp only [cc0__pass1_kernel_eq_skeleton]; unfold cc0__pass1_kernel_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexists _; iexact H10
    isplitl [H11]
    · iexists _; iexact H11
    iexists _; iexact H12

end Cert.Kernel.H0

end
-- ==== Proof.KR0RunC.lean ====
/-
  The body of pass 1 run once, symbolically, in one of the five situations a grid point can be in (case C).
-/
import proofs.«170005_j69870527971928_1_alg».proof.Proof.KR0RunA

set_option maxRecDepth 16384

noncomputable section

namespace Cert.Kernel.H0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last tile of a row block other than the last: after the update the row accumulators are stored to the row results' windows.
    On whole memrefs — the tile and the two label vectors at their contents, the result windows the case leaves alone at
    contents handed back untouched, the accumulators at what the point before left — the body runs to the end, holding
    each buffer it stored into with its stores written, as pieces, last first. The pieces are what the run finds. -/
noncomputable def kernelRun0_C (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : ¬cond1 i) (hc2 : ¬cond2 i) (hc3 : cond3 i) (hc4 : ¬cond4 i)
    (x0 : Vec F S1024x512 .f32) (x1 : Vec F S1024 .i32) (x2 : Vec F S512 .i32) (xs9 xs10 : Vec F S1024 .f32) (xs11 xs12 : Vec F S8192 .f32) :
    Σ' (L5 : List (View.Piece (Elt F) S1024 .f32)) (L6 : List (View.Piece (Elt F) S1024 .f32)) (LS9 : List (View.Piece (Elt F) S1024 .f32)) (LS10 : List (View.Piece (Elt F) S1024 .f32)) (LS11 : List (View.Piece (Elt F) S8192 .f32)), { LS12 : List (View.Piece (Elt F) S8192 .f32) //
      ∀ (xi7 : Vec F S8192 .f32) (xi8 : Vec F S8192 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ (∃ d, owns (c : Thread nD τ) arg5 fullShare d)
            ∗ (∃ d, owns (c : Thread nD τ) arg6 fullShare d)
            ∗ owns (c : Thread nD τ) arg7 fullShare xi7
            ∗ owns (c : Thread nD τ) arg8 fullShare xi8
            ∗ owns (c : Thread nD τ) arg9 fullShare xs9
            ∗ owns (c : Thread nD τ) arg10 fullShare xs10
            ∗ owns (c : Thread nD τ) arg11 fullShare xs11
            ∗ owns (c : Thread nD τ) arg12 fullShare xs12
            ∗ (iprop(owns (c : Thread nD τ) arg2 fullShare x0
                ∗ owns (c : Thread nD τ) arg3 fullShare x1
                ∗ owns (c : Thread nD τ) arg4 fullShare x2
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ owns (c : Thread nD τ) arg7 fullShare xi7
                ∗ owns (c : Thread nD τ) arg8 fullShare xi8
                ∗ (∃ f, arg9.view.loc (c : Thread nD τ) ↦[arg9.view.set]{fullShare} arg9.view.writes (Elt F) f LS9)
                ∗ (∃ f, arg10.view.loc (c : Thread nD τ) ↦[arg10.view.set]{fullShare} arg10.view.writes (Elt F) f LS10)
                ∗ (arg11.view.loc (c : Thread nD τ) ↦[arg11.view.set]{fullShare} arg11.view.writes (Elt F) (harg11.unread xs11) LS11)
                ∗ (arg12.view.loc (c : Thread nD τ) ↦[arg12.view.set]{fullShare} arg12.view.writes (Elt F) (harg12.unread xs12) LS12)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun xi7 xi8 E K => ?run⟩
  case run =>
    simp only [cc0__pass1_kernel_eq_skeleton]; unfold cc0__pass1_kernel_skel
    simp only [k0_part1_eq_skeleton]
    unfold owns
    iintro ⟨⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf2; obtain rfl := harg3.eq_unread hf3; obtain rfl := harg4.eq_unread hf4; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexists _; iexact H10
    isplitl [H11]
    · iexact H11
    iexact H12

end Cert.Kernel.H0

end
-- ==== Proof.KR0RunE.lean ====
/-
  The body of pass 1 run once, symbolically, in one of the five situations a grid point can be in (case E).
-/
import proofs.«170005_j69870527971928_1_alg».proof.Proof.KR0RunC

set_option maxRecDepth 16384

noncomputable section

namespace Cert.Kernel.H0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last point of the grid: the row accumulators go to the row results' windows and the column accumulators to the column results' windows.
    On whole memrefs — the tile and the two label vectors at their contents, the result windows the case leaves alone at
    contents handed back untouched, the accumulators at what the point before left — the body runs to the end, holding
    each buffer it stored into with its stores written, as pieces, last first. The pieces are what the run finds. -/
noncomputable def kernelRun0_E (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : ¬cond1 i) (hc2 : ¬cond2 i) (hc3 : cond3 i) (hc4 : cond4 i)
    (x0 : Vec F S1024x512 .f32) (x1 : Vec F S1024 .i32) (x2 : Vec F S512 .i32) (xs9 xs10 : Vec F S1024 .f32) (xs11 xs12 : Vec F S8192 .f32) :
    Σ' (L5 : List (View.Piece (Elt F) S1024 .f32)) (L6 : List (View.Piece (Elt F) S1024 .f32)) (L7 : List (View.Piece (Elt F) S8192 .f32)) (L8 : List (View.Piece (Elt F) S8192 .f32)) (LS9 : List (View.Piece (Elt F) S1024 .f32)) (LS10 : List (View.Piece (Elt F) S1024 .f32)) (LS11 : List (View.Piece (Elt F) S8192 .f32)), { LS12 : List (View.Piece (Elt F) S8192 .f32) //
      ∀  (E : Set ℕ) (K : PUnit → sProp 𝕄),
        iprop(owns (c : Thread nD τ) arg2 fullShare x0
            ∗ owns (c : Thread nD τ) arg3 fullShare x1
            ∗ owns (c : Thread nD τ) arg4 fullShare x2
            ∗ (∃ d, owns (c : Thread nD τ) arg5 fullShare d)
            ∗ (∃ d, owns (c : Thread nD τ) arg6 fullShare d)
            ∗ (∃ d, owns (c : Thread nD τ) arg7 fullShare d)
            ∗ (∃ d, owns (c : Thread nD τ) arg8 fullShare d)
            ∗ owns (c : Thread nD τ) arg9 fullShare xs9
            ∗ owns (c : Thread nD τ) arg10 fullShare xs10
            ∗ owns (c : Thread nD τ) arg11 fullShare xs11
            ∗ owns (c : Thread nD τ) arg12 fullShare xs12
            ∗ (iprop(owns (c : Thread nD τ) arg2 fullShare x0
                ∗ owns (c : Thread nD τ) arg3 fullShare x1
                ∗ owns (c : Thread nD τ) arg4 fullShare x2
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f LS9)
                ∗ (∃ f, arg10.view.loc (c : Thread nD τ) ↦[arg10.view.set]{fullShare} arg10.view.writes (Elt F) f LS10)
                ∗ (arg11.view.loc (c : Thread nD τ) ↦[arg11.view.set]{fullShare} arg11.view.writes (Elt F) (harg11.unread xs11) LS11)
                ∗ (arg12.view.loc (c : Thread nD τ) ↦[arg12.view.set]{fullShare} arg12.view.writes (Elt F) (harg12.unread xs12) LS12)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, ?_, fun  E K => ?run⟩
  case run =>
    simp only [cc0__pass1_kernel_eq_skeleton]; unfold cc0__pass1_kernel_skel
    simp only [k0_part1_eq_skeleton]
    unfold owns
    iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%f9, %hf9, H9⟩, ⟨%f10, %hf10, H10⟩, ⟨%f11, %hf11, H11⟩, ⟨%f12, %hf12, H12⟩, Hk⟩
    obtain rfl := harg2.eq_unread hf2; obtain rfl := harg3.eq_unread hf3; obtain rfl := harg4.eq_unread hf4; obtain rfl := harg9.eq_unread hf9; obtain rfl := harg10.eq_unread hf10; obtain rfl := harg11.eq_unread hf11; obtain rfl := harg12.eq_unread hf12
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; iexact H6
    isplitl [H7]
    · iexists _; iexact H7
    isplitl [H8]
    · iexists _; iexact H8
    isplitl [H9]
    · iexists _; iexact H9
    isplitl [H10]
    · iexists _; iexact H10
    isplitl [H11]
    · iexact H11
    iexact H12

end Cert.Kernel.H0

end
-- ==== Proof.KR0.lean ====
/-
  Pass 1 of the kernel as proof data for the pipeline it is launched as: what the four accumulators and the four result
  windows hold after each grid point, by recursion on the point; the invariant that carries the accumulators from one
  point to the next; and the body obligation, point by point, by the five situations a point can be in.
  After point t = 16 i + j the row accumulators hold the running maximum / minimum over the tiles (i, 0..j) of row block i,
  and the column accumulators hold, on the 512 columns of each column block, the running maximum / minimum over the row
  blocks that have visited it. The row results are stored at j = 15 and the column results at the last point.
-/
import proofs.«170005_j69870527971928_1_alg».proof.Proof.KR0RunE
import Idealize.ShloMosaic.Lib.Pipeline.Value

set_option maxRecDepth 16384

noncomputable section

namespace Cert.Kernel.H0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not: where it is not fetched its
    block index has not moved. -/
theorem before_in0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before_in1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before_in2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## Reading back what stores leave -/

theorem hz1 : (![0] : Fin 1 → ℕ) = fun _ => 0 := by funext a; fin_cases a; rfl

/-- A store through the whole shape, made last, leaves its payload whatever was stored before it. -/
theorem read_whole_last {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- The column maxima after stores `L` that need not cover them: what they were, with the stored columns replaced. -/
def slw11 (xs : Vec F S8192 .f32) (L : List (View.Piece (Elt F) S8192 .f32)) : Vec F S8192 .f32 :=
  scCmax.view.read (Elt F) (scCmax.view.writes (Elt F) ((Memref.isWhole_whole _ : scCmax.IsWhole).unread xs) L)
/-- The column minima after such stores. -/
def slw12 (xs : Vec F S8192 .f32) (L : List (View.Piece (Elt F) S8192 .f32)) : Vec F S8192 .f32 :=
  scCmin.view.read (Elt F) (scCmin.view.writes (Elt F) ((Memref.isWhole_whole _ : scCmin.IsWhole).unread xs) L)

/-! ## What the buffers hold after a point -/

/-- The four result windows' buffers and the four accumulators after a point. A result window's component is
    consulted only at the points that store into it. -/
structure St (F : FTy → Type) [FloatOps F] where
  o3 : Vec F S1024 .f32
  o4 : Vec F S1024 .f32
  o5 : Vec F S8192 .f32
  o6 : Vec F S8192 .f32
  s9 : Vec F S1024 .f32
  s10 : Vec F S1024 .f32
  s11 : Vec F S8192 .f32
  s12 : Vec F S8192 .f32

/-- Contents nothing consults. -/
def jk (S : Shape) : Vec F S .f32 := View.canon ([] : List (View.Piece (Elt F) S .f32))

/-- After the first point: everything reset, then updated: each buffer stored into holds what its stores leave. -/
def stepA (c : Dev nD) (t : Fin cfg0.N) (h : cond1 (grid0.coords t) ∧ cond2 (grid0.coords t) ∧ ¬cond3 (grid0.coords t) ∧ ¬cond4 (grid0.coords t)) : St F where
  o3 := jk _
  o4 := jk _
  o5 := jk _
  o6 := jk _
  s9 := View.canon ((kernelRun0_A c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t)).1)
  s10 := View.canon ((kernelRun0_A c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t)).2.1)
  s11 := View.canon ((kernelRun0_A c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t)).2.2.1)
  s12 := View.canon ((kernelRun0_A c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t)).2.2.2.1)

/-- After the first tile of a later row block: the row accumulators reset, then updated: each buffer stored into holds what its stores leave. -/
def stepB (c : Dev nD) (t : Fin cfg0.N) (h : ¬cond1 (grid0.coords t) ∧ cond2 (grid0.coords t) ∧ ¬cond3 (grid0.coords t) ∧ ¬cond4 (grid0.coords t)) (prev : St F) : St F where
  o3 := jk _
  o4 := jk _
  o5 := jk _
  o6 := jk _
  s9 := View.canon ((kernelRun0_B c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).1)
  s10 := View.canon ((kernelRun0_B c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.1)
  s11 := slw11 prev.s11 ((kernelRun0_B c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.2.1)
  s12 := slw12 prev.s12 ((kernelRun0_B c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.2.2.1)

/-- After a middle tile: the accumulators updated: each buffer stored into holds what its stores leave. -/
def stepM (c : Dev nD) (t : Fin cfg0.N) (h : ¬cond1 (grid0.coords t) ∧ ¬cond2 (grid0.coords t) ∧ ¬cond3 (grid0.coords t) ∧ ¬cond4 (grid0.coords t)) (prev : St F) : St F where
  o3 := jk _
  o4 := jk _
  o5 := jk _
  o6 := jk _
  s9 := View.canon ((kernelRun0_M c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).1)
  s10 := View.canon ((kernelRun0_M c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.1)
  s11 := slw11 prev.s11 ((kernelRun0_M c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.2.1)
  s12 := slw12 prev.s12 ((kernelRun0_M c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.2.2.1)

/-- After the last tile of a row block: the row accumulators updated and copied to the row results: each buffer stored into holds what its stores leave. -/
def stepC (c : Dev nD) (t : Fin cfg0.N) (h : ¬cond1 (grid0.coords t) ∧ ¬cond2 (grid0.coords t) ∧ cond3 (grid0.coords t) ∧ ¬cond4 (grid0.coords t)) (prev : St F) : St F where
  o3 := View.canon ((kernelRun0_C c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).1)
  o4 := View.canon ((kernelRun0_C c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.1)
  o5 := jk _
  o6 := jk _
  s9 := View.canon ((kernelRun0_C c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.2.1)
  s10 := View.canon ((kernelRun0_C c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.2.2.1)
  s11 := slw11 prev.s11 ((kernelRun0_C c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.2.2.2.1)
  s12 := slw12 prev.s12 ((kernelRun0_C c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.2.2.2.2.1)

/-- After the last point: both pairs of accumulators updated and copied to their results: each buffer stored into holds what its stores leave. -/
def stepE (c : Dev nD) (t : Fin cfg0.N) (h : ¬cond1 (grid0.coords t) ∧ ¬cond2 (grid0.coords t) ∧ cond3 (grid0.coords t) ∧ cond4 (grid0.coords t)) (prev : St F) : St F where
  o3 := View.canon ((kernelRun0_E c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).1)
  o4 := View.canon ((kernelRun0_E c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.1)
  o5 := View.canon ((kernelRun0_E c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.2.1)
  o6 := View.canon ((kernelRun0_E c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.2.2.1)
  s9 := View.canon ((kernelRun0_E c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.2.2.2.1)
  s10 := View.canon ((kernelRun0_E c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.2.2.2.2.1)
  s11 := slw11 prev.s11 ((kernelRun0_E c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.2.2.2.2.2.1)
  s12 := slw12 prev.s12 ((kernelRun0_E c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12).2.2.2.2.2.2.2.1)

/-! ## Which situation a point is in -/

theorem hA_of (t : Fin cfg0.N) (hz : t.val = 0) : cond1 (grid0.coords t) ∧ cond2 (grid0.coords t) ∧ ¬cond3 (grid0.coords t) ∧ ¬cond4 (grid0.coords t) :=
  ⟨(hcond1 t).mpr hz, (hcond2 t).mpr (by omega), fun h => by have := (hcond3 t).mp h; omega, fun h => by have := (hcond4 t).mp h; omega⟩
theorem hB_of (t : Fin cfg0.N) (h0 : t.val % 16 = 0) (hz : t.val ≠ 0) : ¬cond1 (grid0.coords t) ∧ cond2 (grid0.coords t) ∧ ¬cond3 (grid0.coords t) ∧ ¬cond4 (grid0.coords t) :=
  ⟨fun h => hz ((hcond1 t).mp h), (hcond2 t).mpr h0, fun h => by have := (hcond3 t).mp h; omega, fun h => by have := (hcond4 t).mp h; omega⟩
theorem hM_of (t : Fin cfg0.N) (h0 : ¬t.val % 16 = 0) (h15 : ¬t.val % 16 = 15) : ¬cond1 (grid0.coords t) ∧ ¬cond2 (grid0.coords t) ∧ ¬cond3 (grid0.coords t) ∧ ¬cond4 (grid0.coords t) :=
  ⟨fun h => by have := (hcond1 t).mp h; omega, fun h => h0 ((hcond2 t).mp h), fun h => h15 ((hcond3 t).mp h), fun h => by have := (hcond4 t).mp h; omega⟩
theorem hC_of (t : Fin cfg0.N) (h15 : t.val % 16 = 15) (hl : ¬t.val = 127) : ¬cond1 (grid0.coords t) ∧ ¬cond2 (grid0.coords t) ∧ cond3 (grid0.coords t) ∧ ¬cond4 (grid0.coords t) :=
  ⟨fun h => by have := (hcond1 t).mp h; omega, fun h => by have := (hcond2 t).mp h; omega, (hcond3 t).mpr h15, fun h => hl ((hcond4 t).mp h)⟩
theorem hE_of (t : Fin cfg0.N) (hl : t.val = 127) : ¬cond1 (grid0.coords t) ∧ ¬cond2 (grid0.coords t) ∧ cond3 (grid0.coords t) ∧ cond4 (grid0.coords t) :=
  ⟨fun h => by have := (hcond1 t).mp h; omega, fun h => by have := (hcond2 t).mp h; omega, (hcond3 t).mpr (by omega), (hcond4 t).mpr hl⟩

/-- THE ACCUMULATION: what the buffers hold after point `n`, by recursion on the point — the situation the point is in,
    run on the point's tiles, over what the point before left in the accumulators. -/
def outsAt0 (c : Dev nD) : (n : ℕ) → n < cfg0.N → St F
  | 0, hn => stepA V c ⟨0, hn⟩ (hA_of ⟨0, hn⟩ rfl)
  | n + 1, hn =>
    if h0 : (n + 1) % 16 = 0 then
      stepB V c ⟨n + 1, hn⟩ (hB_of ⟨n + 1, hn⟩ h0 (Nat.succ_ne_zero n)) (outsAt0 c n (Nat.lt_of_succ_lt hn))
    else if h15 : (n + 1) % 16 = 15 then
      if hl : n + 1 = 127 then
        stepE V c ⟨n + 1, hn⟩ (hE_of ⟨n + 1, hn⟩ hl) (outsAt0 c n (Nat.lt_of_succ_lt hn))
      else
        stepC V c ⟨n + 1, hn⟩ (hC_of ⟨n + 1, hn⟩ h15 hl) (outsAt0 c n (Nat.lt_of_succ_lt hn))
    else
      stepM V c ⟨n + 1, hn⟩ (hM_of ⟨n + 1, hn⟩ h0 h15) (outsAt0 c n (Nat.lt_of_succ_lt hn))

theorem outsAt0_A (c : Dev nD) (t : Fin cfg0.N) (hz : t.val = 0) :
    outsAt0 V c t.val t.isLt = stepA V c t (hA_of t hz) := by
  obtain ⟨n, hn⟩ := t
  cases n with
  | zero => rfl
  | succ n => exact absurd hz (Nat.succ_ne_zero n)
theorem outsAt0_B (c : Dev nD) (t : Fin cfg0.N) (h0 : t.val % 16 = 0) (hz : t.val ≠ 0) :
    outsAt0 V c t.val t.isLt = stepB V c t (hB_of t h0 hz) (outsAt0 V c (t.val - 1) (Nat.lt_of_le_of_lt (Nat.sub_le _ _) t.isLt)) := by
  obtain ⟨n, hn⟩ := t
  cases n with
  | zero => exact absurd rfl hz
  | succ n => exact (dif_pos h0).trans rfl
theorem outsAt0_M (c : Dev nD) (t : Fin cfg0.N) (h0 : ¬t.val % 16 = 0) (h15 : ¬t.val % 16 = 15) :
    outsAt0 V c t.val t.isLt = stepM V c t (hM_of t h0 h15) (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h15).trans rfl)
theorem outsAt0_C (c : Dev nD) (t : Fin cfg0.N) (h15 : t.val % 16 = 15) (hl : ¬t.val = 127) :
    outsAt0 V c t.val t.isLt = stepC V c t (hC_of t h15 hl) (outsAt0 V c (t.val - 1) (Nat.lt_of_le_of_lt (Nat.sub_le _ _) t.isLt)) := by
  obtain ⟨n, hn⟩ := t
  cases n with
  | zero => exact absurd (show (0 : ℕ) % 16 = 15 from h15) (by decide)
  | succ n =>
    have h0 : ¬(n + 1) % 16 = 0 := fun h => by have : (n + 1) % 16 = 15 := h15; omega
    exact (dif_neg h0).trans ((dif_pos h15).trans ((dif_neg hl).trans rfl))
theorem outsAt0_E (c : Dev nD) (t : Fin cfg0.N) (hl : t.val = 127) :
    outsAt0 V c t.val t.isLt = stepE V c t (hE_of t hl) (outsAt0 V c (t.val - 1) (Nat.lt_of_le_of_lt (Nat.sub_le _ _) t.isLt)) := by
  obtain ⟨n, hn⟩ := t
  cases n with
  | zero => exact absurd (show (0 : ℕ) = 127 from hl) (by decide)
  | succ n =>
    have h15 : (n + 1) % 16 = 15 := by have : n + 1 = 127 := hl; omega
    have h0 : ¬(n + 1) % 16 = 0 := by omega
    exact (dif_neg h0).trans ((dif_pos h15).trans ((dif_pos hl).trans rfl))

/-! ## The invariant between points -/

/-- Before the first point the core's scoped buffers are at anything; after point `n` the four accumulators are at what
    that point left, every other scoped buffer untouched, the generator register at some state. -/
def PhiS0 (c : Dev nD) : (n : ℕ) → n ≤ cfg0.N → sProp 𝕄
  | 0, _ => Pipeline.ΦA spec0 c
  | n + 1, hn => iprop(iprop(iprop(owns (c : Thread nD τ) scRmax fullShare ((outsAt0 V c n hn).s9) ∗ owns (c : Thread nD τ) scRmin fullShare ((outsAt0 V c n hn).s10)
        ∗ owns (c : Thread nD τ) scCmax fullShare ((outsAt0 V c n hn).s11) ∗ owns (c : Thread nD τ) scCmin fullShare ((outsAt0 V c n hn).s12))
      ∗ Pipeline.scopedRestBut (Ix := Unit) (Name := ℕ) (U := UR sig nD τ) (Lvl := ℕ) (Val := Elt F) spec0 c [cc0_scratch0, cc0_scratch1, cc0_scratch2, cc0_scratch3])
    ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(iprop(owns (c : Thread nD τ) scRmax fullShare ((outsAt0 V c n hn).s9) ∗ owns (c : Thread nD τ) scRmin fullShare ((outsAt0 V c n hn).s10)
        ∗ owns (c : Thread nD τ) scCmax fullShare ((outsAt0 V c n hn).s11) ∗ owns (c : Thread nD τ) scCmin fullShare ((outsAt0 V c n hn).s12))
      ∗ Pipeline.scopedRestBut (Ix := Unit) (Name := ℕ) (U := UR sig nD τ) (Lvl := ℕ) (Val := Elt F) spec0 c [cc0_scratch0, cc0_scratch1, cc0_scratch2, cc0_scratch3])
    ∗ (∃ r, prngReg c r)) := rfl
theorem PhiS0_pos (c : Dev nD) (n : ℕ) (h : n ≤ cfg0.N) (hz : n ≠ 0) :
    PhiS0 V c n h = iprop(iprop(iprop(owns (c : Thread nD τ) scRmax fullShare ((outsAt0 V c (n - 1) (by omega)).s9) ∗ owns (c : Thread nD τ) scRmin fullShare ((outsAt0 V c (n - 1) (by omega)).s10)
        ∗ owns (c : Thread nD τ) scCmax fullShare ((outsAt0 V c (n - 1) (by omega)).s11) ∗ owns (c : Thread nD τ) scCmin fullShare ((outsAt0 V c (n - 1) (by omega)).s12))
      ∗ Pipeline.scopedRestBut (Ix := Unit) (Name := ℕ) (U := UR sig nD τ) (Lvl := ℕ) (Val := Elt F) spec0 c [cc0_scratch0, cc0_scratch1, cc0_scratch2, cc0_scratch3])
    ∗ (∃ r, prngReg c r)) := by
  cases n with
  | zero => exact absurd rfl hz
  | succ n => rfl

/-! ## The pipeline's proof data -/

/-- The arrays as the region finds them; after the body at a point each input's buffer at its block and each result
    window's at what the accumulation says; the invariant above; the label array, which two windows stage, held in two
    halves; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).o3
    | ⟨4, _⟩ => (outsAt0 V c t.val t.isLt).o4
    | ⟨5, _⟩ => (outsAt0 V c t.val t.isLt).o5
    | ⟨6, _⟩ => (outsAt0 V c t.val t.isLt).o6
  Φ t := PhiS0 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq0 (c : Dev nD) (w : Fin cfg0.W) : (dat0 V c).A w = V c (Pipeline.arrRef spec0 w) := by
  dsimp only [dat0]
theorem q0_1 (c : Dev nD) : (dat0 V c).q 1 = fullShare.left := by dsimp only [dat0]
theorem q0_2 (c : Dev nD) : (dat0 V c).q 2 = fullShare.right := by dsimp only [dat0]
theorem q0_of (c : Dev nD) (w : Fin cfg0.W) (h1 : w ≠ 1) (h2 : w ≠ 2) : (dat0 V c).q w = fullShare := by
  match w with
  | ⟨0, _⟩ => dsimp only [dat0]
  | ⟨1, _⟩ => exact absurd rfl h1
  | ⟨2, _⟩ => exact absurd rfl h2
  | ⟨3, _⟩ => dsimp only [dat0]
  | ⟨4, _⟩ => dsimp only [dat0]
  | ⟨5, _⟩ => dsimp only [dat0]
  | ⟨6, _⟩ => dsimp only [dat0]
theorem owed0 (c : Dev nD) (t : Fin (cfg0.N + 1)) : (dat0 V c).owed t = 0 := by dsimp only [dat0]
theorem recorded0 (c : Dev nD) (t : Fin (cfg0.N + 1)) : (dat0 V c).recorded t = Set.univ := by dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).o3 := by dsimp only [dat0]
theorem after0_4 (c : Dev nD) (t : Fin cfg0.N) : (dat0 V c).after 4 t = (outsAt0 V c t.val t.isLt).o4 := by dsimp only [dat0]
theorem after0_5 (c : Dev nD) (t : Fin cfg0.N) : (dat0 V c).after 5 t = (outsAt0 V c t.val t.isLt).o5 := by dsimp only [dat0]
theorem after0_6 (c : Dev nD) (t : Fin cfg0.N) : (dat0 V c).after 6 t = (outsAt0 V c t.val t.isLt).o6 := by dsimp only [dat0]

theorem before0_0 (c : Dev nD) (t : Fin cfg0.N) (d) : (dat0 V c).before 0 t d = iblk0 V c 0 t :=
  before_in0_of V (dat0 V c) (A_eq0 V c 0) (after0_0 V c) t d
theorem before0_1 (c : Dev nD) (t : Fin cfg0.N) (d) : (dat0 V c).before 1 t d = iblk0 V c 1 t :=
  before_in1_of V (dat0 V c) (A_eq0 V c 1) (after0_1 V c) t d
theorem before0_2 (c : Dev nD) (t : Fin cfg0.N) (d) : (dat0 V c).before 2 t d = iblk0 V c 2 t :=
  before_in2_of V (dat0 V c) (A_eq0 V c 2) (after0_2 V c) t d

/-! ## The body obligation -/

/-- What the body is called with at a point, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d))
    ∗ (∃ d, owns (c : Thread nD τ) (ms5 t) fullShare ((dat0 V c).before 5 t d))
    ∗ (∃ d, owns (c : Thread nD τ) (ms6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t ∗ (dat0 V c).leavesExact 6 t)

set_option maxHeartbeats 16000000 in
/-- The body at any point: the inputs' buffers hold their tiles; the closed forms say which situation the point is in; the
    invariant hands the body the accumulators at what the point before left (at anything at the first point) and takes
    them back at this point's contents; a result window the point does not store into is handed back as found; the core
    owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0 t) fullShare ((dat0 V c).after 0 t) from by
      unfold Dat.leavesExact; rw [live0 t],
    show (dat0 V c).leavesExact 1 t = owns (c : Thread nD τ) (ms1 t) fullShare ((dat0 V c).after 1 t) from by
      unfold Dat.leavesExact; rw [live1 t],
    show (dat0 V c).leavesExact 2 t = owns (c : Thread nD τ) (ms2 t) fullShare ((dat0 V c).after 2 t) from by
      unfold Dat.leavesExact; rw [live2 t],
    after0_0, after0_1, after0_2]
  have hN : t.val < 128 := lt_of_lt_of_eq t.isLt (show cfg0.N = 128 from N_0)
  by_cases hz : t.val = 0
  · have hh := hA_of t hz
    rw [Dat.leavesExact_idle (dat0 V c) 3 t (idle3_of t hh.2.2.1) (noFlush3_of t hh.2.2.1),
        Dat.leavesExact_idle (dat0 V c) 4 t (idle4_of t hh.2.2.1) (noFlush4_of t hh.2.2.1),
        Dat.leavesExact_idle (dat0 V c) 5 t (idle5_of t hh.2.2.2) (noFlush5_of t hh.2.2.2),
        Dat.leavesExact_idle (dat0 V c) 6 t (idle6_of t hh.2.2.2) (noFlush6_of t hh.2.2.2)]
    rw [outsAt0_A V c t hz]
    unfold stepA; dsimp only
    rw [PhiS0_castSucc V c t, PhiS0_zero V c _ _ hz, PhiA0_eq]
    iintro ⟨⟨⟨⟨HS9, HS10, HS11, HS12⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) hh.1 hh.2.1 hh.2.2.1 hh.2.2.2 (iblk0 V c 0 t) (iblk0 V c 1 t) (iblk0 V c 2 t)).2.2.2.2 _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS9]; · iexact HS9
    isplitl [HS10]; · iexact HS10
    isplitl [HS11]; · iexact HS11
    isplitl [HS12]; · iexact HS12
    iintro ⟨H0, H1, H2, H3, H4, H5, H6, ⟨%e9, HS9⟩, ⟨%e10, HS10⟩, ⟨%e11, HS11⟩, ⟨%e12, HS12⟩⟩
    isplitl [HS9 HS10 HS11 HS12 Hrest Hg]
    · isplitl [HS9 HS10 HS11 HS12 Hrest]
      · isplitl [HS9 HS10 HS11 HS12]
        · isplitl [HS9]
          · unfold owns; iexists _; isplitr
            swap; · iexact HS9
            ipureintro; exact View.read_writes_eq_canon _ _ _ (View.cover_of_wholeMem _ (by sl_whole_mem))
          isplitl [HS10]
          · unfold owns; iexists _; isplitr
            swap; · iexact HS10
            ipureintro; exact View.read_writes_eq_canon _ _ _ (View.cover_of_wholeMem _ (by sl_whole_mem))
          isplitl [HS11]
          · unfold owns; iexists _; isplitr
            swap; · iexact HS11
            ipureintro; exact View.read_writes_eq_canon _ _ _ (View.cover_of_wholeMem _ (by sl_whole_mem))
          unfold owns; iexists _; isplitr
          swap; · iexact HS12
          ipureintro; exact View.read_writes_eq_canon _ _ _ (View.cover_of_wholeMem _ (by sl_whole_mem))
        iexact Hrest
      iexact Hg
    isplitl [Ho]; · iexact Ho
    isplitl [H0]; · iexact H0
    isplitl [H1]; · iexact H1
    isplitl [H2]; · iexact H2
    isplitl [H3]; · iexists _; iexact H3
    isplitl [H4]; · iexists _; iexact H4
    isplitl [H5]; · iexists _; iexact H5
    iexists _; iexact H6
  · by_cases h0 : t.val % 16 = 0
    · have hh := hB_of t h0 hz
      rw [Dat.leavesExact_idle (dat0 V c) 3 t (idle3_of t hh.2.2.1) (noFlush3_of t hh.2.2.1),
          Dat.leavesExact_idle (dat0 V c) 4 t (idle4_of t hh.2.2.1) (noFlush4_of t hh.2.2.1),
          Dat.leavesExact_idle (dat0 V c) 5 t (idle5_of t hh.2.2.2) (noFlush5_of t hh.2.2.2),
          Dat.leavesExact_idle (dat0 V c) 6 t (idle6_of t hh.2.2.2) (noFlush6_of t hh.2.2.2)]
      rw [outsAt0_B V c t h0 hz]
      unfold stepB; dsimp only
      rw [PhiS0_castSucc V c t, PhiS0_pos V c _ _ hz]
      iintro ⟨⟨⟨⟨HS9, HS10, HS11, HS12⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) hh.1 hh.2.1 hh.2.2.1 hh.2.2.2 (iblk0 V c 0 t) (iblk0 V c 1 t) (iblk0 V c 2 t) _ _ _ _).2.2.2.2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS9]; · iexact HS9
      isplitl [HS10]; · iexact HS10
      isplitl [HS11]; · iexact HS11
      isplitl [HS12]; · iexact HS12
      iintro ⟨H0, H1, H2, H3, H4, H5, H6, ⟨%e9, HS9⟩, ⟨%e10, HS10⟩, HS11, HS12⟩
      isplitl [HS9 HS10 HS11 HS12 Hrest Hg]
      · isplitl [HS9 HS10 HS11 HS12 Hrest]
        · isplitl [HS9 HS10 HS11 HS12]
          · isplitl [HS9]
            · unfold owns; iexists _; isplitr
              swap; · iexact HS9
              ipureintro; exact View.read_writes_eq_canon _ _ _ (View.cover_of_wholeMem _ (by sl_whole_mem))
            isplitl [HS10]
            · unfold owns; iexists _; isplitr
              swap; · iexact HS10
              ipureintro; exact View.read_writes_eq_canon _ _ _ (View.cover_of_wholeMem _ (by sl_whole_mem))
            isplitl [HS11]
            · unfold owns; iexists _; isplitr
              swap; · iexact HS11
              ipureintro; rfl
            unfold owns; iexists _; isplitr
            swap; · iexact HS12
            ipureintro; rfl
          iexact Hrest
        iexact Hg
      isplitl [Ho]; · iexact Ho
      isplitl [H0]; · iexact H0
      isplitl [H1]; · iexact H1
      isplitl [H2]; · iexact H2
      isplitl [H3]; · iexists _; iexact H3
      isplitl [H4]; · iexists _; iexact H4
      isplitl [H5]; · iexists _; iexact H5
      iexists _; iexact H6
    · by_cases h15 : t.val % 16 = 15
      · by_cases hl : t.val = 127
        · have hh := hE_of t hl
          rw [show (dat0 V c).leavesExact 3 t = owns (c : Thread nD τ) (ms3 t) fullShare ((dat0 V c).after 3 t) from by
                unfold Dat.leavesExact; rw [live3_of t hh.2.2.1],
              show (dat0 V c).leavesExact 4 t = owns (c : Thread nD τ) (ms4 t) fullShare ((dat0 V c).after 4 t) from by
                unfold Dat.leavesExact; rw [live4_of t hh.2.2.1],
              show (dat0 V c).leavesExact 5 t = owns (c : Thread nD τ) (ms5 t) fullShare ((dat0 V c).after 5 t) from by
                unfold Dat.leavesExact; rw [live5_of t hh.2.2.2],
              show (dat0 V c).leavesExact 6 t = owns (c : Thread nD τ) (ms6 t) fullShare ((dat0 V c).after 6 t) from by
                unfold Dat.leavesExact; rw [live6_of t hh.2.2.2]]
          rw [after0_3, after0_4, after0_5, after0_6]
          rw [outsAt0_E V c t hl]
          unfold stepE; dsimp only
          rw [PhiS0_castSucc V c t, PhiS0_pos V c _ _ hz]
          iintro ⟨⟨⟨⟨HS9, HS10, HS11, HS12⟩, Hrest⟩, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_E c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) hh.1 hh.2.1 hh.2.2.1 hh.2.2.2 (iblk0 V c 0 t) (iblk0 V c 1 t) (iblk0 V c 2 t) _ _ _ _).2.2.2.2.2.2.2.2 Set.univ _)
          isplitl [H0]; · iexact H0
          isplitl [H1]; · iexact H1
          isplitl [H2]; · iexact H2
          isplitl [H3]; · iexists _; iexact H3
          isplitl [H4]; · iexists _; iexact H4
          isplitl [H5]; · iexists _; iexact H5
          isplitl [H6]; · iexists _; iexact H6
          isplitl [HS9]; · iexact HS9
          isplitl [HS10]; · iexact HS10
          isplitl [HS11]; · iexact HS11
          isplitl [HS12]; · iexact HS12
          iintro ⟨H0, H1, H2, ⟨%e3, H3⟩, ⟨%e4, H4⟩, ⟨%e5, H5⟩, ⟨%e6, H6⟩, ⟨%e9, HS9⟩, ⟨%e10, HS10⟩, HS11, HS12⟩
          isplitl [HS9 HS10 HS11 HS12 Hrest Hg]
          · isplitl [HS9 HS10 HS11 HS12 Hrest]
            · isplitl [HS9 HS10 HS11 HS12]
              · isplitl [HS9]
                · unfold owns; iexists _; isplitr
                  swap; · iexact HS9
                  ipureintro; exact View.read_writes_eq_canon _ _ _ (View.cover_of_wholeMem _ (by sl_whole_mem))
                isplitl [HS10]
                · unfold owns; iexists _; isplitr
                  swap; · iexact HS10
                  ipureintro; exact View.read_writes_eq_canon _ _ _ (View.cover_of_wholeMem _ (by sl_whole_mem))
                isplitl [HS11]
                · unfold owns; iexists _; isplitr
                  swap; · iexact HS11
                  ipureintro; rfl
                unfold owns; iexists _; isplitr
                swap; · iexact HS12
                ipureintro; rfl
              iexact Hrest
            iexact Hg
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_eq_canon _ _ _ (View.cover_of_wholeMem _ (by sl_whole_mem))
          isplitl [H4]
          · unfold owns; iexists _; isplitr
            swap; · iexact H4
            ipureintro; exact View.read_writes_eq_canon _ _ _ (View.cover_of_wholeMem _ (by sl_whole_mem))
          isplitl [H5]
          · unfold owns; iexists _; isplitr
            swap; · iexact H5
            ipureintro; exact View.read_writes_eq_canon _ _ _ (View.cover_of_wholeMem _ (by sl_whole_mem))
          unfold owns; iexists _; isplitr
          swap; · iexact H6
          ipureintro; exact View.read_writes_eq_canon _ _ _ (View.cover_of_wholeMem _ (by sl_whole_mem))
        · have hh := hC_of t h15 hl
          rw [show (dat0 V c).leavesExact 3 t = owns (c : Thread nD τ) (ms3 t) fullShare ((dat0 V c).after 3 t) from by
                unfold Dat.leavesExact; rw [live3_of t hh.2.2.1],
              show (dat0 V c).leavesExact 4 t = owns (c : Thread nD τ) (ms4 t) fullShare ((dat0 V c).after 4 t) from by
                unfold Dat.leavesExact; rw [live4_of t hh.2.2.1],
              Dat.leavesExact_idle (dat0 V c) 5 t (idle5_of t hh.2.2.2) (noFlush5_of t hh.2.2.2),
              Dat.leavesExact_idle (dat0 V c) 6 t (idle6_of t hh.2.2.2) (noFlush6_of t hh.2.2.2)]
          rw [after0_3, after0_4]
          rw [outsAt0_C V c t h15 hl]
          unfold stepC; dsimp only
          rw [PhiS0_castSucc V c t, PhiS0_pos V c _ _ hz]
          iintro ⟨⟨⟨⟨HS9, HS10, HS11, HS12⟩, Hrest⟩, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_C c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) hh.1 hh.2.1 hh.2.2.1 hh.2.2.2 (iblk0 V c 0 t) (iblk0 V c 1 t) (iblk0 V c 2 t) _ _ _ _).2.2.2.2.2.2 _ _ Set.univ _)
          isplitl [H0]; · iexact H0
          isplitl [H1]; · iexact H1
          isplitl [H2]; · iexact H2
          isplitl [H3]; · iexists _; iexact H3
          isplitl [H4]; · iexists _; iexact H4
          isplitl [H5]; · iexact H5
          isplitl [H6]; · iexact H6
          isplitl [HS9]; · iexact HS9
          isplitl [HS10]; · iexact HS10
          isplitl [HS11]; · iexact HS11
          isplitl [HS12]; · iexact HS12
          iintro ⟨H0, H1, H2, ⟨%e3, H3⟩, ⟨%e4, H4⟩, H5, H6, ⟨%e9, HS9⟩, ⟨%e10, HS10⟩, HS11, HS12⟩
          isplitl [HS9 HS10 HS11 HS12 Hrest Hg]
          · isplitl [HS9 HS10 HS11 HS12 Hrest]
            · isplitl [HS9 HS10 HS11 HS12]
              · isplitl [HS9]
                · unfold owns; iexists _; isplitr
                  swap; · iexact HS9
                  ipureintro; exact View.read_writes_eq_canon _ _ _ (View.cover_of_wholeMem _ (by sl_whole_mem))
                isplitl [HS10]
                · unfold owns; iexists _; isplitr
                  swap; · iexact HS10
                  ipureintro; exact View.read_writes_eq_canon _ _ _ (View.cover_of_wholeMem _ (by sl_whole_mem))
                isplitl [HS11]
                · unfold owns; iexists _; isplitr
                  swap; · iexact HS11
                  ipureintro; rfl
                unfold owns; iexists _; isplitr
                swap; · iexact HS12
                ipureintro; rfl
              iexact Hrest
            iexact Hg
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_eq_canon _ _ _ (View.cover_of_wholeMem _ (by sl_whole_mem))
          isplitl [H4]
          · unfold owns; iexists _; isplitr
            swap; · iexact H4
            ipureintro; exact View.read_writes_eq_canon _ _ _ (View.cover_of_wholeMem _ (by sl_whole_mem))
          isplitl [H5]; · iexists _; iexact H5
          iexists _; iexact H6
      · have hh := hM_of t h0 h15
        rw [Dat.leavesExact_idle (dat0 V c) 3 t (idle3_of t hh.2.2.1) (noFlush3_of t hh.2.2.1),
            Dat.leavesExact_idle (dat0 V c) 4 t (idle4_of t hh.2.2.1) (noFlush4_of t hh.2.2.1),
            Dat.leavesExact_idle (dat0 V c) 5 t (idle5_of t hh.2.2.2) (noFlush5_of t hh.2.2.2),
            Dat.leavesExact_idle (dat0 V c) 6 t (idle6_of t hh.2.2.2) (noFlush6_of t hh.2.2.2)]
        rw [outsAt0_M V c t h0 h15]
        unfold stepM; dsimp only
        rw [PhiS0_castSucc V c t, PhiS0_pos V c _ _ hz]
        iintro ⟨⟨⟨⟨HS9, HS10, HS11, HS12⟩, Hrest⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_M c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) hh.1 hh.2.1 hh.2.2.1 hh.2.2.2 (iblk0 V c 0 t) (iblk0 V c 1 t) (iblk0 V c 2 t) _ _ _ _).2.2.2.2 _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS9]; · iexact HS9
        isplitl [HS10]; · iexact HS10
        isplitl [HS11]; · iexact HS11
        isplitl [HS12]; · iexact HS12
        iintro ⟨H0, H1, H2, H3, H4, H5, H6, ⟨%e9, HS9⟩, ⟨%e10, HS10⟩, HS11, HS12⟩
        isplitl [HS9 HS10 HS11 HS12 Hrest Hg]
        · isplitl [HS9 HS10 HS11 HS12 Hrest]
          · isplitl [HS9 HS10 HS11 HS12]
            · isplitl [HS9]
              · unfold owns; iexists _; isplitr
                swap; · iexact HS9
                ipureintro; exact View.read_writes_eq_canon _ _ _ (View.cover_of_wholeMem _ (by sl_whole_mem))
              isplitl [HS10]
              · unfold owns; iexists _; isplitr
                swap; · iexact HS10
                ipureintro; exact View.read_writes_eq_canon _ _ _ (View.cover_of_wholeMem _ (by sl_whole_mem))
              isplitl [HS11]
              · unfold owns; iexists _; isplitr
                swap; · iexact HS11
                ipureintro; rfl
              unfold owns; iexists _; isplitr
              swap; · iexact HS12
              ipureintro; rfl
            iexact Hrest
          iexact Hg
        isplitl [Ho]; · iexact Ho
        isplitl [H0]; · iexact H0
        isplitl [H1]; · iexact H1
        isplitl [H2]; · iexact H2
        isplitl [H3]; · iexists _; iexact H3
        isplitl [H4]; · iexists _; iexact H4
        isplitl [H5]; · iexists _; iexact H5
        iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped buffers back: the accumulators' contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 128 := N_0; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨⟨⟨HS9, HS10, HS11, HS12⟩, Hrest⟩, Hg⟩
  isplitl [HS9 HS10 HS11 HS12 Hrest]
  · isplitl [HS9 HS10 HS11 HS12]
    · isplitl [HS9]; · iexists _; iexact HS9
      isplitl [HS10]; · iexists _; iexact HS10
      isplitl [HS11]; · iexists _; iexact HS11
      iexists _; iexact HS12
    iexact Hrest
  iexact Hg

end Cert.Kernel.H0

end
-- ==== Proof.KR1Conds.lean ====
import proofs.«170005_j69870527971928_1_alg».proof.Proof.Gen.Kernel.Skeleton
import proofs.«170005_j69870527971928_1_alg».proof.Proof.Gen.Kernel.Launch
import proofs.«170005_j69870527971928_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, over the grid coordinates -/

/-- The first point of the whole grid: the column accumulators are reset there. -/
abbrev cond1 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The first column block of a row block: the row accumulators are reset there. -/
abbrev cond2 (i : grid1.Coords) : Prop :=
  (Scalar.cmpi .ne (Scalar.extui (Scalar.cmpi .eq (BitVec.ofNat 32 (i 1).val) 0#32)) 0#32) = 1#1
/-- The last column block of a row block: the row results are stored there. -/
abbrev cond3 (i : grid1.Coords) : Prop := k1_cond3 i = 1#1
/-- The last point of the grid: the column results are stored there. -/
abbrev cond4 (i : grid1.Coords) : Prop := k1_cond4 i = 1#1

/-- The conditions in closed form, decided over the grid's 128 points. -/
theorem hcond1 : ∀ t : Fin cfg1.N, cond1 (grid1.coords t) ↔ t.val = 0 :=
  (by decide +kernel : ∀ t : Fin grid1.N, cond1 (grid1.coords t) ↔ t.val = 0)
theorem hcond2 : ∀ t : Fin cfg1.N, cond2 (grid1.coords t) ↔ t.val % 16 = 0 :=
  (by decide +kernel : ∀ t : Fin grid1.N, cond2 (grid1.coords t) ↔ t.val % 16 = 0)
theorem hcond3 : ∀ t : Fin cfg1.N, cond3 (grid1.coords t) ↔ t.val % 16 = 15 :=
  (by decide +kernel : ∀ t : Fin grid1.N, cond3 (grid1.coords t) ↔ t.val % 16 = 15)
theorem hcond4 : ∀ t : Fin cfg1.N, cond4 (grid1.coords t) ↔ t.val = 127 :=
  (by decide +kernel : ∀ t : Fin grid1.N, cond4 (grid1.coords t) ↔ t.val = 127)

/-! ## Where the windows are idle -/

theorem liveAt0 : ∀ t : Fin cfg1.N, cfg1.idle 0 (grid1.coords t) = false := by decide +kernel
theorem liveAt1 : ∀ t : Fin cfg1.N, cfg1.idle 1 (grid1.coords t) = false := by decide +kernel
theorem liveAt2 : ∀ t : Fin cfg1.N, cfg1.idle 2 (grid1.coords t) = false := by decide +kernel
theorem liveAt3 : ∀ t : Fin cfg1.N, cfg1.idle 3 (grid1.coords t) = false := by decide +kernel
theorem liveAt4 : ∀ t : Fin cfg1.N, cfg1.idle 4 (grid1.coords t) = false := by decide +kernel
theorem liveAt5 : ∀ t : Fin cfg1.N, cfg1.idle 5 (grid1.coords t) = false := by decide +kernel
theorem liveAt6 : ∀ t : Fin cfg1.N, cfg1.idle 6 (grid1.coords t) = false := by decide +kernel
theorem idleAt7 : ∀ t : Fin cfg1.N, ¬cond3 (grid1.coords t) → cfg1.idle 7 (grid1.coords t) = true := by decide +kernel
theorem noFlush7 : ∀ t : Fin cfg1.N, ¬cond3 (grid1.coords t) → (cfg1.win 7).flush t = false := by decide +kernel
theorem liveAt7 : ∀ t : Fin cfg1.N, cond3 (grid1.coords t) → cfg1.idle 7 (grid1.coords t) = false := by decide +kernel
theorem idleAt8 : ∀ t : Fin cfg1.N, ¬cond3 (grid1.coords t) → cfg1.idle 8 (grid1.coords t) = true := by decide +kernel
theorem noFlush8 : ∀ t : Fin cfg1.N, ¬cond3 (grid1.coords t) → (cfg1.win 8).flush t = false := by decide +kernel
theorem liveAt8 : ∀ t : Fin cfg1.N, cond3 (grid1.coords t) → cfg1.idle 8 (grid1.coords t) = false := by decide +kernel
theorem idleAt9 : ∀ t : Fin cfg1.N, ¬cond3 (grid1.coords t) → cfg1.idle 9 (grid1.coords t) = true := by decide +kernel
theorem noFlush9 : ∀ t : Fin cfg1.N, ¬cond3 (grid1.coords t) → (cfg1.win 9).flush t = false := by decide +kernel
theorem liveAt9 : ∀ t : Fin cfg1.N, cond3 (grid1.coords t) → cfg1.idle 9 (grid1.coords t) = false := by decide +kernel
theorem idleAt10 : ∀ t : Fin cfg1.N, ¬cond4 (grid1.coords t) → cfg1.idle 10 (grid1.coords t) = true := by decide +kernel
theorem noFlush10 : ∀ t : Fin cfg1.N, ¬cond4 (grid1.coords t) → (cfg1.win 10).flush t = false := by decide +kernel
theorem liveAt10 : ∀ t : Fin cfg1.N, cond4 (grid1.coords t) → cfg1.idle 10 (grid1.coords t) = false := by decide +kernel
theorem idleAt11 : ∀ t : Fin cfg1.N, ¬cond4 (grid1.coords t) → cfg1.idle 11 (grid1.coords t) = true := by decide +kernel
theorem noFlush11 : ∀ t : Fin cfg1.N, ¬cond4 (grid1.coords t) → (cfg1.win 11).flush t = false := by decide +kernel
theorem liveAt11 : ∀ t : Fin cfg1.N, cond4 (grid1.coords t) → cfg1.idle 11 (grid1.coords t) = false := by decide +kernel
theorem idleAt12 : ∀ t : Fin cfg1.N, ¬cond4 (grid1.coords t) → cfg1.idle 12 (grid1.coords t) = true := by decide +kernel
theorem noFlush12 : ∀ t : Fin cfg1.N, ¬cond4 (grid1.coords t) → (cfg1.win 12).flush t = false := by decide +kernel
theorem liveAt12 : ∀ t : Fin cfg1.N, cond4 (grid1.coords t) → cfg1.idle 12 (grid1.coords t) = false := by decide +kernel

/-! ## The staging and scratch memrefs at a point -/

abbrev ms0 (t : Fin cfg1.N) : Memref sig .tc .vmem S1024x512 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024 .i32 := win1_1.stage (cfg1.slots t 1)
abbrev hs1 (t : Fin cfg1.N) : (ms1 t).IsWhole := hstage1_1 ((cfg1.slots t 1).cast nbuf1_1)
abbrev ms2 (t : Fin cfg1.N) : Memref sig .tc .vmem S512 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S512 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S512 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S1024 .f32 := win1_7.stage (cfg1.slots t 7)
abbrev hs7 (t : Fin cfg1.N) : (ms7 t).IsWhole := hstage1_7 ((cfg1.slots t 7).cast nbuf1_7)
abbrev ms8 (t : Fin cfg1.N) : Memref sig .tc .vmem S1024 .f32 := win1_8.stage (cfg1.slots t 8)
abbrev hs8 (t : Fin cfg1.N) : (ms8 t).IsWhole := hstage1_8 ((cfg1.slots t 8).cast nbuf1_8)
abbrev ms9 (t : Fin cfg1.N) : Memref sig .tc .vmem S1024 .f32 := win1_9.stage (cfg1.slots t 9)
abbrev hs9 (t : Fin cfg1.N) : (ms9 t).IsWhole := hstage1_9 ((cfg1.slots t 9).cast nbuf1_9)
abbrev ms10 (t : Fin cfg1.N) : Memref sig .tc .vmem S8192 .f32 := win1_10.stage (cfg1.slots t 10)
abbrev hs10 (t : Fin cfg1.N) : (ms10 t).IsWhole := hstage1_10 ((cfg1.slots t 10).cast nbuf1_10)
abbrev ms11 (t : Fin cfg1.N) : Memref sig .tc .vmem S8192 .f32 := win1_11.stage (cfg1.slots t 11)
abbrev hs11 (t : Fin cfg1.N) : (ms11 t).IsWhole := hstage1_11 ((cfg1.slots t 11).cast nbuf1_11)
abbrev ms12 (t : Fin cfg1.N) : Memref sig .tc .vmem S8192 .f32 := win1_12.stage (cfg1.slots t 12)
abbrev hs12 (t : Fin cfg1.N) : (ms12 t).IsWhole := hstage1_12 ((cfg1.slots t 12).cast nbuf1_12)
abbrev scM0 : Memref sig .tc .vmem S1024 .f32 := Memref.whole cc1_scratch0
abbrev VS0 : View sig .tc .vmem S1024 .f32 := scM0.view
abbrev scM1 : Memref sig .tc .vmem S1024 .f32 := Memref.whole cc1_scratch1
abbrev VS1 : View sig .tc .vmem S1024 .f32 := scM1.view
abbrev scM2 : Memref sig .tc .vmem S1024 .f32 := Memref.whole cc1_scratch2
abbrev VS2 : View sig .tc .vmem S1024 .f32 := scM2.view
abbrev scM3 : Memref sig .tc .vmem S1024 .f32 := Memref.whole cc1_scratch3
abbrev VS3 : View sig .tc .vmem S1024 .f32 := scM3.view
abbrev scM4 : Memref sig .tc .vmem S8192 .f32 := Memref.whole cc1_scratch4
abbrev VS4 : View sig .tc .vmem S8192 .f32 := scM4.view
abbrev scM5 : Memref sig .tc .vmem S8192 .f32 := Memref.whole cc1_scratch5
abbrev VS5 : View sig .tc .vmem S8192 .f32 := scM5.view
abbrev scM6 : Memref sig .tc .vmem S8192 .f32 := Memref.whole cc1_scratch6
abbrev VS6 : View sig .tc .vmem S8192 .f32 := scM6.view
abbrev scM7 : Memref sig .tc .vmem S8192 .f32 := Memref.whole cc1_scratch7
abbrev VS7 : View sig .tc .vmem S8192 .f32 := scM7.view
/-- A view of each output block's shape, through which an output's contents are stated. -/
abbrev VO1024 : View sig .tc .vmem S1024 .f32 := scM0.view
abbrev VO8192 : View sig .tc .vmem S8192 .f32 := scM4.view

/-- The rectangles the body stores through: a whole 1024 vector, a whole 8192 vector, and the 512 columns of the current tile. -/
abbrev r1024 : Rect S1024 := Rect.unit (s := S1024) ![0] S1024.size inb_S1024_S1024_0
abbrev r8192 : Rect S8192 := Rect.unit (s := S8192) ![0] S8192.size inb_S8192_S8192_0
abbrev rsl (i : grid1.Coords) : Rect S8192 := Rect.unit (s := S8192) (k1_off1 i) S512.size (k1_off1_inb i)

end Cert.Kernel.H1

end
-- ==== Proof.KR1RunM.lean ====
import proofs.«170005_j69870527971928_1_alg».proof.Proof.KR1Conds

set_option maxRecDepth 16384

noncomputable section

namespace Cert.Kernel.H1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- A point in the middle of a row block: the row accumulators are updated whole, the column accumulators on their slice; no result is stored.
    On whole memrefs — the inputs' at their contents, an output the case does not store into at contents handed back
    untouched, an accumulator the case reads before covering at the contents the point before left — the body runs to
    the continuation holding each buffer it stored into with its stores written, as pieces, last first (a column
    accumulator stored only on its slice: over the contents it was handed). The pieces are what the run finds. -/
noncomputable def kernelRun1_M (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    Σ' (LS15 : List (View.Piece (Elt F) S1024 .f32)) (LS16 : List (View.Piece (Elt F) S1024 .f32)) (LS17 : List (View.Piece (Elt F) S1024 .f32)) (LS18 : List (View.Piece (Elt F) S1024 .f32)) (LS19 : List (View.Piece (Elt F) S8192 .f32)) (LS20 : List (View.Piece (Elt F) S8192 .f32)) (LS21 : List (View.Piece (Elt F) S8192 .f32)), { LS22 : List (View.Piece (Elt F) S8192 .f32) //
      ∀ (xi9 xi10 xi11 : Vec F S1024 .f32) (xi12 xi13 xi14 : Vec F S8192 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare xi9
            ∗ owns (c : Thread nD τ) arg10 fullShare xi10
            ∗ owns (c : Thread nD τ) arg11 fullShare xi11
            ∗ owns (c : Thread nD τ) arg12 fullShare xi12
            ∗ owns (c : Thread nD τ) arg13 fullShare xi13
            ∗ owns (c : Thread nD τ) arg14 fullShare xi14
            ∗ owns (c : Thread nD τ) arg15 fullShare xs15
            ∗ owns (c : Thread nD τ) arg16 fullShare xs16
            ∗ owns (c : Thread nD τ) arg17 fullShare xs17
            ∗ owns (c : Thread nD τ) arg18 fullShare xs18
            ∗ owns (c : Thread nD τ) arg19 fullShare xs19
            ∗ owns (c : Thread nD τ) arg20 fullShare xs20
            ∗ owns (c : Thread nD τ) arg21 fullShare xs21
            ∗ owns (c : Thread nD τ) arg22 fullShare xs22
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare xi9
                ∗ owns (c : Thread nD τ) arg10 fullShare xi10
                ∗ owns (c : Thread nD τ) arg11 fullShare xi11
                ∗ owns (c : Thread nD τ) arg12 fullShare xi12
                ∗ owns (c : Thread nD τ) arg13 fullShare xi13
                ∗ owns (c : Thread nD τ) arg14 fullShare xi14
                ∗ (∃ f, arg15.view.loc (c : Thread nD τ) ↦[arg15.view.set]{fullShare} arg15.view.writes (Elt F) f LS15)
                ∗ (∃ f, arg16.view.loc (c : Thread nD τ) ↦[arg16.view.set]{fullShare} arg16.view.writes (Elt F) f LS16)
                ∗ (∃ f, arg17.view.loc (c : Thread nD τ) ↦[arg17.view.set]{fullShare} arg17.view.writes (Elt F) f LS17)
                ∗ (∃ f, arg18.view.loc (c : Thread nD τ) ↦[arg18.view.set]{fullShare} arg18.view.writes (Elt F) f LS18)
                ∗ (arg19.view.loc (c : Thread nD τ) ↦[arg19.view.set]{fullShare} arg19.view.writes (Elt F) (harg19.unread xs19) LS19)
                ∗ (arg20.view.loc (c : Thread nD τ) ↦[arg20.view.set]{fullShare} arg20.view.writes (Elt F) (harg20.unread xs20) LS20)
                ∗ (arg21.view.loc (c : Thread nD τ) ↦[arg21.view.set]{fullShare} arg21.view.writes (Elt F) (harg21.unread xs21) LS21)
                ∗ (arg22.view.loc (c : Thread nD τ) ↦[arg22.view.set]{fullShare} arg22.view.writes (Elt F) (harg22.unread xs22) LS22)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, fun xi9 xi10 xi11 xi12 xi13 xi14 E K => ?run⟩
  case run =>
    simp only [cc1__pass2_kernel_eq_skeleton]; unfold cc1__pass2_kernel_skel
    simp only [k1_part1_eq_skeleton, k1_part2_eq_skeleton, k1_part3_eq_skeleton]
    unfold k1_part1_skel k1_part2_skel k1_part3_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]; · iexists _; iexact H15
    isplitl [H16]; · iexists _; iexact H16
    isplitl [H17]; · iexists _; iexact H17
    isplitl [H18]; · iexists _; iexact H18
    isplitl [H19]; · iexact H19
    isplitl [H20]; · iexact H20
    isplitl [H21]; · iexact H21
    iexact H22

end Cert.Kernel.H1

end
-- ==== Proof.KR1RunA.lean ====
import proofs.«170005_j69870527971928_1_alg».proof.Proof.KR1RunM

set_option maxRecDepth 16384

noncomputable section

namespace Cert.Kernel.H1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The first point of the grid: every accumulator is reset, then updated; no result is stored.
    On whole memrefs — the inputs' at their contents, an output the case does not store into at contents handed back
    untouched, an accumulator the case reads before covering at the contents the point before left — the body runs to
    the continuation holding each buffer it stored into with its stores written, as pieces, last first (a column
    accumulator stored only on its slice: over the contents it was handed). The pieces are what the run finds. -/
noncomputable def kernelRun1_A (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) :
    Σ' (LS15 : List (View.Piece (Elt F) S1024 .f32)) (LS16 : List (View.Piece (Elt F) S1024 .f32)) (LS17 : List (View.Piece (Elt F) S1024 .f32)) (LS18 : List (View.Piece (Elt F) S1024 .f32)) (LS19 : List (View.Piece (Elt F) S8192 .f32)) (LS20 : List (View.Piece (Elt F) S8192 .f32)) (LS21 : List (View.Piece (Elt F) S8192 .f32)), { LS22 : List (View.Piece (Elt F) S8192 .f32) //
      ∀ (xi9 xi10 xi11 : Vec F S1024 .f32) (xi12 xi13 xi14 : Vec F S8192 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare xi9
            ∗ owns (c : Thread nD τ) arg10 fullShare xi10
            ∗ owns (c : Thread nD τ) arg11 fullShare xi11
            ∗ owns (c : Thread nD τ) arg12 fullShare xi12
            ∗ owns (c : Thread nD τ) arg13 fullShare xi13
            ∗ owns (c : Thread nD τ) arg14 fullShare xi14
            ∗ (∃ d, owns (c : Thread nD τ) arg15 fullShare d)
            ∗ (∃ d, owns (c : Thread nD τ) arg16 fullShare d)
            ∗ (∃ d, owns (c : Thread nD τ) arg17 fullShare d)
            ∗ (∃ d, owns (c : Thread nD τ) arg18 fullShare d)
            ∗ (∃ d, owns (c : Thread nD τ) arg19 fullShare d)
            ∗ (∃ d, owns (c : Thread nD τ) arg20 fullShare d)
            ∗ (∃ d, owns (c : Thread nD τ) arg21 fullShare d)
            ∗ (∃ d, owns (c : Thread nD τ) arg22 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare xi9
                ∗ owns (c : Thread nD τ) arg10 fullShare xi10
                ∗ owns (c : Thread nD τ) arg11 fullShare xi11
                ∗ owns (c : Thread nD τ) arg12 fullShare xi12
                ∗ owns (c : Thread nD τ) arg13 fullShare xi13
                ∗ owns (c : Thread nD τ) arg14 fullShare xi14
                ∗ (∃ f, arg15.view.loc (c : Thread nD τ) ↦[arg15.view.set]{fullShare} arg15.view.writes (Elt F) f LS15)
                ∗ (∃ f, arg16.view.loc (c : Thread nD τ) ↦[arg16.view.set]{fullShare} arg16.view.writes (Elt F) f LS16)
                ∗ (∃ f, arg17.view.loc (c : Thread nD τ) ↦[arg17.view.set]{fullShare} arg17.view.writes (Elt F) f LS17)
                ∗ (∃ f, arg18.view.loc (c : Thread nD τ) ↦[arg18.view.set]{fullShare} arg18.view.writes (Elt F) f LS18)
                ∗ (∃ f, arg19.view.loc (c : Thread nD τ) ↦[arg19.view.set]{fullShare} arg19.view.writes (Elt F) f LS19)
                ∗ (∃ f, arg20.view.loc (c : Thread nD τ) ↦[arg20.view.set]{fullShare} arg20.view.writes (Elt F) f LS20)
                ∗ (∃ f, arg21.view.loc (c : Thread nD τ) ↦[arg21.view.set]{fullShare} arg21.view.writes (Elt F) f LS21)
                ∗ (∃ f, arg22.view.loc (c : Thread nD τ) ↦[arg22.view.set]{fullShare} arg22.view.writes (Elt F) f LS22)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, fun xi9 xi10 xi11 xi12 xi13 xi14 E K => ?run⟩
  case run =>
    simp only [cc1__pass2_kernel_eq_skeleton]; unfold cc1__pass2_kernel_skel
    simp only [k1_part1_eq_skeleton, k1_part2_eq_skeleton, k1_part3_eq_skeleton]
    unfold k1_part1_skel k1_part2_skel k1_part3_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iexists _; iexact H22

end Cert.Kernel.H1

end
-- ==== Proof.KR1RunB.lean ====
import proofs.«170005_j69870527971928_1_alg».proof.Proof.KR1RunA

set_option maxRecDepth 16384

noncomputable section

namespace Cert.Kernel.H1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The first column block of a later row block: the row accumulators are reset, then updated; the column accumulators are updated on their slice.
    On whole memrefs — the inputs' at their contents, an output the case does not store into at contents handed back
    untouched, an accumulator the case reads before covering at the contents the point before left — the body runs to
    the continuation holding each buffer it stored into with its stores written, as pieces, last first (a column
    accumulator stored only on its slice: over the contents it was handed). The pieces are what the run finds. -/
noncomputable def kernelRun1_B (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) :
    Σ' (LS15 : List (View.Piece (Elt F) S1024 .f32)) (LS16 : List (View.Piece (Elt F) S1024 .f32)) (LS17 : List (View.Piece (Elt F) S1024 .f32)) (LS18 : List (View.Piece (Elt F) S1024 .f32)) (LS19 : List (View.Piece (Elt F) S8192 .f32)) (LS20 : List (View.Piece (Elt F) S8192 .f32)) (LS21 : List (View.Piece (Elt F) S8192 .f32)), { LS22 : List (View.Piece (Elt F) S8192 .f32) //
      ∀ (xi9 xi10 xi11 : Vec F S1024 .f32) (xi12 xi13 xi14 : Vec F S8192 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare xi9
            ∗ owns (c : Thread nD τ) arg10 fullShare xi10
            ∗ owns (c : Thread nD τ) arg11 fullShare xi11
            ∗ owns (c : Thread nD τ) arg12 fullShare xi12
            ∗ owns (c : Thread nD τ) arg13 fullShare xi13
            ∗ owns (c : Thread nD τ) arg14 fullShare xi14
            ∗ (∃ d, owns (c : Thread nD τ) arg15 fullShare d)
            ∗ (∃ d, owns (c : Thread nD τ) arg16 fullShare d)
            ∗ (∃ d, owns (c : Thread nD τ) arg17 fullShare d)
            ∗ (∃ d, owns (c : Thread nD τ) arg18 fullShare d)
            ∗ owns (c : Thread nD τ) arg19 fullShare xs19
            ∗ owns (c : Thread nD τ) arg20 fullShare xs20
            ∗ owns (c : Thread nD τ) arg21 fullShare xs21
            ∗ owns (c : Thread nD τ) arg22 fullShare xs22
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare xi9
                ∗ owns (c : Thread nD τ) arg10 fullShare xi10
                ∗ owns (c : Thread nD τ) arg11 fullShare xi11
                ∗ owns (c : Thread nD τ) arg12 fullShare xi12
                ∗ owns (c : Thread nD τ) arg13 fullShare xi13
                ∗ owns (c : Thread nD τ) arg14 fullShare xi14
                ∗ (∃ f, arg15.view.loc (c : Thread nD τ) ↦[arg15.view.set]{fullShare} arg15.view.writes (Elt F) f LS15)
                ∗ (∃ f, arg16.view.loc (c : Thread nD τ) ↦[arg16.view.set]{fullShare} arg16.view.writes (Elt F) f LS16)
                ∗ (∃ f, arg17.view.loc (c : Thread nD τ) ↦[arg17.view.set]{fullShare} arg17.view.writes (Elt F) f LS17)
                ∗ (∃ f, arg18.view.loc (c : Thread nD τ) ↦[arg18.view.set]{fullShare} arg18.view.writes (Elt F) f LS18)
                ∗ (arg19.view.loc (c : Thread nD τ) ↦[arg19.view.set]{fullShare} arg19.view.writes (Elt F) (harg19.unread xs19) LS19)
                ∗ (arg20.view.loc (c : Thread nD τ) ↦[arg20.view.set]{fullShare} arg20.view.writes (Elt F) (harg20.unread xs20) LS20)
                ∗ (arg21.view.loc (c : Thread nD τ) ↦[arg21.view.set]{fullShare} arg21.view.writes (Elt F) (harg21.unread xs21) LS21)
                ∗ (arg22.view.loc (c : Thread nD τ) ↦[arg22.view.set]{fullShare} arg22.view.writes (Elt F) (harg22.unread xs22) LS22)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, fun xi9 xi10 xi11 xi12 xi13 xi14 E K => ?run⟩
  case run =>
    simp only [cc1__pass2_kernel_eq_skeleton]; unfold cc1__pass2_kernel_skel
    simp only [k1_part1_eq_skeleton, k1_part2_eq_skeleton, k1_part3_eq_skeleton]
    unfold k1_part1_skel k1_part2_skel k1_part3_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%f19, %hf19, H19⟩, ⟨%f20, %hf20, H20⟩, ⟨%f21, %hf21, H21⟩, ⟨%f22, %hf22, H22⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg19.eq_unread hf19; obtain rfl := harg20.eq_unread hf20; obtain rfl := harg21.eq_unread hf21; obtain rfl := harg22.eq_unread hf22
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]; · iexists _; iexact H15
    isplitl [H16]; · iexists _; iexact H16
    isplitl [H17]; · iexists _; iexact H17
    isplitl [H18]; · iexists _; iexact H18
    isplitl [H19]; · iexact H19
    isplitl [H20]; · iexact H20
    isplitl [H21]; · iexact H21
    iexact H22

end Cert.Kernel.H1

end
-- ==== Proof.KR1RunD.lean ====
import proofs.«170005_j69870527971928_1_alg».proof.Proof.KR1RunB

set_option maxRecDepth 16384

noncomputable section

namespace Cert.Kernel.H1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The last column block of a row block other than the last: after the updates the row results are stored.
    On whole memrefs — the inputs' at their contents, an output the case does not store into at contents handed back
    untouched, an accumulator the case reads before covering at the contents the point before left — the body runs to
    the continuation holding each buffer it stored into with its stores written, as pieces, last first (a column
    accumulator stored only on its slice: over the contents it was handed). The pieces are what the run finds. -/
noncomputable def kernelRun1_D (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    Σ' (L9 : List (View.Piece (Elt F) S1024 .f32)) (L10 : List (View.Piece (Elt F) S1024 .f32)) (L11 : List (View.Piece (Elt F) S1024 .f32)) (LS15 : List (View.Piece (Elt F) S1024 .f32)) (LS16 : List (View.Piece (Elt F) S1024 .f32)) (LS17 : List (View.Piece (Elt F) S1024 .f32)) (LS18 : List (View.Piece (Elt F) S1024 .f32)) (LS19 : List (View.Piece (Elt F) S8192 .f32)) (LS20 : List (View.Piece (Elt F) S8192 .f32)) (LS21 : List (View.Piece (Elt F) S8192 .f32)), { LS22 : List (View.Piece (Elt F) S8192 .f32) //
      ∀ (xi12 xi13 xi14 : Vec F S8192 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ (∃ d, owns (c : Thread nD τ) arg9 fullShare d)
            ∗ (∃ d, owns (c : Thread nD τ) arg10 fullShare d)
            ∗ (∃ d, owns (c : Thread nD τ) arg11 fullShare d)
            ∗ owns (c : Thread nD τ) arg12 fullShare xi12
            ∗ owns (c : Thread nD τ) arg13 fullShare xi13
            ∗ owns (c : Thread nD τ) arg14 fullShare xi14
            ∗ owns (c : Thread nD τ) arg15 fullShare xs15
            ∗ owns (c : Thread nD τ) arg16 fullShare xs16
            ∗ owns (c : Thread nD τ) arg17 fullShare xs17
            ∗ owns (c : Thread nD τ) arg18 fullShare xs18
            ∗ owns (c : Thread nD τ) arg19 fullShare xs19
            ∗ owns (c : Thread nD τ) arg20 fullShare xs20
            ∗ owns (c : Thread nD τ) arg21 fullShare xs21
            ∗ owns (c : Thread nD τ) arg22 fullShare xs22
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)
                ∗ (∃ f, arg11.view.loc (c : Thread nD τ) ↦[arg11.view.set]{fullShare} arg11.view.writes (Elt F) f L11)
                ∗ owns (c : Thread nD τ) arg12 fullShare xi12
                ∗ owns (c : Thread nD τ) arg13 fullShare xi13
                ∗ owns (c : Thread nD τ) arg14 fullShare xi14
                ∗ (∃ f, arg15.view.loc (c : Thread nD τ) ↦[arg15.view.set]{fullShare} arg15.view.writes (Elt F) f LS15)
                ∗ (∃ f, arg16.view.loc (c : Thread nD τ) ↦[arg16.view.set]{fullShare} arg16.view.writes (Elt F) f LS16)
                ∗ (∃ f, arg17.view.loc (c : Thread nD τ) ↦[arg17.view.set]{fullShare} arg17.view.writes (Elt F) f LS17)
                ∗ (∃ f, arg18.view.loc (c : Thread nD τ) ↦[arg18.view.set]{fullShare} arg18.view.writes (Elt F) f LS18)
                ∗ (arg19.view.loc (c : Thread nD τ) ↦[arg19.view.set]{fullShare} arg19.view.writes (Elt F) (harg19.unread xs19) LS19)
                ∗ (arg20.view.loc (c : Thread nD τ) ↦[arg20.view.set]{fullShare} arg20.view.writes (Elt F) (harg20.unread xs20) LS20)
                ∗ (arg21.view.loc (c : Thread nD τ) ↦[arg21.view.set]{fullShare} arg21.view.writes (Elt F) (harg21.unread xs21) LS21)
                ∗ (arg22.view.loc (c : Thread nD τ) ↦[arg22.view.set]{fullShare} arg22.view.writes (Elt F) (harg22.unread xs22) LS22)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, ?_, ?_, fun xi12 xi13 xi14 E K => ?run⟩
  case run =>
    simp only [cc1__pass2_kernel_eq_skeleton]; unfold cc1__pass2_kernel_skel
    simp only [k1_part1_eq_skeleton, k1_part2_eq_skeleton, k1_part3_eq_skeleton]
    unfold k1_part1_skel k1_part2_skel k1_part3_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]; · iexists _; iexact H15
    isplitl [H16]; · iexists _; iexact H16
    isplitl [H17]; · iexists _; iexact H17
    isplitl [H18]; · iexists _; iexact H18
    isplitl [H19]; · iexact H19
    isplitl [H20]; · iexact H20
    isplitl [H21]; · iexact H21
    iexact H22

end Cert.Kernel.H1

end
-- ==== Proof.KR1RunE.lean ====
import proofs.«170005_j69870527971928_1_alg».proof.Proof.KR1RunD

set_option maxRecDepth 16384

noncomputable section

namespace Cert.Kernel.H1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The last point of the grid: after the updates the row results and the column results are stored.
    On whole memrefs — the inputs' at their contents, an output the case does not store into at contents handed back
    untouched, an accumulator the case reads before covering at the contents the point before left — the body runs to
    the continuation holding each buffer it stored into with its stores written, as pieces, last first (a column
    accumulator stored only on its slice: over the contents it was handed). The pieces are what the run finds. -/
noncomputable def kernelRun1_E (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    Σ' (L9 : List (View.Piece (Elt F) S1024 .f32)) (L10 : List (View.Piece (Elt F) S1024 .f32)) (L11 : List (View.Piece (Elt F) S1024 .f32)) (L12 : List (View.Piece (Elt F) S8192 .f32)) (L13 : List (View.Piece (Elt F) S8192 .f32)) (L14 : List (View.Piece (Elt F) S8192 .f32)) (LS15 : List (View.Piece (Elt F) S1024 .f32)) (LS16 : List (View.Piece (Elt F) S1024 .f32)) (LS17 : List (View.Piece (Elt F) S1024 .f32)) (LS18 : List (View.Piece (Elt F) S1024 .f32)) (LS19 : List (View.Piece (Elt F) S8192 .f32)) (LS20 : List (View.Piece (Elt F) S8192 .f32)) (LS21 : List (View.Piece (Elt F) S8192 .f32)), { LS22 : List (View.Piece (Elt F) S8192 .f32) //
      ∀  (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)
            ∗ (∃ d, owns (c : Thread nD τ) arg14 fullShare d)
            ∗ owns (c : Thread nD τ) arg15 fullShare xs15
            ∗ owns (c : Thread nD τ) arg16 fullShare xs16
            ∗ owns (c : Thread nD τ) arg17 fullShare xs17
            ∗ owns (c : Thread nD τ) arg18 fullShare xs18
            ∗ owns (c : Thread nD τ) arg19 fullShare xs19
            ∗ owns (c : Thread nD τ) arg20 fullShare xs20
            ∗ owns (c : Thread nD τ) arg21 fullShare xs21
            ∗ owns (c : Thread nD τ) arg22 fullShare xs22
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)
                ∗ (∃ f, arg11.view.loc (c : Thread nD τ) ↦[arg11.view.set]{fullShare} arg11.view.writes (Elt F) f L11)
                ∗ (∃ f, arg12.view.loc (c : Thread nD τ) ↦[arg12.view.set]{fullShare} arg12.view.writes (Elt F) f L12)
                ∗ (∃ f, arg13.view.loc (c : Thread nD τ) ↦[arg13.view.set]{fullShare} arg13.view.writes (Elt F) f L13)
                ∗ (∃ f, arg14.view.loc (c : Thread nD τ) ↦[arg14.view.set]{fullShare} arg14.view.writes (Elt F) f L14)
                ∗ (∃ f, arg15.view.loc (c : Thread nD τ) ↦[arg15.view.set]{fullShare} arg15.view.writes (Elt F) f LS15)
                ∗ (∃ f, arg16.view.loc (c : Thread nD τ) ↦[arg16.view.set]{fullShare} arg16.view.writes (Elt F) f LS16)
                ∗ (∃ f, arg17.view.loc (c : Thread nD τ) ↦[arg17.view.set]{fullShare} arg17.view.writes (Elt F) f LS17)
                ∗ (∃ f, arg18.view.loc (c : Thread nD τ) ↦[arg18.view.set]{fullShare} arg18.view.writes (Elt F) f LS18)
                ∗ (arg19.view.loc (c : Thread nD τ) ↦[arg19.view.set]{fullShare} arg19.view.writes (Elt F) (harg19.unread xs19) LS19)
                ∗ (arg20.view.loc (c : Thread nD τ) ↦[arg20.view.set]{fullShare} arg20.view.writes (Elt F) (harg20.unread xs20) LS20)
                ∗ (arg21.view.loc (c : Thread nD τ) ↦[arg21.view.set]{fullShare} arg21.view.writes (Elt F) (harg21.unread xs21) LS21)
                ∗ (arg22.view.loc (c : Thread nD τ) ↦[arg22.view.set]{fullShare} arg22.view.writes (Elt F) (harg22.unread xs22) LS22)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, ?_, ?_, ?_, ?_, ?_, fun E K => ?run⟩
  case run =>
    simp only [cc1__pass2_kernel_eq_skeleton]; unfold cc1__pass2_kernel_skel
    simp only [k1_part1_eq_skeleton, k1_part2_eq_skeleton, k1_part3_eq_skeleton]
    unfold k1_part1_skel k1_part2_skel k1_part3_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexact H19
    isplitl [H20]; · iexact H20
    isplitl [H21]; · iexact H21
    iexact H22

end Cert.Kernel.H1

end
-- ==== Proof.KR1Outs.lean ====
import proofs.«170005_j69870527971928_1_alg».proof.Proof.KR1RunE

set_option maxRecDepth 16384

noncomputable section

namespace Cert.Kernel.H1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the six outputs' staging buffers and the eight accumulators hold after the body at a point: the outputs in
    window order, then the accumulators (`s0`–`s3` the row accumulators, `s4`–`s7` the column accumulators). An
    output's component is consulted only at the points that store into it. -/
structure Outs (F : FTy → Type) where
  o7 : Vec F S1024 .f32
  o8 : Vec F S1024 .f32
  o9 : Vec F S1024 .f32
  o10 : Vec F S8192 .f32
  o11 : Vec F S8192 .f32
  o12 : Vec F S8192 .f32
  s0 : Vec F S1024 .f32
  s1 : Vec F S1024 .f32
  s2 : Vec F S1024 .f32
  s3 : Vec F S1024 .f32
  s4 : Vec F S8192 .f32
  s5 : Vec F S8192 .f32
  s6 : Vec F S8192 .f32
  s7 : Vec F S8192 .f32

/-- Contents nothing consults. -/
def jk1 (S : Shape) : Vec F S .f32 := View.canon ([] : List (View.Piece (Elt F) S .f32))

/-- What this case leaves: a buffer whose stores cover it at what they leave (last store first), an output it does not
    store into at a placeholder nothing consults, a column accumulator stored only on its slice at what it held with
    the slice replaced. -/
def outs1_A (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) : Outs F where
  o7 := jk1 _
  o8 := jk1 _
  o9 := jk1 _
  o10 := jk1 _
  o11 := jk1 _
  o12 := jk1 _
  s0 := View.canon (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).1
  s1 := View.canon (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).2.1
  s2 := View.canon (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).2.2.1
  s3 := View.canon (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).2.2.2.1
  s4 := View.canon (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).2.2.2.2.1
  s5 := View.canon (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).2.2.2.2.2.1
  s6 := View.canon (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).2.2.2.2.2.2.1
  s7 := View.canon (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).2.2.2.2.2.2.2.1

/-- What this case leaves: a buffer whose stores cover it at what they leave (last store first), an output it does not
    store into at a placeholder nothing consults, a column accumulator stored only on its slice at what it held with
    the slice replaced. -/
def outs1_B (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) : Outs F where
  o7 := jk1 _
  o8 := jk1 _
  o9 := jk1 _
  o10 := jk1 _
  o11 := jk1 _
  o12 := jk1 _
  s0 := View.canon (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).1
  s1 := View.canon (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).2.1
  s2 := View.canon (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).2.2.1
  s3 := View.canon (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).2.2.2.1
  s4 := arg19.view.read (Elt F) (arg19.view.writes (Elt F) (harg19.unread xs19) (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).2.2.2.2.1)
  s5 := arg20.view.read (Elt F) (arg20.view.writes (Elt F) (harg20.unread xs20) (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).2.2.2.2.2.1)
  s6 := arg21.view.read (Elt F) (arg21.view.writes (Elt F) (harg21.unread xs21) (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).2.2.2.2.2.2.1)
  s7 := arg22.view.read (Elt F) (arg22.view.writes (Elt F) (harg22.unread xs22) (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).2.2.2.2.2.2.2.1)

/-- What this case leaves: a buffer whose stores cover it at what they leave (last store first), an output it does not
    store into at a placeholder nothing consults, a column accumulator stored only on its slice at what it held with
    the slice replaced. -/
def outs1_M (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) : Outs F where
  o7 := jk1 _
  o8 := jk1 _
  o9 := jk1 _
  o10 := jk1 _
  o11 := jk1 _
  o12 := jk1 _
  s0 := View.canon (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).1
  s1 := View.canon (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.1
  s2 := View.canon (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.1
  s3 := View.canon (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.1
  s4 := arg19.view.read (Elt F) (arg19.view.writes (Elt F) (harg19.unread xs19) (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.1)
  s5 := arg20.view.read (Elt F) (arg20.view.writes (Elt F) (harg20.unread xs20) (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.1)
  s6 := arg21.view.read (Elt F) (arg21.view.writes (Elt F) (harg21.unread xs21) (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.1)
  s7 := arg22.view.read (Elt F) (arg22.view.writes (Elt F) (harg22.unread xs22) (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.1)

/-- What this case leaves: a buffer whose stores cover it at what they leave (last store first), an output it does not
    store into at a placeholder nothing consults, a column accumulator stored only on its slice at what it held with
    the slice replaced. -/
def outs1_D (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) : Outs F where
  o7 := View.canon (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).1
  o8 := View.canon (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.1
  o9 := View.canon (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.1
  o10 := jk1 _
  o11 := jk1 _
  o12 := jk1 _
  s0 := View.canon (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.1
  s1 := View.canon (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.1
  s2 := View.canon (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.1
  s3 := View.canon (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.1
  s4 := arg19.view.read (Elt F) (arg19.view.writes (Elt F) (harg19.unread xs19) (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.1)
  s5 := arg20.view.read (Elt F) (arg20.view.writes (Elt F) (harg20.unread xs20) (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.1)
  s6 := arg21.view.read (Elt F) (arg21.view.writes (Elt F) (harg21.unread xs21) (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.2.1)
  s7 := arg22.view.read (Elt F) (arg22.view.writes (Elt F) (harg22.unread xs22) (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.2.2.1)

/-- What this case leaves: a buffer whose stores cover it at what they leave (last store first), an output it does not
    store into at a placeholder nothing consults, a column accumulator stored only on its slice at what it held with
    the slice replaced. -/
def outs1_E (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) : Outs F where
  o7 := View.canon (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).1
  o8 := View.canon (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.1
  o9 := View.canon (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.1
  o10 := View.canon (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.1
  o11 := View.canon (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.1
  o12 := View.canon (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.1
  s0 := View.canon (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.1
  s1 := View.canon (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.1
  s2 := View.canon (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.1
  s3 := View.canon (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.2.1
  s4 := arg19.view.read (Elt F) (arg19.view.writes (Elt F) (harg19.unread xs19) (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.2.2.1)
  s5 := arg20.view.read (Elt F) (arg20.view.writes (Elt F) (harg20.unread xs20) (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.2.2.2.1)
  s6 := arg21.view.read (Elt F) (arg21.view.writes (Elt F) (harg21.unread xs21) (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.2.2.2.2.1)
  s7 := arg22.view.read (Elt F) (arg22.view.writes (Elt F) (harg22.unread xs22) (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.2.2.2.2.2.1)

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the outputs and the accumulators hold after each point -/

/-- THE ACCUMULATION: what the outputs' staging buffers and the accumulators hold after the body at position `n` — the case
    the closed forms select at `n`, run at the point's memrefs and input blocks, an accumulator the case reads before
    covering at what this leaves at `n - 1`. -/
def outsAt1 (c : Dev nD) : (n : ℕ) → n < cfg1.N → Outs F
  | 0, hn => outs1_A c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) (ms10 ⟨0, hn⟩) (hs10 ⟨0, hn⟩) (ms11 ⟨0, hn⟩) (hs11 ⟨0, hn⟩) (ms12 ⟨0, hn⟩) (hs12 ⟨0, hn⟩) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) ((hcond1 ⟨0, hn⟩).mpr rfl) ((hcond2 ⟨0, hn⟩).mpr (Nat.zero_mod _)) (fun h => (fun h' => by (try dsimp only at h'); omega) ((hcond3 ⟨0, hn⟩).mp h)) (fun h => (fun h' => by (try dsimp only at h'); omega) ((hcond4 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩)
  | n + 1, hn =>
    if h2 : (n + 1) % 16 = 0 then
      outs1_B c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) (fun h => Nat.succ_ne_zero n ((hcond1 ⟨n + 1, hn⟩).mp h)) ((hcond2 ⟨n + 1, hn⟩).mpr h2) (fun h => (fun h' => by (try dsimp only at h'); omega) ((hcond3 ⟨n + 1, hn⟩).mp h)) (fun h => (fun h' => by (try dsimp only at h'); omega) ((hcond4 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).s4 (outsAt1 c n (Nat.lt_of_succ_lt hn)).s5 (outsAt1 c n (Nat.lt_of_succ_lt hn)).s6 (outsAt1 c n (Nat.lt_of_succ_lt hn)).s7
    else if h3 : (n + 1) % 16 = 15 then
      if h4 : n + 1 = 127 then
        outs1_E c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) (fun h => Nat.succ_ne_zero n ((hcond1 ⟨n + 1, hn⟩).mp h)) (fun h => h2 ((hcond2 ⟨n + 1, hn⟩).mp h)) ((hcond3 ⟨n + 1, hn⟩).mpr h3) ((hcond4 ⟨n + 1, hn⟩).mpr h4) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).s0 (outsAt1 c n (Nat.lt_of_succ_lt hn)).s1 (outsAt1 c n (Nat.lt_of_succ_lt hn)).s2 (outsAt1 c n (Nat.lt_of_succ_lt hn)).s3 (outsAt1 c n (Nat.lt_of_succ_lt hn)).s4 (outsAt1 c n (Nat.lt_of_succ_lt hn)).s5 (outsAt1 c n (Nat.lt_of_succ_lt hn)).s6 (outsAt1 c n (Nat.lt_of_succ_lt hn)).s7
      else
        outs1_D c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) (fun h => Nat.succ_ne_zero n ((hcond1 ⟨n + 1, hn⟩).mp h)) (fun h => h2 ((hcond2 ⟨n + 1, hn⟩).mp h)) ((hcond3 ⟨n + 1, hn⟩).mpr h3) (fun h => h4 ((hcond4 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).s0 (outsAt1 c n (Nat.lt_of_succ_lt hn)).s1 (outsAt1 c n (Nat.lt_of_succ_lt hn)).s2 (outsAt1 c n (Nat.lt_of_succ_lt hn)).s3 (outsAt1 c n (Nat.lt_of_succ_lt hn)).s4 (outsAt1 c n (Nat.lt_of_succ_lt hn)).s5 (outsAt1 c n (Nat.lt_of_succ_lt hn)).s6 (outsAt1 c n (Nat.lt_of_succ_lt hn)).s7
    else
      outs1_M c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) (fun h => Nat.succ_ne_zero n ((hcond1 ⟨n + 1, hn⟩).mp h)) (fun h => h2 ((hcond2 ⟨n + 1, hn⟩).mp h)) (fun h => h3 ((hcond3 ⟨n + 1, hn⟩).mp h)) (fun h => (fun h' => by (try dsimp only at h'); omega) ((hcond4 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).s0 (outsAt1 c n (Nat.lt_of_succ_lt hn)).s1 (outsAt1 c n (Nat.lt_of_succ_lt hn)).s2 (outsAt1 c n (Nat.lt_of_succ_lt hn)).s3 (outsAt1 c n (Nat.lt_of_succ_lt hn)).s4 (outsAt1 c n (Nat.lt_of_succ_lt hn)).s5 (outsAt1 c n (Nat.lt_of_succ_lt hn)).s6 (outsAt1 c n (Nat.lt_of_succ_lt hn)).s7

/-- `outsAt1` at the first point. -/
theorem outsAt1_A (c : Dev nD) (t : Fin cfg1.N) (hz : t.val = 0) (hc1 : cond1 (grid1.coords t)) (hc2 : cond2 (grid1.coords t)) (hc3 : ¬cond3 (grid1.coords t)) (hc4 : ¬cond4 (grid1.coords t)) :
    outsAt1 V c t.val t.isLt = outs1_A c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 V c 0 t) (iblk1 V c 1 t) (iblk1 V c 2 t) (iblk1 V c 3 t) (iblk1 V c 4 t) (iblk1 V c 5 t) (iblk1 V c 6 t) := by
  obtain ⟨n, hn⟩ := t
  cases n with
  | zero => exact rfl
  | succ n => exact absurd hz (Nat.succ_ne_zero n)

/-- `outsAt1` at the first column block of a later row block, over what the point before left. -/
theorem outsAt1_B (c : Dev nD) (t : Fin cfg1.N) (hz : t.val ≠ 0) (h2 : t.val % 16 = 0) (hc1 : ¬cond1 (grid1.coords t)) (hc2 : cond2 (grid1.coords t)) (hc3 : ¬cond3 (grid1.coords t)) (hc4 : ¬cond4 (grid1.coords t)) :
    outsAt1 V c t.val t.isLt = outs1_B c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).s4 (outsAt1 V c (t.val - 1) (Nat.lt_of_le_of_lt (Nat.sub_le _ _) t.isLt)).s5 (outsAt1 V c (t.val - 1) (Nat.lt_of_le_of_lt (Nat.sub_le _ _) t.isLt)).s6 (outsAt1 V c (t.val - 1) (Nat.lt_of_le_of_lt (Nat.sub_le _ _) t.isLt)).s7 := by
  obtain ⟨n, hn⟩ := t
  cases n with
  | zero => exact absurd rfl hz
  | succ n => exact (dif_pos h2).trans rfl

/-- `outsAt1` at a point in the middle of a row block, over what the point before left. -/
theorem outsAt1_M (c : Dev nD) (t : Fin cfg1.N) (h2 : ¬t.val % 16 = 0) (h3 : ¬t.val % 16 = 15) (hc1 : ¬cond1 (grid1.coords t)) (hc2 : ¬cond2 (grid1.coords t)) (hc3 : ¬cond3 (grid1.coords t)) (hc4 : ¬cond4 (grid1.coords t)) :
    outsAt1 V c t.val t.isLt = outs1_M c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).s0 (outsAt1 V c (t.val - 1) (Nat.lt_of_le_of_lt (Nat.sub_le _ _) t.isLt)).s1 (outsAt1 V c (t.val - 1) (Nat.lt_of_le_of_lt (Nat.sub_le _ _) t.isLt)).s2 (outsAt1 V c (t.val - 1) (Nat.lt_of_le_of_lt (Nat.sub_le _ _) t.isLt)).s3 (outsAt1 V c (t.val - 1) (Nat.lt_of_le_of_lt (Nat.sub_le _ _) t.isLt)).s4 (outsAt1 V c (t.val - 1) (Nat.lt_of_le_of_lt (Nat.sub_le _ _) t.isLt)).s5 (outsAt1 V c (t.val - 1) (Nat.lt_of_le_of_lt (Nat.sub_le _ _) t.isLt)).s6 (outsAt1 V c (t.val - 1) (Nat.lt_of_le_of_lt (Nat.sub_le _ _) t.isLt)).s7 := by
  obtain ⟨n, hn⟩ := t
  cases n with
  | zero => exact absurd (Nat.zero_mod _) h2
  | succ n => exact (dif_neg h2).trans ((dif_neg h3).trans rfl)

/-- `outsAt1` at the last column block of a row block other than the last, over what the point before left. -/
theorem outsAt1_D (c : Dev nD) (t : Fin cfg1.N) (h2 : ¬t.val % 16 = 0) (h3 : t.val % 16 = 15) (h4 : ¬t.val = 127) (hc1 : ¬cond1 (grid1.coords t)) (hc2 : ¬cond2 (grid1.coords t)) (hc3 : cond3 (grid1.coords t)) (hc4 : ¬cond4 (grid1.coords t)) :
    outsAt1 V c t.val t.isLt = outs1_D c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).s0 (outsAt1 V c (t.val - 1) (Nat.lt_of_le_of_lt (Nat.sub_le _ _) t.isLt)).s1 (outsAt1 V c (t.val - 1) (Nat.lt_of_le_of_lt (Nat.sub_le _ _) t.isLt)).s2 (outsAt1 V c (t.val - 1) (Nat.lt_of_le_of_lt (Nat.sub_le _ _) t.isLt)).s3 (outsAt1 V c (t.val - 1) (Nat.lt_of_le_of_lt (Nat.sub_le _ _) t.isLt)).s4 (outsAt1 V c (t.val - 1) (Nat.lt_of_le_of_lt (Nat.sub_le _ _) t.isLt)).s5 (outsAt1 V c (t.val - 1) (Nat.lt_of_le_of_lt (Nat.sub_le _ _) t.isLt)).s6 (outsAt1 V c (t.val - 1) (Nat.lt_of_le_of_lt (Nat.sub_le _ _) t.isLt)).s7 := by
  obtain ⟨n, hn⟩ := t
  cases n with
  | zero => exact absurd (Nat.zero_mod _) h2
  | succ n => exact (dif_neg h2).trans ((dif_pos h3).trans ((dif_neg h4).trans rfl))

/-- `outsAt1` at the last point of the grid, over what the point before left. -/
theorem outsAt1_E (c : Dev nD) (t : Fin cfg1.N) (h2 : ¬t.val % 16 = 0) (h3 : t.val % 16 = 15) (h4 : t.val = 127) (hc1 : ¬cond1 (grid1.coords t)) (hc2 : ¬cond2 (grid1.coords t)) (hc3 : cond3 (grid1.coords t)) (hc4 : cond4 (grid1.coords t)) :
    outsAt1 V c t.val t.isLt = outs1_E c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).s0 (outsAt1 V c (t.val - 1) (Nat.lt_of_le_of_lt (Nat.sub_le _ _) t.isLt)).s1 (outsAt1 V c (t.val - 1) (Nat.lt_of_le_of_lt (Nat.sub_le _ _) t.isLt)).s2 (outsAt1 V c (t.val - 1) (Nat.lt_of_le_of_lt (Nat.sub_le _ _) t.isLt)).s3 (outsAt1 V c (t.val - 1) (Nat.lt_of_le_of_lt (Nat.sub_le _ _) t.isLt)).s4 (outsAt1 V c (t.val - 1) (Nat.lt_of_le_of_lt (Nat.sub_le _ _) t.isLt)).s5 (outsAt1 V c (t.val - 1) (Nat.lt_of_le_of_lt (Nat.sub_le _ _) t.isLt)).s6 (outsAt1 V c (t.val - 1) (Nat.lt_of_le_of_lt (Nat.sub_le _ _) t.isLt)).s7 := by
  obtain ⟨n, hn⟩ := t
  cases n with
  | zero => exact absurd (Nat.zero_mod _) h2
  | succ n => exact (dif_neg h2).trans ((dif_pos h3).trans ((dif_pos h4).trans rfl))

end Cert.Kernel.H1

end
-- ==== Proof.KR1Dat.lean ====
import proofs.«170005_j69870527971928_1_alg».proof.Proof.KR1Outs

set_option maxRecDepth 16384

noncomputable section

namespace Cert.Kernel.H1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The region invariant -/

/-- What the launch hands the region, with the eight accumulators as memrefs owned at some contents (the other sixteen
    scoped buffers, the first pass's, stay as whole buffers at some contents). -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)) ∗ (∃ r, prngReg c r)) := by
  unfold Pipeline.ΦA; rw [scopedRest1_eq]; simp only [owns_whole]; try rfl

/-- The region invariant before position `n`: before the first point what the launch hands over (every scoped buffer at
    some contents); afterwards the first pass's buffers at some contents, each accumulator at what the point before left in
    it, and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ owns (c : Thread nD τ) scM0 fullShare ((outsAt1 V c n hn).s0) ∗ owns (c : Thread nD τ) scM1 fullShare ((outsAt1 V c n hn).s1) ∗ owns (c : Thread nD τ) scM2 fullShare ((outsAt1 V c n hn).s2) ∗ owns (c : Thread nD τ) scM3 fullShare ((outsAt1 V c n hn).s3) ∗ owns (c : Thread nD τ) scM4 fullShare ((outsAt1 V c n hn).s4) ∗ owns (c : Thread nD τ) scM5 fullShare ((outsAt1 V c n hn).s5) ∗ owns (c : Thread nD τ) scM6 fullShare ((outsAt1 V c n hn).s6) ∗ owns (c : Thread nD τ) scM7 fullShare ((outsAt1 V c n hn).s7)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ owns (c : Thread nD τ) scM0 fullShare ((outsAt1 V c n hn).s0) ∗ owns (c : Thread nD τ) scM1 fullShare ((outsAt1 V c n hn).s1) ∗ owns (c : Thread nD τ) scM2 fullShare ((outsAt1 V c n hn).s2) ∗ owns (c : Thread nD τ) scM3 fullShare ((outsAt1 V c n hn).s3) ∗ owns (c : Thread nD τ) scM4 fullShare ((outsAt1 V c n hn).s4) ∗ owns (c : Thread nD τ) scM5 fullShare ((outsAt1 V c n hn).s5) ∗ owns (c : Thread nD τ) scM6 fullShare ((outsAt1 V c n hn).s6) ∗ owns (c : Thread nD τ) scM7 fullShare ((outsAt1 V c n hn).s7)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ owns (c : Thread nD τ) scM0 fullShare ((outsAt1 V c (n - 1) (by omega)).s0) ∗ owns (c : Thread nD τ) scM1 fullShare ((outsAt1 V c (n - 1) (by omega)).s1) ∗ owns (c : Thread nD τ) scM2 fullShare ((outsAt1 V c (n - 1) (by omega)).s2) ∗ owns (c : Thread nD τ) scM3 fullShare ((outsAt1 V c (n - 1) (by omega)).s3) ∗ owns (c : Thread nD τ) scM4 fullShare ((outsAt1 V c (n - 1) (by omega)).s4) ∗ owns (c : Thread nD τ) scM5 fullShare ((outsAt1 V c (n - 1) (by omega)).s5) ∗ owns (c : Thread nD τ) scM6 fullShare ((outsAt1 V c (n - 1) (by omega)).s6) ∗ owns (c : Thread nD τ) scM7 fullShare ((outsAt1 V c (n - 1) (by omega)).s7)) ∗ (∃ r, prngReg c r)) := by
  cases n with
  | zero => exact absurd rfl hz
  | succ n => rfl

/-! ## The pipeline's proof data -/

/-- The proof data of the second pass on core `c`: the arrays as the region finds them (`V`); after the body at point
    `t` each input's buffer at its block and each output's at `outsAt1`'s component; the invariant `PhiS1`; nothing owed;
    the array two windows read at half shares, the others at full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).o7
    | ⟨8, _⟩ => (outsAt1 V c t.val t.isLt).o8
    | ⟨9, _⟩ => (outsAt1 V c t.val t.isLt).o9
    | ⟨10, _⟩ => (outsAt1 V c t.val t.isLt).o10
    | ⟨11, _⟩ => (outsAt1 V c t.val t.isLt).o11
    | ⟨12, _⟩ => (outsAt1 V c t.val t.isLt).o12
  Φ t := PhiS1 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
  owed _ := 0

theorem A_eq1 (c : Dev nD) (w : Fin cfg1.W) : (dat1 V c).A w = V c (Pipeline.arrRef spec1 w) := by
  dsimp only [dat1]

theorem q1_1 (c : Dev nD) : (dat1 V c).q 1 = fullShare.left := by dsimp only [dat1]
theorem q1_2 (c : Dev nD) : (dat1 V c).q 2 = fullShare.right := by dsimp only [dat1]
theorem q1_of (c : Dev nD) (w : Fin cfg1.W) (h1 : w ≠ 1) (h2 : w ≠ 2) : (dat1 V c).q w = fullShare := by
  fin_cases w <;> first | exact absurd rfl h1 | exact absurd rfl h2 | (dsimp only [dat1])
theorem recorded1 (c : Dev nD) (t : Fin (cfg1.N + 1)) : (dat1 V c).recorded t = Set.univ := rfl
theorem owed1 (c : Dev nD) (t : Fin (cfg1.N + 1)) : (dat1 V c).owed t = 0 := by dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).o7 := by dsimp only [dat1]
theorem after1_8 (c : Dev nD) (t : Fin cfg1.N) : (dat1 V c).after 8 t = (outsAt1 V c t.val t.isLt).o8 := by dsimp only [dat1]
theorem after1_9 (c : Dev nD) (t : Fin cfg1.N) : (dat1 V c).after 9 t = (outsAt1 V c t.val t.isLt).o9 := by dsimp only [dat1]
theorem after1_10 (c : Dev nD) (t : Fin cfg1.N) : (dat1 V c).after 10 t = (outsAt1 V c t.val t.isLt).o10 := by dsimp only [dat1]
theorem after1_11 (c : Dev nD) (t : Fin cfg1.N) : (dat1 V c).after 11 t = (outsAt1 V c t.val t.isLt).o11 := by dsimp only [dat1]
theorem after1_12 (c : Dev nD) (t : Fin cfg1.N) : (dat1 V c).after 12 t = (outsAt1 V c t.val t.isLt).o12 := by dsimp only [dat1]

/-- Each input's current staging buffer holds its block at every point, fetched there or not (unfetched, the block index
    has not moved). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the accumulators' named contents
    are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨R0, R1, R2, R3, R4, R5, R6, R7, R8, R9, R10, R11, R12, R13, R14, R15, HS0, HS1, HS2, HS3, HS4, HS5, HS6, HS7⟩, Hg⟩
  isplitl [R0 R1 R2 R3 R4 R5 R6 R7 R8 R9 R10 R11 R12 R13 R14 R15 HS0 HS1 HS2 HS3 HS4 HS5 HS6 HS7]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexists _; iexact HS7
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.Kernel.H1

end
-- ==== Proof.KR1Body.lean ====
import proofs.«170005_j69870527971928_1_alg».proof.Proof.KR1Dat

set_option maxRecDepth 16384

noncomputable section

namespace Cert.Kernel.H1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a buffer reads back after a situation's stores -/

theorem leaf1_A_15 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (f : arg15.view.ty.Contents (Elt F)) :
    arg15.view.read (Elt F) (arg15.view.writes (Elt F) f (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).1) = (outs1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).s0 := by
  unfold outs1_A kernelRun1_A
  dsimp only
  exact View.read_writes_eq_canon _ _ _ (View.cover_of_wholeMem _ (by sl_whole_mem))

theorem leaf1_A_16 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (f : arg16.view.ty.Contents (Elt F)) :
    arg16.view.read (Elt F) (arg16.view.writes (Elt F) f (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).2.1) = (outs1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).s1 := by
  unfold outs1_A kernelRun1_A
  dsimp only
  exact View.read_writes_eq_canon _ _ _ (View.cover_of_wholeMem _ (by sl_whole_mem))

theorem leaf1_A_17 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (f : arg17.view.ty.Contents (Elt F)) :
    arg17.view.read (Elt F) (arg17.view.writes (Elt F) f (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).2.2.1) = (outs1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).s2 := by
  unfold outs1_A kernelRun1_A
  dsimp only
  exact View.read_writes_eq_canon _ _ _ (View.cover_of_wholeMem _ (by sl_whole_mem))

theorem leaf1_A_18 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (f : arg18.view.ty.Contents (Elt F)) :
    arg18.view.read (Elt F) (arg18.view.writes (Elt F) f (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).2.2.2.1) = (outs1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).s3 := by
  unfold outs1_A kernelRun1_A
  dsimp only
  exact View.read_writes_eq_canon _ _ _ (View.cover_of_wholeMem _ (by sl_whole_mem))

theorem leaf1_A_19 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (f : arg19.view.ty.Contents (Elt F)) :
    arg19.view.read (Elt F) (arg19.view.writes (Elt F) f (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).2.2.2.2.1) = (outs1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).s4 := by
  unfold outs1_A kernelRun1_A
  dsimp only
  exact View.read_writes_eq_canon _ _ _ (View.cover_of_wholeMem _ (by sl_whole_mem))

theorem leaf1_A_20 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (f : arg20.view.ty.Contents (Elt F)) :
    arg20.view.read (Elt F) (arg20.view.writes (Elt F) f (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).2.2.2.2.2.1) = (outs1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).s5 := by
  unfold outs1_A kernelRun1_A
  dsimp only
  exact View.read_writes_eq_canon _ _ _ (View.cover_of_wholeMem _ (by sl_whole_mem))

theorem leaf1_A_21 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (f : arg21.view.ty.Contents (Elt F)) :
    arg21.view.read (Elt F) (arg21.view.writes (Elt F) f (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).2.2.2.2.2.2.1) = (outs1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).s6 := by
  unfold outs1_A kernelRun1_A
  dsimp only
  exact View.read_writes_eq_canon _ _ _ (View.cover_of_wholeMem _ (by sl_whole_mem))

theorem leaf1_A_22 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (f : arg22.view.ty.Contents (Elt F)) :
    arg22.view.read (Elt F) (arg22.view.writes (Elt F) f (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).2.2.2.2.2.2.2.1) = (outs1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).s7 := by
  unfold outs1_A kernelRun1_A
  dsimp only
  exact View.read_writes_eq_canon _ _ _ (View.cover_of_wholeMem _ (by sl_whole_mem))

theorem leaf1_B_15 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) (f : arg15.view.ty.Contents (Elt F)) :
    arg15.view.read (Elt F) (arg15.view.writes (Elt F) f (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).1) = (outs1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).s0 := by
  unfold outs1_B kernelRun1_B
  dsimp only
  exact View.read_writes_eq_canon _ _ _ (View.cover_of_wholeMem _ (by sl_whole_mem))

theorem leaf1_B_16 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) (f : arg16.view.ty.Contents (Elt F)) :
    arg16.view.read (Elt F) (arg16.view.writes (Elt F) f (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).2.1) = (outs1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).s1 := by
  unfold outs1_B kernelRun1_B
  dsimp only
  exact View.read_writes_eq_canon _ _ _ (View.cover_of_wholeMem _ (by sl_whole_mem))

theorem leaf1_B_17 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) (f : arg17.view.ty.Contents (Elt F)) :
    arg17.view.read (Elt F) (arg17.view.writes (Elt F) f (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).2.2.1) = (outs1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).s2 := by
  unfold outs1_B kernelRun1_B
  dsimp only
  exact View.read_writes_eq_canon _ _ _ (View.cover_of_wholeMem _ (by sl_whole_mem))

theorem leaf1_B_18 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) (f : arg18.view.ty.Contents (Elt F)) :
    arg18.view.read (Elt F) (arg18.view.writes (Elt F) f (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).2.2.2.1) = (outs1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).s3 := by
  unfold outs1_B kernelRun1_B
  dsimp only
  exact View.read_writes_eq_canon _ _ _ (View.cover_of_wholeMem _ (by sl_whole_mem))

theorem leaf1_B_19 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) :
    arg19.view.read (Elt F) (arg19.view.writes (Elt F) (harg19.unread xs19) (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).2.2.2.2.1) = (outs1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).s4 := by
  unfold outs1_B
  rfl

theorem leaf1_B_20 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) :
    arg20.view.read (Elt F) (arg20.view.writes (Elt F) (harg20.unread xs20) (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).2.2.2.2.2.1) = (outs1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).s5 := by
  unfold outs1_B
  rfl

theorem leaf1_B_21 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) :
    arg21.view.read (Elt F) (arg21.view.writes (Elt F) (harg21.unread xs21) (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).2.2.2.2.2.2.1) = (outs1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).s6 := by
  unfold outs1_B
  rfl

theorem leaf1_B_22 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) :
    arg22.view.read (Elt F) (arg22.view.writes (Elt F) (harg22.unread xs22) (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).2.2.2.2.2.2.2.1) = (outs1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).s7 := by
  unfold outs1_B
  rfl

theorem leaf1_M_15 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg15.view.ty.Contents (Elt F)) :
    arg15.view.read (Elt F) (arg15.view.writes (Elt F) f (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).1) = (outs1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s0 := by
  unfold outs1_M kernelRun1_M
  dsimp only
  exact View.read_writes_eq_canon _ _ _ (View.cover_of_wholeMem _ (by sl_whole_mem))

theorem leaf1_M_16 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg16.view.ty.Contents (Elt F)) :
    arg16.view.read (Elt F) (arg16.view.writes (Elt F) f (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.1) = (outs1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s1 := by
  unfold outs1_M kernelRun1_M
  dsimp only
  exact View.read_writes_eq_canon _ _ _ (View.cover_of_wholeMem _ (by sl_whole_mem))

theorem leaf1_M_17 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg17.view.ty.Contents (Elt F)) :
    arg17.view.read (Elt F) (arg17.view.writes (Elt F) f (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.1) = (outs1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s2 := by
  unfold outs1_M kernelRun1_M
  dsimp only
  exact View.read_writes_eq_canon _ _ _ (View.cover_of_wholeMem _ (by sl_whole_mem))

theorem leaf1_M_18 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg18.view.ty.Contents (Elt F)) :
    arg18.view.read (Elt F) (arg18.view.writes (Elt F) f (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.1) = (outs1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s3 := by
  unfold outs1_M kernelRun1_M
  dsimp only
  exact View.read_writes_eq_canon _ _ _ (View.cover_of_wholeMem _ (by sl_whole_mem))

theorem leaf1_M_19 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    arg19.view.read (Elt F) (arg19.view.writes (Elt F) (harg19.unread xs19) (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.1) = (outs1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s4 := by
  unfold outs1_M
  rfl

theorem leaf1_M_20 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    arg20.view.read (Elt F) (arg20.view.writes (Elt F) (harg20.unread xs20) (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.1) = (outs1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s5 := by
  unfold outs1_M
  rfl

theorem leaf1_M_21 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    arg21.view.read (Elt F) (arg21.view.writes (Elt F) (harg21.unread xs21) (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.1) = (outs1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s6 := by
  unfold outs1_M
  rfl

theorem leaf1_M_22 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    arg22.view.read (Elt F) (arg22.view.writes (Elt F) (harg22.unread xs22) (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.1) = (outs1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s7 := by
  unfold outs1_M
  rfl

theorem leaf1_D_9 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg9.view.ty.Contents (Elt F)) :
    arg9.view.read (Elt F) (arg9.view.writes (Elt F) f (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).1) = (outs1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).o7 := by
  unfold outs1_D kernelRun1_D
  dsimp only
  exact View.read_writes_eq_canon _ _ _ (View.cover_of_wholeMem _ (by sl_whole_mem))

theorem leaf1_D_10 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg10.view.ty.Contents (Elt F)) :
    arg10.view.read (Elt F) (arg10.view.writes (Elt F) f (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.1) = (outs1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).o8 := by
  unfold outs1_D kernelRun1_D
  dsimp only
  exact View.read_writes_eq_canon _ _ _ (View.cover_of_wholeMem _ (by sl_whole_mem))

theorem leaf1_D_11 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg11.view.ty.Contents (Elt F)) :
    arg11.view.read (Elt F) (arg11.view.writes (Elt F) f (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.1) = (outs1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).o9 := by
  unfold outs1_D kernelRun1_D
  dsimp only
  exact View.read_writes_eq_canon _ _ _ (View.cover_of_wholeMem _ (by sl_whole_mem))

theorem leaf1_D_15 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg15.view.ty.Contents (Elt F)) :
    arg15.view.read (Elt F) (arg15.view.writes (Elt F) f (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.1) = (outs1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s0 := by
  unfold outs1_D kernelRun1_D
  dsimp only
  exact View.read_writes_eq_canon _ _ _ (View.cover_of_wholeMem _ (by sl_whole_mem))

theorem leaf1_D_16 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg16.view.ty.Contents (Elt F)) :
    arg16.view.read (Elt F) (arg16.view.writes (Elt F) f (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.1) = (outs1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s1 := by
  unfold outs1_D kernelRun1_D
  dsimp only
  exact View.read_writes_eq_canon _ _ _ (View.cover_of_wholeMem _ (by sl_whole_mem))

theorem leaf1_D_17 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg17.view.ty.Contents (Elt F)) :
    arg17.view.read (Elt F) (arg17.view.writes (Elt F) f (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.1) = (outs1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s2 := by
  unfold outs1_D kernelRun1_D
  dsimp only
  exact View.read_writes_eq_canon _ _ _ (View.cover_of_wholeMem _ (by sl_whole_mem))

theorem leaf1_D_18 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg18.view.ty.Contents (Elt F)) :
    arg18.view.read (Elt F) (arg18.view.writes (Elt F) f (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.1) = (outs1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s3 := by
  unfold outs1_D kernelRun1_D
  dsimp only
  exact View.read_writes_eq_canon _ _ _ (View.cover_of_wholeMem _ (by sl_whole_mem))

theorem leaf1_D_19 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    arg19.view.read (Elt F) (arg19.view.writes (Elt F) (harg19.unread xs19) (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.1) = (outs1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s4 := by
  unfold outs1_D
  rfl

theorem leaf1_D_20 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    arg20.view.read (Elt F) (arg20.view.writes (Elt F) (harg20.unread xs20) (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.1) = (outs1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s5 := by
  unfold outs1_D
  rfl

theorem leaf1_D_21 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    arg21.view.read (Elt F) (arg21.view.writes (Elt F) (harg21.unread xs21) (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.2.1) = (outs1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s6 := by
  unfold outs1_D
  rfl

theorem leaf1_D_22 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    arg22.view.read (Elt F) (arg22.view.writes (Elt F) (harg22.unread xs22) (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.2.2.1) = (outs1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s7 := by
  unfold outs1_D
  rfl

theorem leaf1_E_9 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg9.view.ty.Contents (Elt F)) :
    arg9.view.read (Elt F) (arg9.view.writes (Elt F) f (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).1) = (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).o7 := by
  unfold outs1_E kernelRun1_E
  dsimp only
  exact View.read_writes_eq_canon _ _ _ (View.cover_of_wholeMem _ (by sl_whole_mem))

theorem leaf1_E_10 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg10.view.ty.Contents (Elt F)) :
    arg10.view.read (Elt F) (arg10.view.writes (Elt F) f (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.1) = (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).o8 := by
  unfold outs1_E kernelRun1_E
  dsimp only
  exact View.read_writes_eq_canon _ _ _ (View.cover_of_wholeMem _ (by sl_whole_mem))

theorem leaf1_E_11 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg11.view.ty.Contents (Elt F)) :
    arg11.view.read (Elt F) (arg11.view.writes (Elt F) f (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.1) = (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).o9 := by
  unfold outs1_E kernelRun1_E
  dsimp only
  exact View.read_writes_eq_canon _ _ _ (View.cover_of_wholeMem _ (by sl_whole_mem))

theorem leaf1_E_12 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg12.view.ty.Contents (Elt F)) :
    arg12.view.read (Elt F) (arg12.view.writes (Elt F) f (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.1) = (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).o10 := by
  unfold outs1_E kernelRun1_E
  dsimp only
  exact View.read_writes_eq_canon _ _ _ (View.cover_of_wholeMem _ (by sl_whole_mem))

theorem leaf1_E_13 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg13.view.ty.Contents (Elt F)) :
    arg13.view.read (Elt F) (arg13.view.writes (Elt F) f (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.1) = (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).o11 := by
  unfold outs1_E kernelRun1_E
  dsimp only
  exact View.read_writes_eq_canon _ _ _ (View.cover_of_wholeMem _ (by sl_whole_mem))

theorem leaf1_E_14 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg14.view.ty.Contents (Elt F)) :
    arg14.view.read (Elt F) (arg14.view.writes (Elt F) f (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.1) = (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).o12 := by
  unfold outs1_E kernelRun1_E
  dsimp only
  exact View.read_writes_eq_canon _ _ _ (View.cover_of_wholeMem _ (by sl_whole_mem))

theorem leaf1_E_15 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg15.view.ty.Contents (Elt F)) :
    arg15.view.read (Elt F) (arg15.view.writes (Elt F) f (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.1) = (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s0 := by
  unfold outs1_E kernelRun1_E
  dsimp only
  exact View.read_writes_eq_canon _ _ _ (View.cover_of_wholeMem _ (by sl_whole_mem))

theorem leaf1_E_16 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg16.view.ty.Contents (Elt F)) :
    arg16.view.read (Elt F) (arg16.view.writes (Elt F) f (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.1) = (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s1 := by
  unfold outs1_E kernelRun1_E
  dsimp only
  exact View.read_writes_eq_canon _ _ _ (View.cover_of_wholeMem _ (by sl_whole_mem))

theorem leaf1_E_17 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg17.view.ty.Contents (Elt F)) :
    arg17.view.read (Elt F) (arg17.view.writes (Elt F) f (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.1) = (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s2 := by
  unfold outs1_E kernelRun1_E
  dsimp only
  exact View.read_writes_eq_canon _ _ _ (View.cover_of_wholeMem _ (by sl_whole_mem))

theorem leaf1_E_18 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) (f : arg18.view.ty.Contents (Elt F)) :
    arg18.view.read (Elt F) (arg18.view.writes (Elt F) f (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.2.1) = (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s3 := by
  unfold outs1_E kernelRun1_E
  dsimp only
  exact View.read_writes_eq_canon _ _ _ (View.cover_of_wholeMem _ (by sl_whole_mem))

theorem leaf1_E_19 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    arg19.view.read (Elt F) (arg19.view.writes (Elt F) (harg19.unread xs19) (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.2.2.1) = (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s4 := by
  unfold outs1_E
  rfl

theorem leaf1_E_20 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    arg20.view.read (Elt F) (arg20.view.writes (Elt F) (harg20.unread xs20) (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.2.2.2.1) = (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s5 := by
  unfold outs1_E
  rfl

theorem leaf1_E_21 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    arg21.view.read (Elt F) (arg21.view.writes (Elt F) (harg21.unread xs21) (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.2.2.2.2.1) = (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s6 := by
  unfold outs1_E
  rfl

theorem leaf1_E_22 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    arg22.view.read (Elt F) (arg22.view.writes (Elt F) (harg22.unread xs22) (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.2.2.2.2.2.1) = (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s7 := by
  unfold outs1_E
  rfl

variable (V : (c : Dev nD) → (b : Ref sig .tc) → Buf (Elt F) ((c : Thread nD τ).loc b))

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms0 t) fullShare ((dat1 V c).before 0 t d))
    ∗ (∃ d, owns (c : Thread nD τ) (ms1 t) fullShare ((dat1 V c).before 1 t d))
    ∗ (∃ d, owns (c : Thread nD τ) (ms2 t) fullShare ((dat1 V c).before 2 t d))
    ∗ (∃ d, owns (c : Thread nD τ) (ms3 t) fullShare ((dat1 V c).before 3 t d))
    ∗ (∃ d, owns (c : Thread nD τ) (ms4 t) fullShare ((dat1 V c).before 4 t d))
    ∗ (∃ d, owns (c : Thread nD τ) (ms5 t) fullShare ((dat1 V c).before 5 t d))
    ∗ (∃ d, owns (c : Thread nD τ) (ms6 t) fullShare ((dat1 V c).before 6 t d))
    ∗ (∃ d, owns (c : Thread nD τ) (ms7 t) fullShare ((dat1 V c).before 7 t d))
    ∗ (∃ d, owns (c : Thread nD τ) (ms8 t) fullShare ((dat1 V c).before 8 t d))
    ∗ (∃ d, owns (c : Thread nD τ) (ms9 t) fullShare ((dat1 V c).before 9 t d))
    ∗ (∃ d, owns (c : Thread nD τ) (ms10 t) fullShare ((dat1 V c).before 10 t d))
    ∗ (∃ d, owns (c : Thread nD τ) (ms11 t) fullShare ((dat1 V c).before 11 t d))
    ∗ (∃ d, owns (c : Thread nD τ) (ms12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t)

set_option maxHeartbeats 16000000 in
/-- The body at the first point of the grid. The inputs' memrefs hold their blocks; the case's run applies; the invariant hands the body each accumulator
    at what the point before left (at anything at the first point) and takes it back at this point's contents; an output
    the case does not store into goes back untouched; the core owes nothing throughout. -/
theorem sound_body1_A (c : Dev nD) (t : Fin cfg1.N) (hz : t.val = 0) (h2 : t.val % 16 = 0) (h3 : ¬t.val % 16 = 15) (h4 : ¬t.val = 127) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hc1 : cond1 (grid1.coords t) := (hcond1 t).mpr hz
  have hc2 : cond2 (grid1.coords t) := (hcond2 t).mpr h2
  have hc3 : ¬cond3 (grid1.coords t) := fun h => h3 ((hcond3 t).mp h)
  have hc4 : ¬cond4 (grid1.coords t) := fun h => h4 ((hcond4 t).mp h)
  have hstep := outsAt1_A V c t hz hc1 hc2 hc3 hc4
  rw [show (dat1 V c).leavesExact 0 t = owns (c : Thread nD τ) (ms0 t) fullShare ((dat1 V c).after 0 t) from by
    unfold Dat.leavesExact; rw [liveAt0 t], after1_0]
  rw [show (dat1 V c).leavesExact 1 t = owns (c : Thread nD τ) (ms1 t) fullShare ((dat1 V c).after 1 t) from by
    unfold Dat.leavesExact; rw [liveAt1 t], after1_1]
  rw [show (dat1 V c).leavesExact 2 t = owns (c : Thread nD τ) (ms2 t) fullShare ((dat1 V c).after 2 t) from by
    unfold Dat.leavesExact; rw [liveAt2 t], after1_2]
  rw [show (dat1 V c).leavesExact 3 t = owns (c : Thread nD τ) (ms3 t) fullShare ((dat1 V c).after 3 t) from by
    unfold Dat.leavesExact; rw [liveAt3 t], after1_3]
  rw [show (dat1 V c).leavesExact 4 t = owns (c : Thread nD τ) (ms4 t) fullShare ((dat1 V c).after 4 t) from by
    unfold Dat.leavesExact; rw [liveAt4 t], after1_4]
  rw [show (dat1 V c).leavesExact 5 t = owns (c : Thread nD τ) (ms5 t) fullShare ((dat1 V c).after 5 t) from by
    unfold Dat.leavesExact; rw [liveAt5 t], after1_5]
  rw [show (dat1 V c).leavesExact 6 t = owns (c : Thread nD τ) (ms6 t) fullShare ((dat1 V c).after 6 t) from by
    unfold Dat.leavesExact; rw [liveAt6 t], after1_6]
  rw [Dat.leavesExact_idle (dat1 V c) 7 t (idleAt7 t hc3) (noFlush7 t hc3)]
  rw [Dat.leavesExact_idle (dat1 V c) 8 t (idleAt8 t hc3) (noFlush8 t hc3)]
  rw [Dat.leavesExact_idle (dat1 V c) 9 t (idleAt9 t hc3) (noFlush9 t hc3)]
  rw [Dat.leavesExact_idle (dat1 V c) 10 t (idleAt10 t hc4) (noFlush10 t hc4)]
  rw [Dat.leavesExact_idle (dat1 V c) 11 t (idleAt11 t hc4) (noFlush11 t hc4)]
  rw [Dat.leavesExact_idle (dat1 V c) 12 t (idleAt12 t hc4) (noFlush12 t hc4)]
  rw [PhiS1_castSucc V c t, PhiS1_zero V c _ _ hz, PhiA1_eq]
  iintro ⟨⟨⟨R0, R1, R2, R3, R4, R5, R6, R7, R8, R9, R10, R11, R12, R13, R14, R15, HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun1_A c (grid1.coords t) _ _ _ _ _ _ _ _ _ _ _ _ _ _ _ _ _ _ _ _ _ _ _ _ _ _ _ _ _ _ _ _ _ _ _ _ _ _ _ _ _ _ hc1 hc2 hc3 hc4 (iblk1 V c 0 t) (iblk1 V c 1 t) (iblk1 V c 2 t) (iblk1 V c 3 t) (iblk1 V c 4 t) (iblk1 V c 5 t) (iblk1 V c 6 t)).2.2.2.2.2.2.2.2 _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, H10, H11, H12, ⟨%es0, HS0⟩, ⟨%es1, HS1⟩, ⟨%es2, HS2⟩, ⟨%es3, HS3⟩, ⟨%es4, HS4⟩, ⟨%es5, HS5⟩, ⟨%es6, HS6⟩, ⟨%es7, HS7⟩⟩
  isplitl [R0 R1 R2 R3 R4 R5 R6 R7 R8 R9 R10 R11 R12 R13 R14 R15 HS0 HS1 HS2 HS3 HS4 HS5 HS6 HS7 Hg]
  · isplitl [R0 R1 R2 R3 R4 R5 R6 R7 R8 R9 R10 R11 R12 R13 R14 R15 HS0 HS1 HS2 HS3 HS4 HS5 HS6 HS7]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      isplitl [R15]; · iexact R15
      isplitl [HS0]
      · unfold owns; iexists _; isplitr
        swap; · iexact HS0
        ipureintro; exact (leaf1_A_15 c _ _ _ _ _ _ _ _ _ _ _ _ _ _ _ _ _ _ _ _ _ _ _ _ _ _ _ _ _ _ _ _ _ _ _ _ _ _ _ _ _ _ _ _ _ _ _ _ _ _ _ _ _ _ _).trans (congrArg Outs.s0 hstep).symm
      isplitl [HS1]
      · unfold owns; iexists _; isplitr
        swap; · iexact HS1
        ipureintro; exact (leaf1_A_16 c _ _ _ _ _ _ _ _ _ _ _ _ _ _ _ _ _ _ _ _ _ _ _ _ _ _ _ _ _ _ _ _ _ _ _ _ _ _ _ _ _ _ _ _ _ _ _ _ _ _ _ _ _ _ _).trans (congrArg Outs.s1 hstep).symm
      isplitl [HS2]
      · unfold owns; iexists _; isplitr
        swap; · iexact HS2
        ipureintro; exact (leaf1_A_17 c _ _ _ _ _ _ _ _ _ _ _ _ _ _ _ _ _ _ _ _ _ _ _ _ _ _ _ _ _ _ _ _ _ _ _ _ _ _ _ _ _ _ _ _ _ _ _ _ _ _ _ _ _ _ _).trans (congrArg Outs.s2 hstep).symm
      isplitl [HS3]
      · unfold owns; iexists _; isplitr
        swap; · iexact HS3
        ipureintro; exact (leaf1_A_18 c _ _ _ _ _ _ _ _ _ _ _ _ _ _ _ _ _ _ _ _ _ _ _ _ _ _ _ _ _ _ _ _ _ _ _ _ _ _ _ _ _ _ _ _ _ _ _ _ _ _ _ _ _ _ _).trans (congrArg Outs.s3 hstep).symm
      isplitl [HS4]
      · unfold owns; iexists _; isplitr
        swap; · iexact HS4
        ipureintro; exact (leaf1_A_19 c _ _ _ _ _ _ _ _ _ _ _ _ _ _ _ _ _ _ _ _ _ _ _ _ _ _ _ _ _ _ _ _ _ _ _ _ _ _ _ _ _ _ _ _ _ _ _ _ _ _ _ _ _ _ _).trans (congrArg Outs.s4 hstep).symm
      isplitl [HS5]
      · unfold owns; iexists _; isplitr
        swap; · iexact HS5
        ipureintro; exact (leaf1_A_20 c _ _ _ _ _ _ _ _ _ _ _ _ _ _ _ _ _ _ _ _ _ _ _ _ _ _ _ _ _ _ _ _ _ _ _ _ _ _ _ _ _ _ _ _ _ _ _ _ _ _ _ _ _ _ _).trans (congrArg Outs.s5 hstep).symm
      isplitl [HS6]
      · unfold owns; iexists _; isplitr
        swap; · iexact HS6
        ipureintro; exact (leaf1_A_21 c _ _ _ _ _ _ _ _ _ _ _ _ _ _ _ _ _ _ _ _ _ _ _ _ _ _ _ _ _ _ _ _ _ _ _ _ _ _ _ _ _ _ _ _ _ _ _ _ _ _ _ _ _ _ _).trans (congrArg Outs.s6 hstep).symm
      unfold owns; iexists _; isplitr
      swap; · iexact HS7
      ipureintro; exact (leaf1_A_22 c _ _ _ _ _ _ _ _ _ _ _ _ _ _ _ _ _ _ _ _ _ _ _ _ _ _ _ _ _ _ _ _ _ _ _ _ _ _ _ _ _ _ _ _ _ _ _ _ _ _ _ _ _ _ _).trans (congrArg Outs.s7 hstep).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  iexists _; iexact H12

set_option maxHeartbeats 16000000 in
/-- The body at the first tile of a later row block. The inputs' memrefs hold their blocks; the case's run applies; the invariant hands the body each accumulator
    at what the point before left (at anything at the first point) and takes it back at this point's contents; an output
    the case does not store into goes back untouched; the core owes nothing throughout. -/
theorem sound_body1_B (c : Dev nD) (t : Fin cfg1.N) (hz : ¬t.val = 0) (h2 : t.val % 16 = 0) (h3 : ¬t.val % 16 = 15) (h4 : ¬t.val = 127) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hc1 : ¬cond1 (grid1.coords t) := fun h => hz ((hcond1 t).mp h)
  have hc2 : cond2 (grid1.coords t) := (hcond2 t).mpr h2
  have hc3 : ¬cond3 (grid1.coords t) := fun h => h3 ((hcond3 t).mp h)
  have hc4 : ¬cond4 (grid1.coords t) := fun h => h4 ((hcond4 t).mp h)
  have hstep := outsAt1_B V c t hz h2 hc1 hc2 hc3 hc4
  rw [show (dat1 V c).leavesExact 0 t = owns (c : Thread nD τ) (ms0 t) fullShare ((dat1 V c).after 0 t) from by
    unfold Dat.leavesExact; rw [liveAt0 t], after1_0]
  rw [show (dat1 V c).leavesExact 1 t = owns (c : Thread nD τ) (ms1 t) fullShare ((dat1 V c).after 1 t) from by
    unfold Dat.leavesExact; rw [liveAt1 t], after1_1]
  rw [show (dat1 V c).leavesExact 2 t = owns (c : Thread nD τ) (ms2 t) fullShare ((dat1 V c).after 2 t) from by
    unfold Dat.leavesExact; rw [liveAt2 t], after1_2]
  rw [show (dat1 V c).leavesExact 3 t = owns (c : Thread nD τ) (ms3 t) fullShare ((dat1 V c).after 3 t) from by
    unfold Dat.leavesExact; rw [liveAt3 t], after1_3]
  rw [show (dat1 V c).leavesExact 4 t = owns (c : Thread nD τ) (ms4 t) fullShare ((dat1 V c).after 4 t) from by
    unfold Dat.leavesExact; rw [liveAt4 t], after1_4]
  rw [show (dat1 V c).leavesExact 5 t = owns (c : Thread nD τ) (ms5 t) fullShare ((dat1 V c).after 5 t) from by
    unfold Dat.leavesExact; rw [liveAt5 t], after1_5]
  rw [show (dat1 V c).leavesExact 6 t = owns (c : Thread nD τ) (ms6 t) fullShare ((dat1 V c).after 6 t) from by
    unfold Dat.leavesExact; rw [liveAt6 t], after1_6]
  rw [Dat.leavesExact_idle (dat1 V c) 7 t (idleAt7 t hc3) (noFlush7 t hc3)]
  rw [Dat.leavesExact_idle (dat1 V c) 8 t (idleAt8 t hc3) (noFlush8 t hc3)]
  rw [Dat.leavesExact_idle (dat1 V c) 9 t (idleAt9 t hc3) (noFlush9 t hc3)]
  rw [Dat.leavesExact_idle (dat1 V c) 10 t (idleAt10 t hc4) (noFlush10 t hc4)]
  rw [Dat.leavesExact_idle (dat1 V c) 11 t (idleAt11 t hc4) (noFlush11 t hc4)]
  rw [Dat.leavesExact_idle (dat1 V c) 12 t (idleAt12 t hc4) (noFlush12 t hc4)]
  rw [PhiS1_castSucc V c t, PhiS1_pos V c _ _ hz]
  iintro ⟨⟨⟨R0, R1, R2, R3, R4, R5, R6, R7, R8, R9, R10, R11, R12, R13, R14, R15, HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun1_B c (grid1.coords t) _ _ _ _ _ _ _ _ _ _ _ _ _ _ _ _ _ _ _ _ _ _ _ _ _ _ _ _ _ _ _ _ _ _ _ _ _ _ _ _ _ _ hc1 hc2 hc3 hc4 (iblk1 V c 0 t) (iblk1 V c 1 t) (iblk1 V c 2 t) (iblk1 V c 3 t) (iblk1 V c 4 t) (iblk1 V c 5 t) (iblk1 V c 6 t) _ _ _ _).2.2.2.2.2.2.2.2 _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexists _; iexact HS0
  isplitl [HS1]; · iexists _; iexact HS1
  isplitl [HS2]; · iexists _; iexact HS2
  isplitl [HS3]; · iexists _; iexact HS3
  isplitl [HS4]; · iexact HS4
  isplitl [HS5]; · iexact HS5
  isplitl [HS6]; · iexact HS6
  isplitl [HS7]; · iexact HS7
  iintro ⟨H0, H1, H2, H3, H4, H5, H6, H7, H8, H9, H10, H11, H12, ⟨%es0, HS0⟩, ⟨%es1, HS1⟩, ⟨%es2, HS2⟩, ⟨%es3, HS3⟩, HS4, HS5, HS6, HS7⟩
  isplitl [R0 R1 R2 R3 R4 R5 R6 R7 R8 R9 R10 R11 R12 R13 R14 R15 HS0 HS1 HS2 HS3 HS4 HS5 HS6 HS7 Hg]
  · isplitl [R0 R1 R2 R3 R4 R5 R6 R7 R8 R9 R10 R11 R12 R13 R14 R15 HS0 HS1 HS2 HS3 HS4 HS5 HS6 HS7]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      isplitl [R15]; · iexact R15
      isplitl [HS0]
      · unfold owns; iexists _; isplitr
        swap; · iexact HS0
        ipureintro; exact (leaf1_B_15 c _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s0 hstep).symm
      isplitl [HS1]
      · unfold owns; iexists _; isplitr
        swap; · iexact HS1
        ipureintro; exact (leaf1_B_16 c _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s1 hstep).symm
      isplitl [HS2]
      · unfold owns; iexists _; isplitr
        swap; · iexact HS2
        ipureintro; exact (leaf1_B_17 c _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s2 hstep).symm
      isplitl [HS3]
      · unfold owns; iexists _; isplitr
        swap; · iexact HS3
        ipureintro; exact (leaf1_B_18 c _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s3 hstep).symm
      isplitl [HS4]
      · unfold owns; iexists _; isplitr
        swap; · iexact HS4
        ipureintro; exact (leaf1_B_19 c _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s4 hstep).symm
      isplitl [HS5]
      · unfold owns; iexists _; isplitr
        swap; · iexact HS5
        ipureintro; exact (leaf1_B_20 c _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s5 hstep).symm
      isplitl [HS6]
      · unfold owns; iexists _; isplitr
        swap; · iexact HS6
        ipureintro; exact (leaf1_B_21 c _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s6 hstep).symm
      unfold owns; iexists _; isplitr
      swap; · iexact HS7
      ipureintro; exact (leaf1_B_22 c _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s7 hstep).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  iexists _; iexact H12

set_option maxHeartbeats 16000000 in
/-- The body at a tile in the middle of a row block. The inputs' memrefs hold their blocks; the case's run applies; the invariant hands the body each accumulator
    at what the point before left (at anything at the first point) and takes it back at this point's contents; an output
    the case does not store into goes back untouched; the core owes nothing throughout. -/
theorem sound_body1_M (c : Dev nD) (t : Fin cfg1.N) (hz : ¬t.val = 0) (h2 : ¬t.val % 16 = 0) (h3 : ¬t.val % 16 = 15) (h4 : ¬t.val = 127) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hc1 : ¬cond1 (grid1.coords t) := fun h => hz ((hcond1 t).mp h)
  have hc2 : ¬cond2 (grid1.coords t) := fun h => h2 ((hcond2 t).mp h)
  have hc3 : ¬cond3 (grid1.coords t) := fun h => h3 ((hcond3 t).mp h)
  have hc4 : ¬cond4 (grid1.coords t) := fun h => h4 ((hcond4 t).mp h)
  have hstep := outsAt1_M V c t h2 h3 hc1 hc2 hc3 hc4
  rw [show (dat1 V c).leavesExact 0 t = owns (c : Thread nD τ) (ms0 t) fullShare ((dat1 V c).after 0 t) from by
    unfold Dat.leavesExact; rw [liveAt0 t], after1_0]
  rw [show (dat1 V c).leavesExact 1 t = owns (c : Thread nD τ) (ms1 t) fullShare ((dat1 V c).after 1 t) from by
    unfold Dat.leavesExact; rw [liveAt1 t], after1_1]
  rw [show (dat1 V c).leavesExact 2 t = owns (c : Thread nD τ) (ms2 t) fullShare ((dat1 V c).after 2 t) from by
    unfold Dat.leavesExact; rw [liveAt2 t], after1_2]
  rw [show (dat1 V c).leavesExact 3 t = owns (c : Thread nD τ) (ms3 t) fullShare ((dat1 V c).after 3 t) from by
    unfold Dat.leavesExact; rw [liveAt3 t], after1_3]
  rw [show (dat1 V c).leavesExact 4 t = owns (c : Thread nD τ) (ms4 t) fullShare ((dat1 V c).after 4 t) from by
    unfold Dat.leavesExact; rw [liveAt4 t], after1_4]
  rw [show (dat1 V c).leavesExact 5 t = owns (c : Thread nD τ) (ms5 t) fullShare ((dat1 V c).after 5 t) from by
    unfold Dat.leavesExact; rw [liveAt5 t], after1_5]
  rw [show (dat1 V c).leavesExact 6 t = owns (c : Thread nD τ) (ms6 t) fullShare ((dat1 V c).after 6 t) from by
    unfold Dat.leavesExact; rw [liveAt6 t], after1_6]
  rw [Dat.leavesExact_idle (dat1 V c) 7 t (idleAt7 t hc3) (noFlush7 t hc3)]
  rw [Dat.leavesExact_idle (dat1 V c) 8 t (idleAt8 t hc3) (noFlush8 t hc3)]
  rw [Dat.leavesExact_idle (dat1 V c) 9 t (idleAt9 t hc3) (noFlush9 t hc3)]
  rw [Dat.leavesExact_idle (dat1 V c) 10 t (idleAt10 t hc4) (noFlush10 t hc4)]
  rw [Dat.leavesExact_idle (dat1 V c) 11 t (idleAt11 t hc4) (noFlush11 t hc4)]
  rw [Dat.leavesExact_idle (dat1 V c) 12 t (idleAt12 t hc4) (noFlush12 t hc4)]
  rw [PhiS1_castSucc V c t, PhiS1_pos V c _ _ hz]
  iintro ⟨⟨⟨R0, R1, R2, R3, R4, R5, R6, R7, R8, R9, R10, R11, R12, R13, R14, R15, HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun1_M c (grid1.coords t) _ _ _ _ _ _ _ _ _ _ _ _ _ _ _ _ _ _ _ _ _ _ _ _ _ _ _ _ _ _ _ _ _ _ _ _ _ _ _ _ _ _ hc1 hc2 hc3 hc4 (iblk1 V c 0 t) (iblk1 V c 1 t) (iblk1 V c 2 t) (iblk1 V c 3 t) (iblk1 V c 4 t) (iblk1 V c 5 t) (iblk1 V c 6 t) _ _ _ _ _ _ _ _).2.2.2.2.2.2.2.2 _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, H10, H11, H12, ⟨%es0, HS0⟩, ⟨%es1, HS1⟩, ⟨%es2, HS2⟩, ⟨%es3, HS3⟩, HS4, HS5, HS6, HS7⟩
  isplitl [R0 R1 R2 R3 R4 R5 R6 R7 R8 R9 R10 R11 R12 R13 R14 R15 HS0 HS1 HS2 HS3 HS4 HS5 HS6 HS7 Hg]
  · isplitl [R0 R1 R2 R3 R4 R5 R6 R7 R8 R9 R10 R11 R12 R13 R14 R15 HS0 HS1 HS2 HS3 HS4 HS5 HS6 HS7]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      isplitl [R15]; · iexact R15
      isplitl [HS0]
      · unfold owns; iexists _; isplitr
        swap; · iexact HS0
        ipureintro; exact (leaf1_M_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s0 hstep).symm
      isplitl [HS1]
      · unfold owns; iexists _; isplitr
        swap; · iexact HS1
        ipureintro; exact (leaf1_M_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s1 hstep).symm
      isplitl [HS2]
      · unfold owns; iexists _; isplitr
        swap; · iexact HS2
        ipureintro; exact (leaf1_M_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s2 hstep).symm
      isplitl [HS3]
      · unfold owns; iexists _; isplitr
        swap; · iexact HS3
        ipureintro; exact (leaf1_M_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s3 hstep).symm
      isplitl [HS4]
      · unfold owns; iexists _; isplitr
        swap; · iexact HS4
        ipureintro; exact (leaf1_M_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s4 hstep).symm
      isplitl [HS5]
      · unfold owns; iexists _; isplitr
        swap; · iexact HS5
        ipureintro; exact (leaf1_M_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s5 hstep).symm
      isplitl [HS6]
      · unfold owns; iexists _; isplitr
        swap; · iexact HS6
        ipureintro; exact (leaf1_M_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s6 hstep).symm
      unfold owns; iexists _; isplitr
      swap; · iexact HS7
      ipureintro; exact (leaf1_M_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s7 hstep).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  iexists _; iexact H12

set_option maxHeartbeats 16000000 in
/-- The body at the last tile of a row block other than the last. The inputs' memrefs hold their blocks; the case's run applies; the invariant hands the body each accumulator
    at what the point before left (at anything at the first point) and takes it back at this point's contents; an output
    the case does not store into goes back untouched; the core owes nothing throughout. -/
theorem sound_body1_D (c : Dev nD) (t : Fin cfg1.N) (hz : ¬t.val = 0) (h2 : ¬t.val % 16 = 0) (h3 : t.val % 16 = 15) (h4 : ¬t.val = 127) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hc1 : ¬cond1 (grid1.coords t) := fun h => hz ((hcond1 t).mp h)
  have hc2 : ¬cond2 (grid1.coords t) := fun h => h2 ((hcond2 t).mp h)
  have hc3 : cond3 (grid1.coords t) := (hcond3 t).mpr h3
  have hc4 : ¬cond4 (grid1.coords t) := fun h => h4 ((hcond4 t).mp h)
  have hstep := outsAt1_D V c t h2 h3 h4 hc1 hc2 hc3 hc4
  rw [show (dat1 V c).leavesExact 0 t = owns (c : Thread nD τ) (ms0 t) fullShare ((dat1 V c).after 0 t) from by
    unfold Dat.leavesExact; rw [liveAt0 t], after1_0]
  rw [show (dat1 V c).leavesExact 1 t = owns (c : Thread nD τ) (ms1 t) fullShare ((dat1 V c).after 1 t) from by
    unfold Dat.leavesExact; rw [liveAt1 t], after1_1]
  rw [show (dat1 V c).leavesExact 2 t = owns (c : Thread nD τ) (ms2 t) fullShare ((dat1 V c).after 2 t) from by
    unfold Dat.leavesExact; rw [liveAt2 t], after1_2]
  rw [show (dat1 V c).leavesExact 3 t = owns (c : Thread nD τ) (ms3 t) fullShare ((dat1 V c).after 3 t) from by
    unfold Dat.leavesExact; rw [liveAt3 t], after1_3]
  rw [show (dat1 V c).leavesExact 4 t = owns (c : Thread nD τ) (ms4 t) fullShare ((dat1 V c).after 4 t) from by
    unfold Dat.leavesExact; rw [liveAt4 t], after1_4]
  rw [show (dat1 V c).leavesExact 5 t = owns (c : Thread nD τ) (ms5 t) fullShare ((dat1 V c).after 5 t) from by
    unfold Dat.leavesExact; rw [liveAt5 t], after1_5]
  rw [show (dat1 V c).leavesExact 6 t = owns (c : Thread nD τ) (ms6 t) fullShare ((dat1 V c).after 6 t) from by
    unfold Dat.leavesExact; rw [liveAt6 t], after1_6]
  rw [show (dat1 V c).leavesExact 7 t = owns (c : Thread nD τ) (ms7 t) fullShare ((dat1 V c).after 7 t) from by
    unfold Dat.leavesExact; rw [liveAt7 t hc3], after1_7]
  rw [show (dat1 V c).leavesExact 8 t = owns (c : Thread nD τ) (ms8 t) fullShare ((dat1 V c).after 8 t) from by
    unfold Dat.leavesExact; rw [liveAt8 t hc3], after1_8]
  rw [show (dat1 V c).leavesExact 9 t = owns (c : Thread nD τ) (ms9 t) fullShare ((dat1 V c).after 9 t) from by
    unfold Dat.leavesExact; rw [liveAt9 t hc3], after1_9]
  rw [Dat.leavesExact_idle (dat1 V c) 10 t (idleAt10 t hc4) (noFlush10 t hc4)]
  rw [Dat.leavesExact_idle (dat1 V c) 11 t (idleAt11 t hc4) (noFlush11 t hc4)]
  rw [Dat.leavesExact_idle (dat1 V c) 12 t (idleAt12 t hc4) (noFlush12 t hc4)]
  rw [PhiS1_castSucc V c t, PhiS1_pos V c _ _ hz]
  iintro ⟨⟨⟨R0, R1, R2, R3, R4, R5, R6, R7, R8, R9, R10, R11, R12, R13, R14, R15, HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun1_D c (grid1.coords t) _ _ _ _ _ _ _ _ _ _ _ _ _ _ _ _ _ _ _ _ _ _ _ _ _ _ _ _ _ _ _ _ _ _ _ _ _ _ _ _ _ _ hc1 hc2 hc3 hc4 (iblk1 V c 0 t) (iblk1 V c 1 t) (iblk1 V c 2 t) (iblk1 V c 3 t) (iblk1 V c 4 t) (iblk1 V c 5 t) (iblk1 V c 6 t) _ _ _ _ _ _ _ _).2.2.2.2.2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, ⟨%e7, H7⟩, ⟨%e8, H8⟩, ⟨%e9, H9⟩, H10, H11, H12, ⟨%es0, HS0⟩, ⟨%es1, HS1⟩, ⟨%es2, HS2⟩, ⟨%es3, HS3⟩, HS4, HS5, HS6, HS7⟩
  isplitl [R0 R1 R2 R3 R4 R5 R6 R7 R8 R9 R10 R11 R12 R13 R14 R15 HS0 HS1 HS2 HS3 HS4 HS5 HS6 HS7 Hg]
  · isplitl [R0 R1 R2 R3 R4 R5 R6 R7 R8 R9 R10 R11 R12 R13 R14 R15 HS0 HS1 HS2 HS3 HS4 HS5 HS6 HS7]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      isplitl [R15]; · iexact R15
      isplitl [HS0]
      · unfold owns; iexists _; isplitr
        swap; · iexact HS0
        ipureintro; exact (leaf1_D_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s0 hstep).symm
      isplitl [HS1]
      · unfold owns; iexists _; isplitr
        swap; · iexact HS1
        ipureintro; exact (leaf1_D_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s1 hstep).symm
      isplitl [HS2]
      · unfold owns; iexists _; isplitr
        swap; · iexact HS2
        ipureintro; exact (leaf1_D_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s2 hstep).symm
      isplitl [HS3]
      · unfold owns; iexists _; isplitr
        swap; · iexact HS3
        ipureintro; exact (leaf1_D_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s3 hstep).symm
      isplitl [HS4]
      · unfold owns; iexists _; isplitr
        swap; · iexact HS4
        ipureintro; exact (leaf1_D_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s4 hstep).symm
      isplitl [HS5]
      · unfold owns; iexists _; isplitr
        swap; · iexact HS5
        ipureintro; exact (leaf1_D_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s5 hstep).symm
      isplitl [HS6]
      · unfold owns; iexists _; isplitr
        swap; · iexact HS6
        ipureintro; exact (leaf1_D_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s6 hstep).symm
      unfold owns; iexists _; isplitr
      swap; · iexact HS7
      ipureintro; exact (leaf1_D_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s7 hstep).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact (leaf1_D_9 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.o7 hstep).symm
  isplitl [H8]
  · unfold owns; iexists _; isplitr
    swap; · iexact H8
    ipureintro; exact (leaf1_D_10 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.o8 hstep).symm
  isplitl [H9]
  · unfold owns; iexists _; isplitr
    swap; · iexact H9
    ipureintro; exact (leaf1_D_11 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.o9 hstep).symm
  isplitl [H10]; · iexists _; iexact H10
  isplitl [H11]; · iexists _; iexact H11
  iexists _; iexact H12

set_option maxHeartbeats 16000000 in
/-- The body at the last point of the grid. The inputs' memrefs hold their blocks; the case's run applies; the invariant hands the body each accumulator
    at what the point before left (at anything at the first point) and takes it back at this point's contents; an output
    the case does not store into goes back untouched; the core owes nothing throughout. -/
theorem sound_body1_E (c : Dev nD) (t : Fin cfg1.N) (hz : ¬t.val = 0) (h2 : ¬t.val % 16 = 0) (h3 : t.val % 16 = 15) (h4 : t.val = 127) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hc1 : ¬cond1 (grid1.coords t) := fun h => hz ((hcond1 t).mp h)
  have hc2 : ¬cond2 (grid1.coords t) := fun h => h2 ((hcond2 t).mp h)
  have hc3 : cond3 (grid1.coords t) := (hcond3 t).mpr h3
  have hc4 : cond4 (grid1.coords t) := (hcond4 t).mpr h4
  have hstep := outsAt1_E V c t h2 h3 h4 hc1 hc2 hc3 hc4
  rw [show (dat1 V c).leavesExact 0 t = owns (c : Thread nD τ) (ms0 t) fullShare ((dat1 V c).after 0 t) from by
    unfold Dat.leavesExact; rw [liveAt0 t], after1_0]
  rw [show (dat1 V c).leavesExact 1 t = owns (c : Thread nD τ) (ms1 t) fullShare ((dat1 V c).after 1 t) from by
    unfold Dat.leavesExact; rw [liveAt1 t], after1_1]
  rw [show (dat1 V c).leavesExact 2 t = owns (c : Thread nD τ) (ms2 t) fullShare ((dat1 V c).after 2 t) from by
    unfold Dat.leavesExact; rw [liveAt2 t], after1_2]
  rw [show (dat1 V c).leavesExact 3 t = owns (c : Thread nD τ) (ms3 t) fullShare ((dat1 V c).after 3 t) from by
    unfold Dat.leavesExact; rw [liveAt3 t], after1_3]
  rw [show (dat1 V c).leavesExact 4 t = owns (c : Thread nD τ) (ms4 t) fullShare ((dat1 V c).after 4 t) from by
    unfold Dat.leavesExact; rw [liveAt4 t], after1_4]
  rw [show (dat1 V c).leavesExact 5 t = owns (c : Thread nD τ) (ms5 t) fullShare ((dat1 V c).after 5 t) from by
    unfold Dat.leavesExact; rw [liveAt5 t], after1_5]
  rw [show (dat1 V c).leavesExact 6 t = owns (c : Thread nD τ) (ms6 t) fullShare ((dat1 V c).after 6 t) from by
    unfold Dat.leavesExact; rw [liveAt6 t], after1_6]
  rw [show (dat1 V c).leavesExact 7 t = owns (c : Thread nD τ) (ms7 t) fullShare ((dat1 V c).after 7 t) from by
    unfold Dat.leavesExact; rw [liveAt7 t hc3], after1_7]
  rw [show (dat1 V c).leavesExact 8 t = owns (c : Thread nD τ) (ms8 t) fullShare ((dat1 V c).after 8 t) from by
    unfold Dat.leavesExact; rw [liveAt8 t hc3], after1_8]
  rw [show (dat1 V c).leavesExact 9 t = owns (c : Thread nD τ) (ms9 t) fullShare ((dat1 V c).after 9 t) from by
    unfold Dat.leavesExact; rw [liveAt9 t hc3], after1_9]
  rw [show (dat1 V c).leavesExact 10 t = owns (c : Thread nD τ) (ms10 t) fullShare ((dat1 V c).after 10 t) from by
    unfold Dat.leavesExact; rw [liveAt10 t hc4], after1_10]
  rw [show (dat1 V c).leavesExact 11 t = owns (c : Thread nD τ) (ms11 t) fullShare ((dat1 V c).after 11 t) from by
    unfold Dat.leavesExact; rw [liveAt11 t hc4], after1_11]
  rw [show (dat1 V c).leavesExact 12 t = owns (c : Thread nD τ) (ms12 t) fullShare ((dat1 V c).after 12 t) from by
    unfold Dat.leavesExact; rw [liveAt12 t hc4], after1_12]
  rw [PhiS1_castSucc V c t, PhiS1_pos V c _ _ hz]
  iintro ⟨⟨⟨R0, R1, R2, R3, R4, R5, R6, R7, R8, R9, R10, R11, R12, R13, R14, R15, HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun1_E c (grid1.coords t) _ _ _ _ _ _ _ _ _ _ _ _ _ _ _ _ _ _ _ _ _ _ _ _ _ _ _ _ _ _ _ _ _ _ _ _ _ _ _ _ _ _ hc1 hc2 hc3 hc4 (iblk1 V c 0 t) (iblk1 V c 1 t) (iblk1 V c 2 t) (iblk1 V c 3 t) (iblk1 V c 4 t) (iblk1 V c 5 t) (iblk1 V c 6 t) _ _ _ _ _ _ _ _).2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, ⟨%e7, H7⟩, ⟨%e8, H8⟩, ⟨%e9, H9⟩, ⟨%e10, H10⟩, ⟨%e11, H11⟩, ⟨%e12, H12⟩, ⟨%es0, HS0⟩, ⟨%es1, HS1⟩, ⟨%es2, HS2⟩, ⟨%es3, HS3⟩, HS4, HS5, HS6, HS7⟩
  isplitl [R0 R1 R2 R3 R4 R5 R6 R7 R8 R9 R10 R11 R12 R13 R14 R15 HS0 HS1 HS2 HS3 HS4 HS5 HS6 HS7 Hg]
  · isplitl [R0 R1 R2 R3 R4 R5 R6 R7 R8 R9 R10 R11 R12 R13 R14 R15 HS0 HS1 HS2 HS3 HS4 HS5 HS6 HS7]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      isplitl [R15]; · iexact R15
      isplitl [HS0]
      · unfold owns; iexists _; isplitr
        swap; · iexact HS0
        ipureintro; exact (leaf1_E_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s0 hstep).symm
      isplitl [HS1]
      · unfold owns; iexists _; isplitr
        swap; · iexact HS1
        ipureintro; exact (leaf1_E_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s1 hstep).symm
      isplitl [HS2]
      · unfold owns; iexists _; isplitr
        swap; · iexact HS2
        ipureintro; exact (leaf1_E_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s2 hstep).symm
      isplitl [HS3]
      · unfold owns; iexists _; isplitr
        swap; · iexact HS3
        ipureintro; exact (leaf1_E_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s3 hstep).symm
      isplitl [HS4]
      · unfold owns; iexists _; isplitr
        swap; · iexact HS4
        ipureintro; exact (leaf1_E_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s4 hstep).symm
      isplitl [HS5]
      · unfold owns; iexists _; isplitr
        swap; · iexact HS5
        ipureintro; exact (leaf1_E_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s5 hstep).symm
      isplitl [HS6]
      · unfold owns; iexists _; isplitr
        swap; · iexact HS6
        ipureintro; exact (leaf1_E_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s6 hstep).symm
      unfold owns; iexists _; isplitr
      swap; · iexact HS7
      ipureintro; exact (leaf1_E_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.s7 hstep).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact (leaf1_E_9 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.o7 hstep).symm
  isplitl [H8]
  · unfold owns; iexists _; isplitr
    swap; · iexact H8
    ipureintro; exact (leaf1_E_10 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.o8 hstep).symm
  isplitl [H9]
  · unfold owns; iexists _; isplitr
    swap; · iexact H9
    ipureintro; exact (leaf1_E_11 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.o9 hstep).symm
  isplitl [H10]
  · unfold owns; iexists _; isplitr
    swap; · iexact H10
    ipureintro; exact (leaf1_E_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.o10 hstep).symm
  isplitl [H11]
  · unfold owns; iexists _; isplitr
    swap; · iexact H11
    ipureintro; exact (leaf1_E_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.o11 hstep).symm
  unfold owns; iexists _; isplitr
  swap; · iexact H12
  ipureintro; exact (leaf1_E_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg Outs.o12 hstep).symm

/-- The body at any point: the closed forms say which of the five situations the point is in. -/
theorem sound_body1 (c : Dev nD) (t : Fin cfg1.N) :
    bodyPre1 V c t ⊢ wp frame (wpE (defs₀ (F := F)) Variants.none c none) Set.univ (bodyAt1 t) (fun _ => bodyPost1 V c t) := by
  have hN : t.val < 128 := lt_of_lt_of_eq t.isLt (show cfg1.N = 128 from N_1)
  by_cases h2 : t.val % 16 = 0
  · have h3 : ¬t.val % 16 = 15 := by omega
    have h4 : ¬t.val = 127 := by omega
    by_cases hz : t.val = 0
    · exact sound_body1_A V c t hz h2 h3 h4
    · exact sound_body1_B V c t hz h2 h3 h4
  · have hz : ¬t.val = 0 := by omega
    by_cases h3 : t.val % 16 = 15
    · by_cases h4 : t.val = 127
      · exact sound_body1_E V c t hz h2 h3 h4
      · exact sound_body1_D V c t hz h2 h3 h4
    · have h4 : ¬t.val = 127 := by omega
      exact sound_body1_M V c t hz h2 h3 h4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.H1

end
-- ==== Proof.KAsmInst.lean ====
/- The run of @main at the two regions' proof data: the several-region run instantiated, and read at the buffers the
   certificate's claims speak of — the arguments (the frame: both end as launched) and the result scalar (its value the
   last boundary valuation's, a closed term of the launch memory). -/
import proofs.«170005_j69870527971928_1_alg».proof.Proof.KAsmRun
import proofs.«170005_j69870527971928_1_alg».proof.Proof.KR0
import proofs.«170005_j69870527971928_1_alg».proof.Proof.KR1Body

noncomputable section

namespace Cert.Kernel.Asm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

/-- What the regions leave, at the two regions' proof data. -/
abbrev outs0 (m : (ℓ : Loc nD τ sig) → Buf (Elt F) ℓ) : Gen.Outs (F := F) := outs (H0.dat0 (F := F)) (H1.dat1 (F := F)) m

/-- The several-region run at the two regions' proof data: every unscoped buffer ends at the last boundary's contents. -/
theorem run_inst (m : (ℓ : Loc nD τ sig) → Buf (Elt F) ℓ) (ρ : Dev nD → PrngReg) :
    θ_run defs (onTc (τ := τ) (main (F := F))) ⟨m, fun _ => 0, ρ⟩ (fun r => ∀ c : Dev nD, ∀ b ∈ Pipeline.ucRefs τ sig,
      r.2.mem ((c : Thread nD τ).1, b) = Gen.V5 m (outs0 m) c b) :=
  run_all H0.dat0 H1.dat1 H0.A_eq0 H0.q0_1 H0.q0_2 H0.q0_of H0.owed0 H0.recorded0 H0.body_obligation0 H0.hin0 H0.hout0 H1.A_eq1 H1.q1_1 H1.q1_2 H1.q1_of H1.owed1 H1.recorded1 H1.body_obligation1 H1.hin1 H1.hout1 m ρ

/-- THE FRAME: from any memory with zero counters every weakly fair execution of @main terminates, nothing faulting, and
    both argument arrays end as launched (no host stretch writes one, no region may change one). -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c =>
    ⟨(h c _ (mem_uc main_arg0 (by decide))).trans (Gen.V5_main_arg0 m (outs0 m) c),
     (h c _ (mem_uc main_arg1 (by decide))).trans (Gen.V5_main_arg1 m (outs0 m) c)⟩) (run_inst m ρ)

/-- THE VALUE: the same run read at the result scalar, which ends at the last boundary valuation's contents, beside the
    arguments as launched. -/
theorem run_value (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v12) = Gen.V5 m (outs0 m) c main_v12
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c =>
    ⟨h c _ (mem_uc main_v12 (by decide)),
     (h c _ (mem_uc main_arg0 (by decide))).trans (Gen.V5_main_arg0 m (outs0 m) c),
     (h c _ (mem_uc main_arg1 (by decide))).trans (Gen.V5_main_arg1 m (outs0 m) c)⟩) (run_inst m ρ)

end Cert.Kernel.Asm

end
-- ==== Proof.Spec.lean ====
/-
  The specification: the loss as ONE function of the score matrix and the label vector, at the extended reals.

  For a score matrix S (8192 x 8192) and labels T (8192 words), a pair (r, c) is POSITIVE when T r = T c and
  NEGATIVE otherwise.  Per row r: the hardest negative is the greatest score over the row's negative columns
  (the bottom element when there is none), the weakest positive the least score over its positive columns (the top
  element when there is none).  A positive pair of the row is INFORMATIVE when its score is below the hardest
  negative plus the margin, a negative pair when its score is above the weakest positive minus the margin.  The row's
  loss is log(sum of exp(g2 - g1 s) over informative positives)/g1 + log(sum of exp(g1 s - g2) over informative
  negatives)/g1, an empty sum (a sum that is not positive) read as 1 under the logarithm.  The same four quantities are
  taken per COLUMN c over the column's rows, with the same pair relation.  Index k contributes the k-th row loss plus the
  k-th column loss when row k and column k each have an informative positive and an informative negative, else 0; the
  result is the sum of the contributions over the batch size.

  Every float literal is kept as the word the programs print; only the two infinities are named (bottom, top).
-/
import Idealize.ShloMosaic.PureOps.Ideal
import Idealize.ShloMosaic.Lib.ValueIdx

noncomputable section

open scoped BigOperators

namespace Cert.Spec

open Idealize.ShloMosaic Idealize.ShloMosaic.ValueIdx

/-- The score matrices. -/
abbrev Mat : Type := (⟨2, ![8192, 8192]⟩ : Shape).Idx → EReal
/-- The label vectors. -/
abbrev Lab : Type := (⟨1, ![8192]⟩ : Shape).Idx → BitVec 32

/-! ## The literals -/

/-- The margin, 0.2 as printed. -/
def delta : EReal := Ideal.ofBits .f32 0x3E4CCCCD#32
/-- The scale 10. -/
def gamma1 : EReal := Ideal.ofBits .f32 0x41200000#32
/-- The offset 0.5. -/
def gamma2 : EReal := Ideal.ofBits .f32 0x3F000000#32
/-- The stand-in 1 under the logarithm. -/
def one : EReal := Ideal.ofBits .f32 0x3F800000#32
/-- The batch size 8192. -/
def batch : EReal := Ideal.ofBits .f32 0x46000000#32

/-- The pattern of minus infinity denotes the bottom element. -/
theorem ofBits_neg_inf : Ideal.ofBits .f32 0xFF800000#32 = ⊥ := by simp [Ideal.ofBits, Ideal.ieee]
/-- The pattern of plus infinity denotes the top element. -/
theorem ofBits_pos_inf : Ideal.ofBits .f32 0x7F800000#32 = ⊤ := by simp [Ideal.ofBits, Ideal.ieee]

/-! ## The two exponentials and the guarded logarithm -/

/-- A positive pair's term. -/
def posTerm (s : EReal) : EReal := Ideal.exp (gamma2 - gamma1 * s)
/-- A negative pair's term. -/
def negTerm (s : EReal) : EReal := Ideal.exp (gamma1 * s - gamma2)

open Classical in
/-- The logarithm of a sum over the scale, a sum that is not positive read as 1. -/
def safeLog (s : EReal) : EReal := Ideal.div (Ideal.log (if 0 < s then s else one)) gamma1

section
variable (S : Mat) (T : Lab)

/-- The pair (r, c) is positive: equal labels. -/
def same (r c : Fin 8192) : Prop := T (ix1 r) = T (ix1 c)

instance (r c : Fin 8192) : Decidable (same T r c) := inferInstanceAs (Decidable (T (ix1 r) = T (ix1 c)))

theorem same_comm (r c : Fin 8192) : same T r c ↔ same T c r := eq_comm

/-! ## Hardest negative and weakest positive, per row and per column -/

/-- Row r's hardest negative. -/
def maxAnRow (r : Fin 8192) : EReal := Finset.univ.sup fun c : Fin 8192 => if same T r c then ⊥ else S (ix2 r c)
/-- Row r's weakest positive. -/
def minApRow (r : Fin 8192) : EReal := Finset.univ.inf fun c : Fin 8192 => if same T r c then S (ix2 r c) else ⊤
/-- Column c's hardest negative. -/
def maxAnCol (c : Fin 8192) : EReal := Finset.univ.sup fun r : Fin 8192 => if same T r c then ⊥ else S (ix2 r c)
/-- Column c's weakest positive. -/
def minApCol (c : Fin 8192) : EReal := Finset.univ.inf fun r : Fin 8192 => if same T r c then S (ix2 r c) else ⊤

/-! ## The informative pairs (always row first, column second) -/

/-- (r, c) is an informative positive of row r. -/
def apRow (r c : Fin 8192) : Prop := same T r c ∧ S (ix2 r c) < maxAnRow S T r + delta
/-- (r, c) is an informative negative of row r. -/
def anRow (r c : Fin 8192) : Prop := ¬ same T r c ∧ minApRow S T r - delta < S (ix2 r c)
/-- (r, c) is an informative positive of column c. -/
def apCol (r c : Fin 8192) : Prop := same T r c ∧ S (ix2 r c) < maxAnCol S T c + delta
/-- (r, c) is an informative negative of column c. -/
def anCol (r c : Fin 8192) : Prop := ¬ same T r c ∧ minApCol S T c - delta < S (ix2 r c)

open Classical in
/-- Row r's sum over its informative positives. -/
def posRow (r : Fin 8192) : EReal := ∑ c : Fin 8192, if apRow S T r c then posTerm (S (ix2 r c)) else 0
open Classical in
/-- Row r's sum over its informative negatives. -/
def negRow (r : Fin 8192) : EReal := ∑ c : Fin 8192, if anRow S T r c then negTerm (S (ix2 r c)) else 0
open Classical in
/-- Column c's sum over its informative positives. -/
def posCol (c : Fin 8192) : EReal := ∑ r : Fin 8192, if apCol S T r c then posTerm (S (ix2 r c)) else 0
open Classical in
/-- Column c's sum over its informative negatives. -/
def negCol (c : Fin 8192) : EReal := ∑ r : Fin 8192, if anCol S T r c then negTerm (S (ix2 r c)) else 0

/-- Row r's loss. -/
def capLoss (r : Fin 8192) : EReal := safeLog (posRow S T r) + safeLog (negRow S T r)
/-- Column c's loss. -/
def imLoss (c : Fin 8192) : EReal := safeLog (posCol S T c) + safeLog (negCol S T c)

/-- Row r has an informative positive and an informative negative. -/
def validRow (r : Fin 8192) : Prop := (∃ c, apRow S T r c) ∧ ∃ c, anRow S T r c
/-- Column c has an informative positive and an informative negative. -/
def validCol (c : Fin 8192) : Prop := (∃ r, apCol S T r c) ∧ ∃ r, anCol S T r c

open Classical in
/-- The loss. -/
def loss : EReal :=
  Ideal.div (∑ k : Fin 8192, if validRow S T k ∧ validCol S T k then capLoss S T k + imLoss S T k else 0) batch

/-- The result array: the loss at the scalar shape's one index. -/
def G : (⟨0, ![]⟩ : Shape).Idx → EReal := fun _ => loss S T

end

end Cert.Spec

end
-- ==== Proof.RefRow.lean ====
/-
  The reference's stages for the row direction, read at coordinates: each one-bit stage as "the word is 1 exactly
  where the specification's proposition holds", each float stage as the specification's function.
-/
import proofs.«170005_j69870527971928_1_alg».proof.Proof.Gen.ReferenceIdeal.Read
import proofs.«170005_j69870527971928_1_alg».proof.Proof.Spec
import Idealize.ShloMosaic.Lib.Affine

noncomputable section

open scoped BigOperators

namespace Cert.ReferenceIdeal.RefValue

open Cert.ReferenceIdeal Cert.ReferenceIdeal.Read Cert.Spec Idealize.ShloMosaic Idealize.ShloMosaic.ValueIdx

/-! ## Words and folds -/

/-- A select on a word that is 1 exactly where p holds is the conditional on p. -/
theorem select_of_iff {α : Type} {b : BitVec 1} {p : Prop} [Decidable p] (h : b = 1#1 ↔ p) (x y : α) :
    Scalar.select b x y = if p then x else y := by
  by_cases hp : p
  · rw [if_pos hp, h.2 hp]; exact select_one x y
  · rw [if_neg hp, eq_zero_of_ne_one (fun e => hp (h.1 e))]; exact select_zero x y

theorem cmp_olt_iff (x y : EReal) : Ideal.cmp .olt x y = 1#1 ↔ x < y := by
  unfold Ideal.cmp
  by_cases h : x < y <;> simp [h]

theorem cmp_ogt_iff (x y : EReal) : Ideal.cmp .ogt x y = 1#1 ↔ y < x := by
  unfold Ideal.cmp
  by_cases h : y < x <;> simp [h]

/-- An or-fold from the word 0 is 1 exactly when some member's word is 1. -/
theorem fold_ori_eq_one {ι : Type} (s : Finset ι) (f : ι → BitVec 1) :
    s.fold IntOp.ori 0#1 f = 1#1 ↔ ∃ i ∈ s, f i = 1#1 := by
  classical
  induction s using Finset.induction_on with
  | empty => simp
  | insert a s ha ih =>
    rw [Finset.fold_insert ha, IntOp.ori_eq_one, ih]
    simp only [Finset.mem_insert, exists_eq_or_imp]

/-- The column index (r, k) that the reduction over axis 1 inserts at row r. -/
theorem lift_row (h : S8192x8192.Reduces [1] S8192) (r k : Fin 8192) : h.lift (ix1 r) k = ix2 r k :=
  funext fun a => Fin.ext (by match a with | ⟨0, _⟩ => rfl | ⟨1, _⟩ => rfl)

/-- A maximum-reduce over the columns from minus infinity is the join over the columns. -/
theorem reduce_max_row (y : S8192x8192.Idx → EReal) (init : S_.Idx → EReal) (h' : S8192x8192.ReducesTo [1] S8192)
    (hu : 0 < S_.numel) (hinit : init (Shape.Idx.first hu) = ⊥) (r : Fin 8192) :
    Host.reduce (FloatOps.maximumf (F := Ideal) (φ := .f32)) y init h' hu (ix1 r)
      = Finset.univ.sup fun c : Fin 8192 => y (ix2 r c) := by
  have h : S8192x8192.Reduces [1] S8192 := by decide
  rw [Host.reduce_eq_fold_single (FloatOps.maximumf (F := Ideal) (φ := .f32)) y init h' h hu, hinit]
  show Finset.univ.sup (fun k : Fin 8192 => y (h.lift (ix1 r) k)) = _
  simp only [lift_row]

/-- A minimum-reduce over the columns from plus infinity is the meet over the columns. -/
theorem reduce_min_row (y : S8192x8192.Idx → EReal) (init : S_.Idx → EReal) (h' : S8192x8192.ReducesTo [1] S8192)
    (hu : 0 < S_.numel) (hinit : init (Shape.Idx.first hu) = ⊤) (r : Fin 8192) :
    Host.reduce (FloatOps.minimumf (F := Ideal) (φ := .f32)) y init h' hu (ix1 r)
      = Finset.univ.inf fun c : Fin 8192 => y (ix2 r c) := by
  have h : S8192x8192.Reduces [1] S8192 := by decide
  rw [Host.reduce_eq_fold_single (FloatOps.minimumf (F := Ideal) (φ := .f32)) y init h' h hu, hinit]
  show Finset.univ.inf (fun k : Fin 8192 => y (h.lift (ix1 r) k)) = _
  simp only [lift_row]

/-- An or-reduce over the columns from the word 0 is 1 exactly when some column's word is 1. -/
theorem reduce_or_row (y : S8192x8192.Idx → BitVec 1) (init : S_.Idx → BitVec 1) (h' : S8192x8192.ReducesTo [1] S8192)
    (hu : 0 < S_.numel) (hinit : init (Shape.Idx.first hu) = 0#1) (r : Fin 8192) :
    Host.reduce IntOp.ori y init h' hu (ix1 r) = 1#1 ↔ ∃ c : Fin 8192, y (ix2 r c) = 1#1 := by
  have h : S8192x8192.Reduces [1] S8192 := by decide
  rw [Host.reduce_eq_fold_single IntOp.ori y init h' h hu, hinit]
  show (Finset.univ : Finset (Fin 8192)).fold IntOp.ori 0#1 (fun k => y (h.lift (ix1 r) k)) = 1#1 ↔ _
  refine (fold_ori_eq_one Finset.univ (fun k : Fin 8192 => y (h.lift (ix1 r) k))).trans ?_
  simp only [lift_row, Finset.mem_univ, true_and]

/-! ## The stages -/

section Stages
open Classical

variable (x0 : (⟨S8192x8192, .f32⟩ : BufTy).Contents (Elt Ideal)) (x1 : (⟨S8192, .i32⟩ : BufTy).Contents (Elt Ideal))

/-- The label-equality word of (r, c). -/
theorem mask_iff (r c : Fin 8192) : val_main_v4 (F := Ideal) x1 (ix2 r c) = 1#1 ↔ same x1 r c := by
  have e0 : idx_main_v0 (idx_main_v2 (ix2 r c)) = ix1 r := funext fun a => match a with | ⟨0, _⟩ => rfl
  have e1 : idx_main_v1 (idx_main_v3 (ix2 r c)) = ix1 c := funext fun a => match a with | ⟨0, _⟩ => rfl
  rw [val_main_v4_apply, val_main_v2_apply, val_main_v3_apply, val_main_v0_apply, val_main_v1_apply, e0, e1, IntOp.cmpi_eq]
  exact Iff.rfl

theorem nmask_iff (r c : Fin 8192) : val_main_v5 (F := Ideal) x1 (ix2 r c) = 1#1 ↔ ¬ same x1 r c := by
  rw [val_main_v5_apply, IntOp.not_eq_one, mask_iff]

/-- The scores with the positives masked to minus infinity. -/
theorem v6_eq (r c : Fin 8192) :
    val_main_v6 (F := Ideal) x0 x1 (ix2 r c) = if same x1 r c then ⊥ else x0 (ix2 r c) := by
  rw [val_main_v6_apply, val_main_call0_v0_apply, val_main_cst_apply, select_of_iff (nmask_iff x1 r c),
    Ideal.ofBits_def, ofBits_neg_inf, ite_not]

theorem v7_eq (r : Fin 8192) : val_main_v7 (F := Ideal) x0 x1 (ix1 r) = maxAnRow x0 x1 r := by
  unfold val_main_v7 maxAnRow
  rw [reduce_max_row _ _ _ _ (by rw [val_main_cst_0_apply, Ideal.ofBits_def, ofBits_neg_inf])]
  simp only [v6_eq]

/-- The scores with the negatives masked to plus infinity. -/
theorem v8_eq (r c : Fin 8192) :
    val_main_v8 (F := Ideal) x0 x1 (ix2 r c) = if same x1 r c then x0 (ix2 r c) else ⊤ := by
  rw [val_main_v8_apply, val_main_call1_v0_apply, val_main_cst_1_apply, select_of_iff (mask_iff x1 r c),
    Ideal.ofBits_def, ofBits_pos_inf]

theorem v9_eq (r : Fin 8192) : val_main_v9 (F := Ideal) x0 x1 (ix1 r) = minApRow x0 x1 r := by
  unfold val_main_v9 minApRow
  rw [reduce_min_row _ _ _ _ (by rw [val_main_cst_2_apply, Ideal.ofBits_def, ofBits_pos_inf])]
  simp only [v8_eq]

theorem v13_eq (r c : Fin 8192) : val_main_v13 (F := Ideal) x0 x1 (ix2 r c) = maxAnRow x0 x1 r + delta := by
  have e : idx_main_v12 (idx_main_v13 (ix2 r c)) = ix1 r := funext fun a => match a with | ⟨0, _⟩ => rfl
  rw [val_main_v13_apply, val_main_v12_apply, e, val_main_v11_apply, val_main_v10_apply, val_main_cst_3_apply, v7_eq]
  rfl

theorem v15_iff (r c : Fin 8192) : val_main_v15 (F := Ideal) x0 x1 (ix2 r c) = 1#1 ↔ apRow x0 x1 r c := by
  rw [val_main_v15_apply, IntOp.andi_eq_one, mask_iff, val_main_v14_apply, v13_eq, Ideal.cmpf_def, cmp_olt_iff]
  exact Iff.rfl

theorem v19_eq (r c : Fin 8192) : val_main_v19 (F := Ideal) x0 x1 (ix2 r c) = minApRow x0 x1 r - delta := by
  have e : idx_main_v18 (idx_main_v19 (ix2 r c)) = ix1 r := funext fun a => match a with | ⟨0, _⟩ => rfl
  rw [val_main_v19_apply, val_main_v18_apply, e, val_main_v17_apply, val_main_v16_apply, val_main_cst_4_apply, v9_eq]
  rfl

theorem v21_iff (r c : Fin 8192) : val_main_v21 (F := Ideal) x0 x1 (ix2 r c) = 1#1 ↔ anRow x0 x1 r c := by
  rw [val_main_v21_apply, IntOp.andi_eq_one, nmask_iff, val_main_v20_apply, v19_eq, Ideal.cmpf_def, cmp_ogt_iff]
  exact Iff.rfl

theorem v26_eq (i : S8192x8192.Idx) : val_main_v26 (F := Ideal) x0 i = posTerm (x0 i) := by
  rw [val_main_v26_apply, val_main_v25_apply, val_main_v24_apply, val_main_cst_6_apply, val_main_v23_apply,
    val_main_v22_apply, val_main_cst_5_apply]
  rfl

theorem v27_eq (r c : Fin 8192) :
    val_main_v27 (F := Ideal) x0 x1 (ix2 r c) = if apRow x0 x1 r c then posTerm (x0 (ix2 r c)) else 0 := by
  rw [val_main_v27_apply, select_of_iff (v15_iff x0 x1 r c), v26_eq, val_main_call2_v1_apply, val_main_call2_v0_apply,
    val_main_cst_7_apply, Ideal.ofBits_def, Ideal.ofBits_zero_f32]

theorem v28_eq (r : Fin 8192) : val_main_v28 (F := Ideal) x0 x1 (ix1 r) = posRow x0 x1 r := by
  have e : ∀ k, idx_main_v28 (ix1 r) k = ix2 r k :=
    fun k => funext fun a => match a with | ⟨0, _⟩ => rfl | ⟨1, _⟩ => rfl
  rw [val_main_v28_apply, val_main_cst_8_apply, Ideal.ofBits_def, Ideal.ofBits_zero_f32, zero_add]
  unfold posRow
  simp only [e, v27_eq]

theorem v33_eq (i : S8192x8192.Idx) : val_main_v33 (F := Ideal) x0 i = negTerm (x0 i) := by
  rw [val_main_v33_apply, val_main_v32_apply, val_main_v31_apply, val_main_cst_10_apply, val_main_v30_apply,
    val_main_v29_apply, val_main_cst_9_apply]
  rfl

theorem v34_eq (r c : Fin 8192) :
    val_main_v34 (F := Ideal) x0 x1 (ix2 r c) = if anRow x0 x1 r c then negTerm (x0 (ix2 r c)) else 0 := by
  rw [val_main_v34_apply, select_of_iff (v21_iff x0 x1 r c), v33_eq, val_main_call3_v1_apply, val_main_call3_v0_apply,
    val_main_cst_11_apply, Ideal.ofBits_def, Ideal.ofBits_zero_f32]

theorem v35_eq (r : Fin 8192) : val_main_v35 (F := Ideal) x0 x1 (ix1 r) = negRow x0 x1 r := by
  have e : ∀ k, idx_main_v35 (ix1 r) k = ix2 r k :=
    fun k => funext fun a => match a with | ⟨0, _⟩ => rfl | ⟨1, _⟩ => rfl
  rw [val_main_v35_apply, val_main_cst_12_apply, Ideal.ofBits_def, Ideal.ofBits_zero_f32, zero_add]
  unfold negRow
  simp only [e, v34_eq]

theorem v41_eq (r : Fin 8192) : val_main_v41 (F := Ideal) x0 x1 (ix1 r) = safeLog (posRow x0 x1 r) := by
  rw [val_main_v41_apply, val_main_v40_apply, val_main_cst_15_apply, val_main_v39_apply, val_main_v38_apply,
    val_main_v37_apply, val_main_v36_apply, val_main_cst_13_apply, val_main_call4_v1_apply, val_main_call4_v0_apply,
    val_main_cst_14_apply, v28_eq, Ideal.cmpf_def, select_of_iff (cmp_ogt_iff _ _)]
  simp only [Ideal.ofBits_def, Ideal.ofBits_zero_f32]
  rfl

theorem v47_eq (r : Fin 8192) : val_main_v47 (F := Ideal) x0 x1 (ix1 r) = safeLog (negRow x0 x1 r) := by
  rw [val_main_v47_apply, val_main_v46_apply, val_main_cst_18_apply, val_main_v45_apply, val_main_v44_apply,
    val_main_v43_apply, val_main_v42_apply, val_main_cst_16_apply, val_main_call5_v1_apply, val_main_call5_v0_apply,
    val_main_cst_17_apply, v35_eq, Ideal.cmpf_def, select_of_iff (cmp_ogt_iff _ _)]
  simp only [Ideal.ofBits_def, Ideal.ofBits_zero_f32]
  rfl

theorem v48_iff (r : Fin 8192) : val_main_v48 (F := Ideal) x0 x1 (ix1 r) = 1#1 ↔ ∃ c, apRow x0 x1 r c := by
  unfold val_main_v48
  exact (reduce_or_row _ _ _ _ (val_main_c_apply _) r).trans (exists_congr fun c => v15_iff x0 x1 r c)

theorem v49_iff (r : Fin 8192) : val_main_v49 (F := Ideal) x0 x1 (ix1 r) = 1#1 ↔ ∃ c, anRow x0 x1 r c := by
  unfold val_main_v49
  exact (reduce_or_row _ _ _ _ (val_main_c_19_apply _) r).trans (exists_congr fun c => v21_iff x0 x1 r c)

theorem v50_iff (r : Fin 8192) : val_main_v50 (F := Ideal) x0 x1 (ix1 r) = 1#1 ↔ validRow x0 x1 r := by
  rw [val_main_v50_apply, IntOp.andi_eq_one, v48_iff, v49_iff]
  exact Iff.rfl

theorem v51_eq (r : Fin 8192) : val_main_v51 (F := Ideal) x0 x1 (ix1 r) = capLoss x0 x1 r := by
  rw [val_main_v51_apply, v41_eq, v47_eq]
  rfl

end Stages

end Cert.ReferenceIdeal.RefValue

end
-- ==== Proof.RefCol.lean ====
/-
  The reference's stages for the column direction (its second pass runs on the transposed scores with the same,
  symmetric, label-equality words), read at coordinates: index (c, r) of a transposed array is entry (r, c) of the scores.
-/
import proofs.«170005_j69870527971928_1_alg».proof.Proof.RefRow

noncomputable section

open scoped BigOperators

namespace Cert.ReferenceIdeal.RefValue

open Cert.ReferenceIdeal Cert.ReferenceIdeal.Read Cert.Spec Idealize.ShloMosaic Idealize.ShloMosaic.ValueIdx

section Stages
open Classical

variable (x0 : (⟨S8192x8192, .f32⟩ : BufTy).Contents (Elt Ideal)) (x1 : (⟨S8192, .i32⟩ : BufTy).Contents (Elt Ideal))

/-- The transposed scores at (a, b) are the scores at (b, a). -/
theorem v52_eq (a b : Fin 8192) : val_main_v52 (F := Ideal) x0 (ix2 a b) = x0 (ix2 b a) := by
  rw [val_main_v52_apply]
  exact congrArg x0 (funext fun d => match d with | ⟨0, _⟩ => rfl | ⟨1, _⟩ => rfl)

/-- The label-equality word at (c, r) says that (r, c) is a positive pair. -/
theorem maskT_iff (c r : Fin 8192) : val_main_v4 (F := Ideal) x1 (ix2 c r) = 1#1 ↔ same x1 r c :=
  (mask_iff x1 c r).trans (same_comm x1 c r)

theorem nmaskT_iff (c r : Fin 8192) : val_main_v53 (F := Ideal) x1 (ix2 c r) = 1#1 ↔ ¬ same x1 r c := by
  rw [val_main_v53_apply, IntOp.not_eq_one, maskT_iff]

theorem v54_eq (c r : Fin 8192) :
    val_main_v54 (F := Ideal) x0 x1 (ix2 c r) = if same x1 r c then ⊥ else x0 (ix2 r c) := by
  rw [val_main_v54_apply, val_main_call6_v0_apply, val_main_cst_20_apply, select_of_iff (nmaskT_iff x1 c r),
    Ideal.ofBits_def, ofBits_neg_inf, ite_not, v52_eq]

theorem v55_eq (c : Fin 8192) : val_main_v55 (F := Ideal) x0 x1 (ix1 c) = maxAnCol x0 x1 c := by
  unfold val_main_v55 maxAnCol
  rw [reduce_max_row _ _ _ _ (by rw [val_main_cst_21_apply, Ideal.ofBits_def, ofBits_neg_inf])]
  simp only [v54_eq]

theorem v56_eq (c r : Fin 8192) :
    val_main_v56 (F := Ideal) x0 x1 (ix2 c r) = if same x1 r c then x0 (ix2 r c) else ⊤ := by
  rw [val_main_v56_apply, val_main_call7_v0_apply, val_main_cst_22_apply, select_of_iff (maskT_iff x1 c r),
    Ideal.ofBits_def, ofBits_pos_inf, v52_eq]

theorem v57_eq (c : Fin 8192) : val_main_v57 (F := Ideal) x0 x1 (ix1 c) = minApCol x0 x1 c := by
  unfold val_main_v57 minApCol
  rw [reduce_min_row _ _ _ _ (by rw [val_main_cst_23_apply, Ideal.ofBits_def, ofBits_pos_inf])]
  simp only [v56_eq]

theorem v61_eq (c r : Fin 8192) : val_main_v61 (F := Ideal) x0 x1 (ix2 c r) = maxAnCol x0 x1 c + delta := by
  have e : idx_main_v60 (idx_main_v61 (ix2 c r)) = ix1 c := funext fun a => match a with | ⟨0, _⟩ => rfl
  rw [val_main_v61_apply, val_main_v60_apply, e, val_main_v59_apply, val_main_v58_apply, val_main_cst_24_apply, v55_eq]
  rfl

theorem v63_iff (c r : Fin 8192) : val_main_v63 (F := Ideal) x0 x1 (ix2 c r) = 1#1 ↔ apCol x0 x1 r c := by
  rw [val_main_v63_apply, IntOp.andi_eq_one, maskT_iff, val_main_v62_apply, v61_eq, v52_eq, Ideal.cmpf_def, cmp_olt_iff]
  exact Iff.rfl

theorem v67_eq (c r : Fin 8192) : val_main_v67 (F := Ideal) x0 x1 (ix2 c r) = minApCol x0 x1 c - delta := by
  have e : idx_main_v66 (idx_main_v67 (ix2 c r)) = ix1 c := funext fun a => match a with | ⟨0, _⟩ => rfl
  rw [val_main_v67_apply, val_main_v66_apply, e, val_main_v65_apply, val_main_v64_apply, val_main_cst_25_apply, v57_eq]
  rfl

theorem v69_iff (c r : Fin 8192) : val_main_v69 (F := Ideal) x0 x1 (ix2 c r) = 1#1 ↔ anCol x0 x1 r c := by
  rw [val_main_v69_apply, IntOp.andi_eq_one, nmaskT_iff, val_main_v68_apply, v67_eq, v52_eq, Ideal.cmpf_def, cmp_ogt_iff]
  exact Iff.rfl

theorem v74_eq (c r : Fin 8192) : val_main_v74 (F := Ideal) x0 (ix2 c r) = posTerm (x0 (ix2 r c)) := by
  rw [val_main_v74_apply, val_main_v73_apply, val_main_v72_apply, val_main_cst_27_apply, val_main_v71_apply,
    val_main_v70_apply, val_main_cst_26_apply, v52_eq]
  rfl

theorem v75_eq (c r : Fin 8192) :
    val_main_v75 (F := Ideal) x0 x1 (ix2 c r) = if apCol x0 x1 r c then posTerm (x0 (ix2 r c)) else 0 := by
  rw [val_main_v75_apply, select_of_iff (v63_iff x0 x1 c r), v74_eq, val_main_call8_v1_apply, val_main_call8_v0_apply,
    val_main_cst_28_apply, Ideal.ofBits_def, Ideal.ofBits_zero_f32]

theorem v76_eq (c : Fin 8192) : val_main_v76 (F := Ideal) x0 x1 (ix1 c) = posCol x0 x1 c := by
  have e : ∀ k, idx_main_v76 (ix1 c) k = ix2 c k :=
    fun k => funext fun a => match a with | ⟨0, _⟩ => rfl | ⟨1, _⟩ => rfl
  rw [val_main_v76_apply, val_main_cst_29_apply, Ideal.ofBits_def, Ideal.ofBits_zero_f32, zero_add]
  unfold posCol
  simp only [e, v75_eq]

theorem v81_eq (c r : Fin 8192) : val_main_v81 (F := Ideal) x0 (ix2 c r) = negTerm (x0 (ix2 r c)) := by
  rw [val_main_v81_apply, val_main_v80_apply, val_main_v79_apply, val_main_cst_31_apply, val_main_v78_apply,
    val_main_v77_apply, val_main_cst_30_apply, v52_eq]
  rfl

theorem v82_eq (c r : Fin 8192) :
    val_main_v82 (F := Ideal) x0 x1 (ix2 c r) = if anCol x0 x1 r c then negTerm (x0 (ix2 r c)) else 0 := by
  rw [val_main_v82_apply, select_of_iff (v69_iff x0 x1 c r), v81_eq, val_main_call9_v1_apply, val_main_call9_v0_apply,
    val_main_cst_32_apply, Ideal.ofBits_def, Ideal.ofBits_zero_f32]

theorem v83_eq (c : Fin 8192) : val_main_v83 (F := Ideal) x0 x1 (ix1 c) = negCol x0 x1 c := by
  have e : ∀ k, idx_main_v83 (ix1 c) k = ix2 c k :=
    fun k => funext fun a => match a with | ⟨0, _⟩ => rfl | ⟨1, _⟩ => rfl
  rw [val_main_v83_apply, val_main_cst_33_apply, Ideal.ofBits_def, Ideal.ofBits_zero_f32, zero_add]
  unfold negCol
  simp only [e, v82_eq]

theorem v89_eq (c : Fin 8192) : val_main_v89 (F := Ideal) x0 x1 (ix1 c) = safeLog (posCol x0 x1 c) := by
  rw [val_main_v89_apply, val_main_v88_apply, val_main_cst_36_apply, val_main_v87_apply, val_main_v86_apply,
    val_main_v85_apply, val_main_v84_apply, val_main_cst_34_apply, val_main_call10_v1_apply, val_main_call10_v0_apply,
    val_main_cst_35_apply, v76_eq, Ideal.cmpf_def, select_of_iff (cmp_ogt_iff _ _)]
  simp only [Ideal.ofBits_def, Ideal.ofBits_zero_f32]
  rfl

theorem v95_eq (c : Fin 8192) : val_main_v95 (F := Ideal) x0 x1 (ix1 c) = safeLog (negCol x0 x1 c) := by
  rw [val_main_v95_apply, val_main_v94_apply, val_main_cst_39_apply, val_main_v93_apply, val_main_v92_apply,
    val_main_v91_apply, val_main_v90_apply, val_main_cst_37_apply, val_main_call11_v1_apply, val_main_call11_v0_apply,
    val_main_cst_38_apply, v83_eq, Ideal.cmpf_def, select_of_iff (cmp_ogt_iff _ _)]
  simp only [Ideal.ofBits_def, Ideal.ofBits_zero_f32]
  rfl

theorem v96_iff (c : Fin 8192) : val_main_v96 (F := Ideal) x0 x1 (ix1 c) = 1#1 ↔ ∃ r, apCol x0 x1 r c := by
  unfold val_main_v96
  exact (reduce_or_row _ _ _ _ (val_main_c_40_apply _) c).trans (exists_congr fun r => v63_iff x0 x1 c r)

theorem v97_iff (c : Fin 8192) : val_main_v97 (F := Ideal) x0 x1 (ix1 c) = 1#1 ↔ ∃ r, anCol x0 x1 r c := by
  unfold val_main_v97
  exact (reduce_or_row _ _ _ _ (val_main_c_41_apply _) c).trans (exists_congr fun r => v69_iff x0 x1 c r)

theorem v98_iff (c : Fin 8192) : val_main_v98 (F := Ideal) x0 x1 (ix1 c) = 1#1 ↔ validCol x0 x1 c := by
  rw [val_main_v98_apply, IntOp.andi_eq_one, v96_iff, v97_iff]
  exact Iff.rfl

theorem v99_eq (c : Fin 8192) : val_main_v99 (F := Ideal) x0 x1 (ix1 c) = imLoss x0 x1 c := by
  rw [val_main_v99_apply, v89_eq, v95_eq]
  rfl

end Stages

end Cert.ReferenceIdeal.RefValue

end
-- ==== Proof.RefSpec.lean ====
/-
  The reference is the specification: the last stage of the reference's run, as a function of the score matrix and the
  label vector, is the loss of the specification, index by index.
-/
import proofs.«170005_j69870527971928_1_alg».proof.Proof.RefCol

noncomputable section

open scoped BigOperators

namespace Cert.ReferenceIdeal.RefValue

open Cert.ReferenceIdeal Cert.ReferenceIdeal.Read Cert.Spec Idealize.ShloMosaic Idealize.ShloMosaic.ValueIdx
  Idealize.ShloMosaic.TcCoe Idealize.SL.Sem

section Result
open Classical

variable (x0 : (⟨S8192x8192, .f32⟩ : BufTy).Contents (Elt Ideal)) (x1 : (⟨S8192, .i32⟩ : BufTy).Contents (Elt Ideal))

theorem v100_iff (k : Fin 8192) :
    val_main_v100 (F := Ideal) x0 x1 (ix1 k) = 1#1 ↔ validRow x0 x1 k ∧ validCol x0 x1 k := by
  rw [val_main_v100_apply, IntOp.andi_eq_one, v50_iff, v98_iff]

theorem v101_eq (k : Fin 8192) : val_main_v101 (F := Ideal) x0 x1 (ix1 k) = capLoss x0 x1 k + imLoss x0 x1 k := by
  rw [val_main_v101_apply, v51_eq, v99_eq]
  rfl

/-- Index k's contribution. -/
theorem v102_eq (k : Fin 8192) :
    val_main_v102 (F := Ideal) x0 x1 (ix1 k)
      = if validRow x0 x1 k ∧ validCol x0 x1 k then capLoss x0 x1 k + imLoss x0 x1 k else 0 := by
  rw [val_main_v102_apply, select_of_iff (v100_iff x0 x1 k), v101_eq, val_main_call12_v1_apply,
    val_main_call12_v0_apply, val_main_cst_42_apply, Ideal.ofBits_def, Ideal.ofBits_zero_f32]

/-- A rank-1 index is its coordinate. -/
def idxEquiv1 : S8192.Idx ≃ Fin 8192 where
  toFun i := i 0
  invFun := ix1
  left_inv i := (eq_ix1 i).symm
  right_inv _ := rfl

/-- The sum of the contributions. -/
theorem v103_eq (i : S_.Idx) :
    val_main_v103 (F := Ideal) x0 x1 i
      = ∑ k : Fin 8192, if validRow x0 x1 k ∧ validCol x0 x1 k then capLoss x0 x1 k + imLoss x0 x1 k else 0 := by
  rw [val_main_v103_apply, val_main_cst_43_apply, Ideal.ofBits_def, Ideal.ofBits_zero_f32, zero_add,
    ← Equiv.sum_comp idxEquiv1.symm]
  exact Finset.sum_congr rfl fun k _ => v102_eq x0 x1 k

/-- THE REFERENCE IS THE SPECIFICATION: its last stage, as a function of the two arguments, is the loss. -/
theorem result_eq : val_main_v104 (F := Ideal) x0 x1 = G x0 x1 := by
  funext i
  rw [val_main_v104_apply, v103_eq, val_main_cst_44_apply]
  rfl

end Result

/-- The run's result term is the loss of the arguments as the run finds them. -/
theorem res_eq (m : (ℓ : Loc nD τ sig) → Buf (Elt Ideal) ℓ) (c : Dev nD) :
    Cert.ReferenceIdeal.Value.res_main_v104 m c
      = G (m ((c.tc : Thread nD τ).loc main_arg0)) (m ((c.tc : Thread nD τ).loc main_arg1)) := by
  rw [val_main_v104_eq]
  exact result_eq _ _

end Cert.ReferenceIdeal.RefValue

end
-- ==== Proof.TailSpec.lean ====
/-
  The last step: the loss from the six per-index arrays the second pass leaves.  Index k contributes
  (o0 k + o1 k) + (o3 k + o4 k) where both flags o2 k and o5 k are above one half, else 0; the result is the sum of the
  contributions over the batch size.  When o0, o1 are the row's two guarded logarithms, o3, o4 the column's, and the
  flags are above one half exactly where the row, resp. the column, has an informative positive and an informative
  negative, this is the specification's loss.
-/
import proofs.«170005_j69870527971928_1_alg».proof.Proof.Spec

noncomputable section

open scoped BigOperators

namespace Cert.Spec

open Idealize.ShloMosaic Idealize.ShloMosaic.ValueIdx

open Classical in
/-- The loss from the six arrays. -/
def tailFn (o0 o1 o2 o3 o4 o5 : (⟨1, ![8192]⟩ : Shape).Idx → EReal) : (⟨0, ![]⟩ : Shape).Idx → EReal := fun _ =>
  Ideal.div (∑ k : Fin 8192,
    if Ideal.ofBits .f32 0x3F000000#32 < o2 (ix1 k) ∧ Ideal.ofBits .f32 0x3F000000#32 < o5 (ix1 k)
    then (o0 (ix1 k) + o1 (ix1 k)) + (o3 (ix1 k) + o4 (ix1 k)) else 0) batch

open Classical in
theorem tailFn_eq_G (S : Mat) (T : Lab) (o0 o1 o2 o3 o4 o5 : (⟨1, ![8192]⟩ : Shape).Idx → EReal)
    (h0 : ∀ k, o0 (ix1 k) = safeLog (posRow S T k)) (h1 : ∀ k, o1 (ix1 k) = safeLog (negRow S T k))
    (h2 : ∀ k, Ideal.ofBits .f32 0x3F000000#32 < o2 (ix1 k) ↔ (∃ c, apRow S T k c) ∧ ∃ c, anRow S T k c)
    (h3 : ∀ k, o3 (ix1 k) = safeLog (posCol S T k)) (h4 : ∀ k, o4 (ix1 k) = safeLog (negCol S T k))
    (h5 : ∀ k, Ideal.ofBits .f32 0x3F000000#32 < o5 (ix1 k) ↔ (∃ r, apCol S T r k) ∧ ∃ r, anCol S T r k) :
    tailFn o0 o1 o2 o3 o4 o5 = G S T := by
  funext i
  unfold tailFn G loss
  refine congrArg (fun s => Ideal.div s batch) (Finset.sum_congr rfl fun k _ => ?_)
  rw [h0, h1, h3, h4]
  exact if_congr (and_congr (h2 k) (h5 k)) rfl rfl

end Cert.Spec

end
-- ==== Proof.Words.lean ====
/-
  One-bit words, selects and comparisons at the extended reals, and a rank-1 index set as its coordinate range.
-/
import Idealize.ShloMosaic.Lib.IdealHost
import Idealize.ShloMosaic.Lib.Affine

noncomputable section

open scoped BigOperators

namespace Cert.Words

open Idealize.ShloMosaic Idealize.ShloMosaic.ValueIdx

/-- A select on a word that is 1 exactly where p holds is the conditional on p. -/
theorem select_of_iff {α : Type} {b : BitVec 1} {p : Prop} [Decidable p] (h : b = 1#1 ↔ p) (x y : α) :
    Scalar.select b x y = if p then x else y := by
  by_cases hp : p
  · rw [if_pos hp, h.2 hp]; exact select_one x y
  · rw [if_neg hp, eq_zero_of_ne_one (fun e => hp (h.1 e))]; exact select_zero x y

theorem cmp_olt_iff (x y : EReal) : Ideal.cmp .olt x y = 1#1 ↔ x < y := by
  unfold Ideal.cmp
  by_cases h : x < y <;> simp [h]

theorem cmp_ogt_iff (x y : EReal) : Ideal.cmp .ogt x y = 1#1 ↔ y < x := by
  unfold Ideal.cmp
  by_cases h : y < x <;> simp [h]

/-- An or-fold from the word 0 is 1 exactly when some member's word is 1. -/
theorem fold_ori_eq_one {ι : Type} (s : Finset ι) (f : ι → BitVec 1) :
    s.fold IntOp.ori 0#1 f = 1#1 ↔ ∃ i ∈ s, f i = 1#1 := by
  classical
  induction s using Finset.induction_on with
  | empty => simp
  | insert a s ha ih =>
    rw [Finset.fold_insert ha, IntOp.ori_eq_one, ih]
    simp only [Finset.mem_insert, exists_eq_or_imp]

/-- A rank-1 index set is its coordinate range … -/
def idxEquiv1 {n : Nat} : (⟨1, ![n]⟩ : Shape).Idx ≃ Fin n where
  toFun i := i 0
  invFun := ix1
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Cert.Words

end
-- ==== Proof.HostTail.lean ====
/-
  The host operations after the second pass, read as ONE function of the six arrays the pass leaves: two sums of
  logarithms, two flag tests against one half, their conjunction, the select against zero, the sum over the index and
  the quotient by the batch size.
-/
import proofs.«170005_j69870527971928_1_alg».proof.Proof.Gen.KernelIdeal.Regions
import Idealize.ShloMosaic.Lib.StableHlo.Run
import Idealize.ShloMosaic.Lib.IdealHost
import proofs.«170005_j69870527971928_1_alg».proof.Proof.TailSpec
import proofs.«170005_j69870527971928_1_alg».proof.Proof.Words

noncomputable section

open scoped BigOperators

namespace Cert.KernelIdeal.Tail

open Cert.KernelIdeal Cert.KernelIdeal.Gen Idealize.ShloMosaic Idealize.ShloMosaic.TcCoe Idealize.ShloMosaic.ValueIdx
  Idealize.ShloMosaic.StableHlo Idealize.SL.Sem

/-- The operations' composed term. -/
def tailOps (hb : S_.BroadcastsInDim S8192 (![] : Fin 0 → Fin S8192.rank)) (hr : S8192.ReducesTo [0] S_) (hu : 0 < S_.numel)
    (o0 o1 o2 o3 o4 o5 : (⟨S8192, .f32⟩ : BufTy).Contents (Elt Ideal)) : (⟨S_, .f32⟩ : BufTy).Contents (Elt Ideal) :=
  Host.divf
    (Host.reduceAdd
      (select
        (andi (cmpf .ogt o2 (broadcastInDim S8192 ![] hb (constant (F := Ideal) S_ .f32 0x3F000000#32)))
          (cmpf .ogt o5 (broadcastInDim S8192 ![] hb (constant (F := Ideal) S_ .f32 0x3F000000#32))))
        (addf (addf o0 o1) (addf o3 o4))
        (broadcastInDim S8192 ![] hb (id (constant (F := Ideal) S_ .f32 0x00000000#32))))
      (constant (F := Ideal) S_ .f32 0x00000000#32) hr hu)
    (constant (F := Ideal) S_ .f32 0x46000000#32)

/-- The three host stretches after the second pass compute that term of the six arrays. -/
theorem tail_ops (hb : S_.BroadcastsInDim S8192 (![] : Fin 0 → Fin S8192.rank)) (hr : S8192.ReducesTo [0] S_)
    (hu : 0 < S_.numel) (W : Valuation τ sig (Elt Ideal)) :
    StableHlo.after (hostOps2_2 (F := Ideal)) (StableHlo.after (hostOps2_1 (F := Ideal)) (StableHlo.after (hostOps2 (F := Ideal)) W))
        (Proc.devRef .tc main_v12)
      = tailOps hb hr hu (W (Proc.devRef .tc main_v1_0)) (W (Proc.devRef .tc main_v1_1)) (W (Proc.devRef .tc main_v1_2))
          (W (Proc.devRef .tc main_v1_3)) (W (Proc.devRef .tc main_v1_4)) (W (Proc.devRef .tc main_v1_5)) := by
  after_results
  rfl

/-- The flag tests' conjunction at an index. -/
theorem sel_iff (hb : S_.BroadcastsInDim S8192 (![] : Fin 0 → Fin S8192.rank))
    (o2 o5 : (⟨S8192, .f32⟩ : BufTy).Contents (Elt Ideal)) (j : S8192.Idx) :
    andi (cmpf .ogt o2 (broadcastInDim S8192 ![] hb (constant (F := Ideal) S_ .f32 0x3F000000#32)))
        (cmpf .ogt o5 (broadcastInDim S8192 ![] hb (constant (F := Ideal) S_ .f32 0x3F000000#32))) j = 1#1
      ↔ Ideal.ofBits .f32 0x3F000000#32 < o2 j ∧ Ideal.ofBits .f32 0x3F000000#32 < o5 j := by
  show IntOp.andi
      (Ideal.cmp .ogt (o2 j) (broadcastInDim S8192 ![] hb (constant (F := Ideal) S_ .f32 0x3F000000#32) j))
      (Ideal.cmp .ogt (o5 j) (broadcastInDim S8192 ![] hb (constant (F := Ideal) S_ .f32 0x3F000000#32) j)) = 1#1 ↔ _
  rw [IntOp.andi_eq_one, Words.cmp_ogt_iff, Words.cmp_ogt_iff, broadcastInDim_scalar_apply]
  exact Iff.rfl

open Classical in
/-- The composed term, index by index, is the loss from the six arrays. -/
theorem tailOps_eq (hb : S_.BroadcastsInDim S8192 (![] : Fin 0 → Fin S8192.rank)) (hr : S8192.ReducesTo [0] S_)
    (hu : 0 < S_.numel) (o0 o1 o2 o3 o4 o5 : (⟨S8192, .f32⟩ : BufTy).Contents (Elt Ideal)) :
    tailOps hb hr hu o0 o1 o2 o3 o4 o5 = Cert.Spec.tailFn o0 o1 o2 o3 o4 o5 := by
  funext i
  unfold tailOps Cert.Spec.tailFn
  rw [hostDivf_apply, hostReduceAdd_apply, Ideal.hostReduceAdd_total hr (fun b => b.elim0), Words.sum_idx1]
  refine congrArg₂ Ideal.div ?_ rfl
  rw [constant_apply, Ideal.ofBits_zero_f32, zero_add]
  refine Finset.sum_congr rfl fun k _ => ?_
  rw [select_apply, Words.select_of_iff (sel_iff hb o2 o5 (ix1 k)), broadcastInDim_scalar_apply]
  show (if _ then _ else Ideal.ofBits .f32 0x00000000#32) = _
  rw [Ideal.ofBits_zero_f32]
  rfl

/-- THE TAIL: after the three host stretches the result buffer holds the loss from the six arrays as the stretches
    find them. -/
theorem tail_eq (W : Valuation τ sig (Elt Ideal)) :
    StableHlo.after (hostOps2_2 (F := Ideal)) (StableHlo.after (hostOps2_1 (F := Ideal)) (StableHlo.after (hostOps2 (F := Ideal)) W))
        (Proc.devRef .tc main_v12)
      = Cert.Spec.tailFn (W (Proc.devRef .tc main_v1_0)) (W (Proc.devRef .tc main_v1_1)) (W (Proc.devRef .tc main_v1_2))
          (W (Proc.devRef .tc main_v1_3)) (W (Proc.devRef .tc main_v1_4)) (W (Proc.devRef .tc main_v1_5)) := by
  rw [tail_ops Facts₀.bcast_S_S8192 Facts₀.reducesTo_S8192_S_d0 Facts₀.h_S_ W]
  exact tailOps_eq _ _ _ _ _ _ _ _ _

/-- No host stretch writes the first argument. -/
theorem tail_arg0 (W : Valuation τ sig (Elt Ideal)) :
    StableHlo.after (hostOps2_2 (F := Ideal)) (StableHlo.after (hostOps2_1 (F := Ideal)) (StableHlo.after (hostOps2 (F := Ideal)) W))
        (Proc.devRef .tc main_arg0) = W (Proc.devRef .tc main_arg0) :=
  (StableHlo.after_of_writes_sub hostOps2_2 _ hostOps2_2_writes (by decide)).trans
    ((StableHlo.after_of_writes_sub hostOps2_1 _ hostOps2_1_writes (by decide)).trans
      (StableHlo.after_of_writes_sub hostOps2 _ hostOps2_writes (by decide)))

/-- No host stretch writes the second argument. -/
theorem tail_arg1 (W : Valuation τ sig (Elt Ideal)) :
    StableHlo.after (hostOps2_2 (F := Ideal)) (StableHlo.after (hostOps2_1 (F := Ideal)) (StableHlo.after (hostOps2 (F := Ideal)) W))
        (Proc.devRef .tc main_arg1) = W (Proc.devRef .tc main_arg1) :=
  (StableHlo.after_of_writes_sub hostOps2_2 _ hostOps2_2_writes (by decide)).trans
    ((StableHlo.after_of_writes_sub hostOps2_1 _ hostOps2_1_writes (by decide)).trans
      (StableHlo.after_of_writes_sub hostOps2 _ hostOps2_writes (by decide)))

end Cert.KernelIdeal.Tail

end
-- ==== Proof.R0Norm.lean ====
/-
  What each situation of pass 1's body stores, as plain functions of the tile, the two label vectors and what the
  accumulators held: a row accumulator after a point is the tile's row maximum (minimum) joined to what it held, or to the
  reset value where the point resets it; a column accumulator is changed on the tile's 512 columns only.
-/
import proofs.«170005_j69870527971928_1_alg».proof.Proof.R0RunE
import Idealize.ShloMosaic.Lib.Pipeline.Value

set_option maxRecDepth 16384

noncomputable section

namespace Cert.KernelIdeal.H0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hzA : (![0] : Fin 1 → ℕ) = fun _ => 0 := by funext a; fin_cases a; rfl
theorem hzB : (![0, 0] : Fin 2 → ℕ) = fun _ => 0 := by funext a; fin_cases a <;> rfl

/-- One store through the whole shape leaves its payload, whatever the buffer held. -/
theorem read_writes_whole {κ : Kind} {sp : Space} {S : Shape} {e : EltTy} (v : View sig κ sp S e) (f : v.ty.Contents (Elt F))
    {off : Fin S.rank → ℕ} (h : off = fun _ => 0) {inb : ∀ a, off a + S.size a ≤ S.size a} {w : S.Idx → Elt F e} :
    v.read (Elt F) (v.writes (Elt F) f [(⟨Rect.unit off S.size inb, w⟩ : View.Piece (Elt F) S e)]) = w :=
  (View.read_writes_eq_canon v f _ (fun y => ⟨_, List.mem_cons_self, View.mem_set_unit_zero h inb y⟩)).trans
    (View.canon_unit_zero h inb w)

/-- Case A: the row maxima after the point. -/
theorem runA_s9 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : cond1 i) (hc2 : cond2 i) (hc3 : ¬cond3 i) (hc4 : ¬cond4 i)
    (x0 : Vec F S1024x512 .f32) (x1 : Vec F S1024 .i32) (x2 : Vec F S512 .i32) :
    View.canon ((kernelRun0_A c i arg2 harg2 arg3 harg3 arg4 harg4 arg5 harg5 arg6 harg6 arg7 harg7 arg8 harg8 arg9 harg9 arg10 harg10 arg11 harg11 arg12 harg12 hc1 hc2 hc3 hc4 x0 x1 x2).1) = k0_pay10 x0 x1 x2 k0_pay5 := by
  unfold kernelRun0_A
  dsimp only
  sl_unfold_words
  simp only [View.readAt_eq_ld, harg2.read_unread, harg3.read_unread, harg4.read_unread]
  simp only [View.canon_cons_unit_zero (S := S1024) hzA, View.readCov_unit_zero (S := S1024) _ hzA, View.ld_unit_zero (S := S1024x512) hzB, View.ld_unit_zero (S := S1024) hzA, View.ld_unit_zero (S := S512) hzA]

/-- Case A: the row minima after the point. -/
theorem runA_s10 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : cond1 i) (hc2 : cond2 i) (hc3 : ¬cond3 i) (hc4 : ¬cond4 i)
    (x0 : Vec F S1024x512 .f32) (x1 : Vec F S1024 .i32) (x2 : Vec F S512 .i32) :
    View.canon ((kernelRun0_A c i arg2 harg2 arg3 harg3 arg4 harg4 arg5 harg5 arg6 harg6 arg7 harg7 arg8 harg8 arg9 harg9 arg10 harg10 arg11 harg11 arg12 harg12 hc1 hc2 hc3 hc4 x0 x1 x2).2.1) = k0_pay11 x0 x1 x2 k0_pay6 := by
  unfold kernelRun0_A
  dsimp only
  sl_unfold_words
  simp only [View.readAt_eq_ld, harg2.read_unread, harg3.read_unread, harg4.read_unread]
  simp only [View.canon_cons_unit_zero (S := S1024) hzA, View.readCov_unit_zero (S := S1024) _ hzA, View.ld_unit_zero (S := S1024x512) hzB, View.ld_unit_zero (S := S1024) hzA, View.ld_unit_zero (S := S512) hzA]

/-- Case A: the column maxima after the first point — the reset value everywhere but on the tile's columns. -/
theorem runA_s11 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : cond1 i) (hc2 : cond2 i) (hc3 : ¬cond3 i) (hc4 : ¬cond4 i)
    (x0 : Vec F S1024x512 .f32) (x1 : Vec F S1024 .i32) (x2 : Vec F S512 .i32) :
    View.canon ((kernelRun0_A c i arg2 harg2 arg3 harg3 arg4 harg4 arg5 harg5 arg6 harg6 arg7 harg7 arg8 harg8 arg9 harg9 arg10 harg10 arg11 harg11 arg12 harg12 hc1 hc2 hc3 hc4 x0 x1 x2).2.2.1) = View.canon [(⟨rsl i, k0_pay1 (k0_pay12 x0 x1 x2) (View.ld k0_pay3 (rsl i))⟩ : View.Piece (Elt F) S8192 .f32), ⟨r8192, k0_pay3⟩] := by
  unfold kernelRun0_A
  dsimp only
  sl_unfold_words
  simp only [View.readAt_eq_ld, harg2.read_unread, harg3.read_unread, harg4.read_unread]
  simp only [View.ld_unit_zero (S := S1024x512) hzB, View.ld_unit_zero (S := S1024) hzA, View.ld_unit_zero (S := S512) hzA]
  rw [read_writes_whole (S := S8192) _ _ hzA]
  rfl

/-- Case A: the column minima after the first point — the reset value everywhere but on the tile's columns. -/
theorem runA_s12 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : cond1 i) (hc2 : cond2 i) (hc3 : ¬cond3 i) (hc4 : ¬cond4 i)
    (x0 : Vec F S1024x512 .f32) (x1 : Vec F S1024 .i32) (x2 : Vec F S512 .i32) :
    View.canon ((kernelRun0_A c i arg2 harg2 arg3 harg3 arg4 harg4 arg5 harg5 arg6 harg6 arg7 harg7 arg8 harg8 arg9 harg9 arg10 harg10 arg11 harg11 arg12 harg12 hc1 hc2 hc3 hc4 x0 x1 x2).2.2.2.1) = View.canon [(⟨rsl i, k0_pay2 (k0_pay9 x0 x1 x2) (View.ld k0_pay4 (rsl i))⟩ : View.Piece (Elt F) S8192 .f32), ⟨r8192, k0_pay4⟩] := by
  unfold kernelRun0_A
  dsimp only
  sl_unfold_words
  simp only [View.readAt_eq_ld, harg2.read_unread, harg3.read_unread, harg4.read_unread]
  simp only [View.ld_unit_zero (S := S1024x512) hzB, View.ld_unit_zero (S := S1024) hzA, View.ld_unit_zero (S := S512) hzA]
  rw [read_writes_whole (S := S8192) _ _ hzA]
  rfl

/-- Case B: the row maxima after the point. -/
theorem runB_s9 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : ¬cond1 i) (hc2 : cond2 i) (hc3 : ¬cond3 i) (hc4 : ¬cond4 i)
    (x0 : Vec F S1024x512 .f32) (x1 : Vec F S1024 .i32) (x2 : Vec F S512 .i32) (xs9 xs10 : Vec F S1024 .f32) (xs11 xs12 : Vec F S8192 .f32) :
    View.canon ((kernelRun0_B c i arg2 harg2 arg3 harg3 arg4 harg4 arg5 harg5 arg6 harg6 arg7 harg7 arg8 harg8 arg9 harg9 arg10 harg10 arg11 harg11 arg12 harg12 hc1 hc2 hc3 hc4 x0 x1 x2 xs9 xs10 xs11 xs12).1) = k0_pay10 x0 x1 x2 k0_pay5 := by
  unfold kernelRun0_B
  dsimp only
  sl_unfold_words
  simp only [View.readAt_eq_ld, harg2.read_unread, harg3.read_unread, harg4.read_unread, harg9.read_unread, harg10.read_unread, harg11.read_unread, harg12.read_unread]
  simp only [View.canon_cons_unit_zero (S := S1024) hzA, View.readCov_unit_zero (S := S1024) _ hzA, View.ld_unit_zero (S := S1024x512) hzB, View.ld_unit_zero (S := S1024) hzA, View.ld_unit_zero (S := S512) hzA]

/-- Case B: the row minima after the point. -/
theorem runB_s10 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : ¬cond1 i) (hc2 : cond2 i) (hc3 : ¬cond3 i) (hc4 : ¬cond4 i)
    (x0 : Vec F S1024x512 .f32) (x1 : Vec F S1024 .i32) (x2 : Vec F S512 .i32) (xs9 xs10 : Vec F S1024 .f32) (xs11 xs12 : Vec F S8192 .f32) :
    View.canon ((kernelRun0_B c i arg2 harg2 arg3 harg3 arg4 harg4 arg5 harg5 arg6 harg6 arg7 harg7 arg8 harg8 arg9 harg9 arg10 harg10 arg11 harg11 arg12 harg12 hc1 hc2 hc3 hc4 x0 x1 x2 xs9 xs10 xs11 xs12).2.1) = k0_pay11 x0 x1 x2 k0_pay6 := by
  unfold kernelRun0_B
  dsimp only
  sl_unfold_words
  simp only [View.readAt_eq_ld, harg2.read_unread, harg3.read_unread, harg4.read_unread, harg9.read_unread, harg10.read_unread, harg11.read_unread, harg12.read_unread]
  simp only [View.canon_cons_unit_zero (S := S1024) hzA, View.readCov_unit_zero (S := S1024) _ hzA, View.ld_unit_zero (S := S1024x512) hzB, View.ld_unit_zero (S := S1024) hzA, View.ld_unit_zero (S := S512) hzA]

/-- Case B: the store into the column maxima: the tile's 512 columns. -/
theorem runB_L11 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : ¬cond1 i) (hc2 : cond2 i) (hc3 : ¬cond3 i) (hc4 : ¬cond4 i)
    (x0 : Vec F S1024x512 .f32) (x1 : Vec F S1024 .i32) (x2 : Vec F S512 .i32) (xs9 xs10 : Vec F S1024 .f32) (xs11 xs12 : Vec F S8192 .f32) :
    (kernelRun0_B c i arg2 harg2 arg3 harg3 arg4 harg4 arg5 harg5 arg6 harg6 arg7 harg7 arg8 harg8 arg9 harg9 arg10 harg10 arg11 harg11 arg12 harg12 hc1 hc2 hc3 hc4 x0 x1 x2 xs9 xs10 xs11 xs12).2.2.1 = [(⟨rsl i, k0_pay1 (k0_pay12 x0 x1 x2) (View.ld xs11 (rsl i))⟩ : View.Piece (Elt F) S8192 .f32)] := by
  unfold kernelRun0_B
  dsimp only
  sl_unfold_words
  simp only [View.readAt_eq_ld, harg2.read_unread, harg3.read_unread, harg4.read_unread, harg9.read_unread, harg10.read_unread, harg11.read_unread, harg12.read_unread]
  simp only [View.ld_unit_zero (S := S1024x512) hzB, View.ld_unit_zero (S := S1024) hzA, View.ld_unit_zero (S := S512) hzA]
  rfl

/-- Case B: the store into the column minima: the tile's 512 columns. -/
theorem runB_L12 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : ¬cond1 i) (hc2 : cond2 i) (hc3 : ¬cond3 i) (hc4 : ¬cond4 i)
    (x0 : Vec F S1024x512 .f32) (x1 : Vec F S1024 .i32) (x2 : Vec F S512 .i32) (xs9 xs10 : Vec F S1024 .f32) (xs11 xs12 : Vec F S8192 .f32) :
    (kernelRun0_B c i arg2 harg2 arg3 harg3 arg4 harg4 arg5 harg5 arg6 harg6 arg7 harg7 arg8 harg8 arg9 harg9 arg10 harg10 arg11 harg11 arg12 harg12 hc1 hc2 hc3 hc4 x0 x1 x2 xs9 xs10 xs11 xs12).2.2.2.1 = [(⟨rsl i, k0_pay2 (k0_pay9 x0 x1 x2) (View.ld xs12 (rsl i))⟩ : View.Piece (Elt F) S8192 .f32)] := by
  unfold kernelRun0_B
  dsimp only
  sl_unfold_words
  simp only [View.readAt_eq_ld, harg2.read_unread, harg3.read_unread, harg4.read_unread, harg9.read_unread, harg10.read_unread, harg11.read_unread, harg12.read_unread]
  simp only [View.ld_unit_zero (S := S1024x512) hzB, View.ld_unit_zero (S := S1024) hzA, View.ld_unit_zero (S := S512) hzA]
  rfl

/-- Case M: the row maxima after the point. -/
theorem runM_s9 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : ¬cond1 i) (hc2 : ¬cond2 i) (hc3 : ¬cond3 i) (hc4 : ¬cond4 i)
    (x0 : Vec F S1024x512 .f32) (x1 : Vec F S1024 .i32) (x2 : Vec F S512 .i32) (xs9 xs10 : Vec F S1024 .f32) (xs11 xs12 : Vec F S8192 .f32) :
    View.canon ((kernelRun0_M c i arg2 harg2 arg3 harg3 arg4 harg4 arg5 harg5 arg6 harg6 arg7 harg7 arg8 harg8 arg9 harg9 arg10 harg10 arg11 harg11 arg12 harg12 hc1 hc2 hc3 hc4 x0 x1 x2 xs9 xs10 xs11 xs12).1) = k0_pay10 x0 x1 x2 xs9 := by
  unfold kernelRun0_M
  dsimp only
  sl_unfold_words
  simp only [View.readAt_eq_ld, harg2.read_unread, harg3.read_unread, harg4.read_unread, harg9.read_unread, harg10.read_unread, harg11.read_unread, harg12.read_unread]
  simp only [View.canon_cons_unit_zero (S := S1024) hzA, View.readCov_unit_zero (S := S1024) _ hzA, View.ld_unit_zero (S := S1024x512) hzB, View.ld_unit_zero (S := S1024) hzA, View.ld_unit_zero (S := S512) hzA]

/-- Case M: the row minima after the point. -/
theorem runM_s10 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : ¬cond1 i) (hc2 : ¬cond2 i) (hc3 : ¬cond3 i) (hc4 : ¬cond4 i)
    (x0 : Vec F S1024x512 .f32) (x1 : Vec F S1024 .i32) (x2 : Vec F S512 .i32) (xs9 xs10 : Vec F S1024 .f32) (xs11 xs12 : Vec F S8192 .f32) :
    View.canon ((kernelRun0_M c i arg2 harg2 arg3 harg3 arg4 harg4 arg5 harg5 arg6 harg6 arg7 harg7 arg8 harg8 arg9 harg9 arg10 harg10 arg11 harg11 arg12 harg12 hc1 hc2 hc3 hc4 x0 x1 x2 xs9 xs10 xs11 xs12).2.1) = k0_pay11 x0 x1 x2 xs10 := by
  unfold kernelRun0_M
  dsimp only
  sl_unfold_words
  simp only [View.readAt_eq_ld, harg2.read_unread, harg3.read_unread, harg4.read_unread, harg9.read_unread, harg10.read_unread, harg11.read_unread, harg12.read_unread]
  simp only [View.canon_cons_unit_zero (S := S1024) hzA, View.readCov_unit_zero (S := S1024) _ hzA, View.ld_unit_zero (S := S1024x512) hzB, View.ld_unit_zero (S := S1024) hzA, View.ld_unit_zero (S := S512) hzA]

/-- Case M: the store into the column maxima: the tile's 512 columns. -/
theorem runM_L11 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : ¬cond1 i) (hc2 : ¬cond2 i) (hc3 : ¬cond3 i) (hc4 : ¬cond4 i)
    (x0 : Vec F S1024x512 .f32) (x1 : Vec F S1024 .i32) (x2 : Vec F S512 .i32) (xs9 xs10 : Vec F S1024 .f32) (xs11 xs12 : Vec F S8192 .f32) :
    (kernelRun0_M c i arg2 harg2 arg3 harg3 arg4 harg4 arg5 harg5 arg6 harg6 arg7 harg7 arg8 harg8 arg9 harg9 arg10 harg10 arg11 harg11 arg12 harg12 hc1 hc2 hc3 hc4 x0 x1 x2 xs9 xs10 xs11 xs12).2.2.1 = [(⟨rsl i, k0_pay1 (k0_pay12 x0 x1 x2) (View.ld xs11 (rsl i))⟩ : View.Piece (Elt F) S8192 .f32)] := by
  unfold kernelRun0_M
  dsimp only
  sl_unfold_words
  simp only [View.readAt_eq_ld, harg2.read_unread, harg3.read_unread, harg4.read_unread, harg9.read_unread, harg10.read_unread, harg11.read_unread, harg12.read_unread]
  simp only [View.ld_unit_zero (S := S1024x512) hzB, View.ld_unit_zero (S := S1024) hzA, View.ld_unit_zero (S := S512) hzA]
  rfl

/-- Case M: the store into the column minima: the tile's 512 columns. -/
theorem runM_L12 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : ¬cond1 i) (hc2 : ¬cond2 i) (hc3 : ¬cond3 i) (hc4 : ¬cond4 i)
    (x0 : Vec F S1024x512 .f32) (x1 : Vec F S1024 .i32) (x2 : Vec F S512 .i32) (xs9 xs10 : Vec F S1024 .f32) (xs11 xs12 : Vec F S8192 .f32) :
    (kernelRun0_M c i arg2 harg2 arg3 harg3 arg4 harg4 arg5 harg5 arg6 harg6 arg7 harg7 arg8 harg8 arg9 harg9 arg10 harg10 arg11 harg11 arg12 harg12 hc1 hc2 hc3 hc4 x0 x1 x2 xs9 xs10 xs11 xs12).2.2.2.1 = [(⟨rsl i, k0_pay2 (k0_pay9 x0 x1 x2) (View.ld xs12 (rsl i))⟩ : View.Piece (Elt F) S8192 .f32)] := by
  unfold kernelRun0_M
  dsimp only
  sl_unfold_words
  simp only [View.readAt_eq_ld, harg2.read_unread, harg3.read_unread, harg4.read_unread, harg9.read_unread, harg10.read_unread, harg11.read_unread, harg12.read_unread]
  simp only [View.ld_unit_zero (S := S1024x512) hzB, View.ld_unit_zero (S := S1024) hzA, View.ld_unit_zero (S := S512) hzA]
  rfl

/-- Case C: the row maxima after the point. -/
theorem runC_s9 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : ¬cond1 i) (hc2 : ¬cond2 i) (hc3 : cond3 i) (hc4 : ¬cond4 i)
    (x0 : Vec F S1024x512 .f32) (x1 : Vec F S1024 .i32) (x2 : Vec F S512 .i32) (xs9 xs10 : Vec F S1024 .f32) (xs11 xs12 : Vec F S8192 .f32) :
    View.canon ((kernelRun0_C c i arg2 harg2 arg3 harg3 arg4 harg4 arg5 harg5 arg6 harg6 arg7 harg7 arg8 harg8 arg9 harg9 arg10 harg10 arg11 harg11 arg12 harg12 hc1 hc2 hc3 hc4 x0 x1 x2 xs9 xs10 xs11 xs12).2.2.1) = k0_pay10 x0 x1 x2 xs9 := by
  unfold kernelRun0_C
  dsimp only
  sl_unfold_words
  simp only [View.readAt_eq_ld, harg2.read_unread, harg3.read_unread, harg4.read_unread, harg9.read_unread, harg10.read_unread, harg11.read_unread, harg12.read_unread]
  simp only [View.canon_cons_unit_zero (S := S1024) hzA, View.readCov_unit_zero (S := S1024) _ hzA, View.ld_unit_zero (S := S1024x512) hzB, View.ld_unit_zero (S := S1024) hzA, View.ld_unit_zero (S := S512) hzA]

/-- Case C: the row minima after the point. -/
theorem runC_s10 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : ¬cond1 i) (hc2 : ¬cond2 i) (hc3 : cond3 i) (hc4 : ¬cond4 i)
    (x0 : Vec F S1024x512 .f32) (x1 : Vec F S1024 .i32) (x2 : Vec F S512 .i32) (xs9 xs10 : Vec F S1024 .f32) (xs11 xs12 : Vec F S8192 .f32) :
    View.canon ((kernelRun0_C c i arg2 harg2 arg3 harg3 arg4 harg4 arg5 harg5 arg6 harg6 arg7 harg7 arg8 harg8 arg9 harg9 arg10 harg10 arg11 harg11 arg12 harg12 hc1 hc2 hc3 hc4 x0 x1 x2 xs9 xs10 xs11 xs12).2.2.2.1) = k0_pay11 x0 x1 x2 xs10 := by
  unfold kernelRun0_C
  dsimp only
  sl_unfold_words
  simp only [View.readAt_eq_ld, harg2.read_unread, harg3.read_unread, harg4.read_unread, harg9.read_unread, harg10.read_unread, harg11.read_unread, harg12.read_unread]
  simp only [View.canon_cons_unit_zero (S := S1024) hzA, View.readCov_unit_zero (S := S1024) _ hzA, View.ld_unit_zero (S := S1024x512) hzB, View.ld_unit_zero (S := S1024) hzA, View.ld_unit_zero (S := S512) hzA]

/-- Case C: the store into the column maxima: the tile's 512 columns. -/
theorem runC_L11 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : ¬cond1 i) (hc2 : ¬cond2 i) (hc3 : cond3 i) (hc4 : ¬cond4 i)
    (x0 : Vec F S1024x512 .f32) (x1 : Vec F S1024 .i32) (x2 : Vec F S512 .i32) (xs9 xs10 : Vec F S1024 .f32) (xs11 xs12 : Vec F S8192 .f32) :
    (kernelRun0_C c i arg2 harg2 arg3 harg3 arg4 harg4 arg5 harg5 arg6 harg6 arg7 harg7 arg8 harg8 arg9 harg9 arg10 harg10 arg11 harg11 arg12 harg12 hc1 hc2 hc3 hc4 x0 x1 x2 xs9 xs10 xs11 xs12).2.2.2.2.1 = [(⟨rsl i, k0_pay1 (k0_pay12 x0 x1 x2) (View.ld xs11 (rsl i))⟩ : View.Piece (Elt F) S8192 .f32)] := by
  unfold kernelRun0_C
  dsimp only
  sl_unfold_words
  simp only [View.readAt_eq_ld, harg2.read_unread, harg3.read_unread, harg4.read_unread, harg9.read_unread, harg10.read_unread, harg11.read_unread, harg12.read_unread]
  simp only [View.ld_unit_zero (S := S1024x512) hzB, View.ld_unit_zero (S := S1024) hzA, View.ld_unit_zero (S := S512) hzA]
  rfl

/-- Case C: the store into the column minima: the tile's 512 columns. -/
theorem runC_L12 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : ¬cond1 i) (hc2 : ¬cond2 i) (hc3 : cond3 i) (hc4 : ¬cond4 i)
    (x0 : Vec F S1024x512 .f32) (x1 : Vec F S1024 .i32) (x2 : Vec F S512 .i32) (xs9 xs10 : Vec F S1024 .f32) (xs11 xs12 : Vec F S8192 .f32) :
    (kernelRun0_C c i arg2 harg2 arg3 harg3 arg4 harg4 arg5 harg5 arg6 harg6 arg7 harg7 arg8 harg8 arg9 harg9 arg10 harg10 arg11 harg11 arg12 harg12 hc1 hc2 hc3 hc4 x0 x1 x2 xs9 xs10 xs11 xs12).2.2.2.2.2.1 = [(⟨rsl i, k0_pay2 (k0_pay9 x0 x1 x2) (View.ld xs12 (rsl i))⟩ : View.Piece (Elt F) S8192 .f32)] := by
  unfold kernelRun0_C
  dsimp only
  sl_unfold_words
  simp only [View.readAt_eq_ld, harg2.read_unread, harg3.read_unread, harg4.read_unread, harg9.read_unread, harg10.read_unread, harg11.read_unread, harg12.read_unread]
  simp only [View.ld_unit_zero (S := S1024x512) hzB, View.ld_unit_zero (S := S1024) hzA, View.ld_unit_zero (S := S512) hzA]
  rfl

/-- Case C: the row maxima stored as a result are the accumulator after its update. -/
theorem runC_o3 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : ¬cond1 i) (hc2 : ¬cond2 i) (hc3 : cond3 i) (hc4 : ¬cond4 i)
    (x0 : Vec F S1024x512 .f32) (x1 : Vec F S1024 .i32) (x2 : Vec F S512 .i32) (xs9 xs10 : Vec F S1024 .f32) (xs11 xs12 : Vec F S8192 .f32) :
    View.canon ((kernelRun0_C c i arg2 harg2 arg3 harg3 arg4 harg4 arg5 harg5 arg6 harg6 arg7 harg7 arg8 harg8 arg9 harg9 arg10 harg10 arg11 harg11 arg12 harg12 hc1 hc2 hc3 hc4 x0 x1 x2 xs9 xs10 xs11 xs12).1) = k0_pay10 x0 x1 x2 xs9 := by
  unfold kernelRun0_C
  dsimp only
  sl_unfold_words
  simp only [View.readAt_eq_ld, harg2.read_unread, harg3.read_unread, harg4.read_unread, harg9.read_unread, harg10.read_unread, harg11.read_unread, harg12.read_unread]
  simp only [View.canon_cons_unit_zero (S := S1024) hzA, View.readCov_unit_zero (S := S1024) _ hzA, View.ld_unit_zero (S := S1024x512) hzB, View.ld_unit_zero (S := S1024) hzA, View.ld_unit_zero (S := S512) hzA]

/-- Case C: the row minima stored as a result are the accumulator after its update. -/
theorem runC_o4 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : ¬cond1 i) (hc2 : ¬cond2 i) (hc3 : cond3 i) (hc4 : ¬cond4 i)
    (x0 : Vec F S1024x512 .f32) (x1 : Vec F S1024 .i32) (x2 : Vec F S512 .i32) (xs9 xs10 : Vec F S1024 .f32) (xs11 xs12 : Vec F S8192 .f32) :
    View.canon ((kernelRun0_C c i arg2 harg2 arg3 harg3 arg4 harg4 arg5 harg5 arg6 harg6 arg7 harg7 arg8 harg8 arg9 harg9 arg10 harg10 arg11 harg11 arg12 harg12 hc1 hc2 hc3 hc4 x0 x1 x2 xs9 xs10 xs11 xs12).2.1) = k0_pay11 x0 x1 x2 xs10 := by
  unfold kernelRun0_C
  dsimp only
  sl_unfold_words
  simp only [View.readAt_eq_ld, harg2.read_unread, harg3.read_unread, harg4.read_unread, harg9.read_unread, harg10.read_unread, harg11.read_unread, harg12.read_unread]
  simp only [View.canon_cons_unit_zero (S := S1024) hzA, View.readCov_unit_zero (S := S1024) _ hzA, View.ld_unit_zero (S := S1024x512) hzB, View.ld_unit_zero (S := S1024) hzA, View.ld_unit_zero (S := S512) hzA]

/-- Case E: the row maxima after the point. -/
theorem runE_s9 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : ¬cond1 i) (hc2 : ¬cond2 i) (hc3 : cond3 i) (hc4 : cond4 i)
    (x0 : Vec F S1024x512 .f32) (x1 : Vec F S1024 .i32) (x2 : Vec F S512 .i32) (xs9 xs10 : Vec F S1024 .f32) (xs11 xs12 : Vec F S8192 .f32) :
    View.canon ((kernelRun0_E c i arg2 harg2 arg3 harg3 arg4 harg4 arg5 harg5 arg6 harg6 arg7 harg7 arg8 harg8 arg9 harg9 arg10 harg10 arg11 harg11 arg12 harg12 hc1 hc2 hc3 hc4 x0 x1 x2 xs9 xs10 xs11 xs12).2.2.2.2.1) = k0_pay10 x0 x1 x2 xs9 := by
  unfold kernelRun0_E
  dsimp only
  sl_unfold_words
  simp only [View.readAt_eq_ld, harg2.read_unread, harg3.read_unread, harg4.read_unread, harg9.read_unread, harg10.read_unread, harg11.read_unread, harg12.read_unread]
  simp only [View.canon_cons_unit_zero (S := S1024) hzA, View.readCov_unit_zero (S := S1024) _ hzA, View.ld_unit_zero (S := S1024x512) hzB, View.ld_unit_zero (S := S1024) hzA, View.ld_unit_zero (S := S512) hzA]

/-- Case E: the row minima after the point. -/
theorem runE_s10 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : ¬cond1 i) (hc2 : ¬cond2 i) (hc3 : cond3 i) (hc4 : cond4 i)
    (x0 : Vec F S1024x512 .f32) (x1 : Vec F S1024 .i32) (x2 : Vec F S512 .i32) (xs9 xs10 : Vec F S1024 .f32) (xs11 xs12 : Vec F S8192 .f32) :
    View.canon ((kernelRun0_E c i arg2 harg2 arg3 harg3 arg4 harg4 arg5 harg5 arg6 harg6 arg7 harg7 arg8 harg8 arg9 harg9 arg10 harg10 arg11 harg11 arg12 harg12 hc1 hc2 hc3 hc4 x0 x1 x2 xs9 xs10 xs11 xs12).2.2.2.2.2.1) = k0_pay11 x0 x1 x2 xs10 := by
  unfold kernelRun0_E
  dsimp only
  sl_unfold_words
  simp only [View.readAt_eq_ld, harg2.read_unread, harg3.read_unread, harg4.read_unread, harg9.read_unread, harg10.read_unread, harg11.read_unread, harg12.read_unread]
  simp only [View.canon_cons_unit_zero (S := S1024) hzA, View.readCov_unit_zero (S := S1024) _ hzA, View.ld_unit_zero (S := S1024x512) hzB, View.ld_unit_zero (S := S1024) hzA, View.ld_unit_zero (S := S512) hzA]

/-- Case E: the store into the column maxima: the tile's 512 columns. -/
theorem runE_L11 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : ¬cond1 i) (hc2 : ¬cond2 i) (hc3 : cond3 i) (hc4 : cond4 i)
    (x0 : Vec F S1024x512 .f32) (x1 : Vec F S1024 .i32) (x2 : Vec F S512 .i32) (xs9 xs10 : Vec F S1024 .f32) (xs11 xs12 : Vec F S8192 .f32) :
    (kernelRun0_E c i arg2 harg2 arg3 harg3 arg4 harg4 arg5 harg5 arg6 harg6 arg7 harg7 arg8 harg8 arg9 harg9 arg10 harg10 arg11 harg11 arg12 harg12 hc1 hc2 hc3 hc4 x0 x1 x2 xs9 xs10 xs11 xs12).2.2.2.2.2.2.1 = [(⟨rsl i, k0_pay1 (k0_pay12 x0 x1 x2) (View.ld xs11 (rsl i))⟩ : View.Piece (Elt F) S8192 .f32)] := by
  unfold kernelRun0_E
  dsimp only
  sl_unfold_words
  simp only [View.readAt_eq_ld, harg2.read_unread, harg3.read_unread, harg4.read_unread, harg9.read_unread, harg10.read_unread, harg11.read_unread, harg12.read_unread]
  simp only [View.ld_unit_zero (S := S1024x512) hzB, View.ld_unit_zero (S := S1024) hzA, View.ld_unit_zero (S := S512) hzA]
  rfl

/-- Case E: the store into the column minima: the tile's 512 columns. -/
theorem runE_L12 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : ¬cond1 i) (hc2 : ¬cond2 i) (hc3 : cond3 i) (hc4 : cond4 i)
    (x0 : Vec F S1024x512 .f32) (x1 : Vec F S1024 .i32) (x2 : Vec F S512 .i32) (xs9 xs10 : Vec F S1024 .f32) (xs11 xs12 : Vec F S8192 .f32) :
    (kernelRun0_E c i arg2 harg2 arg3 harg3 arg4 harg4 arg5 harg5 arg6 harg6 arg7 harg7 arg8 harg8 arg9 harg9 arg10 harg10 arg11 harg11 arg12 harg12 hc1 hc2 hc3 hc4 x0 x1 x2 xs9 xs10 xs11 xs12).2.2.2.2.2.2.2.1 = [(⟨rsl i, k0_pay2 (k0_pay9 x0 x1 x2) (View.ld xs12 (rsl i))⟩ : View.Piece (Elt F) S8192 .f32)] := by
  unfold kernelRun0_E
  dsimp only
  sl_unfold_words
  simp only [View.readAt_eq_ld, harg2.read_unread, harg3.read_unread, harg4.read_unread, harg9.read_unread, harg10.read_unread, harg11.read_unread, harg12.read_unread]
  simp only [View.ld_unit_zero (S := S1024x512) hzB, View.ld_unit_zero (S := S1024) hzA, View.ld_unit_zero (S := S512) hzA]
  rfl

/-- Case E: the row maxima stored as a result are the accumulator after its update. -/
theorem runE_o3 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : ¬cond1 i) (hc2 : ¬cond2 i) (hc3 : cond3 i) (hc4 : cond4 i)
    (x0 : Vec F S1024x512 .f32) (x1 : Vec F S1024 .i32) (x2 : Vec F S512 .i32) (xs9 xs10 : Vec F S1024 .f32) (xs11 xs12 : Vec F S8192 .f32) :
    View.canon ((kernelRun0_E c i arg2 harg2 arg3 harg3 arg4 harg4 arg5 harg5 arg6 harg6 arg7 harg7 arg8 harg8 arg9 harg9 arg10 harg10 arg11 harg11 arg12 harg12 hc1 hc2 hc3 hc4 x0 x1 x2 xs9 xs10 xs11 xs12).1) = k0_pay10 x0 x1 x2 xs9 := by
  unfold kernelRun0_E
  dsimp only
  sl_unfold_words
  simp only [View.readAt_eq_ld, harg2.read_unread, harg3.read_unread, harg4.read_unread, harg9.read_unread, harg10.read_unread, harg11.read_unread, harg12.read_unread]
  simp only [View.canon_cons_unit_zero (S := S1024) hzA, View.readCov_unit_zero (S := S1024) _ hzA, View.ld_unit_zero (S := S1024x512) hzB, View.ld_unit_zero (S := S1024) hzA, View.ld_unit_zero (S := S512) hzA]

/-- Case E: the row minima stored as a result are the accumulator after its update. -/
theorem runE_o4 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : ¬cond1 i) (hc2 : ¬cond2 i) (hc3 : cond3 i) (hc4 : cond4 i)
    (x0 : Vec F S1024x512 .f32) (x1 : Vec F S1024 .i32) (x2 : Vec F S512 .i32) (xs9 xs10 : Vec F S1024 .f32) (xs11 xs12 : Vec F S8192 .f32) :
    View.canon ((kernelRun0_E c i arg2 harg2 arg3 harg3 arg4 harg4 arg5 harg5 arg6 harg6 arg7 harg7 arg8 harg8 arg9 harg9 arg10 harg10 arg11 harg11 arg12 harg12 hc1 hc2 hc3 hc4 x0 x1 x2 xs9 xs10 xs11 xs12).2.1) = k0_pay11 x0 x1 x2 xs10 := by
  unfold kernelRun0_E
  dsimp only
  sl_unfold_words
  simp only [View.readAt_eq_ld, harg2.read_unread, harg3.read_unread, harg4.read_unread, harg9.read_unread, harg10.read_unread, harg11.read_unread, harg12.read_unread]
  simp only [View.canon_cons_unit_zero (S := S1024) hzA, View.readCov_unit_zero (S := S1024) _ hzA, View.ld_unit_zero (S := S1024x512) hzB, View.ld_unit_zero (S := S1024) hzA, View.ld_unit_zero (S := S512) hzA]

/-- Case E: the column maxima stored as a result are the accumulator after its update. -/
theorem runE_o5 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : ¬cond1 i) (hc2 : ¬cond2 i) (hc3 : cond3 i) (hc4 : cond4 i)
    (x0 : Vec F S1024x512 .f32) (x1 : Vec F S1024 .i32) (x2 : Vec F S512 .i32) (xs9 xs10 : Vec F S1024 .f32) (xs11 xs12 : Vec F S8192 .f32) :
    View.canon ((kernelRun0_E c i arg2 harg2 arg3 harg3 arg4 harg4 arg5 harg5 arg6 harg6 arg7 harg7 arg8 harg8 arg9 harg9 arg10 harg10 arg11 harg11 arg12 harg12 hc1 hc2 hc3 hc4 x0 x1 x2 xs9 xs10 xs11 xs12).2.2.1) = arg11.view.read (Elt F) (arg11.view.writes (Elt F) (harg11.unread xs11) [(⟨rsl i, k0_pay1 (k0_pay12 x0 x1 x2) (View.ld xs11 (rsl i))⟩ : View.Piece (Elt F) S8192 .f32)]) := by
  unfold kernelRun0_E
  dsimp only
  sl_unfold_words
  simp only [View.readAt_eq_ld, harg2.read_unread, harg3.read_unread, harg4.read_unread, harg9.read_unread, harg10.read_unread, harg11.read_unread, harg12.read_unread]
  simp only [View.canon_cons_unit_zero (S := S8192) hzA, View.ld_unit_zero (S := S8192) hzA, View.ld_unit_zero (S := S1024x512) hzB, View.ld_unit_zero (S := S1024) hzA, View.ld_unit_zero (S := S512) hzA]
  rfl

/-- Case E: the column minima stored as a result are the accumulator after its update. -/
theorem runE_o6 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S8192 .f32) (harg7 : arg7.IsWhole) (arg8 : Memref sig .tc .vmem S8192 .f32) (harg8 : arg8.IsWhole) (arg9 : Memref sig .tc .vmem S1024 .f32) (harg9 : arg9.IsWhole) (arg10 : Memref sig .tc .vmem S1024 .f32) (harg10 : arg10.IsWhole) (arg11 : Memref sig .tc .vmem S8192 .f32) (harg11 : arg11.IsWhole) (arg12 : Memref sig .tc .vmem S8192 .f32) (harg12 : arg12.IsWhole)
    (hc1 : ¬cond1 i) (hc2 : ¬cond2 i) (hc3 : cond3 i) (hc4 : cond4 i)
    (x0 : Vec F S1024x512 .f32) (x1 : Vec F S1024 .i32) (x2 : Vec F S512 .i32) (xs9 xs10 : Vec F S1024 .f32) (xs11 xs12 : Vec F S8192 .f32) :
    View.canon ((kernelRun0_E c i arg2 harg2 arg3 harg3 arg4 harg4 arg5 harg5 arg6 harg6 arg7 harg7 arg8 harg8 arg9 harg9 arg10 harg10 arg11 harg11 arg12 harg12 hc1 hc2 hc3 hc4 x0 x1 x2 xs9 xs10 xs11 xs12).2.2.2.1) = arg12.view.read (Elt F) (arg12.view.writes (Elt F) (harg12.unread xs12) [(⟨rsl i, k0_pay2 (k0_pay9 x0 x1 x2) (View.ld xs12 (rsl i))⟩ : View.Piece (Elt F) S8192 .f32)]) := by
  unfold kernelRun0_E
  dsimp only
  sl_unfold_words
  simp only [View.readAt_eq_ld, harg2.read_unread, harg3.read_unread, harg4.read_unread, harg9.read_unread, harg10.read_unread, harg11.read_unread, harg12.read_unread]
  simp only [View.canon_cons_unit_zero (S := S8192) hzA, View.ld_unit_zero (S := S8192) hzA, View.ld_unit_zero (S := S1024x512) hzB, View.ld_unit_zero (S := S1024) hzA, View.ld_unit_zero (S := S512) hzA]
  rfl

end Cert.KernelIdeal.H0

end
-- ==== Proof.Tile.lean ====
/-
  The laws that join a tiled accumulation to the whole reduction.

  An index of Fin 8192 is split as c = 512 j + q (j : Fin 16, q : Fin 512) or as r = 1024 i + p (i : Fin 8, p : Fin 1024).
  A reduction over Fin 8192 by a commutative, associative operation with an identity (the join with bottom, the meet
  with top, the sum with zero) is the reduction over the blocks of the blocks' reductions.  An accumulator that starts
  at a value a0 and takes in block k at step k holds, after k steps, a0 joined with the blocks below k; an
  accumulator that is visited only at the steps t with t % 16 = j, in the order t = 16 i + j of a grid of 8 x 16
  points, holds after t steps a0 joined with the blocks i below the number of visits so far.  Nothing here needs
  finiteness: only associativity, commutativity and the identities.
-/
import Mathlib.Data.EReal.Inv
import Mathlib.Data.Finset.Lattice.Prod
import Mathlib.Data.Fintype.BigOperators
import Mathlib.Algebra.BigOperators.Group.Finset.Basic

noncomputable section

open scoped BigOperators

namespace Cert.Tile

/-! ## The two splits of Fin 8192 -/

/-- Column 512 j + q. -/
def colIx (j : Fin 16) (q : Fin 512) : Fin 8192 := ⟨512 * j.val + q.val, by omega⟩
/-- Row 1024 i + p. -/
def rowIx (i : Fin 8) (p : Fin 1024) : Fin 8192 := ⟨1024 * i.val + p.val, by omega⟩

@[simp] theorem colIx_val (j : Fin 16) (q : Fin 512) : (colIx j q).val = 512 * j.val + q.val := rfl
@[simp] theorem rowIx_val (i : Fin 8) (p : Fin 1024) : (rowIx i p).val = 1024 * i.val + p.val := rfl

/-- Every column is 512 j + q for exactly one (j, q). -/
def colEquiv : Fin 16 × Fin 512 ≃ Fin 8192 where
  toFun x := colIx x.1 x.2
  invFun c := (⟨c.val / 512, by omega⟩, ⟨c.val % 512, by omega⟩)
  left_inv x := Prod.ext (Fin.ext (by show (512 * x.1.val + x.2.val) / 512 = x.1.val; omega))
    (Fin.ext (by show (512 * x.1.val + x.2.val) % 512 = x.2.val; omega))
  right_inv c := Fin.ext (by show 512 * (c.val / 512) + c.val % 512 = c.val; omega)

/-- Every row is 1024 i + p for exactly one (i, p). -/
def rowEquiv : Fin 8 × Fin 1024 ≃ Fin 8192 where
  toFun x := rowIx x.1 x.2
  invFun r := (⟨r.val / 1024, by omega⟩, ⟨r.val % 1024, by omega⟩)
  left_inv x := Prod.ext (Fin.ext (by show (1024 * x.1.val + x.2.val) / 1024 = x.1.val; omega))
    (Fin.ext (by show (1024 * x.1.val + x.2.val) % 1024 = x.2.val; omega))
  right_inv r := Fin.ext (by show 1024 * (r.val / 1024) + r.val % 1024 = r.val; omega)

theorem exists_col (P : Fin 8192 → Prop) : (∃ c, P c) ↔ ∃ j q, P (colIx j q) :=
  ⟨fun ⟨c, h⟩ => ⟨(colEquiv.symm c).1, (colEquiv.symm c).2, by
    have : colIx (colEquiv.symm c).1 (colEquiv.symm c).2 = c := colEquiv.apply_symm_apply c
    rw [this]; exact h⟩, fun ⟨j, q, h⟩ => ⟨_, h⟩⟩

theorem exists_row (P : Fin 8192 → Prop) : (∃ r, P r) ↔ ∃ i p, P (rowIx i p) :=
  ⟨fun ⟨r, h⟩ => ⟨(rowEquiv.symm r).1, (rowEquiv.symm r).2, by
    have : rowIx (rowEquiv.symm r).1 (rowEquiv.symm r).2 = r := rowEquiv.apply_symm_apply r
    rw [this]; exact h⟩, fun ⟨i, p, h⟩ => ⟨_, h⟩⟩

/-! ## The blocks below k, and the visits of a slice -/

/-- The blocks below k. -/
def below (n k : ℕ) : Finset (Fin n) := Finset.univ.filter fun j => j.val < k

@[simp] theorem mem_below {n k : ℕ} (j : Fin n) : j ∈ below n k ↔ j.val < k := by simp [below]

theorem below_zero (n : ℕ) : below n 0 = ∅ := by ext j; simp

theorem below_succ {n k : ℕ} (h : k < n) : below n (k + 1) = insert ⟨k, h⟩ (below n k) := by
  ext j; simp only [mem_below, Finset.mem_insert, Fin.ext_iff]; omega

theorem not_mem_below {n k : ℕ} (h : k < n) : (⟨k, h⟩ : Fin n) ∉ below n k := by simp

theorem below_full {n k : ℕ} (h : n ≤ k) : below n k = Finset.univ := by
  ext j; simp only [mem_below, Finset.mem_univ, iff_true]; exact lt_of_lt_of_le j.isLt h

/-- On a grid of 8 x 16 points taken in the order t = 16 i + j, the number of points among the first t that lie in
    slice j: the row blocks that have visited the slice so far. -/
def visits (t j : ℕ) : ℕ := t / 16 + (if j < t % 16 then 1 else 0)

theorem visits_zero (j : ℕ) : visits 0 j = 0 := by simp [visits]

theorem visits_hit {t j : ℕ} (h : t % 16 = j) : visits t j = t / 16 ∧ visits (t + 1) j = t / 16 + 1 := by
  unfold visits; constructor <;> split_ifs <;> omega

theorem visits_miss {t j : ℕ} (hj : j < 16) (h : t % 16 ≠ j) : visits (t + 1) j = visits t j := by
  unfold visits; split_ifs <;> omega

theorem visits_final {j : ℕ} (hj : j < 16) : visits 128 j = 8 := by
  unfold visits; split_ifs <;> omega

theorem visits_le {t j : ℕ} (ht : t ≤ 128) (hj : j < 16) : visits t j ≤ 8 := by
  unfold visits; split_ifs <;> omega

/-! ## The join (a maximum from the bottom element) -/

section Sup
variable {α : Type*} [SemilatticeSup α] [OrderBot α]

/-- A join over a product's image is the join of the joins. -/
theorem sup_equiv_prod {A B C : Type*} [Fintype A] [Fintype B] [Fintype C] (e : A × B ≃ C) (g : C → α) :
    Finset.univ.sup g = Finset.univ.sup fun a : A => Finset.univ.sup fun b : B => g (e (a, b)) := by
  rw [← Finset.map_univ_equiv e, Finset.sup_map, ← Finset.univ_product_univ, Finset.sup_product_left]
  rfl

/-- The join over all columns is the join over the column blocks of the blocks' joins. -/
theorem sup_col (g : Fin 8192 → α) :
    Finset.univ.sup g = Finset.univ.sup fun j : Fin 16 => Finset.univ.sup fun q : Fin 512 => g (colIx j q) :=
  sup_equiv_prod colEquiv g

/-- The join over all rows is the join over the row blocks of the blocks' joins. -/
theorem sup_row (g : Fin 8192 → α) :
    Finset.univ.sup g = Finset.univ.sup fun i : Fin 8 => Finset.univ.sup fun p : Fin 1024 => g (rowIx i p) :=
  sup_equiv_prod rowEquiv g

/-- The accumulator after k steps: the start value joined with the blocks below k. -/
def accSup {n : ℕ} (b : Fin n → α) (a0 : α) (k : ℕ) : α := a0 ⊔ (below n k).sup b

theorem accSup_zero {n : ℕ} (b : Fin n → α) (a0 : α) : accSup b a0 0 = a0 := by
  simp [accSup, below_zero]

theorem accSup_succ {n : ℕ} (b : Fin n → α) (a0 : α) {k : ℕ} (h : k < n) :
    accSup b a0 (k + 1) = accSup b a0 k ⊔ b ⟨k, h⟩ := by
  unfold accSup
  rw [below_succ h, Finset.sup_insert, sup_assoc, sup_comm (b _)]

theorem accSup_full {n : ℕ} (b : Fin n → α) (a0 : α) {k : ℕ} (h : n ≤ k) :
    accSup b a0 k = a0 ⊔ Finset.univ.sup b := by
  unfold accSup; rw [below_full h]

/-- An accumulation that starts at a0 and joins block k in at step k ends at a0 joined with every block. -/
theorem acc_sup {n : ℕ} (b : Fin n → α) (a0 : α) (acc : ℕ → α) (h0 : acc 0 = a0)
    (hs : ∀ (k : ℕ) (h : k < n), acc (k + 1) = acc k ⊔ b ⟨k, h⟩) :
    ∀ k, k ≤ n → acc k = accSup b a0 k := by
  intro k
  induction k with
  | zero => intro _; rw [h0, accSup_zero]
  | succ k ih =>
    intro hk
    have hk' : k < n := hk
    rw [hs k hk', ih (Nat.le_of_lt hk'), accSup_succ b a0 hk']

/-- The accumulator of slice j after t points of the 8 x 16 grid: the start value joined with the row blocks that
    have visited the slice. -/
def visitSup (b : Fin 8 → α) (a0 : α) (j t : ℕ) : α := accSup b a0 (visits t j)

theorem visitSup_zero (b : Fin 8 → α) (a0 : α) (j : ℕ) : visitSup b a0 j 0 = a0 := by
  unfold visitSup; rw [visits_zero, accSup_zero]

/-- At a point of the slice the row block of the point is joined in. -/
theorem visitSup_hit (b : Fin 8 → α) (a0 : α) {j t : ℕ} (ht : t < 128) (h : t % 16 = j) :
    visitSup b a0 j (t + 1) = visitSup b a0 j t ⊔ b ⟨t / 16, by omega⟩ := by
  unfold visitSup
  rw [(visits_hit h).1, (visits_hit h).2, accSup_succ b a0 (by omega : t / 16 < 8)]

/-- At a point of another slice nothing changes. -/
theorem visitSup_miss (b : Fin 8 → α) (a0 : α) {j t : ℕ} (hj : j < 16) (h : t % 16 ≠ j) :
    visitSup b a0 j (t + 1) = visitSup b a0 j t := by
  unfold visitSup; rw [visits_miss hj h]

/-- After all 128 points every row block has visited the slice. -/
theorem visitSup_final (b : Fin 8 → α) (a0 : α) {j : ℕ} (hj : j < 16) :
    visitSup b a0 j 128 = a0 ⊔ Finset.univ.sup b := by
  unfold visitSup; rw [visits_final hj, accSup_full b a0 (le_refl 8)]

/-- A slice's accumulator that starts at a0 and joins the point's row block in at the slice's points, unchanged at
    the others, is the closed form at every point count. -/
theorem visit_sup (b : Fin 8 → α) (a0 : α) {j : ℕ} (hj : j < 16) (A : ℕ → α) (h0 : A 0 = a0)
    (hs : ∀ (t : ℕ) (h : t < 128), A (t + 1) = if t % 16 = j then A t ⊔ b ⟨t / 16, by omega⟩ else A t) :
    ∀ t, t ≤ 128 → A t = visitSup b a0 j t := by
  intro t
  induction t with
  | zero => intro _; rw [h0, visitSup_zero]
  | succ t ih =>
    intro ht
    have ht' : t < 128 := ht
    rw [hs t ht', ih (Nat.le_of_lt ht')]
    by_cases h : t % 16 = j
    · rw [if_pos h, visitSup_hit b a0 ht' h]
    · rw [if_neg h, visitSup_miss b a0 hj h]

/-- The row blocks below v, each the join of its 1024 rows: the join of the rows below 1024 v. -/
theorem sup_below_rows (g : Fin 8192 → α) (v : ℕ) :
    (below 8 v).sup (fun i : Fin 8 => Finset.univ.sup fun p : Fin 1024 => g (rowIx i p))
      = (below 8192 (1024 * v)).sup g := by
  refine le_antisymm (Finset.sup_le fun i hi => Finset.sup_le fun p _ => Finset.le_sup (f := g) ?_)
    (Finset.sup_le fun r hr => ?_)
  · rw [mem_below] at hi ⊢; rw [rowIx_val]; have := p.isLt; omega
  · rw [mem_below] at hr
    have e : r = rowIx ⟨r.val / 1024, by omega⟩ ⟨r.val % 1024, by omega⟩ := Fin.ext (by show r.val = 1024 * (r.val / 1024) + r.val % 1024; omega)
    rw [e]
    refine le_trans (Finset.le_sup (f := fun p : Fin 1024 => g (rowIx ⟨r.val / 1024, by omega⟩ p)) (Finset.mem_univ _)) ?_
    exact Finset.le_sup (f := fun i : Fin 8 => Finset.univ.sup fun p : Fin 1024 => g (rowIx i p))
      (by rw [mem_below]; show r.val / 1024 < v; omega)

end Sup

/-! ## The meet (a minimum from the top element) -/

section Inf
variable {α : Type*} [SemilatticeInf α] [OrderTop α]

/-- A meet over a product's image is the meet of the meets. -/
theorem inf_equiv_prod {A B C : Type*} [Fintype A] [Fintype B] [Fintype C] (e : A × B ≃ C) (g : C → α) :
    Finset.univ.inf g = Finset.univ.inf fun a : A => Finset.univ.inf fun b : B => g (e (a, b)) := by
  rw [← Finset.map_univ_equiv e, Finset.inf_map, ← Finset.univ_product_univ, Finset.inf_product_left]
  rfl

/-- The meet over all columns is the meet over the column blocks of the blocks' meets. -/
theorem inf_col (g : Fin 8192 → α) :
    Finset.univ.inf g = Finset.univ.inf fun j : Fin 16 => Finset.univ.inf fun q : Fin 512 => g (colIx j q) :=
  inf_equiv_prod colEquiv g

/-- The meet over all rows is the meet over the row blocks of the blocks' meets. -/
theorem inf_row (g : Fin 8192 → α) :
    Finset.univ.inf g = Finset.univ.inf fun i : Fin 8 => Finset.univ.inf fun p : Fin 1024 => g (rowIx i p) :=
  inf_equiv_prod rowEquiv g

/-- The accumulator after k steps: the start value meeted with the blocks below k. -/
def accInf {n : ℕ} (b : Fin n → α) (a0 : α) (k : ℕ) : α := a0 ⊓ (below n k).inf b

theorem accInf_zero {n : ℕ} (b : Fin n → α) (a0 : α) : accInf b a0 0 = a0 := by
  simp [accInf, below_zero]

theorem accInf_succ {n : ℕ} (b : Fin n → α) (a0 : α) {k : ℕ} (h : k < n) :
    accInf b a0 (k + 1) = accInf b a0 k ⊓ b ⟨k, h⟩ := by
  unfold accInf
  rw [below_succ h, Finset.inf_insert, inf_assoc, inf_comm (b _)]

theorem accInf_full {n : ℕ} (b : Fin n → α) (a0 : α) {k : ℕ} (h : n ≤ k) :
    accInf b a0 k = a0 ⊓ Finset.univ.inf b := by
  unfold accInf; rw [below_full h]

/-- An accumulation that starts at a0 and meets block k in at step k ends at a0 meeted with every block. -/
theorem acc_inf {n : ℕ} (b : Fin n → α) (a0 : α) (acc : ℕ → α) (h0 : acc 0 = a0)
    (hs : ∀ (k : ℕ) (h : k < n), acc (k + 1) = acc k ⊓ b ⟨k, h⟩) :
    ∀ k, k ≤ n → acc k = accInf b a0 k := by
  intro k
  induction k with
  | zero => intro _; rw [h0, accInf_zero]
  | succ k ih =>
    intro hk
    have hk' : k < n := hk
    rw [hs k hk', ih (Nat.le_of_lt hk'), accInf_succ b a0 hk']

/-- The accumulator of slice j after t points of the 8 x 16 grid: the start value meeted with the row blocks that
    have visited the slice. -/
def visitInf (b : Fin 8 → α) (a0 : α) (j t : ℕ) : α := accInf b a0 (visits t j)

theorem visitInf_zero (b : Fin 8 → α) (a0 : α) (j : ℕ) : visitInf b a0 j 0 = a0 := by
  unfold visitInf; rw [visits_zero, accInf_zero]

/-- At a point of the slice the row block of the point is meeted in. -/
theorem visitInf_hit (b : Fin 8 → α) (a0 : α) {j t : ℕ} (ht : t < 128) (h : t % 16 = j) :
    visitInf b a0 j (t + 1) = visitInf b a0 j t ⊓ b ⟨t / 16, by omega⟩ := by
  unfold visitInf
  rw [(visits_hit h).1, (visits_hit h).2, accInf_succ b a0 (by omega : t / 16 < 8)]

/-- At a point of another slice nothing changes. -/
theorem visitInf_miss (b : Fin 8 → α) (a0 : α) {j t : ℕ} (hj : j < 16) (h : t % 16 ≠ j) :
    visitInf b a0 j (t + 1) = visitInf b a0 j t := by
  unfold visitInf; rw [visits_miss hj h]

/-- After all 128 points every row block has visited the slice. -/
theorem visitInf_final (b : Fin 8 → α) (a0 : α) {j : ℕ} (hj : j < 16) :
    visitInf b a0 j 128 = a0 ⊓ Finset.univ.inf b := by
  unfold visitInf; rw [visits_final hj, accInf_full b a0 (le_refl 8)]

/-- A slice's accumulator that starts at a0 and meets the point's row block in at the slice's points, unchanged at
    the others, is the closed form at every point count. -/
theorem visit_inf (b : Fin 8 → α) (a0 : α) {j : ℕ} (hj : j < 16) (A : ℕ → α) (h0 : A 0 = a0)
    (hs : ∀ (t : ℕ) (h : t < 128), A (t + 1) = if t % 16 = j then A t ⊓ b ⟨t / 16, by omega⟩ else A t) :
    ∀ t, t ≤ 128 → A t = visitInf b a0 j t := by
  intro t
  induction t with
  | zero => intro _; rw [h0, visitInf_zero]
  | succ t ih =>
    intro ht
    have ht' : t < 128 := ht
    rw [hs t ht', ih (Nat.le_of_lt ht')]
    by_cases h : t % 16 = j
    · rw [if_pos h, visitInf_hit b a0 ht' h]
    · rw [if_neg h, visitInf_miss b a0 hj h]

/-- The row blocks below v, each the meet of its 1024 rows: the meet of the rows below 1024 v. -/
theorem inf_below_rows (g : Fin 8192 → α) (v : ℕ) :
    (below 8 v).inf (fun i : Fin 8 => Finset.univ.inf fun p : Fin 1024 => g (rowIx i p))
      = (below 8192 (1024 * v)).inf g := by
  refine le_antisymm (Finset.le_inf fun r hr => ?_)
    (Finset.le_inf fun i hi => Finset.le_inf fun p _ => Finset.inf_le (f := g) ?_)
  · rw [mem_below] at hr
    have e : r = rowIx ⟨r.val / 1024, by omega⟩ ⟨r.val % 1024, by omega⟩ :=
      Fin.ext (by show r.val = 1024 * (r.val / 1024) + r.val % 1024; omega)
    rw [e]
    refine le_trans (Finset.inf_le (f := fun i : Fin 8 => Finset.univ.inf fun p : Fin 1024 => g (rowIx i p))
      (b := ⟨r.val / 1024, by omega⟩) (by rw [mem_below]; show r.val / 1024 < v; omega)) ?_
    exact Finset.inf_le (f := fun p : Fin 1024 => g (rowIx ⟨r.val / 1024, by omega⟩ p)) (Finset.mem_univ _)
  · rw [mem_below] at hi ⊢; rw [rowIx_val]; have := p.isLt; omega

end Inf

/-! ## The sum -/

section Sum
variable {α : Type*} [AddCommMonoid α]

/-- A sum over a product's image is the sum of the sums. -/
theorem sum_equiv_prod {A B C : Type*} [Fintype A] [Fintype B] [Fintype C] (e : A × B ≃ C) (g : C → α) :
    ∑ c, g c = ∑ a : A, ∑ b : B, g (e (a, b)) := by
  rw [← Equiv.sum_comp e g, Fintype.sum_prod_type]

/-- The sum over all columns is the sum over the column blocks of the blocks' sums. -/
theorem sum_col (g : Fin 8192 → α) : ∑ c, g c = ∑ j : Fin 16, ∑ q : Fin 512, g (colIx j q) :=
  sum_equiv_prod colEquiv g

/-- The sum over all rows is the sum over the row blocks of the blocks' sums. -/
theorem sum_row (g : Fin 8192 → α) : ∑ r, g r = ∑ i : Fin 8, ∑ p : Fin 1024, g (rowIx i p) :=
  sum_equiv_prod rowEquiv g

/-- The accumulator after k steps: the start value plus the blocks below k. -/
def accSum {n : ℕ} (b : Fin n → α) (a0 : α) (k : ℕ) : α := a0 + ∑ i ∈ below n k, b i

theorem accSum_zero {n : ℕ} (b : Fin n → α) (a0 : α) : accSum b a0 0 = a0 := by
  simp [accSum, below_zero]

theorem accSum_succ {n : ℕ} (b : Fin n → α) (a0 : α) {k : ℕ} (h : k < n) :
    accSum b a0 (k + 1) = accSum b a0 k + b ⟨k, h⟩ := by
  unfold accSum
  rw [below_succ h, Finset.sum_insert (not_mem_below h), add_assoc, add_comm (b _)]

theorem accSum_full {n : ℕ} (b : Fin n → α) (a0 : α) {k : ℕ} (h : n ≤ k) :
    accSum b a0 k = a0 + ∑ i, b i := by
  unfold accSum; rw [below_full h]

/-- An accumulation that starts at a0 and adds block k at step k ends at a0 plus every block. -/
theorem acc_sum {n : ℕ} (b : Fin n → α) (a0 : α) (acc : ℕ → α) (h0 : acc 0 = a0)
    (hs : ∀ (k : ℕ) (h : k < n), acc (k + 1) = acc k + b ⟨k, h⟩) :
    ∀ k, k ≤ n → acc k = accSum b a0 k := by
  intro k
  induction k with
  | zero => intro _; rw [h0, accSum_zero]
  | succ k ih =>
    intro hk
    have hk' : k < n := hk
    rw [hs k hk', ih (Nat.le_of_lt hk'), accSum_succ b a0 hk']

/-- The accumulator of slice j after t points of the 8 x 16 grid: the start value plus the row blocks that have
    visited the slice. -/
def visitSum (b : Fin 8 → α) (a0 : α) (j t : ℕ) : α := accSum b a0 (visits t j)

theorem visitSum_zero (b : Fin 8 → α) (a0 : α) (j : ℕ) : visitSum b a0 j 0 = a0 := by
  unfold visitSum; rw [visits_zero, accSum_zero]

/-- At a point of the slice the row block of the point is added. -/
theorem visitSum_hit (b : Fin 8 → α) (a0 : α) {j t : ℕ} (ht : t < 128) (h : t % 16 = j) :
    visitSum b a0 j (t + 1) = visitSum b a0 j t + b ⟨t / 16, by omega⟩ := by
  unfold visitSum
  rw [(visits_hit h).1, (visits_hit h).2, accSum_succ b a0 (by omega : t / 16 < 8)]

/-- At a point of another slice nothing changes. -/
theorem visitSum_miss (b : Fin 8 → α) (a0 : α) {j t : ℕ} (hj : j < 16) (h : t % 16 ≠ j) :
    visitSum b a0 j (t + 1) = visitSum b a0 j t := by
  unfold visitSum; rw [visits_miss hj h]

/-- After all 128 points every row block has visited the slice. -/
theorem visitSum_final (b : Fin 8 → α) (a0 : α) {j : ℕ} (hj : j < 16) :
    visitSum b a0 j 128 = a0 + ∑ i, b i := by
  unfold visitSum; rw [visits_final hj, accSum_full b a0 (le_refl 8)]

/-- A slice's accumulator that starts at a0 and adds the point's row block at the slice's points, unchanged at the
    others, is the closed form at every point count. -/
theorem visit_sum (b : Fin 8 → α) (a0 : α) {j : ℕ} (hj : j < 16) (A : ℕ → α) (h0 : A 0 = a0)
    (hs : ∀ (t : ℕ) (h : t < 128), A (t + 1) = if t % 16 = j then A t + b ⟨t / 16, by omega⟩ else A t) :
    ∀ t, t ≤ 128 → A t = visitSum b a0 j t := by
  intro t
  induction t with
  | zero => intro _; rw [h0, visitSum_zero]
  | succ t ih =>
    intro ht
    have ht' : t < 128 := ht
    rw [hs t ht', ih (Nat.le_of_lt ht')]
    by_cases h : t % 16 = j
    · rw [if_pos h, visitSum_hit b a0 ht' h]
    · rw [if_neg h, visitSum_miss b a0 hj h]

/-- The row blocks below v, each the sum of its 1024 rows: the sum of the rows below 1024 v. -/
theorem sum_below_rows (g : Fin 8192 → α) (v : ℕ) :
    ∑ i ∈ below 8 v, ∑ p : Fin 1024, g (rowIx i p) = ∑ r ∈ below 8192 (1024 * v), g r := by
  rw [← Finset.sum_product' (below 8 v) Finset.univ fun i p => g (rowIx i p)]
  refine Finset.sum_equiv rowEquiv (fun x => ?_) (fun x _ => rfl)
  simp only [Finset.mem_product, mem_below, Finset.mem_univ, and_true]
  show x.1.val < v ↔ 1024 * x.1.val + x.2.val < 1024 * v
  have := x.2.isLt; omega

end Sum

/-! ## A flag carried as the value 0 or 1 -/

section Flag

open Classical in
/-- The value 1 where p holds, 0 where it does not. -/
def ind (p : Prop) : EReal := if p then 1 else 0

theorem ind_true {p : Prop} (h : p) : ind p = 1 := by unfold ind; rw [if_pos h]
theorem ind_false {p : Prop} (h : ¬p) : ind p = 0 := by unfold ind; rw [if_neg h]

theorem ind_nonneg (p : Prop) : 0 ≤ ind p := by
  by_cases h : p
  · rw [ind_true h]; exact zero_le_one
  · rw [ind_false h]

/-- The greater of two flags is the flag of the disjunction. -/
theorem ind_sup (p q : Prop) : ind p ⊔ ind q = ind (p ∨ q) := by
  by_cases hp : p
  · rw [ind_true hp, ind_true (Or.inl hp)]; exact sup_eq_left.2 (by
      by_cases hq : q
      · rw [ind_true hq]
      · rw [ind_false hq]; exact zero_le_one)
  · by_cases hq : q
    · rw [ind_false hp, ind_true hq, ind_true (Or.inr hq)]; exact sup_eq_right.2 zero_le_one
    · rw [ind_false hp, ind_false hq, ind_false (by tauto)]; exact sup_idem _

/-- A flag is above a threshold in [0, 1) exactly where it is set. -/
theorem lt_ind_iff {θ : EReal} (h0 : 0 ≤ θ) (h1 : θ < 1) (p : Prop) : θ < ind p ↔ p := by
  by_cases h : p
  · rw [ind_true h]; exact ⟨fun _ => h, fun _ => h1⟩
  · rw [ind_false h]; exact ⟨fun hlt => absurd hlt (not_lt.2 h0), fun hp => absurd hp h⟩

/-- Zero joined with the flags over a set is the flag of "some member is set". -/
theorem zero_sup_ind {ι : Type*} (s : Finset ι) (p : ι → Prop) :
    (0 : EReal) ⊔ s.sup (fun i => ind (p i)) = ind (∃ i ∈ s, p i) := by
  classical
  induction s using Finset.induction_on with
  | empty => simp [ind_false]
  | insert a s ha ih =>
    rw [Finset.sup_insert, ← sup_assoc, sup_comm (0 : EReal), sup_assoc, ih, ind_sup]
    congr 1
    simp only [Finset.mem_insert, exists_eq_or_imp]

/-- Over a nonempty index type the join of the flags (from the bottom element) is the flag of the existential. -/
theorem sup_ind {ι : Type*} [Fintype ι] [Nonempty ι] (p : ι → Prop) :
    Finset.univ.sup (fun i => ind (p i)) = ind (∃ i, p i) := by
  have h := zero_sup_ind (Finset.univ : Finset ι) p
  have hz : (0 : EReal) ≤ Finset.univ.sup (fun i => ind (p i)) :=
    le_trans (ind_nonneg (p (Classical.arbitrary ι))) (Finset.le_sup (f := fun i => ind (p i)) (Finset.mem_univ _))
  rw [sup_eq_right.2 hz] at h
  rw [h]; congr 1; simp

/-- A flag accumulator from 0 that takes in the blocks' flags holds, after k steps, the flag of "some block below k
    is set". -/
theorem accSup_ind {n : ℕ} (p : Fin n → Prop) (k : ℕ) :
    accSup (fun j => ind (p j)) 0 k = ind (∃ j : Fin n, j.val < k ∧ p j) := by
  unfold accSup; rw [zero_sup_ind]; congr 1; simp only [mem_below]

end Flag

/-! ## Folds of max and min as joins and meets -/

theorem fold_max_eq_sup {ι : Type*} (s : Finset ι) (f : ι → EReal) : s.fold max ⊥ f = s.sup f := rfl
theorem fold_min_eq_inf {ι : Type*} (s : Finset ι) (f : ι → EReal) : s.fold min ⊤ f = s.inf f := rfl

end Cert.Tile

end
-- ==== Proof.R0Tiles.lean ====
/-
  The first pass's tiles: at grid point t = 16 i + j the score window holds rows 1024 i … 1024 i + 1023 and columns
  512 j … 512 j + 511 of the score matrix, the row-label window holds labels 1024 i …, the column-label window labels
  512 j ….  A block's coordinate in its array is its index times its size plus the coordinate inside the block.
-/
import proofs.«170005_j69870527971928_1_alg».proof.Proof.R0Base
import Idealize.ShloMosaic.Lib.Pipeline.Value
import Idealize.ShloMosaic.Lib.ValueIdx
import proofs.«170005_j69870527971928_1_alg».proof.Proof.Tile

noncomputable section

namespace Cert.KernelIdeal.H0

open Cert.KernelIdeal Cert.KernelIdeal.Gen Cert.Tile
open Idealize.ShloMosaic Idealize.ShloMosaic.TcCoe Idealize.ShloMosaic.ValueIdx
open Idealize.SL.Sem

variable {F : FTy → Type} [FloatOps F]

/-- The row block of grid point t. -/
def rowBlk (t : Fin cfg0.N) : Fin 8 := ⟨t.val / 16, by have h : t.val < 128 := lt_of_lt_of_eq t.isLt N_0; omega⟩
/-- The column block of grid point t. -/
def colBlk (t : Fin cfg0.N) : Fin 16 := ⟨t.val % 16, by omega⟩

@[simp] theorem rowBlk_val (t : Fin cfg0.N) : (rowBlk t).val = t.val / 16 := rfl
@[simp] theorem colBlk_val (t : Fin cfg0.N) : (colBlk t).val = t.val % 16 := rfl

/-- The windows' block indices at a grid point. -/
theorem idx0_0 : ∀ t : Fin cfg0.N, win0_0.index t (0 : Fin 2) = t.val / 16 ∧ win0_0.index t (1 : Fin 2) = t.val % 16 :=
  (by decide +kernel : ∀ t : Fin grid0.N, win0_0.index t (0 : Fin 2) = t.val / 16 ∧ win0_0.index t (1 : Fin 2) = t.val % 16)
theorem idx0_1 : ∀ t : Fin cfg0.N, win0_1.index t (0 : Fin 1) = t.val / 16 :=
  (by decide +kernel : ∀ t : Fin grid0.N, win0_1.index t (0 : Fin 1) = t.val / 16)
theorem idx0_2 : ∀ t : Fin cfg0.N, win0_2.index t (0 : Fin 1) = t.val % 16 :=
  (by decide +kernel : ∀ t : Fin grid0.N, win0_2.index t (0 : Fin 1) = t.val % 16)

/-- The slice offset of the column accumulators at a grid point. -/
theorem off1_eq : ∀ t : Fin cfg0.N, k0_off1 (grid0.coords t) = ![512 * (t.val % 16)] :=
  (by decide +kernel : ∀ t : Fin grid0.N, k0_off1 (grid0.coords t) = ![512 * (t.val % 16)])

variable (V : (c : Dev nD) → (b : Ref sig .tc) → Buf (Elt F) ((c : Thread nD τ).loc b))

/-- The score tile of point t at (p, q) is the score matrix at (1024 i + p, 512 j + q). -/
theorem tile0 (c : Dev nD) (t : Fin cfg0.N) (p : Fin 1024) (q : Fin 512) :
    (((cfg0.win 0).blk t).view.read (Elt F) (V c (Pipeline.arrRef spec0 0)) : Vec F S1024x512 .f32) (ix2 p q)
      = (V c main_arg0 : S8192x8192.Idx → Elt F .f32) (ix2 (rowIx (rowBlk t) p) (colIx (colBlk t) q)) := by
  have hi := idx0_0 t
  rw [View.read_apply]
  show V c main_arg0 _ = V c main_arg0 _
  congr 1
  funext a
  apply Fin.ext
  match a with
  | ⟨0, _⟩ => show win0_0.index t 0 * 1024 + 1 * p.val = 1024 * (t.val / 16) + p.val; rw [hi.1]; omega
  | ⟨1, _⟩ => show win0_0.index t 1 * 512 + 1 * q.val = 512 * (t.val % 16) + q.val; rw [hi.2]; omega

/-- The row labels of point t at p are the labels at 1024 i + p. -/
theorem tile1 (c : Dev nD) (t : Fin cfg0.N) (p : Fin 1024) :
    (((cfg0.win 1).blk t).view.read (Elt F) (V c (Pipeline.arrRef spec0 1)) : Vec F S1024 .i32) (ix1 p)
      = (V c main_arg1 : S8192.Idx → Elt F .i32) (ix1 (rowIx (rowBlk t) p)) := by
  have hi := idx0_1 t
  rw [View.read_apply]
  show V c main_arg1 _ = V c main_arg1 _
  congr 1
  funext a
  apply Fin.ext
  match a with
  | ⟨0, _⟩ => show win0_1.index t 0 * 1024 + 1 * p.val = 1024 * (t.val / 16) + p.val; rw [hi]; omega

/-- The column labels of point t at q are the labels at 512 j + q. -/
theorem tile2 (c : Dev nD) (t : Fin cfg0.N) (q : Fin 512) :
    (((cfg0.win 2).blk t).view.read (Elt F) (V c (Pipeline.arrRef spec0 2)) : Vec F S512 .i32) (ix1 q)
      = (V c main_arg1 : S8192.Idx → Elt F .i32) (ix1 (colIx (colBlk t) q)) := by
  have hi := idx0_2 t
  rw [View.read_apply]
  show V c main_arg1 _ = V c main_arg1 _
  congr 1
  funext a
  apply Fin.ext
  match a with
  | ⟨0, _⟩ => show win0_2.index t 0 * 512 + 1 * q.val = 512 * (t.val % 16) + q.val; rw [hi]; omega

end Cert.KernelIdeal.H0

end
-- ==== Proof.R0Slice.lean ====
/-
  The column accumulators' slice arithmetic: at grid point t = 16 i + j the kernel loads and stores the 512 columns
  512 j … 512 j + 511 of an 8192 buffer.  A load through the slice reads the buffer at 512 j + q; a buffer after one
  store through the slice holds the payload on the slice's columns and what it held elsewhere; a buffer filled by a
  store of the whole shape and then a store through the slice holds the slice's payload on the slice and the whole
  payload elsewhere.
-/
import proofs.«170005_j69870527971928_1_alg».proof.Proof.R0Tiles
import Idealize.ShloMosaic.Lib.WritesUnit
import Idealize.ShloMosaic.Lib.Pipeline.Frame

noncomputable section

namespace Cert.KernelIdeal.H0

open Cert.KernelIdeal Cert.KernelIdeal.Gen Cert.Tile
open Idealize.ShloMosaic Idealize.ShloMosaic.TcCoe Idealize.ShloMosaic.ValueIdx
open Idealize.SL.Sem

variable {F : FTy → Type} [FloatOps F]

/-- A load through the slice of point t reads the buffer at column 512 j + q. -/
theorem ld_slice (xs : Vec F S8192 .f32) (t : Fin cfg0.N) (q : Fin 512) :
    (View.ld xs (rsl (grid0.coords t)) : Vec F S512 .f32) (ix1 q) = xs (ix1 (colIx (colBlk t) q)) := by
  show xs ((rsl (grid0.coords t)).idx (ix1 q)) = _
  refine congrArg xs (funext fun a => Fin.ext ?_)
  match a with
  | ⟨0, _⟩ =>
    show k0_off1 (grid0.coords t) 0 + 1 * q.val = 512 * (t.val % 16) + q.val
    rw [off1_eq t]
    show 512 * (t.val % 16) + 1 * q.val = _
    omega

/-- One store through the slice of point t into a whole buffer holding xs, read at column 512 j' + q: the payload where
    j' is the point's column block, xs elsewhere. -/
theorem read_slice_store (m : Memref sig .tc .vmem S8192 .f32) (hm : m.IsWhole) (xs : Vec F S8192 .f32) (t : Fin cfg0.N)
    (w : Vec F S512 .f32) (j' : Fin 16) (q : Fin 512) :
    m.view.read (Elt F) (m.view.writes (Elt F) (hm.unread xs)
        [(⟨rsl (grid0.coords t), w⟩ : View.Piece (Elt F) S8192 .f32)]) (ix1 (colIx j' q))
      = if j' = colBlk t then w (ix1 q) else xs (ix1 (colIx j' q)) := by
  by_cases h : j' = colBlk t
  · rw [if_pos h]
    refine View.read_writes_cons_unit_of_mem m.view (hm.unread xs) (k0_off1_inb (grid0.coords t)) w [] (ix1 (colIx j' q))
      (ix1 q) (off1_eq t) (fun a => ?_)
    match a with
    | ⟨0, _⟩ =>
      show 512 * j'.val + q.val = 512 * (t.val % 16) + q.val
      rw [h]; rfl
  · rw [if_neg h]
    have hne : j'.val ≠ t.val % 16 := fun e => h (Fin.ext e)
    rw [View.read_writes_cons_unit_of_not_mem m.view (hm.unread xs) (k0_off1_inb (grid0.coords t)) w []
      (ix1 (colIx j' q)) (off1_eq t) (0 : Fin 1) (by
        show 512 * j'.val + q.val < 512 * (t.val % 16) ∨ 512 * (t.val % 16) + 512 ≤ 512 * j'.val + q.val
        have := q.isLt; omega)]
    rw [View.writes_nil, hm.read_unread]

/-- A store of the whole shape and then one through the slice of point t, read at column 512 j' + q: the slice's
    payload where j' is the point's column block, the whole payload elsewhere. -/
theorem canon_slice_whole (t : Fin cfg0.N) (w : Vec F S512 .f32) (z : Vec F S8192 .f32) (j' : Fin 16) (q : Fin 512) :
    View.canon [(⟨rsl (grid0.coords t), w⟩ : View.Piece (Elt F) S8192 .f32), ⟨r8192, z⟩] (ix1 (colIx j' q))
      = if j' = colBlk t then w (ix1 q) else z (ix1 (colIx j' q)) := by
  have hz : View.canon [(⟨r8192, z⟩ : View.Piece (Elt F) S8192 .f32)] = z :=
    View.canon_cons_unit_zero (S := S8192) (funext fun a => by fin_cases a; rfl) _ z []
  by_cases h : j' = colBlk t
  · rw [if_pos h]
    have e : ix1 (colIx j' q) = (rsl (grid0.coords t)).emb (ix1 q) := funext fun a => Fin.ext (by
      match a with
      | ⟨0, _⟩ =>
        show 512 * j'.val + q.val = k0_off1 (grid0.coords t) 0 + 1 * q.val
        rw [off1_eq t, h]
        show 512 * (t.val % 16) + q.val = 512 * (t.val % 16) + 1 * q.val
        omega)
    rw [e]
    exact View.canon_cons_emb (rsl (grid0.coords t)) w _ (ix1 q)
  · rw [if_neg h]
    have hne : j'.val ≠ t.val % 16 := fun e => h (Fin.ext e)
    rw [View.canon_cons_of_not_mem _ _ (by
      rw [Rect.mem_set_unit]
      intro hall
      have := hall (0 : Fin 1)
      rw [off1_eq t] at this
      have h1 : 512 * (t.val % 16) ≤ 512 * j'.val + q.val ∧ 512 * j'.val + q.val < 512 * (t.val % 16) + 512 := this
      have := q.isLt; omega), hz]

end Cert.KernelIdeal.H0

end
-- ==== Proof.Pay0.lean ====
/-
  The first pass's payloads read at an index, at the extended reals: the label-equality word of a tile's entry, the
  tile masked to minus or plus infinity, the row and column maxima and minima of the masked tile joined with, resp. met
  with, the accumulator's entry, and the accumulators' start values.
-/
import proofs.«170005_j69870527971928_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Affine
import proofs.«170005_j69870527971928_1_alg».proof.Proof.Spec
import proofs.«170005_j69870527971928_1_alg».proof.Proof.Words

noncomputable section

open scoped BigOperators

namespace Cert.KernelIdeal.Pay0

open Cert.KernelIdeal Cert.KernelIdeal.Gen Idealize.ShloMosaic Idealize.ShloMosaic.ValueIdx

/-! ## Layout and reductions -/

/-- A vector recast as a column reads the vector at the row. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index (p, q) that a reduction over axis 1 inserts at row p. -/
theorem lift_axis1 (h : S1024x512.Reduces [1] S1024) (p : Fin 1024) (q : Fin 512) : h.lift (ix1 p) q = ix2 p q :=
  funext fun a => Fin.ext (by match a with | ⟨0, _⟩ => rfl | ⟨1, _⟩ => rfl)

/-- The index (p, q) that a reduction over axis 0 inserts at column q. -/
theorem lift_axis0 (h : S1024x512.Reduces [0] S512) (q : Fin 512) (p : Fin 1024) : h.lift (ix1 q) p = ix2 p q :=
  funext fun a => Fin.ext (by match a with | ⟨0, _⟩ => rfl | ⟨1, _⟩ => rfl)

/-- A maximum over the columns of a tile, from minus infinity, is the join over the columns. -/
theorem max_axis1 (y : FVec Ideal S1024x512 .f32) (h : S1024x512.Reduces [1] S1024) (hφ : FKind.Formats .f32)
    (hacc : (0xFF800000#32 : BitVec 32) = FKind.maximumf.neutral .f32 hφ) (p : Fin 1024) :
    multiReduction .maximumf [1] S1024 y 0xFF800000#32 h hφ hacc (ix1 p) = Finset.univ.sup fun q : Fin 512 => y (ix2 p q) := by
  rw [Ideal.multiReduction_maximumf_single, Ideal.ofBits_def, Cert.Spec.ofBits_neg_inf]
  show Finset.univ.sup (fun q : Fin 512 => y (h.lift (ix1 p) q)) = _
  simp only [lift_axis1]

/-- A maximum over the rows of a tile, from minus infinity, is the join over the rows. -/
theorem max_axis0 (y : FVec Ideal S1024x512 .f32) (h : S1024x512.Reduces [0] S512) (hφ : FKind.Formats .f32)
    (hacc : (0xFF800000#32 : BitVec 32) = FKind.maximumf.neutral .f32 hφ) (q : Fin 512) :
    multiReduction .maximumf [0] S512 y 0xFF800000#32 h hφ hacc (ix1 q) = Finset.univ.sup fun p : Fin 1024 => y (ix2 p q) := by
  rw [Ideal.multiReduction_maximumf_single, Ideal.ofBits_def, Cert.Spec.ofBits_neg_inf]
  show Finset.univ.sup (fun p : Fin 1024 => y (h.lift (ix1 q) p)) = _
  simp only [lift_axis0]

/-- A minimum over the columns of a tile, from plus infinity, is the meet over the columns. -/
theorem min_axis1 (y : FVec Ideal S1024x512 .f32) (h : S1024x512.Reduces [1] S1024) (hφ : FKind.Formats .f32)
    (hacc : (0x7F800000#32 : BitVec 32) = FKind.minimumf.neutral .f32 hφ) (p : Fin 1024) :
    multiReduction .minimumf [1] S1024 y 0x7F800000#32 h hφ hacc (ix1 p) = Finset.univ.inf fun q : Fin 512 => y (ix2 p q) := by
  rw [multiReduction_minimumf_eq_fold, h.fold_filter_drop_single, Ideal.ofBits_def, Cert.Spec.ofBits_pos_inf]
  show Finset.univ.inf (fun q : Fin 512 => y (h.lift (ix1 p) q)) = _
  simp only [lift_axis1]

/-- A minimum over the rows of a tile, from plus infinity, is the meet over the rows. -/
theorem min_axis0 (y : FVec Ideal S1024x512 .f32) (h : S1024x512.Reduces [0] S512) (hφ : FKind.Formats .f32)
    (hacc : (0x7F800000#32 : BitVec 32) = FKind.minimumf.neutral .f32 hφ) (q : Fin 512) :
    multiReduction .minimumf [0] S512 y 0x7F800000#32 h hφ hacc (ix1 q) = Finset.univ.inf fun p : Fin 1024 => y (ix2 p q) := by
  rw [multiReduction_minimumf_eq_fold, h.fold_filter_drop_single, Ideal.ofBits_def, Cert.Spec.ofBits_pos_inf]
  show Finset.univ.inf (fun p : Fin 1024 => y (h.lift (ix1 q) p)) = _
  simp only [lift_axis0]

/-- A one-bit word flipped is 1 exactly where the word is not 1. -/
theorem xori_one_eq_one {c : BitVec 1} : IntOp.xori c 1#1 = 1#1 ↔ ¬ c = 1#1 := by revert c; decide

/-! ## The payloads -/

section Payloads

variable (x0 : Vec Ideal S1024x512 .f32) (x1 : Vec Ideal S1024 .i32) (x2 : Vec Ideal S512 .i32)

/-- The label-equality word of the tile's entry (p, q). -/
theorem pay7_apply (p : Fin 1024) (q : Fin 512) :
    k0_pay7 (F := Ideal) x1 x2 (ix2 p q) = IntOp.cmpi .eq (x1 (ix1 p)) (x2 (ix1 q)) := by
  unfold k0_pay7
  show IntOp.cmpi .eq (broadcastTo S1024x512 (shapeCast S1024x1 x1 _) _ (ix2 p q))
      (broadcastTo S1024x512 (shapeCast S1x512 x2 _) _ (ix2 p q)) = _
  rw [broadcastTo_apply _ _ (ix2 p q) (ix2 p (0 : Fin 1)) (fun a => match a with
        | ⟨0, _⟩ => by show p.val = if (1024 : Nat) = 1 then 0 else p.val; rw [if_neg (by decide)]
        | ⟨1, _⟩ => by show 0 = if (1 : Nat) = 1 then 0 else q.val; rw [if_pos rfl]),
    broadcastTo_apply _ _ (ix2 p q) (ix2 (0 : Fin 1) q) (fun a => match a with
        | ⟨0, _⟩ => by show 0 = if (1 : Nat) = 1 then 0 else p.val; rw [if_pos rfl]
        | ⟨1, _⟩ => by show q.val = if (512 : Nat) = 1 then 0 else q.val; rw [if_neg (by decide)]),
    shapeCast_a_a1_apply, shapeCast_a_1a_apply]

/-- The tile with its positive pairs masked to minus infinity. -/
theorem pay8_apply (p : Fin 1024) (q : Fin 512) :
    k0_pay8 (F := Ideal) x0 x1 x2 (ix2 p q) = if x1 (ix1 p) = x2 (ix1 q) then ⊥ else x0 (ix2 p q) := by
  unfold k0_pay8
  show Scalar.select (IntOp.xori (k0_pay7 (F := Ideal) x1 x2 (ix2 p q)) 1#1) (x0 (ix2 p q))
      (Ideal.ofBits .f32 0xFF800000#32) = _
  rw [Cert.Words.select_of_iff (p := ¬ x1 (ix1 p) = x2 (ix1 q)) (by rw [xori_one_eq_one, pay7_apply, IntOp.cmpi_eq]),
    Cert.Spec.ofBits_neg_inf, ite_not]

/-- The tile with its negative pairs masked to plus infinity. -/
theorem pay9_apply (p : Fin 1024) (q : Fin 512) :
    k0_pay9 (F := Ideal) x0 x1 x2 (ix2 p q) = if x1 (ix1 p) = x2 (ix1 q) then x0 (ix2 p q) else ⊤ := by
  unfold k0_pay9
  show Scalar.select (k0_pay7 (F := Ideal) x1 x2 (ix2 p q)) (x0 (ix2 p q)) (Ideal.ofBits .f32 0x7F800000#32) = _
  rw [Cert.Words.select_of_iff (p := x1 (ix1 p) = x2 (ix1 q)) (by rw [pay7_apply, IntOp.cmpi_eq]),
    Cert.Spec.ofBits_pos_inf]

/-- The row accumulator's new entry: its entry joined with the row's hardest negative inside the tile. -/
theorem pay10_apply (v : Vec Ideal S1024 .f32) (p : Fin 1024) :
    k0_pay10 (F := Ideal) x0 x1 x2 v (ix1 p)
      = max (v (ix1 p)) (Finset.univ.sup fun q : Fin 512 => if x1 (ix1 p) = x2 (ix1 q) then ⊥ else x0 (ix2 p q)) := by
  unfold k0_pay10
  show shapeCast S1024 (maximumf v (multiReduction (F := Ideal) (φ := .f32) .maximumf [1] S1024 (k0_pay8 (F := Ideal) x0 x1 x2) 0xFF800000#32 _ _ _))
      _ (ix1 p) = _
  rw [shapeCast_self, maximumf_apply]
  refine congrArg (max (v (ix1 p))) ((max_axis1 _ _ _ _ p).trans ?_)
  simp only [pay8_apply]

/-- The row accumulator's new entry: its entry met with the row's weakest positive inside the tile. -/
theorem pay11_apply (v : Vec Ideal S1024 .f32) (p : Fin 1024) :
    k0_pay11 (F := Ideal) x0 x1 x2 v (ix1 p)
      = min (v (ix1 p)) (Finset.univ.inf fun q : Fin 512 => if x1 (ix1 p) = x2 (ix1 q) then x0 (ix2 p q) else ⊤) := by
  unfold k0_pay11
  show shapeCast S1024 (minimumf v (multiReduction (F := Ideal) (φ := .f32) .minimumf [1] S1024 (k0_pay9 (F := Ideal) x0 x1 x2) 0x7F800000#32 _ _ _))
      _ (ix1 p) = _
  rw [shapeCast_self, minimumf_apply]
  refine congrArg (min (v (ix1 p))) ((min_axis1 _ _ _ _ p).trans ?_)
  simp only [pay9_apply]

/-- The column's hardest negative inside the tile. -/
theorem pay12_apply (q : Fin 512) :
    k0_pay12 (F := Ideal) x0 x1 x2 (ix1 q)
      = Finset.univ.sup fun p : Fin 1024 => if x1 (ix1 p) = x2 (ix1 q) then ⊥ else x0 (ix2 p q) := by
  unfold k0_pay12
  show multiReduction (F := Ideal) (φ := .f32) .maximumf [0] S512 (k0_pay8 (F := Ideal) x0 x1 x2) 0xFF800000#32 _ _ _ (ix1 q) = _
  refine (max_axis0 _ _ _ _ q).trans ?_
  simp only [pay8_apply]

/-- The column accumulator's new entry on the slice: its entry joined with the column's hardest negative inside the
    tile. -/
theorem pay1_apply (v : Vec Ideal S512 .f32) (q : Fin 512) :
    k0_pay1 (F := Ideal) (k0_pay12 (F := Ideal) x0 x1 x2) v (ix1 q)
      = max (v (ix1 q)) (Finset.univ.sup fun p : Fin 1024 => if x1 (ix1 p) = x2 (ix1 q) then ⊥ else x0 (ix2 p q)) := by
  unfold k0_pay1
  show shapeCast S512 (maximumf v (k0_pay12 (F := Ideal) x0 x1 x2)) _ (ix1 q) = _
  rw [shapeCast_self, maximumf_apply, pay12_apply]

/-- The column accumulator's new entry on the slice: its entry met with the column's weakest positive inside the
    tile. -/
theorem pay2_apply (v : Vec Ideal S512 .f32) (q : Fin 512) :
    k0_pay2 (F := Ideal) (k0_pay9 (F := Ideal) x0 x1 x2) v (ix1 q)
      = min (v (ix1 q)) (Finset.univ.inf fun p : Fin 1024 => if x1 (ix1 p) = x2 (ix1 q) then x0 (ix2 p q) else ⊤) := by
  unfold k0_pay2
  show shapeCast S512 (minimumf v (multiReduction (F := Ideal) (φ := .f32) .minimumf [0] S512 (k0_pay9 (F := Ideal) x0 x1 x2) 0x7F800000#32 _ _ _))
      _ (ix1 q) = _
  rw [shapeCast_self, minimumf_apply]
  refine congrArg (min (v (ix1 q))) ((min_axis0 _ _ _ _ q).trans ?_)
  simp only [pay9_apply]

end Payloads

/-! ## The accumulators' start values -/

theorem pay3_eq : k0_pay3 (F := Ideal) = fun _ => ⊥ := by
  unfold k0_pay3
  show shapeCast S8192 (broadcast S8192 (Ideal.ofBits .f32 0xFF800000#32)) _ = _
  rw [shapeCast_self, Cert.Spec.ofBits_neg_inf]
  rfl

theorem pay4_eq : k0_pay4 (F := Ideal) = fun _ => ⊤ := by
  unfold k0_pay4
  show shapeCast S8192 (broadcast S8192 (Ideal.ofBits .f32 0x7F800000#32)) _ = _
  rw [shapeCast_self, Cert.Spec.ofBits_pos_inf]
  rfl

theorem pay5_eq : k0_pay5 (F := Ideal) = fun _ => ⊥ := by
  unfold k0_pay5
  show shapeCast S1024 (broadcast S1024 (Ideal.ofBits .f32 0xFF800000#32)) _ = _
  rw [shapeCast_self, Cert.Spec.ofBits_neg_inf]
  rfl

theorem pay6_eq : k0_pay6 (F := Ideal) = fun _ => ⊤ := by
  unfold k0_pay6
  show shapeCast S1024 (broadcast S1024 (Ideal.ofBits .f32 0x7F800000#32)) _ = _
  rw [shapeCast_self, Cert.Spec.ofBits_pos_inf]
  rfl

end Cert.KernelIdeal.Pay0

end
-- ==== Proof.R0Parts.lean ====
/-
  One grid point of the first pass against the specification: when the point's tile and label windows are the blocks
  (i, j) of the score matrix and the label vector, the four accumulate payloads take in the tile's part of the row's or
  column's hardest negative and weakest positive.
-/
import proofs.«170005_j69870527971928_1_alg».proof.Proof.Pay0
import proofs.«170005_j69870527971928_1_alg».proof.Proof.Tile

noncomputable section

namespace Cert.KernelIdeal.H0

open Cert.KernelIdeal Cert.KernelIdeal.Gen Cert.KernelIdeal.Pay0 Cert.Tile Cert.Spec
open Idealize.ShloMosaic Idealize.ShloMosaic.ValueIdx

/-! ## The tiles' parts of the four extrema -/

section Parts
variable (S : Mat) (T : Lab)

/-- Row r's hardest negative inside column block j. -/
def rowPartMax (r : Fin 8192) (j : Fin 16) : EReal :=
  Finset.univ.sup fun q : Fin 512 => if same T r (colIx j q) then ⊥ else S (ix2 r (colIx j q))
/-- Row r's weakest positive inside column block j. -/
def rowPartMin (r : Fin 8192) (j : Fin 16) : EReal :=
  Finset.univ.inf fun q : Fin 512 => if same T r (colIx j q) then S (ix2 r (colIx j q)) else ⊤
/-- Column c's hardest negative inside row block i. -/
def colPartMax (i : Fin 8) (c : Fin 8192) : EReal :=
  Finset.univ.sup fun p : Fin 1024 => if same T (rowIx i p) c then ⊥ else S (ix2 (rowIx i p) c)
/-- Column c's weakest positive inside row block i. -/
def colPartMin (i : Fin 8) (c : Fin 8192) : EReal :=
  Finset.univ.inf fun p : Fin 1024 => if same T (rowIx i p) c then S (ix2 (rowIx i p) c) else ⊤

/-- The row's hardest negative is the join of its parts over the column blocks. -/
theorem maxAnRow_eq (r : Fin 8192) : maxAnRow S T r = Finset.univ.sup (rowPartMax S T r) :=
  sup_col fun c => if same T r c then ⊥ else S (ix2 r c)
theorem minApRow_eq (r : Fin 8192) : minApRow S T r = Finset.univ.inf (rowPartMin S T r) :=
  inf_col fun c => if same T r c then S (ix2 r c) else ⊤
/-- The column's hardest negative is the join of its parts over the row blocks. -/
theorem maxAnCol_eq (c : Fin 8192) : maxAnCol S T c = Finset.univ.sup fun i => colPartMax S T i c :=
  sup_row fun r => if same T r c then ⊥ else S (ix2 r c)
theorem minApCol_eq (c : Fin 8192) : minApCol S T c = Finset.univ.inf fun i => colPartMin S T i c :=
  inf_row fun r => if same T r c then S (ix2 r c) else ⊤

end Parts

/-! ## The accumulate payloads at a point whose windows are the blocks (i, j) -/

section Steps
variable (S : Mat) (T : Lab) (i : Fin 8) (j : Fin 16)
  (x0 : Vec Ideal S1024x512 .f32) (x1 : Vec Ideal S1024 .i32) (x2 : Vec Ideal S512 .i32)
  (hx0 : ∀ p q, x0 (ix2 p q) = S (ix2 (rowIx i p) (colIx j q)))
  (hx1 : ∀ p, x1 (ix1 p) = T (ix1 (rowIx i p)))
  (hx2 : ∀ q, x2 (ix1 q) = T (ix1 (colIx j q)))

include hx0 hx1 hx2

theorem rowStepMax (v : Vec Ideal S1024 .f32) (p : Fin 1024) :
    k0_pay10 (F := Ideal) x0 x1 x2 v (ix1 p) = max (v (ix1 p)) (rowPartMax S T (rowIx i p) j) := by
  rw [pay10_apply]
  simp only [hx0, hx1, hx2]
  rfl

theorem rowStepMin (v : Vec Ideal S1024 .f32) (p : Fin 1024) :
    k0_pay11 (F := Ideal) x0 x1 x2 v (ix1 p) = min (v (ix1 p)) (rowPartMin S T (rowIx i p) j) := by
  rw [pay11_apply]
  simp only [hx0, hx1, hx2]
  rfl

theorem colStepMax (v : Vec Ideal S512 .f32) (q : Fin 512) :
    k0_pay1 (F := Ideal) (k0_pay12 (F := Ideal) x0 x1 x2) v (ix1 q) = max (v (ix1 q)) (colPartMax S T i (colIx j q)) := by
  rw [pay1_apply]
  simp only [hx0, hx1, hx2]
  rfl

theorem colStepMin (v : Vec Ideal S512 .f32) (q : Fin 512) :
    k0_pay2 (F := Ideal) (k0_pay9 (F := Ideal) x0 x1 x2) v (ix1 q) = min (v (ix1 q)) (colPartMin S T i (colIx j q)) := by
  rw [pay2_apply]
  simp only [hx0, hx1, hx2]
  rfl

end Steps

end Cert.KernelIdeal.H0

end
-- ==== Proof.R0Acc.lean ====
/-
  The accumulators of the first pass from one grid point to the next, in closed form: a row accumulator that is reset at
  the first tile of its row block and takes in the tile's part at every tile holds, after tile j, the join (meet) of the
  parts of column blocks 0 … j; a column accumulator entry that takes in the tile's part at the points of its own column
  block, unchanged at the others, holds after point t the join (meet) of the parts of the row blocks that have visited
  its column block.
-/
import proofs.«170005_j69870527971928_1_alg».proof.Proof.R0Parts
import proofs.«170005_j69870527971928_1_alg».proof.Proof.R0Tiles

noncomputable section

namespace Cert.KernelIdeal.H0

open Cert.KernelIdeal Cert.KernelIdeal.Gen Cert.Tile Cert.Spec
open Idealize.ShloMosaic Idealize.ShloMosaic.ValueIdx

variable (S : Mat) (T : Lab)

/-! ## Row accumulators -/

/-- At the first tile of a row block: the reset value joined with the tile's part. -/
theorem row_first_max (t : Fin cfg0.N) (h0 : t.val % 16 = 0) (r : Fin 8192) :
    max (⊥ : EReal) (rowPartMax S T r (colBlk t)) = accSup (rowPartMax S T r) ⊥ (t.val % 16 + 1) := by
  have e : colBlk t = ⟨0, by decide⟩ := Fin.ext h0
  rw [h0, e, accSup_succ (rowPartMax S T r) ⊥ (by decide : 0 < 16), accSup_zero]

theorem row_first_min (t : Fin cfg0.N) (h0 : t.val % 16 = 0) (r : Fin 8192) :
    min (⊤ : EReal) (rowPartMin S T r (colBlk t)) = accInf (rowPartMin S T r) ⊤ (t.val % 16 + 1) := by
  have e : colBlk t = ⟨0, by decide⟩ := Fin.ext h0
  rw [h0, e, accInf_succ (rowPartMin S T r) ⊤ (by decide : 0 < 16), accInf_zero]

/-- At a later tile: what the tile before left, joined with the tile's part. -/
theorem row_next_max (t : Fin cfg0.N) (h0 : t.val % 16 ≠ 0) (r : Fin 8192) :
    max (accSup (rowPartMax S T r) ⊥ ((t.val - 1) % 16 + 1)) (rowPartMax S T r (colBlk t))
      = accSup (rowPartMax S T r) ⊥ (t.val % 16 + 1) := by
  have e : (t.val - 1) % 16 + 1 = t.val % 16 := by omega
  rw [e, accSup_succ (rowPartMax S T r) ⊥ (by omega : t.val % 16 < 16)]
  rfl

theorem row_next_min (t : Fin cfg0.N) (h0 : t.val % 16 ≠ 0) (r : Fin 8192) :
    min (accInf (rowPartMin S T r) ⊤ ((t.val - 1) % 16 + 1)) (rowPartMin S T r (colBlk t))
      = accInf (rowPartMin S T r) ⊤ (t.val % 16 + 1) := by
  have e : (t.val - 1) % 16 + 1 = t.val % 16 := by omega
  rw [e, accInf_succ (rowPartMin S T r) ⊤ (by omega : t.val % 16 < 16)]
  rfl

/-- Inside a row block the row block of the point before is the point's. -/
theorem rowBlk_pred (t : Fin cfg0.N) (h0 : t.val % 16 ≠ 0) (hlt : t.val - 1 < cfg0.N) :
    rowBlk ⟨t.val - 1, hlt⟩ = rowBlk t := Fin.ext (by show (t.val - 1) / 16 = t.val / 16; omega)

/-- After the last tile of a row block the row accumulator holds the row's hardest negative. -/
theorem row_last_max (r : Fin 8192) : accSup (rowPartMax S T r) ⊥ (15 + 1) = maxAnRow S T r := by
  rw [accSup_full _ _ (le_refl 16), bot_sup_eq, maxAnRow_eq]

theorem row_last_min (r : Fin 8192) : accInf (rowPartMin S T r) ⊤ (15 + 1) = minApRow S T r := by
  rw [accInf_full _ _ (le_refl 16), top_inf_eq, minApRow_eq]

/-! ## Column accumulators -/

/-- One point's update of the column maxima, entry by entry, carries the closed form from t points to t + 1. -/
theorem col_step_max (t : Fin cfg0.N) (prev new : Fin 16 → Fin 512 → EReal)
    (hnew : ∀ j' q, new j' q = if j' = colBlk t then max (prev (colBlk t) q) (colPartMax S T (rowBlk t) (colIx (colBlk t) q))
      else prev j' q)
    (hprev : ∀ j' q, prev j' q = visitSup (fun i' => colPartMax S T i' (colIx j' q)) ⊥ j'.val t.val)
    (j' : Fin 16) (q : Fin 512) :
    new j' q = visitSup (fun i' => colPartMax S T i' (colIx j' q)) ⊥ j'.val (t.val + 1) := by
  have hN : t.val < 128 := lt_of_lt_of_eq t.isLt N_0
  rw [hnew]
  by_cases h : j' = colBlk t
  · rw [if_pos h, hprev, ← h, visitSup_hit _ ⊥ hN (show t.val % 16 = j'.val by rw [h]; rfl)]
    rfl
  · rw [if_neg h, hprev, visitSup_miss _ ⊥ j'.isLt (fun e => h (Fin.ext e.symm))]

theorem col_step_min (t : Fin cfg0.N) (prev new : Fin 16 → Fin 512 → EReal)
    (hnew : ∀ j' q, new j' q = if j' = colBlk t then min (prev (colBlk t) q) (colPartMin S T (rowBlk t) (colIx (colBlk t) q))
      else prev j' q)
    (hprev : ∀ j' q, prev j' q = visitInf (fun i' => colPartMin S T i' (colIx j' q)) ⊤ j'.val t.val)
    (j' : Fin 16) (q : Fin 512) :
    new j' q = visitInf (fun i' => colPartMin S T i' (colIx j' q)) ⊤ j'.val (t.val + 1) := by
  have hN : t.val < 128 := lt_of_lt_of_eq t.isLt N_0
  rw [hnew]
  by_cases h : j' = colBlk t
  · rw [if_pos h, hprev, ← h, visitInf_hit _ ⊤ hN (show t.val % 16 = j'.val by rw [h]; rfl)]
    rfl
  · rw [if_neg h, hprev, visitInf_miss _ ⊤ j'.isLt (fun e => h (Fin.ext e.symm))]

/-- After the last point a column accumulator's entry is the column's hardest negative. -/
theorem col_last_max (j' : Fin 16) (q : Fin 512) :
    visitSup (fun i' => colPartMax S T i' (colIx j' q)) ⊥ j'.val (127 + 1) = maxAnCol S T (colIx j' q) := by
  rw [visitSup_final _ _ j'.isLt, bot_sup_eq, maxAnCol_eq]

theorem col_last_min (j' : Fin 16) (q : Fin 512) :
    visitInf (fun i' => colPartMin S T i' (colIx j' q)) ⊤ j'.val (127 + 1) = minApCol S T (colIx j' q) := by
  rw [visitInf_final _ _ j'.isLt, top_inf_eq, minApCol_eq]

end Cert.KernelIdeal.H0

end
-- ==== Proof.R0Inv.lean ====
/-
  The first pass, point by point: what each of the five situations of a grid point leaves in the four accumulators and
  the result windows, as payloads of the point's tile and label windows; and the accumulators after every grid point in
  closed form over the score matrix and the label vector as the region finds them, by induction on the point.
-/
import proofs.«170005_j69870527971928_1_alg».proof.Proof.R0
import proofs.«170005_j69870527971928_1_alg».proof.Proof.R0Norm
import proofs.«170005_j69870527971928_1_alg».proof.Proof.R0Slice
import proofs.«170005_j69870527971928_1_alg».proof.Proof.R0Acc

set_option maxRecDepth 16384

noncomputable section

namespace Cert.KernelIdeal.H0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## What each situation leaves in the accumulators and the result windows, as payloads of the tiles -/

section StepForms
variable (c : Dev nD) (t : Fin cfg0.N)

theorem stepA_s9 (h : cond1 (grid0.coords t) ∧ cond2 (grid0.coords t) ∧ ¬cond3 (grid0.coords t) ∧ ¬cond4 (grid0.coords t)) : (stepA V c t h).s9 = k0_pay10 (iblk0 V c 0 t) (iblk0 V c 1 t) (iblk0 V c 2 t) k0_pay5 := by
  unfold stepA; dsimp only; exact runA_s9 c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t)
theorem stepA_s10 (h : cond1 (grid0.coords t) ∧ cond2 (grid0.coords t) ∧ ¬cond3 (grid0.coords t) ∧ ¬cond4 (grid0.coords t)) : (stepA V c t h).s10 = k0_pay11 (iblk0 V c 0 t) (iblk0 V c 1 t) (iblk0 V c 2 t) k0_pay6 := by
  unfold stepA; dsimp only; exact runA_s10 c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t)
theorem stepA_s11 (h : cond1 (grid0.coords t) ∧ cond2 (grid0.coords t) ∧ ¬cond3 (grid0.coords t) ∧ ¬cond4 (grid0.coords t)) : (stepA V c t h).s11
    = View.canon [(⟨rsl (grid0.coords t), k0_pay1 (k0_pay12 (iblk0 V c 0 t) (iblk0 V c 1 t) (iblk0 V c 2 t)) (View.ld k0_pay3 (rsl (grid0.coords t)))⟩ : View.Piece (Elt F) S8192 .f32), ⟨r8192, k0_pay3⟩] :=
  runA_s11 c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t)
theorem stepA_s12 (h : cond1 (grid0.coords t) ∧ cond2 (grid0.coords t) ∧ ¬cond3 (grid0.coords t) ∧ ¬cond4 (grid0.coords t)) : (stepA V c t h).s12
    = View.canon [(⟨rsl (grid0.coords t), k0_pay2 (k0_pay9 (iblk0 V c 0 t) (iblk0 V c 1 t) (iblk0 V c 2 t)) (View.ld k0_pay4 (rsl (grid0.coords t)))⟩ : View.Piece (Elt F) S8192 .f32), ⟨r8192, k0_pay4⟩] :=
  runA_s12 c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t)

theorem stepB_s9 (h : ¬cond1 (grid0.coords t) ∧ cond2 (grid0.coords t) ∧ ¬cond3 (grid0.coords t) ∧ ¬cond4 (grid0.coords t)) (prev : St F) : (stepB V c t h prev).s9 = k0_pay10 (iblk0 V c 0 t) (iblk0 V c 1 t) (iblk0 V c 2 t) k0_pay5 := by
  unfold stepB; dsimp only; exact runB_s9 c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12
theorem stepB_s10 (h : ¬cond1 (grid0.coords t) ∧ cond2 (grid0.coords t) ∧ ¬cond3 (grid0.coords t) ∧ ¬cond4 (grid0.coords t)) (prev : St F) : (stepB V c t h prev).s10 = k0_pay11 (iblk0 V c 0 t) (iblk0 V c 1 t) (iblk0 V c 2 t) k0_pay6 := by
  unfold stepB; dsimp only; exact runB_s10 c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12
theorem stepB_s11 (h : ¬cond1 (grid0.coords t) ∧ cond2 (grid0.coords t) ∧ ¬cond3 (grid0.coords t) ∧ ¬cond4 (grid0.coords t)) (prev : St F) : (stepB V c t h prev).s11 = slw11 prev.s11 [(⟨rsl (grid0.coords t), k0_pay1 (k0_pay12 (iblk0 V c 0 t) (iblk0 V c 1 t) (iblk0 V c 2 t)) (View.ld prev.s11 (rsl (grid0.coords t)))⟩ : View.Piece (Elt F) S8192 .f32)] :=
  congrArg (slw11 prev.s11) (runB_L11 c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12)
theorem stepB_s12 (h : ¬cond1 (grid0.coords t) ∧ cond2 (grid0.coords t) ∧ ¬cond3 (grid0.coords t) ∧ ¬cond4 (grid0.coords t)) (prev : St F) : (stepB V c t h prev).s12 = slw12 prev.s12 [(⟨rsl (grid0.coords t), k0_pay2 (k0_pay9 (iblk0 V c 0 t) (iblk0 V c 1 t) (iblk0 V c 2 t)) (View.ld prev.s12 (rsl (grid0.coords t)))⟩ : View.Piece (Elt F) S8192 .f32)] :=
  congrArg (slw12 prev.s12) (runB_L12 c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12)

theorem stepM_s9 (h : ¬cond1 (grid0.coords t) ∧ ¬cond2 (grid0.coords t) ∧ ¬cond3 (grid0.coords t) ∧ ¬cond4 (grid0.coords t)) (prev : St F) : (stepM V c t h prev).s9 = k0_pay10 (iblk0 V c 0 t) (iblk0 V c 1 t) (iblk0 V c 2 t) prev.s9 := by
  unfold stepM; dsimp only; exact runM_s9 c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12
theorem stepM_s10 (h : ¬cond1 (grid0.coords t) ∧ ¬cond2 (grid0.coords t) ∧ ¬cond3 (grid0.coords t) ∧ ¬cond4 (grid0.coords t)) (prev : St F) : (stepM V c t h prev).s10 = k0_pay11 (iblk0 V c 0 t) (iblk0 V c 1 t) (iblk0 V c 2 t) prev.s10 := by
  unfold stepM; dsimp only; exact runM_s10 c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12
theorem stepM_s11 (h : ¬cond1 (grid0.coords t) ∧ ¬cond2 (grid0.coords t) ∧ ¬cond3 (grid0.coords t) ∧ ¬cond4 (grid0.coords t)) (prev : St F) : (stepM V c t h prev).s11 = slw11 prev.s11 [(⟨rsl (grid0.coords t), k0_pay1 (k0_pay12 (iblk0 V c 0 t) (iblk0 V c 1 t) (iblk0 V c 2 t)) (View.ld prev.s11 (rsl (grid0.coords t)))⟩ : View.Piece (Elt F) S8192 .f32)] :=
  congrArg (slw11 prev.s11) (runM_L11 c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12)
theorem stepM_s12 (h : ¬cond1 (grid0.coords t) ∧ ¬cond2 (grid0.coords t) ∧ ¬cond3 (grid0.coords t) ∧ ¬cond4 (grid0.coords t)) (prev : St F) : (stepM V c t h prev).s12 = slw12 prev.s12 [(⟨rsl (grid0.coords t), k0_pay2 (k0_pay9 (iblk0 V c 0 t) (iblk0 V c 1 t) (iblk0 V c 2 t)) (View.ld prev.s12 (rsl (grid0.coords t)))⟩ : View.Piece (Elt F) S8192 .f32)] :=
  congrArg (slw12 prev.s12) (runM_L12 c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12)

theorem stepC_s9 (h : ¬cond1 (grid0.coords t) ∧ ¬cond2 (grid0.coords t) ∧ cond3 (grid0.coords t) ∧ ¬cond4 (grid0.coords t)) (prev : St F) : (stepC V c t h prev).s9 = k0_pay10 (iblk0 V c 0 t) (iblk0 V c 1 t) (iblk0 V c 2 t) prev.s9 := by
  unfold stepC; dsimp only; exact runC_s9 c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12
theorem stepC_s10 (h : ¬cond1 (grid0.coords t) ∧ ¬cond2 (grid0.coords t) ∧ cond3 (grid0.coords t) ∧ ¬cond4 (grid0.coords t)) (prev : St F) : (stepC V c t h prev).s10 = k0_pay11 (iblk0 V c 0 t) (iblk0 V c 1 t) (iblk0 V c 2 t) prev.s10 := by
  unfold stepC; dsimp only; exact runC_s10 c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12
theorem stepC_s11 (h : ¬cond1 (grid0.coords t) ∧ ¬cond2 (grid0.coords t) ∧ cond3 (grid0.coords t) ∧ ¬cond4 (grid0.coords t)) (prev : St F) : (stepC V c t h prev).s11 = slw11 prev.s11 [(⟨rsl (grid0.coords t), k0_pay1 (k0_pay12 (iblk0 V c 0 t) (iblk0 V c 1 t) (iblk0 V c 2 t)) (View.ld prev.s11 (rsl (grid0.coords t)))⟩ : View.Piece (Elt F) S8192 .f32)] :=
  congrArg (slw11 prev.s11) (runC_L11 c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12)
theorem stepC_s12 (h : ¬cond1 (grid0.coords t) ∧ ¬cond2 (grid0.coords t) ∧ cond3 (grid0.coords t) ∧ ¬cond4 (grid0.coords t)) (prev : St F) : (stepC V c t h prev).s12 = slw12 prev.s12 [(⟨rsl (grid0.coords t), k0_pay2 (k0_pay9 (iblk0 V c 0 t) (iblk0 V c 1 t) (iblk0 V c 2 t)) (View.ld prev.s12 (rsl (grid0.coords t)))⟩ : View.Piece (Elt F) S8192 .f32)] :=
  congrArg (slw12 prev.s12) (runC_L12 c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12)

theorem stepE_s9 (h : ¬cond1 (grid0.coords t) ∧ ¬cond2 (grid0.coords t) ∧ cond3 (grid0.coords t) ∧ cond4 (grid0.coords t)) (prev : St F) : (stepE V c t h prev).s9 = k0_pay10 (iblk0 V c 0 t) (iblk0 V c 1 t) (iblk0 V c 2 t) prev.s9 := by
  unfold stepE; dsimp only; exact runE_s9 c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12
theorem stepE_s10 (h : ¬cond1 (grid0.coords t) ∧ ¬cond2 (grid0.coords t) ∧ cond3 (grid0.coords t) ∧ cond4 (grid0.coords t)) (prev : St F) : (stepE V c t h prev).s10 = k0_pay11 (iblk0 V c 0 t) (iblk0 V c 1 t) (iblk0 V c 2 t) prev.s10 := by
  unfold stepE; dsimp only; exact runE_s10 c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12
theorem stepE_s11 (h : ¬cond1 (grid0.coords t) ∧ ¬cond2 (grid0.coords t) ∧ cond3 (grid0.coords t) ∧ cond4 (grid0.coords t)) (prev : St F) : (stepE V c t h prev).s11 = slw11 prev.s11 [(⟨rsl (grid0.coords t), k0_pay1 (k0_pay12 (iblk0 V c 0 t) (iblk0 V c 1 t) (iblk0 V c 2 t)) (View.ld prev.s11 (rsl (grid0.coords t)))⟩ : View.Piece (Elt F) S8192 .f32)] :=
  congrArg (slw11 prev.s11) (runE_L11 c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12)
theorem stepE_s12 (h : ¬cond1 (grid0.coords t) ∧ ¬cond2 (grid0.coords t) ∧ cond3 (grid0.coords t) ∧ cond4 (grid0.coords t)) (prev : St F) : (stepE V c t h prev).s12 = slw12 prev.s12 [(⟨rsl (grid0.coords t), k0_pay2 (k0_pay9 (iblk0 V c 0 t) (iblk0 V c 1 t) (iblk0 V c 2 t)) (View.ld prev.s12 (rsl (grid0.coords t)))⟩ : View.Piece (Elt F) S8192 .f32)] :=
  congrArg (slw12 prev.s12) (runE_L12 c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12)

theorem stepC_o3 (h : ¬cond1 (grid0.coords t) ∧ ¬cond2 (grid0.coords t) ∧ cond3 (grid0.coords t) ∧ ¬cond4 (grid0.coords t)) (prev : St F) : (stepC V c t h prev).o3 = k0_pay10 (iblk0 V c 0 t) (iblk0 V c 1 t) (iblk0 V c 2 t) prev.s9 := by
  unfold stepC; dsimp only; exact runC_o3 c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12
theorem stepC_o4 (h : ¬cond1 (grid0.coords t) ∧ ¬cond2 (grid0.coords t) ∧ cond3 (grid0.coords t) ∧ ¬cond4 (grid0.coords t)) (prev : St F) : (stepC V c t h prev).o4 = k0_pay11 (iblk0 V c 0 t) (iblk0 V c 1 t) (iblk0 V c 2 t) prev.s10 := by
  unfold stepC; dsimp only; exact runC_o4 c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12

theorem stepE_o3 (h : ¬cond1 (grid0.coords t) ∧ ¬cond2 (grid0.coords t) ∧ cond3 (grid0.coords t) ∧ cond4 (grid0.coords t)) (prev : St F) : (stepE V c t h prev).o3 = k0_pay10 (iblk0 V c 0 t) (iblk0 V c 1 t) (iblk0 V c 2 t) prev.s9 := by
  unfold stepE; dsimp only; exact runE_o3 c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12
theorem stepE_o4 (h : ¬cond1 (grid0.coords t) ∧ ¬cond2 (grid0.coords t) ∧ cond3 (grid0.coords t) ∧ cond4 (grid0.coords t)) (prev : St F) : (stepE V c t h prev).o4 = k0_pay11 (iblk0 V c 0 t) (iblk0 V c 1 t) (iblk0 V c 2 t) prev.s10 := by
  unfold stepE; dsimp only; exact runE_o4 c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12

theorem stepE_o5 (h : ¬cond1 (grid0.coords t) ∧ ¬cond2 (grid0.coords t) ∧ cond3 (grid0.coords t) ∧ cond4 (grid0.coords t)) (prev : St F) : (stepE V c t h prev).o5 = slw11 prev.s11 [(⟨rsl (grid0.coords t), k0_pay1 (k0_pay12 (iblk0 V c 0 t) (iblk0 V c 1 t) (iblk0 V c 2 t)) (View.ld prev.s11 (rsl (grid0.coords t)))⟩ : View.Piece (Elt F) S8192 .f32)] := by
  unfold stepE; dsimp only; exact runE_o5 c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12
theorem stepE_o6 (h : ¬cond1 (grid0.coords t) ∧ ¬cond2 (grid0.coords t) ∧ cond3 (grid0.coords t) ∧ cond4 (grid0.coords t)) (prev : St F) : (stepE V c t h prev).o6 = slw12 prev.s12 [(⟨rsl (grid0.coords t), k0_pay2 (k0_pay9 (iblk0 V c 0 t) (iblk0 V c 1 t) (iblk0 V c 2 t)) (View.ld prev.s12 (rsl (grid0.coords t)))⟩ : View.Piece (Elt F) S8192 .f32)] := by
  unfold stepE; dsimp only; exact runE_o6 c (grid0.coords t) (ms0 t) (hs0 t) (ms1 t) (hs1 t) (ms2 t) (hs2 t) (ms3 t) (hs3 t) (ms4 t) (hs4 t) (ms5 t) (hs5 t) (ms6 t) (hs6 t) scRmax (Memref.isWhole_whole _) scRmin (Memref.isWhole_whole _) scCmax (Memref.isWhole_whole _) scCmin (Memref.isWhole_whole _) h.1 h.2.1 h.2.2.1 h.2.2.2 (iblk0 V c 0 t) (iblk0 V c 1 t) (iblk0 V c 2 t) prev.s9 prev.s10 prev.s11 prev.s12

end StepForms

/-! ## The invariant: the accumulators after every point, in closed form -/

section Invariant
open Cert.Tile Cert.Spec Cert.KernelIdeal.Pay0 Idealize.ShloMosaic.ValueIdx

variable (VI : (c : Dev nD) → (b : Ref sig .tc) → Buf (Elt Ideal) ((c : Thread nD τ).loc b)) (c : Dev nD)

/-- The score matrix as the region finds it. -/
abbrev SV : Mat := (VI c main_arg0 : S8192x8192.Idx → Elt Ideal .f32)
/-- The label vector as the region finds it. -/
abbrev TV : Lab := (VI c main_arg1 : S8192.Idx → Elt Ideal .i32)

theorem hx0 (t : Fin cfg0.N) (p : Fin 1024) (q : Fin 512) :
    (iblk0 VI c 0 t : Vec Ideal S1024x512 .f32) (ix2 p q) = SV VI c (ix2 (rowIx (rowBlk t) p) (colIx (colBlk t) q)) :=
  tile0 VI c t p q
theorem hx1 (t : Fin cfg0.N) (p : Fin 1024) :
    (iblk0 VI c 1 t : Vec Ideal S1024 .i32) (ix1 p) = TV VI c (ix1 (rowIx (rowBlk t) p)) := tile1 VI c t p
theorem hx2 (t : Fin cfg0.N) (q : Fin 512) :
    (iblk0 VI c 2 t : Vec Ideal S512 .i32) (ix1 q) = TV VI c (ix1 (colIx (colBlk t) q)) := tile2 VI c t q

/-- The row maxima's update at point t. -/
theorem rowMaxAt (t : Fin cfg0.N) (v : Vec Ideal S1024 .f32) (p : Fin 1024) :
    k0_pay10 (F := Ideal) (iblk0 VI c 0 t) (iblk0 VI c 1 t) (iblk0 VI c 2 t) v (ix1 p) = max (v (ix1 p)) (rowPartMax (SV VI c) (TV VI c) (rowIx (rowBlk t) p) (colBlk t)) :=
  rowStepMax (SV VI c) (TV VI c) (rowBlk t) (colBlk t) (iblk0 VI c 0 t) (iblk0 VI c 1 t) (iblk0 VI c 2 t) (hx0 VI c t) (hx1 VI c t) (hx2 VI c t) v p
theorem rowMinAt (t : Fin cfg0.N) (v : Vec Ideal S1024 .f32) (p : Fin 1024) :
    k0_pay11 (F := Ideal) (iblk0 VI c 0 t) (iblk0 VI c 1 t) (iblk0 VI c 2 t) v (ix1 p) = min (v (ix1 p)) (rowPartMin (SV VI c) (TV VI c) (rowIx (rowBlk t) p) (colBlk t)) :=
  rowStepMin (SV VI c) (TV VI c) (rowBlk t) (colBlk t) (iblk0 VI c 0 t) (iblk0 VI c 1 t) (iblk0 VI c 2 t) (hx0 VI c t) (hx1 VI c t) (hx2 VI c t) v p

/-- The column maxima's update at point t, from contents xs, entry by entry. -/
theorem colMaxAt (t : Fin cfg0.N) (xs : Vec Ideal S8192 .f32) (j' : Fin 16) (q : Fin 512) :
    slw11 xs [(⟨rsl (grid0.coords t), k0_pay1 (k0_pay12 (iblk0 VI c 0 t) (iblk0 VI c 1 t) (iblk0 VI c 2 t)) (View.ld xs (rsl (grid0.coords t)))⟩ : View.Piece (Elt Ideal) S8192 .f32)] (ix1 (colIx j' q))
      = if j' = colBlk t then max (xs (ix1 (colIx (colBlk t) q))) (colPartMax (SV VI c) (TV VI c) (rowBlk t) (colIx (colBlk t) q))
        else xs (ix1 (colIx j' q)) := by
  unfold slw11
  rw [read_slice_store]
  by_cases h : j' = colBlk t
  · rw [if_pos h, if_pos h, colStepMax (SV VI c) (TV VI c) (rowBlk t) (colBlk t) (iblk0 VI c 0 t) (iblk0 VI c 1 t) (iblk0 VI c 2 t) (hx0 VI c t) (hx1 VI c t) (hx2 VI c t) _ q, ld_slice]
  · rw [if_neg h, if_neg h]
theorem colMinAt (t : Fin cfg0.N) (xs : Vec Ideal S8192 .f32) (j' : Fin 16) (q : Fin 512) :
    slw12 xs [(⟨rsl (grid0.coords t), k0_pay2 (k0_pay9 (iblk0 VI c 0 t) (iblk0 VI c 1 t) (iblk0 VI c 2 t)) (View.ld xs (rsl (grid0.coords t)))⟩ : View.Piece (Elt Ideal) S8192 .f32)] (ix1 (colIx j' q))
      = if j' = colBlk t then min (xs (ix1 (colIx (colBlk t) q))) (colPartMin (SV VI c) (TV VI c) (rowBlk t) (colIx (colBlk t) q))
        else xs (ix1 (colIx j' q)) := by
  unfold slw12
  rw [read_slice_store]
  by_cases h : j' = colBlk t
  · rw [if_pos h, if_pos h, colStepMin (SV VI c) (TV VI c) (rowBlk t) (colBlk t) (iblk0 VI c 0 t) (iblk0 VI c 1 t) (iblk0 VI c 2 t) (hx0 VI c t) (hx1 VI c t) (hx2 VI c t) _ q, ld_slice]
  · rw [if_neg h, if_neg h]

/-- The column maxima after the first point: reset, then updated on the point's columns. -/
theorem colMaxFirst (t : Fin cfg0.N) (j' : Fin 16) (q : Fin 512) :
    View.canon [(⟨rsl (grid0.coords t), k0_pay1 (k0_pay12 (iblk0 VI c 0 t) (iblk0 VI c 1 t) (iblk0 VI c 2 t)) (View.ld (k0_pay3 (F := Ideal)) (rsl (grid0.coords t)))⟩ : View.Piece (Elt Ideal) S8192 .f32), ⟨r8192, (k0_pay3 (F := Ideal))⟩] (ix1 (colIx j' q))
      = if j' = colBlk t then max ⊥ (colPartMax (SV VI c) (TV VI c) (rowBlk t) (colIx (colBlk t) q)) else ⊥ := by
  refine (canon_slice_whole (F := Ideal) t _ _ j' q).trans ?_
  by_cases h : j' = colBlk t
  · rw [if_pos h, if_pos h, colStepMax (SV VI c) (TV VI c) (rowBlk t) (colBlk t) (iblk0 VI c 0 t) (iblk0 VI c 1 t) (iblk0 VI c 2 t) (hx0 VI c t) (hx1 VI c t) (hx2 VI c t) _ q]
    simp only [pay3_eq, View.ld]
  · rw [if_neg h, if_neg h]
    simp only [pay3_eq]
theorem colMinFirst (t : Fin cfg0.N) (j' : Fin 16) (q : Fin 512) :
    View.canon [(⟨rsl (grid0.coords t), k0_pay2 (k0_pay9 (iblk0 VI c 0 t) (iblk0 VI c 1 t) (iblk0 VI c 2 t)) (View.ld (k0_pay4 (F := Ideal)) (rsl (grid0.coords t)))⟩ : View.Piece (Elt Ideal) S8192 .f32), ⟨r8192, (k0_pay4 (F := Ideal))⟩] (ix1 (colIx j' q))
      = if j' = colBlk t then min ⊤ (colPartMin (SV VI c) (TV VI c) (rowBlk t) (colIx (colBlk t) q)) else ⊤ := by
  refine (canon_slice_whole (F := Ideal) t _ _ j' q).trans ?_
  by_cases h : j' = colBlk t
  · rw [if_pos h, if_pos h, colStepMin (SV VI c) (TV VI c) (rowBlk t) (colBlk t) (iblk0 VI c 0 t) (iblk0 VI c 1 t) (iblk0 VI c 2 t) (hx0 VI c t) (hx1 VI c t) (hx2 VI c t) _ q]
    simp only [pay4_eq, View.ld]
  · rw [if_neg h, if_neg h]
    simp only [pay4_eq]

/-- THE INVARIANT after point t: the row accumulators hold the parts of column blocks 0 … t % 16 of their row block,
    the column accumulators the parts of the row blocks that have visited each column block. -/
structure Inv (t : Fin cfg0.N) (st : St Ideal) : Prop where
  s9 : ∀ p : Fin 1024, st.s9 (ix1 p) = accSup (rowPartMax (SV VI c) (TV VI c) (rowIx (rowBlk t) p)) ⊥ (t.val % 16 + 1)
  s10 : ∀ p : Fin 1024, st.s10 (ix1 p) = accInf (rowPartMin (SV VI c) (TV VI c) (rowIx (rowBlk t) p)) ⊤ (t.val % 16 + 1)
  s11 : ∀ (j' : Fin 16) (q : Fin 512),
    st.s11 (ix1 (colIx j' q)) = visitSup (fun i' => colPartMax (SV VI c) (TV VI c) i' (colIx j' q)) ⊥ j'.val (t.val + 1)
  s12 : ∀ (j' : Fin 16) (q : Fin 512),
    st.s12 (ix1 (colIx j' q)) = visitInf (fun i' => colPartMin (SV VI c) (TV VI c) i' (colIx j' q)) ⊤ j'.val (t.val + 1)

/-- Rows at the first tile of a row block. -/
theorem rows_reset (t : Fin cfg0.N) (h0 : t.val % 16 = 0) (st : St Ideal)
    (e9 : st.s9 = k0_pay10 (iblk0 VI c 0 t) (iblk0 VI c 1 t) (iblk0 VI c 2 t) (k0_pay5 (F := Ideal))) (e10 : st.s10 = k0_pay11 (iblk0 VI c 0 t) (iblk0 VI c 1 t) (iblk0 VI c 2 t) (k0_pay6 (F := Ideal))) :
    (∀ p : Fin 1024, st.s9 (ix1 p) = accSup (rowPartMax (SV VI c) (TV VI c) (rowIx (rowBlk t) p)) ⊥ (t.val % 16 + 1))
      ∧ ∀ p : Fin 1024, st.s10 (ix1 p) = accInf (rowPartMin (SV VI c) (TV VI c) (rowIx (rowBlk t) p)) ⊤ (t.val % 16 + 1) := by
  refine ⟨fun p => ?_, fun p => ?_⟩
  · rw [e9, rowMaxAt VI c t (k0_pay5 (F := Ideal)) p]
    simp only [pay5_eq]
    exact row_first_max (SV VI c) (TV VI c) t h0 _
  · rw [e10, rowMinAt VI c t (k0_pay6 (F := Ideal)) p]
    simp only [pay6_eq]
    exact row_first_min (SV VI c) (TV VI c) t h0 _

/-- Rows at a later tile. -/
theorem rows_next (t : Fin cfg0.N) (h0 : t.val % 16 ≠ 0) (hlt : t.val - 1 < cfg0.N) (st prev : St Ideal)
    (e9 : st.s9 = k0_pay10 (iblk0 VI c 0 t) (iblk0 VI c 1 t) (iblk0 VI c 2 t) prev.s9) (e10 : st.s10 = k0_pay11 (iblk0 VI c 0 t) (iblk0 VI c 1 t) (iblk0 VI c 2 t) prev.s10)
    (hp : Inv VI c ⟨t.val - 1, hlt⟩ prev) :
    (∀ p : Fin 1024, st.s9 (ix1 p) = accSup (rowPartMax (SV VI c) (TV VI c) (rowIx (rowBlk t) p)) ⊥ (t.val % 16 + 1))
      ∧ ∀ p : Fin 1024, st.s10 (ix1 p) = accInf (rowPartMin (SV VI c) (TV VI c) (rowIx (rowBlk t) p)) ⊤ (t.val % 16 + 1) := by
  refine ⟨fun p => ?_, fun p => ?_⟩
  · rw [e9, rowMaxAt VI c t prev.s9 p, hp.s9 p, rowBlk_pred t h0 hlt]
    exact row_next_max (SV VI c) (TV VI c) t h0 _
  · rw [e10, rowMinAt VI c t prev.s10 p, hp.s10 p, rowBlk_pred t h0 hlt]
    exact row_next_min (SV VI c) (TV VI c) t h0 _

/-- Columns at a point after the first. -/
theorem cols_next (t : Fin cfg0.N) (ht : t.val ≠ 0) (hlt : t.val - 1 < cfg0.N) (st prev : St Ideal)
    (e11 : st.s11 = slw11 prev.s11 [(⟨rsl (grid0.coords t), k0_pay1 (k0_pay12 (iblk0 VI c 0 t) (iblk0 VI c 1 t) (iblk0 VI c 2 t)) (View.ld prev.s11 (rsl (grid0.coords t)))⟩ : View.Piece (Elt Ideal) S8192 .f32)]) (e12 : st.s12 = slw12 prev.s12 [(⟨rsl (grid0.coords t), k0_pay2 (k0_pay9 (iblk0 VI c 0 t) (iblk0 VI c 1 t) (iblk0 VI c 2 t)) (View.ld prev.s12 (rsl (grid0.coords t)))⟩ : View.Piece (Elt Ideal) S8192 .f32)])
    (hp : Inv VI c ⟨t.val - 1, hlt⟩ prev) :
    (∀ (j' : Fin 16) (q : Fin 512), st.s11 (ix1 (colIx j' q)) = visitSup (fun i' => colPartMax (SV VI c) (TV VI c) i' (colIx j' q)) ⊥ j'.val (t.val + 1))
      ∧ ∀ (j' : Fin 16) (q : Fin 512), st.s12 (ix1 (colIx j' q)) = visitInf (fun i' => colPartMin (SV VI c) (TV VI c) i' (colIx j' q)) ⊤ j'.val (t.val + 1) := by
  have e1 : t.val - 1 + 1 = t.val := by omega
  refine ⟨fun j' q => ?_, fun j' q => ?_⟩
  · exact col_step_max (SV VI c) (TV VI c) t (fun j' q => prev.s11 (ix1 (colIx j' q))) (fun j' q => st.s11 (ix1 (colIx j' q)))
      (fun j' q => by rw [e11]; exact colMaxAt VI c t prev.s11 j' q)
      (fun j' q => by rw [hp.s11 j' q]; show visitSup _ ⊥ j'.val (t.val - 1 + 1) = _; rw [e1]) j' q
  · exact col_step_min (SV VI c) (TV VI c) t (fun j' q => prev.s12 (ix1 (colIx j' q))) (fun j' q => st.s12 (ix1 (colIx j' q)))
      (fun j' q => by rw [e12]; exact colMinAt VI c t prev.s12 j' q)
      (fun j' q => by rw [hp.s12 j' q]; show visitInf _ ⊤ j'.val (t.val - 1 + 1) = _; rw [e1]) j' q

/-- Columns at the first point. -/
theorem cols_first (t : Fin cfg0.N) (ht : t.val = 0) (st : St Ideal)
    (e11 : st.s11 = View.canon [(⟨rsl (grid0.coords t), k0_pay1 (k0_pay12 (iblk0 VI c 0 t) (iblk0 VI c 1 t) (iblk0 VI c 2 t)) (View.ld (k0_pay3 (F := Ideal)) (rsl (grid0.coords t)))⟩ : View.Piece (Elt Ideal) S8192 .f32), ⟨r8192, (k0_pay3 (F := Ideal))⟩])
    (e12 : st.s12 = View.canon [(⟨rsl (grid0.coords t), k0_pay2 (k0_pay9 (iblk0 VI c 0 t) (iblk0 VI c 1 t) (iblk0 VI c 2 t)) (View.ld (k0_pay4 (F := Ideal)) (rsl (grid0.coords t)))⟩ : View.Piece (Elt Ideal) S8192 .f32), ⟨r8192, (k0_pay4 (F := Ideal))⟩]) :
    (∀ (j' : Fin 16) (q : Fin 512), st.s11 (ix1 (colIx j' q)) = visitSup (fun i' => colPartMax (SV VI c) (TV VI c) i' (colIx j' q)) ⊥ j'.val (t.val + 1))
      ∧ ∀ (j' : Fin 16) (q : Fin 512), st.s12 (ix1 (colIx j' q)) = visitInf (fun i' => colPartMin (SV VI c) (TV VI c) i' (colIx j' q)) ⊤ j'.val (t.val + 1) := by
  refine ⟨fun j' q => ?_, fun j' q => ?_⟩
  · exact col_step_max (SV VI c) (TV VI c) t (fun _ _ => ⊥) (fun j' q => st.s11 (ix1 (colIx j' q)))
      (fun j' q => by rw [e11]; exact colMaxFirst VI c t j' q)
      (fun j' q => by rw [ht, visitSup_zero]) j' q
  · exact col_step_min (SV VI c) (TV VI c) t (fun _ _ => ⊤) (fun j' q => st.s12 (ix1 (colIx j' q)))
      (fun j' q => by rw [e12]; exact colMinFirst VI c t j' q)
      (fun j' q => by rw [ht, visitInf_zero]) j' q

/-- THE INVARIANT HOLDS AFTER EVERY POINT. -/
theorem inv_all : ∀ (n : ℕ) (hn : n < cfg0.N), Inv VI c ⟨n, hn⟩ (outsAt0 VI c n hn) := by
  intro n
  induction n with
  | zero =>
    intro hn
    have hA := outsAt0_A VI c ⟨0, hn⟩ rfl
    have r := rows_reset VI c ⟨0, hn⟩ rfl (outsAt0 VI c 0 hn) (by rw [hA]; exact stepA_s9 VI c _ _) (by rw [hA]; exact stepA_s10 VI c _ _)
    have k := cols_first VI c ⟨0, hn⟩ rfl (outsAt0 VI c 0 hn) (by rw [hA]; exact stepA_s11 VI c _ _) (by rw [hA]; exact stepA_s12 VI c _ _)
    exact ⟨r.1, r.2, k.1, k.2⟩
  | succ n ih =>
    intro hn
    have hlt : n < cfg0.N := Nat.lt_of_succ_lt hn
    have hp : Inv VI c ⟨(n + 1) - 1, hlt⟩ (outsAt0 VI c ((n + 1) - 1) hlt) := ih hlt
    by_cases h0 : (n + 1) % 16 = 0
    · have hB := outsAt0_B VI c ⟨n + 1, hn⟩ h0 (Nat.succ_ne_zero n)
      have r := rows_reset VI c ⟨n + 1, hn⟩ h0 (outsAt0 VI c (n + 1) hn) (by rw [hB]; exact stepB_s9 VI c _ _ _) (by rw [hB]; exact stepB_s10 VI c _ _ _)
      have k := cols_next VI c ⟨n + 1, hn⟩ (Nat.succ_ne_zero n) hlt (outsAt0 VI c (n + 1) hn) (outsAt0 VI c ((n + 1) - 1) hlt)
        (by rw [hB]; exact stepB_s11 VI c _ _ _) (by rw [hB]; exact stepB_s12 VI c _ _ _) hp
      exact ⟨r.1, r.2, k.1, k.2⟩
    · by_cases h15 : (n + 1) % 16 = 15
      · by_cases hl : n + 1 = 127
        · have hE := outsAt0_E VI c ⟨n + 1, hn⟩ hl
          have r := rows_next VI c ⟨n + 1, hn⟩ h0 hlt (outsAt0 VI c (n + 1) hn) (outsAt0 VI c ((n + 1) - 1) hlt)
            (by rw [hE]; exact stepE_s9 VI c _ _ _) (by rw [hE]; exact stepE_s10 VI c _ _ _) hp
          have k := cols_next VI c ⟨n + 1, hn⟩ (Nat.succ_ne_zero n) hlt (outsAt0 VI c (n + 1) hn) (outsAt0 VI c ((n + 1) - 1) hlt)
            (by rw [hE]; exact stepE_s11 VI c _ _ _) (by rw [hE]; exact stepE_s12 VI c _ _ _) hp
          exact ⟨r.1, r.2, k.1, k.2⟩
        · have hC := outsAt0_C VI c ⟨n + 1, hn⟩ h15 hl
          have r := rows_next VI c ⟨n + 1, hn⟩ h0 hlt (outsAt0 VI c (n + 1) hn) (outsAt0 VI c ((n + 1) - 1) hlt)
            (by rw [hC]; exact stepC_s9 VI c _ _ _) (by rw [hC]; exact stepC_s10 VI c _ _ _) hp
          have k := cols_next VI c ⟨n + 1, hn⟩ (Nat.succ_ne_zero n) hlt (outsAt0 VI c (n + 1) hn) (outsAt0 VI c ((n + 1) - 1) hlt)
            (by rw [hC]; exact stepC_s11 VI c _ _ _) (by rw [hC]; exact stepC_s12 VI c _ _ _) hp
          exact ⟨r.1, r.2, k.1, k.2⟩
      · have hM := outsAt0_M VI c ⟨n + 1, hn⟩ h0 h15
        have r := rows_next VI c ⟨n + 1, hn⟩ h0 hlt (outsAt0 VI c (n + 1) hn) (outsAt0 VI c ((n + 1) - 1) hlt)
          (by rw [hM]; exact stepM_s9 VI c _ _ _) (by rw [hM]; exact stepM_s10 VI c _ _ _) hp
        have k := cols_next VI c ⟨n + 1, hn⟩ (Nat.succ_ne_zero n) hlt (outsAt0 VI c (n + 1) hn) (outsAt0 VI c ((n + 1) - 1) hlt)
          (by rw [hM]; exact stepM_s11 VI c _ _ _) (by rw [hM]; exact stepM_s12 VI c _ _ _) hp
        exact ⟨r.1, r.2, k.1, k.2⟩

end Invariant

end Cert.KernelIdeal.H0

end
-- ==== Proof.R0Arr.lean ====
/-
  The four arrays the first pass leaves, in closed form: at the last tile of a row block the row result windows are
  written back holding the rows' hardest negatives and weakest positives; at the last point the column result windows,
  one block each, are written back holding the columns'.  Every index of each array is covered by a written-back block.
-/
import proofs.«170005_j69870527971928_1_alg».proof.Proof.R0Inv

set_option maxRecDepth 16384

noncomputable section

namespace Cert.KernelIdeal.H0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The four result arrays after the region -/

section Arrays
open Cert.Tile Cert.Spec Cert.KernelIdeal.Pay0 Idealize.ShloMosaic.ValueIdx

variable (VI : (c : Dev nD) → (b : Ref sig .tc) → Buf (Elt Ideal) ((c : Thread nD τ).loc b)) (c : Dev nD)

theorem idx0_3 : ∀ t : Fin cfg0.N, win0_3.index t (0 : Fin 1) = t.val / 16 :=
  (by decide +kernel : ∀ t : Fin grid0.N, win0_3.index t (0 : Fin 1) = t.val / 16)
theorem idx0_4 : ∀ t : Fin cfg0.N, win0_4.index t (0 : Fin 1) = t.val / 16 :=
  (by decide +kernel : ∀ t : Fin grid0.N, win0_4.index t (0 : Fin 1) = t.val / 16)
theorem idx0_5 : ∀ t : Fin cfg0.N, win0_5.index t (0 : Fin 1) = 0 :=
  (by decide +kernel : ∀ t : Fin grid0.N, win0_5.index t (0 : Fin 1) = 0)
theorem idx0_6 : ∀ t : Fin cfg0.N, win0_6.index t (0 : Fin 1) = 0 :=
  (by decide +kernel : ∀ t : Fin grid0.N, win0_6.index t (0 : Fin 1) = 0)

/-- At the last tile of a row block the row results are the row accumulators. -/
theorem o3_eq_s9 (t : Fin cfg0.N) (h15 : t.val % 16 = 15) :
    (outsAt0 VI c t.val t.isLt).o3 = (outsAt0 VI c t.val t.isLt).s9 := by
  by_cases hl : t.val = 127
  · rw [outsAt0_E VI c t hl]; exact (stepE_o3 VI c t _ _).trans (stepE_s9 VI c t _ _).symm
  · rw [outsAt0_C VI c t h15 hl]; exact (stepC_o3 VI c t _ _).trans (stepC_s9 VI c t _ _).symm
theorem o4_eq_s10 (t : Fin cfg0.N) (h15 : t.val % 16 = 15) :
    (outsAt0 VI c t.val t.isLt).o4 = (outsAt0 VI c t.val t.isLt).s10 := by
  by_cases hl : t.val = 127
  · rw [outsAt0_E VI c t hl]; exact (stepE_o4 VI c t _ _).trans (stepE_s10 VI c t _ _).symm
  · rw [outsAt0_C VI c t h15 hl]; exact (stepC_o4 VI c t _ _).trans (stepC_s10 VI c t _ _).symm
/-- At the last point the column results are the column accumulators. -/
theorem o5_eq_s11 (t : Fin cfg0.N) (hl : t.val = 127) :
    (outsAt0 VI c t.val t.isLt).o5 = (outsAt0 VI c t.val t.isLt).s11 := by
  rw [outsAt0_E VI c t hl]; exact (stepE_o5 VI c t _ _).trans (stepE_s11 VI c t _ _).symm
theorem o6_eq_s12 (t : Fin cfg0.N) (hl : t.val = 127) :
    (outsAt0 VI c t.val t.isLt).o6 = (outsAt0 VI c t.val t.isLt).s12 := by
  rw [outsAt0_E VI c t hl]; exact (stepE_o6 VI c t _ _).trans (stepE_s12 VI c t _ _).symm

/-- The row accumulators after the last tile of a row block: the rows' extrema. -/
theorem s9_last (t : Fin cfg0.N) (h15 : t.val % 16 = 15) :
    (outsAt0 VI c t.val t.isLt).s9 = fun i : S1024.Idx => maxAnRow (SV VI c) (TV VI c) (rowIx (rowBlk t) (i 0)) :=
  funext fun i => by
    obtain ⟨p, rfl⟩ : ∃ p : Fin 1024, i = ix1 p := ⟨i 0, eq_ix1 i⟩
    exact ((inv_all VI c t.val t.isLt).s9 p).trans (by rw [h15]; exact row_last_max _ _ _)
theorem s10_last (t : Fin cfg0.N) (h15 : t.val % 16 = 15) :
    (outsAt0 VI c t.val t.isLt).s10 = fun i : S1024.Idx => minApRow (SV VI c) (TV VI c) (rowIx (rowBlk t) (i 0)) :=
  funext fun i => by
    obtain ⟨p, rfl⟩ : ∃ p : Fin 1024, i = ix1 p := ⟨i 0, eq_ix1 i⟩
    exact ((inv_all VI c t.val t.isLt).s10 p).trans (by rw [h15]; exact row_last_min _ _ _)
/-- The column accumulators after the last point: the columns' extrema. -/
theorem s11_last (t : Fin cfg0.N) (hl : t.val = 127) :
    (outsAt0 VI c t.val t.isLt).s11 = fun i : S8192.Idx => maxAnCol (SV VI c) (TV VI c) (i 0) :=
  funext fun i => by
    have e : i = ix1 (colIx (colEquiv.symm (i 0)).1 (colEquiv.symm (i 0)).2) := by
      rw [show colIx (colEquiv.symm (i 0)).1 (colEquiv.symm (i 0)).2 = i 0 from colEquiv.apply_symm_apply (i 0)]
      exact eq_ix1 i
    rw [e, (inv_all VI c t.val t.isLt).s11 _ _, hl, col_last_max]
theorem s12_last (t : Fin cfg0.N) (hl : t.val = 127) :
    (outsAt0 VI c t.val t.isLt).s12 = fun i : S8192.Idx => minApCol (SV VI c) (TV VI c) (i 0) :=
  funext fun i => by
    have e : i = ix1 (colIx (colEquiv.symm (i 0)).1 (colEquiv.symm (i 0)).2) := by
      rw [show colIx (colEquiv.symm (i 0)).1 (colEquiv.symm (i 0)).2 = i 0 from colEquiv.apply_symm_apply (i 0)]
      exact eq_ix1 i
    rw [e, (inv_all VI c t.val t.isLt).s12 _ _, hl, col_last_min]

/-- The four arrays the first pass leaves. -/
def G3 : S8192.Idx → EReal := fun i => maxAnRow (SV VI c) (TV VI c) (i 0)
def G4 : S8192.Idx → EReal := fun i => minApRow (SV VI c) (TV VI c) (i 0)
def G5 : S8192.Idx → EReal := fun i => maxAnCol (SV VI c) (TV VI c) (i 0)
def G6 : S8192.Idx → EReal := fun i => minApCol (SV VI c) (TV VI c) (i 0)

end Arrays

section Finals
open Cert.Tile Cert.Spec Cert.KernelIdeal.Pay0 Idealize.ShloMosaic.ValueIdx

variable (VI : (c : Dev nD) → (b : Ref sig .tc) → Buf (Elt Ideal) ((c : Thread nD τ).loc b)) (c : Dev nD)

/-- What a row-flushing point writes back to the first result array is that array's block. -/
theorem flushed0_3 (t : Fin cfg0.N) (hf : (cfg0.win 3).flush t = true) :
    (dat0 VI c).flushed 3 t = ((cfg0.win 3).blk t).view.read (Elt Ideal) (G3 VI c) := by
  have h15 : t.val % 16 = 15 := (flush0_3 t).1 hf
  show (cfg0.win 3).cut (grid0.coords t) ((dat0 VI c).after 3 t) = _
  rw [after0_3, o3_eq_s9 VI c t h15, s9_last VI c t h15]
  funext j
  rw [View.read_apply]
  show maxAnRow _ _ (rowIx (rowBlk t) (j 0)) = maxAnRow _ _ ((((cfg0.win 3).blk t).view.emb j) 0)
  refine congrArg (maxAnRow _ _) (Fin.ext ?_)
  show 1024 * (t.val / 16) + (j 0).val = win0_3.index t 0 * 1024 + 1 * (j 0).val
  rw [idx0_3 t]; omega

theorem flushed0_4 (t : Fin cfg0.N) (hf : (cfg0.win 4).flush t = true) :
    (dat0 VI c).flushed 4 t = ((cfg0.win 4).blk t).view.read (Elt Ideal) (G4 VI c) := by
  have h15 : t.val % 16 = 15 := (flush0_4 t).1 hf
  show (cfg0.win 4).cut (grid0.coords t) ((dat0 VI c).after 4 t) = _
  rw [after0_4, o4_eq_s10 VI c t h15, s10_last VI c t h15]
  funext j
  rw [View.read_apply]
  show minApRow _ _ (rowIx (rowBlk t) (j 0)) = minApRow _ _ ((((cfg0.win 4).blk t).view.emb j) 0)
  refine congrArg (minApRow _ _) (Fin.ext ?_)
  show 1024 * (t.val / 16) + (j 0).val = win0_4.index t 0 * 1024 + 1 * (j 0).val
  rw [idx0_4 t]; omega

theorem flushed0_5 (t : Fin cfg0.N) (hf : (cfg0.win 5).flush t = true) :
    (dat0 VI c).flushed 5 t = ((cfg0.win 5).blk t).view.read (Elt Ideal) (G5 VI c) := by
  have hl : t.val = 127 := by have := (flush0_5 t).1 hf; have := lt_of_lt_of_eq t.isLt N_0; omega
  show (cfg0.win 5).cut (grid0.coords t) ((dat0 VI c).after 5 t) = _
  rw [after0_5, o5_eq_s11 VI c t hl, s11_last VI c t hl]
  funext j
  rw [View.read_apply]
  show maxAnCol _ _ (j 0) = maxAnCol _ _ ((((cfg0.win 5).blk t).view.emb j) 0)
  refine congrArg (maxAnCol _ _) (Fin.ext ?_)
  show (j 0).val = win0_5.index t 0 * 8192 + 1 * (j 0).val
  rw [idx0_5 t]; omega

theorem flushed0_6 (t : Fin cfg0.N) (hf : (cfg0.win 6).flush t = true) :
    (dat0 VI c).flushed 6 t = ((cfg0.win 6).blk t).view.read (Elt Ideal) (G6 VI c) := by
  have hl : t.val = 127 := by have := (flush0_6 t).1 hf; have := lt_of_lt_of_eq t.isLt N_0; omega
  show (cfg0.win 6).cut (grid0.coords t) ((dat0 VI c).after 6 t) = _
  rw [after0_6, o6_eq_s12 VI c t hl, s12_last VI c t hl]
  funext j
  rw [View.read_apply]
  show minApCol _ _ (j 0) = minApCol _ _ ((((cfg0.win 6).blk t).view.emb j) 0)
  refine congrArg (minApCol _ _) (Fin.ext ?_)
  show (j 0).val = win0_6.index t 0 * 8192 + 1 * (j 0).val
  rw [idx0_6 t]; omega

/-- An index is in a row result window's block at t exactly when its row lies in the block's 1024 rows. -/
theorem mem_blk0_3 (t : Fin cfg0.N) (i : S8192.Idx) :
    i ∈ ((cfg0.win 3).blk t).view.set ↔ ∀ a : Fin 1, win0_3.index t a * S1024.size a ≤ (i a).val ∧ (i a).val < win0_3.index t a * S1024.size a + S1024.size a := by
  show i ∈ ((View.whole main_v0_0).slice (win0_3.rect t)).set ↔ _
  rw [View.set_slice_whole, Rect.mem_set_unit]
  exact Iff.rfl
theorem mem_blk0_4 (t : Fin cfg0.N) (i : S8192.Idx) :
    i ∈ ((cfg0.win 4).blk t).view.set ↔ ∀ a : Fin 1, win0_4.index t a * S1024.size a ≤ (i a).val ∧ (i a).val < win0_4.index t a * S1024.size a + S1024.size a := by
  show i ∈ ((View.whole main_v0_1).slice (win0_4.rect t)).set ↔ _
  rw [View.set_slice_whole, Rect.mem_set_unit]
  exact Iff.rfl
theorem mem_blk0_5 (t : Fin cfg0.N) (i : S8192.Idx) :
    i ∈ ((cfg0.win 5).blk t).view.set ↔ ∀ a : Fin 1, win0_5.index t a * S8192.size a ≤ (i a).val ∧ (i a).val < win0_5.index t a * S8192.size a + S8192.size a := by
  show i ∈ ((View.whole main_v0_2).slice (win0_5.rect t)).set ↔ _
  rw [View.set_slice_whole, Rect.mem_set_unit]
  exact Iff.rfl
theorem mem_blk0_6 (t : Fin cfg0.N) (i : S8192.Idx) :
    i ∈ ((cfg0.win 6).blk t).view.set ↔ ∀ a : Fin 1, win0_6.index t a * S8192.size a ≤ (i a).val ∧ (i a).val < win0_6.index t a * S8192.size a + S8192.size a := by
  show i ∈ ((View.whole main_v0_3).slice (win0_6.rect t)).set ↔ _
  rw [View.set_slice_whole, Rect.mem_set_unit]
  exact Iff.rfl

/-- Row r is written back at the last tile of its row block. -/
theorem cover0_3 (i : S8192.Idx) : ∃ t : Fin cfg0.N, (cfg0.win 3).flush t = true ∧ i ∈ ((cfg0.win 3).blk t).view.set := by
  have hi : (i 0).val < 8192 := (i 0).isLt
  refine ⟨⟨16 * ((i 0).val / 1024) + 15, by rw [show cfg0.N = 128 from N_0]; omega⟩, (flush0_3 _).2 (by show (16 * ((i 0).val / 1024) + 15) % 16 = 15; omega), ?_⟩
  rw [mem_blk0_3]
  intro a
  obtain rfl : a = 0 := Subsingleton.elim _ _
  rw [idx0_3]
  show (16 * ((i 0).val / 1024) + 15) / 16 * 1024 ≤ (i 0).val ∧ (i 0).val < (16 * ((i 0).val / 1024) + 15) / 16 * 1024 + 1024
  omega
theorem cover0_4 (i : S8192.Idx) : ∃ t : Fin cfg0.N, (cfg0.win 4).flush t = true ∧ i ∈ ((cfg0.win 4).blk t).view.set := by
  have hi : (i 0).val < 8192 := (i 0).isLt
  refine ⟨⟨16 * ((i 0).val / 1024) + 15, by rw [show cfg0.N = 128 from N_0]; omega⟩, (flush0_4 _).2 (by show (16 * ((i 0).val / 1024) + 15) % 16 = 15; omega), ?_⟩
  rw [mem_blk0_4]
  intro a
  obtain rfl : a = 0 := Subsingleton.elim _ _
  rw [idx0_4]
  show (16 * ((i 0).val / 1024) + 15) / 16 * 1024 ≤ (i 0).val ∧ (i 0).val < (16 * ((i 0).val / 1024) + 15) / 16 * 1024 + 1024
  omega
/-- The column results' one block, written back at the last point, is the whole array. -/
theorem cover0_5 (i : S8192.Idx) : ∃ t : Fin cfg0.N, (cfg0.win 5).flush t = true ∧ i ∈ ((cfg0.win 5).blk t).view.set := by
  have hi : (i 0).val < 8192 := (i 0).isLt
  refine ⟨⟨127, by rw [show cfg0.N = 128 from N_0]; omega⟩, (flush0_5 _).2 (by show (127 : ℕ) % 128 = 127; decide), ?_⟩
  rw [mem_blk0_5]
  intro a
  obtain rfl : a = 0 := Subsingleton.elim _ _
  rw [idx0_5]
  show 0 * 8192 ≤ (i 0).val ∧ (i 0).val < 0 * 8192 + 8192
  omega
theorem cover0_6 (i : S8192.Idx) : ∃ t : Fin cfg0.N, (cfg0.win 6).flush t = true ∧ i ∈ ((cfg0.win 6).blk t).view.set := by
  have hi : (i 0).val < 8192 := (i 0).isLt
  refine ⟨⟨127, by rw [show cfg0.N = 128 from N_0]; omega⟩, (flush0_6 _).2 (by show (127 : ℕ) % 128 = 127; decide), ?_⟩
  rw [mem_blk0_6]
  intro a
  obtain rfl : a = 0 := Subsingleton.elim _ _
  rw [idx0_6]
  show 0 * 8192 ≤ (i 0).val ∧ (i 0).val < 0 * 8192 + 8192
  omega

/-- THE FOUR ARRAYS AFTER THE FIRST PASS: the rows' hardest negatives and weakest positives, and the columns'. -/
theorem final0_3 : (dat0 VI c).arrAt 3 cfg0.N = G3 VI c :=
  (dat0 VI c).arrAt_eq_of_cover 3 (G3 VI c) (fun t hf => flushed0_3 VI c t hf) cover0_3
theorem final0_4 : (dat0 VI c).arrAt 4 cfg0.N = G4 VI c :=
  (dat0 VI c).arrAt_eq_of_cover 4 (G4 VI c) (fun t hf => flushed0_4 VI c t hf) cover0_4
theorem final0_5 : (dat0 VI c).arrAt 5 cfg0.N = G5 VI c :=
  (dat0 VI c).arrAt_eq_of_cover 5 (G5 VI c) (fun t hf => flushed0_5 VI c t hf) cover0_5
theorem final0_6 : (dat0 VI c).arrAt 6 cfg0.N = G6 VI c :=
  (dat0 VI c).arrAt_eq_of_cover 6 (G6 VI c) (fun t hf => flushed0_6 VI c t hf) cover0_6

end Finals

end Cert.KernelIdeal.H0

end
-- ==== Proof.Pay1a.lean ====
/-
  The second pass's payloads read at an index, at the extended reals, first part: the label-equality words, the four
  pair filters of a tile's entry, the two exponential terms, the tile's partial sums along a row and along a column, and
  the any-flags of a row and of a column as the value 0 or 1.
-/
import proofs.«170005_j69870527971928_1_alg».proof.Proof.Pay0
import proofs.«170005_j69870527971928_1_alg».proof.Proof.Tile
import Idealize.ShloMosaic.Lib.IdealHost

noncomputable section

open scoped BigOperators

namespace Cert.KernelIdeal.Pay1

open Cert.KernelIdeal Cert.KernelIdeal.Gen Cert.KernelIdeal.Pay0 Idealize.ShloMosaic Idealize.ShloMosaic.ValueIdx

/-! ## Words as flags, and sums over one axis of a tile -/

/-- A one-bit word widened and converted is the flag of "the word is 1". -/
theorem flag_word (c : BitVec 1) : FloatOps.sitofp (F := Ideal) .f32 (c.setWidth 32) = Cert.Tile.ind (c = 1#1) := by
  rcases BitVec.eq_zero_or_eq_one c with h | h
  · subst h
    rw [Cert.Tile.ind_false (by decide)]
    show ((((0#1 : BitVec 1).setWidth 32).toInt : ℝ) : EReal) = 0
    rw [show ((0#1 : BitVec 1).setWidth 32).toInt = 0 by decide]
    simp
  · subst h
    rw [Cert.Tile.ind_true rfl]
    show ((((1#1 : BitVec 1).setWidth 32).toInt : ℝ) : EReal) = 1
    rw [show ((1#1 : BitVec 1).setWidth 32).toInt = 1 by decide]
    simp

/-- A select between the literals 1 and 0 is the flag of "the word is 1". -/
theorem select_one_zero (c : BitVec 1) :
    Scalar.select c (Ideal.ofBits .f32 0x3F800000#32) (Ideal.ofBits .f32 0x00000000#32) = Cert.Tile.ind (c = 1#1) := by
  rw [Ideal.ofBits_one_f32, Ideal.ofBits_zero_f32]
  by_cases h : c = 1#1
  · rw [Cert.Tile.ind_true h, h]; exact select_one _ _
  · rw [Cert.Tile.ind_false h, eq_zero_of_ne_one h]; exact select_zero _ _

/-- The flag of "a flag is positive" is the flag. -/
theorem ind_pos_ind (P : Prop) : Cert.Tile.ind ((0 : EReal) < Cert.Tile.ind P) = Cert.Tile.ind P := by
  by_cases h : P
  · rw [Cert.Tile.ind_true h, Cert.Tile.ind_true zero_lt_one]
  · rw [Cert.Tile.ind_false h, Cert.Tile.ind_false (lt_irrefl _)]

/-- The comparison word of "a value is positive", widened and converted, is the flag of that. -/
theorem flag_pos (x : EReal) :
    FloatOps.sitofp (F := Ideal) .f32 ((FloatOps.cmpf (F := Ideal) (φ := .f32) .ogt x (Ideal.ofBits .f32 0x00000000#32)).setWidth 32)
      = Cert.Tile.ind (0 < x) := by
  rw [flag_word, Ideal.cmpf_def, Ideal.ofBits_zero_f32]
  exact congrArg Cert.Tile.ind (propext (Cert.Words.cmp_ogt_iff x 0))

/-- A sum over the columns of a tile is the sum over the columns. -/
theorem add_axis1 (y : FVec Ideal S1024x512 .f32) (h : S1024x512.Reduces [1] S1024) (hφ : FKind.Formats .f32)
    (hacc : (0x00000000#32 : BitVec 32) = FKind.add.neutral .f32 hφ) (p : Fin 1024) :
    multiReduction .add [1] S1024 y 0x00000000#32 h hφ hacc (ix1 p) = ∑ q : Fin 512, y (ix2 p q) := by
  refine (Ideal.multiReduction_add_single y 0x00000000#32 h hφ hacc (ix1 p)).trans ?_
  show ∑ q : Fin 512, y (h.lift (ix1 p) q) = _
  simp only [lift_axis1]

/-- A sum over the rows of a tile is the sum over the rows. -/
theorem add_axis0 (y : FVec Ideal S1024x512 .f32) (h : S1024x512.Reduces [0] S512) (hφ : FKind.Formats .f32)
    (hacc : (0x00000000#32 : BitVec 32) = FKind.add.neutral .f32 hφ) (q : Fin 512) :
    multiReduction .add [0] S512 y 0x00000000#32 h hφ hacc (ix1 q) = ∑ p : Fin 1024, y (ix2 p q) := by
  refine (Ideal.multiReduction_add_single y 0x00000000#32 h hφ hacc (ix1 q)).trans ?_
  show ∑ p : Fin 1024, y (h.lift (ix1 q) p) = _
  simp only [lift_axis0]

/-- A column broadcast over the tile reads the column at the row. -/
theorem colBroadcast_apply {α : Type} (y : S1024x1.Idx → α) (h : S1024x1.Broadcasts S1024x512) (p : Fin 1024) (q : Fin 512) :
    broadcastTo S1024x512 y h (ix2 p q) = y (ix2 p (0 : Fin 1)) :=
  broadcastTo_apply y h (ix2 p q) (ix2 p (0 : Fin 1)) (fun a => match a with
    | ⟨0, _⟩ => by show p.val = if (1024 : Nat) = 1 then 0 else p.val; rw [if_neg (by decide)]
    | ⟨1, _⟩ => by show 0 = if (1 : Nat) = 1 then 0 else q.val; rw [if_pos rfl])

/-- A row broadcast over the tile reads the row at the column. -/
theorem rowBroadcast_apply {α : Type} (y : S1x512.Idx → α) (h : S1x512.Broadcasts S1024x512) (p : Fin 1024) (q : Fin 512) :
    broadcastTo S1024x512 y h (ix2 p q) = y (ix2 (0 : Fin 1) q) :=
  broadcastTo_apply y h (ix2 p q) (ix2 (0 : Fin 1) q) (fun a => match a with
    | ⟨0, _⟩ => by show 0 = if (1 : Nat) = 1 then 0 else p.val; rw [if_pos rfl]
    | ⟨1, _⟩ => by show q.val = if (512 : Nat) = 1 then 0 else q.val; rw [if_neg (by decide)])

/-- The any-flag along a row of a tile of words: the maximum over the columns of the words' flags. -/
theorem anyflag_axis1 (w : IVec S1024x512 1) (h : S1024x512.Reduces [1] S1024) (hφ : FKind.Formats .f32)
    (hacc : (0xFF800000#32 : BitVec 32) = FKind.maximumf.neutral .f32 hφ) (p : Fin 1024) :
    multiReduction (F := Ideal) (φ := .f32) .maximumf [1] S1024
        (select w (broadcast S1024x512 (Ideal.ofBits .f32 0x3F800000#32)) (broadcast S1024x512 (Ideal.ofBits .f32 0x00000000#32)))
        0xFF800000#32 h hφ hacc (ix1 p)
      = Cert.Tile.ind (∃ q : Fin 512, w (ix2 p q) = 1#1) := by
  refine (max_axis1 _ h hφ hacc p).trans ?_
  rw [← Cert.Tile.sup_ind]
  exact congrArg (Finset.univ.sup) (funext fun q => select_one_zero (w (ix2 p q)))

/-- The any-flag along a column of a tile of words. -/
theorem anyflag_axis0 (w : IVec S1024x512 1) (h : S1024x512.Reduces [0] S512) (hφ : FKind.Formats .f32)
    (hacc : (0xFF800000#32 : BitVec 32) = FKind.maximumf.neutral .f32 hφ) (q : Fin 512) :
    multiReduction (F := Ideal) (φ := .f32) .maximumf [0] S512
        (select w (broadcast S1024x512 (Ideal.ofBits .f32 0x3F800000#32)) (broadcast S1024x512 (Ideal.ofBits .f32 0x00000000#32)))
        0xFF800000#32 h hφ hacc (ix1 q)
      = Cert.Tile.ind (∃ p : Fin 1024, w (ix2 p q) = 1#1) := by
  refine (max_axis0 _ h hφ hacc q).trans ?_
  rw [← Cert.Tile.sup_ind]
  exact congrArg (Finset.univ.sup) (funext fun p => select_one_zero (w (ix2 p q)))

/-! ## The payloads -/

section Payloads

variable (x0 : Vec Ideal S1024x512 .f32) (x1 : Vec Ideal S1024 .i32) (x2 : Vec Ideal S512 .i32)

/-- The label-equality word of the tile's entry (p, q). -/
theorem pay19_apply (p : Fin 1024) (q : Fin 512) :
    k1_pay19 (F := Ideal) x1 x2 (ix2 p q) = IntOp.cmpi .eq (x1 (ix1 p)) (x2 (ix1 q)) := by
  unfold k1_pay19
  show IntOp.cmpi .eq (broadcastTo S1024x512 (shapeCast S1024x1 x1 _) _ (ix2 p q))
      (broadcastTo S1024x512 (shapeCast S1x512 x2 _) _ (ix2 p q)) = _
  rw [colBroadcast_apply, rowBroadcast_apply, shapeCast_a_a1_apply, shapeCast_a_1a_apply]

theorem pay19_iff (p : Fin 1024) (q : Fin 512) :
    k1_pay19 (F := Ideal) x1 x2 (ix2 p q) = 1#1 ↔ x1 (ix1 p) = x2 (ix1 q) := by
  rw [pay19_apply, IntOp.cmpi_eq]

theorem pay20_iff (p : Fin 1024) (q : Fin 512) :
    k1_pay20 (F := Ideal) x1 x2 (ix2 p q) = 1#1 ↔ ¬ x1 (ix1 p) = x2 (ix1 q) := by
  unfold k1_pay20
  show IntOp.xori (k1_pay19 (F := Ideal) x1 x2 (ix2 p q)) 1#1 = 1#1 ↔ _
  rw [xori_one_eq_one, pay19_iff]

/-- A column slice recast as a row reads the slice at the column. -/
theorem pay21_apply (v : Vec Ideal S512 .f32) (u : Fin 1) (q : Fin 512) :
    k1_pay21 (F := Ideal) v (ix2 u q) = v (ix1 q) := by
  unfold k1_pay21
  show shapeCast S1x512 (shapeCast S512 v _) _ (ix2 u q) = _
  rw [shapeCast_a_1a_apply, shapeCast_self]

theorem pay22_apply (v : Vec Ideal S512 .f32) (u : Fin 1) (q : Fin 512) :
    k1_pay22 (F := Ideal) v (ix2 u q) = v (ix1 q) := by
  unfold k1_pay22
  show shapeCast S1x512 (shapeCast S512 v _) _ (ix2 u q) = _
  rw [shapeCast_a_1a_apply, shapeCast_self]

/-- The row's informative-positive word of (p, q): a positive pair whose score is below the row's threshold. -/
theorem pay23_iff (v17 : Vec Ideal S1024 .f32) (p : Fin 1024) (q : Fin 512) :
    k1_pay23 (F := Ideal) x0 x1 x2 v17 (ix2 p q) = 1#1
      ↔ (x1 (ix1 p) = x2 (ix1 q) ∧ x0 (ix2 p q) < v17 (ix1 p) + Cert.Spec.delta) := by
  unfold k1_pay23
  show IntOp.andi (k1_pay19 (F := Ideal) x1 x2 (ix2 p q))
      (Ideal.cmp .olt (x0 (ix2 p q))
        (broadcastTo S1024x512 (addf (F := Ideal) (φ := .f32) (shapeCast S1024x1 (shapeCast S1024 v17 _) _)
          (broadcast S1024x1 (Ideal.ofBits .f32 0x3E4CCCCD#32))) _ (ix2 p q))) = 1#1 ↔ _
  rw [IntOp.andi_eq_one, pay19_iff, Cert.Words.cmp_olt_iff, colBroadcast_apply, addf_apply, shapeCast_a_a1_apply,
    shapeCast_self]
  exact Iff.rfl

/-- The row's informative-negative word of (p, q). -/
theorem pay24_iff (v20 : Vec Ideal S1024 .f32) (p : Fin 1024) (q : Fin 512) :
    k1_pay24 (F := Ideal) x0 x1 x2 v20 (ix2 p q) = 1#1
      ↔ (¬ x1 (ix1 p) = x2 (ix1 q) ∧ v20 (ix1 p) - Cert.Spec.delta < x0 (ix2 p q)) := by
  unfold k1_pay24
  show IntOp.andi (k1_pay20 (F := Ideal) x1 x2 (ix2 p q))
      (Ideal.cmp .ogt (x0 (ix2 p q))
        (broadcastTo S1024x512 (subf (F := Ideal) (φ := .f32) (shapeCast S1024x1 (shapeCast S1024 v20 _) _)
          (broadcast S1024x1 (Ideal.ofBits .f32 0x3E4CCCCD#32))) _ (ix2 p q))) = 1#1 ↔ _
  rw [IntOp.andi_eq_one, pay20_iff, Cert.Words.cmp_ogt_iff, colBroadcast_apply, subf_apply, shapeCast_a_a1_apply,
    shapeCast_self]
  exact Iff.rfl

/-- The column's informative-positive word of (p, q), from the pair word, the column thresholds as a row, and the
    margin. -/
theorem pay25_iff (v15 : IVec S1024x512 1) (v25 : FVec Ideal S1x512 .f32) (d : EReal) (p : Fin 1024) (q : Fin 512) :
    k1_pay25 (F := Ideal) x0 v15 v25 d (ix2 p q) = 1#1
      ↔ (v15 (ix2 p q) = 1#1 ∧ x0 (ix2 p q) < v25 (ix2 (0 : Fin 1) q) + d) := by
  unfold k1_pay25
  show IntOp.andi (v15 (ix2 p q))
      (Ideal.cmp .olt (x0 (ix2 p q))
        (broadcastTo S1024x512 (addf (F := Ideal) (φ := .f32) v25 (broadcast S1x512 d)) _ (ix2 p q))) = 1#1 ↔ _
  rw [IntOp.andi_eq_one, Cert.Words.cmp_olt_iff, rowBroadcast_apply, addf_apply]
  exact Iff.rfl

/-- The column's informative-negative word of (p, q). -/
theorem pay26_iff (v16 : IVec S1024x512 1) (v28 : FVec Ideal S1x512 .f32) (p : Fin 1024) (q : Fin 512) :
    k1_pay26 (F := Ideal) x0 v16 v28 (ix2 p q) = 1#1
      ↔ (v16 (ix2 p q) = 1#1 ∧ v28 (ix2 (0 : Fin 1) q) - Cert.Spec.delta < x0 (ix2 p q)) := by
  unfold k1_pay26
  show IntOp.andi (v16 (ix2 p q))
      (Ideal.cmp .ogt (x0 (ix2 p q))
        (broadcastTo S1024x512 (subf (F := Ideal) (φ := .f32) v28 (broadcast S1x512 (Ideal.ofBits .f32 0x3E4CCCCD#32))) _
          (ix2 p q))) = 1#1 ↔ _
  rw [IntOp.andi_eq_one, Cert.Words.cmp_ogt_iff, rowBroadcast_apply, subf_apply]
  exact Iff.rfl

/-- The positive pair's term at an entry. -/
theorem pay27_apply (i : S1024x512.Idx) : k1_pay27 (F := Ideal) x0 i = Cert.Spec.posTerm (x0 i) := by
  unfold k1_pay27
  rfl

/-- The negative pair's term at an entry. -/
theorem pay28_apply (i : S1024x512.Idx) : k1_pay28 (F := Ideal) x0 i = Cert.Spec.negTerm (x0 i) := by
  unfold k1_pay28
  rfl

/-- The tile's partial sum of the positive terms along row p, over the entries whose word is 1. -/
theorem pay29_apply (w : IVec S1024x512 1) (p : Fin 1024) :
    k1_pay29 (F := Ideal) x0 w (ix1 p)
      = ∑ q : Fin 512, if w (ix2 p q) = 1#1 then Cert.Spec.posTerm (x0 (ix2 p q)) else 0 := by
  unfold k1_pay29
  show multiReduction (F := Ideal) (φ := .f32) .add [1] S1024
      (select w (k1_pay27 (F := Ideal) x0) (broadcast S1024x512 (Ideal.ofBits .f32 0x00000000#32))) 0x00000000#32 _ _ _ (ix1 p) = _
  refine (add_axis1 _ _ _ _ p).trans (Finset.sum_congr rfl fun q _ => ?_)
  rw [select_apply, pay27_apply, broadcast_apply, Ideal.ofBits_zero_f32, Cert.Words.select_of_iff Iff.rfl]

/-- The tile's partial sum of the negative terms along row p. -/
theorem pay30_apply (w : IVec S1024x512 1) (p : Fin 1024) :
    k1_pay30 (F := Ideal) x0 w (ix1 p)
      = ∑ q : Fin 512, if w (ix2 p q) = 1#1 then Cert.Spec.negTerm (x0 (ix2 p q)) else 0 := by
  unfold k1_pay30
  show multiReduction (F := Ideal) (φ := .f32) .add [1] S1024
      (select w (k1_pay28 (F := Ideal) x0) (broadcast S1024x512 (Ideal.ofBits .f32 0x00000000#32))) 0x00000000#32 _ _ _ (ix1 p) = _
  refine (add_axis1 _ _ _ _ p).trans (Finset.sum_congr rfl fun q _ => ?_)
  rw [select_apply, pay28_apply, broadcast_apply, Ideal.ofBits_zero_f32, Cert.Words.select_of_iff Iff.rfl]

end Payloads

/-- Row p's any-flag inside the tile, as 0 or 1. -/
theorem pay31_apply (w : IVec S1024x512 1) (p : Fin 1024) :
    k1_pay31 (F := Ideal) w (ix1 p) = Cert.Tile.ind (∃ q : Fin 512, w (ix2 p q) = 1#1) := by
  unfold k1_pay31
  show FloatOps.sitofp (F := Ideal) .f32 ((FloatOps.cmpf (F := Ideal) (φ := .f32) .ogt
      (multiReduction (F := Ideal) (φ := .f32) .maximumf [1] S1024
        (select w (broadcast S1024x512 (Ideal.ofBits .f32 0x3F800000#32)) (broadcast S1024x512 (Ideal.ofBits .f32 0x00000000#32)))
        0xFF800000#32 _ _ _ (ix1 p))
      (Ideal.ofBits .f32 0x00000000#32)).setWidth 32) = _
  rw [flag_pos]
  exact (congrArg (fun t => Cert.Tile.ind ((0 : EReal) < t)) (anyflag_axis1 w _ _ _ p)).trans (ind_pos_ind _)

theorem pay32_apply (w : IVec S1024x512 1) (p : Fin 1024) :
    k1_pay32 (F := Ideal) w (ix1 p) = Cert.Tile.ind (∃ q : Fin 512, w (ix2 p q) = 1#1) := by
  unfold k1_pay32
  show FloatOps.sitofp (F := Ideal) .f32 ((FloatOps.cmpf (F := Ideal) (φ := .f32) .ogt
      (multiReduction (F := Ideal) (φ := .f32) .maximumf [1] S1024
        (select w (broadcast S1024x512 (Ideal.ofBits .f32 0x3F800000#32)) (broadcast S1024x512 (Ideal.ofBits .f32 0x00000000#32)))
        0xFF800000#32 _ _ _ (ix1 p))
      (Ideal.ofBits .f32 0x00000000#32)).setWidth 32) = _
  rw [flag_pos]
  exact (congrArg (fun t => Cert.Tile.ind ((0 : EReal) < t)) (anyflag_axis1 w _ _ _ p)).trans (ind_pos_ind _)

/-- The tile's partial sum of given terms along column q, over the entries whose word is 1. -/
theorem pay37_apply (w : IVec S1024x512 1) (y : FVec Ideal S1024x512 .f32) (q : Fin 512) :
    k1_pay37 (F := Ideal) w y (ix1 q) = ∑ p : Fin 1024, if w (ix2 p q) = 1#1 then y (ix2 p q) else 0 := by
  unfold k1_pay37
  show multiReduction (F := Ideal) (φ := .f32) .add [0] S512
      (select w y (broadcast S1024x512 (Ideal.ofBits .f32 0x00000000#32))) 0x00000000#32 _ _ _ (ix1 q) = _
  refine (add_axis0 _ _ _ _ q).trans (Finset.sum_congr rfl fun p _ => ?_)
  rw [select_apply, broadcast_apply, Ideal.ofBits_zero_f32, Cert.Words.select_of_iff Iff.rfl]

theorem pay38_apply (w : IVec S1024x512 1) (y : FVec Ideal S1024x512 .f32) (q : Fin 512) :
    k1_pay38 (F := Ideal) w y (ix1 q) = ∑ p : Fin 1024, if w (ix2 p q) = 1#1 then y (ix2 p q) else 0 := by
  unfold k1_pay38
  show multiReduction (F := Ideal) (φ := .f32) .add [0] S512
      (select w y (broadcast S1024x512 (Ideal.ofBits .f32 0x00000000#32))) 0x00000000#32 _ _ _ (ix1 q) = _
  refine (add_axis0 _ _ _ _ q).trans (Finset.sum_congr rfl fun p _ => ?_)
  rw [select_apply, broadcast_apply, Ideal.ofBits_zero_f32, Cert.Words.select_of_iff Iff.rfl]

/-- Column q's any-flag inside the tile, as 0 or 1. -/
theorem pay39_apply (w : IVec S1024x512 1) (q : Fin 512) :
    k1_pay39 (F := Ideal) w (ix1 q) = Cert.Tile.ind (∃ p : Fin 1024, w (ix2 p q) = 1#1) := by
  unfold k1_pay39
  show FloatOps.sitofp (F := Ideal) .f32 ((FloatOps.cmpf (F := Ideal) (φ := .f32) .ogt
      (multiReduction (F := Ideal) (φ := .f32) .maximumf [0] S512
        (select w (broadcast S1024x512 (Ideal.ofBits .f32 0x3F800000#32)) (broadcast S1024x512 (Ideal.ofBits .f32 0x00000000#32)))
        0xFF800000#32 _ _ _ (ix1 q))
      (Ideal.ofBits .f32 0x00000000#32)).setWidth 32) = _
  rw [flag_pos]
  exact (congrArg (fun t => Cert.Tile.ind ((0 : EReal) < t)) (anyflag_axis0 w _ _ _ q)).trans (ind_pos_ind _)

/-- Column q's any-flag inside the tile before the test against zero: already 0 or 1. -/
theorem pay40_apply (w : IVec S1024x512 1) (q : Fin 512) :
    k1_pay40 (F := Ideal) w (ix1 q) = Cert.Tile.ind (∃ p : Fin 1024, w (ix2 p q) = 1#1) := by
  unfold k1_pay40
  exact anyflag_axis0 w _ _ _ q

end Cert.KernelIdeal.Pay1

end
-- ==== Proof.Pay1b.lean ====
/-
  The second pass's payloads read at an index, second part: the accumulate steps (a sum with, or a maximum of, the
  accumulator's entry and the tile's partial), the accumulators' start values, and the finalisers (the guarded logarithm
  of an accumulated sum over the scale; the conjunction of two flags, each tested against one half, as a flag).
-/
import proofs.«170005_j69870527971928_1_alg».proof.Proof.Pay1a

noncomputable section

open scoped BigOperators

namespace Cert.KernelIdeal.Pay1

open Cert.KernelIdeal Cert.KernelIdeal.Gen Cert.KernelIdeal.Pay0 Idealize.ShloMosaic Idealize.ShloMosaic.ValueIdx

/-! ## The accumulate steps -/

/-- The column sums on the slice: the entry plus the tile's partial sum. -/
theorem pay1_apply (a : FVec Ideal S512 .f32) (v : Vec Ideal S512 .f32) (i : S512.Idx) :
    k1_pay1 (F := Ideal) a v i = v i + a i := by
  unfold k1_pay1
  show shapeCast S512 (addf (F := Ideal) (φ := .f32) v a) _ i = _
  rw [shapeCast_self, addf_apply]

theorem pay2_apply (a : FVec Ideal S512 .f32) (v : Vec Ideal S512 .f32) (i : S512.Idx) :
    k1_pay2 (F := Ideal) a v i = v i + a i := by
  unfold k1_pay2
  show shapeCast S512 (addf (F := Ideal) (φ := .f32) v a) _ i = _
  rw [shapeCast_self, addf_apply]

/-- The column any-flag on the slice: the greater of the entry and the tile's flag. -/
theorem pay3_apply (a : FVec Ideal S512 .f32) (v : Vec Ideal S512 .f32) (i : S512.Idx) :
    k1_pay3 (F := Ideal) a v i = max (v i) (a i) := by
  unfold k1_pay3
  show shapeCast S512 (maximumf (F := Ideal) (φ := .f32) v a) _ i = _
  rw [shapeCast_self, maximumf_apply]

/-- The second column any-flag on the slice: the greater of the entry and the flag of "the tile's maximum is positive". -/
theorem pay4_apply (a : FVec Ideal S512 .f32) (v : Vec Ideal S512 .f32) (i : S512.Idx) :
    k1_pay4 (F := Ideal) a v i = max (v i) (Cert.Tile.ind (0 < a i)) := by
  unfold k1_pay4
  show shapeCast S512 (maximumf (F := Ideal) (φ := .f32) v
      (sitofp .f32 (extui 32 (cmpf .ogt a (broadcast S512 (Ideal.ofBits .f32 0x00000000#32))) _))) _ i = _
  rw [shapeCast_self, maximumf_apply]
  show max (v i) (FloatOps.sitofp (F := Ideal) .f32
      ((FloatOps.cmpf (F := Ideal) (φ := .f32) .ogt (a i) (Ideal.ofBits .f32 0x00000000#32)).setWidth 32)) = _
  rw [flag_pos]

/-- With the tile's column flag as its first operand that step takes in the flag itself. -/
theorem pay4_pay40 (w : IVec S1024x512 1) (v : Vec Ideal S512 .f32) (q : Fin 512) :
    k1_pay4 (F := Ideal) (k1_pay40 (F := Ideal) w) v (ix1 q)
      = max (v (ix1 q)) (Cert.Tile.ind (∃ p : Fin 1024, w (ix2 p q) = 1#1)) := by
  rw [pay4_apply, pay40_apply, ind_pos_ind]

/-- The row sums: the entry plus the tile's partial sum. -/
theorem pay33_apply (a : FVec Ideal S1024 .f32) (v : Vec Ideal S1024 .f32) (i : S1024.Idx) :
    k1_pay33 (F := Ideal) a v i = v i + a i := by
  unfold k1_pay33
  show shapeCast S1024 (addf (F := Ideal) (φ := .f32) v a) _ i = _
  rw [shapeCast_self, addf_apply]

theorem pay34_apply (a : FVec Ideal S1024 .f32) (v : Vec Ideal S1024 .f32) (i : S1024.Idx) :
    k1_pay34 (F := Ideal) a v i = v i + a i := by
  unfold k1_pay34
  show shapeCast S1024 (addf (F := Ideal) (φ := .f32) v a) _ i = _
  rw [shapeCast_self, addf_apply]

/-- The row any-flags: the greater of the entry and the tile's flag. -/
theorem pay35_apply (a : FVec Ideal S1024 .f32) (v : Vec Ideal S1024 .f32) (i : S1024.Idx) :
    k1_pay35 (F := Ideal) a v i = max (v i) (a i) := by
  unfold k1_pay35
  show shapeCast S1024 (maximumf (F := Ideal) (φ := .f32) v a) _ i = _
  rw [shapeCast_self, maximumf_apply]

theorem pay36_apply (a : FVec Ideal S1024 .f32) (v : Vec Ideal S1024 .f32) (i : S1024.Idx) :
    k1_pay36 (F := Ideal) a v i = max (v i) (a i) := by
  unfold k1_pay36
  show shapeCast S1024 (maximumf (F := Ideal) (φ := .f32) v a) _ i = _
  rw [shapeCast_self, maximumf_apply]

/-! ## The finalisers -/

/-- The guarded logarithm of the accumulated sum over the scale, entry by entry. -/
theorem pay5_apply (v : Vec Ideal S1024 .f32) (i : S1024.Idx) :
    k1_pay5 (F := Ideal) v i = Cert.Spec.safeLog (v i) := by
  unfold k1_pay5
  show Ideal.div (Ideal.log (Scalar.select (Ideal.cmp .ogt (v i) (Ideal.ofBits .f32 0x00000000#32)) (v i)
      (Ideal.ofBits .f32 0x3F800000#32))) (Ideal.ofBits .f32 0x41200000#32) = _
  rw [Cert.Words.select_of_iff (Cert.Words.cmp_ogt_iff _ _), Ideal.ofBits_zero_f32]
  rfl

theorem pay6_apply (v : Vec Ideal S1024 .f32) (i : S1024.Idx) :
    k1_pay6 (F := Ideal) v i = Cert.Spec.safeLog (v i) := by
  unfold k1_pay6
  show Ideal.div (Ideal.log (Scalar.select (Ideal.cmp .ogt (v i) (Ideal.ofBits .f32 0x00000000#32)) (v i)
      (Ideal.ofBits .f32 0x3F800000#32))) (Ideal.ofBits .f32 0x41200000#32) = _
  rw [Cert.Words.select_of_iff (Cert.Words.cmp_ogt_iff _ _), Ideal.ofBits_zero_f32]
  rfl

theorem pay8_apply (v : Vec Ideal S8192 .f32) (i : S8192.Idx) :
    k1_pay8 (F := Ideal) v i = Cert.Spec.safeLog (v i) := by
  unfold k1_pay8
  show Ideal.div (Ideal.log (Scalar.select (Ideal.cmp .ogt (v i) (Ideal.ofBits .f32 0x00000000#32)) (v i)
      (Ideal.ofBits .f32 0x3F800000#32))) (Ideal.ofBits .f32 0x41200000#32) = _
  rw [Cert.Words.select_of_iff (Cert.Words.cmp_ogt_iff _ _), Ideal.ofBits_zero_f32]
  rfl

theorem pay9_apply (v : Vec Ideal S8192 .f32) (i : S8192.Idx) :
    k1_pay9 (F := Ideal) v i = Cert.Spec.safeLog (v i) := by
  unfold k1_pay9
  show Ideal.div (Ideal.log (Scalar.select (Ideal.cmp .ogt (v i) (Ideal.ofBits .f32 0x00000000#32)) (v i)
      (Ideal.ofBits .f32 0x3F800000#32))) (Ideal.ofBits .f32 0x41200000#32) = _
  rw [Cert.Words.select_of_iff (Cert.Words.cmp_ogt_iff _ _), Ideal.ofBits_zero_f32]
  rfl

/-- The two flags, each tested against one half, as the flag of the conjunction. -/
theorem pay7_apply (a b : Vec Ideal S1024 .f32) (i : S1024.Idx) :
    k1_pay7 (F := Ideal) a b i
      = Cert.Tile.ind (Ideal.ofBits .f32 0x3F000000#32 < a i ∧ Ideal.ofBits .f32 0x3F000000#32 < b i) := by
  unfold k1_pay7
  show FloatOps.sitofp (F := Ideal) .f32 ((IntOp.andi (Ideal.cmp .ogt (a i) (Ideal.ofBits .f32 0x3F000000#32))
      (Ideal.cmp .ogt (b i) (Ideal.ofBits .f32 0x3F000000#32))).setWidth 32) = _
  rw [flag_word]
  exact congrArg Cert.Tile.ind (propext (by rw [IntOp.andi_eq_one, Cert.Words.cmp_ogt_iff, Cert.Words.cmp_ogt_iff]))

theorem pay10_apply (a b : Vec Ideal S8192 .f32) (i : S8192.Idx) :
    k1_pay10 (F := Ideal) a b i
      = Cert.Tile.ind (Ideal.ofBits .f32 0x3F000000#32 < a i ∧ Ideal.ofBits .f32 0x3F000000#32 < b i) := by
  unfold k1_pay10
  show FloatOps.sitofp (F := Ideal) .f32 ((IntOp.andi (Ideal.cmp .ogt (a i) (Ideal.ofBits .f32 0x3F000000#32))
      (Ideal.cmp .ogt (b i) (Ideal.ofBits .f32 0x3F000000#32))).setWidth 32) = _
  rw [flag_word]
  exact congrArg Cert.Tile.ind (propext (by rw [IntOp.andi_eq_one, Cert.Words.cmp_ogt_iff, Cert.Words.cmp_ogt_iff]))

/-! ## The accumulators' start values -/

theorem pay11_eq : k1_pay11 (F := Ideal) = fun _ => 0 := by
  unfold k1_pay11
  show shapeCast S8192 (broadcast S8192 (Ideal.ofBits .f32 0x00000000#32)) _ = _
  rw [shapeCast_self, Ideal.ofBits_zero_f32]
  rfl

theorem pay12_eq : k1_pay12 (F := Ideal) = fun _ => 0 := by
  unfold k1_pay12
  show shapeCast S8192 (broadcast S8192 (Ideal.ofBits .f32 0x00000000#32)) _ = _
  rw [shapeCast_self, Ideal.ofBits_zero_f32]
  rfl

theorem pay13_eq : k1_pay13 (F := Ideal) = fun _ => 0 := by
  unfold k1_pay13
  show shapeCast S8192 (broadcast S8192 (Ideal.ofBits .f32 0x00000000#32)) _ = _
  rw [shapeCast_self, Ideal.ofBits_zero_f32]
  rfl

theorem pay14_eq : k1_pay14 (F := Ideal) = fun _ => 0 := by
  unfold k1_pay14
  show shapeCast S8192 (broadcast S8192 (Ideal.ofBits .f32 0x00000000#32)) _ = _
  rw [shapeCast_self, Ideal.ofBits_zero_f32]
  rfl

theorem pay15_eq : k1_pay15 (F := Ideal) = fun _ => 0 := by
  unfold k1_pay15
  show shapeCast S1024 (broadcast S1024 (Ideal.ofBits .f32 0x00000000#32)) _ = _
  rw [shapeCast_self, Ideal.ofBits_zero_f32]
  rfl

theorem pay16_eq : k1_pay16 (F := Ideal) = fun _ => 0 := by
  unfold k1_pay16
  show shapeCast S1024 (broadcast S1024 (Ideal.ofBits .f32 0x00000000#32)) _ = _
  rw [shapeCast_self, Ideal.ofBits_zero_f32]
  rfl

theorem pay17_eq : k1_pay17 (F := Ideal) = fun _ => 0 := by
  unfold k1_pay17
  show shapeCast S1024 (broadcast S1024 (Ideal.ofBits .f32 0x00000000#32)) _ = _
  rw [shapeCast_self, Ideal.ofBits_zero_f32]
  rfl

theorem pay18_eq : k1_pay18 (F := Ideal) = fun _ => 0 := by
  unfold k1_pay18
  show shapeCast S1024 (broadcast S1024 (Ideal.ofBits .f32 0x00000000#32)) _ = _
  rw [shapeCast_self, Ideal.ofBits_zero_f32]
  rfl

end Cert.KernelIdeal.Pay1

end
-- ==== Proof.R1Parts.lean ====
/-
  One grid point of the second pass against the specification: when the point's windows are the blocks (i, j) of the
  score matrix and the label vector, the row block of the rows' hardest negatives and weakest positives, and the column
  slice of the columns', the four filter words are the specification's four informative-pair relations, the tile's
  partial sums and any-flags are the specification's sums and existentials restricted to the tile, and the accumulate
  payloads take those parts in.
-/
import proofs.«170005_j69870527971928_1_alg».proof.Proof.Pay1b

noncomputable section

open scoped BigOperators

namespace Cert.KernelIdeal.H1

open Cert.KernelIdeal Cert.KernelIdeal.Gen Cert.KernelIdeal.Pay1 Cert.Tile Cert.Spec
open Idealize.ShloMosaic Idealize.ShloMosaic.ValueIdx

/-! ## The tiles' parts of the sums and of the existentials -/

section Parts
variable (S : Mat) (T : Lab)

open Classical in
/-- Row r's sum over its informative positives inside column block j. -/
def rowPartPos (r : Fin 8192) (j : Fin 16) : EReal :=
  ∑ q : Fin 512, if apRow S T r (colIx j q) then posTerm (S (ix2 r (colIx j q))) else 0
open Classical in
/-- Row r's sum over its informative negatives inside column block j. -/
def rowPartNeg (r : Fin 8192) (j : Fin 16) : EReal :=
  ∑ q : Fin 512, if anRow S T r (colIx j q) then negTerm (S (ix2 r (colIx j q))) else 0
open Classical in
/-- Column c's sum over its informative positives inside row block i. -/
def colPartPos (i : Fin 8) (c : Fin 8192) : EReal :=
  ∑ p : Fin 1024, if apCol S T (rowIx i p) c then posTerm (S (ix2 (rowIx i p) c)) else 0
open Classical in
/-- Column c's sum over its informative negatives inside row block i. -/
def colPartNeg (i : Fin 8) (c : Fin 8192) : EReal :=
  ∑ p : Fin 1024, if anCol S T (rowIx i p) c then negTerm (S (ix2 (rowIx i p) c)) else 0

theorem posRow_eq (r : Fin 8192) : posRow S T r = ∑ j : Fin 16, rowPartPos S T r j := by
  unfold posRow rowPartPos; exact sum_col _
theorem negRow_eq (r : Fin 8192) : negRow S T r = ∑ j : Fin 16, rowPartNeg S T r j := by
  unfold negRow rowPartNeg; exact sum_col _
theorem posCol_eq (c : Fin 8192) : posCol S T c = ∑ i : Fin 8, colPartPos S T i c := by
  unfold posCol colPartPos; exact sum_row _
theorem negCol_eq (c : Fin 8192) : negCol S T c = ∑ i : Fin 8, colPartNeg S T i c := by
  unfold negCol colPartNeg; exact sum_row _

end Parts

/-! ## The filters, partial sums, flags and accumulate payloads at a point whose windows are the blocks (i, j) -/

section Steps
variable (S : Mat) (T : Lab) (i : Fin 8) (j : Fin 16)
  (x0 : Vec Ideal S1024x512 .f32) (x1 : Vec Ideal S1024 .i32) (x2 : Vec Ideal S512 .i32)
  (x3 x4 : Vec Ideal S1024 .f32) (x5 x6 : Vec Ideal S512 .f32)
  (hx0 : ∀ p q, x0 (ix2 p q) = S (ix2 (rowIx i p) (colIx j q)))
  (hx1 : ∀ p, x1 (ix1 p) = T (ix1 (rowIx i p)))
  (hx2 : ∀ q, x2 (ix1 q) = T (ix1 (colIx j q)))
  (hx3 : ∀ p, x3 (ix1 p) = maxAnRow S T (rowIx i p))
  (hx4 : ∀ p, x4 (ix1 p) = minApRow S T (rowIx i p))
  (hx5 : ∀ q, x5 (ix1 q) = maxAnCol S T (colIx j q))
  (hx6 : ∀ q, x6 (ix1 q) = minApCol S T (colIx j q))

include hx0 hx1 hx2 hx3 in
/-- The row side's informative-positive word. -/
theorem apc_iff (p : Fin 1024) (q : Fin 512) :
    k1_pay23 (F := Ideal) x0 x1 x2 x3 (ix2 p q) = 1#1 ↔ apRow S T (rowIx i p) (colIx j q) := by
  rw [pay23_iff, hx0, hx1, hx2, hx3]
  exact Iff.rfl

include hx0 hx1 hx2 hx4 in
/-- The row side's informative-negative word. -/
theorem anc_iff (p : Fin 1024) (q : Fin 512) :
    k1_pay24 (F := Ideal) x0 x1 x2 x4 (ix2 p q) = 1#1 ↔ anRow S T (rowIx i p) (colIx j q) := by
  rw [pay24_iff, hx0, hx1, hx2, hx4]
  exact Iff.rfl

include hx0 hx1 hx2 hx5 in
/-- The column side's informative-positive word. -/
theorem api_iff (p : Fin 1024) (q : Fin 512) :
    k1_pay25 (F := Ideal) x0 (k1_pay19 (F := Ideal) x1 x2) (k1_pay21 (F := Ideal) x5) (Ideal.ofBits .f32 0x3E4CCCCD#32) (ix2 p q) = 1#1
      ↔ apCol S T (rowIx i p) (colIx j q) := by
  rw [pay25_iff, pay19_iff, pay21_apply, hx0, hx1, hx2, hx5]
  exact Iff.rfl

include hx0 hx1 hx2 hx6 in
/-- The column side's informative-negative word. -/
theorem ani_iff (p : Fin 1024) (q : Fin 512) :
    k1_pay26 (F := Ideal) x0 (k1_pay20 (F := Ideal) x1 x2) (k1_pay22 (F := Ideal) x6) (ix2 p q) = 1#1
      ↔ anCol S T (rowIx i p) (colIx j q) := by
  rw [pay26_iff, pay20_iff, pay22_apply, hx0, hx1, hx2, hx6]
  exact Iff.rfl

include hx0 hx1 hx2 hx3 in
open Classical in
/-- The row sums of the positive terms take in the tile's part. -/
theorem rowStepPos (v : Vec Ideal S1024 .f32) (p : Fin 1024) :
    k1_pay33 (F := Ideal) (k1_pay29 (F := Ideal) x0 (k1_pay23 (F := Ideal) x0 x1 x2 x3)) v (ix1 p)
      = v (ix1 p) + rowPartPos S T (rowIx i p) j := by
  rw [pay33_apply, pay29_apply]
  refine congrArg (v (ix1 p) + ·) (Finset.sum_congr rfl fun q _ => ?_)
  rw [hx0]
  exact if_congr (apc_iff S T i j x0 x1 x2 x3 hx0 hx1 hx2 hx3 p q) rfl rfl

include hx0 hx1 hx2 hx4 in
open Classical in
/-- The row sums of the negative terms take in the tile's part. -/
theorem rowStepNeg (v : Vec Ideal S1024 .f32) (p : Fin 1024) :
    k1_pay34 (F := Ideal) (k1_pay30 (F := Ideal) x0 (k1_pay24 (F := Ideal) x0 x1 x2 x4)) v (ix1 p)
      = v (ix1 p) + rowPartNeg S T (rowIx i p) j := by
  rw [pay34_apply, pay30_apply]
  refine congrArg (v (ix1 p) + ·) (Finset.sum_congr rfl fun q _ => ?_)
  rw [hx0]
  exact if_congr (anc_iff S T i j x0 x1 x2 x4 hx0 hx1 hx2 hx4 p q) rfl rfl

include hx0 hx1 hx2 hx3 in
/-- The row any-flag of the informative positives takes in the tile's flag. -/
theorem rowStepFlagP (v : Vec Ideal S1024 .f32) (p : Fin 1024) :
    k1_pay35 (F := Ideal) (k1_pay31 (F := Ideal) (k1_pay23 (F := Ideal) x0 x1 x2 x3)) v (ix1 p)
      = max (v (ix1 p)) (ind (∃ q : Fin 512, apRow S T (rowIx i p) (colIx j q))) := by
  rw [pay35_apply, pay31_apply]
  exact congrArg (fun P => max (v (ix1 p)) (ind P))
    (propext (exists_congr fun q => apc_iff S T i j x0 x1 x2 x3 hx0 hx1 hx2 hx3 p q))

include hx0 hx1 hx2 hx4 in
/-- The row any-flag of the informative negatives takes in the tile's flag. -/
theorem rowStepFlagN (v : Vec Ideal S1024 .f32) (p : Fin 1024) :
    k1_pay36 (F := Ideal) (k1_pay32 (F := Ideal) (k1_pay24 (F := Ideal) x0 x1 x2 x4)) v (ix1 p)
      = max (v (ix1 p)) (ind (∃ q : Fin 512, anRow S T (rowIx i p) (colIx j q))) := by
  rw [pay36_apply, pay32_apply]
  exact congrArg (fun P => max (v (ix1 p)) (ind P))
    (propext (exists_congr fun q => anc_iff S T i j x0 x1 x2 x4 hx0 hx1 hx2 hx4 p q))

include hx0 hx1 hx2 hx5 in
open Classical in
/-- The column sums of the positive terms take in the tile's part. -/
theorem colStepPos (v : Vec Ideal S512 .f32) (q : Fin 512) :
    k1_pay1 (F := Ideal) (k1_pay37 (F := Ideal)
        (k1_pay25 (F := Ideal) x0 (k1_pay19 (F := Ideal) x1 x2) (k1_pay21 (F := Ideal) x5) (Ideal.ofBits .f32 0x3E4CCCCD#32))
        (k1_pay27 (F := Ideal) x0)) v (ix1 q)
      = v (ix1 q) + colPartPos S T i (colIx j q) := by
  rw [pay1_apply, pay37_apply]
  refine congrArg (v (ix1 q) + ·) (Finset.sum_congr rfl fun p _ => ?_)
  rw [pay27_apply, hx0]
  exact if_congr (api_iff S T i j x0 x1 x2 x5 hx0 hx1 hx2 hx5 p q) rfl rfl

include hx0 hx1 hx2 hx6 in
open Classical in
/-- The column sums of the negative terms take in the tile's part. -/
theorem colStepNeg (v : Vec Ideal S512 .f32) (q : Fin 512) :
    k1_pay2 (F := Ideal) (k1_pay38 (F := Ideal)
        (k1_pay26 (F := Ideal) x0 (k1_pay20 (F := Ideal) x1 x2) (k1_pay22 (F := Ideal) x6))
        (k1_pay28 (F := Ideal) x0)) v (ix1 q)
      = v (ix1 q) + colPartNeg S T i (colIx j q) := by
  rw [pay2_apply, pay38_apply]
  refine congrArg (v (ix1 q) + ·) (Finset.sum_congr rfl fun p _ => ?_)
  rw [pay28_apply, hx0]
  exact if_congr (ani_iff S T i j x0 x1 x2 x6 hx0 hx1 hx2 hx6 p q) rfl rfl

include hx0 hx1 hx2 hx5 in
/-- The column any-flag of the informative positives takes in the tile's flag. -/
theorem colStepFlagP (v : Vec Ideal S512 .f32) (q : Fin 512) :
    k1_pay3 (F := Ideal) (k1_pay39 (F := Ideal)
        (k1_pay25 (F := Ideal) x0 (k1_pay19 (F := Ideal) x1 x2) (k1_pay21 (F := Ideal) x5) (Ideal.ofBits .f32 0x3E4CCCCD#32))) v (ix1 q)
      = max (v (ix1 q)) (ind (∃ p : Fin 1024, apCol S T (rowIx i p) (colIx j q))) := by
  rw [pay3_apply, pay39_apply]
  exact congrArg (fun P => max (v (ix1 q)) (ind P))
    (propext (exists_congr fun p => api_iff S T i j x0 x1 x2 x5 hx0 hx1 hx2 hx5 p q))

include hx0 hx1 hx2 hx6 in
/-- The column any-flag of the informative negatives takes in the tile's flag. -/
theorem colStepFlagN (v : Vec Ideal S512 .f32) (q : Fin 512) :
    k1_pay4 (F := Ideal) (k1_pay40 (F := Ideal)
        (k1_pay26 (F := Ideal) x0 (k1_pay20 (F := Ideal) x1 x2) (k1_pay22 (F := Ideal) x6))) v (ix1 q)
      = max (v (ix1 q)) (ind (∃ p : Fin 1024, anCol S T (rowIx i p) (colIx j q))) := by
  rw [pay4_pay40]
  exact congrArg (fun P => max (v (ix1 q)) (ind P))
    (propext (exists_congr fun p => ani_iff S T i j x0 x1 x2 x6 hx0 hx1 hx2 hx6 p q))

end Steps

end Cert.KernelIdeal.H1

end
-- ==== Proof.Lits.lean ====
/-
  The literal one half: the word 0x3F000000 denotes 1/2, which lies in [0, 1).
-/
import Idealize.ShloMosaic.PureOps.Ideal

noncomputable section

namespace Cert.Lits

open Idealize.ShloMosaic

/-- The f32 pattern 0x3F000000 is the real one half. -/
theorem ofBits_half_f32 : Ideal.ofBits .f32 0x3F000000#32 = (((1 : ℝ) / 2 : ℝ) : EReal) := by
  simp [Ideal.ofBits, Ideal.ieee, -EReal.coe_mul]; norm_num

theorem half_nonneg : (0 : EReal) ≤ Ideal.ofBits .f32 0x3F000000#32 := by
  rw [ofBits_half_f32]; exact EReal.coe_nonneg.mpr (by norm_num)

theorem half_lt_one : Ideal.ofBits .f32 0x3F000000#32 < 1 := by
  rw [ofBits_half_f32, show (1 : EReal) = ((1 : ℝ) : EReal) by norm_cast]
  exact EReal.coe_lt_coe_iff.mpr (by norm_num)

end Cert.Lits

end
-- ==== Proof.R1Acc.lean ====
/-
  The accumulators of the second pass from one grid point to the next, in closed form: a row accumulator, reset to 0 at
  the first tile of its row block, holds after tile j the sum (the greatest flag) of the parts of column blocks 0 … j; a
  column accumulator entry holds after point t the sum (the greatest flag) of the parts of the row blocks that have
  visited its column block; at the end they hold the specification's sums and the flags of its existentials; and the
  finalisers' flag test says that a row (a column) has an informative positive and an informative negative.
-/
import proofs.«170005_j69870527971928_1_alg».proof.Proof.R1Parts
import proofs.«170005_j69870527971928_1_alg».proof.Proof.Lits

noncomputable section

open scoped BigOperators

namespace Cert.KernelIdeal.H1

open Cert.KernelIdeal Cert.KernelIdeal.Gen Cert.Tile Cert.Spec
open Idealize.ShloMosaic Idealize.ShloMosaic.ValueIdx

/-- The column block of point t. -/
def colBlkN (t : ℕ) : Fin 16 := ⟨t % 16, by omega⟩
/-- The row block of point t. -/
def rowBlkN (t : ℕ) (ht : t < 128) : Fin 8 := ⟨t / 16, by omega⟩

@[simp] theorem colBlkN_val (t : ℕ) : (colBlkN t).val = t % 16 := rfl
@[simp] theorem rowBlkN_val (t : ℕ) (ht : t < 128) : (rowBlkN t ht).val = t / 16 := rfl

/-! ## Row accumulators (any parts b over the 16 column blocks) -/

section Rows
variable (b : Fin 16 → EReal)

theorem acc_first_sum (t : ℕ) (h0 : t % 16 = 0) : 0 + b (colBlkN t) = accSum b 0 (t % 16 + 1) := by
  have e : colBlkN t = ⟨0, by decide⟩ := Fin.ext h0
  rw [h0, e, accSum_succ b 0 (by decide : 0 < 16), accSum_zero]

theorem acc_next_sum (t : ℕ) (h0 : t % 16 ≠ 0) :
    accSum b 0 ((t - 1) % 16 + 1) + b (colBlkN t) = accSum b 0 (t % 16 + 1) := by
  have e : (t - 1) % 16 + 1 = t % 16 := by omega
  rw [e, accSum_succ b 0 (by omega : t % 16 < 16)]
  rfl

theorem acc_first_flag (t : ℕ) (h0 : t % 16 = 0) : max 0 (b (colBlkN t)) = accSup b 0 (t % 16 + 1) := by
  have e : colBlkN t = ⟨0, by decide⟩ := Fin.ext h0
  rw [h0, e, accSup_succ b 0 (by decide : 0 < 16), accSup_zero]

theorem acc_next_flag (t : ℕ) (h0 : t % 16 ≠ 0) :
    max (accSup b 0 ((t - 1) % 16 + 1)) (b (colBlkN t)) = accSup b 0 (t % 16 + 1) := by
  have e : (t - 1) % 16 + 1 = t % 16 := by omega
  rw [e, accSup_succ b 0 (by omega : t % 16 < 16)]
  rfl

end Rows

/-- Inside a row block the row block of the point before is the point's. -/
theorem rowBlkN_pred (t : ℕ) (ht : t < 128) (h0 : t % 16 ≠ 0) (hlt : t - 1 < 128) : rowBlkN (t - 1) hlt = rowBlkN t ht :=
  Fin.ext (by show (t - 1) / 16 = t / 16; omega)

section RowEnds
variable (S : Mat) (T : Lab)

theorem row_last_pos (r : Fin 8192) : accSum (rowPartPos S T r) 0 (15 + 1) = posRow S T r := by
  rw [accSum_full _ _ (le_refl 16), zero_add, posRow_eq]
theorem row_last_neg (r : Fin 8192) : accSum (rowPartNeg S T r) 0 (15 + 1) = negRow S T r := by
  rw [accSum_full _ _ (le_refl 16), zero_add, negRow_eq]

theorem row_last_flagP (r : Fin 8192) :
    accSup (fun j : Fin 16 => ind (∃ q : Fin 512, apRow S T r (colIx j q))) 0 (15 + 1) = ind (∃ c, apRow S T r c) := by
  rw [accSup_full _ _ (le_refl 16), zero_sup_ind]
  exact congrArg ind (propext (by simp only [Finset.mem_univ, true_and]; exact (exists_col (fun c => apRow S T r c)).symm))
theorem row_last_flagN (r : Fin 8192) :
    accSup (fun j : Fin 16 => ind (∃ q : Fin 512, anRow S T r (colIx j q))) 0 (15 + 1) = ind (∃ c, anRow S T r c) := by
  rw [accSup_full _ _ (le_refl 16), zero_sup_ind]
  exact congrArg ind (propext (by simp only [Finset.mem_univ, true_and]; exact (exists_col (fun c => anRow S T r c)).symm))

end RowEnds

/-! ## Column accumulators (any parts b j' q over the 8 row blocks) -/

section Cols
variable (b : Fin 16 → Fin 512 → Fin 8 → EReal)

/-- One point's update of a column sum, entry by entry, carries the closed form from t points to t + 1. -/
theorem col_step_sum (t : ℕ) (ht : t < 128) (prev new : Fin 16 → Fin 512 → EReal)
    (hnew : ∀ j' q, new j' q = if j' = colBlkN t then prev (colBlkN t) q + b (colBlkN t) q (rowBlkN t ht) else prev j' q)
    (hprev : ∀ j' q, prev j' q = visitSum (b j' q) 0 j'.val t) (j' : Fin 16) (q : Fin 512) :
    new j' q = visitSum (b j' q) 0 j'.val (t + 1) := by
  rw [hnew]
  by_cases h : j' = colBlkN t
  · rw [if_pos h, hprev, ← h, visitSum_hit _ 0 ht (show t % 16 = j'.val by rw [h]; rfl)]
    rfl
  · rw [if_neg h, hprev, visitSum_miss _ 0 j'.isLt (fun e => h (Fin.ext e.symm))]

/-- The same for a column flag. -/
theorem col_step_flag (t : ℕ) (ht : t < 128) (prev new : Fin 16 → Fin 512 → EReal)
    (hnew : ∀ j' q, new j' q = if j' = colBlkN t then max (prev (colBlkN t) q) (b (colBlkN t) q (rowBlkN t ht)) else prev j' q)
    (hprev : ∀ j' q, prev j' q = visitSup (b j' q) 0 j'.val t) (j' : Fin 16) (q : Fin 512) :
    new j' q = visitSup (b j' q) 0 j'.val (t + 1) := by
  rw [hnew]
  by_cases h : j' = colBlkN t
  · rw [if_pos h, hprev, ← h, visitSup_hit _ 0 ht (show t % 16 = j'.val by rw [h]; rfl)]
    rfl
  · rw [if_neg h, hprev, visitSup_miss _ 0 j'.isLt (fun e => h (Fin.ext e.symm))]

end Cols

section ColEnds
variable (S : Mat) (T : Lab)

theorem col_last_pos (j' : Fin 16) (c : Fin 8192) :
    visitSum (fun i' => colPartPos S T i' c) 0 j'.val (127 + 1) = posCol S T c := by
  rw [visitSum_final _ _ j'.isLt, zero_add, posCol_eq]
theorem col_last_neg (j' : Fin 16) (c : Fin 8192) :
    visitSum (fun i' => colPartNeg S T i' c) 0 j'.val (127 + 1) = negCol S T c := by
  rw [visitSum_final _ _ j'.isLt, zero_add, negCol_eq]

theorem col_last_flagP (j' : Fin 16) (c : Fin 8192) :
    visitSup (fun i' : Fin 8 => ind (∃ p : Fin 1024, apCol S T (rowIx i' p) c)) 0 j'.val (127 + 1) = ind (∃ r, apCol S T r c) := by
  rw [visitSup_final _ _ j'.isLt, zero_sup_ind]
  exact congrArg ind (propext (by simp only [Finset.mem_univ, true_and]; exact (exists_row (fun r => apCol S T r c)).symm))
theorem col_last_flagN (j' : Fin 16) (c : Fin 8192) :
    visitSup (fun i' : Fin 8 => ind (∃ p : Fin 1024, anCol S T (rowIx i' p) c)) 0 j'.val (127 + 1) = ind (∃ r, anCol S T r c) := by
  rw [visitSup_final _ _ j'.isLt, zero_sup_ind]
  exact congrArg ind (propext (by simp only [Finset.mem_univ, true_and]; exact (exists_row (fun r => anCol S T r c)).symm))

end ColEnds

/-! ## The finalisers' flag -/

/-- A flag is above one half exactly where it is set. -/
theorem half_lt_ind (P : Prop) : Ideal.ofBits .f32 0x3F000000#32 < ind P ↔ P :=
  lt_ind_iff Cert.Lits.half_nonneg Cert.Lits.half_lt_one P

/-- The flag of "both flags are above one half" is above one half exactly where both are set. -/
theorem half_lt_both (P Q : Prop) :
    Ideal.ofBits .f32 0x3F000000#32
        < ind (Ideal.ofBits .f32 0x3F000000#32 < ind P ∧ Ideal.ofBits .f32 0x3F000000#32 < ind Q) ↔ P ∧ Q := by
  rw [half_lt_ind, half_lt_ind, half_lt_ind]

end Cert.KernelIdeal.H1

end
-- ==== Proof.R1Tiles.lean ====
/-
  The second pass's tiles: at grid point t = 16 i + j the score window holds rows 1024 i … 1024 i + 1023 and columns
  512 j … 512 j + 511 of the score matrix, the row-label window holds labels 1024 i …, the column-label window labels
  512 j ….  A block's coordinate in its array is its index times its size plus the coordinate inside the block.
-/
import proofs.«170005_j69870527971928_1_alg».proof.Proof.R1Conds
import Idealize.ShloMosaic.Lib.Pipeline.Value
import Idealize.ShloMosaic.Lib.ValueIdx
import proofs.«170005_j69870527971928_1_alg».proof.Proof.Tile

noncomputable section

namespace Cert.KernelIdeal.H1

open Cert.KernelIdeal Cert.KernelIdeal.Gen Cert.Tile
open Idealize.ShloMosaic Idealize.ShloMosaic.TcCoe Idealize.ShloMosaic.ValueIdx
open Idealize.SL.Sem

variable {F : FTy → Type} [FloatOps F]

/-- The row block of grid point t. -/
def rowBlk (t : Fin cfg1.N) : Fin 8 := ⟨t.val / 16, by have h : t.val < 128 := lt_of_lt_of_eq t.isLt N_1; omega⟩
/-- The column block of grid point t. -/
def colBlk (t : Fin cfg1.N) : Fin 16 := ⟨t.val % 16, by omega⟩

@[simp] theorem rowBlk_val (t : Fin cfg1.N) : (rowBlk t).val = t.val / 16 := rfl
@[simp] theorem colBlk_val (t : Fin cfg1.N) : (colBlk t).val = t.val % 16 := rfl

/-- The windows' block indices at a grid point. -/
theorem idx1_0 : ∀ t : Fin cfg1.N, win1_0.index t (0 : Fin 2) = t.val / 16 ∧ win1_0.index t (1 : Fin 2) = t.val % 16 :=
  (by decide +kernel : ∀ t : Fin grid1.N, win1_0.index t (0 : Fin 2) = t.val / 16 ∧ win1_0.index t (1 : Fin 2) = t.val % 16)
theorem idx1_1 : ∀ t : Fin cfg1.N, win1_1.index t (0 : Fin 1) = t.val / 16 :=
  (by decide +kernel : ∀ t : Fin grid1.N, win1_1.index t (0 : Fin 1) = t.val / 16)
theorem idx1_2 : ∀ t : Fin cfg1.N, win1_2.index t (0 : Fin 1) = t.val % 16 :=
  (by decide +kernel : ∀ t : Fin grid1.N, win1_2.index t (0 : Fin 1) = t.val % 16)

/-- The slice offset of the column accumulators at a grid point. -/
theorem off1_eq : ∀ t : Fin cfg1.N, k1_off1 (grid1.coords t) = ![512 * (t.val % 16)] :=
  (by decide +kernel : ∀ t : Fin grid1.N, k1_off1 (grid1.coords t) = ![512 * (t.val % 16)])

variable (V : (c : Dev nD) → (b : Ref sig .tc) → Buf (Elt F) ((c : Thread nD τ).loc b))

/-- The score tile of point t at (p, q) is the score matrix at (1024 i + p, 512 j + q). -/
theorem tile0 (c : Dev nD) (t : Fin cfg1.N) (p : Fin 1024) (q : Fin 512) :
    (((cfg1.win 0).blk t).view.read (Elt F) (V c (Pipeline.arrRef spec1 0)) : Vec F S1024x512 .f32) (ix2 p q)
      = (V c main_arg0 : S8192x8192.Idx → Elt F .f32) (ix2 (rowIx (rowBlk t) p) (colIx (colBlk t) q)) := by
  have hi := idx1_0 t
  rw [View.read_apply]
  show V c main_arg0 _ = V c main_arg0 _
  congr 1
  funext a
  apply Fin.ext
  match a with
  | ⟨0, _⟩ => show win1_0.index t 0 * 1024 + 1 * p.val = 1024 * (t.val / 16) + p.val; rw [hi.1]; omega
  | ⟨1, _⟩ => show win1_0.index t 1 * 512 + 1 * q.val = 512 * (t.val % 16) + q.val; rw [hi.2]; omega

/-- The row labels of point t at p are the labels at 1024 i + p. -/
theorem tile1 (c : Dev nD) (t : Fin cfg1.N) (p : Fin 1024) :
    (((cfg1.win 1).blk t).view.read (Elt F) (V c (Pipeline.arrRef spec1 1)) : Vec F S1024 .i32) (ix1 p)
      = (V c main_arg1 : S8192.Idx → Elt F .i32) (ix1 (rowIx (rowBlk t) p)) := by
  have hi := idx1_1 t
  rw [View.read_apply]
  show V c main_arg1 _ = V c main_arg1 _
  congr 1
  funext a
  apply Fin.ext
  match a with
  | ⟨0, _⟩ => show win1_1.index t 0 * 1024 + 1 * p.val = 1024 * (t.val / 16) + p.val; rw [hi]; omega

/-- The column labels of point t at q are the labels at 512 j + q. -/
theorem tile2 (c : Dev nD) (t : Fin cfg1.N) (q : Fin 512) :
    (((cfg1.win 2).blk t).view.read (Elt F) (V c (Pipeline.arrRef spec1 2)) : Vec F S512 .i32) (ix1 q)
      = (V c main_arg1 : S8192.Idx → Elt F .i32) (ix1 (colIx (colBlk t) q)) := by
  have hi := idx1_2 t
  rw [View.read_apply]
  show V c main_arg1 _ = V c main_arg1 _
  congr 1
  funext a
  apply Fin.ext
  match a with
  | ⟨0, _⟩ => show win1_2.index t 0 * 512 + 1 * q.val = 512 * (t.val % 16) + q.val; rw [hi]; omega

theorem idx1_3 : ∀ t : Fin cfg1.N, win1_3.index t (0 : Fin 1) = t.val / 16 :=
  (by decide +kernel : ∀ t : Fin grid1.N, win1_3.index t (0 : Fin 1) = t.val / 16)
theorem idx1_4 : ∀ t : Fin cfg1.N, win1_4.index t (0 : Fin 1) = t.val / 16 :=
  (by decide +kernel : ∀ t : Fin grid1.N, win1_4.index t (0 : Fin 1) = t.val / 16)
theorem idx1_5 : ∀ t : Fin cfg1.N, win1_5.index t (0 : Fin 1) = t.val % 16 :=
  (by decide +kernel : ∀ t : Fin grid1.N, win1_5.index t (0 : Fin 1) = t.val % 16)
theorem idx1_6 : ∀ t : Fin cfg1.N, win1_6.index t (0 : Fin 1) = t.val % 16 :=
  (by decide +kernel : ∀ t : Fin grid1.N, win1_6.index t (0 : Fin 1) = t.val % 16)

/-- The row block of the first pass's first result at point t. -/
theorem tile3 (c : Dev nD) (t : Fin cfg1.N) (p : Fin 1024) :
    (((cfg1.win 3).blk t).view.read (Elt F) (V c (Pipeline.arrRef spec1 3)) : Vec F S1024 .f32) (ix1 p)
      = (V c main_v0_0 : S8192.Idx → Elt F .f32) (ix1 (rowIx (rowBlk t) p)) := by
  have hi := idx1_3 t
  rw [View.read_apply]
  show V c main_v0_0 _ = V c main_v0_0 _
  congr 1
  funext a
  apply Fin.ext
  match a with
  | ⟨0, _⟩ => show win1_3.index t 0 * 1024 + 1 * p.val = 1024 * (t.val / 16) + p.val; rw [hi]; omega

theorem tile4 (c : Dev nD) (t : Fin cfg1.N) (p : Fin 1024) :
    (((cfg1.win 4).blk t).view.read (Elt F) (V c (Pipeline.arrRef spec1 4)) : Vec F S1024 .f32) (ix1 p)
      = (V c main_v0_1 : S8192.Idx → Elt F .f32) (ix1 (rowIx (rowBlk t) p)) := by
  have hi := idx1_4 t
  rw [View.read_apply]
  show V c main_v0_1 _ = V c main_v0_1 _
  congr 1
  funext a
  apply Fin.ext
  match a with
  | ⟨0, _⟩ => show win1_4.index t 0 * 1024 + 1 * p.val = 1024 * (t.val / 16) + p.val; rw [hi]; omega

/-- The column slice of the first pass's third result at point t. -/
theorem tile5 (c : Dev nD) (t : Fin cfg1.N) (q : Fin 512) :
    (((cfg1.win 5).blk t).view.read (Elt F) (V c (Pipeline.arrRef spec1 5)) : Vec F S512 .f32) (ix1 q)
      = (V c main_v0_2 : S8192.Idx → Elt F .f32) (ix1 (colIx (colBlk t) q)) := by
  have hi := idx1_5 t
  rw [View.read_apply]
  show V c main_v0_2 _ = V c main_v0_2 _
  congr 1
  funext a
  apply Fin.ext
  match a with
  | ⟨0, _⟩ => show win1_5.index t 0 * 512 + 1 * q.val = 512 * (t.val % 16) + q.val; rw [hi]; omega

theorem tile6 (c : Dev nD) (t : Fin cfg1.N) (q : Fin 512) :
    (((cfg1.win 6).blk t).view.read (Elt F) (V c (Pipeline.arrRef spec1 6)) : Vec F S512 .f32) (ix1 q)
      = (V c main_v0_3 : S8192.Idx → Elt F .f32) (ix1 (colIx (colBlk t) q)) := by
  have hi := idx1_6 t
  rw [View.read_apply]
  show V c main_v0_3 _ = V c main_v0_3 _
  congr 1
  funext a
  apply Fin.ext
  match a with
  | ⟨0, _⟩ => show win1_6.index t 0 * 512 + 1 * q.val = 512 * (t.val % 16) + q.val; rw [hi]; omega

end Cert.KernelIdeal.H1

end
-- ==== Proof.R1Slice.lean ====
/-
  The second pass's column accumulators' slice arithmetic: at grid point t = 16 i + j the kernel loads and stores the 512 columns
  512 j … 512 j + 511 of an 8192 buffer.  A load through the slice reads the buffer at 512 j + q; a buffer after one
  store through the slice holds the payload on the slice's columns and what it held elsewhere; a buffer filled by a
  store of the whole shape and then a store through the slice holds the slice's payload on the slice and the whole
  payload elsewhere.
-/
import proofs.«170005_j69870527971928_1_alg».proof.Proof.R1Tiles
import Idealize.ShloMosaic.Lib.WritesUnit
import Idealize.ShloMosaic.Lib.Pipeline.Frame

noncomputable section

namespace Cert.KernelIdeal.H1

open Cert.KernelIdeal Cert.KernelIdeal.Gen Cert.Tile
open Idealize.ShloMosaic Idealize.ShloMosaic.TcCoe Idealize.ShloMosaic.ValueIdx
open Idealize.SL.Sem

variable {F : FTy → Type} [FloatOps F]

/-- A load through the slice of point t reads the buffer at column 512 j + q. -/
theorem ld_slice (xs : Vec F S8192 .f32) (t : Fin cfg1.N) (q : Fin 512) :
    (View.ld xs (rsl (grid1.coords t)) : Vec F S512 .f32) (ix1 q) = xs (ix1 (colIx (colBlk t) q)) := by
  show xs ((rsl (grid1.coords t)).idx (ix1 q)) = _
  refine congrArg xs (funext fun a => Fin.ext ?_)
  match a with
  | ⟨0, _⟩ =>
    show k1_off1 (grid1.coords t) 0 + 1 * q.val = 512 * (t.val % 16) + q.val
    rw [off1_eq t]
    show 512 * (t.val % 16) + 1 * q.val = _
    omega

/-- One store through the slice of point t into a whole buffer holding xs, read at column 512 j' + q: the payload where
    j' is the point's column block, xs elsewhere. -/
theorem read_slice_store (m : Memref sig .tc .vmem S8192 .f32) (hm : m.IsWhole) (xs : Vec F S8192 .f32) (t : Fin cfg1.N)
    (w : Vec F S512 .f32) (j' : Fin 16) (q : Fin 512) :
    m.view.read (Elt F) (m.view.writes (Elt F) (hm.unread xs)
        [(⟨rsl (grid1.coords t), w⟩ : View.Piece (Elt F) S8192 .f32)]) (ix1 (colIx j' q))
      = if j' = colBlk t then w (ix1 q) else xs (ix1 (colIx j' q)) := by
  by_cases h : j' = colBlk t
  · rw [if_pos h]
    refine View.read_writes_cons_unit_of_mem m.view (hm.unread xs) (k1_off1_inb (grid1.coords t)) w [] (ix1 (colIx j' q))
      (ix1 q) (off1_eq t) (fun a => ?_)
    match a with
    | ⟨0, _⟩ =>
      show 512 * j'.val + q.val = 512 * (t.val % 16) + q.val
      rw [h]; rfl
  · rw [if_neg h]
    have hne : j'.val ≠ t.val % 16 := fun e => h (Fin.ext e)
    rw [View.read_writes_cons_unit_of_not_mem m.view (hm.unread xs) (k1_off1_inb (grid1.coords t)) w []
      (ix1 (colIx j' q)) (off1_eq t) (0 : Fin 1) (by
        show 512 * j'.val + q.val < 512 * (t.val % 16) ∨ 512 * (t.val % 16) + 512 ≤ 512 * j'.val + q.val
        have := q.isLt; omega)]
    rw [View.writes_nil, hm.read_unread]

/-- A store of the whole shape and then one through the slice of point t, read at column 512 j' + q: the slice's
    payload where j' is the point's column block, the whole payload elsewhere. -/
theorem canon_slice_whole (t : Fin cfg1.N) (w : Vec F S512 .f32) (z : Vec F S8192 .f32) (j' : Fin 16) (q : Fin 512) :
    View.canon [(⟨rsl (grid1.coords t), w⟩ : View.Piece (Elt F) S8192 .f32), ⟨r8192, z⟩] (ix1 (colIx j' q))
      = if j' = colBlk t then w (ix1 q) else z (ix1 (colIx j' q)) := by
  have hz : View.canon [(⟨r8192, z⟩ : View.Piece (Elt F) S8192 .f32)] = z :=
    View.canon_cons_unit_zero (S := S8192) (funext fun a => by fin_cases a; rfl) _ z []
  by_cases h : j' = colBlk t
  · rw [if_pos h]
    have e : ix1 (colIx j' q) = (rsl (grid1.coords t)).emb (ix1 q) := funext fun a => Fin.ext (by
      match a with
      | ⟨0, _⟩ =>
        show 512 * j'.val + q.val = k1_off1 (grid1.coords t) 0 + 1 * q.val
        rw [off1_eq t, h]
        show 512 * (t.val % 16) + q.val = 512 * (t.val % 16) + 1 * q.val
        omega)
    rw [e]
    exact View.canon_cons_emb (rsl (grid1.coords t)) w _ (ix1 q)
  · rw [if_neg h]
    have hne : j'.val ≠ t.val % 16 := fun e => h (Fin.ext e)
    rw [View.canon_cons_of_not_mem _ _ (by
      rw [Rect.mem_set_unit]
      intro hall
      have := hall (0 : Fin 1)
      rw [off1_eq t] at this
      have h1 : 512 * (t.val % 16) ≤ 512 * j'.val + q.val ∧ 512 * j'.val + q.val < 512 * (t.val % 16) + 512 := this
      have := q.isLt; omega), hz]

end Cert.KernelIdeal.H1

end
-- ==== Proof.R1InvCore.lean ====
/-
  The second pass's accumulators from one grid point to the next, over VARIABLES: given the point's seven windows as the
  blocks (i, j) of the score matrix, the label vector and the first pass's four results, and the equations that say
  what the point leaves in the eight accumulators as payloads of those windows and of what the accumulators held, the
  closed forms carry from the point before to the point; and at the flushing points the finalisers give the guarded
  logarithms of the specification's sums and flags that test its existentials.
-/
import proofs.«170005_j69870527971928_1_alg».proof.Proof.R1Acc
import proofs.«170005_j69870527971928_1_alg».proof.Proof.R1Slice

noncomputable section

open scoped BigOperators

namespace Cert.KernelIdeal.H1

open Cert.KernelIdeal Cert.KernelIdeal.Gen Cert.KernelIdeal.Pay1 Cert.Tile Cert.Spec
open Idealize.ShloMosaic Idealize.ShloMosaic.TcCoe Idealize.ShloMosaic.ValueIdx
open Idealize.SL.Sem

section Core
variable (S : Mat) (T : Lab)

/-- Row r's flags of its informative positives, one per column block. -/
abbrev fP (r : Fin 8192) : Fin 16 → EReal := fun j => ind (∃ q : Fin 512, apRow S T r (colIx j q))
/-- Row r's flags of its informative negatives. -/
abbrev fN (r : Fin 8192) : Fin 16 → EReal := fun j => ind (∃ q : Fin 512, anRow S T r (colIx j q))
/-- Column c's flags of its informative positives, one per row block. -/
abbrev gP (c : Fin 8192) : Fin 8 → EReal := fun i' => ind (∃ p : Fin 1024, apCol S T (rowIx i' p) c)
/-- Column c's flags of its informative negatives. -/
abbrev gN (c : Fin 8192) : Fin 8 → EReal := fun i' => ind (∃ p : Fin 1024, anCol S T (rowIx i' p) c)

/-- The closed forms of the four row accumulators after point t. -/
structure RowInv (t : Fin cfg1.N) (s0 s1 s2 s3 : Vec Ideal S1024 .f32) : Prop where
  r0 : ∀ p : Fin 1024, s0 (ix1 p) = accSum (rowPartPos S T (rowIx (rowBlk t) p)) 0 (t.val % 16 + 1)
  r1 : ∀ p : Fin 1024, s1 (ix1 p) = accSum (rowPartNeg S T (rowIx (rowBlk t) p)) 0 (t.val % 16 + 1)
  r2 : ∀ p : Fin 1024, s2 (ix1 p) = accSup (fP S T (rowIx (rowBlk t) p)) 0 (t.val % 16 + 1)
  r3 : ∀ p : Fin 1024, s3 (ix1 p) = accSup (fN S T (rowIx (rowBlk t) p)) 0 (t.val % 16 + 1)

/-- The closed forms of the four column accumulators after n points. -/
structure ColInv (n : ℕ) (s4 s5 s6 s7 : Vec Ideal S8192 .f32) : Prop where
  c4 : ∀ (j' : Fin 16) (q : Fin 512), s4 (ix1 (colIx j' q)) = visitSum (fun i' => colPartPos S T i' (colIx j' q)) 0 j'.val n
  c5 : ∀ (j' : Fin 16) (q : Fin 512), s5 (ix1 (colIx j' q)) = visitSum (fun i' => colPartNeg S T i' (colIx j' q)) 0 j'.val n
  c6 : ∀ (j' : Fin 16) (q : Fin 512), s6 (ix1 (colIx j' q)) = visitSup (gP S T (colIx j' q)) 0 j'.val n
  c7 : ∀ (j' : Fin 16) (q : Fin 512), s7 (ix1 (colIx j' q)) = visitSup (gN S T (colIx j' q)) 0 j'.val n

/-- Before the first point the column accumulators' reset values are the closed forms at 0 points. -/
theorem colInv_zero : ColInv S T 0 (k1_pay11 (F := Ideal)) (k1_pay12 (F := Ideal)) (k1_pay13 (F := Ideal)) (k1_pay14 (F := Ideal)) := by
  refine ⟨fun j' q => ?_, fun j' q => ?_, fun j' q => ?_, fun j' q => ?_⟩
  · rw [visitSum_zero]; simp only [pay11_eq]
  · rw [visitSum_zero]; simp only [pay12_eq]
  · rw [visitSup_zero]; simp only [pay13_eq]
  · rw [visitSup_zero]; simp only [pay14_eq]

variable (t : Fin cfg1.N)
  (x0 : Vec Ideal S1024x512 .f32) (x1 : Vec Ideal S1024 .i32) (x2 : Vec Ideal S512 .i32)
  (x3 x4 : Vec Ideal S1024 .f32) (x5 x6 : Vec Ideal S512 .f32)
  (hx0 : ∀ p q, x0 (ix2 p q) = S (ix2 (rowIx (rowBlk t) p) (colIx (colBlk t) q)))
  (hx1 : ∀ p, x1 (ix1 p) = T (ix1 (rowIx (rowBlk t) p)))
  (hx2 : ∀ q, x2 (ix1 q) = T (ix1 (colIx (colBlk t) q)))
  (hx3 : ∀ p, x3 (ix1 p) = maxAnRow S T (rowIx (rowBlk t) p))
  (hx4 : ∀ p, x4 (ix1 p) = minApRow S T (rowIx (rowBlk t) p))
  (hx5 : ∀ q, x5 (ix1 q) = maxAnCol S T (colIx (colBlk t) q))
  (hx6 : ∀ q, x6 (ix1 q) = minApCol S T (colIx (colBlk t) q))

include hx0 hx1 hx2 hx3 hx4 in
/-- Rows at the first tile of a row block. -/
theorem rows1_reset (h0 : t.val % 16 = 0) (s0 s1 s2 s3 : Vec Ideal S1024 .f32)
    (e0 : s0 = k1_pay33 (F := Ideal) (k1_pay29 (F := Ideal) x0 (k1_pay23 (F := Ideal) x0 x1 x2 x3)) (k1_pay15 (F := Ideal)))
    (e1 : s1 = k1_pay34 (F := Ideal) (k1_pay30 (F := Ideal) x0 (k1_pay24 (F := Ideal) x0 x1 x2 x4)) (k1_pay16 (F := Ideal)))
    (e2 : s2 = k1_pay35 (F := Ideal) (k1_pay31 (F := Ideal) (k1_pay23 (F := Ideal) x0 x1 x2 x3)) (k1_pay17 (F := Ideal)))
    (e3 : s3 = k1_pay36 (F := Ideal) (k1_pay32 (F := Ideal) (k1_pay24 (F := Ideal) x0 x1 x2 x4)) (k1_pay18 (F := Ideal))) :
    RowInv S T t s0 s1 s2 s3 := by
  refine ⟨fun p => ?_, fun p => ?_, fun p => ?_, fun p => ?_⟩
  · rw [e0, rowStepPos S T (rowBlk t) (colBlk t) x0 x1 x2 x3 hx0 hx1 hx2 hx3 _ p]
    simp only [pay15_eq]
    exact acc_first_sum (rowPartPos S T (rowIx (rowBlk t) p)) t.val h0
  · rw [e1, rowStepNeg S T (rowBlk t) (colBlk t) x0 x1 x2 x4 hx0 hx1 hx2 hx4 _ p]
    simp only [pay16_eq]
    exact acc_first_sum (rowPartNeg S T (rowIx (rowBlk t) p)) t.val h0
  · rw [e2, rowStepFlagP S T (rowBlk t) (colBlk t) x0 x1 x2 x3 hx0 hx1 hx2 hx3 _ p]
    simp only [pay17_eq]
    exact acc_first_flag (fP S T (rowIx (rowBlk t) p)) t.val h0
  · rw [e3, rowStepFlagN S T (rowBlk t) (colBlk t) x0 x1 x2 x4 hx0 hx1 hx2 hx4 _ p]
    simp only [pay18_eq]
    exact acc_first_flag (fN S T (rowIx (rowBlk t) p)) t.val h0

include hx0 hx1 hx2 hx3 hx4 in
/-- Rows at a later tile, from the point before. -/
theorem rows1_next (h0 : t.val % 16 ≠ 0) (hlt : t.val - 1 < cfg1.N) (s0 s1 s2 s3 p0 p1 p2 p3 : Vec Ideal S1024 .f32)
    (e0 : s0 = k1_pay33 (F := Ideal) (k1_pay29 (F := Ideal) x0 (k1_pay23 (F := Ideal) x0 x1 x2 x3)) p0)
    (e1 : s1 = k1_pay34 (F := Ideal) (k1_pay30 (F := Ideal) x0 (k1_pay24 (F := Ideal) x0 x1 x2 x4)) p1)
    (e2 : s2 = k1_pay35 (F := Ideal) (k1_pay31 (F := Ideal) (k1_pay23 (F := Ideal) x0 x1 x2 x3)) p2)
    (e3 : s3 = k1_pay36 (F := Ideal) (k1_pay32 (F := Ideal) (k1_pay24 (F := Ideal) x0 x1 x2 x4)) p3)
    (hp : RowInv S T ⟨t.val - 1, hlt⟩ p0 p1 p2 p3) :
    RowInv S T t s0 s1 s2 s3 := by
  have hb : rowBlk (⟨t.val - 1, hlt⟩ : Fin cfg1.N) = rowBlk t := Fin.ext (by show (t.val - 1) / 16 = t.val / 16; omega)
  refine ⟨fun p => ?_, fun p => ?_, fun p => ?_, fun p => ?_⟩
  · rw [e0, rowStepPos S T (rowBlk t) (colBlk t) x0 x1 x2 x3 hx0 hx1 hx2 hx3 _ p, hp.r0 p, hb]
    exact acc_next_sum (rowPartPos S T (rowIx (rowBlk t) p)) t.val h0
  · rw [e1, rowStepNeg S T (rowBlk t) (colBlk t) x0 x1 x2 x4 hx0 hx1 hx2 hx4 _ p, hp.r1 p, hb]
    exact acc_next_sum (rowPartNeg S T (rowIx (rowBlk t) p)) t.val h0
  · rw [e2, rowStepFlagP S T (rowBlk t) (colBlk t) x0 x1 x2 x3 hx0 hx1 hx2 hx3 _ p, hp.r2 p, hb]
    exact acc_next_flag (fP S T (rowIx (rowBlk t) p)) t.val h0
  · rw [e3, rowStepFlagN S T (rowBlk t) (colBlk t) x0 x1 x2 x4 hx0 hx1 hx2 hx4 _ p, hp.r3 p, hb]
    exact acc_next_flag (fN S T (rowIx (rowBlk t) p)) t.val h0

include hx0 hx1 hx2 hx5 hx6 in
/-- Columns at any point: each accumulator is what it held with the point's slice updated. -/
theorem cols1_next (m4 m5 m6 m7 : Memref sig .tc .vmem S8192 .f32) (h4 : m4.IsWhole) (h5 : m5.IsWhole) (h6 : m6.IsWhole)
    (h7 : m7.IsWhole) (s4 s5 s6 s7 p4 p5 p6 p7 : Vec Ideal S8192 .f32)
    (e4 : s4 = m4.view.read (Elt Ideal) (m4.view.writes (Elt Ideal) (h4.unread p4) [(⟨(rsl (grid1.coords t)), k1_pay1 (F := Ideal) (k1_pay37 (F := Ideal) (k1_pay25 (F := Ideal) x0 (k1_pay19 (F := Ideal) x1 x2) (k1_pay21 (F := Ideal) x5) (Ideal.ofBits .f32 0x3E4CCCCD#32)) (k1_pay27 (F := Ideal) x0)) (View.ld p4 (rsl (grid1.coords t)))⟩ : View.Piece (Elt Ideal) S8192 .f32)]))
    (e5 : s5 = m5.view.read (Elt Ideal) (m5.view.writes (Elt Ideal) (h5.unread p5) [(⟨(rsl (grid1.coords t)), k1_pay2 (F := Ideal) (k1_pay38 (F := Ideal) (k1_pay26 (F := Ideal) x0 (k1_pay20 (F := Ideal) x1 x2) (k1_pay22 (F := Ideal) x6)) (k1_pay28 (F := Ideal) x0)) (View.ld p5 (rsl (grid1.coords t)))⟩ : View.Piece (Elt Ideal) S8192 .f32)]))
    (e6 : s6 = m6.view.read (Elt Ideal) (m6.view.writes (Elt Ideal) (h6.unread p6) [(⟨(rsl (grid1.coords t)), k1_pay3 (F := Ideal) (k1_pay39 (F := Ideal) (k1_pay25 (F := Ideal) x0 (k1_pay19 (F := Ideal) x1 x2) (k1_pay21 (F := Ideal) x5) (Ideal.ofBits .f32 0x3E4CCCCD#32))) (View.ld p6 (rsl (grid1.coords t)))⟩ : View.Piece (Elt Ideal) S8192 .f32)]))
    (e7 : s7 = m7.view.read (Elt Ideal) (m7.view.writes (Elt Ideal) (h7.unread p7) [(⟨(rsl (grid1.coords t)), k1_pay4 (F := Ideal) (k1_pay40 (F := Ideal) (k1_pay26 (F := Ideal) x0 (k1_pay20 (F := Ideal) x1 x2) (k1_pay22 (F := Ideal) x6))) (View.ld p7 (rsl (grid1.coords t)))⟩ : View.Piece (Elt Ideal) S8192 .f32)]))
    (hp : ColInv S T t.val p4 p5 p6 p7) :
    ColInv S T (t.val + 1) s4 s5 s6 s7 := by
  have hN : t.val < 128 := lt_of_lt_of_eq t.isLt N_1
  refine ⟨fun j' q => ?_, fun j' q => ?_, fun j' q => ?_, fun j' q => ?_⟩
  · refine col_step_sum (fun j' q i' => colPartPos S T i' (colIx j' q)) t.val hN (fun j' q => p4 (ix1 (colIx j' q)))
      (fun j' q => s4 (ix1 (colIx j' q))) (fun j' q => ?_) (fun j' q => hp.c4 j' q) j' q
    show s4 (ix1 (colIx j' q)) = if j' = colBlk t then p4 (ix1 (colIx (colBlk t) q)) + colPartPos S T (rowBlk t) (colIx (colBlk t) q) else p4 (ix1 (colIx j' q))
    rw [e4, read_slice_store]
    by_cases h : j' = colBlk t
    · rw [if_pos h, if_pos h, colStepPos S T (rowBlk t) (colBlk t) x0 x1 x2 x5 hx0 hx1 hx2 hx5 _ q, ld_slice]
    · rw [if_neg h, if_neg h]
  · refine col_step_sum (fun j' q i' => colPartNeg S T i' (colIx j' q)) t.val hN (fun j' q => p5 (ix1 (colIx j' q)))
      (fun j' q => s5 (ix1 (colIx j' q))) (fun j' q => ?_) (fun j' q => hp.c5 j' q) j' q
    show s5 (ix1 (colIx j' q)) = if j' = colBlk t then p5 (ix1 (colIx (colBlk t) q)) + colPartNeg S T (rowBlk t) (colIx (colBlk t) q) else p5 (ix1 (colIx j' q))
    rw [e5, read_slice_store]
    by_cases h : j' = colBlk t
    · rw [if_pos h, if_pos h, colStepNeg S T (rowBlk t) (colBlk t) x0 x1 x2 x6 hx0 hx1 hx2 hx6 _ q, ld_slice]
    · rw [if_neg h, if_neg h]
  · refine col_step_flag (fun j' q => gP S T (colIx j' q)) t.val hN (fun j' q => p6 (ix1 (colIx j' q)))
      (fun j' q => s6 (ix1 (colIx j' q))) (fun j' q => ?_) (fun j' q => hp.c6 j' q) j' q
    show s6 (ix1 (colIx j' q)) = if j' = colBlk t then max (p6 (ix1 (colIx (colBlk t) q))) (gP S T (colIx (colBlk t) q) (rowBlk t)) else p6 (ix1 (colIx j' q))
    rw [e6, read_slice_store]
    by_cases h : j' = colBlk t
    · rw [if_pos h, if_pos h, colStepFlagP S T (rowBlk t) (colBlk t) x0 x1 x2 x5 hx0 hx1 hx2 hx5 _ q, ld_slice]
    · rw [if_neg h, if_neg h]
  · refine col_step_flag (fun j' q => gN S T (colIx j' q)) t.val hN (fun j' q => p7 (ix1 (colIx j' q)))
      (fun j' q => s7 (ix1 (colIx j' q))) (fun j' q => ?_) (fun j' q => hp.c7 j' q) j' q
    show s7 (ix1 (colIx j' q)) = if j' = colBlk t then max (p7 (ix1 (colIx (colBlk t) q))) (gN S T (colIx (colBlk t) q) (rowBlk t)) else p7 (ix1 (colIx j' q))
    rw [e7, read_slice_store]
    by_cases h : j' = colBlk t
    · rw [if_pos h, if_pos h, colStepFlagN S T (rowBlk t) (colBlk t) x0 x1 x2 x6 hx0 hx1 hx2 hx6 _ q, ld_slice]
    · rw [if_neg h, if_neg h]

include hx0 hx1 hx2 hx5 hx6 in
/-- Columns at the first point: reset, then the point's slice updated. -/
theorem cols1_first (ht0 : t.val = 0) (s4 s5 s6 s7 : Vec Ideal S8192 .f32)
    (e4 : s4 = View.canon [(⟨(rsl (grid1.coords t)), k1_pay1 (F := Ideal) (k1_pay37 (F := Ideal) (k1_pay25 (F := Ideal) x0 (k1_pay19 (F := Ideal) x1 x2) (k1_pay21 (F := Ideal) x5) (Ideal.ofBits .f32 0x3E4CCCCD#32)) (k1_pay27 (F := Ideal) x0)) (View.ld (k1_pay11 (F := Ideal)) (rsl (grid1.coords t)))⟩ : View.Piece (Elt Ideal) S8192 .f32), ⟨r8192, k1_pay11 (F := Ideal)⟩])
    (e5 : s5 = View.canon [(⟨(rsl (grid1.coords t)), k1_pay2 (F := Ideal) (k1_pay38 (F := Ideal) (k1_pay26 (F := Ideal) x0 (k1_pay20 (F := Ideal) x1 x2) (k1_pay22 (F := Ideal) x6)) (k1_pay28 (F := Ideal) x0)) (View.ld (k1_pay12 (F := Ideal)) (rsl (grid1.coords t)))⟩ : View.Piece (Elt Ideal) S8192 .f32), ⟨r8192, k1_pay12 (F := Ideal)⟩])
    (e6 : s6 = View.canon [(⟨(rsl (grid1.coords t)), k1_pay3 (F := Ideal) (k1_pay39 (F := Ideal) (k1_pay25 (F := Ideal) x0 (k1_pay19 (F := Ideal) x1 x2) (k1_pay21 (F := Ideal) x5) (Ideal.ofBits .f32 0x3E4CCCCD#32))) (View.ld (k1_pay13 (F := Ideal)) (rsl (grid1.coords t)))⟩ : View.Piece (Elt Ideal) S8192 .f32), ⟨r8192, k1_pay13 (F := Ideal)⟩])
    (e7 : s7 = View.canon [(⟨(rsl (grid1.coords t)), k1_pay4 (F := Ideal) (k1_pay40 (F := Ideal) (k1_pay26 (F := Ideal) x0 (k1_pay20 (F := Ideal) x1 x2) (k1_pay22 (F := Ideal) x6))) (View.ld (k1_pay14 (F := Ideal)) (rsl (grid1.coords t)))⟩ : View.Piece (Elt Ideal) S8192 .f32), ⟨r8192, k1_pay14 (F := Ideal)⟩]) :
    ColInv S T (t.val + 1) s4 s5 s6 s7 := by
  have hN : t.val < 128 := lt_of_lt_of_eq t.isLt N_1
  have hz := colInv_zero S T
  rw [← ht0] at hz
  refine ⟨fun j' q => ?_, fun j' q => ?_, fun j' q => ?_, fun j' q => ?_⟩
  · refine col_step_sum (fun j' q i' => colPartPos S T i' (colIx j' q)) t.val hN (fun j' q => (k1_pay11 (F := Ideal)) (ix1 (colIx j' q)))
      (fun j' q => s4 (ix1 (colIx j' q))) (fun j' q => ?_) (fun j' q => hz.c4 j' q) j' q
    show s4 (ix1 (colIx j' q)) = if j' = colBlk t then (k1_pay11 (F := Ideal)) (ix1 (colIx (colBlk t) q)) + colPartPos S T (rowBlk t) (colIx (colBlk t) q) else (k1_pay11 (F := Ideal)) (ix1 (colIx j' q))
    rw [e4]
    refine (canon_slice_whole (F := Ideal) t _ _ j' q).trans ?_
    by_cases h : j' = colBlk t
    · rw [if_pos h, if_pos h, colStepPos S T (rowBlk t) (colBlk t) x0 x1 x2 x5 hx0 hx1 hx2 hx5 _ q]
      exact congrArg (· + _) (ld_slice (F := Ideal) (k1_pay11 (F := Ideal)) t q)
    · rw [if_neg h, if_neg h]
  · refine col_step_sum (fun j' q i' => colPartNeg S T i' (colIx j' q)) t.val hN (fun j' q => (k1_pay12 (F := Ideal)) (ix1 (colIx j' q)))
      (fun j' q => s5 (ix1 (colIx j' q))) (fun j' q => ?_) (fun j' q => hz.c5 j' q) j' q
    show s5 (ix1 (colIx j' q)) = if j' = colBlk t then (k1_pay12 (F := Ideal)) (ix1 (colIx (colBlk t) q)) + colPartNeg S T (rowBlk t) (colIx (colBlk t) q) else (k1_pay12 (F := Ideal)) (ix1 (colIx j' q))
    rw [e5]
    refine (canon_slice_whole (F := Ideal) t _ _ j' q).trans ?_
    by_cases h : j' = colBlk t
    · rw [if_pos h, if_pos h, colStepNeg S T (rowBlk t) (colBlk t) x0 x1 x2 x6 hx0 hx1 hx2 hx6 _ q]
      exact congrArg (· + _) (ld_slice (F := Ideal) (k1_pay12 (F := Ideal)) t q)
    · rw [if_neg h, if_neg h]
  · refine col_step_flag (fun j' q => gP S T (colIx j' q)) t.val hN (fun j' q => (k1_pay13 (F := Ideal)) (ix1 (colIx j' q)))
      (fun j' q => s6 (ix1 (colIx j' q))) (fun j' q => ?_) (fun j' q => hz.c6 j' q) j' q
    show s6 (ix1 (colIx j' q)) = if j' = colBlk t then max ((k1_pay13 (F := Ideal)) (ix1 (colIx (colBlk t) q))) (gP S T (colIx (colBlk t) q) (rowBlk t)) else (k1_pay13 (F := Ideal)) (ix1 (colIx j' q))
    rw [e6]
    refine (canon_slice_whole (F := Ideal) t _ _ j' q).trans ?_
    by_cases h : j' = colBlk t
    · rw [if_pos h, if_pos h, colStepFlagP S T (rowBlk t) (colBlk t) x0 x1 x2 x5 hx0 hx1 hx2 hx5 _ q]
      exact congrArg (fun v => max v _) (ld_slice (F := Ideal) (k1_pay13 (F := Ideal)) t q)
    · rw [if_neg h, if_neg h]
  · refine col_step_flag (fun j' q => gN S T (colIx j' q)) t.val hN (fun j' q => (k1_pay14 (F := Ideal)) (ix1 (colIx j' q)))
      (fun j' q => s7 (ix1 (colIx j' q))) (fun j' q => ?_) (fun j' q => hz.c7 j' q) j' q
    show s7 (ix1 (colIx j' q)) = if j' = colBlk t then max ((k1_pay14 (F := Ideal)) (ix1 (colIx (colBlk t) q))) (gN S T (colIx (colBlk t) q) (rowBlk t)) else (k1_pay14 (F := Ideal)) (ix1 (colIx j' q))
    rw [e7]
    refine (canon_slice_whole (F := Ideal) t _ _ j' q).trans ?_
    by_cases h : j' = colBlk t
    · rw [if_pos h, if_pos h, colStepFlagN S T (rowBlk t) (colBlk t) x0 x1 x2 x6 hx0 hx1 hx2 hx6 _ q]
      exact congrArg (fun v => max v _) (ld_slice (F := Ideal) (k1_pay14 (F := Ideal)) t q)
    · rw [if_neg h, if_neg h]

omit t x0 x1 x2 x3 x4 x5 x6 in
/-- At the last tile of a row block the finalisers give the row's two guarded logarithms and its validity flag. -/
theorem row_final (t : Fin cfg1.N) (h15 : t.val % 16 = 15) (s0 s1 s2 s3 : Vec Ideal S1024 .f32) (hr : RowInv S T t s0 s1 s2 s3)
    (p : Fin 1024) :
    k1_pay5 (F := Ideal) s0 (ix1 p) = safeLog (posRow S T (rowIx (rowBlk t) p))
      ∧ k1_pay6 (F := Ideal) s1 (ix1 p) = safeLog (negRow S T (rowIx (rowBlk t) p))
      ∧ (Ideal.ofBits .f32 0x3F000000#32 < k1_pay7 (F := Ideal) s2 s3 (ix1 p)
          ↔ (∃ c', apRow S T (rowIx (rowBlk t) p) c') ∧ ∃ c', anRow S T (rowIx (rowBlk t) p) c') := by
  refine ⟨?_, ?_, ?_⟩
  · rw [pay5_apply, hr.r0 p, h15, row_last_pos]
  · rw [pay6_apply, hr.r1 p, h15, row_last_neg]
  · rw [pay7_apply, hr.r2 p, hr.r3 p, h15, row_last_flagP, row_last_flagN]
    exact half_lt_both _ _

omit t x0 x1 x2 x3 x4 x5 x6 in
/-- After the last point the finalisers give the column's two guarded logarithms and its validity flag. -/
theorem col_final (s4 s5 s6 s7 : Vec Ideal S8192 .f32) (hc : ColInv S T (127 + 1) s4 s5 s6 s7) (j' : Fin 16) (q : Fin 512) :
    k1_pay8 (F := Ideal) s4 (ix1 (colIx j' q)) = safeLog (posCol S T (colIx j' q))
      ∧ k1_pay9 (F := Ideal) s5 (ix1 (colIx j' q)) = safeLog (negCol S T (colIx j' q))
      ∧ (Ideal.ofBits .f32 0x3F000000#32 < k1_pay10 (F := Ideal) s6 s7 (ix1 (colIx j' q))
          ↔ (∃ r, apCol S T r (colIx j' q)) ∧ ∃ r, anCol S T r (colIx j' q)) := by
  refine ⟨?_, ?_, ?_⟩
  · rw [pay8_apply, hc.c4 j' q, col_last_pos]
  · rw [pay9_apply, hc.c5 j' q, col_last_neg]
  · rw [pay10_apply, hc.c6 j' q, hc.c7 j' q, col_last_flagP, col_last_flagN]
    exact half_lt_both _ _

end Core

end Cert.KernelIdeal.H1

end
-- ==== Proof.R1Ind.lean ====
/-
  The second pass's eight accumulators after every grid point, by induction on the point, from three families of
  equations: what the first point leaves, what the first tile of a later row block leaves, and what every other point
  leaves — each as payloads of the point's windows and of what the accumulators held after the point before.
-/
import proofs.«170005_j69870527971928_1_alg».proof.Proof.R1InvCore

noncomputable section

open scoped BigOperators

namespace Cert.KernelIdeal.H1

open Cert.KernelIdeal Cert.KernelIdeal.Gen Cert.KernelIdeal.Pay1 Cert.Tile Cert.Spec
open Idealize.ShloMosaic Idealize.ShloMosaic.TcCoe Idealize.ShloMosaic.ValueIdx
open Idealize.SL.Sem

section Ind
variable (S : Mat) (T : Lab)
  (s0 s1 s2 s3 : Fin cfg1.N → Vec Ideal S1024 .f32) (s4 s5 s6 s7 : Fin cfg1.N → Vec Ideal S8192 .f32)
  (X0 : Fin cfg1.N → Vec Ideal S1024x512 .f32) (X1 : Fin cfg1.N → Vec Ideal S1024 .i32) (X2 : Fin cfg1.N → Vec Ideal S512 .i32)
  (X3 X4 : Fin cfg1.N → Vec Ideal S1024 .f32) (X5 X6 : Fin cfg1.N → Vec Ideal S512 .f32)
  (hX0 : ∀ t p q, X0 t (ix2 p q) = S (ix2 (rowIx (rowBlk t) p) (colIx (colBlk t) q)))
  (hX1 : ∀ t p, X1 t (ix1 p) = T (ix1 (rowIx (rowBlk t) p)))
  (hX2 : ∀ t q, X2 t (ix1 q) = T (ix1 (colIx (colBlk t) q)))
  (hX3 : ∀ t p, X3 t (ix1 p) = maxAnRow S T (rowIx (rowBlk t) p))
  (hX4 : ∀ t p, X4 t (ix1 p) = minApRow S T (rowIx (rowBlk t) p))
  (hX5 : ∀ t q, X5 t (ix1 q) = maxAnCol S T (colIx (colBlk t) q))
  (hX6 : ∀ t q, X6 t (ix1 q) = minApCol S T (colIx (colBlk t) q))
  (m4 m5 m6 m7 : Memref sig .tc .vmem S8192 .f32) (h4 : m4.IsWhole) (h5 : m5.IsWhole) (h6 : m6.IsWhole) (h7 : m7.IsWhole)
  (eRowsReset : ∀ t : Fin cfg1.N, t.val % 16 = 0 →
      s0 t = k1_pay33 (F := Ideal) (k1_pay29 (F := Ideal) (X0 t) (k1_pay23 (F := Ideal) (X0 t) (X1 t) (X2 t) (X3 t))) (k1_pay15 (F := Ideal))
      ∧ s1 t = k1_pay34 (F := Ideal) (k1_pay30 (F := Ideal) (X0 t) (k1_pay24 (F := Ideal) (X0 t) (X1 t) (X2 t) (X4 t))) (k1_pay16 (F := Ideal))
      ∧ s2 t = k1_pay35 (F := Ideal) (k1_pay31 (F := Ideal) (k1_pay23 (F := Ideal) (X0 t) (X1 t) (X2 t) (X3 t))) (k1_pay17 (F := Ideal))
      ∧ s3 t = k1_pay36 (F := Ideal) (k1_pay32 (F := Ideal) (k1_pay24 (F := Ideal) (X0 t) (X1 t) (X2 t) (X4 t))) (k1_pay18 (F := Ideal)))
  (eRowsNext : ∀ t : Fin cfg1.N, t.val % 16 ≠ 0 →
      s0 t = k1_pay33 (F := Ideal) (k1_pay29 (F := Ideal) (X0 t) (k1_pay23 (F := Ideal) (X0 t) (X1 t) (X2 t) (X3 t))) (s0 ⟨t.val - 1, lt_of_le_of_lt (Nat.sub_le _ _) t.isLt⟩)
      ∧ s1 t = k1_pay34 (F := Ideal) (k1_pay30 (F := Ideal) (X0 t) (k1_pay24 (F := Ideal) (X0 t) (X1 t) (X2 t) (X4 t))) (s1 ⟨t.val - 1, lt_of_le_of_lt (Nat.sub_le _ _) t.isLt⟩)
      ∧ s2 t = k1_pay35 (F := Ideal) (k1_pay31 (F := Ideal) (k1_pay23 (F := Ideal) (X0 t) (X1 t) (X2 t) (X3 t))) (s2 ⟨t.val - 1, lt_of_le_of_lt (Nat.sub_le _ _) t.isLt⟩)
      ∧ s3 t = k1_pay36 (F := Ideal) (k1_pay32 (F := Ideal) (k1_pay24 (F := Ideal) (X0 t) (X1 t) (X2 t) (X4 t))) (s3 ⟨t.val - 1, lt_of_le_of_lt (Nat.sub_le _ _) t.isLt⟩))
  (eColsFirst : ∀ t : Fin cfg1.N, t.val = 0 →
      s4 t = View.canon [(⟨(rsl (grid1.coords t)), k1_pay1 (F := Ideal) (k1_pay37 (F := Ideal) (k1_pay25 (F := Ideal) (X0 t) (k1_pay19 (F := Ideal) (X1 t) (X2 t)) (k1_pay21 (F := Ideal) (X5 t)) (Ideal.ofBits .f32 0x3E4CCCCD#32)) (k1_pay27 (F := Ideal) (X0 t))) (View.ld (k1_pay11 (F := Ideal)) (rsl (grid1.coords t)))⟩ : View.Piece (Elt Ideal) S8192 .f32), ⟨r8192, k1_pay11 (F := Ideal)⟩]
      ∧ s5 t = View.canon [(⟨(rsl (grid1.coords t)), k1_pay2 (F := Ideal) (k1_pay38 (F := Ideal) (k1_pay26 (F := Ideal) (X0 t) (k1_pay20 (F := Ideal) (X1 t) (X2 t)) (k1_pay22 (F := Ideal) (X6 t))) (k1_pay28 (F := Ideal) (X0 t))) (View.ld (k1_pay12 (F := Ideal)) (rsl (grid1.coords t)))⟩ : View.Piece (Elt Ideal) S8192 .f32), ⟨r8192, k1_pay12 (F := Ideal)⟩]
      ∧ s6 t = View.canon [(⟨(rsl (grid1.coords t)), k1_pay3 (F := Ideal) (k1_pay39 (F := Ideal) (k1_pay25 (F := Ideal) (X0 t) (k1_pay19 (F := Ideal) (X1 t) (X2 t)) (k1_pay21 (F := Ideal) (X5 t)) (Ideal.ofBits .f32 0x3E4CCCCD#32))) (View.ld (k1_pay13 (F := Ideal)) (rsl (grid1.coords t)))⟩ : View.Piece (Elt Ideal) S8192 .f32), ⟨r8192, k1_pay13 (F := Ideal)⟩]
      ∧ s7 t = View.canon [(⟨(rsl (grid1.coords t)), k1_pay4 (F := Ideal) (k1_pay40 (F := Ideal) (k1_pay26 (F := Ideal) (X0 t) (k1_pay20 (F := Ideal) (X1 t) (X2 t)) (k1_pay22 (F := Ideal) (X6 t)))) (View.ld (k1_pay14 (F := Ideal)) (rsl (grid1.coords t)))⟩ : View.Piece (Elt Ideal) S8192 .f32), ⟨r8192, k1_pay14 (F := Ideal)⟩])
  (eColsNext : ∀ t : Fin cfg1.N, t.val ≠ 0 →
      s4 t = m4.view.read (Elt Ideal) (m4.view.writes (Elt Ideal) (h4.unread (s4 ⟨t.val - 1, lt_of_le_of_lt (Nat.sub_le _ _) t.isLt⟩)) [(⟨(rsl (grid1.coords t)), k1_pay1 (F := Ideal) (k1_pay37 (F := Ideal) (k1_pay25 (F := Ideal) (X0 t) (k1_pay19 (F := Ideal) (X1 t) (X2 t)) (k1_pay21 (F := Ideal) (X5 t)) (Ideal.ofBits .f32 0x3E4CCCCD#32)) (k1_pay27 (F := Ideal) (X0 t))) (View.ld (s4 ⟨t.val - 1, lt_of_le_of_lt (Nat.sub_le _ _) t.isLt⟩) (rsl (grid1.coords t)))⟩ : View.Piece (Elt Ideal) S8192 .f32)])
      ∧ s5 t = m5.view.read (Elt Ideal) (m5.view.writes (Elt Ideal) (h5.unread (s5 ⟨t.val - 1, lt_of_le_of_lt (Nat.sub_le _ _) t.isLt⟩)) [(⟨(rsl (grid1.coords t)), k1_pay2 (F := Ideal) (k1_pay38 (F := Ideal) (k1_pay26 (F := Ideal) (X0 t) (k1_pay20 (F := Ideal) (X1 t) (X2 t)) (k1_pay22 (F := Ideal) (X6 t))) (k1_pay28 (F := Ideal) (X0 t))) (View.ld (s5 ⟨t.val - 1, lt_of_le_of_lt (Nat.sub_le _ _) t.isLt⟩) (rsl (grid1.coords t)))⟩ : View.Piece (Elt Ideal) S8192 .f32)])
      ∧ s6 t = m6.view.read (Elt Ideal) (m6.view.writes (Elt Ideal) (h6.unread (s6 ⟨t.val - 1, lt_of_le_of_lt (Nat.sub_le _ _) t.isLt⟩)) [(⟨(rsl (grid1.coords t)), k1_pay3 (F := Ideal) (k1_pay39 (F := Ideal) (k1_pay25 (F := Ideal) (X0 t) (k1_pay19 (F := Ideal) (X1 t) (X2 t)) (k1_pay21 (F := Ideal) (X5 t)) (Ideal.ofBits .f32 0x3E4CCCCD#32))) (View.ld (s6 ⟨t.val - 1, lt_of_le_of_lt (Nat.sub_le _ _) t.isLt⟩) (rsl (grid1.coords t)))⟩ : View.Piece (Elt Ideal) S8192 .f32)])
      ∧ s7 t = m7.view.read (Elt Ideal) (m7.view.writes (Elt Ideal) (h7.unread (s7 ⟨t.val - 1, lt_of_le_of_lt (Nat.sub_le _ _) t.isLt⟩)) [(⟨(rsl (grid1.coords t)), k1_pay4 (F := Ideal) (k1_pay40 (F := Ideal) (k1_pay26 (F := Ideal) (X0 t) (k1_pay20 (F := Ideal) (X1 t) (X2 t)) (k1_pay22 (F := Ideal) (X6 t)))) (View.ld (s7 ⟨t.val - 1, lt_of_le_of_lt (Nat.sub_le _ _) t.isLt⟩) (rsl (grid1.coords t)))⟩ : View.Piece (Elt Ideal) S8192 .f32)]))

include hX0 hX1 hX2 hX3 hX4 hX5 hX6 eRowsReset eRowsNext eColsFirst eColsNext in
/-- THE INVARIANT HOLDS AFTER EVERY POINT. -/
theorem inv1_all : ∀ (n : ℕ) (hn : n < cfg1.N),
    RowInv S T ⟨n, hn⟩ (s0 ⟨n, hn⟩) (s1 ⟨n, hn⟩) (s2 ⟨n, hn⟩) (s3 ⟨n, hn⟩)
      ∧ ColInv S T (n + 1) (s4 ⟨n, hn⟩) (s5 ⟨n, hn⟩) (s6 ⟨n, hn⟩) (s7 ⟨n, hn⟩) := by
  intro n
  induction n with
  | zero =>
    intro hn
    obtain ⟨e0, e1, e2, e3⟩ := eRowsReset ⟨0, hn⟩ rfl
    obtain ⟨e4, e5, e6, e7⟩ := eColsFirst ⟨0, hn⟩ rfl
    exact ⟨rows1_reset S T ⟨0, hn⟩ _ _ _ _ _ (hX0 _) (hX1 _) (hX2 _) (hX3 _) (hX4 _) rfl _ _ _ _ e0 e1 e2 e3,
      cols1_first S T ⟨0, hn⟩ _ _ _ _ _ (hX0 _) (hX1 _) (hX2 _) (hX5 _) (hX6 _) rfl _ _ _ _ e4 e5 e6 e7⟩
  | succ n ih =>
    intro hn
    have hlt : n < cfg1.N := Nat.lt_of_succ_lt hn
    obtain ⟨hr, hc⟩ := ih hlt
    obtain ⟨e4, e5, e6, e7⟩ := eColsNext ⟨n + 1, hn⟩ (Nat.succ_ne_zero n)
    have hcols := cols1_next S T ⟨n + 1, hn⟩ _ _ _ _ _ (hX0 _) (hX1 _) (hX2 _) (hX5 _) (hX6 _) m4 m5 m6 m7 h4 h5 h6 h7 _ _ _ _ _ _ _ _
      e4 e5 e6 e7 hc
    by_cases h0 : (n + 1) % 16 = 0
    · obtain ⟨e0, e1, e2, e3⟩ := eRowsReset ⟨n + 1, hn⟩ h0
      exact ⟨rows1_reset S T ⟨n + 1, hn⟩ _ _ _ _ _ (hX0 _) (hX1 _) (hX2 _) (hX3 _) (hX4 _) h0 _ _ _ _ e0 e1 e2 e3, hcols⟩
    · obtain ⟨e0, e1, e2, e3⟩ := eRowsNext ⟨n + 1, hn⟩ h0
      exact ⟨rows1_next S T ⟨n + 1, hn⟩ _ _ _ _ _ (hX0 _) (hX1 _) (hX2 _) (hX3 _) (hX4 _) h0 hlt _ _ _ _ _ _ _ _ e0 e1 e2 e3 hr, hcols⟩

end Ind

end Cert.KernelIdeal.H1

end
-- ==== Proof.R1Norm.lean ====
/-
  What each situation of pass 2's body stores, as plain functions of the tile, the label vectors, the four threshold
  vectors and what the accumulators held: a row accumulator after a point is the tile's partial sum (or flag) added
  (joined) to what it held, or to zero where the point resets it; a column accumulator is changed on the tile's 512
  columns only; the stored results are the logarithms and flag products of the accumulators after their update.
-/
import proofs.«170005_j69870527971928_1_alg».proof.Proof.R1RunE
import Idealize.ShloMosaic.Lib.Pipeline.Value

set_option maxRecDepth 16384

noncomputable section

namespace Cert.KernelIdeal.H1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hzA1 : (![0] : Fin 1 → ℕ) = fun _ => 0 := by funext a; fin_cases a; rfl
theorem hzA2 : (![0, 0] : Fin 2 → ℕ) = fun _ => 0 := by funext a; fin_cases a <;> rfl

/-- One store through the whole shape leaves its payload, whatever the buffer held. -/
theorem read_writes_whole1 {κ : Kind} {sp : Space} {S : Shape} {e : EltTy} (v : View sig κ sp S e) (f : v.ty.Contents (Elt F))
    {off : Fin S.rank → ℕ} (h : off = fun _ => 0) {inb : ∀ a, off a + S.size a ≤ S.size a} {w : S.Idx → Elt F e} :
    v.read (Elt F) (v.writes (Elt F) f [(⟨Rect.unit off S.size inb, w⟩ : View.Piece (Elt F) S e)]) = w :=
  (View.read_writes_eq_canon v f _ (fun y => ⟨_, List.mem_cons_self, View.mem_set_unit_zero h inb y⟩)).trans
    (View.canon_unit_zero h inb w)

theorem runA_s15 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) :
    View.canon ((kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).1) = k1_pay33 (k1_pay29 x0 (k1_pay23 x0 x1 x2 x3)) k1_pay15 := by
  unfold kernelRun1_A
  dsimp only
  sl_unfold_words
  simp only [View.readAt_eq_ld, harg2.read_unread, harg3.read_unread, harg4.read_unread, harg5.read_unread, harg6.read_unread, harg7.read_unread, harg8.read_unread]
  simp only [View.canon_cons_unit_zero (S := S1024) hzA1, View.canon_cons_unit_zero (S := S8192) hzA1, View.readCov_unit_zero (S := S1024) _ hzA1, View.readCov_unit_zero (S := S8192) _ hzA1, View.ld_unit_zero (S := S1024x512) hzA2, View.ld_unit_zero (S := S1024) hzA1, View.ld_unit_zero (S := S512) hzA1, View.ld_unit_zero (S := S8192) hzA1]

theorem runA_s16 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) :
    View.canon ((kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).2.1) = k1_pay34 (k1_pay30 x0 (k1_pay24 x0 x1 x2 x4)) k1_pay16 := by
  unfold kernelRun1_A
  dsimp only
  sl_unfold_words
  simp only [View.readAt_eq_ld, harg2.read_unread, harg3.read_unread, harg4.read_unread, harg5.read_unread, harg6.read_unread, harg7.read_unread, harg8.read_unread]
  simp only [View.canon_cons_unit_zero (S := S1024) hzA1, View.canon_cons_unit_zero (S := S8192) hzA1, View.readCov_unit_zero (S := S1024) _ hzA1, View.readCov_unit_zero (S := S8192) _ hzA1, View.ld_unit_zero (S := S1024x512) hzA2, View.ld_unit_zero (S := S1024) hzA1, View.ld_unit_zero (S := S512) hzA1, View.ld_unit_zero (S := S8192) hzA1]

theorem runA_s17 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) :
    View.canon ((kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).2.2.1) = k1_pay35 (k1_pay31 (k1_pay23 x0 x1 x2 x3)) k1_pay17 := by
  unfold kernelRun1_A
  dsimp only
  sl_unfold_words
  simp only [View.readAt_eq_ld, harg2.read_unread, harg3.read_unread, harg4.read_unread, harg5.read_unread, harg6.read_unread, harg7.read_unread, harg8.read_unread]
  simp only [View.canon_cons_unit_zero (S := S1024) hzA1, View.canon_cons_unit_zero (S := S8192) hzA1, View.readCov_unit_zero (S := S1024) _ hzA1, View.readCov_unit_zero (S := S8192) _ hzA1, View.ld_unit_zero (S := S1024x512) hzA2, View.ld_unit_zero (S := S1024) hzA1, View.ld_unit_zero (S := S512) hzA1, View.ld_unit_zero (S := S8192) hzA1]

theorem runA_s18 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) :
    View.canon ((kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).2.2.2.1) = k1_pay36 (k1_pay32 (k1_pay24 x0 x1 x2 x4)) k1_pay18 := by
  unfold kernelRun1_A
  dsimp only
  sl_unfold_words
  simp only [View.readAt_eq_ld, harg2.read_unread, harg3.read_unread, harg4.read_unread, harg5.read_unread, harg6.read_unread, harg7.read_unread, harg8.read_unread]
  simp only [View.canon_cons_unit_zero (S := S1024) hzA1, View.canon_cons_unit_zero (S := S8192) hzA1, View.readCov_unit_zero (S := S1024) _ hzA1, View.readCov_unit_zero (S := S8192) _ hzA1, View.ld_unit_zero (S := S1024x512) hzA2, View.ld_unit_zero (S := S1024) hzA1, View.ld_unit_zero (S := S512) hzA1, View.ld_unit_zero (S := S8192) hzA1]

theorem runA_s19 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) :
    View.canon ((kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).2.2.2.2.1) = View.canon [(⟨rsl i, k1_pay1 (k1_pay37 (k1_pay25 x0 (k1_pay19 x1 x2) (k1_pay21 x5) (Scalar.ofBits .f32 0x3E4CCCCD#32)) (k1_pay27 x0)) (View.ld k1_pay11 (rsl i))⟩ : View.Piece (Elt F) S8192 .f32), ⟨r8192, k1_pay11⟩] := by
  unfold kernelRun1_A
  dsimp only
  sl_unfold_words
  simp only [View.readAt_eq_ld, harg2.read_unread, harg3.read_unread, harg4.read_unread, harg5.read_unread, harg6.read_unread, harg7.read_unread, harg8.read_unread]
  simp only [View.ld_unit_zero (S := S1024x512) hzA2, View.ld_unit_zero (S := S1024) hzA1, View.ld_unit_zero (S := S512) hzA1, View.ld_unit_zero (S := S8192) hzA1]
  rw [read_writes_whole1 (S := S8192) _ _ hzA1]
  rfl

theorem runA_s20 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) :
    View.canon ((kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).2.2.2.2.2.1) = View.canon [(⟨rsl i, k1_pay2 (k1_pay38 (k1_pay26 x0 (k1_pay20 x1 x2) (k1_pay22 x6)) (k1_pay28 x0)) (View.ld k1_pay12 (rsl i))⟩ : View.Piece (Elt F) S8192 .f32), ⟨r8192, k1_pay12⟩] := by
  unfold kernelRun1_A
  dsimp only
  sl_unfold_words
  simp only [View.readAt_eq_ld, harg2.read_unread, harg3.read_unread, harg4.read_unread, harg5.read_unread, harg6.read_unread, harg7.read_unread, harg8.read_unread]
  simp only [View.ld_unit_zero (S := S1024x512) hzA2, View.ld_unit_zero (S := S1024) hzA1, View.ld_unit_zero (S := S512) hzA1, View.ld_unit_zero (S := S8192) hzA1]
  rw [read_writes_whole1 (S := S8192) _ _ hzA1]
  rfl

theorem runA_s21 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) :
    View.canon ((kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).2.2.2.2.2.2.1) = View.canon [(⟨rsl i, k1_pay3 (k1_pay39 (k1_pay25 x0 (k1_pay19 x1 x2) (k1_pay21 x5) (Scalar.ofBits .f32 0x3E4CCCCD#32))) (View.ld k1_pay13 (rsl i))⟩ : View.Piece (Elt F) S8192 .f32), ⟨r8192, k1_pay13⟩] := by
  unfold kernelRun1_A
  dsimp only
  sl_unfold_words
  simp only [View.readAt_eq_ld, harg2.read_unread, harg3.read_unread, harg4.read_unread, harg5.read_unread, harg6.read_unread, harg7.read_unread, harg8.read_unread]
  simp only [View.ld_unit_zero (S := S1024x512) hzA2, View.ld_unit_zero (S := S1024) hzA1, View.ld_unit_zero (S := S512) hzA1, View.ld_unit_zero (S := S8192) hzA1]
  rw [read_writes_whole1 (S := S8192) _ _ hzA1]
  rfl

theorem runA_s22 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) :
    View.canon ((kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).2.2.2.2.2.2.2.1) = View.canon [(⟨rsl i, k1_pay4 (k1_pay40 (k1_pay26 x0 (k1_pay20 x1 x2) (k1_pay22 x6))) (View.ld k1_pay14 (rsl i))⟩ : View.Piece (Elt F) S8192 .f32), ⟨r8192, k1_pay14⟩] := by
  unfold kernelRun1_A
  dsimp only
  sl_unfold_words
  simp only [View.readAt_eq_ld, harg2.read_unread, harg3.read_unread, harg4.read_unread, harg5.read_unread, harg6.read_unread, harg7.read_unread, harg8.read_unread]
  simp only [View.ld_unit_zero (S := S1024x512) hzA2, View.ld_unit_zero (S := S1024) hzA1, View.ld_unit_zero (S := S512) hzA1, View.ld_unit_zero (S := S8192) hzA1]
  rw [read_writes_whole1 (S := S8192) _ _ hzA1]
  rfl

theorem runB_s15 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) :
    View.canon ((kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).1) = k1_pay33 (k1_pay29 x0 (k1_pay23 x0 x1 x2 x3)) k1_pay15 := by
  unfold kernelRun1_B
  dsimp only
  sl_unfold_words
  simp only [View.readAt_eq_ld, harg2.read_unread, harg3.read_unread, harg4.read_unread, harg5.read_unread, harg6.read_unread, harg7.read_unread, harg8.read_unread, harg19.read_unread, harg20.read_unread, harg21.read_unread, harg22.read_unread]
  simp only [View.canon_cons_unit_zero (S := S1024) hzA1, View.canon_cons_unit_zero (S := S8192) hzA1, View.readCov_unit_zero (S := S1024) _ hzA1, View.readCov_unit_zero (S := S8192) _ hzA1, View.ld_unit_zero (S := S1024x512) hzA2, View.ld_unit_zero (S := S1024) hzA1, View.ld_unit_zero (S := S512) hzA1, View.ld_unit_zero (S := S8192) hzA1]

theorem runB_s16 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) :
    View.canon ((kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).2.1) = k1_pay34 (k1_pay30 x0 (k1_pay24 x0 x1 x2 x4)) k1_pay16 := by
  unfold kernelRun1_B
  dsimp only
  sl_unfold_words
  simp only [View.readAt_eq_ld, harg2.read_unread, harg3.read_unread, harg4.read_unread, harg5.read_unread, harg6.read_unread, harg7.read_unread, harg8.read_unread, harg19.read_unread, harg20.read_unread, harg21.read_unread, harg22.read_unread]
  simp only [View.canon_cons_unit_zero (S := S1024) hzA1, View.canon_cons_unit_zero (S := S8192) hzA1, View.readCov_unit_zero (S := S1024) _ hzA1, View.readCov_unit_zero (S := S8192) _ hzA1, View.ld_unit_zero (S := S1024x512) hzA2, View.ld_unit_zero (S := S1024) hzA1, View.ld_unit_zero (S := S512) hzA1, View.ld_unit_zero (S := S8192) hzA1]

theorem runB_s17 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) :
    View.canon ((kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).2.2.1) = k1_pay35 (k1_pay31 (k1_pay23 x0 x1 x2 x3)) k1_pay17 := by
  unfold kernelRun1_B
  dsimp only
  sl_unfold_words
  simp only [View.readAt_eq_ld, harg2.read_unread, harg3.read_unread, harg4.read_unread, harg5.read_unread, harg6.read_unread, harg7.read_unread, harg8.read_unread, harg19.read_unread, harg20.read_unread, harg21.read_unread, harg22.read_unread]
  simp only [View.canon_cons_unit_zero (S := S1024) hzA1, View.canon_cons_unit_zero (S := S8192) hzA1, View.readCov_unit_zero (S := S1024) _ hzA1, View.readCov_unit_zero (S := S8192) _ hzA1, View.ld_unit_zero (S := S1024x512) hzA2, View.ld_unit_zero (S := S1024) hzA1, View.ld_unit_zero (S := S512) hzA1, View.ld_unit_zero (S := S8192) hzA1]

theorem runB_s18 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) :
    View.canon ((kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).2.2.2.1) = k1_pay36 (k1_pay32 (k1_pay24 x0 x1 x2 x4)) k1_pay18 := by
  unfold kernelRun1_B
  dsimp only
  sl_unfold_words
  simp only [View.readAt_eq_ld, harg2.read_unread, harg3.read_unread, harg4.read_unread, harg5.read_unread, harg6.read_unread, harg7.read_unread, harg8.read_unread, harg19.read_unread, harg20.read_unread, harg21.read_unread, harg22.read_unread]
  simp only [View.canon_cons_unit_zero (S := S1024) hzA1, View.canon_cons_unit_zero (S := S8192) hzA1, View.readCov_unit_zero (S := S1024) _ hzA1, View.readCov_unit_zero (S := S8192) _ hzA1, View.ld_unit_zero (S := S1024x512) hzA2, View.ld_unit_zero (S := S1024) hzA1, View.ld_unit_zero (S := S512) hzA1, View.ld_unit_zero (S := S8192) hzA1]

theorem runB_L19 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) :
    (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).2.2.2.2.1 = [(⟨rsl i, k1_pay1 (k1_pay37 (k1_pay25 x0 (k1_pay19 x1 x2) (k1_pay21 x5) (Scalar.ofBits .f32 0x3E4CCCCD#32)) (k1_pay27 x0)) (View.ld xs19 (rsl i))⟩ : View.Piece (Elt F) S8192 .f32)] := by
  unfold kernelRun1_B
  dsimp only
  sl_unfold_words
  simp only [View.readAt_eq_ld, harg2.read_unread, harg3.read_unread, harg4.read_unread, harg5.read_unread, harg6.read_unread, harg7.read_unread, harg8.read_unread, harg19.read_unread, harg20.read_unread, harg21.read_unread, harg22.read_unread]
  simp only [View.ld_unit_zero (S := S1024x512) hzA2, View.ld_unit_zero (S := S1024) hzA1, View.ld_unit_zero (S := S512) hzA1, View.ld_unit_zero (S := S8192) hzA1]
  rfl

theorem runB_L20 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) :
    (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).2.2.2.2.2.1 = [(⟨rsl i, k1_pay2 (k1_pay38 (k1_pay26 x0 (k1_pay20 x1 x2) (k1_pay22 x6)) (k1_pay28 x0)) (View.ld xs20 (rsl i))⟩ : View.Piece (Elt F) S8192 .f32)] := by
  unfold kernelRun1_B
  dsimp only
  sl_unfold_words
  simp only [View.readAt_eq_ld, harg2.read_unread, harg3.read_unread, harg4.read_unread, harg5.read_unread, harg6.read_unread, harg7.read_unread, harg8.read_unread, harg19.read_unread, harg20.read_unread, harg21.read_unread, harg22.read_unread]
  simp only [View.ld_unit_zero (S := S1024x512) hzA2, View.ld_unit_zero (S := S1024) hzA1, View.ld_unit_zero (S := S512) hzA1, View.ld_unit_zero (S := S8192) hzA1]
  rfl

theorem runB_L21 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) :
    (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).2.2.2.2.2.2.1 = [(⟨rsl i, k1_pay3 (k1_pay39 (k1_pay25 x0 (k1_pay19 x1 x2) (k1_pay21 x5) (Scalar.ofBits .f32 0x3E4CCCCD#32))) (View.ld xs21 (rsl i))⟩ : View.Piece (Elt F) S8192 .f32)] := by
  unfold kernelRun1_B
  dsimp only
  sl_unfold_words
  simp only [View.readAt_eq_ld, harg2.read_unread, harg3.read_unread, harg4.read_unread, harg5.read_unread, harg6.read_unread, harg7.read_unread, harg8.read_unread, harg19.read_unread, harg20.read_unread, harg21.read_unread, harg22.read_unread]
  simp only [View.ld_unit_zero (S := S1024x512) hzA2, View.ld_unit_zero (S := S1024) hzA1, View.ld_unit_zero (S := S512) hzA1, View.ld_unit_zero (S := S8192) hzA1]
  rfl

theorem runB_L22 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) :
    (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).2.2.2.2.2.2.2.1 = [(⟨rsl i, k1_pay4 (k1_pay40 (k1_pay26 x0 (k1_pay20 x1 x2) (k1_pay22 x6))) (View.ld xs22 (rsl i))⟩ : View.Piece (Elt F) S8192 .f32)] := by
  unfold kernelRun1_B
  dsimp only
  sl_unfold_words
  simp only [View.readAt_eq_ld, harg2.read_unread, harg3.read_unread, harg4.read_unread, harg5.read_unread, harg6.read_unread, harg7.read_unread, harg8.read_unread, harg19.read_unread, harg20.read_unread, harg21.read_unread, harg22.read_unread]
  simp only [View.ld_unit_zero (S := S1024x512) hzA2, View.ld_unit_zero (S := S1024) hzA1, View.ld_unit_zero (S := S512) hzA1, View.ld_unit_zero (S := S8192) hzA1]
  rfl

theorem runM_s15 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    View.canon ((kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).1) = k1_pay33 (k1_pay29 x0 (k1_pay23 x0 x1 x2 x3)) xs15 := by
  unfold kernelRun1_M
  dsimp only
  sl_unfold_words
  simp only [View.readAt_eq_ld, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread, harg22.read_unread]
  simp only [View.canon_cons_unit_zero (S := S1024) hzA1, View.canon_cons_unit_zero (S := S8192) hzA1, View.readCov_unit_zero (S := S1024) _ hzA1, View.readCov_unit_zero (S := S8192) _ hzA1, View.ld_unit_zero (S := S1024x512) hzA2, View.ld_unit_zero (S := S1024) hzA1, View.ld_unit_zero (S := S512) hzA1, View.ld_unit_zero (S := S8192) hzA1]

theorem runM_s16 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    View.canon ((kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.1) = k1_pay34 (k1_pay30 x0 (k1_pay24 x0 x1 x2 x4)) xs16 := by
  unfold kernelRun1_M
  dsimp only
  sl_unfold_words
  simp only [View.readAt_eq_ld, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread, harg22.read_unread]
  simp only [View.canon_cons_unit_zero (S := S1024) hzA1, View.canon_cons_unit_zero (S := S8192) hzA1, View.readCov_unit_zero (S := S1024) _ hzA1, View.readCov_unit_zero (S := S8192) _ hzA1, View.ld_unit_zero (S := S1024x512) hzA2, View.ld_unit_zero (S := S1024) hzA1, View.ld_unit_zero (S := S512) hzA1, View.ld_unit_zero (S := S8192) hzA1]

theorem runM_s17 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    View.canon ((kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.1) = k1_pay35 (k1_pay31 (k1_pay23 x0 x1 x2 x3)) xs17 := by
  unfold kernelRun1_M
  dsimp only
  sl_unfold_words
  simp only [View.readAt_eq_ld, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread, harg22.read_unread]
  simp only [View.canon_cons_unit_zero (S := S1024) hzA1, View.canon_cons_unit_zero (S := S8192) hzA1, View.readCov_unit_zero (S := S1024) _ hzA1, View.readCov_unit_zero (S := S8192) _ hzA1, View.ld_unit_zero (S := S1024x512) hzA2, View.ld_unit_zero (S := S1024) hzA1, View.ld_unit_zero (S := S512) hzA1, View.ld_unit_zero (S := S8192) hzA1]

theorem runM_s18 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    View.canon ((kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.1) = k1_pay36 (k1_pay32 (k1_pay24 x0 x1 x2 x4)) xs18 := by
  unfold kernelRun1_M
  dsimp only
  sl_unfold_words
  simp only [View.readAt_eq_ld, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread, harg22.read_unread]
  simp only [View.canon_cons_unit_zero (S := S1024) hzA1, View.canon_cons_unit_zero (S := S8192) hzA1, View.readCov_unit_zero (S := S1024) _ hzA1, View.readCov_unit_zero (S := S8192) _ hzA1, View.ld_unit_zero (S := S1024x512) hzA2, View.ld_unit_zero (S := S1024) hzA1, View.ld_unit_zero (S := S512) hzA1, View.ld_unit_zero (S := S8192) hzA1]

theorem runM_L19 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.1 = [(⟨rsl i, k1_pay1 (k1_pay37 (k1_pay25 x0 (k1_pay19 x1 x2) (k1_pay21 x5) (Scalar.ofBits .f32 0x3E4CCCCD#32)) (k1_pay27 x0)) (View.ld xs19 (rsl i))⟩ : View.Piece (Elt F) S8192 .f32)] := by
  unfold kernelRun1_M
  dsimp only
  sl_unfold_words
  simp only [View.readAt_eq_ld, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread, harg22.read_unread]
  simp only [View.ld_unit_zero (S := S1024x512) hzA2, View.ld_unit_zero (S := S1024) hzA1, View.ld_unit_zero (S := S512) hzA1, View.ld_unit_zero (S := S8192) hzA1]
  rfl

theorem runM_L20 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.1 = [(⟨rsl i, k1_pay2 (k1_pay38 (k1_pay26 x0 (k1_pay20 x1 x2) (k1_pay22 x6)) (k1_pay28 x0)) (View.ld xs20 (rsl i))⟩ : View.Piece (Elt F) S8192 .f32)] := by
  unfold kernelRun1_M
  dsimp only
  sl_unfold_words
  simp only [View.readAt_eq_ld, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread, harg22.read_unread]
  simp only [View.ld_unit_zero (S := S1024x512) hzA2, View.ld_unit_zero (S := S1024) hzA1, View.ld_unit_zero (S := S512) hzA1, View.ld_unit_zero (S := S8192) hzA1]
  rfl

theorem runM_L21 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.1 = [(⟨rsl i, k1_pay3 (k1_pay39 (k1_pay25 x0 (k1_pay19 x1 x2) (k1_pay21 x5) (Scalar.ofBits .f32 0x3E4CCCCD#32))) (View.ld xs21 (rsl i))⟩ : View.Piece (Elt F) S8192 .f32)] := by
  unfold kernelRun1_M
  dsimp only
  sl_unfold_words
  simp only [View.readAt_eq_ld, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread, harg22.read_unread]
  simp only [View.ld_unit_zero (S := S1024x512) hzA2, View.ld_unit_zero (S := S1024) hzA1, View.ld_unit_zero (S := S512) hzA1, View.ld_unit_zero (S := S8192) hzA1]
  rfl

theorem runM_L22 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (kernelRun1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.1 = [(⟨rsl i, k1_pay4 (k1_pay40 (k1_pay26 x0 (k1_pay20 x1 x2) (k1_pay22 x6))) (View.ld xs22 (rsl i))⟩ : View.Piece (Elt F) S8192 .f32)] := by
  unfold kernelRun1_M
  dsimp only
  sl_unfold_words
  simp only [View.readAt_eq_ld, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread, harg22.read_unread]
  simp only [View.ld_unit_zero (S := S1024x512) hzA2, View.ld_unit_zero (S := S1024) hzA1, View.ld_unit_zero (S := S512) hzA1, View.ld_unit_zero (S := S8192) hzA1]
  rfl

theorem runD_s15 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    View.canon ((kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.1) = k1_pay33 (k1_pay29 x0 (k1_pay23 x0 x1 x2 x3)) xs15 := by
  unfold kernelRun1_D
  dsimp only
  sl_unfold_words
  simp only [View.readAt_eq_ld, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread, harg22.read_unread]
  simp only [View.canon_cons_unit_zero (S := S1024) hzA1, View.canon_cons_unit_zero (S := S8192) hzA1, View.readCov_unit_zero (S := S1024) _ hzA1, View.readCov_unit_zero (S := S8192) _ hzA1, View.ld_unit_zero (S := S1024x512) hzA2, View.ld_unit_zero (S := S1024) hzA1, View.ld_unit_zero (S := S512) hzA1, View.ld_unit_zero (S := S8192) hzA1]

theorem runD_s16 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    View.canon ((kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.1) = k1_pay34 (k1_pay30 x0 (k1_pay24 x0 x1 x2 x4)) xs16 := by
  unfold kernelRun1_D
  dsimp only
  sl_unfold_words
  simp only [View.readAt_eq_ld, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread, harg22.read_unread]
  simp only [View.canon_cons_unit_zero (S := S1024) hzA1, View.canon_cons_unit_zero (S := S8192) hzA1, View.readCov_unit_zero (S := S1024) _ hzA1, View.readCov_unit_zero (S := S8192) _ hzA1, View.ld_unit_zero (S := S1024x512) hzA2, View.ld_unit_zero (S := S1024) hzA1, View.ld_unit_zero (S := S512) hzA1, View.ld_unit_zero (S := S8192) hzA1]

theorem runD_s17 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    View.canon ((kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.1) = k1_pay35 (k1_pay31 (k1_pay23 x0 x1 x2 x3)) xs17 := by
  unfold kernelRun1_D
  dsimp only
  sl_unfold_words
  simp only [View.readAt_eq_ld, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread, harg22.read_unread]
  simp only [View.canon_cons_unit_zero (S := S1024) hzA1, View.canon_cons_unit_zero (S := S8192) hzA1, View.readCov_unit_zero (S := S1024) _ hzA1, View.readCov_unit_zero (S := S8192) _ hzA1, View.ld_unit_zero (S := S1024x512) hzA2, View.ld_unit_zero (S := S1024) hzA1, View.ld_unit_zero (S := S512) hzA1, View.ld_unit_zero (S := S8192) hzA1]

theorem runD_s18 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    View.canon ((kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.1) = k1_pay36 (k1_pay32 (k1_pay24 x0 x1 x2 x4)) xs18 := by
  unfold kernelRun1_D
  dsimp only
  sl_unfold_words
  simp only [View.readAt_eq_ld, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread, harg22.read_unread]
  simp only [View.canon_cons_unit_zero (S := S1024) hzA1, View.canon_cons_unit_zero (S := S8192) hzA1, View.readCov_unit_zero (S := S1024) _ hzA1, View.readCov_unit_zero (S := S8192) _ hzA1, View.ld_unit_zero (S := S1024x512) hzA2, View.ld_unit_zero (S := S1024) hzA1, View.ld_unit_zero (S := S512) hzA1, View.ld_unit_zero (S := S8192) hzA1]

theorem runD_L19 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.1 = [(⟨rsl i, k1_pay1 (k1_pay37 (k1_pay25 x0 (k1_pay19 x1 x2) (k1_pay21 x5) (Scalar.ofBits .f32 0x3E4CCCCD#32)) (k1_pay27 x0)) (View.ld xs19 (rsl i))⟩ : View.Piece (Elt F) S8192 .f32)] := by
  unfold kernelRun1_D
  dsimp only
  sl_unfold_words
  simp only [View.readAt_eq_ld, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread, harg22.read_unread]
  simp only [View.ld_unit_zero (S := S1024x512) hzA2, View.ld_unit_zero (S := S1024) hzA1, View.ld_unit_zero (S := S512) hzA1, View.ld_unit_zero (S := S8192) hzA1]
  rfl

theorem runD_L20 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.1 = [(⟨rsl i, k1_pay2 (k1_pay38 (k1_pay26 x0 (k1_pay20 x1 x2) (k1_pay22 x6)) (k1_pay28 x0)) (View.ld xs20 (rsl i))⟩ : View.Piece (Elt F) S8192 .f32)] := by
  unfold kernelRun1_D
  dsimp only
  sl_unfold_words
  simp only [View.readAt_eq_ld, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread, harg22.read_unread]
  simp only [View.ld_unit_zero (S := S1024x512) hzA2, View.ld_unit_zero (S := S1024) hzA1, View.ld_unit_zero (S := S512) hzA1, View.ld_unit_zero (S := S8192) hzA1]
  rfl

theorem runD_L21 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.2.1 = [(⟨rsl i, k1_pay3 (k1_pay39 (k1_pay25 x0 (k1_pay19 x1 x2) (k1_pay21 x5) (Scalar.ofBits .f32 0x3E4CCCCD#32))) (View.ld xs21 (rsl i))⟩ : View.Piece (Elt F) S8192 .f32)] := by
  unfold kernelRun1_D
  dsimp only
  sl_unfold_words
  simp only [View.readAt_eq_ld, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread, harg22.read_unread]
  simp only [View.ld_unit_zero (S := S1024x512) hzA2, View.ld_unit_zero (S := S1024) hzA1, View.ld_unit_zero (S := S512) hzA1, View.ld_unit_zero (S := S8192) hzA1]
  rfl

theorem runD_L22 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.2.2.1 = [(⟨rsl i, k1_pay4 (k1_pay40 (k1_pay26 x0 (k1_pay20 x1 x2) (k1_pay22 x6))) (View.ld xs22 (rsl i))⟩ : View.Piece (Elt F) S8192 .f32)] := by
  unfold kernelRun1_D
  dsimp only
  sl_unfold_words
  simp only [View.readAt_eq_ld, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread, harg22.read_unread]
  simp only [View.ld_unit_zero (S := S1024x512) hzA2, View.ld_unit_zero (S := S1024) hzA1, View.ld_unit_zero (S := S512) hzA1, View.ld_unit_zero (S := S8192) hzA1]
  rfl

theorem runD_o9 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    View.canon ((kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).1) = k1_pay5 (k1_pay33 (k1_pay29 x0 (k1_pay23 x0 x1 x2 x3)) xs15) := by
  unfold kernelRun1_D
  dsimp only
  sl_unfold_words
  simp only [View.readAt_eq_ld, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread, harg22.read_unread]
  simp only [View.canon_cons_unit_zero (S := S1024) hzA1, View.canon_cons_unit_zero (S := S8192) hzA1, View.readCov_unit_zero (S := S1024) _ hzA1, View.readCov_unit_zero (S := S8192) _ hzA1, View.ld_unit_zero (S := S1024x512) hzA2, View.ld_unit_zero (S := S1024) hzA1, View.ld_unit_zero (S := S512) hzA1, View.ld_unit_zero (S := S8192) hzA1]

theorem runD_o10 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    View.canon ((kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.1) = k1_pay6 (k1_pay34 (k1_pay30 x0 (k1_pay24 x0 x1 x2 x4)) xs16) := by
  unfold kernelRun1_D
  dsimp only
  sl_unfold_words
  simp only [View.readAt_eq_ld, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread, harg22.read_unread]
  simp only [View.canon_cons_unit_zero (S := S1024) hzA1, View.canon_cons_unit_zero (S := S8192) hzA1, View.readCov_unit_zero (S := S1024) _ hzA1, View.readCov_unit_zero (S := S8192) _ hzA1, View.ld_unit_zero (S := S1024x512) hzA2, View.ld_unit_zero (S := S1024) hzA1, View.ld_unit_zero (S := S512) hzA1, View.ld_unit_zero (S := S8192) hzA1]

theorem runD_o11 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    View.canon ((kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.1) = k1_pay7 (k1_pay35 (k1_pay31 (k1_pay23 x0 x1 x2 x3)) xs17) (k1_pay36 (k1_pay32 (k1_pay24 x0 x1 x2 x4)) xs18) := by
  unfold kernelRun1_D
  dsimp only
  sl_unfold_words
  simp only [View.readAt_eq_ld, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread, harg22.read_unread]
  simp only [View.canon_cons_unit_zero (S := S1024) hzA1, View.canon_cons_unit_zero (S := S8192) hzA1, View.readCov_unit_zero (S := S1024) _ hzA1, View.readCov_unit_zero (S := S8192) _ hzA1, View.ld_unit_zero (S := S1024x512) hzA2, View.ld_unit_zero (S := S1024) hzA1, View.ld_unit_zero (S := S512) hzA1, View.ld_unit_zero (S := S8192) hzA1]

theorem runE_s15 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    View.canon ((kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.1) = k1_pay33 (k1_pay29 x0 (k1_pay23 x0 x1 x2 x3)) xs15 := by
  unfold kernelRun1_E
  dsimp only
  sl_unfold_words
  simp only [View.readAt_eq_ld, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread, harg22.read_unread]
  simp only [View.canon_cons_unit_zero (S := S1024) hzA1, View.canon_cons_unit_zero (S := S8192) hzA1, View.readCov_unit_zero (S := S1024) _ hzA1, View.readCov_unit_zero (S := S8192) _ hzA1, View.ld_unit_zero (S := S1024x512) hzA2, View.ld_unit_zero (S := S1024) hzA1, View.ld_unit_zero (S := S512) hzA1, View.ld_unit_zero (S := S8192) hzA1]

theorem runE_s16 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    View.canon ((kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.1) = k1_pay34 (k1_pay30 x0 (k1_pay24 x0 x1 x2 x4)) xs16 := by
  unfold kernelRun1_E
  dsimp only
  sl_unfold_words
  simp only [View.readAt_eq_ld, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread, harg22.read_unread]
  simp only [View.canon_cons_unit_zero (S := S1024) hzA1, View.canon_cons_unit_zero (S := S8192) hzA1, View.readCov_unit_zero (S := S1024) _ hzA1, View.readCov_unit_zero (S := S8192) _ hzA1, View.ld_unit_zero (S := S1024x512) hzA2, View.ld_unit_zero (S := S1024) hzA1, View.ld_unit_zero (S := S512) hzA1, View.ld_unit_zero (S := S8192) hzA1]

theorem runE_s17 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    View.canon ((kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.1) = k1_pay35 (k1_pay31 (k1_pay23 x0 x1 x2 x3)) xs17 := by
  unfold kernelRun1_E
  dsimp only
  sl_unfold_words
  simp only [View.readAt_eq_ld, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread, harg22.read_unread]
  simp only [View.canon_cons_unit_zero (S := S1024) hzA1, View.canon_cons_unit_zero (S := S8192) hzA1, View.readCov_unit_zero (S := S1024) _ hzA1, View.readCov_unit_zero (S := S8192) _ hzA1, View.ld_unit_zero (S := S1024x512) hzA2, View.ld_unit_zero (S := S1024) hzA1, View.ld_unit_zero (S := S512) hzA1, View.ld_unit_zero (S := S8192) hzA1]

theorem runE_s18 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    View.canon ((kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.2.1) = k1_pay36 (k1_pay32 (k1_pay24 x0 x1 x2 x4)) xs18 := by
  unfold kernelRun1_E
  dsimp only
  sl_unfold_words
  simp only [View.readAt_eq_ld, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread, harg22.read_unread]
  simp only [View.canon_cons_unit_zero (S := S1024) hzA1, View.canon_cons_unit_zero (S := S8192) hzA1, View.readCov_unit_zero (S := S1024) _ hzA1, View.readCov_unit_zero (S := S8192) _ hzA1, View.ld_unit_zero (S := S1024x512) hzA2, View.ld_unit_zero (S := S1024) hzA1, View.ld_unit_zero (S := S512) hzA1, View.ld_unit_zero (S := S8192) hzA1]

theorem runE_L19 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.2.2.1 = [(⟨rsl i, k1_pay1 (k1_pay37 (k1_pay25 x0 (k1_pay19 x1 x2) (k1_pay21 x5) (Scalar.ofBits .f32 0x3E4CCCCD#32)) (k1_pay27 x0)) (View.ld xs19 (rsl i))⟩ : View.Piece (Elt F) S8192 .f32)] := by
  unfold kernelRun1_E
  dsimp only
  sl_unfold_words
  simp only [View.readAt_eq_ld, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread, harg22.read_unread]
  simp only [View.ld_unit_zero (S := S1024x512) hzA2, View.ld_unit_zero (S := S1024) hzA1, View.ld_unit_zero (S := S512) hzA1, View.ld_unit_zero (S := S8192) hzA1]
  rfl

theorem runE_L20 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.2.2.2.1 = [(⟨rsl i, k1_pay2 (k1_pay38 (k1_pay26 x0 (k1_pay20 x1 x2) (k1_pay22 x6)) (k1_pay28 x0)) (View.ld xs20 (rsl i))⟩ : View.Piece (Elt F) S8192 .f32)] := by
  unfold kernelRun1_E
  dsimp only
  sl_unfold_words
  simp only [View.readAt_eq_ld, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread, harg22.read_unread]
  simp only [View.ld_unit_zero (S := S1024x512) hzA2, View.ld_unit_zero (S := S1024) hzA1, View.ld_unit_zero (S := S512) hzA1, View.ld_unit_zero (S := S8192) hzA1]
  rfl

theorem runE_L21 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.2.2.2.2.1 = [(⟨rsl i, k1_pay3 (k1_pay39 (k1_pay25 x0 (k1_pay19 x1 x2) (k1_pay21 x5) (Scalar.ofBits .f32 0x3E4CCCCD#32))) (View.ld xs21 (rsl i))⟩ : View.Piece (Elt F) S8192 .f32)] := by
  unfold kernelRun1_E
  dsimp only
  sl_unfold_words
  simp only [View.readAt_eq_ld, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread, harg22.read_unread]
  simp only [View.ld_unit_zero (S := S1024x512) hzA2, View.ld_unit_zero (S := S1024) hzA1, View.ld_unit_zero (S := S512) hzA1, View.ld_unit_zero (S := S8192) hzA1]
  rfl

theorem runE_L22 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.2.2.2.2.2.2.2.2.1 = [(⟨rsl i, k1_pay4 (k1_pay40 (k1_pay26 x0 (k1_pay20 x1 x2) (k1_pay22 x6))) (View.ld xs22 (rsl i))⟩ : View.Piece (Elt F) S8192 .f32)] := by
  unfold kernelRun1_E
  dsimp only
  sl_unfold_words
  simp only [View.readAt_eq_ld, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread, harg22.read_unread]
  simp only [View.ld_unit_zero (S := S1024x512) hzA2, View.ld_unit_zero (S := S1024) hzA1, View.ld_unit_zero (S := S512) hzA1, View.ld_unit_zero (S := S8192) hzA1]
  rfl

theorem runE_o9 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    View.canon ((kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).1) = k1_pay5 (k1_pay33 (k1_pay29 x0 (k1_pay23 x0 x1 x2 x3)) xs15) := by
  unfold kernelRun1_E
  dsimp only
  sl_unfold_words
  simp only [View.readAt_eq_ld, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread, harg22.read_unread]
  simp only [View.canon_cons_unit_zero (S := S1024) hzA1, View.canon_cons_unit_zero (S := S8192) hzA1, View.readCov_unit_zero (S := S1024) _ hzA1, View.readCov_unit_zero (S := S8192) _ hzA1, View.ld_unit_zero (S := S1024x512) hzA2, View.ld_unit_zero (S := S1024) hzA1, View.ld_unit_zero (S := S512) hzA1, View.ld_unit_zero (S := S8192) hzA1]

theorem runE_o10 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    View.canon ((kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.1) = k1_pay6 (k1_pay34 (k1_pay30 x0 (k1_pay24 x0 x1 x2 x4)) xs16) := by
  unfold kernelRun1_E
  dsimp only
  sl_unfold_words
  simp only [View.readAt_eq_ld, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread, harg22.read_unread]
  simp only [View.canon_cons_unit_zero (S := S1024) hzA1, View.canon_cons_unit_zero (S := S8192) hzA1, View.readCov_unit_zero (S := S1024) _ hzA1, View.readCov_unit_zero (S := S8192) _ hzA1, View.ld_unit_zero (S := S1024x512) hzA2, View.ld_unit_zero (S := S1024) hzA1, View.ld_unit_zero (S := S512) hzA1, View.ld_unit_zero (S := S8192) hzA1]

theorem runE_o11 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    View.canon ((kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.1) = k1_pay7 (k1_pay35 (k1_pay31 (k1_pay23 x0 x1 x2 x3)) xs17) (k1_pay36 (k1_pay32 (k1_pay24 x0 x1 x2 x4)) xs18) := by
  unfold kernelRun1_E
  dsimp only
  sl_unfold_words
  simp only [View.readAt_eq_ld, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread, harg22.read_unread]
  simp only [View.canon_cons_unit_zero (S := S1024) hzA1, View.canon_cons_unit_zero (S := S8192) hzA1, View.readCov_unit_zero (S := S1024) _ hzA1, View.readCov_unit_zero (S := S8192) _ hzA1, View.ld_unit_zero (S := S1024x512) hzA2, View.ld_unit_zero (S := S1024) hzA1, View.ld_unit_zero (S := S512) hzA1, View.ld_unit_zero (S := S8192) hzA1]

theorem runE_o12 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    View.canon ((kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.1) = k1_pay8 (arg19.view.read (Elt F) (arg19.view.writes (Elt F) (harg19.unread xs19) [(⟨rsl i, k1_pay1 (k1_pay37 (k1_pay25 x0 (k1_pay19 x1 x2) (k1_pay21 x5) (Scalar.ofBits .f32 0x3E4CCCCD#32)) (k1_pay27 x0)) (View.ld xs19 (rsl i))⟩ : View.Piece (Elt F) S8192 .f32)])) := by
  unfold kernelRun1_E
  dsimp only
  sl_unfold_words
  simp only [View.readAt_eq_ld, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread, harg22.read_unread]
  simp only [View.canon_cons_unit_zero (S := S1024) hzA1, View.canon_cons_unit_zero (S := S8192) hzA1, View.readCov_unit_zero (S := S1024) _ hzA1, View.readCov_unit_zero (S := S8192) _ hzA1, View.ld_unit_zero (S := S1024x512) hzA2, View.ld_unit_zero (S := S1024) hzA1, View.ld_unit_zero (S := S512) hzA1, View.ld_unit_zero (S := S8192) hzA1]
  rfl

theorem runE_o13 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    View.canon ((kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.1) = k1_pay9 (arg20.view.read (Elt F) (arg20.view.writes (Elt F) (harg20.unread xs20) [(⟨rsl i, k1_pay2 (k1_pay38 (k1_pay26 x0 (k1_pay20 x1 x2) (k1_pay22 x6)) (k1_pay28 x0)) (View.ld xs20 (rsl i))⟩ : View.Piece (Elt F) S8192 .f32)])) := by
  unfold kernelRun1_E
  dsimp only
  sl_unfold_words
  simp only [View.readAt_eq_ld, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread, harg22.read_unread]
  simp only [View.canon_cons_unit_zero (S := S1024) hzA1, View.canon_cons_unit_zero (S := S8192) hzA1, View.readCov_unit_zero (S := S1024) _ hzA1, View.readCov_unit_zero (S := S8192) _ hzA1, View.ld_unit_zero (S := S1024x512) hzA2, View.ld_unit_zero (S := S1024) hzA1, View.ld_unit_zero (S := S512) hzA1, View.ld_unit_zero (S := S8192) hzA1]
  rfl

theorem runE_o14 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    View.canon ((kernelRun1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).2.2.2.2.2.1) = k1_pay10 (arg21.view.read (Elt F) (arg21.view.writes (Elt F) (harg21.unread xs21) [(⟨rsl i, k1_pay3 (k1_pay39 (k1_pay25 x0 (k1_pay19 x1 x2) (k1_pay21 x5) (Scalar.ofBits .f32 0x3E4CCCCD#32))) (View.ld xs21 (rsl i))⟩ : View.Piece (Elt F) S8192 .f32)])) (arg22.view.read (Elt F) (arg22.view.writes (Elt F) (harg22.unread xs22) [(⟨rsl i, k1_pay4 (k1_pay40 (k1_pay26 x0 (k1_pay20 x1 x2) (k1_pay22 x6))) (View.ld xs22 (rsl i))⟩ : View.Piece (Elt F) S8192 .f32)])) := by
  unfold kernelRun1_E
  dsimp only
  sl_unfold_words
  simp only [View.readAt_eq_ld, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread, harg22.read_unread]
  simp only [View.canon_cons_unit_zero (S := S1024) hzA1, View.canon_cons_unit_zero (S := S8192) hzA1, View.readCov_unit_zero (S := S1024) _ hzA1, View.readCov_unit_zero (S := S8192) _ hzA1, View.ld_unit_zero (S := S1024x512) hzA2, View.ld_unit_zero (S := S1024) hzA1, View.ld_unit_zero (S := S512) hzA1, View.ld_unit_zero (S := S8192) hzA1]
  rfl

end Cert.KernelIdeal.H1

end
-- ==== Proof.R1Steps.lean ====
/-
  What each of the five situations of a grid point of pass 2 leaves in the eight accumulators and the six result windows,
  as payloads of the point's tile, label windows and carried-in vectors, and of what the accumulators held.
-/
import proofs.«170005_j69870527971928_1_alg».proof.Proof.R1Outs
import proofs.«170005_j69870527971928_1_alg».proof.Proof.R1Norm

set_option maxRecDepth 16384
set_option maxHeartbeats 2000000

noncomputable section

namespace Cert.KernelIdeal.H1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
theorem outs1_A_s0 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) :
    (outs1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).s0 = k1_pay33 (k1_pay29 x0 (k1_pay23 x0 x1 x2 x3)) k1_pay15 := by
  unfold outs1_A
  dsimp only
  exact runA_s15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6
theorem outs1_A_s1 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) :
    (outs1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).s1 = k1_pay34 (k1_pay30 x0 (k1_pay24 x0 x1 x2 x4)) k1_pay16 := by
  unfold outs1_A
  dsimp only
  exact runA_s16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6
theorem outs1_A_s2 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) :
    (outs1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).s2 = k1_pay35 (k1_pay31 (k1_pay23 x0 x1 x2 x3)) k1_pay17 := by
  unfold outs1_A
  dsimp only
  exact runA_s17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6
theorem outs1_A_s3 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) :
    (outs1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).s3 = k1_pay36 (k1_pay32 (k1_pay24 x0 x1 x2 x4)) k1_pay18 := by
  unfold outs1_A
  dsimp only
  exact runA_s18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6
theorem outs1_A_s4 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) :
    (outs1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).s4 = View.canon [(⟨rsl i, k1_pay1 (k1_pay37 (k1_pay25 x0 (k1_pay19 x1 x2) (k1_pay21 x5) (Scalar.ofBits .f32 0x3E4CCCCD#32)) (k1_pay27 x0)) (View.ld k1_pay11 (rsl i))⟩ : View.Piece (Elt F) S8192 .f32), ⟨r8192, k1_pay11⟩] := by
  unfold outs1_A
  dsimp only
  exact runA_s19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6
theorem outs1_A_s5 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) :
    (outs1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).s5 = View.canon [(⟨rsl i, k1_pay2 (k1_pay38 (k1_pay26 x0 (k1_pay20 x1 x2) (k1_pay22 x6)) (k1_pay28 x0)) (View.ld k1_pay12 (rsl i))⟩ : View.Piece (Elt F) S8192 .f32), ⟨r8192, k1_pay12⟩] := by
  unfold outs1_A
  dsimp only
  exact runA_s20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6
theorem outs1_A_s6 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) :
    (outs1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).s6 = View.canon [(⟨rsl i, k1_pay3 (k1_pay39 (k1_pay25 x0 (k1_pay19 x1 x2) (k1_pay21 x5) (Scalar.ofBits .f32 0x3E4CCCCD#32))) (View.ld k1_pay13 (rsl i))⟩ : View.Piece (Elt F) S8192 .f32), ⟨r8192, k1_pay13⟩] := by
  unfold outs1_A
  dsimp only
  exact runA_s21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6
theorem outs1_A_s7 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) :
    (outs1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6).s7 = View.canon [(⟨rsl i, k1_pay4 (k1_pay40 (k1_pay26 x0 (k1_pay20 x1 x2) (k1_pay22 x6))) (View.ld k1_pay14 (rsl i))⟩ : View.Piece (Elt F) S8192 .f32), ⟨r8192, k1_pay14⟩] := by
  unfold outs1_A
  dsimp only
  exact runA_s22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6

theorem outs1_B_s0 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) :
    (outs1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).s0 = k1_pay33 (k1_pay29 x0 (k1_pay23 x0 x1 x2 x3)) k1_pay15 := by
  unfold outs1_B
  dsimp only
  exact runB_s15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22
theorem outs1_B_s1 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) :
    (outs1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).s1 = k1_pay34 (k1_pay30 x0 (k1_pay24 x0 x1 x2 x4)) k1_pay16 := by
  unfold outs1_B
  dsimp only
  exact runB_s16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22
theorem outs1_B_s2 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) :
    (outs1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).s2 = k1_pay35 (k1_pay31 (k1_pay23 x0 x1 x2 x3)) k1_pay17 := by
  unfold outs1_B
  dsimp only
  exact runB_s17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22
theorem outs1_B_s3 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) :
    (outs1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).s3 = k1_pay36 (k1_pay32 (k1_pay24 x0 x1 x2 x4)) k1_pay18 := by
  unfold outs1_B
  dsimp only
  exact runB_s18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22
theorem outs1_B_s4 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) :
    (outs1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).s4 = arg19.view.read (Elt F) (arg19.view.writes (Elt F) (harg19.unread xs19) [(⟨rsl i, k1_pay1 (k1_pay37 (k1_pay25 x0 (k1_pay19 x1 x2) (k1_pay21 x5) (Scalar.ofBits .f32 0x3E4CCCCD#32)) (k1_pay27 x0)) (View.ld xs19 (rsl i))⟩ : View.Piece (Elt F) S8192 .f32)]) :=
  congrArg (fun L => arg19.view.read (Elt F) (arg19.view.writes (Elt F) (harg19.unread xs19) L)) (runB_L19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22)
theorem outs1_B_s5 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) :
    (outs1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).s5 = arg20.view.read (Elt F) (arg20.view.writes (Elt F) (harg20.unread xs20) [(⟨rsl i, k1_pay2 (k1_pay38 (k1_pay26 x0 (k1_pay20 x1 x2) (k1_pay22 x6)) (k1_pay28 x0)) (View.ld xs20 (rsl i))⟩ : View.Piece (Elt F) S8192 .f32)]) :=
  congrArg (fun L => arg20.view.read (Elt F) (arg20.view.writes (Elt F) (harg20.unread xs20) L)) (runB_L20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22)
theorem outs1_B_s6 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) :
    (outs1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).s6 = arg21.view.read (Elt F) (arg21.view.writes (Elt F) (harg21.unread xs21) [(⟨rsl i, k1_pay3 (k1_pay39 (k1_pay25 x0 (k1_pay19 x1 x2) (k1_pay21 x5) (Scalar.ofBits .f32 0x3E4CCCCD#32))) (View.ld xs21 (rsl i))⟩ : View.Piece (Elt F) S8192 .f32)]) :=
  congrArg (fun L => arg21.view.read (Elt F) (arg21.view.writes (Elt F) (harg21.unread xs21) L)) (runB_L21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22)
theorem outs1_B_s7 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs19 xs20 xs21 xs22 : Vec F S8192 .f32) :
    (outs1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22).s7 = arg22.view.read (Elt F) (arg22.view.writes (Elt F) (harg22.unread xs22) [(⟨rsl i, k1_pay4 (k1_pay40 (k1_pay26 x0 (k1_pay20 x1 x2) (k1_pay22 x6))) (View.ld xs22 (rsl i))⟩ : View.Piece (Elt F) S8192 .f32)]) :=
  congrArg (fun L => arg22.view.read (Elt F) (arg22.view.writes (Elt F) (harg22.unread xs22) L)) (runB_L22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs19 xs20 xs21 xs22)

theorem outs1_M_s0 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (outs1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s0 = k1_pay33 (k1_pay29 x0 (k1_pay23 x0 x1 x2 x3)) xs15 := by
  unfold outs1_M
  dsimp only
  exact runM_s15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22
theorem outs1_M_s1 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (outs1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s1 = k1_pay34 (k1_pay30 x0 (k1_pay24 x0 x1 x2 x4)) xs16 := by
  unfold outs1_M
  dsimp only
  exact runM_s16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22
theorem outs1_M_s2 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (outs1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s2 = k1_pay35 (k1_pay31 (k1_pay23 x0 x1 x2 x3)) xs17 := by
  unfold outs1_M
  dsimp only
  exact runM_s17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22
theorem outs1_M_s3 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (outs1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s3 = k1_pay36 (k1_pay32 (k1_pay24 x0 x1 x2 x4)) xs18 := by
  unfold outs1_M
  dsimp only
  exact runM_s18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22
theorem outs1_M_s4 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (outs1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s4 = arg19.view.read (Elt F) (arg19.view.writes (Elt F) (harg19.unread xs19) [(⟨rsl i, k1_pay1 (k1_pay37 (k1_pay25 x0 (k1_pay19 x1 x2) (k1_pay21 x5) (Scalar.ofBits .f32 0x3E4CCCCD#32)) (k1_pay27 x0)) (View.ld xs19 (rsl i))⟩ : View.Piece (Elt F) S8192 .f32)]) :=
  congrArg (fun L => arg19.view.read (Elt F) (arg19.view.writes (Elt F) (harg19.unread xs19) L)) (runM_L19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22)
theorem outs1_M_s5 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (outs1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s5 = arg20.view.read (Elt F) (arg20.view.writes (Elt F) (harg20.unread xs20) [(⟨rsl i, k1_pay2 (k1_pay38 (k1_pay26 x0 (k1_pay20 x1 x2) (k1_pay22 x6)) (k1_pay28 x0)) (View.ld xs20 (rsl i))⟩ : View.Piece (Elt F) S8192 .f32)]) :=
  congrArg (fun L => arg20.view.read (Elt F) (arg20.view.writes (Elt F) (harg20.unread xs20) L)) (runM_L20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22)
theorem outs1_M_s6 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (outs1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s6 = arg21.view.read (Elt F) (arg21.view.writes (Elt F) (harg21.unread xs21) [(⟨rsl i, k1_pay3 (k1_pay39 (k1_pay25 x0 (k1_pay19 x1 x2) (k1_pay21 x5) (Scalar.ofBits .f32 0x3E4CCCCD#32))) (View.ld xs21 (rsl i))⟩ : View.Piece (Elt F) S8192 .f32)]) :=
  congrArg (fun L => arg21.view.read (Elt F) (arg21.view.writes (Elt F) (harg21.unread xs21) L)) (runM_L21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22)
theorem outs1_M_s7 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : ¬cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (outs1_M c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s7 = arg22.view.read (Elt F) (arg22.view.writes (Elt F) (harg22.unread xs22) [(⟨rsl i, k1_pay4 (k1_pay40 (k1_pay26 x0 (k1_pay20 x1 x2) (k1_pay22 x6))) (View.ld xs22 (rsl i))⟩ : View.Piece (Elt F) S8192 .f32)]) :=
  congrArg (fun L => arg22.view.read (Elt F) (arg22.view.writes (Elt F) (harg22.unread xs22) L)) (runM_L22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22)

theorem outs1_D_s0 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (outs1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s0 = k1_pay33 (k1_pay29 x0 (k1_pay23 x0 x1 x2 x3)) xs15 := by
  unfold outs1_D
  dsimp only
  exact runD_s15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22
theorem outs1_D_s1 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (outs1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s1 = k1_pay34 (k1_pay30 x0 (k1_pay24 x0 x1 x2 x4)) xs16 := by
  unfold outs1_D
  dsimp only
  exact runD_s16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22
theorem outs1_D_s2 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (outs1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s2 = k1_pay35 (k1_pay31 (k1_pay23 x0 x1 x2 x3)) xs17 := by
  unfold outs1_D
  dsimp only
  exact runD_s17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22
theorem outs1_D_s3 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (outs1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s3 = k1_pay36 (k1_pay32 (k1_pay24 x0 x1 x2 x4)) xs18 := by
  unfold outs1_D
  dsimp only
  exact runD_s18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22
theorem outs1_D_s4 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (outs1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s4 = arg19.view.read (Elt F) (arg19.view.writes (Elt F) (harg19.unread xs19) [(⟨rsl i, k1_pay1 (k1_pay37 (k1_pay25 x0 (k1_pay19 x1 x2) (k1_pay21 x5) (Scalar.ofBits .f32 0x3E4CCCCD#32)) (k1_pay27 x0)) (View.ld xs19 (rsl i))⟩ : View.Piece (Elt F) S8192 .f32)]) :=
  congrArg (fun L => arg19.view.read (Elt F) (arg19.view.writes (Elt F) (harg19.unread xs19) L)) (runD_L19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22)
theorem outs1_D_s5 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (outs1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s5 = arg20.view.read (Elt F) (arg20.view.writes (Elt F) (harg20.unread xs20) [(⟨rsl i, k1_pay2 (k1_pay38 (k1_pay26 x0 (k1_pay20 x1 x2) (k1_pay22 x6)) (k1_pay28 x0)) (View.ld xs20 (rsl i))⟩ : View.Piece (Elt F) S8192 .f32)]) :=
  congrArg (fun L => arg20.view.read (Elt F) (arg20.view.writes (Elt F) (harg20.unread xs20) L)) (runD_L20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22)
theorem outs1_D_s6 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (outs1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s6 = arg21.view.read (Elt F) (arg21.view.writes (Elt F) (harg21.unread xs21) [(⟨rsl i, k1_pay3 (k1_pay39 (k1_pay25 x0 (k1_pay19 x1 x2) (k1_pay21 x5) (Scalar.ofBits .f32 0x3E4CCCCD#32))) (View.ld xs21 (rsl i))⟩ : View.Piece (Elt F) S8192 .f32)]) :=
  congrArg (fun L => arg21.view.read (Elt F) (arg21.view.writes (Elt F) (harg21.unread xs21) L)) (runD_L21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22)
theorem outs1_D_s7 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (outs1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s7 = arg22.view.read (Elt F) (arg22.view.writes (Elt F) (harg22.unread xs22) [(⟨rsl i, k1_pay4 (k1_pay40 (k1_pay26 x0 (k1_pay20 x1 x2) (k1_pay22 x6))) (View.ld xs22 (rsl i))⟩ : View.Piece (Elt F) S8192 .f32)]) :=
  congrArg (fun L => arg22.view.read (Elt F) (arg22.view.writes (Elt F) (harg22.unread xs22) L)) (runD_L22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22)
theorem outs1_D_o7 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (outs1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).o7 = k1_pay5 (k1_pay33 (k1_pay29 x0 (k1_pay23 x0 x1 x2 x3)) xs15) := by
  unfold outs1_D
  dsimp only
  exact runD_o9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22
theorem outs1_D_o8 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (outs1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).o8 = k1_pay6 (k1_pay34 (k1_pay30 x0 (k1_pay24 x0 x1 x2 x4)) xs16) := by
  unfold outs1_D
  dsimp only
  exact runD_o10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22
theorem outs1_D_o9 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : ¬cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (outs1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).o9 = k1_pay7 (k1_pay35 (k1_pay31 (k1_pay23 x0 x1 x2 x3)) xs17) (k1_pay36 (k1_pay32 (k1_pay24 x0 x1 x2 x4)) xs18) := by
  unfold outs1_D
  dsimp only
  exact runD_o11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22

theorem outs1_E_s0 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s0 = k1_pay33 (k1_pay29 x0 (k1_pay23 x0 x1 x2 x3)) xs15 := by
  unfold outs1_E
  dsimp only
  exact runE_s15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22
theorem outs1_E_s1 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s1 = k1_pay34 (k1_pay30 x0 (k1_pay24 x0 x1 x2 x4)) xs16 := by
  unfold outs1_E
  dsimp only
  exact runE_s16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22
theorem outs1_E_s2 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s2 = k1_pay35 (k1_pay31 (k1_pay23 x0 x1 x2 x3)) xs17 := by
  unfold outs1_E
  dsimp only
  exact runE_s17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22
theorem outs1_E_s3 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s3 = k1_pay36 (k1_pay32 (k1_pay24 x0 x1 x2 x4)) xs18 := by
  unfold outs1_E
  dsimp only
  exact runE_s18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22
theorem outs1_E_s4 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s4 = arg19.view.read (Elt F) (arg19.view.writes (Elt F) (harg19.unread xs19) [(⟨rsl i, k1_pay1 (k1_pay37 (k1_pay25 x0 (k1_pay19 x1 x2) (k1_pay21 x5) (Scalar.ofBits .f32 0x3E4CCCCD#32)) (k1_pay27 x0)) (View.ld xs19 (rsl i))⟩ : View.Piece (Elt F) S8192 .f32)]) :=
  congrArg (fun L => arg19.view.read (Elt F) (arg19.view.writes (Elt F) (harg19.unread xs19) L)) (runE_L19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22)
theorem outs1_E_s5 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s5 = arg20.view.read (Elt F) (arg20.view.writes (Elt F) (harg20.unread xs20) [(⟨rsl i, k1_pay2 (k1_pay38 (k1_pay26 x0 (k1_pay20 x1 x2) (k1_pay22 x6)) (k1_pay28 x0)) (View.ld xs20 (rsl i))⟩ : View.Piece (Elt F) S8192 .f32)]) :=
  congrArg (fun L => arg20.view.read (Elt F) (arg20.view.writes (Elt F) (harg20.unread xs20) L)) (runE_L20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22)
theorem outs1_E_s6 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s6 = arg21.view.read (Elt F) (arg21.view.writes (Elt F) (harg21.unread xs21) [(⟨rsl i, k1_pay3 (k1_pay39 (k1_pay25 x0 (k1_pay19 x1 x2) (k1_pay21 x5) (Scalar.ofBits .f32 0x3E4CCCCD#32))) (View.ld xs21 (rsl i))⟩ : View.Piece (Elt F) S8192 .f32)]) :=
  congrArg (fun L => arg21.view.read (Elt F) (arg21.view.writes (Elt F) (harg21.unread xs21) L)) (runE_L21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22)
theorem outs1_E_s7 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).s7 = arg22.view.read (Elt F) (arg22.view.writes (Elt F) (harg22.unread xs22) [(⟨rsl i, k1_pay4 (k1_pay40 (k1_pay26 x0 (k1_pay20 x1 x2) (k1_pay22 x6))) (View.ld xs22 (rsl i))⟩ : View.Piece (Elt F) S8192 .f32)]) :=
  congrArg (fun L => arg22.view.read (Elt F) (arg22.view.writes (Elt F) (harg22.unread xs22) L)) (runE_L22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22)
theorem outs1_E_o7 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).o7 = k1_pay5 (k1_pay33 (k1_pay29 x0 (k1_pay23 x0 x1 x2 x3)) xs15) := by
  unfold outs1_E
  dsimp only
  exact runE_o9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22
theorem outs1_E_o8 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).o8 = k1_pay6 (k1_pay34 (k1_pay30 x0 (k1_pay24 x0 x1 x2 x4)) xs16) := by
  unfold outs1_E
  dsimp only
  exact runE_o10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22
theorem outs1_E_o9 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).o9 = k1_pay7 (k1_pay35 (k1_pay31 (k1_pay23 x0 x1 x2 x3)) xs17) (k1_pay36 (k1_pay32 (k1_pay24 x0 x1 x2 x4)) xs18) := by
  unfold outs1_E
  dsimp only
  exact runE_o11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22
theorem outs1_E_o10 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).o10 = k1_pay8 (arg19.view.read (Elt F) (arg19.view.writes (Elt F) (harg19.unread xs19) [(⟨rsl i, k1_pay1 (k1_pay37 (k1_pay25 x0 (k1_pay19 x1 x2) (k1_pay21 x5) (Scalar.ofBits .f32 0x3E4CCCCD#32)) (k1_pay27 x0)) (View.ld xs19 (rsl i))⟩ : View.Piece (Elt F) S8192 .f32)])) := by
  unfold outs1_E
  dsimp only
  exact runE_o12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22
theorem outs1_E_o11 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).o11 = k1_pay9 (arg20.view.read (Elt F) (arg20.view.writes (Elt F) (harg20.unread xs20) [(⟨rsl i, k1_pay2 (k1_pay38 (k1_pay26 x0 (k1_pay20 x1 x2) (k1_pay22 x6)) (k1_pay28 x0)) (View.ld xs20 (rsl i))⟩ : View.Piece (Elt F) S8192 .f32)])) := by
  unfold outs1_E
  dsimp only
  exact runE_o13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22
theorem outs1_E_o12 (c : Dev nD) (i : grid1.Coords) (arg2 : Memref sig .tc .vmem S1024x512 .f32) (harg2 : arg2.IsWhole) (arg3 : Memref sig .tc .vmem S1024 .i32) (harg3 : arg3.IsWhole) (arg4 : Memref sig .tc .vmem S512 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512 .f32) (harg7 : arg7.IsWhole) (arg8 : Memref sig .tc .vmem S512 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S8192 .f32) (harg12 : arg12.IsWhole) (arg13 : Memref sig .tc .vmem S8192 .f32) (harg13 : arg13.IsWhole) (arg14 : Memref sig .tc .vmem S8192 .f32) (harg14 : arg14.IsWhole) (arg15 : Memref sig .tc .vmem S1024 .f32) (harg15 : arg15.IsWhole) (arg16 : Memref sig .tc .vmem S1024 .f32) (harg16 : arg16.IsWhole) (arg17 : Memref sig .tc .vmem S1024 .f32) (harg17 : arg17.IsWhole) (arg18 : Memref sig .tc .vmem S1024 .f32) (harg18 : arg18.IsWhole) (arg19 : Memref sig .tc .vmem S8192 .f32) (harg19 : arg19.IsWhole) (arg20 : Memref sig .tc .vmem S8192 .f32) (harg20 : arg20.IsWhole) (arg21 : Memref sig .tc .vmem S8192 .f32) (harg21 : arg21.IsWhole) (arg22 : Memref sig .tc .vmem S8192 .f32) (harg22 : arg22.IsWhole)
    (hc1 : ¬cond1 i) (hc2 : ¬cond2 i) (hc3 : cond3 i) (hc4 : cond4 i)
    (x0 : Vec F S1024x512 .f32) (x1 : Vec F S1024 .i32) (x2 : Vec F S512 .i32) (x3 x4 : Vec F S1024 .f32) (x5 x6 : Vec F S512 .f32) (xs15 xs16 xs17 xs18 : Vec F S1024 .f32) (xs19 xs20 xs21 xs22 : Vec F S8192 .f32) :
    (outs1_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22).o12 = k1_pay10 (arg21.view.read (Elt F) (arg21.view.writes (Elt F) (harg21.unread xs21) [(⟨rsl i, k1_pay3 (k1_pay39 (k1_pay25 x0 (k1_pay19 x1 x2) (k1_pay21 x5) (Scalar.ofBits .f32 0x3E4CCCCD#32))) (View.ld xs21 (rsl i))⟩ : View.Piece (Elt F) S8192 .f32)])) (arg22.view.read (Elt F) (arg22.view.writes (Elt F) (harg22.unread xs22) [(⟨rsl i, k1_pay4 (k1_pay40 (k1_pay26 x0 (k1_pay20 x1 x2) (k1_pay22 x6))) (View.ld xs22 (rsl i))⟩ : View.Piece (Elt F) S8192 .f32)])) := by
  unfold outs1_E
  dsimp only
  exact runE_o14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 hc4 x0 x1 x2 x3 x4 x5 x6 xs15 xs16 xs17 xs18 xs19 xs20 xs21 xs22

end Cert.KernelIdeal.H1

end
-- ==== Proof.R1Arr.lean ====
/-
  The six arrays the second pass leaves, in closed form, given that the four arrays it reads are the first pass's
  results: the rows' two guarded logarithms and validity flag, written back at the last tile of each row block, and the
  columns', written back at the last point.
-/
import proofs.«170005_j69870527971928_1_alg».proof.Proof.R1Ind
import proofs.«170005_j69870527971928_1_alg».proof.Proof.R1Steps
import proofs.«170005_j69870527971928_1_alg».proof.Proof.R1Dat

set_option maxRecDepth 16384

noncomputable section

open scoped BigOperators

namespace Cert.KernelIdeal.H1

open Cert.KernelIdeal Cert.KernelIdeal.Gen Cert.KernelIdeal.Pay1 Cert.Tile Cert.Spec
open Idealize.ShloMosaic Idealize.ShloMosaic.TcCoe Idealize.ShloMosaic.ValueIdx
open Idealize.SL.Sem
open Idealize.ShloMosaic.Pipeline (Dat)

variable (VI : (c : Dev nD) → (b : Ref sig .tc) → Buf (Elt Ideal) ((c : Thread nD τ).loc b)) (c : Dev nD)

/-- The score matrix as the region finds it. -/
abbrev SV1 : Mat := (VI c main_arg0 : S8192x8192.Idx → Elt Ideal .f32)
/-- The label vector as the region finds it. -/
abbrev TV1 : Lab := (VI c main_arg1 : S8192.Idx → Elt Ideal .i32)

/-! ## The equations of the four families, from the case equations and the step forms -/

theorem eqRowsReset (t : Fin cfg1.N) (h0 : t.val % 16 = 0) :
    (outsAt1 VI c t.val t.isLt).s0 = k1_pay33 (F := Ideal) (k1_pay29 (F := Ideal) (iblk1 VI c 0 t) (k1_pay23 (F := Ideal) (iblk1 VI c 0 t) (iblk1 VI c 1 t) (iblk1 VI c 2 t) (iblk1 VI c 3 t))) (k1_pay15 (F := Ideal))
      ∧ (outsAt1 VI c t.val t.isLt).s1 = k1_pay34 (F := Ideal) (k1_pay30 (F := Ideal) (iblk1 VI c 0 t) (k1_pay24 (F := Ideal) (iblk1 VI c 0 t) (iblk1 VI c 1 t) (iblk1 VI c 2 t) (iblk1 VI c 4 t))) (k1_pay16 (F := Ideal))
      ∧ (outsAt1 VI c t.val t.isLt).s2 = k1_pay35 (F := Ideal) (k1_pay31 (F := Ideal) (k1_pay23 (F := Ideal) (iblk1 VI c 0 t) (iblk1 VI c 1 t) (iblk1 VI c 2 t) (iblk1 VI c 3 t))) (k1_pay17 (F := Ideal))
      ∧ (outsAt1 VI c t.val t.isLt).s3 = k1_pay36 (F := Ideal) (k1_pay32 (F := Ideal) (k1_pay24 (F := Ideal) (iblk1 VI c 0 t) (iblk1 VI c 1 t) (iblk1 VI c 2 t) (iblk1 VI c 4 t))) (k1_pay18 (F := Ideal)) := by
  by_cases hz : t.val = 0
  · have hc1 : cond1 (grid1.coords t) := (hcond1 t).mpr hz
    have hc2 : cond2 (grid1.coords t) := (hcond2 t).mpr (by rw [hz])
    have hc3 : ¬cond3 (grid1.coords t) := fun h => by have := (hcond3 t).mp h; omega
    have hc4 : ¬cond4 (grid1.coords t) := fun h => by have := (hcond4 t).mp h; omega
    rw [outsAt1_A VI c t hz hc1 hc2 hc3 hc4]
    exact ⟨outs1_A_s0 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t), outs1_A_s1 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t), outs1_A_s2 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t), outs1_A_s3 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t)⟩
  · have hc1 : ¬cond1 (grid1.coords t) := fun h => hz ((hcond1 t).mp h)
    have hc2 : cond2 (grid1.coords t) := (hcond2 t).mpr h0
    have hc3 : ¬cond3 (grid1.coords t) := fun h => by have := (hcond3 t).mp h; omega
    have hc4 : ¬cond4 (grid1.coords t) := fun h => by have := (hcond4 t).mp h; omega
    rw [outsAt1_B VI c t hz h0 hc1 hc2 hc3 hc4]
    exact ⟨outs1_B_s0 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7, outs1_B_s1 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7, outs1_B_s2 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7, outs1_B_s3 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7⟩

theorem eqRowsNext (t : Fin cfg1.N) (h0 : t.val % 16 ≠ 0) :
    (outsAt1 VI c t.val t.isLt).s0 = k1_pay33 (F := Ideal) (k1_pay29 (F := Ideal) (iblk1 VI c 0 t) (k1_pay23 (F := Ideal) (iblk1 VI c 0 t) (iblk1 VI c 1 t) (iblk1 VI c 2 t) (iblk1 VI c 3 t))) ((outsAt1 VI c (t.val - 1) (Nat.lt_of_le_of_lt (Nat.sub_le _ _) t.isLt)).s0)
      ∧ (outsAt1 VI c t.val t.isLt).s1 = k1_pay34 (F := Ideal) (k1_pay30 (F := Ideal) (iblk1 VI c 0 t) (k1_pay24 (F := Ideal) (iblk1 VI c 0 t) (iblk1 VI c 1 t) (iblk1 VI c 2 t) (iblk1 VI c 4 t))) ((outsAt1 VI c (t.val - 1) (Nat.lt_of_le_of_lt (Nat.sub_le _ _) t.isLt)).s1)
      ∧ (outsAt1 VI c t.val t.isLt).s2 = k1_pay35 (F := Ideal) (k1_pay31 (F := Ideal) (k1_pay23 (F := Ideal) (iblk1 VI c 0 t) (iblk1 VI c 1 t) (iblk1 VI c 2 t) (iblk1 VI c 3 t))) ((outsAt1 VI c (t.val - 1) (Nat.lt_of_le_of_lt (Nat.sub_le _ _) t.isLt)).s2)
      ∧ (outsAt1 VI c t.val t.isLt).s3 = k1_pay36 (F := Ideal) (k1_pay32 (F := Ideal) (k1_pay24 (F := Ideal) (iblk1 VI c 0 t) (iblk1 VI c 1 t) (iblk1 VI c 2 t) (iblk1 VI c 4 t))) ((outsAt1 VI c (t.val - 1) (Nat.lt_of_le_of_lt (Nat.sub_le _ _) t.isLt)).s3) := by
  by_cases h15 : t.val % 16 = 15
  · by_cases hl : t.val = 127
    · have hc1 : ¬cond1 (grid1.coords t) := fun h => by have := (hcond1 t).mp h; omega
      have hc2 : ¬cond2 (grid1.coords t) := fun h => h0 ((hcond2 t).mp h)
      have hc3 : cond3 (grid1.coords t) := (hcond3 t).mpr h15
      have hc4 : cond4 (grid1.coords t) := (hcond4 t).mpr hl
      rw [outsAt1_E VI c t h0 h15 hl hc1 hc2 hc3 hc4]
      exact ⟨outs1_E_s0 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7, outs1_E_s1 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7, outs1_E_s2 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7, outs1_E_s3 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7⟩
    · have hc1 : ¬cond1 (grid1.coords t) := fun h => by have := (hcond1 t).mp h; omega
      have hc2 : ¬cond2 (grid1.coords t) := fun h => h0 ((hcond2 t).mp h)
      have hc3 : cond3 (grid1.coords t) := (hcond3 t).mpr h15
      have hc4 : ¬cond4 (grid1.coords t) := fun h => hl ((hcond4 t).mp h)
      rw [outsAt1_D VI c t h0 h15 hl hc1 hc2 hc3 hc4]
      exact ⟨outs1_D_s0 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7, outs1_D_s1 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7, outs1_D_s2 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7, outs1_D_s3 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7⟩
  · have hc1 : ¬cond1 (grid1.coords t) := fun h => by have := (hcond1 t).mp h; omega
    have hc2 : ¬cond2 (grid1.coords t) := fun h => h0 ((hcond2 t).mp h)
    have hc3 : ¬cond3 (grid1.coords t) := fun h => h15 ((hcond3 t).mp h)
    have hc4 : ¬cond4 (grid1.coords t) := fun h => by have := (hcond4 t).mp h; omega
    rw [outsAt1_M VI c t h0 h15 hc1 hc2 hc3 hc4]
    exact ⟨outs1_M_s0 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7, outs1_M_s1 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7, outs1_M_s2 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7, outs1_M_s3 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7⟩

theorem eqColsFirst (t : Fin cfg1.N) (hz : t.val = 0) :
    (outsAt1 VI c t.val t.isLt).s4 = View.canon [(⟨(rsl (grid1.coords t)), k1_pay1 (F := Ideal) (k1_pay37 (F := Ideal) (k1_pay25 (F := Ideal) (iblk1 VI c 0 t) (k1_pay19 (F := Ideal) (iblk1 VI c 1 t) (iblk1 VI c 2 t)) (k1_pay21 (F := Ideal) (iblk1 VI c 5 t)) (Ideal.ofBits .f32 0x3E4CCCCD#32)) (k1_pay27 (F := Ideal) (iblk1 VI c 0 t))) (View.ld (k1_pay11 (F := Ideal)) (rsl (grid1.coords t)))⟩ : View.Piece (Elt Ideal) S8192 .f32), ⟨r8192, k1_pay11 (F := Ideal)⟩]
      ∧ (outsAt1 VI c t.val t.isLt).s5 = View.canon [(⟨(rsl (grid1.coords t)), k1_pay2 (F := Ideal) (k1_pay38 (F := Ideal) (k1_pay26 (F := Ideal) (iblk1 VI c 0 t) (k1_pay20 (F := Ideal) (iblk1 VI c 1 t) (iblk1 VI c 2 t)) (k1_pay22 (F := Ideal) (iblk1 VI c 6 t))) (k1_pay28 (F := Ideal) (iblk1 VI c 0 t))) (View.ld (k1_pay12 (F := Ideal)) (rsl (grid1.coords t)))⟩ : View.Piece (Elt Ideal) S8192 .f32), ⟨r8192, k1_pay12 (F := Ideal)⟩]
      ∧ (outsAt1 VI c t.val t.isLt).s6 = View.canon [(⟨(rsl (grid1.coords t)), k1_pay3 (F := Ideal) (k1_pay39 (F := Ideal) (k1_pay25 (F := Ideal) (iblk1 VI c 0 t) (k1_pay19 (F := Ideal) (iblk1 VI c 1 t) (iblk1 VI c 2 t)) (k1_pay21 (F := Ideal) (iblk1 VI c 5 t)) (Ideal.ofBits .f32 0x3E4CCCCD#32))) (View.ld (k1_pay13 (F := Ideal)) (rsl (grid1.coords t)))⟩ : View.Piece (Elt Ideal) S8192 .f32), ⟨r8192, k1_pay13 (F := Ideal)⟩]
      ∧ (outsAt1 VI c t.val t.isLt).s7 = View.canon [(⟨(rsl (grid1.coords t)), k1_pay4 (F := Ideal) (k1_pay40 (F := Ideal) (k1_pay26 (F := Ideal) (iblk1 VI c 0 t) (k1_pay20 (F := Ideal) (iblk1 VI c 1 t) (iblk1 VI c 2 t)) (k1_pay22 (F := Ideal) (iblk1 VI c 6 t)))) (View.ld (k1_pay14 (F := Ideal)) (rsl (grid1.coords t)))⟩ : View.Piece (Elt Ideal) S8192 .f32), ⟨r8192, k1_pay14 (F := Ideal)⟩] := by
  have hc1 : cond1 (grid1.coords t) := (hcond1 t).mpr hz
  have hc2 : cond2 (grid1.coords t) := (hcond2 t).mpr (by rw [hz])
  have hc3 : ¬cond3 (grid1.coords t) := fun h => by have := (hcond3 t).mp h; omega
  have hc4 : ¬cond4 (grid1.coords t) := fun h => by have := (hcond4 t).mp h; omega
  rw [outsAt1_A VI c t hz hc1 hc2 hc3 hc4]
  exact ⟨outs1_A_s4 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t), outs1_A_s5 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t), outs1_A_s6 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t), outs1_A_s7 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t)⟩

theorem eqColsNext (t : Fin cfg1.N) (hz : t.val ≠ 0) :
    (outsAt1 VI c t.val t.isLt).s4 = scM4.view.read (Elt Ideal) (scM4.view.writes (Elt Ideal) ((Memref.isWhole_whole _ : scM4.IsWhole).unread ((outsAt1 VI c (t.val - 1) (Nat.lt_of_le_of_lt (Nat.sub_le _ _) t.isLt)).s4)) [(⟨(rsl (grid1.coords t)), k1_pay1 (F := Ideal) (k1_pay37 (F := Ideal) (k1_pay25 (F := Ideal) (iblk1 VI c 0 t) (k1_pay19 (F := Ideal) (iblk1 VI c 1 t) (iblk1 VI c 2 t)) (k1_pay21 (F := Ideal) (iblk1 VI c 5 t)) (Ideal.ofBits .f32 0x3E4CCCCD#32)) (k1_pay27 (F := Ideal) (iblk1 VI c 0 t))) (View.ld ((outsAt1 VI c (t.val - 1) (Nat.lt_of_le_of_lt (Nat.sub_le _ _) t.isLt)).s4) (rsl (grid1.coords t)))⟩ : View.Piece (Elt Ideal) S8192 .f32)])
      ∧ (outsAt1 VI c t.val t.isLt).s5 = scM5.view.read (Elt Ideal) (scM5.view.writes (Elt Ideal) ((Memref.isWhole_whole _ : scM5.IsWhole).unread ((outsAt1 VI c (t.val - 1) (Nat.lt_of_le_of_lt (Nat.sub_le _ _) t.isLt)).s5)) [(⟨(rsl (grid1.coords t)), k1_pay2 (F := Ideal) (k1_pay38 (F := Ideal) (k1_pay26 (F := Ideal) (iblk1 VI c 0 t) (k1_pay20 (F := Ideal) (iblk1 VI c 1 t) (iblk1 VI c 2 t)) (k1_pay22 (F := Ideal) (iblk1 VI c 6 t))) (k1_pay28 (F := Ideal) (iblk1 VI c 0 t))) (View.ld ((outsAt1 VI c (t.val - 1) (Nat.lt_of_le_of_lt (Nat.sub_le _ _) t.isLt)).s5) (rsl (grid1.coords t)))⟩ : View.Piece (Elt Ideal) S8192 .f32)])
      ∧ (outsAt1 VI c t.val t.isLt).s6 = scM6.view.read (Elt Ideal) (scM6.view.writes (Elt Ideal) ((Memref.isWhole_whole _ : scM6.IsWhole).unread ((outsAt1 VI c (t.val - 1) (Nat.lt_of_le_of_lt (Nat.sub_le _ _) t.isLt)).s6)) [(⟨(rsl (grid1.coords t)), k1_pay3 (F := Ideal) (k1_pay39 (F := Ideal) (k1_pay25 (F := Ideal) (iblk1 VI c 0 t) (k1_pay19 (F := Ideal) (iblk1 VI c 1 t) (iblk1 VI c 2 t)) (k1_pay21 (F := Ideal) (iblk1 VI c 5 t)) (Ideal.ofBits .f32 0x3E4CCCCD#32))) (View.ld ((outsAt1 VI c (t.val - 1) (Nat.lt_of_le_of_lt (Nat.sub_le _ _) t.isLt)).s6) (rsl (grid1.coords t)))⟩ : View.Piece (Elt Ideal) S8192 .f32)])
      ∧ (outsAt1 VI c t.val t.isLt).s7 = scM7.view.read (Elt Ideal) (scM7.view.writes (Elt Ideal) ((Memref.isWhole_whole _ : scM7.IsWhole).unread ((outsAt1 VI c (t.val - 1) (Nat.lt_of_le_of_lt (Nat.sub_le _ _) t.isLt)).s7)) [(⟨(rsl (grid1.coords t)), k1_pay4 (F := Ideal) (k1_pay40 (F := Ideal) (k1_pay26 (F := Ideal) (iblk1 VI c 0 t) (k1_pay20 (F := Ideal) (iblk1 VI c 1 t) (iblk1 VI c 2 t)) (k1_pay22 (F := Ideal) (iblk1 VI c 6 t)))) (View.ld ((outsAt1 VI c (t.val - 1) (Nat.lt_of_le_of_lt (Nat.sub_le _ _) t.isLt)).s7) (rsl (grid1.coords t)))⟩ : View.Piece (Elt Ideal) S8192 .f32)]) := by
  by_cases h0 : t.val % 16 = 0
  · have hc1 : ¬cond1 (grid1.coords t) := fun h => hz ((hcond1 t).mp h)
    have hc2 : cond2 (grid1.coords t) := (hcond2 t).mpr h0
    have hc3 : ¬cond3 (grid1.coords t) := fun h => by have := (hcond3 t).mp h; omega
    have hc4 : ¬cond4 (grid1.coords t) := fun h => by have := (hcond4 t).mp h; omega
    rw [outsAt1_B VI c t hz h0 hc1 hc2 hc3 hc4]
    exact ⟨outs1_B_s4 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7, outs1_B_s5 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7, outs1_B_s6 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7, outs1_B_s7 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7⟩
  · by_cases h15 : t.val % 16 = 15
    · by_cases hl : t.val = 127
      · have hc1 : ¬cond1 (grid1.coords t) := fun h => by have := (hcond1 t).mp h; omega
        have hc2 : ¬cond2 (grid1.coords t) := fun h => h0 ((hcond2 t).mp h)
        have hc3 : cond3 (grid1.coords t) := (hcond3 t).mpr h15
        have hc4 : cond4 (grid1.coords t) := (hcond4 t).mpr hl
        rw [outsAt1_E VI c t h0 h15 hl hc1 hc2 hc3 hc4]
        exact ⟨outs1_E_s4 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7, outs1_E_s5 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7, outs1_E_s6 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7, outs1_E_s7 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7⟩
      · have hc1 : ¬cond1 (grid1.coords t) := fun h => by have := (hcond1 t).mp h; omega
        have hc2 : ¬cond2 (grid1.coords t) := fun h => h0 ((hcond2 t).mp h)
        have hc3 : cond3 (grid1.coords t) := (hcond3 t).mpr h15
        have hc4 : ¬cond4 (grid1.coords t) := fun h => hl ((hcond4 t).mp h)
        rw [outsAt1_D VI c t h0 h15 hl hc1 hc2 hc3 hc4]
        exact ⟨outs1_D_s4 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7, outs1_D_s5 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7, outs1_D_s6 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7, outs1_D_s7 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7⟩
    · have hc1 : ¬cond1 (grid1.coords t) := fun h => by have := (hcond1 t).mp h; omega
      have hc2 : ¬cond2 (grid1.coords t) := fun h => h0 ((hcond2 t).mp h)
      have hc3 : ¬cond3 (grid1.coords t) := fun h => h15 ((hcond3 t).mp h)
      have hc4 : ¬cond4 (grid1.coords t) := fun h => by have := (hcond4 t).mp h; omega
      rw [outsAt1_M VI c t h0 h15 hc1 hc2 hc3 hc4]
      exact ⟨outs1_M_s4 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7, outs1_M_s5 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7, outs1_M_s6 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7, outs1_M_s7 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7⟩

/-! ## The result windows at the flushing points are the finalisers of the accumulators -/

theorem o7_eq (t : Fin cfg1.N) (h15 : t.val % 16 = 15) : (outsAt1 VI c t.val t.isLt).o7 = k1_pay5 (F := Ideal) (outsAt1 VI c t.val t.isLt).s0 := by
  have h0 : ¬t.val % 16 = 0 := by omega
  by_cases hl : t.val = 127
  · have hc1 : ¬cond1 (grid1.coords t) := fun h => by have := (hcond1 t).mp h; omega
    have hc2 : ¬cond2 (grid1.coords t) := fun h => h0 ((hcond2 t).mp h)
    have hc3 : cond3 (grid1.coords t) := (hcond3 t).mpr h15
    have hc4 : cond4 (grid1.coords t) := (hcond4 t).mpr hl
    rw [outsAt1_E VI c t h0 h15 hl hc1 hc2 hc3 hc4]
    exact (outs1_E_o7 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7).trans (congrArg (k1_pay5 (F := Ideal)) (outs1_E_s0 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7).symm)
  · have hc1 : ¬cond1 (grid1.coords t) := fun h => by have := (hcond1 t).mp h; omega
    have hc2 : ¬cond2 (grid1.coords t) := fun h => h0 ((hcond2 t).mp h)
    have hc3 : cond3 (grid1.coords t) := (hcond3 t).mpr h15
    have hc4 : ¬cond4 (grid1.coords t) := fun h => hl ((hcond4 t).mp h)
    rw [outsAt1_D VI c t h0 h15 hl hc1 hc2 hc3 hc4]
    exact (outs1_D_o7 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7).trans (congrArg (k1_pay5 (F := Ideal)) (outs1_D_s0 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7).symm)
theorem o8_eq (t : Fin cfg1.N) (h15 : t.val % 16 = 15) : (outsAt1 VI c t.val t.isLt).o8 = k1_pay6 (F := Ideal) (outsAt1 VI c t.val t.isLt).s1 := by
  have h0 : ¬t.val % 16 = 0 := by omega
  by_cases hl : t.val = 127
  · have hc1 : ¬cond1 (grid1.coords t) := fun h => by have := (hcond1 t).mp h; omega
    have hc2 : ¬cond2 (grid1.coords t) := fun h => h0 ((hcond2 t).mp h)
    have hc3 : cond3 (grid1.coords t) := (hcond3 t).mpr h15
    have hc4 : cond4 (grid1.coords t) := (hcond4 t).mpr hl
    rw [outsAt1_E VI c t h0 h15 hl hc1 hc2 hc3 hc4]
    exact (outs1_E_o8 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7).trans (congrArg (k1_pay6 (F := Ideal)) (outs1_E_s1 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7).symm)
  · have hc1 : ¬cond1 (grid1.coords t) := fun h => by have := (hcond1 t).mp h; omega
    have hc2 : ¬cond2 (grid1.coords t) := fun h => h0 ((hcond2 t).mp h)
    have hc3 : cond3 (grid1.coords t) := (hcond3 t).mpr h15
    have hc4 : ¬cond4 (grid1.coords t) := fun h => hl ((hcond4 t).mp h)
    rw [outsAt1_D VI c t h0 h15 hl hc1 hc2 hc3 hc4]
    exact (outs1_D_o8 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7).trans (congrArg (k1_pay6 (F := Ideal)) (outs1_D_s1 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7).symm)
theorem o9_eq (t : Fin cfg1.N) (h15 : t.val % 16 = 15) : (outsAt1 VI c t.val t.isLt).o9 = k1_pay7 (F := Ideal) (outsAt1 VI c t.val t.isLt).s2 (outsAt1 VI c t.val t.isLt).s3 := by
  have h0 : ¬t.val % 16 = 0 := by omega
  by_cases hl : t.val = 127
  · have hc1 : ¬cond1 (grid1.coords t) := fun h => by have := (hcond1 t).mp h; omega
    have hc2 : ¬cond2 (grid1.coords t) := fun h => h0 ((hcond2 t).mp h)
    have hc3 : cond3 (grid1.coords t) := (hcond3 t).mpr h15
    have hc4 : cond4 (grid1.coords t) := (hcond4 t).mpr hl
    rw [outsAt1_E VI c t h0 h15 hl hc1 hc2 hc3 hc4]
    exact (outs1_E_o9 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7).trans (congrArg₂ (k1_pay7 (F := Ideal)) (outs1_E_s2 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7).symm (outs1_E_s3 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7).symm)
  · have hc1 : ¬cond1 (grid1.coords t) := fun h => by have := (hcond1 t).mp h; omega
    have hc2 : ¬cond2 (grid1.coords t) := fun h => h0 ((hcond2 t).mp h)
    have hc3 : cond3 (grid1.coords t) := (hcond3 t).mpr h15
    have hc4 : ¬cond4 (grid1.coords t) := fun h => hl ((hcond4 t).mp h)
    rw [outsAt1_D VI c t h0 h15 hl hc1 hc2 hc3 hc4]
    exact (outs1_D_o9 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7).trans (congrArg₂ (k1_pay7 (F := Ideal)) (outs1_D_s2 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7).symm (outs1_D_s3 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7).symm)

theorem o10_eq (t : Fin cfg1.N) (hl : t.val = 127) : (outsAt1 VI c t.val t.isLt).o10 = k1_pay8 (F := Ideal) (outsAt1 VI c t.val t.isLt).s4 := by
  have h0 : ¬t.val % 16 = 0 := by omega
  have h15 : t.val % 16 = 15 := by omega
  have hc1 : ¬cond1 (grid1.coords t) := fun h => by have := (hcond1 t).mp h; omega
  have hc2 : ¬cond2 (grid1.coords t) := fun h => h0 ((hcond2 t).mp h)
  have hc3 : cond3 (grid1.coords t) := (hcond3 t).mpr h15
  have hc4 : cond4 (grid1.coords t) := (hcond4 t).mpr hl
  rw [outsAt1_E VI c t h0 h15 hl hc1 hc2 hc3 hc4]
  exact (outs1_E_o10 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7).trans (congrArg (k1_pay8 (F := Ideal)) (outs1_E_s4 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7).symm)
theorem o11_eq (t : Fin cfg1.N) (hl : t.val = 127) : (outsAt1 VI c t.val t.isLt).o11 = k1_pay9 (F := Ideal) (outsAt1 VI c t.val t.isLt).s5 := by
  have h0 : ¬t.val % 16 = 0 := by omega
  have h15 : t.val % 16 = 15 := by omega
  have hc1 : ¬cond1 (grid1.coords t) := fun h => by have := (hcond1 t).mp h; omega
  have hc2 : ¬cond2 (grid1.coords t) := fun h => h0 ((hcond2 t).mp h)
  have hc3 : cond3 (grid1.coords t) := (hcond3 t).mpr h15
  have hc4 : cond4 (grid1.coords t) := (hcond4 t).mpr hl
  rw [outsAt1_E VI c t h0 h15 hl hc1 hc2 hc3 hc4]
  exact (outs1_E_o11 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7).trans (congrArg (k1_pay9 (F := Ideal)) (outs1_E_s5 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7).symm)
theorem o12_eq (t : Fin cfg1.N) (hl : t.val = 127) : (outsAt1 VI c t.val t.isLt).o12 = k1_pay10 (F := Ideal) (outsAt1 VI c t.val t.isLt).s6 (outsAt1 VI c t.val t.isLt).s7 := by
  have h0 : ¬t.val % 16 = 0 := by omega
  have h15 : t.val % 16 = 15 := by omega
  have hc1 : ¬cond1 (grid1.coords t) := fun h => by have := (hcond1 t).mp h; omega
  have hc2 : ¬cond2 (grid1.coords t) := fun h => h0 ((hcond2 t).mp h)
  have hc3 : cond3 (grid1.coords t) := (hcond3 t).mpr h15
  have hc4 : cond4 (grid1.coords t) := (hcond4 t).mpr hl
  rw [outsAt1_E VI c t h0 h15 hl hc1 hc2 hc3 hc4]
  exact (outs1_E_o12 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7).trans (congrArg₂ (k1_pay10 (F := Ideal)) (outs1_E_s6 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7).symm (outs1_E_s7 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) hc1 hc2 hc3 hc4 (iblk1 VI c 0 t) (iblk1 VI c 1 t) (iblk1 VI c 2 t) (iblk1 VI c 3 t) (iblk1 VI c 4 t) (iblk1 VI c 5 t) (iblk1 VI c 6 t) (outsAt1 VI c (t.val - 1) (Nat.lt_of_le_of_lt (Nat.sub_le _ _) t.isLt)).s0 (outsAt1 VI c (t.val - 1) (Nat.lt_of_le_of_lt (Nat.sub_le _ _) t.isLt)).s1 (outsAt1 VI c (t.val - 1) (Nat.lt_of_le_of_lt (Nat.sub_le _ _) t.isLt)).s2 (outsAt1 VI c (t.val - 1) (Nat.lt_of_le_of_lt (Nat.sub_le _ _) t.isLt)).s3 (outsAt1 VI c (t.val - 1) (Nat.lt_of_le_of_lt (Nat.sub_le _ _) t.isLt)).s4 (outsAt1 VI c (t.val - 1) (Nat.lt_of_le_of_lt (Nat.sub_le _ _) t.isLt)).s5 (outsAt1 VI c (t.val - 1) (Nat.lt_of_le_of_lt (Nat.sub_le _ _) t.isLt)).s6 (outsAt1 VI c (t.val - 1) (Nat.lt_of_le_of_lt (Nat.sub_le _ _) t.isLt)).s7).symm)

/-! ## The invariant, instantiated -/

section WithFirstPass
variable (H3 : ∀ r : Fin 8192, (VI c main_v0_0 : S8192.Idx → Elt Ideal .f32) (ix1 r) = maxAnRow (SV1 VI c) (TV1 VI c) r)
  (H4 : ∀ r : Fin 8192, (VI c main_v0_1 : S8192.Idx → Elt Ideal .f32) (ix1 r) = minApRow (SV1 VI c) (TV1 VI c) r)
  (H5 : ∀ k : Fin 8192, (VI c main_v0_2 : S8192.Idx → Elt Ideal .f32) (ix1 k) = maxAnCol (SV1 VI c) (TV1 VI c) k)
  (H6 : ∀ k : Fin 8192, (VI c main_v0_3 : S8192.Idx → Elt Ideal .f32) (ix1 k) = minApCol (SV1 VI c) (TV1 VI c) k)

theorem hW0 (t : Fin cfg1.N) (p : Fin 1024) (q : Fin 512) :
    (iblk1 VI c 0 t : Vec Ideal S1024x512 .f32) (ix2 p q) = SV1 VI c (ix2 (rowIx (rowBlk t) p) (colIx (colBlk t) q)) := tile0 VI c t p q
theorem hW1 (t : Fin cfg1.N) (p : Fin 1024) :
    (iblk1 VI c 1 t : Vec Ideal S1024 .i32) (ix1 p) = TV1 VI c (ix1 (rowIx (rowBlk t) p)) := tile1 VI c t p
theorem hW2 (t : Fin cfg1.N) (q : Fin 512) :
    (iblk1 VI c 2 t : Vec Ideal S512 .i32) (ix1 q) = TV1 VI c (ix1 (colIx (colBlk t) q)) := tile2 VI c t q
include H3 in
theorem hW3 (t : Fin cfg1.N) (p : Fin 1024) :
    (iblk1 VI c 3 t : Vec Ideal S1024 .f32) (ix1 p) = maxAnRow (SV1 VI c) (TV1 VI c) (rowIx (rowBlk t) p) := (tile3 VI c t p).trans (H3 _)
include H4 in
theorem hW4 (t : Fin cfg1.N) (p : Fin 1024) :
    (iblk1 VI c 4 t : Vec Ideal S1024 .f32) (ix1 p) = minApRow (SV1 VI c) (TV1 VI c) (rowIx (rowBlk t) p) := (tile4 VI c t p).trans (H4 _)
include H5 in
theorem hW5 (t : Fin cfg1.N) (q : Fin 512) :
    (iblk1 VI c 5 t : Vec Ideal S512 .f32) (ix1 q) = maxAnCol (SV1 VI c) (TV1 VI c) (colIx (colBlk t) q) := (tile5 VI c t q).trans (H5 _)
include H6 in
theorem hW6 (t : Fin cfg1.N) (q : Fin 512) :
    (iblk1 VI c 6 t : Vec Ideal S512 .f32) (ix1 q) = minApCol (SV1 VI c) (TV1 VI c) (colIx (colBlk t) q) := (tile6 VI c t q).trans (H6 _)

include H3 H4 H5 H6 in
/-- The accumulators after every point, in closed form. -/
theorem inv1 (t : Fin cfg1.N) :
    RowInv (SV1 VI c) (TV1 VI c) t (outsAt1 VI c t.val t.isLt).s0 (outsAt1 VI c t.val t.isLt).s1 (outsAt1 VI c t.val t.isLt).s2 (outsAt1 VI c t.val t.isLt).s3 ∧ ColInv (SV1 VI c) (TV1 VI c) (t.val + 1) (outsAt1 VI c t.val t.isLt).s4 (outsAt1 VI c t.val t.isLt).s5 (outsAt1 VI c t.val t.isLt).s6 (outsAt1 VI c t.val t.isLt).s7 :=
  inv1_all (SV1 VI c) (TV1 VI c) (fun t : Fin cfg1.N => (outsAt1 VI c t.val t.isLt).s0) (fun t : Fin cfg1.N => (outsAt1 VI c t.val t.isLt).s1) (fun t : Fin cfg1.N => (outsAt1 VI c t.val t.isLt).s2) (fun t : Fin cfg1.N => (outsAt1 VI c t.val t.isLt).s3) (fun t : Fin cfg1.N => (outsAt1 VI c t.val t.isLt).s4) (fun t : Fin cfg1.N => (outsAt1 VI c t.val t.isLt).s5) (fun t : Fin cfg1.N => (outsAt1 VI c t.val t.isLt).s6) (fun t : Fin cfg1.N => (outsAt1 VI c t.val t.isLt).s7)
    (fun t : Fin cfg1.N => (iblk1 VI c 0 t : Vec Ideal S1024x512 .f32)) (fun t : Fin cfg1.N => (iblk1 VI c 1 t : Vec Ideal S1024 .i32)) (fun t : Fin cfg1.N => (iblk1 VI c 2 t : Vec Ideal S512 .i32)) (fun t : Fin cfg1.N => (iblk1 VI c 3 t : Vec Ideal S1024 .f32)) (fun t : Fin cfg1.N => (iblk1 VI c 4 t : Vec Ideal S1024 .f32)) (fun t : Fin cfg1.N => (iblk1 VI c 5 t : Vec Ideal S512 .f32)) (fun t : Fin cfg1.N => (iblk1 VI c 6 t : Vec Ideal S512 .f32))
    (hW0 VI c) (hW1 VI c) (hW2 VI c) (hW3 VI c H3) (hW4 VI c H4) (hW5 VI c H5) (hW6 VI c H6)
    scM4 scM5 scM6 scM7 (Memref.isWhole_whole _) (Memref.isWhole_whole _) (Memref.isWhole_whole _) (Memref.isWhole_whole _)
    (eqRowsReset VI c) (eqRowsNext VI c) (eqColsFirst VI c) (eqColsNext VI c) t.val t.isLt

/-! ## The six arrays -/

def G7 : S8192.Idx → EReal := fun i => safeLog (posRow (SV1 VI c) (TV1 VI c) (i 0))
def G8 : S8192.Idx → EReal := fun i => safeLog (negRow (SV1 VI c) (TV1 VI c) (i 0))
def G9 : S8192.Idx → EReal := fun i => ind (Ideal.ofBits .f32 0x3F000000#32 < ind (∃ c', apRow (SV1 VI c) (TV1 VI c) (i 0) c') ∧ Ideal.ofBits .f32 0x3F000000#32 < ind (∃ c', anRow (SV1 VI c) (TV1 VI c) (i 0) c'))
def G10 : S8192.Idx → EReal := fun i => safeLog (posCol (SV1 VI c) (TV1 VI c) (i 0))
def G11 : S8192.Idx → EReal := fun i => safeLog (negCol (SV1 VI c) (TV1 VI c) (i 0))
def G12 : S8192.Idx → EReal := fun i => ind (Ideal.ofBits .f32 0x3F000000#32 < ind (∃ r, apCol (SV1 VI c) (TV1 VI c) r (i 0)) ∧ Ideal.ofBits .f32 0x3F000000#32 < ind (∃ r, anCol (SV1 VI c) (TV1 VI c) r (i 0)))

omit H3 H4 H5 H6 in
theorem G10_congr (i i' : S8192.Idx) (h : (i 0).val = (i' 0).val) : G10 VI c i = G10 VI c i' := by
  unfold G10; rw [show i 0 = i' 0 from Fin.ext h]
omit H3 H4 H5 H6 in
theorem G11_congr (i i' : S8192.Idx) (h : (i 0).val = (i' 0).val) : G11 VI c i = G11 VI c i' := by
  unfold G11; rw [show i 0 = i' 0 from Fin.ext h]
omit H3 H4 H5 H6 in
theorem G12_congr (i i' : S8192.Idx) (h : (i 0).val = (i' 0).val) : G12 VI c i = G12 VI c i' := by
  unfold G12; rw [show i 0 = i' 0 from Fin.ext h]

include H3 H4 H5 H6 in
theorem o7_fun (t : Fin cfg1.N) (h15 : t.val % 16 = 15) :
    (outsAt1 VI c t.val t.isLt).o7 = fun i : S1024.Idx => safeLog (posRow (SV1 VI c) (TV1 VI c) (rowIx (rowBlk t) (i 0))) :=
  funext fun i => by
    obtain ⟨p, rfl⟩ : ∃ p : Fin 1024, i = ix1 p := ⟨i 0, eq_ix1 i⟩
    rw [o7_eq VI c t h15]
    exact (row_final (SV1 VI c) (TV1 VI c) t h15 _ _ _ _ (inv1 VI c H3 H4 H5 H6 t).1 p).1
include H3 H4 H5 H6 in
theorem o8_fun (t : Fin cfg1.N) (h15 : t.val % 16 = 15) :
    (outsAt1 VI c t.val t.isLt).o8 = fun i : S1024.Idx => safeLog (negRow (SV1 VI c) (TV1 VI c) (rowIx (rowBlk t) (i 0))) :=
  funext fun i => by
    obtain ⟨p, rfl⟩ : ∃ p : Fin 1024, i = ix1 p := ⟨i 0, eq_ix1 i⟩
    rw [o8_eq VI c t h15]
    exact (row_final (SV1 VI c) (TV1 VI c) t h15 _ _ _ _ (inv1 VI c H3 H4 H5 H6 t).1 p).2.1
include H3 H4 H5 H6 in
theorem o9_fun (t : Fin cfg1.N) (h15 : t.val % 16 = 15) :
    (outsAt1 VI c t.val t.isLt).o9 = fun i : S1024.Idx => ind (Ideal.ofBits .f32 0x3F000000#32 < ind (∃ c', apRow (SV1 VI c) (TV1 VI c) (rowIx (rowBlk t) (i 0)) c') ∧ Ideal.ofBits .f32 0x3F000000#32 < ind (∃ c', anRow (SV1 VI c) (TV1 VI c) (rowIx (rowBlk t) (i 0)) c')) :=
  funext fun i => by
    obtain ⟨p, rfl⟩ : ∃ p : Fin 1024, i = ix1 p := ⟨i 0, eq_ix1 i⟩
    have hr := (inv1 VI c H3 H4 H5 H6 t).1
    rw [o9_eq VI c t h15, pay7_apply, hr.r2 p, hr.r3 p, h15, row_last_flagP, row_last_flagN]

include H3 H4 H5 H6 in
theorem o10_fun (t : Fin cfg1.N) (hl : t.val = 127) :
    (outsAt1 VI c t.val t.isLt).o10 = fun i : S8192.Idx => safeLog (posCol (SV1 VI c) (TV1 VI c) (i 0)) :=
  funext fun i => by
    have e : i = ix1 (colIx (colEquiv.symm (i 0)).1 (colEquiv.symm (i 0)).2) := by
      rw [show colIx (colEquiv.symm (i 0)).1 (colEquiv.symm (i 0)).2 = i 0 from colEquiv.apply_symm_apply (i 0)]
      exact eq_ix1 i
    have hc := (inv1 VI c H3 H4 H5 H6 t).2
    rw [show t.val + 1 = 127 + 1 from by rw [hl]] at hc
    rw [o10_eq VI c t hl, e]
    exact ((col_final (SV1 VI c) (TV1 VI c) _ _ _ _ hc _ _).1).trans (by rw [show colIx (colEquiv.symm (i 0)).1 (colEquiv.symm (i 0)).2 = i 0 from colEquiv.apply_symm_apply (i 0)])
include H3 H4 H5 H6 in
theorem o11_fun (t : Fin cfg1.N) (hl : t.val = 127) :
    (outsAt1 VI c t.val t.isLt).o11 = fun i : S8192.Idx => safeLog (negCol (SV1 VI c) (TV1 VI c) (i 0)) :=
  funext fun i => by
    have e : i = ix1 (colIx (colEquiv.symm (i 0)).1 (colEquiv.symm (i 0)).2) := by
      rw [show colIx (colEquiv.symm (i 0)).1 (colEquiv.symm (i 0)).2 = i 0 from colEquiv.apply_symm_apply (i 0)]
      exact eq_ix1 i
    have hc := (inv1 VI c H3 H4 H5 H6 t).2
    rw [show t.val + 1 = 127 + 1 from by rw [hl]] at hc
    rw [o11_eq VI c t hl, e]
    exact ((col_final (SV1 VI c) (TV1 VI c) _ _ _ _ hc _ _).2.1).trans (by rw [show colIx (colEquiv.symm (i 0)).1 (colEquiv.symm (i 0)).2 = i 0 from colEquiv.apply_symm_apply (i 0)])
include H3 H4 H5 H6 in
theorem o12_fun (t : Fin cfg1.N) (hl : t.val = 127) :
    (outsAt1 VI c t.val t.isLt).o12 = fun i : S8192.Idx => ind (Ideal.ofBits .f32 0x3F000000#32 < ind (∃ r, apCol (SV1 VI c) (TV1 VI c) r (i 0)) ∧ Ideal.ofBits .f32 0x3F000000#32 < ind (∃ r, anCol (SV1 VI c) (TV1 VI c) r (i 0))) :=
  funext fun i => by
    have e : i = ix1 (colIx (colEquiv.symm (i 0)).1 (colEquiv.symm (i 0)).2) := by
      rw [show colIx (colEquiv.symm (i 0)).1 (colEquiv.symm (i 0)).2 = i 0 from colEquiv.apply_symm_apply (i 0)]
      exact eq_ix1 i
    have hc := (inv1 VI c H3 H4 H5 H6 t).2
    rw [show t.val + 1 = 127 + 1 from by rw [hl]] at hc
    rw [o12_eq VI c t hl, e, pay10_apply, hc.c6, hc.c7, col_last_flagP, col_last_flagN,
      show colIx (colEquiv.symm (i 0)).1 (colEquiv.symm (i 0)).2 = i 0 from colEquiv.apply_symm_apply (i 0)]

theorem idx1_7 : ∀ t : Fin cfg1.N, win1_7.index t (0 : Fin 1) = t.val / 16 :=
  (by decide +kernel : ∀ t : Fin grid1.N, win1_7.index t (0 : Fin 1) = t.val / 16)
theorem idx1_8 : ∀ t : Fin cfg1.N, win1_8.index t (0 : Fin 1) = t.val / 16 :=
  (by decide +kernel : ∀ t : Fin grid1.N, win1_8.index t (0 : Fin 1) = t.val / 16)
theorem idx1_9 : ∀ t : Fin cfg1.N, win1_9.index t (0 : Fin 1) = t.val / 16 :=
  (by decide +kernel : ∀ t : Fin grid1.N, win1_9.index t (0 : Fin 1) = t.val / 16)
theorem idx1_10 : ∀ t : Fin cfg1.N, win1_10.index t (0 : Fin 1) = 0 :=
  (by decide +kernel : ∀ t : Fin grid1.N, win1_10.index t (0 : Fin 1) = 0)
theorem idx1_11 : ∀ t : Fin cfg1.N, win1_11.index t (0 : Fin 1) = 0 :=
  (by decide +kernel : ∀ t : Fin grid1.N, win1_11.index t (0 : Fin 1) = 0)
theorem idx1_12 : ∀ t : Fin cfg1.N, win1_12.index t (0 : Fin 1) = 0 :=
  (by decide +kernel : ∀ t : Fin grid1.N, win1_12.index t (0 : Fin 1) = 0)

include H3 H4 H5 H6 in
theorem flushed1_7 (t : Fin cfg1.N) (hf : (cfg1.win 7).flush t = true) :
    (dat1 VI c).flushed 7 t = ((cfg1.win 7).blk t).view.read (Elt Ideal) (G7 VI c) := by
  have h15 : t.val % 16 = 15 := (flush1_7 t).1 hf
  show (cfg1.win 7).cut (grid1.coords t) ((dat1 VI c).after 7 t) = _
  rw [after1_7, o7_fun VI c H3 H4 H5 H6 t h15]
  funext j
  rw [View.read_apply]
  show safeLog (posRow (SV1 VI c) (TV1 VI c) (rowIx (rowBlk t) (j 0))) = G7 VI c (((cfg1.win 7).blk t).view.emb j)
  have e : rowIx (rowBlk t) (j 0) = (((cfg1.win 7).blk t).view.emb j) 0 := Fin.ext (by
    show 1024 * (t.val / 16) + (j 0).val = win1_7.index t 0 * 1024 + 1 * (j 0).val
    rw [idx1_7 t]; omega)
  rw [e]
  rfl

theorem mem_blk1_7 (t : Fin cfg1.N) (i : S8192.Idx) :
    i ∈ ((cfg1.win 7).blk t).view.set ↔ ∀ a : Fin 1, win1_7.index t a * S1024.size a ≤ (i a).val ∧ (i a).val < win1_7.index t a * S1024.size a + S1024.size a := by
  show i ∈ ((View.whole main_v1_0).slice (win1_7.rect t)).set ↔ _
  rw [View.set_slice_whole, Rect.mem_set_unit]
  exact Iff.rfl

theorem cover1_7 (i : S8192.Idx) : ∃ t : Fin cfg1.N, (cfg1.win 7).flush t = true ∧ i ∈ ((cfg1.win 7).blk t).view.set := by
  have hi : (i 0).val < 8192 := (i 0).isLt
  refine ⟨⟨16 * ((i 0).val / 1024) + 15, by rw [show cfg1.N = 128 from N_1]; omega⟩, (flush1_7 _).2 (by show (16 * ((i 0).val / 1024) + 15) % 16 = 15; omega), ?_⟩
  rw [mem_blk1_7]
  intro a
  obtain rfl : a = 0 := Subsingleton.elim _ _
  rw [idx1_7]
  show (16 * ((i 0).val / 1024) + 15) / 16 * 1024 ≤ (i 0).val ∧ (i 0).val < (16 * ((i 0).val / 1024) + 15) / 16 * 1024 + 1024
  omega

include H3 H4 H5 H6 in
theorem arr1_7 : (dat1 VI c).arrAt 7 cfg1.N = G7 VI c :=
  (dat1 VI c).arrAt_eq_of_cover 7 (G7 VI c) (fun t hf => flushed1_7 VI c H3 H4 H5 H6 t hf) cover1_7

include H3 H4 H5 H6 in
theorem flushed1_8 (t : Fin cfg1.N) (hf : (cfg1.win 8).flush t = true) :
    (dat1 VI c).flushed 8 t = ((cfg1.win 8).blk t).view.read (Elt Ideal) (G8 VI c) := by
  have h15 : t.val % 16 = 15 := (flush1_8 t).1 hf
  show (cfg1.win 8).cut (grid1.coords t) ((dat1 VI c).after 8 t) = _
  rw [after1_8, o8_fun VI c H3 H4 H5 H6 t h15]
  funext j
  rw [View.read_apply]
  show safeLog (negRow (SV1 VI c) (TV1 VI c) (rowIx (rowBlk t) (j 0))) = G8 VI c (((cfg1.win 8).blk t).view.emb j)
  have e : rowIx (rowBlk t) (j 0) = (((cfg1.win 8).blk t).view.emb j) 0 := Fin.ext (by
    show 1024 * (t.val / 16) + (j 0).val = win1_8.index t 0 * 1024 + 1 * (j 0).val
    rw [idx1_8 t]; omega)
  rw [e]
  rfl

theorem mem_blk1_8 (t : Fin cfg1.N) (i : S8192.Idx) :
    i ∈ ((cfg1.win 8).blk t).view.set ↔ ∀ a : Fin 1, win1_8.index t a * S1024.size a ≤ (i a).val ∧ (i a).val < win1_8.index t a * S1024.size a + S1024.size a := by
  show i ∈ ((View.whole main_v1_1).slice (win1_8.rect t)).set ↔ _
  rw [View.set_slice_whole, Rect.mem_set_unit]
  exact Iff.rfl

theorem cover1_8 (i : S8192.Idx) : ∃ t : Fin cfg1.N, (cfg1.win 8).flush t = true ∧ i ∈ ((cfg1.win 8).blk t).view.set := by
  have hi : (i 0).val < 8192 := (i 0).isLt
  refine ⟨⟨16 * ((i 0).val / 1024) + 15, by rw [show cfg1.N = 128 from N_1]; omega⟩, (flush1_8 _).2 (by show (16 * ((i 0).val / 1024) + 15) % 16 = 15; omega), ?_⟩
  rw [mem_blk1_8]
  intro a
  obtain rfl : a = 0 := Subsingleton.elim _ _
  rw [idx1_8]
  show (16 * ((i 0).val / 1024) + 15) / 16 * 1024 ≤ (i 0).val ∧ (i 0).val < (16 * ((i 0).val / 1024) + 15) / 16 * 1024 + 1024
  omega

include H3 H4 H5 H6 in
theorem arr1_8 : (dat1 VI c).arrAt 8 cfg1.N = G8 VI c :=
  (dat1 VI c).arrAt_eq_of_cover 8 (G8 VI c) (fun t hf => flushed1_8 VI c H3 H4 H5 H6 t hf) cover1_8

include H3 H4 H5 H6 in
theorem flushed1_9 (t : Fin cfg1.N) (hf : (cfg1.win 9).flush t = true) :
    (dat1 VI c).flushed 9 t = ((cfg1.win 9).blk t).view.read (Elt Ideal) (G9 VI c) := by
  have h15 : t.val % 16 = 15 := (flush1_9 t).1 hf
  show (cfg1.win 9).cut (grid1.coords t) ((dat1 VI c).after 9 t) = _
  rw [after1_9, o9_fun VI c H3 H4 H5 H6 t h15]
  funext j
  rw [View.read_apply]
  show ind (Ideal.ofBits .f32 0x3F000000#32 < ind (∃ c', apRow (SV1 VI c) (TV1 VI c) (rowIx (rowBlk t) (j 0)) c') ∧ Ideal.ofBits .f32 0x3F000000#32 < ind (∃ c', anRow (SV1 VI c) (TV1 VI c) (rowIx (rowBlk t) (j 0)) c')) = G9 VI c (((cfg1.win 9).blk t).view.emb j)
  have e : rowIx (rowBlk t) (j 0) = (((cfg1.win 9).blk t).view.emb j) 0 := Fin.ext (by
    show 1024 * (t.val / 16) + (j 0).val = win1_9.index t 0 * 1024 + 1 * (j 0).val
    rw [idx1_9 t]; omega)
  rw [e]
  rfl

theorem mem_blk1_9 (t : Fin cfg1.N) (i : S8192.Idx) :
    i ∈ ((cfg1.win 9).blk t).view.set ↔ ∀ a : Fin 1, win1_9.index t a * S1024.size a ≤ (i a).val ∧ (i a).val < win1_9.index t a * S1024.size a + S1024.size a := by
  show i ∈ ((View.whole main_v1_2).slice (win1_9.rect t)).set ↔ _
  rw [View.set_slice_whole, Rect.mem_set_unit]
  exact Iff.rfl

theorem cover1_9 (i : S8192.Idx) : ∃ t : Fin cfg1.N, (cfg1.win 9).flush t = true ∧ i ∈ ((cfg1.win 9).blk t).view.set := by
  have hi : (i 0).val < 8192 := (i 0).isLt
  refine ⟨⟨16 * ((i 0).val / 1024) + 15, by rw [show cfg1.N = 128 from N_1]; omega⟩, (flush1_9 _).2 (by show (16 * ((i 0).val / 1024) + 15) % 16 = 15; omega), ?_⟩
  rw [mem_blk1_9]
  intro a
  obtain rfl : a = 0 := Subsingleton.elim _ _
  rw [idx1_9]
  show (16 * ((i 0).val / 1024) + 15) / 16 * 1024 ≤ (i 0).val ∧ (i 0).val < (16 * ((i 0).val / 1024) + 15) / 16 * 1024 + 1024
  omega

include H3 H4 H5 H6 in
theorem arr1_9 : (dat1 VI c).arrAt 9 cfg1.N = G9 VI c :=
  (dat1 VI c).arrAt_eq_of_cover 9 (G9 VI c) (fun t hf => flushed1_9 VI c H3 H4 H5 H6 t hf) cover1_9

include H3 H4 H5 H6 in
theorem flushed1_10 (t : Fin cfg1.N) (hf : (cfg1.win 10).flush t = true) :
    (dat1 VI c).flushed 10 t = ((cfg1.win 10).blk t).view.read (Elt Ideal) (G10 VI c) := by
  have hl : t.val = 127 := by have := (flush1_10 t).1 hf; have := lt_of_lt_of_eq t.isLt N_1; omega
  show (cfg1.win 10).cut (grid1.coords t) ((dat1 VI c).after 10 t) = _
  rw [after1_10, o10_fun VI c H3 H4 H5 H6 t hl]
  funext j
  rw [View.read_apply]
  show G10 VI c j = G10 VI c (((cfg1.win 10).blk t).view.emb j)
  exact G10_congr VI c _ _ (by show (j 0).val = win1_10.index t 0 * 8192 + 1 * (j 0).val; rw [idx1_10 t]; omega)

theorem mem_blk1_10 (t : Fin cfg1.N) (i : S8192.Idx) :
    i ∈ ((cfg1.win 10).blk t).view.set ↔ ∀ a : Fin 1, win1_10.index t a * S8192.size a ≤ (i a).val ∧ (i a).val < win1_10.index t a * S8192.size a + S8192.size a := by
  show i ∈ ((View.whole main_v1_3).slice (win1_10.rect t)).set ↔ _
  rw [View.set_slice_whole, Rect.mem_set_unit]
  exact Iff.rfl

theorem cover1_10 (i : S8192.Idx) : ∃ t : Fin cfg1.N, (cfg1.win 10).flush t = true ∧ i ∈ ((cfg1.win 10).blk t).view.set := by
  have hi : (i 0).val < 8192 := (i 0).isLt
  refine ⟨⟨127, by rw [show cfg1.N = 128 from N_1]; omega⟩, (flush1_10 _).2 (by show (127 : ℕ) % 128 = 127; decide), ?_⟩
  rw [mem_blk1_10]
  intro a
  obtain rfl : a = 0 := Subsingleton.elim _ _
  rw [idx1_10]
  show 0 * 8192 ≤ (i 0).val ∧ (i 0).val < 0 * 8192 + 8192
  omega

include H3 H4 H5 H6 in
theorem arr1_10 : (dat1 VI c).arrAt 10 cfg1.N = G10 VI c :=
  (dat1 VI c).arrAt_eq_of_cover 10 (G10 VI c) (fun t hf => flushed1_10 VI c H3 H4 H5 H6 t hf) cover1_10

include H3 H4 H5 H6 in
theorem flushed1_11 (t : Fin cfg1.N) (hf : (cfg1.win 11).flush t = true) :
    (dat1 VI c).flushed 11 t = ((cfg1.win 11).blk t).view.read (Elt Ideal) (G11 VI c) := by
  have hl : t.val = 127 := by have := (flush1_11 t).1 hf; have := lt_of_lt_of_eq t.isLt N_1; omega
  show (cfg1.win 11).cut (grid1.coords t) ((dat1 VI c).after 11 t) = _
  rw [after1_11, o11_fun VI c H3 H4 H5 H6 t hl]
  funext j
  rw [View.read_apply]
  show G11 VI c j = G11 VI c (((cfg1.win 11).blk t).view.emb j)
  exact G11_congr VI c _ _ (by show (j 0).val = win1_11.index t 0 * 8192 + 1 * (j 0).val; rw [idx1_11 t]; omega)

theorem mem_blk1_11 (t : Fin cfg1.N) (i : S8192.Idx) :
    i ∈ ((cfg1.win 11).blk t).view.set ↔ ∀ a : Fin 1, win1_11.index t a * S8192.size a ≤ (i a).val ∧ (i a).val < win1_11.index t a * S8192.size a + S8192.size a := by
  show i ∈ ((View.whole main_v1_4).slice (win1_11.rect t)).set ↔ _
  rw [View.set_slice_whole, Rect.mem_set_unit]
  exact Iff.rfl

theorem cover1_11 (i : S8192.Idx) : ∃ t : Fin cfg1.N, (cfg1.win 11).flush t = true ∧ i ∈ ((cfg1.win 11).blk t).view.set := by
  have hi : (i 0).val < 8192 := (i 0).isLt
  refine ⟨⟨127, by rw [show cfg1.N = 128 from N_1]; omega⟩, (flush1_11 _).2 (by show (127 : ℕ) % 128 = 127; decide), ?_⟩
  rw [mem_blk1_11]
  intro a
  obtain rfl : a = 0 := Subsingleton.elim _ _
  rw [idx1_11]
  show 0 * 8192 ≤ (i 0).val ∧ (i 0).val < 0 * 8192 + 8192
  omega

include H3 H4 H5 H6 in
theorem arr1_11 : (dat1 VI c).arrAt 11 cfg1.N = G11 VI c :=
  (dat1 VI c).arrAt_eq_of_cover 11 (G11 VI c) (fun t hf => flushed1_11 VI c H3 H4 H5 H6 t hf) cover1_11

include H3 H4 H5 H6 in
theorem flushed1_12 (t : Fin cfg1.N) (hf : (cfg1.win 12).flush t = true) :
    (dat1 VI c).flushed 12 t = ((cfg1.win 12).blk t).view.read (Elt Ideal) (G12 VI c) := by
  have hl : t.val = 127 := by have := (flush1_12 t).1 hf; have := lt_of_lt_of_eq t.isLt N_1; omega
  show (cfg1.win 12).cut (grid1.coords t) ((dat1 VI c).after 12 t) = _
  rw [after1_12, o12_fun VI c H3 H4 H5 H6 t hl]
  funext j
  rw [View.read_apply]
  show G12 VI c j = G12 VI c (((cfg1.win 12).blk t).view.emb j)
  exact G12_congr VI c _ _ (by show (j 0).val = win1_12.index t 0 * 8192 + 1 * (j 0).val; rw [idx1_12 t]; omega)

theorem mem_blk1_12 (t : Fin cfg1.N) (i : S8192.Idx) :
    i ∈ ((cfg1.win 12).blk t).view.set ↔ ∀ a : Fin 1, win1_12.index t a * S8192.size a ≤ (i a).val ∧ (i a).val < win1_12.index t a * S8192.size a + S8192.size a := by
  show i ∈ ((View.whole main_v1_5).slice (win1_12.rect t)).set ↔ _
  rw [View.set_slice_whole, Rect.mem_set_unit]
  exact Iff.rfl

theorem cover1_12 (i : S8192.Idx) : ∃ t : Fin cfg1.N, (cfg1.win 12).flush t = true ∧ i ∈ ((cfg1.win 12).blk t).view.set := by
  have hi : (i 0).val < 8192 := (i 0).isLt
  refine ⟨⟨127, by rw [show cfg1.N = 128 from N_1]; omega⟩, (flush1_12 _).2 (by show (127 : ℕ) % 128 = 127; decide), ?_⟩
  rw [mem_blk1_12]
  intro a
  obtain rfl : a = 0 := Subsingleton.elim _ _
  rw [idx1_12]
  show 0 * 8192 ≤ (i 0).val ∧ (i 0).val < 0 * 8192 + 8192
  omega

include H3 H4 H5 H6 in
theorem arr1_12 : (dat1 VI c).arrAt 12 cfg1.N = G12 VI c :=
  (dat1 VI c).arrAt_eq_of_cover 12 (G12 VI c) (fun t hf => flushed1_12 VI c H3 H4 H5 H6 t hf) cover1_12

/-! ## The six arrays, entry by entry -/

include H3 H4 H5 H6 in
theorem final1_7 (k : Fin 8192) :
    ((dat1 VI c).arrAt 7 cfg1.N : S8192.Idx → Elt Ideal .f32) (ix1 k) = safeLog (posRow (SV1 VI c) (TV1 VI c) k) := by
  rw [arr1_7 VI c H3 H4 H5 H6]; rfl
include H3 H4 H5 H6 in
theorem final1_8 (k : Fin 8192) :
    ((dat1 VI c).arrAt 8 cfg1.N : S8192.Idx → Elt Ideal .f32) (ix1 k) = safeLog (negRow (SV1 VI c) (TV1 VI c) k) := by
  rw [arr1_8 VI c H3 H4 H5 H6]; rfl
include H3 H4 H5 H6 in
theorem final1_9 (k : Fin 8192) :
    Ideal.ofBits .f32 0x3F000000#32 < ((dat1 VI c).arrAt 9 cfg1.N : S8192.Idx → Elt Ideal .f32) (ix1 k)
      ↔ (∃ c', apRow (SV1 VI c) (TV1 VI c) k c') ∧ ∃ c', anRow (SV1 VI c) (TV1 VI c) k c' := by
  rw [arr1_9 VI c H3 H4 H5 H6]; exact half_lt_both _ _
include H3 H4 H5 H6 in
theorem final1_10 (k : Fin 8192) :
    ((dat1 VI c).arrAt 10 cfg1.N : S8192.Idx → Elt Ideal .f32) (ix1 k) = safeLog (posCol (SV1 VI c) (TV1 VI c) k) := by
  rw [arr1_10 VI c H3 H4 H5 H6]; rfl
include H3 H4 H5 H6 in
theorem final1_11 (k : Fin 8192) :
    ((dat1 VI c).arrAt 11 cfg1.N : S8192.Idx → Elt Ideal .f32) (ix1 k) = safeLog (negCol (SV1 VI c) (TV1 VI c) k) := by
  rw [arr1_11 VI c H3 H4 H5 H6]; rfl
include H3 H4 H5 H6 in
theorem final1_12 (k : Fin 8192) :
    Ideal.ofBits .f32 0x3F000000#32 < ((dat1 VI c).arrAt 12 cfg1.N : S8192.Idx → Elt Ideal .f32) (ix1 k)
      ↔ (∃ r, apCol (SV1 VI c) (TV1 VI c) r k) ∧ ∃ r, anCol (SV1 VI c) (TV1 VI c) r k := by
  rw [arr1_12 VI c H3 H4 H5 H6]; exact half_lt_both _ _

end WithFirstPass

end Cert.KernelIdeal.H1

end
-- ==== Proof.Final.lean ====
/-
  The kernel's result scalar is the loss of its arguments: the last boundary valuation's contents at the result are the
  host operations after the second pass applied to the six arrays that pass leaves; when those six arrays hold, index by
  index, the logarithms of the row and column exp-sums and the two validity flags, that is the specification's loss.
-/
import proofs.«170005_j69870527971928_1_alg».proof.Proof.AsmInst
import proofs.«170005_j69870527971928_1_alg».proof.Proof.HostTail
import proofs.«170005_j69870527971928_1_alg».proof.Proof.R0Arr
import proofs.«170005_j69870527971928_1_alg».proof.Proof.R1Arr

noncomputable section

namespace Cert.KernelIdeal.Final

open Cert.KernelIdeal Cert.KernelIdeal.Gen Cert.KernelIdeal.Asm Cert.Spec
open Idealize.ShloMosaic Idealize.ShloMosaic.TcCoe Idealize.ShloMosaic.ValueIdx Idealize.SL.Sem

variable (m : (ℓ : Loc nD τ sig) → Buf (Elt Ideal) ℓ) (c : Dev nD)

/-- The score matrix and the labels the kernel was launched on. -/
abbrev Sm : Mat := m ((c.tc : Thread nD τ).loc main_arg0)
abbrev Tm : Lab := m ((c.tc : Thread nD τ).loc main_arg1)

/-- The six arrays the second pass leaves. -/
abbrev o (r : Ref sig .tc) : Buf (Elt Ideal) ((c : Thread nD τ).loc r) := outs2 (H0.dat0 (F := Ideal)) (H1.dat1 (F := Ideal)) m r c

/-- The result scalar from the six arrays: the host operations after the second pass, then the specification's algebra. -/
theorem kernel_value_of
    (h0 : ∀ k : Fin 8192, o m c main_v1_0 (ix1 k) = safeLog (posRow (Sm m c) (Tm m c) k))
    (h1 : ∀ k : Fin 8192, o m c main_v1_1 (ix1 k) = safeLog (negRow (Sm m c) (Tm m c) k))
    (h2 : ∀ k : Fin 8192, Ideal.ofBits .f32 0x3F000000#32 < o m c main_v1_2 (ix1 k)
        ↔ (∃ c', apRow (Sm m c) (Tm m c) k c') ∧ ∃ c', anRow (Sm m c) (Tm m c) k c')
    (h3 : ∀ k : Fin 8192, o m c main_v1_3 (ix1 k) = safeLog (posCol (Sm m c) (Tm m c) k))
    (h4 : ∀ k : Fin 8192, o m c main_v1_4 (ix1 k) = safeLog (negCol (Sm m c) (Tm m c) k))
    (h5 : ∀ k : Fin 8192, Ideal.ofBits .f32 0x3F000000#32 < o m c main_v1_5 (ix1 k)
        ↔ (∃ r, apCol (Sm m c) (Tm m c) r k) ∧ ∃ r, anCol (Sm m c) (Tm m c) r k) :
    Gen.V5 m (outs0 m) c (Proc.devRef .tc main_v12) = G (Sm m c) (Tm m c) := by
  have e := Tail.tail_eq (Gen.V2 m (outs (H0.dat0 (F := Ideal)) (H1.dat1 (F := Ideal)) m) c)
  rw [V2_v1_0, V2_v1_1, V2_v1_2, V2_v1_3, V2_v1_4, V2_v1_5] at e
  exact e.trans (tailFn_eq_G (Sm m c) (Tm m c) _ _ _ _ _ _ h0 h1 h2 h3 h4 h5)

/-! ## The six arrays, from the two passes' closed forms -/

section Compose

open Cert.KernelIdeal.H0 (final0_3 final0_4 final0_5 final0_6)

/-- The contents the second region is entered with: the launch memory with pass 1's four results in place. -/
abbrev VI : Vt Ideal := E1 (H0.dat0 (F := Ideal)) m

theorem VI_arg0 : VI m c main_arg0 = m ((c.tc : Thread nD τ).loc main_arg0) :=
  outs1_of (H0.dat0 (F := Ideal)) m c main_arg0 (by decide)
theorem VI_arg1 : VI m c main_arg1 = m ((c.tc : Thread nD τ).loc main_arg1) :=
  outs1_of (H0.dat0 (F := Ideal)) m c main_arg1 (by decide)

/-- Pass 2 is entered with pass 1's results: the row maxima, -/
theorem VI_v0_0 (r : Fin 8192) : (VI m c main_v0_0 : S8192.Idx → Elt Ideal .f32) (ix1 r) = maxAnRow (Sm m c) (Tm m c) r := by
  show outs1 (H0.dat0 (F := Ideal)) m main_v0_0 c (ix1 r) = _
  rw [outs1_v0_0, final0_3]; rfl
/-- the row minima, -/
theorem VI_v0_1 (r : Fin 8192) : (VI m c main_v0_1 : S8192.Idx → Elt Ideal .f32) (ix1 r) = minApRow (Sm m c) (Tm m c) r := by
  show outs1 (H0.dat0 (F := Ideal)) m main_v0_1 c (ix1 r) = _
  rw [outs1_v0_1, final0_4]; rfl
/-- the column maxima -/
theorem VI_v0_2 (k : Fin 8192) : (VI m c main_v0_2 : S8192.Idx → Elt Ideal .f32) (ix1 k) = maxAnCol (Sm m c) (Tm m c) k := by
  show outs1 (H0.dat0 (F := Ideal)) m main_v0_2 c (ix1 k) = _
  rw [outs1_v0_2, final0_5]; rfl
/-- and the column minima. -/
theorem VI_v0_3 (k : Fin 8192) : (VI m c main_v0_3 : S8192.Idx → Elt Ideal .f32) (ix1 k) = minApCol (Sm m c) (Tm m c) k := by
  show outs1 (H0.dat0 (F := Ideal)) m main_v0_3 c (ix1 k) = _
  rw [outs1_v0_3, final0_6]; rfl

end Compose

/-! ## The result scalar -/

/-- THE KERNEL'S VALUE: the result scalar the run ends with is the specification's loss of the launch arguments — pass 1's
    four arrays are the row and column extrema, so pass 2, entered with them, leaves the logarithms of the row and column
    exp-sums and the validity flags, and the host operations after it make the loss of them. -/
theorem kernel_value : Gen.V5 m (outs0 m) c (Proc.devRef .tc main_v12) = G (Sm m c) (Tm m c) := by
  have hS : H1.SV1 (VI m) c = Sm m c := VI_arg0 m c
  have hT : H1.TV1 (VI m) c = Tm m c := VI_arg1 m c
  have H3 : ∀ r : Fin 8192, (VI m c main_v0_0 : S8192.Idx → Elt Ideal .f32) (ix1 r) = maxAnRow (H1.SV1 (VI m) c) (H1.TV1 (VI m) c) r :=
    fun r => by rw [hS, hT]; exact VI_v0_0 m c r
  have H4 : ∀ r : Fin 8192, (VI m c main_v0_1 : S8192.Idx → Elt Ideal .f32) (ix1 r) = minApRow (H1.SV1 (VI m) c) (H1.TV1 (VI m) c) r :=
    fun r => by rw [hS, hT]; exact VI_v0_1 m c r
  have H5 : ∀ k : Fin 8192, (VI m c main_v0_2 : S8192.Idx → Elt Ideal .f32) (ix1 k) = maxAnCol (H1.SV1 (VI m) c) (H1.TV1 (VI m) c) k :=
    fun k => by rw [hS, hT]; exact VI_v0_2 m c k
  have H6 : ∀ k : Fin 8192, (VI m c main_v0_3 : S8192.Idx → Elt Ideal .f32) (ix1 k) = minApCol (H1.SV1 (VI m) c) (H1.TV1 (VI m) c) k :=
    fun k => by rw [hS, hT]; exact VI_v0_3 m c k
  refine kernel_value_of m c (fun k => ?_) (fun k => ?_) (fun k => ?_) (fun k => ?_) (fun k => ?_) (fun k => ?_)
  · have h := H1.final1_7 (VI m) c H3 H4 H5 H6 k
    rw [hS, hT, ← outs2_v1_0 (H0.dat0 (F := Ideal)) (H1.dat1 (F := Ideal)) m c] at h
    exact h
  · have h := H1.final1_8 (VI m) c H3 H4 H5 H6 k
    rw [hS, hT, ← outs2_v1_1 (H0.dat0 (F := Ideal)) (H1.dat1 (F := Ideal)) m c] at h
    exact h
  · have h := H1.final1_9 (VI m) c H3 H4 H5 H6 k
    rw [hS, hT, ← outs2_v1_2 (H0.dat0 (F := Ideal)) (H1.dat1 (F := Ideal)) m c] at h
    exact h
  · have h := H1.final1_10 (VI m) c H3 H4 H5 H6 k
    rw [hS, hT, ← outs2_v1_3 (H0.dat0 (F := Ideal)) (H1.dat1 (F := Ideal)) m c] at h
    exact h
  · have h := H1.final1_11 (VI m) c H3 H4 H5 H6 k
    rw [hS, hT, ← outs2_v1_4 (H0.dat0 (F := Ideal)) (H1.dat1 (F := Ideal)) m c] at h
    exact h
  · have h := H1.final1_12 (VI m) c H3 H4 H5 H6 k
    rw [hS, hT, ← outs2_v1_5 (H0.dat0 (F := Ideal)) (H1.dat1 (F := Ideal)) m c] at h
    exact h

end Cert.KernelIdeal.Final

end
-- ==== Proof.lean ====
/-
  The kernel computes a margin loss of an 8192 x 8192 score matrix and 8192 labels in two passes over an 8 x 16 grid of
  1024 x 512 tiles. Pass 1 finds, for every row and for every column, the largest score among entries with a different
  label and the smallest among entries with the same label, keeping a row block's running maximum / minimum over its 16
  tiles and every column block's over the 8 row blocks that visit it. Pass 2 sums, per row and per column, the
  exponential terms of the entries the thresholds admit, carries "some entry was admitted" as a 0/1 value, and stores
  the logarithms and the flags; the host adds, selects by the flags and averages. The reference computes the same
  quantities with whole-row and whole-column reductions. The two agree on the extended reals because a maximum, a minimum
  and a sum over a row (a column) are the maximum, minimum and sum of the tiles' partial results in any order: only
  associativity and commutativity are used, so no finiteness is needed.
  Both kernel programs run as two pipelined regions followed by host operations; each region's proof data carries the
  accumulators from one grid point to the next, and the label array, which two windows of each region stage, is held in
  two halves while a region runs. The frames and the run read at the result scalar come from that; the result's value is
  the host operations after pass 2 applied to the six arrays pass 2 leaves.
-/
import proofs.«170005_j69870527971928_1_alg».proof.Defs
import proofs.«170005_j69870527971928_1_alg».proof.Proof.Gen.Kernel
import proofs.«170005_j69870527971928_1_alg».proof.Proof.Gen.Kernel.Skeleton
import proofs.«170005_j69870527971928_1_alg».proof.Proof.Gen.Kernel.Launch
import proofs.«170005_j69870527971928_1_alg».proof.Proof.Gen.Kernel.Regions
import proofs.«170005_j69870527971928_1_alg».proof.Proof.Gen.Kernel.Points
import proofs.«170005_j69870527971928_1_alg».proof.Proof.Gen.KernelIdeal
import proofs.«170005_j69870527971928_1_alg».proof.Proof.Gen.KernelIdeal.Skeleton
import proofs.«170005_j69870527971928_1_alg».proof.Proof.Gen.KernelIdeal.Launch
import proofs.«170005_j69870527971928_1_alg».proof.Proof.Gen.KernelIdeal.Regions
import proofs.«170005_j69870527971928_1_alg».proof.Proof.Gen.KernelIdeal.Points
import proofs.«170005_j69870527971928_1_alg».proof.Proof.Gen.ReferenceIdeal
import proofs.«170005_j69870527971928_1_alg».proof.Proof.Gen.Pre_finite_inputs
import proofs.«170005_j69870527971928_1_alg».proof.Proof.Gen.ReferenceIdeal.Run
import proofs.«170005_j69870527971928_1_alg».proof.Proof.Gen.ReferenceIdeal.Read
import Idealize.ShloMosaic.Adequacy
import Idealize.ShloMosaic.Init
import proofs.«170005_j69870527971928_1_alg».proof.Proof.AsmInst
import proofs.«170005_j69870527971928_1_alg».proof.Proof.KAsmInst
import proofs.«170005_j69870527971928_1_alg».proof.Proof.RefSpec
import proofs.«170005_j69870527971928_1_alg».proof.Proof.Final

noncomputable section

namespace Cert.Proof

open Idealize.ShloMosaic Idealize.ShloMosaic.TcCoe Idealize.ShloMosaic.ValueIdx Idealize.SL.Sem

theorem claim : Cert.Claim := ⟨Cert.Kernel.Gen.facts, Cert.KernelIdeal.Gen.facts, Cert.ReferenceIdeal.Gen.facts, Cert.Pre_finite_inputs.Gen.facts,
  -- the word-level kernel runs and leaves its arguments as launched
  fun m ρ _ => Cert.Kernel.Asm.frame (F := Bits) m ρ,
  -- so does the kernel read at the extended reals
  fun m ρ _ => Cert.KernelIdeal.Asm.frame (F := Ideal) m ρ,
  -- the reference's frame is its run with the result dropped
  fun m ρ _ => (θ_run Cert.ReferenceIdeal.defs _ _).mono (fun _ h c => (h c).2) (Cert.ReferenceIdeal.Value.run (F := Ideal) m ρ),
  trivial,
  by
    intro m ρ m' ρ' _ hagree
    refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
    · exact (θ_run _ _ _).mono (fun r h c => ⟨((h c).1).trans (Cert.KernelIdeal.Final.kernel_value m c), (h c).2⟩)
        (Cert.KernelIdeal.Asm.run_value (F := Ideal) m ρ)
    · exact (θ_run Cert.ReferenceIdeal.defs _ _).mono
        (fun _ h c => ⟨by rw [(h c).1, Cert.ReferenceIdeal.RefValue.res_eq, (hagree c).1, (hagree c).2], (h c).2⟩)
        (Cert.ReferenceIdeal.Value.run (F := Ideal) m' ρ')⟩

end Cert.Proof

end
